-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x32 : Shape := ⟨2, ![1024, 32]⟩
abbrev S32x1024 : Shape := ⟨2, ![32, 1024]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S32x1024 : S_.BroadcastsInDim S32x1024 (![] : Fin 0 → Fin S32x1024.rank)
  reducesTo_S32x1024_S_d0_1 : S32x1024.ReducesTo [0, 1] S_

variable [Facts]

def fn {F : FTy → Type} [FloatOps F] (main_arg0 : FVec F S1024x32 .f32) (main_arg1 : FVec F S32x1024 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  main_v8
-- ==== Pre_finite_inputs_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) (main_arg1 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S1024x32 : Shape := ⟨2, ![1024, 32]⟩
abbrev S32x1024 : Shape := ⟨2, ![32, 1024]⟩
abbrev S16x32x1024 : Shape := ⟨3, ![16, 32, 1024]⟩
abbrev S15x32x1024 : Shape := ⟨3, ![15, 32, 1024]⟩
abbrev S16 : Shape := ⟨1, ![16]⟩
abbrev S15 : Shape := ⟨1, ![15]⟩
abbrev S_ : Shape := ⟨0, ![]⟩
abbrev S32x32 : Shape := ⟨2, ![32, 32]⟩
abbrev S1x32x1024 : Shape := ⟨3, ![1, 32, 1024]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S1024x32, .f32⟩
  | .hbm, ⟨1, _⟩ => ⟨S32x1024, .f32⟩
  | .hbm, ⟨2, _⟩ => ⟨S32x1024, .f32⟩
  | .local _ .vmem, ⟨0, _⟩ => ⟨S1024x32, .f32⟩
  | .local _ .vmem, ⟨1, _⟩ => ⟨S32x1024, .f32⟩
  | .local _ .vmem, ⟨2, _⟩ => ⟨S32x1024, .f32⟩
  | .local _ .vmem, ⟨3, _⟩ => ⟨S16x32x1024, .f32⟩
  | .local _ .vmem, ⟨4, _⟩ => ⟨S16x32x1024, .f32⟩
  | .local _ .vmem, ⟨5, _⟩ => ⟨S15x32x1024, .f32⟩
  | .local _ .vmem, ⟨6, _⟩ => ⟨S16x32x1024, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  { ofTc nBuf bufTy 1 66 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_41 : BitVec 32 := 1#32
  let v94 : BitVec 32 := Scalar.muli v92 c1_i32_41
  let v95 : BitVec 32 := Scalar.addi c0_i32_42 v94
  v95.toNat
def k0_dev2 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c8_i32_43 : BitVec 32 := 8#32
  let v96 : BitVec 32 := Scalar.addi v76 c8_i32_43
  let c16_i32 : BitVec 32 := 16#32
  let c0_i32_44 : BitVec 32 := 0#32
  let v97 : BitVec 1 := Scalar.cmpi .eq c16_i32 c0_i32_44
  let c1_i32_45 : BitVec 32 := 1#32
  let v98 : BitVec 32 := Scalar.select v97 c1_i32_45 c16_i32
  let v99 : BitVec 32 := Scalar.remsi v96 v98
  let c0_i32_47 : BitVec 32 := 0#32
  let v101 : BitVec 1 := Scalar.cmpi .slt v99 c0_i32_47
  let c0_i32_48 : BitVec 32 := 0#32
  let v102 : BitVec 1 := Scalar.cmpi .slt v98 c0_i32_48
  let v103 : BitVec 1 := Scalar.xori v101 v102
  let c0_i32_46 : BitVec 32 := 0#32
  let v100 : BitVec 1 := Scalar.cmpi .ne v99 c0_i32_46
  let v104 : BitVec 1 := Scalar.andi v103 v100
  let v105 : BitVec 32 := Scalar.addi v99 v98
  let v106 : BitVec 32 := Scalar.select v104 v105 v99
  let c0_i32_50 : BitVec 32 := 0#32
  let v108 : BitVec 1 := Scalar.cmpi .sgt v106 c0_i32_50
  let v109 : BitVec 32 := Scalar.extui v108
  let c0_i32_51 : BitVec 32 := 0#32
  let v110 : BitVec 1 := Scalar.cmpi .slt v106 c0_i32_51
  let v111 : BitVec 32 := Scalar.extui v110
  let v112 : BitVec 32 := Scalar.subi v109 v111
  let c4_i32_49 : BitVec 32 := 4#32
  let c0_i32_52 : BitVec 32 := 0#32
  let v113 : BitVec 1 := Scalar.cmpi .sgt c4_i32_49 c0_i32_52
  let v114 : BitVec 32 := Scalar.extui v113
  let c0_i32_53 : BitVec 32 := 0#32
  let v115 : BitVec 1 := Scalar.cmpi .slt c4_i32_49 c0_i32_53
  let v116 : BitVec 32 := Scalar.extui v115
  let v117 : BitVec 32 := Scalar.subi v114 v116
  let v118 : BitVec 1 := Scalar.cmpi .ne v112 v117
  let v119 : BitVec 32 := Scalar.remsi v106 c4_i32_49
  let c0_i32_54 : BitVec 32 := 0#32
  let v120 : BitVec 1 := Scalar.cmpi .ne v119 c0_i32_54
  let v121 : BitVec 1 := Scalar.andi v118 v120
  let v107 : BitVec 32 := Scalar.divsi v106 c4_i32_49
  let c1_i32_55 : BitVec 32 := 1#32
  let v122 : BitVec 32 := Scalar.subi v107 c1_i32_55
  let v123 : BitVec 32 := Scalar.select v121 v122 v107
  let c8_i32_56 : BitVec 32 := 8#32
  let v124 : BitVec 32 := Scalar.muli v123 c8_i32_56
  let c2_i32_63 : BitVec 32 := 2#32
  let c4_i32_57 : BitVec 32 := 4#32
  let c0_i32_58 : BitVec 32 := 0#32
  let v125 : BitVec 1 := Scalar.cmpi .eq c4_i32_57 c0_i32_58
  let c1_i32_59 : BitVec 32 := 1#32
  let v126 : BitVec 32 := Scalar.select v125 c1_i32_59 c4_i32_57
  let v127 : BitVec 32 := Scalar.remsi v106 v126
  let c0_i32_61 : BitVec 32 := 0#32
  let v129 : BitVec 1 := Scalar.cmpi .slt v127 c0_i32_61
  let c0_i32_62 : BitVec 32 := 0#32
  let v130 : BitVec 1 := Scalar.cmpi .slt v126 c0_i32_62
  let v131 : BitVec 1 := Scalar.xori v129 v130
  let c0_i32_60 : BitVec 32 := 0#32
  let v128 : BitVec 1 := Scalar.cmpi .ne v127 c0_i32_60
  let v132 : BitVec 1 := Scalar.andi v131 v128
  let v133 : BitVec 32 := Scalar.addi v127 v126
  let v134 : BitVec 32 := Scalar.select v132 v133 v127
  let v135 : BitVec 32 := Scalar.muli c2_i32_63 v134
  let v136 : BitVec 32 := Scalar.addi v124 v135
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_64 : BitVec 32 := 4#32
  let c0_i32_65 : BitVec 32 := 0#32
  let v137 : BitVec 1 := Scalar.cmpi .eq c4_i32_64 c0_i32_65
  let c1_i32_66 : BitVec 32 := 1#32
  let v138 : BitVec 32 := Scalar.select v137 c1_i32_66 c4_i32_64
  let v139 : BitVec 32 := Scalar.remsi v106 v138
  let c0_i32_68 : BitVec 32 := 0#32
  let v141 : BitVec 1 := Scalar.cmpi .slt v139 c0_i32_68
  let c0_i32_69 : BitVec 32 := 0#32
  let v142 : BitVec 1 := Scalar.cmpi .slt v138 c0_i32_69
  let v143 : BitVec 1 := Scalar.xori v141 v142
  let c0_i32_67 : BitVec 32 := 0#32
  let v140 : BitVec 1 := Scalar.cmpi .ne v139 c0_i32_67
  let v144 : BitVec 1 := Scalar.andi v143 v140
  let v145 : BitVec 32 := Scalar.addi v139 v138
  let v146 : BitVec 32 := Scalar.select v144 v145 v139
  let v147 : BitVec 32 := Scalar.addi v74 v146
  let c2_i32_70 : BitVec 32 := 2#32
  let c0_i32_71 : BitVec 32 := 0#32
  let v148 : BitVec 1 := Scalar.cmpi .eq c2_i32_70 c0_i32_71
  let c1_i32_72 : BitVec 32 := 1#32
  let v149 : BitVec 32 := Scalar.select v148 c1_i32_72 c2_i32_70
  let v150 : BitVec 32 := Scalar.remsi v147 v149
  let c0_i32_74 : BitVec 32 := 0#32
  let v152 : BitVec 1 := Scalar.cmpi .slt v150 c0_i32_74
  let c0_i32_75 : BitVec 32 := 0#32
  let v153 : BitVec 1 := Scalar.cmpi .slt v149 c0_i32_75
  let v154 : BitVec 1 := Scalar.xori v152 v153
  let c0_i32_73 : BitVec 32 := 0#32
  let v151 : BitVec 1 := Scalar.cmpi .ne v150 c0_i32_73
  let v155 : BitVec 1 := Scalar.andi v154 v151
  let v156 : BitVec 32 := Scalar.addi v150 v149
  let v157 : BitVec 32 := Scalar.select v155 v156 v150
  let v158 : BitVec 32 := Scalar.addi v136 v157
  let c1_i32_77 : BitVec 32 := 1#32
  let v159 : BitVec 32 := Scalar.muli v158 c1_i32_77
  let v160 : BitVec 32 := Scalar.addi c0_i32_78 v159
  v160.toNat
def k0_dev3 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c7_i32 : BitVec 32 := 7#32
  let v161 : BitVec 32 := Scalar.addi v76 c7_i32
  let c16_i32_79 : BitVec 32 := 16#32
  let c0_i32_80 : BitVec 32 := 0#32
  let v162 : BitVec 1 := Scalar.cmpi .eq c16_i32_79 c0_i32_80
  let c1_i32_81 : BitVec 32 := 1#32
  let v163 : BitVec 32 := Scalar.select v162 c1_i32_81 c16_i32_79
  let v164 : BitVec 32 := Scalar.remsi v161 v163
  let c0_i32_83 : BitVec 32 := 0#32
  let v166 : BitVec 1 := Scalar.cmpi .slt v164 c0_i32_83
  let c0_i32_84 : BitVec 32 := 0#32
  let v167 : BitVec 1 := Scalar.cmpi .slt v163 c0_i32_84
  let v168 : BitVec 1 := Scalar.xori v166 v167
  let c0_i32_82 : BitVec 32 := 0#32
  let v165 : BitVec 1 := Scalar.cmpi .ne v164 c0_i32_82
  let v169 : BitVec 1 := Scalar.andi v168 v165
  let v170 : BitVec 32 := Scalar.addi v164 v163
  let v171 : BitVec 32 := Scalar.select v169 v170 v164
  let c0_i32_86 : BitVec 32 := 0#32
  let v173 : BitVec 1 := Scalar.cmpi .sgt v171 c0_i32_86
  let v174 : BitVec 32 := Scalar.extui v173
  let c0_i32_87 : BitVec 32 := 0#32
  let v175 : BitVec 1 := Scalar.cmpi .slt v171 c0_i32_87
  let v176 : BitVec 32 := Scalar.extui v175
  let v177 : BitVec 32 := Scalar.subi v174 v176
  let c4_i32_85 : BitVec 32 := 4#32
  let c0_i32_88 : BitVec 32 := 0#32
  let v178 : BitVec 1 := Scalar.cmpi .sgt c4_i32_85 c0_i32_88
  let v179 : BitVec 32 := Scalar.extui v178
  let c0_i32_89 : BitVec 32 := 0#32
  let v180 : BitVec 1 := Scalar.cmpi .slt c4_i32_85 c0_i32_89
  let v181 : BitVec 32 := Scalar.extui v180
  let v182 : BitVec 32 := Scalar.subi v179 v181
  let v183 : BitVec 1 := Scalar.cmpi .ne v177 v182
  let v184 : BitVec 32 := Scalar.remsi v171 c4_i32_85
  let c0_i32_90 : BitVec 32 := 0#32
  let v185 : BitVec 1 := Scalar.cmpi .ne v184 c0_i32_90
  let v186 : BitVec 1 := Scalar.andi v183 v185
  let v172 : BitVec 32 := Scalar.divsi v171 c4_i32_85
  let c1_i32_91 : BitVec 32 := 1#32
  let v187 : BitVec 32 := Scalar.subi v172 c1_i32_91
  let v188 : BitVec 32 := Scalar.select v186 v187 v172
  let c8_i32_92 : BitVec 32 := 8#32
  let v189 : BitVec 32 := Scalar.muli v188 c8_i32_92
  let c2_i32_99 : BitVec 32 := 2#32
  let c4_i32_93 : BitVec 32 := 4#32
  let c0_i32_94 : BitVec 32 := 0#32
  let v190 : BitVec 1 := Scalar.cmpi .eq c4_i32_93 c0_i32_94
  let c1_i32_95 : BitVec 32 := 1#32
  let v191 : BitVec 32 := Scalar.select v190 c1_i32_95 c4_i32_93
  let v192 : BitVec 32 := Scalar.remsi v171 v191
  let c0_i32_97 : BitVec 32 := 0#32
  let v194 : BitVec 1 := Scalar.cmpi .slt v192 c0_i32_97
  let c0_i32_98 : BitVec 32 := 0#32
  let v195 : BitVec 1 := Scalar.cmpi .slt v191 c0_i32_98
  let v196 : BitVec 1 := Scalar.xori v194 v195
  let c0_i32_96 : BitVec 32 := 0#32
  let v193 : BitVec 1 := Scalar.cmpi .ne v192 c0_i32_96
  let v197 : BitVec 1 := Scalar.andi v196 v193
  let v198 : BitVec 32 := Scalar.addi v192 v191
  let v199 : BitVec 32 := Scalar.select v197 v198 v192
  let v200 : BitVec 32 := Scalar.muli c2_i32_99 v199
  let v201 : BitVec 32 := Scalar.addi v189 v200
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_100 : BitVec 32 := 4#32
  let c0_i32_101 : BitVec 32 := 0#32
  let v202 : BitVec 1 := Scalar.cmpi .eq c4_i32_100 c0_i32_101
  let c1_i32_102 : BitVec 32 := 1#32
  let v203 : BitVec 32 := Scalar.select v202 c1_i32_102 c4_i32_100
  let v204 : BitVec 32 := Scalar.remsi v171 v203
  let c0_i32_104 : BitVec 32 := 0#32
  let v206 : BitVec 1 := Scalar.cmpi .slt v204 c0_i32_104
  let c0_i32_105 : BitVec 32 := 0#32
  let v207 : BitVec 1 := Scalar.cmpi .slt v203 c0_i32_105
  let v208 : BitVec 1 := Scalar.xori v206 v207
  let c0_i32_103 : BitVec 32 := 0#32
  let v205 : BitVec 1 := Scalar.cmpi .ne v204 c0_i32_103
  let v209 : BitVec 1 := Scalar.andi v208 v205
  let v210 : BitVec 32 := Scalar.addi v204 v203
  let v211 : BitVec 32 := Scalar.select v209 v210 v204
  let v212 : BitVec 32 := Scalar.addi v74 v211
  let c2_i32_106 : BitVec 32 := 2#32
  let c0_i32_107 : BitVec 32 := 0#32
  let v213 : BitVec 1 := Scalar.cmpi .eq c2_i32_106 c0_i32_107
  let c1_i32_108 : BitVec 32 := 1#32
  let v214 : BitVec 32 := Scalar.select v213 c1_i32_108 c2_i32_106
  let v215 : BitVec 32 := Scalar.remsi v212 v214
  let c0_i32_110 : BitVec 32 := 0#32
  let v217 : BitVec 1 := Scalar.cmpi .slt v215 c0_i32_110
  let c0_i32_111 : BitVec 32 := 0#32
  let v218 : BitVec 1 := Scalar.cmpi .slt v214 c0_i32_111
  let v219 : BitVec 1 := Scalar.xori v217 v218
  let c0_i32_109 : BitVec 32 := 0#32
  let v216 : BitVec 1 := Scalar.cmpi .ne v215 c0_i32_109
  let v220 : BitVec 1 := Scalar.andi v219 v216
  let v221 : BitVec 32 := Scalar.addi v215 v214
  let v222 : BitVec 32 := Scalar.select v220 v221 v215
  let v223 : BitVec 32 := Scalar.addi v201 v222
  let c1_i32_113 : BitVec 32 := 1#32
  let v224 : BitVec 32 := Scalar.muli v223 c1_i32_113
  let v225 : BitVec 32 := Scalar.addi c0_i32_114 v224
  v225.toNat
def k0_dev4 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c9_i32 : BitVec 32 := 9#32
  let v226 : BitVec 32 := Scalar.addi v76 c9_i32
  let c16_i32_115 : BitVec 32 := 16#32
  let c0_i32_116 : BitVec 32 := 0#32
  let v227 : BitVec 1 := Scalar.cmpi .eq c16_i32_115 c0_i32_116
  let c1_i32_117 : BitVec 32 := 1#32
  let v228 : BitVec 32 := Scalar.select v227 c1_i32_117 c16_i32_115
  let v229 : BitVec 32 := Scalar.remsi v226 v228
  let c0_i32_119 : BitVec 32 := 0#32
  let v231 : BitVec 1 := Scalar.cmpi .slt v229 c0_i32_119
  let c0_i32_120 : BitVec 32 := 0#32
  let v232 : BitVec 1 := Scalar.cmpi .slt v228 c0_i32_120
  let v233 : BitVec 1 := Scalar.xori v231 v232
  let c0_i32_118 : BitVec 32 := 0#32
  let v230 : BitVec 1 := Scalar.cmpi .ne v229 c0_i32_118
  let v234 : BitVec 1 := Scalar.andi v233 v230
  let v235 : BitVec 32 := Scalar.addi v229 v228
  let v236 : BitVec 32 := Scalar.select v234 v235 v229
  let c0_i32_122 : BitVec 32 := 0#32
  let v238 : BitVec 1 := Scalar.cmpi .sgt v236 c0_i32_122
  let v239 : BitVec 32 := Scalar.extui v238
  let c0_i32_123 : BitVec 32 := 0#32
  let v240 : BitVec 1 := Scalar.cmpi .slt v236 c0_i32_123
  let v241 : BitVec 32 := Scalar.extui v240
  let v242 : BitVec 32 := Scalar.subi v239 v241
  let c4_i32_121 : BitVec 32 := 4#32
  let c0_i32_124 : BitVec 32 := 0#32
  let v243 : BitVec 1 := Scalar.cmpi .sgt c4_i32_121 c0_i32_124
  let v244 : BitVec 32 := Scalar.extui v243
  let c0_i32_125 : BitVec 32 := 0#32
  let v245 : BitVec 1 := Scalar.cmpi .slt c4_i32_121 c0_i32_125
  let v246 : BitVec 32 := Scalar.extui v245
  let v247 : BitVec 32 := Scalar.subi v244 v246
  let v248 : BitVec 1 := Scalar.cmpi .ne v242 v247
  let v249 : BitVec 32 := Scalar.remsi v236 c4_i32_121
  let c0_i32_126 : BitVec 32 := 0#32
  let v250 : BitVec 1 := Scalar.cmpi .ne v249 c0_i32_126
  let v251 : BitVec 1 := Scalar.andi v248 v250
  let v237 : BitVec 32 := Scalar.divsi v236 c4_i32_121
  let c1_i32_127 : BitVec 32 := 1#32
  let v252 : BitVec 32 := Scalar.subi v237 c1_i32_127
  let v253 : BitVec 32 := Scalar.select v251 v252 v237
  let c8_i32_128 : BitVec 32 := 8#32
  let v254 : BitVec 32 := Scalar.muli v253 c8_i32_128
  let c2_i32_135 : BitVec 32 := 2#32
  let c4_i32_129 : BitVec 32 := 4#32
  let c0_i32_130 : BitVec 32 := 0#32
  let v255 : BitVec 1 := Scalar.cmpi .eq c4_i32_129 c0_i32_130
  let c1_i32_131 : BitVec 32 := 1#32
  let v256 : BitVec 32 := Scalar.select v255 c1_i32_131 c4_i32_129
  let v257 : BitVec 32 := Scalar.remsi v236 v256
  let c0_i32_133 : BitVec 32 := 0#32
  let v259 : BitVec 1 := Scalar.cmpi .slt v257 c0_i32_133
  let c0_i32_134 : BitVec 32 := 0#32
  let v260 : BitVec 1 := Scalar.cmpi .slt v256 c0_i32_134
  let v261 : BitVec 1 := Scalar.xori v259 v260
  let c0_i32_132 : BitVec 32 := 0#32
  let v258 : BitVec 1 := Scalar.cmpi .ne v257 c0_i32_132
  let v262 : BitVec 1 := Scalar.andi v261 v258
  let v263 : BitVec 32 := Scalar.addi v257 v256
  let v264 : BitVec 32 := Scalar.select v262 v263 v257
  let v265 : BitVec 32 := Scalar.muli c2_i32_135 v264
  let v266 : BitVec 32 := Scalar.addi v254 v265
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_136 : BitVec 32 := 4#32
  let c0_i32_137 : BitVec 32 := 0#32
  let v267 : BitVec 1 := Scalar.cmpi .eq c4_i32_136 c0_i32_137
  let c1_i32_138 : BitVec 32 := 1#32
  let v268 : BitVec 32 := Scalar.select v267 c1_i32_138 c4_i32_136
  let v269 : BitVec 32 := Scalar.remsi v236 v268
  let c0_i32_140 : BitVec 32 := 0#32
  let v271 : BitVec 1 := Scalar.cmpi .slt v269 c0_i32_140
  let c0_i32_141 : BitVec 32 := 0#32
  let v272 : BitVec 1 := Scalar.cmpi .slt v268 c0_i32_141
  let v273 : BitVec 1 := Scalar.xori v271 v272
  let c0_i32_139 : BitVec 32 := 0#32
  let v270 : BitVec 1 := Scalar.cmpi .ne v269 c0_i32_139
  let v274 : BitVec 1 := Scalar.andi v273 v270
  let v275 : BitVec 32 := Scalar.addi v269 v268
  let v276 : BitVec 32 := Scalar.select v274 v275 v269
  let v277 : BitVec 32 := Scalar.addi v74 v276
  let c2_i32_142 : BitVec 32 := 2#32
  let c0_i32_143 : BitVec 32 := 0#32
  let v278 : BitVec 1 := Scalar.cmpi .eq c2_i32_142 c0_i32_143
  let c1_i32_144 : BitVec 32 := 1#32
  let v279 : BitVec 32 := Scalar.select v278 c1_i32_144 c2_i32_142
  let v280 : BitVec 32 := Scalar.remsi v277 v279
  let c0_i32_146 : BitVec 32 := 0#32
  let v282 : BitVec 1 := Scalar.cmpi .slt v280 c0_i32_146
  let c0_i32_147 : BitVec 32 := 0#32
  let v283 : BitVec 1 := Scalar.cmpi .slt v279 c0_i32_147
  let v284 : BitVec 1 := Scalar.xori v282 v283
  let c0_i32_145 : BitVec 32 := 0#32
  let v281 : BitVec 1 := Scalar.cmpi .ne v280 c0_i32_145
  let v285 : BitVec 1 := Scalar.andi v284 v281
  let v286 : BitVec 32 := Scalar.addi v280 v279
  let v287 : BitVec 32 := Scalar.select v285 v286 v280
  let v288 : BitVec 32 := Scalar.addi v266 v287
  let c1_i32_149 : BitVec 32 := 1#32
  let v289 : BitVec 32 := Scalar.muli v288 c1_i32_149
  let v290 : BitVec 32 := Scalar.addi c0_i32_150 v289
  v290.toNat
def k0_dev5 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c6_i32 : BitVec 32 := 6#32
  let v291 : BitVec 32 := Scalar.addi v76 c6_i32
  let c16_i32_151 : BitVec 32 := 16#32
  let c0_i32_152 : BitVec 32 := 0#32
  let v292 : BitVec 1 := Scalar.cmpi .eq c16_i32_151 c0_i32_152
  let c1_i32_153 : BitVec 32 := 1#32
  let v293 : BitVec 32 := Scalar.select v292 c1_i32_153 c16_i32_151
  let v294 : BitVec 32 := Scalar.remsi v291 v293
  let c0_i32_155 : BitVec 32 := 0#32
  let v296 : BitVec 1 := Scalar.cmpi .slt v294 c0_i32_155
  let c0_i32_156 : BitVec 32 := 0#32
  let v297 : BitVec 1 := Scalar.cmpi .slt v293 c0_i32_156
  let v298 : BitVec 1 := Scalar.xori v296 v297
  let c0_i32_154 : BitVec 32 := 0#32
  let v295 : BitVec 1 := Scalar.cmpi .ne v294 c0_i32_154
  let v299 : BitVec 1 := Scalar.andi v298 v295
  let v300 : BitVec 32 := Scalar.addi v294 v293
  let v301 : BitVec 32 := Scalar.select v299 v300 v294
  let c0_i32_158 : BitVec 32 := 0#32
  let v303 : BitVec 1 := Scalar.cmpi .sgt v301 c0_i32_158
  let v304 : BitVec 32 := Scalar.extui v303
  let c0_i32_159 : BitVec 32 := 0#32
  let v305 : BitVec 1 := Scalar.cmpi .slt v301 c0_i32_159
  let v306 : BitVec 32 := Scalar.extui v305
  let v307 : BitVec 32 := Scalar.subi v304 v306
  let c4_i32_157 : BitVec 32 := 4#32
  let c0_i32_160 : BitVec 32 := 0#32
  let v308 : BitVec 1 := Scalar.cmpi .sgt c4_i32_157 c0_i32_160
  let v309 : BitVec 32 := Scalar.extui v308
  let c0_i32_161 : BitVec 32 := 0#32
  let v310 : BitVec 1 := Scalar.cmpi .slt c4_i32_157 c0_i32_161
  let v311 : BitVec 32 := Scalar.extui v310
  let v312 : BitVec 32 := Scalar.subi v309 v311
  let v313 : BitVec 1 := Scalar.cmpi .ne v307 v312
  let v314 : BitVec 32 := Scalar.remsi v301 c4_i32_157
  let c0_i32_162 : BitVec 32 := 0#32
  let v315 : BitVec 1 := Scalar.cmpi .ne v314 c0_i32_162
  let v316 : BitVec 1 := Scalar.andi v313 v315
  let v302 : BitVec 32 := Scalar.divsi v301 c4_i32_157
  let c1_i32_163 : BitVec 32 := 1#32
  let v317 : BitVec 32 := Scalar.subi v302 c1_i32_163
  let v318 : BitVec 32 := Scalar.select v316 v317 v302
  let c8_i32_164 : BitVec 32 := 8#32
  let v319 : BitVec 32 := Scalar.muli v318 c8_i32_164
  let c2_i32_171 : BitVec 32 := 2#32
  let c4_i32_165 : BitVec 32 := 4#32
  let c0_i32_166 : BitVec 32 := 0#32
  let v320 : BitVec 1 := Scalar.cmpi .eq c4_i32_165 c0_i32_166
  let c1_i32_167 : BitVec 32 := 1#32
  let v321 : BitVec 32 := Scalar.select v320 c1_i32_167 c4_i32_165
  let v322 : BitVec 32 := Scalar.remsi v301 v321
  let c0_i32_169 : BitVec 32 := 0#32
  let v324 : BitVec 1 := Scalar.cmpi .slt v322 c0_i32_169
  let c0_i32_170 : BitVec 32 := 0#32
  let v325 : BitVec 1 := Scalar.cmpi .slt v321 c0_i32_170
  let v326 : BitVec 1 := Scalar.xori v324 v325
  let c0_i32_168 : BitVec 32 := 0#32
  let v323 : BitVec 1 := Scalar.cmpi .ne v322 c0_i32_168
  let v327 : BitVec 1 := Scalar.andi v326 v323
  let v328 : BitVec 32 := Scalar.addi v322 v321
  let v329 : BitVec 32 := Scalar.select v327 v328 v322
  let v330 : BitVec 32 := Scalar.muli c2_i32_171 v329
  let v331 : BitVec 32 := Scalar.addi v319 v330
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_172 : BitVec 32 := 4#32
  let c0_i32_173 : BitVec 32 := 0#32
  let v332 : BitVec 1 := Scalar.cmpi .eq c4_i32_172 c0_i32_173
  let c1_i32_174 : BitVec 32 := 1#32
  let v333 : BitVec 32 := Scalar.select v332 c1_i32_174 c4_i32_172
  let v334 : BitVec 32 := Scalar.remsi v301 v333
  let c0_i32_176 : BitVec 32 := 0#32
  let v336 : BitVec 1 := Scalar.cmpi .slt v334 c0_i32_176
  let c0_i32_177 : BitVec 32 := 0#32
  let v337 : BitVec 1 := Scalar.cmpi .slt v333 c0_i32_177
  let v338 : BitVec 1 := Scalar.xori v336 v337
  let c0_i32_175 : BitVec 32 := 0#32
  let v335 : BitVec 1 := Scalar.cmpi .ne v334 c0_i32_175
  let v339 : BitVec 1 := Scalar.andi v338 v335
  let v340 : BitVec 32 := Scalar.addi v334 v333
  let v341 : BitVec 32 := Scalar.select v339 v340 v334
  let v342 : BitVec 32 := Scalar.addi v74 v341
  let c2_i32_178 : BitVec 32 := 2#32
  let c0_i32_179 : BitVec 32 := 0#32
  let v343 : BitVec 1 := Scalar.cmpi .eq c2_i32_178 c0_i32_179
  let c1_i32_180 : BitVec 32 := 1#32
  let v344 : BitVec 32 := Scalar.select v343 c1_i32_180 c2_i32_178
  let v345 : BitVec 32 := Scalar.remsi v342 v344
  let c0_i32_182 : BitVec 32 := 0#32
  let v347 : BitVec 1 := Scalar.cmpi .slt v345 c0_i32_182
  let c0_i32_183 : BitVec 32 := 0#32
  let v348 : BitVec 1 := Scalar.cmpi .slt v344 c0_i32_183
  let v349 : BitVec 1 := Scalar.xori v347 v348
  let c0_i32_181 : BitVec 32 := 0#32
  let v346 : BitVec 1 := Scalar.cmpi .ne v345 c0_i32_181
  let v350 : BitVec 1 := Scalar.andi v349 v346
  let v351 : BitVec 32 := Scalar.addi v345 v344
  let v352 : BitVec 32 := Scalar.select v350 v351 v345
  let v353 : BitVec 32 := Scalar.addi v331 v352
  let c1_i32_185 : BitVec 32 := 1#32
  let v354 : BitVec 32 := Scalar.muli v353 c1_i32_185
  let v355 : BitVec 32 := Scalar.addi c0_i32_186 v354
  v355.toNat
def k0_dev6 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c10_i32 : BitVec 32 := 10#32
  let v356 : BitVec 32 := Scalar.addi v76 c10_i32
  let c16_i32_187 : BitVec 32 := 16#32
  let c0_i32_188 : BitVec 32 := 0#32
  let v357 : BitVec 1 := Scalar.cmpi .eq c16_i32_187 c0_i32_188
  let c1_i32_189 : BitVec 32 := 1#32
  let v358 : BitVec 32 := Scalar.select v357 c1_i32_189 c16_i32_187
  let v359 : BitVec 32 := Scalar.remsi v356 v358
  let c0_i32_191 : BitVec 32 := 0#32
  let v361 : BitVec 1 := Scalar.cmpi .slt v359 c0_i32_191
  let c0_i32_192 : BitVec 32 := 0#32
  let v362 : BitVec 1 := Scalar.cmpi .slt v358 c0_i32_192
  let v363 : BitVec 1 := Scalar.xori v361 v362
  let c0_i32_190 : BitVec 32 := 0#32
  let v360 : BitVec 1 := Scalar.cmpi .ne v359 c0_i32_190
  let v364 : BitVec 1 := Scalar.andi v363 v360
  let v365 : BitVec 32 := Scalar.addi v359 v358
  let v366 : BitVec 32 := Scalar.select v364 v365 v359
  let c0_i32_194 : BitVec 32 := 0#32
  let v368 : BitVec 1 := Scalar.cmpi .sgt v366 c0_i32_194
  let v369 : BitVec 32 := Scalar.extui v368
  let c0_i32_195 : BitVec 32 := 0#32
  let v370 : BitVec 1 := Scalar.cmpi .slt v366 c0_i32_195
  let v371 : BitVec 32 := Scalar.extui v370
  let v372 : BitVec 32 := Scalar.subi v369 v371
  let c4_i32_193 : BitVec 32 := 4#32
  let c0_i32_196 : BitVec 32 := 0#32
  let v373 : BitVec 1 := Scalar.cmpi .sgt c4_i32_193 c0_i32_196
  let v374 : BitVec 32 := Scalar.extui v373
  let c0_i32_197 : BitVec 32 := 0#32
  let v375 : BitVec 1 := Scalar.cmpi .slt c4_i32_193 c0_i32_197
  let v376 : BitVec 32 := Scalar.extui v375
  let v377 : BitVec 32 := Scalar.subi v374 v376
  let v378 : BitVec 1 := Scalar.cmpi .ne v372 v377
  let v379 : BitVec 32 := Scalar.remsi v366 c4_i32_193
  let c0_i32_198 : BitVec 32 := 0#32
  let v380 : BitVec 1 := Scalar.cmpi .ne v379 c0_i32_198
  let v381 : BitVec 1 := Scalar.andi v378 v380
  let v367 : BitVec 32 := Scalar.divsi v366 c4_i32_193
  let c1_i32_199 : BitVec 32 := 1#32
  let v382 : BitVec 32 := Scalar.subi v367 c1_i32_199
  let v383 : BitVec 32 := Scalar.select v381 v382 v367
  let c8_i32_200 : BitVec 32 := 8#32
  let v384 : BitVec 32 := Scalar.muli v383 c8_i32_200
  let c2_i32_207 : BitVec 32 := 2#32
  let c4_i32_201 : BitVec 32 := 4#32
  let c0_i32_202 : BitVec 32 := 0#32
  let v385 : BitVec 1 := Scalar.cmpi .eq c4_i32_201 c0_i32_202
  let c1_i32_203 : BitVec 32 := 1#32
  let v386 : BitVec 32 := Scalar.select v385 c1_i32_203 c4_i32_201
  let v387 : BitVec 32 := Scalar.remsi v366 v386
  let c0_i32_205 : BitVec 32 := 0#32
  let v389 : BitVec 1 := Scalar.cmpi .slt v387 c0_i32_205
  let c0_i32_206 : BitVec 32 := 0#32
  let v390 : BitVec 1 := Scalar.cmpi .slt v386 c0_i32_206
  let v391 : BitVec 1 := Scalar.xori v389 v390
  let c0_i32_204 : BitVec 32 := 0#32
  let v388 : BitVec 1 := Scalar.cmpi .ne v387 c0_i32_204
  let v392 : BitVec 1 := Scalar.andi v391 v388
  let v393 : BitVec 32 := Scalar.addi v387 v386
  let v394 : BitVec 32 := Scalar.select v392 v393 v387
  let v395 : BitVec 32 := Scalar.muli c2_i32_207 v394
  let v396 : BitVec 32 := Scalar.addi v384 v395
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_208 : BitVec 32 := 4#32
  let c0_i32_209 : BitVec 32 := 0#32
  let v397 : BitVec 1 := Scalar.cmpi .eq c4_i32_208 c0_i32_209
  let c1_i32_210 : BitVec 32 := 1#32
  let v398 : BitVec 32 := Scalar.select v397 c1_i32_210 c4_i32_208
  let v399 : BitVec 32 := Scalar.remsi v366 v398
  let c0_i32_212 : BitVec 32 := 0#32
  let v401 : BitVec 1 := Scalar.cmpi .slt v399 c0_i32_212
  let c0_i32_213 : BitVec 32 := 0#32
  let v402 : BitVec 1 := Scalar.cmpi .slt v398 c0_i32_213
  let v403 : BitVec 1 := Scalar.xori v401 v402
  let c0_i32_211 : BitVec 32 := 0#32
  let v400 : BitVec 1 := Scalar.cmpi .ne v399 c0_i32_211
  let v404 : BitVec 1 := Scalar.andi v403 v400
  let v405 : BitVec 32 := Scalar.addi v399 v398
  let v406 : BitVec 32 := Scalar.select v404 v405 v399
  let v407 : BitVec 32 := Scalar.addi v74 v406
  let c2_i32_214 : BitVec 32 := 2#32
  let c0_i32_215 : BitVec 32 := 0#32
  let v408 : BitVec 1 := Scalar.cmpi .eq c2_i32_214 c0_i32_215
  let c1_i32_216 : BitVec 32 := 1#32
  let v409 : BitVec 32 := Scalar.select v408 c1_i32_216 c2_i32_214
  let v410 : BitVec 32 := Scalar.remsi v407 v409
  let c0_i32_218 : BitVec 32 := 0#32
  let v412 : BitVec 1 := Scalar.cmpi .slt v410 c0_i32_218
  let c0_i32_219 : BitVec 32 := 0#32
  let v413 : BitVec 1 := Scalar.cmpi .slt v409 c0_i32_219
  let v414 : BitVec 1 := Scalar.xori v412 v413
  let c0_i32_217 : BitVec 32 := 0#32
  let v411 : BitVec 1 := Scalar.cmpi .ne v410 c0_i32_217
  let v415 : BitVec 1 := Scalar.andi v414 v411
  let v416 : BitVec 32 := Scalar.addi v410 v409
  let v417 : BitVec 32 := Scalar.select v415 v416 v410
  let v418 : BitVec 32 := Scalar.addi v396 v417
  let c1_i32_221 : BitVec 32 := 1#32
  let v419 : BitVec 32 := Scalar.muli v418 c1_i32_221
  let v420 : BitVec 32 := Scalar.addi c0_i32_222 v419
  v420.toNat
def k0_dev7 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c5_i32 : BitVec 32 := 5#32
  let v421 : BitVec 32 := Scalar.addi v76 c5_i32
  let c16_i32_223 : BitVec 32 := 16#32
  let c0_i32_224 : BitVec 32 := 0#32
  let v422 : BitVec 1 := Scalar.cmpi .eq c16_i32_223 c0_i32_224
  let c1_i32_225 : BitVec 32 := 1#32
  let v423 : BitVec 32 := Scalar.select v422 c1_i32_225 c16_i32_223
  let v424 : BitVec 32 := Scalar.remsi v421 v423
  let c0_i32_227 : BitVec 32 := 0#32
  let v426 : BitVec 1 := Scalar.cmpi .slt v424 c0_i32_227
  let c0_i32_228 : BitVec 32 := 0#32
  let v427 : BitVec 1 := Scalar.cmpi .slt v423 c0_i32_228
  let v428 : BitVec 1 := Scalar.xori v426 v427
  let c0_i32_226 : BitVec 32 := 0#32
  let v425 : BitVec 1 := Scalar.cmpi .ne v424 c0_i32_226
  let v429 : BitVec 1 := Scalar.andi v428 v425
  let v430 : BitVec 32 := Scalar.addi v424 v423
  let v431 : BitVec 32 := Scalar.select v429 v430 v424
  let c0_i32_230 : BitVec 32 := 0#32
  let v433 : BitVec 1 := Scalar.cmpi .sgt v431 c0_i32_230
  let v434 : BitVec 32 := Scalar.extui v433
  let c0_i32_231 : BitVec 32 := 0#32
  let v435 : BitVec 1 := Scalar.cmpi .slt v431 c0_i32_231
  let v436 : BitVec 32 := Scalar.extui v435
  let v437 : BitVec 32 := Scalar.subi v434 v436
  let c4_i32_229 : BitVec 32 := 4#32
  let c0_i32_232 : BitVec 32 := 0#32
  let v438 : BitVec 1 := Scalar.cmpi .sgt c4_i32_229 c0_i32_232
  let v439 : BitVec 32 := Scalar.extui v438
  let c0_i32_233 : BitVec 32 := 0#32
  let v440 : BitVec 1 := Scalar.cmpi .slt c4_i32_229 c0_i32_233
  let v441 : BitVec 32 := Scalar.extui v440
  let v442 : BitVec 32 := Scalar.subi v439 v441
  let v443 : BitVec 1 := Scalar.cmpi .ne v437 v442
  let v444 : BitVec 32 := Scalar.remsi v431 c4_i32_229
  let c0_i32_234 : BitVec 32 := 0#32
  let v445 : BitVec 1 := Scalar.cmpi .ne v444 c0_i32_234
  let v446 : BitVec 1 := Scalar.andi v443 v445
  let v432 : BitVec 32 := Scalar.divsi v431 c4_i32_229
  let c1_i32_235 : BitVec 32 := 1#32
  let v447 : BitVec 32 := Scalar.subi v432 c1_i32_235
  let v448 : BitVec 32 := Scalar.select v446 v447 v432
  let c8_i32_236 : BitVec 32 := 8#32
  let v449 : BitVec 32 := Scalar.muli v448 c8_i32_236
  let c2_i32_243 : BitVec 32 := 2#32
  let c4_i32_237 : BitVec 32 := 4#32
  let c0_i32_238 : BitVec 32 := 0#32
  let v450 : BitVec 1 := Scalar.cmpi .eq c4_i32_237 c0_i32_238
  let c1_i32_239 : BitVec 32 := 1#32
  let v451 : BitVec 32 := Scalar.select v450 c1_i32_239 c4_i32_237
  let v452 : BitVec 32 := Scalar.remsi v431 v451
  let c0_i32_241 : BitVec 32 := 0#32
  let v454 : BitVec 1 := Scalar.cmpi .slt v452 c0_i32_241
  let c0_i32_242 : BitVec 32 := 0#32
  let v455 : BitVec 1 := Scalar.cmpi .slt v451 c0_i32_242
  let v456 : BitVec 1 := Scalar.xori v454 v455
  let c0_i32_240 : BitVec 32 := 0#32
  let v453 : BitVec 1 := Scalar.cmpi .ne v452 c0_i32_240
  let v457 : BitVec 1 := Scalar.andi v456 v453
  let v458 : BitVec 32 := Scalar.addi v452 v451
  let v459 : BitVec 32 := Scalar.select v457 v458 v452
  let v460 : BitVec 32 := Scalar.muli c2_i32_243 v459
  let v461 : BitVec 32 := Scalar.addi v449 v460
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_244 : BitVec 32 := 4#32
  let c0_i32_245 : BitVec 32 := 0#32
  let v462 : BitVec 1 := Scalar.cmpi .eq c4_i32_244 c0_i32_245
  let c1_i32_246 : BitVec 32 := 1#32
  let v463 : BitVec 32 := Scalar.select v462 c1_i32_246 c4_i32_244
  let v464 : BitVec 32 := Scalar.remsi v431 v463
  let c0_i32_248 : BitVec 32 := 0#32
  let v466 : BitVec 1 := Scalar.cmpi .slt v464 c0_i32_248
  let c0_i32_249 : BitVec 32 := 0#32
  let v467 : BitVec 1 := Scalar.cmpi .slt v463 c0_i32_249
  let v468 : BitVec 1 := Scalar.xori v466 v467
  let c0_i32_247 : BitVec 32 := 0#32
  let v465 : BitVec 1 := Scalar.cmpi .ne v464 c0_i32_247
  let v469 : BitVec 1 := Scalar.andi v468 v465
  let v470 : BitVec 32 := Scalar.addi v464 v463
  let v471 : BitVec 32 := Scalar.select v469 v470 v464
  let v472 : BitVec 32 := Scalar.addi v74 v471
  let c2_i32_250 : BitVec 32 := 2#32
  let c0_i32_251 : BitVec 32 := 0#32
  let v473 : BitVec 1 := Scalar.cmpi .eq c2_i32_250 c0_i32_251
  let c1_i32_252 : BitVec 32 := 1#32
  let v474 : BitVec 32 := Scalar.select v473 c1_i32_252 c2_i32_250
  let v475 : BitVec 32 := Scalar.remsi v472 v474
  let c0_i32_254 : BitVec 32 := 0#32
  let v477 : BitVec 1 := Scalar.cmpi .slt v475 c0_i32_254
  let c0_i32_255 : BitVec 32 := 0#32
  let v478 : BitVec 1 := Scalar.cmpi .slt v474 c0_i32_255
  let v479 : BitVec 1 := Scalar.xori v477 v478
  let c0_i32_253 : BitVec 32 := 0#32
  let v476 : BitVec 1 := Scalar.cmpi .ne v475 c0_i32_253
  let v480 : BitVec 1 := Scalar.andi v479 v476
  let v481 : BitVec 32 := Scalar.addi v475 v474
  let v482 : BitVec 32 := Scalar.select v480 v481 v475
  let v483 : BitVec 32 := Scalar.addi v461 v482
  let c1_i32_257 : BitVec 32 := 1#32
  let v484 : BitVec 32 := Scalar.muli v483 c1_i32_257
  let v485 : BitVec 32 := Scalar.addi c0_i32_258 v484
  v485.toNat
def k0_dev8 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c11_i32 : BitVec 32 := 11#32
  let v486 : BitVec 32 := Scalar.addi v76 c11_i32
  let c16_i32_259 : BitVec 32 := 16#32
  let c0_i32_260 : BitVec 32 := 0#32
  let v487 : BitVec 1 := Scalar.cmpi .eq c16_i32_259 c0_i32_260
  let c1_i32_261 : BitVec 32 := 1#32
  let v488 : BitVec 32 := Scalar.select v487 c1_i32_261 c16_i32_259
  let v489 : BitVec 32 := Scalar.remsi v486 v488
  let c0_i32_263 : BitVec 32 := 0#32
  let v491 : BitVec 1 := Scalar.cmpi .slt v489 c0_i32_263
  let c0_i32_264 : BitVec 32 := 0#32
  let v492 : BitVec 1 := Scalar.cmpi .slt v488 c0_i32_264
  let v493 : BitVec 1 := Scalar.xori v491 v492
  let c0_i32_262 : BitVec 32 := 0#32
  let v490 : BitVec 1 := Scalar.cmpi .ne v489 c0_i32_262
  let v494 : BitVec 1 := Scalar.andi v493 v490
  let v495 : BitVec 32 := Scalar.addi v489 v488
  let v496 : BitVec 32 := Scalar.select v494 v495 v489
  let c0_i32_266 : BitVec 32 := 0#32
  let v498 : BitVec 1 := Scalar.cmpi .sgt v496 c0_i32_266
  let v499 : BitVec 32 := Scalar.extui v498
  let c0_i32_267 : BitVec 32 := 0#32
  let v500 : BitVec 1 := Scalar.cmpi .slt v496 c0_i32_267
  let v501 : BitVec 32 := Scalar.extui v500
  let v502 : BitVec 32 := Scalar.subi v499 v501
  let c4_i32_265 : BitVec 32 := 4#32
  let c0_i32_268 : BitVec 32 := 0#32
  let v503 : BitVec 1 := Scalar.cmpi .sgt c4_i32_265 c0_i32_268
  let v504 : BitVec 32 := Scalar.extui v503
  let c0_i32_269 : BitVec 32 := 0#32
  let v505 : BitVec 1 := Scalar.cmpi .slt c4_i32_265 c0_i32_269
  let v506 : BitVec 32 := Scalar.extui v505
  let v507 : BitVec 32 := Scalar.subi v504 v506
  let v508 : BitVec 1 := Scalar.cmpi .ne v502 v507
  let v509 : BitVec 32 := Scalar.remsi v496 c4_i32_265
  let c0_i32_270 : BitVec 32 := 0#32
  let v510 : BitVec 1 := Scalar.cmpi .ne v509 c0_i32_270
  let v511 : BitVec 1 := Scalar.andi v508 v510
  let v497 : BitVec 32 := Scalar.divsi v496 c4_i32_265
  let c1_i32_271 : BitVec 32 := 1#32
  let v512 : BitVec 32 := Scalar.subi v497 c1_i32_271
  let v513 : BitVec 32 := Scalar.select v511 v512 v497
  let c8_i32_272 : BitVec 32 := 8#32
  let v514 : BitVec 32 := Scalar.muli v513 c8_i32_272
  let c2_i32_279 : BitVec 32 := 2#32
  let c4_i32_273 : BitVec 32 := 4#32
  let c0_i32_274 : BitVec 32 := 0#32
  let v515 : BitVec 1 := Scalar.cmpi .eq c4_i32_273 c0_i32_274
  let c1_i32_275 : BitVec 32 := 1#32
  let v516 : BitVec 32 := Scalar.select v515 c1_i32_275 c4_i32_273
  let v517 : BitVec 32 := Scalar.remsi v496 v516
  let c0_i32_277 : BitVec 32 := 0#32
  let v519 : BitVec 1 := Scalar.cmpi .slt v517 c0_i32_277
  let c0_i32_278 : BitVec 32 := 0#32
  let v520 : BitVec 1 := Scalar.cmpi .slt v516 c0_i32_278
  let v521 : BitVec 1 := Scalar.xori v519 v520
  let c0_i32_276 : BitVec 32 := 0#32
  let v518 : BitVec 1 := Scalar.cmpi .ne v517 c0_i32_276
  let v522 : BitVec 1 := Scalar.andi v521 v518
  let v523 : BitVec 32 := Scalar.addi v517 v516
  let v524 : BitVec 32 := Scalar.select v522 v523 v517
  let v525 : BitVec 32 := Scalar.muli c2_i32_279 v524
  let v526 : BitVec 32 := Scalar.addi v514 v525
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_280 : BitVec 32 := 4#32
  let c0_i32_281 : BitVec 32 := 0#32
  let v527 : BitVec 1 := Scalar.cmpi .eq c4_i32_280 c0_i32_281
  let c1_i32_282 : BitVec 32 := 1#32
  let v528 : BitVec 32 := Scalar.select v527 c1_i32_282 c4_i32_280
  let v529 : BitVec 32 := Scalar.remsi v496 v528
  let c0_i32_284 : BitVec 32 := 0#32
  let v531 : BitVec 1 := Scalar.cmpi .slt v529 c0_i32_284
  let c0_i32_285 : BitVec 32 := 0#32
  let v532 : BitVec 1 := Scalar.cmpi .slt v528 c0_i32_285
  let v533 : BitVec 1 := Scalar.xori v531 v532
  let c0_i32_283 : BitVec 32 := 0#32
  let v530 : BitVec 1 := Scalar.cmpi .ne v529 c0_i32_283
  let v534 : BitVec 1 := Scalar.andi v533 v530
  let v535 : BitVec 32 := Scalar.addi v529 v528
  let v536 : BitVec 32 := Scalar.select v534 v535 v529
  let v537 : BitVec 32 := Scalar.addi v74 v536
  let c2_i32_286 : BitVec 32 := 2#32
  let c0_i32_287 : BitVec 32 := 0#32
  let v538 : BitVec 1 := Scalar.cmpi .eq c2_i32_286 c0_i32_287
  let c1_i32_288 : BitVec 32 := 1#32
  let v539 : BitVec 32 := Scalar.select v538 c1_i32_288 c2_i32_286
  let v540 : BitVec 32 := Scalar.remsi v537 v539
  let c0_i32_290 : BitVec 32 := 0#32
  let v542 : BitVec 1 := Scalar.cmpi .slt v540 c0_i32_290
  let c0_i32_291 : BitVec 32 := 0#32
  let v543 : BitVec 1 := Scalar.cmpi .slt v539 c0_i32_291
  let v544 : BitVec 1 := Scalar.xori v542 v543
  let c0_i32_289 : BitVec 32 := 0#32
  let v541 : BitVec 1 := Scalar.cmpi .ne v540 c0_i32_289
  let v545 : BitVec 1 := Scalar.andi v544 v541
  let v546 : BitVec 32 := Scalar.addi v540 v539
  let v547 : BitVec 32 := Scalar.select v545 v546 v540
  let v548 : BitVec 32 := Scalar.addi v526 v547
  let c1_i32_293 : BitVec 32 := 1#32
  let v549 : BitVec 32 := Scalar.muli v548 c1_i32_293
  let v550 : BitVec 32 := Scalar.addi c0_i32_294 v549
  v550.toNat
def k0_dev9 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c4_i32_295 : BitVec 32 := 4#32
  let v551 : BitVec 32 := Scalar.addi v76 c4_i32_295
  let c16_i32_296 : BitVec 32 := 16#32
  let c0_i32_297 : BitVec 32 := 0#32
  let v552 : BitVec 1 := Scalar.cmpi .eq c16_i32_296 c0_i32_297
  let c1_i32_298 : BitVec 32 := 1#32
  let v553 : BitVec 32 := Scalar.select v552 c1_i32_298 c16_i32_296
  let v554 : BitVec 32 := Scalar.remsi v551 v553
  let c0_i32_300 : BitVec 32 := 0#32
  let v556 : BitVec 1 := Scalar.cmpi .slt v554 c0_i32_300
  let c0_i32_301 : BitVec 32 := 0#32
  let v557 : BitVec 1 := Scalar.cmpi .slt v553 c0_i32_301
  let v558 : BitVec 1 := Scalar.xori v556 v557
  let c0_i32_299 : BitVec 32 := 0#32
  let v555 : BitVec 1 := Scalar.cmpi .ne v554 c0_i32_299
  let v559 : BitVec 1 := Scalar.andi v558 v555
  let v560 : BitVec 32 := Scalar.addi v554 v553
  let v561 : BitVec 32 := Scalar.select v559 v560 v554
  let c0_i32_303 : BitVec 32 := 0#32
  let v563 : BitVec 1 := Scalar.cmpi .sgt v561 c0_i32_303
  let v564 : BitVec 32 := Scalar.extui v563
  let c0_i32_304 : BitVec 32 := 0#32
  let v565 : BitVec 1 := Scalar.cmpi .slt v561 c0_i32_304
  let v566 : BitVec 32 := Scalar.extui v565
  let v567 : BitVec 32 := Scalar.subi v564 v566
  let c4_i32_302 : BitVec 32 := 4#32
  let c0_i32_305 : BitVec 32 := 0#32
  let v568 : BitVec 1 := Scalar.cmpi .sgt c4_i32_302 c0_i32_305
  let v569 : BitVec 32 := Scalar.extui v568
  let c0_i32_306 : BitVec 32 := 0#32
  let v570 : BitVec 1 := Scalar.cmpi .slt c4_i32_302 c0_i32_306
  let v571 : BitVec 32 := Scalar.extui v570
  let v572 : BitVec 32 := Scalar.subi v569 v571
  let v573 : BitVec 1 := Scalar.cmpi .ne v567 v572
  let v574 : BitVec 32 := Scalar.remsi v561 c4_i32_302
  let c0_i32_307 : BitVec 32 := 0#32
  let v575 : BitVec 1 := Scalar.cmpi .ne v574 c0_i32_307
  let v576 : BitVec 1 := Scalar.andi v573 v575
  let v562 : BitVec 32 := Scalar.divsi v561 c4_i32_302
  let c1_i32_308 : BitVec 32 := 1#32
  let v577 : BitVec 32 := Scalar.subi v562 c1_i32_308
  let v578 : BitVec 32 := Scalar.select v576 v577 v562
  let c8_i32_309 : BitVec 32 := 8#32
  let v579 : BitVec 32 := Scalar.muli v578 c8_i32_309
  let c2_i32_316 : BitVec 32 := 2#32
  let c4_i32_310 : BitVec 32 := 4#32
  let c0_i32_311 : BitVec 32 := 0#32
  let v580 : BitVec 1 := Scalar.cmpi .eq c4_i32_310 c0_i32_311
  let c1_i32_312 : BitVec 32 := 1#32
  let v581 : BitVec 32 := Scalar.select v580 c1_i32_312 c4_i32_310
  let v582 : BitVec 32 := Scalar.remsi v561 v581
  let c0_i32_314 : BitVec 32 := 0#32
  let v584 : BitVec 1 := Scalar.cmpi .slt v582 c0_i32_314
  let c0_i32_315 : BitVec 32 := 0#32
  let v585 : BitVec 1 := Scalar.cmpi .slt v581 c0_i32_315
  let v586 : BitVec 1 := Scalar.xori v584 v585
  let c0_i32_313 : BitVec 32 := 0#32
  let v583 : BitVec 1 := Scalar.cmpi .ne v582 c0_i32_313
  let v587 : BitVec 1 := Scalar.andi v586 v583
  let v588 : BitVec 32 := Scalar.addi v582 v581
  let v589 : BitVec 32 := Scalar.select v587 v588 v582
  let v590 : BitVec 32 := Scalar.muli c2_i32_316 v589
  let v591 : BitVec 32 := Scalar.addi v579 v590
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_317 : BitVec 32 := 4#32
  let c0_i32_318 : BitVec 32 := 0#32
  let v592 : BitVec 1 := Scalar.cmpi .eq c4_i32_317 c0_i32_318
  let c1_i32_319 : BitVec 32 := 1#32
  let v593 : BitVec 32 := Scalar.select v592 c1_i32_319 c4_i32_317
  let v594 : BitVec 32 := Scalar.remsi v561 v593
  let c0_i32_321 : BitVec 32 := 0#32
  let v596 : BitVec 1 := Scalar.cmpi .slt v594 c0_i32_321
  let c0_i32_322 : BitVec 32 := 0#32
  let v597 : BitVec 1 := Scalar.cmpi .slt v593 c0_i32_322
  let v598 : BitVec 1 := Scalar.xori v596 v597
  let c0_i32_320 : BitVec 32 := 0#32
  let v595 : BitVec 1 := Scalar.cmpi .ne v594 c0_i32_320
  let v599 : BitVec 1 := Scalar.andi v598 v595
  let v600 : BitVec 32 := Scalar.addi v594 v593
  let v601 : BitVec 32 := Scalar.select v599 v600 v594
  let v602 : BitVec 32 := Scalar.addi v74 v601
  let c2_i32_323 : BitVec 32 := 2#32
  let c0_i32_324 : BitVec 32 := 0#32
  let v603 : BitVec 1 := Scalar.cmpi .eq c2_i32_323 c0_i32_324
  let c1_i32_325 : BitVec 32 := 1#32
  let v604 : BitVec 32 := Scalar.select v603 c1_i32_325 c2_i32_323
  let v605 : BitVec 32 := Scalar.remsi v602 v604
  let c0_i32_327 : BitVec 32 := 0#32
  let v607 : BitVec 1 := Scalar.cmpi .slt v605 c0_i32_327
  let c0_i32_328 : BitVec 32 := 0#32
  let v608 : BitVec 1 := Scalar.cmpi .slt v604 c0_i32_328
  let v609 : BitVec 1 := Scalar.xori v607 v608
  let c0_i32_326 : BitVec 32 := 0#32
  let v606 : BitVec 1 := Scalar.cmpi .ne v605 c0_i32_326
  let v610 : BitVec 1 := Scalar.andi v609 v606
  let v611 : BitVec 32 := Scalar.addi v605 v604
  let v612 : BitVec 32 := Scalar.select v610 v611 v605
  let v613 : BitVec 32 := Scalar.addi v591 v612
  let c1_i32_330 : BitVec 32 := 1#32
  let v614 : BitVec 32 := Scalar.muli v613 c1_i32_330
  let v615 : BitVec 32 := Scalar.addi c0_i32_331 v614
  v615.toNat
def k0_dev10 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c12_i32 : BitVec 32 := 12#32
  let v616 : BitVec 32 := Scalar.addi v76 c12_i32
  let c16_i32_332 : BitVec 32 := 16#32
  let c0_i32_333 : BitVec 32 := 0#32
  let v617 : BitVec 1 := Scalar.cmpi .eq c16_i32_332 c0_i32_333
  let c1_i32_334 : BitVec 32 := 1#32
  let v618 : BitVec 32 := Scalar.select v617 c1_i32_334 c16_i32_332
  let v619 : BitVec 32 := Scalar.remsi v616 v618
  let c0_i32_336 : BitVec 32 := 0#32
  let v621 : BitVec 1 := Scalar.cmpi .slt v619 c0_i32_336
  let c0_i32_337 : BitVec 32 := 0#32
  let v622 : BitVec 1 := Scalar.cmpi .slt v618 c0_i32_337
  let v623 : BitVec 1 := Scalar.xori v621 v622
  let c0_i32_335 : BitVec 32 := 0#32
  let v620 : BitVec 1 := Scalar.cmpi .ne v619 c0_i32_335
  let v624 : BitVec 1 := Scalar.andi v623 v620
  let v625 : BitVec 32 := Scalar.addi v619 v618
  let v626 : BitVec 32 := Scalar.select v624 v625 v619
  let c0_i32_339 : BitVec 32 := 0#32
  let v628 : BitVec 1 := Scalar.cmpi .sgt v626 c0_i32_339
  let v629 : BitVec 32 := Scalar.extui v628
  let c0_i32_340 : BitVec 32 := 0#32
  let v630 : BitVec 1 := Scalar.cmpi .slt v626 c0_i32_340
  let v631 : BitVec 32 := Scalar.extui v630
  let v632 : BitVec 32 := Scalar.subi v629 v631
  let c4_i32_338 : BitVec 32 := 4#32
  let c0_i32_341 : BitVec 32 := 0#32
  let v633 : BitVec 1 := Scalar.cmpi .sgt c4_i32_338 c0_i32_341
  let v634 : BitVec 32 := Scalar.extui v633
  let c0_i32_342 : BitVec 32 := 0#32
  let v635 : BitVec 1 := Scalar.cmpi .slt c4_i32_338 c0_i32_342
  let v636 : BitVec 32 := Scalar.extui v635
  let v637 : BitVec 32 := Scalar.subi v634 v636
  let v638 : BitVec 1 := Scalar.cmpi .ne v632 v637
  let v639 : BitVec 32 := Scalar.remsi v626 c4_i32_338
  let c0_i32_343 : BitVec 32 := 0#32
  let v640 : BitVec 1 := Scalar.cmpi .ne v639 c0_i32_343
  let v641 : BitVec 1 := Scalar.andi v638 v640
  let v627 : BitVec 32 := Scalar.divsi v626 c4_i32_338
  let c1_i32_344 : BitVec 32 := 1#32
  let v642 : BitVec 32 := Scalar.subi v627 c1_i32_344
  let v643 : BitVec 32 := Scalar.select v641 v642 v627
  let c8_i32_345 : BitVec 32 := 8#32
  let v644 : BitVec 32 := Scalar.muli v643 c8_i32_345
  let c2_i32_352 : BitVec 32 := 2#32
  let c4_i32_346 : BitVec 32 := 4#32
  let c0_i32_347 : BitVec 32 := 0#32
  let v645 : BitVec 1 := Scalar.cmpi .eq c4_i32_346 c0_i32_347
  let c1_i32_348 : BitVec 32 := 1#32
  let v646 : BitVec 32 := Scalar.select v645 c1_i32_348 c4_i32_346
  let v647 : BitVec 32 := Scalar.remsi v626 v646
  let c0_i32_350 : BitVec 32 := 0#32
  let v649 : BitVec 1 := Scalar.cmpi .slt v647 c0_i32_350
  let c0_i32_351 : BitVec 32 := 0#32
  let v650 : BitVec 1 := Scalar.cmpi .slt v646 c0_i32_351
  let v651 : BitVec 1 := Scalar.xori v649 v650
  let c0_i32_349 : BitVec 32 := 0#32
  let v648 : BitVec 1 := Scalar.cmpi .ne v647 c0_i32_349
  let v652 : BitVec 1 := Scalar.andi v651 v648
  let v653 : BitVec 32 := Scalar.addi v647 v646
  let v654 : BitVec 32 := Scalar.select v652 v653 v647
  let v655 : BitVec 32 := Scalar.muli c2_i32_352 v654
  let v656 : BitVec 32 := Scalar.addi v644 v655
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_353 : BitVec 32 := 4#32
  let c0_i32_354 : BitVec 32 := 0#32
  let v657 : BitVec 1 := Scalar.cmpi .eq c4_i32_353 c0_i32_354
  let c1_i32_355 : BitVec 32 := 1#32
  let v658 : BitVec 32 := Scalar.select v657 c1_i32_355 c4_i32_353
  let v659 : BitVec 32 := Scalar.remsi v626 v658
  let c0_i32_357 : BitVec 32 := 0#32
  let v661 : BitVec 1 := Scalar.cmpi .slt v659 c0_i32_357
  let c0_i32_358 : BitVec 32 := 0#32
  let v662 : BitVec 1 := Scalar.cmpi .slt v658 c0_i32_358
  let v663 : BitVec 1 := Scalar.xori v661 v662
  let c0_i32_356 : BitVec 32 := 0#32
  let v660 : BitVec 1 := Scalar.cmpi .ne v659 c0_i32_356
  let v664 : BitVec 1 := Scalar.andi v663 v660
  let v665 : BitVec 32 := Scalar.addi v659 v658
  let v666 : BitVec 32 := Scalar.select v664 v665 v659
  let v667 : BitVec 32 := Scalar.addi v74 v666
  let c2_i32_359 : BitVec 32 := 2#32
  let c0_i32_360 : BitVec 32 := 0#32
  let v668 : BitVec 1 := Scalar.cmpi .eq c2_i32_359 c0_i32_360
  let c1_i32_361 : BitVec 32 := 1#32
  let v669 : BitVec 32 := Scalar.select v668 c1_i32_361 c2_i32_359
  let v670 : BitVec 32 := Scalar.remsi v667 v669
  let c0_i32_363 : BitVec 32 := 0#32
  let v672 : BitVec 1 := Scalar.cmpi .slt v670 c0_i32_363
  let c0_i32_364 : BitVec 32 := 0#32
  let v673 : BitVec 1 := Scalar.cmpi .slt v669 c0_i32_364
  let v674 : BitVec 1 := Scalar.xori v672 v673
  let c0_i32_362 : BitVec 32 := 0#32
  let v671 : BitVec 1 := Scalar.cmpi .ne v670 c0_i32_362
  let v675 : BitVec 1 := Scalar.andi v674 v671
  let v676 : BitVec 32 := Scalar.addi v670 v669
  let v677 : BitVec 32 := Scalar.select v675 v676 v670
  let v678 : BitVec 32 := Scalar.addi v656 v677
  let c1_i32_366 : BitVec 32 := 1#32
  let v679 : BitVec 32 := Scalar.muli v678 c1_i32_366
  let v680 : BitVec 32 := Scalar.addi c0_i32_367 v679
  v680.toNat
def k0_dev11 (d0 : Dev nD) : Nat :=
  let c0_i32_403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c3_i32 : BitVec 32 := 3#32
  let v681 : BitVec 32 := Scalar.addi v76 c3_i32
  let c16_i32_368 : BitVec 32 := 16#32
  let c0_i32_369 : BitVec 32 := 0#32
  let v682 : BitVec 1 := Scalar.cmpi .eq c16_i32_368 c0_i32_369
  let c1_i32_370 : BitVec 32 := 1#32
  let v683 : BitVec 32 := Scalar.select v682 c1_i32_370 c16_i32_368
  let v684 : BitVec 32 := Scalar.remsi v681 v683
  let c0_i32_372 : BitVec 32 := 0#32
  let v686 : BitVec 1 := Scalar.cmpi .slt v684 c0_i32_372
  let c0_i32_373 : BitVec 32 := 0#32
  let v687 : BitVec 1 := Scalar.cmpi .slt v683 c0_i32_373
  let v688 : BitVec 1 := Scalar.xori v686 v687
  let c0_i32_371 : BitVec 32 := 0#32
  let v685 : BitVec 1 := Scalar.cmpi .ne v684 c0_i32_371
  let v689 : BitVec 1 := Scalar.andi v688 v685
  let v690 : BitVec 32 := Scalar.addi v684 v683
  let v691 : BitVec 32 := Scalar.select v689 v690 v684
  let c0_i32_375 : BitVec 32 := 0#32
  let v693 : BitVec 1 := Scalar.cmpi .sgt v691 c0_i32_375
  let v694 : BitVec 32 := Scalar.extui v693
  let c0_i32_376 : BitVec 32 := 0#32
  let v695 : BitVec 1 := Scalar.cmpi .slt v691 c0_i32_376
  let v696 : BitVec 32 := Scalar.extui v695
  let v697 : BitVec 32 := Scalar.subi v694 v696
  let c4_i32_374 : BitVec 32 := 4#32
  let c0_i32_377 : BitVec 32 := 0#32
  let v698 : BitVec 1 := Scalar.cmpi .sgt c4_i32_374 c0_i32_377
  let v699 : BitVec 32 := Scalar.extui v698
  let c0_i32_378 : BitVec 32 := 0#32
  let v700 : BitVec 1 := Scalar.cmpi .slt c4_i32_374 c0_i32_378
  let v701 : BitVec 32 := Scalar.extui v700
  let v702 : BitVec 32 := Scalar.subi v699 v701
  let v703 : BitVec 1 := Scalar.cmpi .ne v697 v702
  let v704 : BitVec 32 := Scalar.remsi v691 c4_i32_374
  let c0_i32_379 : BitVec 32 := 0#32
  let v705 : BitVec 1 := Scalar.cmpi .ne v704 c0_i32_379
  let v706 : BitVec 1 := Scalar.andi v703 v705
  let v692 : BitVec 32 := Scalar.divsi v691 c4_i32_374
  let c1_i32_380 : BitVec 32 := 1#32
  let v707 : BitVec 32 := Scalar.subi v692 c1_i32_380
  let v708 : BitVec 32 := Scalar.select v706 v707 v692
  let c8_i32_381 : BitVec 32 := 8#32
  let v709 : BitVec 32 := Scalar.muli v708 c8_i32_381
  let c2_i32_388 : BitVec 32 := 2#32
  let c4_i32_382 : BitVec 32 := 4#32
  let c0_i32_383 : BitVec 32 := 0#32
  let v710 : BitVec 1 := Scalar.cmpi .eq c4_i32_382 c0_i32_383
  let c1_i32_384 : BitVec 32 := 1#32
  let v711 : BitVec 32 := Scalar.select v710 c1_i32_384 c4_i32_382
  let v712 : BitVec 32 := Scalar.remsi v691 v711
  let c0_i32_386 : BitVec 32 := 0#32
  let v714 : BitVec 1 := Scalar.cmpi .slt v712 c0_i32_386
  let c0_i32_387 : BitVec 32 := 0#32
  let v715 : BitVec 1 := Scalar.cmpi .slt v711 c0_i32_387
  let v716 : BitVec 1 := Scalar.xori v714 v715
  let c0_i32_385 : BitVec 32 := 0#32
  let v713 : BitVec 1 := Scalar.cmpi .ne v712 c0_i32_385
  let v717 : BitVec 1 := Scalar.andi v716 v713
  let v718 : BitVec 32 := Scalar.addi v712 v711
  let v719 : BitVec 32 := Scalar.select v717 v718 v712
  let v720 : BitVec 32 := Scalar.muli c2_i32_388 v719
  let v721 : BitVec 32 := Scalar.addi v709 v720
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_389 : BitVec 32 := 4#32
  let c0_i32_390 : BitVec 32 := 0#32
  let v722 : BitVec 1 := Scalar.cmpi .eq c4_i32_389 c0_i32_390
  let c1_i32_391 : BitVec 32 := 1#32
  let v723 : BitVec 32 := Scalar.select v722 c1_i32_391 c4_i32_389
  let v724 : BitVec 32 := Scalar.remsi v691 v723
  let c0_i32_393 : BitVec 32 := 0#32
  let v726 : BitVec 1 := Scalar.cmpi .slt v724 c0_i32_393
  let c0_i32_394 : BitVec 32 := 0#32
  let v727 : BitVec 1 := Scalar.cmpi .slt v723 c0_i32_394
  let v728 : BitVec 1 := Scalar.xori v726 v727
  let c0_i32_392 : BitVec 32 := 0#32
  let v725 : BitVec 1 := Scalar.cmpi .ne v724 c0_i32_392
  let v729 : BitVec 1 := Scalar.andi v728 v725
  let v730 : BitVec 32 := Scalar.addi v724 v723
  let v731 : BitVec 32 := Scalar.select v729 v730 v724
  let v732 : BitVec 32 := Scalar.addi v74 v731
  let c2_i32_395 : BitVec 32 := 2#32
  let c0_i32_396 : BitVec 32 := 0#32
  let v733 : BitVec 1 := Scalar.cmpi .eq c2_i32_395 c0_i32_396
  let c1_i32_397 : BitVec 32 := 1#32
  let v734 : BitVec 32 := Scalar.select v733 c1_i32_397 c2_i32_395
  let v735 : BitVec 32 := Scalar.remsi v732 v734
  let c0_i32_399 : BitVec 32 := 0#32
  let v737 : BitVec 1 := Scalar.cmpi .slt v735 c0_i32_399
  let c0_i32_400 : BitVec 32 := 0#32
  let v738 : BitVec 1 := Scalar.cmpi .slt v734 c0_i32_400
  let v739 : BitVec 1 := Scalar.xori v737 v738
  let c0_i32_398 : BitVec 32 := 0#32
  let v736 : BitVec 1 := Scalar.cmpi .ne v735 c0_i32_398
  let v740 : BitVec 1 := Scalar.andi v739 v736
  let v741 : BitVec 32 := Scalar.addi v735 v734
  let v742 : BitVec 32 := Scalar.select v740 v741 v735
  let v743 : BitVec 32 := Scalar.addi v721 v742
  let c1_i32_402 : BitVec 32 := 1#32
  let v744 : BitVec 32 := Scalar.muli v743 c1_i32_402
  let v745 : BitVec 32 := Scalar.addi c0_i32_403 v744
  v745.toNat
def k0_dev12 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c13_i32 : BitVec 32 := 13#32
  let v746 : BitVec 32 := Scalar.addi v76 c13_i32
  let c16_i32_404 : BitVec 32 := 16#32
  let c0_i32_405 : BitVec 32 := 0#32
  let v747 : BitVec 1 := Scalar.cmpi .eq c16_i32_404 c0_i32_405
  let c1_i32_406 : BitVec 32 := 1#32
  let v748 : BitVec 32 := Scalar.select v747 c1_i32_406 c16_i32_404
  let v749 : BitVec 32 := Scalar.remsi v746 v748
  let c0_i32_408 : BitVec 32 := 0#32
  let v751 : BitVec 1 := Scalar.cmpi .slt v749 c0_i32_408
  let c0_i32_409 : BitVec 32 := 0#32
  let v752 : BitVec 1 := Scalar.cmpi .slt v748 c0_i32_409
  let v753 : BitVec 1 := Scalar.xori v751 v752
  let c0_i32_407 : BitVec 32 := 0#32
  let v750 : BitVec 1 := Scalar.cmpi .ne v749 c0_i32_407
  let v754 : BitVec 1 := Scalar.andi v753 v750
  let v755 : BitVec 32 := Scalar.addi v749 v748
  let v756 : BitVec 32 := Scalar.select v754 v755 v749
  let c0_i32_411 : BitVec 32 := 0#32
  let v758 : BitVec 1 := Scalar.cmpi .sgt v756 c0_i32_411
  let v759 : BitVec 32 := Scalar.extui v758
  let c0_i32_412 : BitVec 32 := 0#32
  let v760 : BitVec 1 := Scalar.cmpi .slt v756 c0_i32_412
  let v761 : BitVec 32 := Scalar.extui v760
  let v762 : BitVec 32 := Scalar.subi v759 v761
  let c4_i32_410 : BitVec 32 := 4#32
  let c0_i32_413 : BitVec 32 := 0#32
  let v763 : BitVec 1 := Scalar.cmpi .sgt c4_i32_410 c0_i32_413
  let v764 : BitVec 32 := Scalar.extui v763
  let c0_i32_414 : BitVec 32 := 0#32
  let v765 : BitVec 1 := Scalar.cmpi .slt c4_i32_410 c0_i32_414
  let v766 : BitVec 32 := Scalar.extui v765
  let v767 : BitVec 32 := Scalar.subi v764 v766
  let v768 : BitVec 1 := Scalar.cmpi .ne v762 v767
  let v769 : BitVec 32 := Scalar.remsi v756 c4_i32_410
  let c0_i32_415 : BitVec 32 := 0#32
  let v770 : BitVec 1 := Scalar.cmpi .ne v769 c0_i32_415
  let v771 : BitVec 1 := Scalar.andi v768 v770
  let v757 : BitVec 32 := Scalar.divsi v756 c4_i32_410
  let c1_i32_416 : BitVec 32 := 1#32
  let v772 : BitVec 32 := Scalar.subi v757 c1_i32_416
  let v773 : BitVec 32 := Scalar.select v771 v772 v757
  let c8_i32_417 : BitVec 32 := 8#32
  let v774 : BitVec 32 := Scalar.muli v773 c8_i32_417
  let c2_i32_424 : BitVec 32 := 2#32
  let c4_i32_418 : BitVec 32 := 4#32
  let c0_i32_419 : BitVec 32 := 0#32
  let v775 : BitVec 1 := Scalar.cmpi .eq c4_i32_418 c0_i32_419
  let c1_i32_420 : BitVec 32 := 1#32
  let v776 : BitVec 32 := Scalar.select v775 c1_i32_420 c4_i32_418
  let v777 : BitVec 32 := Scalar.remsi v756 v776
  let c0_i32_422 : BitVec 32 := 0#32
  let v779 : BitVec 1 := Scalar.cmpi .slt v777 c0_i32_422
  let c0_i32_423 : BitVec 32 := 0#32
  let v780 : BitVec 1 := Scalar.cmpi .slt v776 c0_i32_423
  let v781 : BitVec 1 := Scalar.xori v779 v780
  let c0_i32_421 : BitVec 32 := 0#32
  let v778 : BitVec 1 := Scalar.cmpi .ne v777 c0_i32_421
  let v782 : BitVec 1 := Scalar.andi v781 v778
  let v783 : BitVec 32 := Scalar.addi v777 v776
  let v784 : BitVec 32 := Scalar.select v782 v783 v777
  let v785 : BitVec 32 := Scalar.muli c2_i32_424 v784
  let v786 : BitVec 32 := Scalar.addi v774 v785
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_425 : BitVec 32 := 4#32
  let c0_i32_426 : BitVec 32 := 0#32
  let v787 : BitVec 1 := Scalar.cmpi .eq c4_i32_425 c0_i32_426
  let c1_i32_427 : BitVec 32 := 1#32
  let v788 : BitVec 32 := Scalar.select v787 c1_i32_427 c4_i32_425
  let v789 : BitVec 32 := Scalar.remsi v756 v788
  let c0_i32_429 : BitVec 32 := 0#32
  let v791 : BitVec 1 := Scalar.cmpi .slt v789 c0_i32_429
  let c0_i32_430 : BitVec 32 := 0#32
  let v792 : BitVec 1 := Scalar.cmpi .slt v788 c0_i32_430
  let v793 : BitVec 1 := Scalar.xori v791 v792
  let c0_i32_428 : BitVec 32 := 0#32
  let v790 : BitVec 1 := Scalar.cmpi .ne v789 c0_i32_428
  let v794 : BitVec 1 := Scalar.andi v793 v790
  let v795 : BitVec 32 := Scalar.addi v789 v788
  let v796 : BitVec 32 := Scalar.select v794 v795 v789
  let v797 : BitVec 32 := Scalar.addi v74 v796
  let c2_i32_431 : BitVec 32 := 2#32
  let c0_i32_432 : BitVec 32 := 0#32
  let v798 : BitVec 1 := Scalar.cmpi .eq c2_i32_431 c0_i32_432
  let c1_i32_433 : BitVec 32 := 1#32
  let v799 : BitVec 32 := Scalar.select v798 c1_i32_433 c2_i32_431
  let v800 : BitVec 32 := Scalar.remsi v797 v799
  let c0_i32_435 : BitVec 32 := 0#32
  let v802 : BitVec 1 := Scalar.cmpi .slt v800 c0_i32_435
  let c0_i32_436 : BitVec 32 := 0#32
  let v803 : BitVec 1 := Scalar.cmpi .slt v799 c0_i32_436
  let v804 : BitVec 1 := Scalar.xori v802 v803
  let c0_i32_434 : BitVec 32 := 0#32
  let v801 : BitVec 1 := Scalar.cmpi .ne v800 c0_i32_434
  let v805 : BitVec 1 := Scalar.andi v804 v801
  let v806 : BitVec 32 := Scalar.addi v800 v799
  let v807 : BitVec 32 := Scalar.select v805 v806 v800
  let v808 : BitVec 32 := Scalar.addi v786 v807
  let c1_i32_438 : BitVec 32 := 1#32
  let v809 : BitVec 32 := Scalar.muli v808 c1_i32_438
  let v810 : BitVec 32 := Scalar.addi c0_i32_439 v809
  v810.toNat
def k0_dev13 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c2_i32_440 : BitVec 32 := 2#32
  let v811 : BitVec 32 := Scalar.addi v76 c2_i32_440
  let c16_i32_441 : BitVec 32 := 16#32
  let c0_i32_442 : BitVec 32 := 0#32
  let v812 : BitVec 1 := Scalar.cmpi .eq c16_i32_441 c0_i32_442
  let c1_i32_443 : BitVec 32 := 1#32
  let v813 : BitVec 32 := Scalar.select v812 c1_i32_443 c16_i32_441
  let v814 : BitVec 32 := Scalar.remsi v811 v813
  let c0_i32_445 : BitVec 32 := 0#32
  let v816 : BitVec 1 := Scalar.cmpi .slt v814 c0_i32_445
  let c0_i32_446 : BitVec 32 := 0#32
  let v817 : BitVec 1 := Scalar.cmpi .slt v813 c0_i32_446
  let v818 : BitVec 1 := Scalar.xori v816 v817
  let c0_i32_444 : BitVec 32 := 0#32
  let v815 : BitVec 1 := Scalar.cmpi .ne v814 c0_i32_444
  let v819 : BitVec 1 := Scalar.andi v818 v815
  let v820 : BitVec 32 := Scalar.addi v814 v813
  let v821 : BitVec 32 := Scalar.select v819 v820 v814
  let c0_i32_448 : BitVec 32 := 0#32
  let v823 : BitVec 1 := Scalar.cmpi .sgt v821 c0_i32_448
  let v824 : BitVec 32 := Scalar.extui v823
  let c0_i32_449 : BitVec 32 := 0#32
  let v825 : BitVec 1 := Scalar.cmpi .slt v821 c0_i32_449
  let v826 : BitVec 32 := Scalar.extui v825
  let v827 : BitVec 32 := Scalar.subi v824 v826
  let c4_i32_447 : BitVec 32 := 4#32
  let c0_i32_450 : BitVec 32 := 0#32
  let v828 : BitVec 1 := Scalar.cmpi .sgt c4_i32_447 c0_i32_450
  let v829 : BitVec 32 := Scalar.extui v828
  let c0_i32_451 : BitVec 32 := 0#32
  let v830 : BitVec 1 := Scalar.cmpi .slt c4_i32_447 c0_i32_451
  let v831 : BitVec 32 := Scalar.extui v830
  let v832 : BitVec 32 := Scalar.subi v829 v831
  let v833 : BitVec 1 := Scalar.cmpi .ne v827 v832
  let v834 : BitVec 32 := Scalar.remsi v821 c4_i32_447
  let c0_i32_452 : BitVec 32 := 0#32
  let v835 : BitVec 1 := Scalar.cmpi .ne v834 c0_i32_452
  let v836 : BitVec 1 := Scalar.andi v833 v835
  let v822 : BitVec 32 := Scalar.divsi v821 c4_i32_447
  let c1_i32_453 : BitVec 32 := 1#32
  let v837 : BitVec 32 := Scalar.subi v822 c1_i32_453
  let v838 : BitVec 32 := Scalar.select v836 v837 v822
  let c8_i32_454 : BitVec 32 := 8#32
  let v839 : BitVec 32 := Scalar.muli v838 c8_i32_454
  let c2_i32_461 : BitVec 32 := 2#32
  let c4_i32_455 : BitVec 32 := 4#32
  let c0_i32_456 : BitVec 32 := 0#32
  let v840 : BitVec 1 := Scalar.cmpi .eq c4_i32_455 c0_i32_456
  let c1_i32_457 : BitVec 32 := 1#32
  let v841 : BitVec 32 := Scalar.select v840 c1_i32_457 c4_i32_455
  let v842 : BitVec 32 := Scalar.remsi v821 v841
  let c0_i32_459 : BitVec 32 := 0#32
  let v844 : BitVec 1 := Scalar.cmpi .slt v842 c0_i32_459
  let c0_i32_460 : BitVec 32 := 0#32
  let v845 : BitVec 1 := Scalar.cmpi .slt v841 c0_i32_460
  let v846 : BitVec 1 := Scalar.xori v844 v845
  let c0_i32_458 : BitVec 32 := 0#32
  let v843 : BitVec 1 := Scalar.cmpi .ne v842 c0_i32_458
  let v847 : BitVec 1 := Scalar.andi v846 v843
  let v848 : BitVec 32 := Scalar.addi v842 v841
  let v849 : BitVec 32 := Scalar.select v847 v848 v842
  let v850 : BitVec 32 := Scalar.muli c2_i32_461 v849
  let v851 : BitVec 32 := Scalar.addi v839 v850
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_462 : BitVec 32 := 4#32
  let c0_i32_463 : BitVec 32 := 0#32
  let v852 : BitVec 1 := Scalar.cmpi .eq c4_i32_462 c0_i32_463
  let c1_i32_464 : BitVec 32 := 1#32
  let v853 : BitVec 32 := Scalar.select v852 c1_i32_464 c4_i32_462
  let v854 : BitVec 32 := Scalar.remsi v821 v853
  let c0_i32_466 : BitVec 32 := 0#32
  let v856 : BitVec 1 := Scalar.cmpi .slt v854 c0_i32_466
  let c0_i32_467 : BitVec 32 := 0#32
  let v857 : BitVec 1 := Scalar.cmpi .slt v853 c0_i32_467
  let v858 : BitVec 1 := Scalar.xori v856 v857
  let c0_i32_465 : BitVec 32 := 0#32
  let v855 : BitVec 1 := Scalar.cmpi .ne v854 c0_i32_465
  let v859 : BitVec 1 := Scalar.andi v858 v855
  let v860 : BitVec 32 := Scalar.addi v854 v853
  let v861 : BitVec 32 := Scalar.select v859 v860 v854
  let v862 : BitVec 32 := Scalar.addi v74 v861
  let c2_i32_468 : BitVec 32 := 2#32
  let c0_i32_469 : BitVec 32 := 0#32
  let v863 : BitVec 1 := Scalar.cmpi .eq c2_i32_468 c0_i32_469
  let c1_i32_470 : BitVec 32 := 1#32
  let v864 : BitVec 32 := Scalar.select v863 c1_i32_470 c2_i32_468
  let v865 : BitVec 32 := Scalar.remsi v862 v864
  let c0_i32_472 : BitVec 32 := 0#32
  let v867 : BitVec 1 := Scalar.cmpi .slt v865 c0_i32_472
  let c0_i32_473 : BitVec 32 := 0#32
  let v868 : BitVec 1 := Scalar.cmpi .slt v864 c0_i32_473
  let v869 : BitVec 1 := Scalar.xori v867 v868
  let c0_i32_471 : BitVec 32 := 0#32
  let v866 : BitVec 1 := Scalar.cmpi .ne v865 c0_i32_471
  let v870 : BitVec 1 := Scalar.andi v869 v866
  let v871 : BitVec 32 := Scalar.addi v865 v864
  let v872 : BitVec 32 := Scalar.select v870 v871 v865
  let v873 : BitVec 32 := Scalar.addi v851 v872
  let c1_i32_475 : BitVec 32 := 1#32
  let v874 : BitVec 32 := Scalar.muli v873 c1_i32_475
  let v875 : BitVec 32 := Scalar.addi c0_i32_476 v874
  v875.toNat
def k0_dev14 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c14_i32 : BitVec 32 := 14#32
  let v876 : BitVec 32 := Scalar.addi v76 c14_i32
  let c16_i32_477 : BitVec 32 := 16#32
  let c0_i32_478 : BitVec 32 := 0#32
  let v877 : BitVec 1 := Scalar.cmpi .eq c16_i32_477 c0_i32_478
  let c1_i32_479 : BitVec 32 := 1#32
  let v878 : BitVec 32 := Scalar.select v877 c1_i32_479 c16_i32_477
  let v879 : BitVec 32 := Scalar.remsi v876 v878
  let c0_i32_481 : BitVec 32 := 0#32
  let v881 : BitVec 1 := Scalar.cmpi .slt v879 c0_i32_481
  let c0_i32_482 : BitVec 32 := 0#32
  let v882 : BitVec 1 := Scalar.cmpi .slt v878 c0_i32_482
  let v883 : BitVec 1 := Scalar.xori v881 v882
  let c0_i32_480 : BitVec 32 := 0#32
  let v880 : BitVec 1 := Scalar.cmpi .ne v879 c0_i32_480
  let v884 : BitVec 1 := Scalar.andi v883 v880
  let v885 : BitVec 32 := Scalar.addi v879 v878
  let v886 : BitVec 32 := Scalar.select v884 v885 v879
  let c0_i32_484 : BitVec 32 := 0#32
  let v888 : BitVec 1 := Scalar.cmpi .sgt v886 c0_i32_484
  let v889 : BitVec 32 := Scalar.extui v888
  let c0_i32_485 : BitVec 32 := 0#32
  let v890 : BitVec 1 := Scalar.cmpi .slt v886 c0_i32_485
  let v891 : BitVec 32 := Scalar.extui v890
  let v892 : BitVec 32 := Scalar.subi v889 v891
  let c4_i32_483 : BitVec 32 := 4#32
  let c0_i32_486 : BitVec 32 := 0#32
  let v893 : BitVec 1 := Scalar.cmpi .sgt c4_i32_483 c0_i32_486
  let v894 : BitVec 32 := Scalar.extui v893
  let c0_i32_487 : BitVec 32 := 0#32
  let v895 : BitVec 1 := Scalar.cmpi .slt c4_i32_483 c0_i32_487
  let v896 : BitVec 32 := Scalar.extui v895
  let v897 : BitVec 32 := Scalar.subi v894 v896
  let v898 : BitVec 1 := Scalar.cmpi .ne v892 v897
  let v899 : BitVec 32 := Scalar.remsi v886 c4_i32_483
  let c0_i32_488 : BitVec 32 := 0#32
  let v900 : BitVec 1 := Scalar.cmpi .ne v899 c0_i32_488
  let v901 : BitVec 1 := Scalar.andi v898 v900
  let v887 : BitVec 32 := Scalar.divsi v886 c4_i32_483
  let c1_i32_489 : BitVec 32 := 1#32
  let v902 : BitVec 32 := Scalar.subi v887 c1_i32_489
  let v903 : BitVec 32 := Scalar.select v901 v902 v887
  let c8_i32_490 : BitVec 32 := 8#32
  let v904 : BitVec 32 := Scalar.muli v903 c8_i32_490
  let c2_i32_497 : BitVec 32 := 2#32
  let c4_i32_491 : BitVec 32 := 4#32
  let c0_i32_492 : BitVec 32 := 0#32
  let v905 : BitVec 1 := Scalar.cmpi .eq c4_i32_491 c0_i32_492
  let c1_i32_493 : BitVec 32 := 1#32
  let v906 : BitVec 32 := Scalar.select v905 c1_i32_493 c4_i32_491
  let v907 : BitVec 32 := Scalar.remsi v886 v906
  let c0_i32_495 : BitVec 32 := 0#32
  let v909 : BitVec 1 := Scalar.cmpi .slt v907 c0_i32_495
  let c0_i32_496 : BitVec 32 := 0#32
  let v910 : BitVec 1 := Scalar.cmpi .slt v906 c0_i32_496
  let v911 : BitVec 1 := Scalar.xori v909 v910
  let c0_i32_494 : BitVec 32 := 0#32
  let v908 : BitVec 1 := Scalar.cmpi .ne v907 c0_i32_494
  let v912 : BitVec 1 := Scalar.andi v911 v908
  let v913 : BitVec 32 := Scalar.addi v907 v906
  let v914 : BitVec 32 := Scalar.select v912 v913 v907
  let v915 : BitVec 32 := Scalar.muli c2_i32_497 v914
  let v916 : BitVec 32 := Scalar.addi v904 v915
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_498 : BitVec 32 := 4#32
  let c0_i32_499 : BitVec 32 := 0#32
  let v917 : BitVec 1 := Scalar.cmpi .eq c4_i32_498 c0_i32_499
  let c1_i32_500 : BitVec 32 := 1#32
  let v918 : BitVec 32 := Scalar.select v917 c1_i32_500 c4_i32_498
  let v919 : BitVec 32 := Scalar.remsi v886 v918
  let c0_i32_502 : BitVec 32 := 0#32
  let v921 : BitVec 1 := Scalar.cmpi .slt v919 c0_i32_502
  let c0_i32_503 : BitVec 32 := 0#32
  let v922 : BitVec 1 := Scalar.cmpi .slt v918 c0_i32_503
  let v923 : BitVec 1 := Scalar.xori v921 v922
  let c0_i32_501 : BitVec 32 := 0#32
  let v920 : BitVec 1 := Scalar.cmpi .ne v919 c0_i32_501
  let v924 : BitVec 1 := Scalar.andi v923 v920
  let v925 : BitVec 32 := Scalar.addi v919 v918
  let v926 : BitVec 32 := Scalar.select v924 v925 v919
  let v927 : BitVec 32 := Scalar.addi v74 v926
  let c2_i32_504 : BitVec 32 := 2#32
  let c0_i32_505 : BitVec 32 := 0#32
  let v928 : BitVec 1 := Scalar.cmpi .eq c2_i32_504 c0_i32_505
  let c1_i32_506 : BitVec 32 := 1#32
  let v929 : BitVec 32 := Scalar.select v928 c1_i32_506 c2_i32_504
  let v930 : BitVec 32 := Scalar.remsi v927 v929
  let c0_i32_508 : BitVec 32 := 0#32
  let v932 : BitVec 1 := Scalar.cmpi .slt v930 c0_i32_508
  let c0_i32_509 : BitVec 32 := 0#32
  let v933 : BitVec 1 := Scalar.cmpi .slt v929 c0_i32_509
  let v934 : BitVec 1 := Scalar.xori v932 v933
  let c0_i32_507 : BitVec 32 := 0#32
  let v931 : BitVec 1 := Scalar.cmpi .ne v930 c0_i32_507
  let v935 : BitVec 1 := Scalar.andi v934 v931
  let v936 : BitVec 32 := Scalar.addi v930 v929
  let v937 : BitVec 32 := Scalar.select v935 v936 v930
  let v938 : BitVec 32 := Scalar.addi v916 v937
  let c1_i32_511 : BitVec 32 := 1#32
  let v939 : BitVec 32 := Scalar.muli v938 c1_i32_511
  let v940 : BitVec 32 := Scalar.addi c0_i32_512 v939
  v940.toNat
def k0_dev15 (d0 : Dev nD) : Nat :=
  let c0_i32_549 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c1_i32_513 : BitVec 32 := 1#32
  let v941 : BitVec 32 := Scalar.addi v76 c1_i32_513
  let c16_i32_514 : BitVec 32 := 16#32
  let c0_i32_515 : BitVec 32 := 0#32
  let v942 : BitVec 1 := Scalar.cmpi .eq c16_i32_514 c0_i32_515
  let c1_i32_516 : BitVec 32 := 1#32
  let v943 : BitVec 32 := Scalar.select v942 c1_i32_516 c16_i32_514
  let v944 : BitVec 32 := Scalar.remsi v941 v943
  let c0_i32_518 : BitVec 32 := 0#32
  let v946 : BitVec 1 := Scalar.cmpi .slt v944 c0_i32_518
  let c0_i32_519 : BitVec 32 := 0#32
  let v947 : BitVec 1 := Scalar.cmpi .slt v943 c0_i32_519
  let v948 : BitVec 1 := Scalar.xori v946 v947
  let c0_i32_517 : BitVec 32 := 0#32
  let v945 : BitVec 1 := Scalar.cmpi .ne v944 c0_i32_517
  let v949 : BitVec 1 := Scalar.andi v948 v945
  let v950 : BitVec 32 := Scalar.addi v944 v943
  let v951 : BitVec 32 := Scalar.select v949 v950 v944
  let c0_i32_521 : BitVec 32 := 0#32
  let v953 : BitVec 1 := Scalar.cmpi .sgt v951 c0_i32_521
  let v954 : BitVec 32 := Scalar.extui v953
  let c0_i32_522 : BitVec 32 := 0#32
  let v955 : BitVec 1 := Scalar.cmpi .slt v951 c0_i32_522
  let v956 : BitVec 32 := Scalar.extui v955
  let v957 : BitVec 32 := Scalar.subi v954 v956
  let c4_i32_520 : BitVec 32 := 4#32
  let c0_i32_523 : BitVec 32 := 0#32
  let v958 : BitVec 1 := Scalar.cmpi .sgt c4_i32_520 c0_i32_523
  let v959 : BitVec 32 := Scalar.extui v958
  let c0_i32_524 : BitVec 32 := 0#32
  let v960 : BitVec 1 := Scalar.cmpi .slt c4_i32_520 c0_i32_524
  let v961 : BitVec 32 := Scalar.extui v960
  let v962 : BitVec 32 := Scalar.subi v959 v961
  let v963 : BitVec 1 := Scalar.cmpi .ne v957 v962
  let v964 : BitVec 32 := Scalar.remsi v951 c4_i32_520
  let c0_i32_525 : BitVec 32 := 0#32
  let v965 : BitVec 1 := Scalar.cmpi .ne v964 c0_i32_525
  let v966 : BitVec 1 := Scalar.andi v963 v965
  let v952 : BitVec 32 := Scalar.divsi v951 c4_i32_520
  let c1_i32_526 : BitVec 32 := 1#32
  let v967 : BitVec 32 := Scalar.subi v952 c1_i32_526
  let v968 : BitVec 32 := Scalar.select v966 v967 v952
  let c8_i32_527 : BitVec 32 := 8#32
  let v969 : BitVec 32 := Scalar.muli v968 c8_i32_527
  let c2_i32_534 : BitVec 32 := 2#32
  let c4_i32_528 : BitVec 32 := 4#32
  let c0_i32_529 : BitVec 32 := 0#32
  let v970 : BitVec 1 := Scalar.cmpi .eq c4_i32_528 c0_i32_529
  let c1_i32_530 : BitVec 32 := 1#32
  let v971 : BitVec 32 := Scalar.select v970 c1_i32_530 c4_i32_528
  let v972 : BitVec 32 := Scalar.remsi v951 v971
  let c0_i32_532 : BitVec 32 := 0#32
  let v974 : BitVec 1 := Scalar.cmpi .slt v972 c0_i32_532
  let c0_i32_533 : BitVec 32 := 0#32
  let v975 : BitVec 1 := Scalar.cmpi .slt v971 c0_i32_533
  let v976 : BitVec 1 := Scalar.xori v974 v975
  let c0_i32_531 : BitVec 32 := 0#32
  let v973 : BitVec 1 := Scalar.cmpi .ne v972 c0_i32_531
  let v977 : BitVec 1 := Scalar.andi v976 v973
  let v978 : BitVec 32 := Scalar.addi v972 v971
  let v979 : BitVec 32 := Scalar.select v977 v978 v972
  let v980 : BitVec 32 := Scalar.muli c2_i32_534 v979
  let v981 : BitVec 32 := Scalar.addi v969 v980
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_535 : BitVec 32 := 4#32
  let c0_i32_536 : BitVec 32 := 0#32
  let v982 : BitVec 1 := Scalar.cmpi .eq c4_i32_535 c0_i32_536
  let c1_i32_537 : BitVec 32 := 1#32
  let v983 : BitVec 32 := Scalar.select v982 c1_i32_537 c4_i32_535
  let v984 : BitVec 32 := Scalar.remsi v951 v983
  let c0_i32_539 : BitVec 32 := 0#32
  let v986 : BitVec 1 := Scalar.cmpi .slt v984 c0_i32_539
  let c0_i32_540 : BitVec 32 := 0#32
  let v987 : BitVec 1 := Scalar.cmpi .slt v983 c0_i32_540
  let v988 : BitVec 1 := Scalar.xori v986 v987
  let c0_i32_538 : BitVec 32 := 0#32
  let v985 : BitVec 1 := Scalar.cmpi .ne v984 c0_i32_538
  let v989 : BitVec 1 := Scalar.andi v988 v985
  let v990 : BitVec 32 := Scalar.addi v984 v983
  let v991 : BitVec 32 := Scalar.select v989 v990 v984
  let v992 : BitVec 32 := Scalar.addi v74 v991
  let c2_i32_541 : BitVec 32 := 2#32
  let c0_i32_542 : BitVec 32 := 0#32
  let v993 : BitVec 1 := Scalar.cmpi .eq c2_i32_541 c0_i32_542
  let c1_i32_543 : BitVec 32 := 1#32
  let v994 : BitVec 32 := Scalar.select v993 c1_i32_543 c2_i32_541
  let v995 : BitVec 32 := Scalar.remsi v992 v994
  let c0_i32_545 : BitVec 32 := 0#32
  let v997 : BitVec 1 := Scalar.cmpi .slt v995 c0_i32_545
  let c0_i32_546 : BitVec 32 := 0#32
  let v998 : BitVec 1 := Scalar.cmpi .slt v994 c0_i32_546
  let v999 : BitVec 1 := Scalar.xori v997 v998
  let c0_i32_544 : BitVec 32 := 0#32
  let v996 : BitVec 1 := Scalar.cmpi .ne v995 c0_i32_544
  let v1000 : BitVec 1 := Scalar.andi v999 v996
  let v1001 : BitVec 32 := Scalar.addi v995 v994
  let v1002 : BitVec 32 := Scalar.select v1000 v1001 v995
  let v1003 : BitVec 32 := Scalar.addi v981 v1002
  let c1_i32_548 : BitVec 32 := 1#32
  let v1004 : BitVec 32 := Scalar.muli v1003 c1_i32_548
  let v1005 : BitVec 32 := Scalar.addi c0_i32_549 v1004
  v1005.toNat
def k0_dev16 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c15_i32 : BitVec 32 := 15#32
  let v1006 : BitVec 32 := Scalar.addi v76 c15_i32
  let c16_i32_550 : BitVec 32 := 16#32
  let c0_i32_551 : BitVec 32 := 0#32
  let v1007 : BitVec 1 := Scalar.cmpi .eq c16_i32_550 c0_i32_551
  let c1_i32_552 : BitVec 32 := 1#32
  let v1008 : BitVec 32 := Scalar.select v1007 c1_i32_552 c16_i32_550
  let v1009 : BitVec 32 := Scalar.remsi v1006 v1008
  let c0_i32_554 : BitVec 32 := 0#32
  let v1011 : BitVec 1 := Scalar.cmpi .slt v1009 c0_i32_554
  let c0_i32_555 : BitVec 32 := 0#32
  let v1012 : BitVec 1 := Scalar.cmpi .slt v1008 c0_i32_555
  let v1013 : BitVec 1 := Scalar.xori v1011 v1012
  let c0_i32_553 : BitVec 32 := 0#32
  let v1010 : BitVec 1 := Scalar.cmpi .ne v1009 c0_i32_553
  let v1014 : BitVec 1 := Scalar.andi v1013 v1010
  let v1015 : BitVec 32 := Scalar.addi v1009 v1008
  let v1016 : BitVec 32 := Scalar.select v1014 v1015 v1009
  let c0_i32_557 : BitVec 32 := 0#32
  let v1018 : BitVec 1 := Scalar.cmpi .sgt v1016 c0_i32_557
  let v1019 : BitVec 32 := Scalar.extui v1018
  let c0_i32_558 : BitVec 32 := 0#32
  let v1020 : BitVec 1 := Scalar.cmpi .slt v1016 c0_i32_558
  let v1021 : BitVec 32 := Scalar.extui v1020
  let v1022 : BitVec 32 := Scalar.subi v1019 v1021
  let c4_i32_556 : BitVec 32 := 4#32
  let c0_i32_559 : BitVec 32 := 0#32
  let v1023 : BitVec 1 := Scalar.cmpi .sgt c4_i32_556 c0_i32_559
  let v1024 : BitVec 32 := Scalar.extui v1023
  let c0_i32_560 : BitVec 32 := 0#32
  let v1025 : BitVec 1 := Scalar.cmpi .slt c4_i32_556 c0_i32_560
  let v1026 : BitVec 32 := Scalar.extui v1025
  let v1027 : BitVec 32 := Scalar.subi v1024 v1026
  let v1028 : BitVec 1 := Scalar.cmpi .ne v1022 v1027
  let v1029 : BitVec 32 := Scalar.remsi v1016 c4_i32_556
  let c0_i32_561 : BitVec 32 := 0#32
  let v1030 : BitVec 1 := Scalar.cmpi .ne v1029 c0_i32_561
  let v1031 : BitVec 1 := Scalar.andi v1028 v1030
  let v1017 : BitVec 32 := Scalar.divsi v1016 c4_i32_556
  let c1_i32_562 : BitVec 32 := 1#32
  let v1032 : BitVec 32 := Scalar.subi v1017 c1_i32_562
  let v1033 : BitVec 32 := Scalar.select v1031 v1032 v1017
  let c8_i32_563 : BitVec 32 := 8#32
  let v1034 : BitVec 32 := Scalar.muli v1033 c8_i32_563
  let c2_i32_570 : BitVec 32 := 2#32
  let c4_i32_564 : BitVec 32 := 4#32
  let c0_i32_565 : BitVec 32 := 0#32
  let v1035 : BitVec 1 := Scalar.cmpi .eq c4_i32_564 c0_i32_565
  let c1_i32_566 : BitVec 32 := 1#32
  let v1036 : BitVec 32 := Scalar.select v1035 c1_i32_566 c4_i32_564
  let v1037 : BitVec 32 := Scalar.remsi v1016 v1036
  let c0_i32_568 : BitVec 32 := 0#32
  let v1039 : BitVec 1 := Scalar.cmpi .slt v1037 c0_i32_568
  let c0_i32_569 : BitVec 32 := 0#32
  let v1040 : BitVec 1 := Scalar.cmpi .slt v1036 c0_i32_569
  let v1041 : BitVec 1 := Scalar.xori v1039 v1040
  let c0_i32_567 : BitVec 32 := 0#32
  let v1038 : BitVec 1 := Scalar.cmpi .ne v1037 c0_i32_567
  let v1042 : BitVec 1 := Scalar.andi v1041 v1038
  let v1043 : BitVec 32 := Scalar.addi v1037 v1036
  let v1044 : BitVec 32 := Scalar.select v1042 v1043 v1037
  let v1045 : BitVec 32 := Scalar.muli c2_i32_570 v1044
  let v1046 : BitVec 32 := Scalar.addi v1034 v1045
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_571 : BitVec 32 := 4#32
  let c0_i32_572 : BitVec 32 := 0#32
  let v1047 : BitVec 1 := Scalar.cmpi .eq c4_i32_571 c0_i32_572
  let c1_i32_573 : BitVec 32 := 1#32
  let v1048 : BitVec 32 := Scalar.select v1047 c1_i32_573 c4_i32_571
  let v1049 : BitVec 32 := Scalar.remsi v1016 v1048
  let c0_i32_575 : BitVec 32 := 0#32
  let v1051 : BitVec 1 := Scalar.cmpi .slt v1049 c0_i32_575
  let c0_i32_576 : BitVec 32 := 0#32
  let v1052 : BitVec 1 := Scalar.cmpi .slt v1048 c0_i32_576
  let v1053 : BitVec 1 := Scalar.xori v1051 v1052
  let c0_i32_574 : BitVec 32 := 0#32
  let v1050 : BitVec 1 := Scalar.cmpi .ne v1049 c0_i32_574
  let v1054 : BitVec 1 := Scalar.andi v1053 v1050
  let v1055 : BitVec 32 := Scalar.addi v1049 v1048
  let v1056 : BitVec 32 := Scalar.select v1054 v1055 v1049
  let v1057 : BitVec 32 := Scalar.addi v74 v1056
  let c2_i32_577 : BitVec 32 := 2#32
  let c0_i32_578 : BitVec 32 := 0#32
  let v1058 : BitVec 1 := Scalar.cmpi .eq c2_i32_577 c0_i32_578
  let c1_i32_579 : BitVec 32 := 1#32
  let v1059 : BitVec 32 := Scalar.select v1058 c1_i32_579 c2_i32_577
  let v1060 : BitVec 32 := Scalar.remsi v1057 v1059
  let c0_i32_581 : BitVec 32 := 0#32
  let v1062 : BitVec 1 := Scalar.cmpi .slt v1060 c0_i32_581
  let c0_i32_582 : BitVec 32 := 0#32
  let v1063 : BitVec 1 := Scalar.cmpi .slt v1059 c0_i32_582
  let v1064 : BitVec 1 := Scalar.xori v1062 v1063
  let c0_i32_580 : BitVec 32 := 0#32
  let v1061 : BitVec 1 := Scalar.cmpi .ne v1060 c0_i32_580
  let v1065 : BitVec 1 := Scalar.andi v1064 v1061
  let v1066 : BitVec 32 := Scalar.addi v1060 v1059
  let v1067 : BitVec 32 := Scalar.select v1065 v1066 v1060
  let v1068 : BitVec 32 := Scalar.addi v1046 v1067
  let c1_i32_584 : BitVec 32 := 1#32
  let v1069 : BitVec 32 := Scalar.muli v1068 c1_i32_584
  let v1070 : BitVec 32 := Scalar.addi c0_i32_585 v1069
  v1070.toNat
def k0_off1 (d0 : Dev nD) (c8_i32_587 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let v1071 : BitVec 32 := Scalar.addi v76 c8_i32_587
  let c16_i32_588 : BitVec 32 := 16#32
  let c0_i32_589 : BitVec 32 := 0#32
  let v1072 : BitVec 1 := Scalar.cmpi .eq c16_i32_588 c0_i32_589
  let c1_i32_590 : BitVec 32 := 1#32
  let v1073 : BitVec 32 := Scalar.select v1072 c1_i32_590 c16_i32_588
  let v1074 : BitVec 32 := Scalar.remsi v1071 v1073
  let c0_i32_592 : BitVec 32 := 0#32
  let v1076 : BitVec 1 := Scalar.cmpi .slt v1074 c0_i32_592
  let c0_i32_593 : BitVec 32 := 0#32
  let v1077 : BitVec 1 := Scalar.cmpi .slt v1073 c0_i32_593
  let v1078 : BitVec 1 := Scalar.xori v1076 v1077
  let c0_i32_591 : BitVec 32 := 0#32
  let v1075 : BitVec 1 := Scalar.cmpi .ne v1074 c0_i32_591
  let v1079 : BitVec 1 := Scalar.andi v1078 v1075
  let v1080 : BitVec 32 := Scalar.addi v1074 v1073
  let v1081 : BitVec 32 := Scalar.select v1079 v1080 v1074
  let c0_i32_596 : BitVec 32 := 0#32
  let v1084 : BitVec 1 := Scalar.cmpi .sgt v1081 c0_i32_596
  let v1085 : BitVec 32 := Scalar.extui v1084
  let c0_i32_597 : BitVec 32 := 0#32
  let v1086 : BitVec 1 := Scalar.cmpi .slt v1081 c0_i32_597
  let v1087 : BitVec 32 := Scalar.extui v1086
  let v1088 : BitVec 32 := Scalar.subi v1085 v1087
  let c4_i32_595 : BitVec 32 := 4#32
  let c0_i32_598 : BitVec 32 := 0#32
  let v1089 : BitVec 1 := Scalar.cmpi .sgt c4_i32_595 c0_i32_598
  let v1090 : BitVec 32 := Scalar.extui v1089
  let c0_i32_599 : BitVec 32 := 0#32
  let v1091 : BitVec 1 := Scalar.cmpi .slt c4_i32_595 c0_i32_599
  let v1092 : BitVec 32 := Scalar.extui v1091
  let v1093 : BitVec 32 := Scalar.subi v1090 v1092
  let v1094 : BitVec 1 := Scalar.cmpi .ne v1088 v1093
  let v1095 : BitVec 32 := Scalar.remsi v1081 c4_i32_595
  let c0_i32_600 : BitVec 32 := 0#32
  let v1096 : BitVec 1 := Scalar.cmpi .ne v1095 c0_i32_600
  let v1097 : BitVec 1 := Scalar.andi v1094 v1096
  let v1083 : BitVec 32 := Scalar.divsi v1081 c4_i32_595
  let c1_i32_601 : BitVec 32 := 1#32
  let v1098 : BitVec 32 := Scalar.subi v1083 c1_i32_601
  let v1099 : BitVec 32 := Scalar.select v1097 v1098 v1083
  let c8_i32_602 : BitVec 32 := 8#32
  let v1100 : BitVec 32 := Scalar.muli v1099 c8_i32_602
  let c2_i32_609 : BitVec 32 := 2#32
  let c4_i32_603 : BitVec 32 := 4#32
  let c0_i32_604 : BitVec 32 := 0#32
  let v1101 : BitVec 1 := Scalar.cmpi .eq c4_i32_603 c0_i32_604
  let c1_i32_605 : BitVec 32 := 1#32
  let v1102 : BitVec 32 := Scalar.select v1101 c1_i32_605 c4_i32_603
  let v1103 : BitVec 32 := Scalar.remsi v1081 v1102
  let c0_i32_607 : BitVec 32 := 0#32
  let v1105 : BitVec 1 := Scalar.cmpi .slt v1103 c0_i32_607
  let c0_i32_608 : BitVec 32 := 0#32
  let v1106 : BitVec 1 := Scalar.cmpi .slt v1102 c0_i32_608
  let v1107 : BitVec 1 := Scalar.xori v1105 v1106
  let c0_i32_606 : BitVec 32 := 0#32
  let v1104 : BitVec 1 := Scalar.cmpi .ne v1103 c0_i32_606
  let v1108 : BitVec 1 := Scalar.andi v1107 v1104
  let v1109 : BitVec 32 := Scalar.addi v1103 v1102
  let v1110 : BitVec 32 := Scalar.select v1108 v1109 v1103
  let v1111 : BitVec 32 := Scalar.muli c2_i32_609 v1110
  let v1112 : BitVec 32 := Scalar.addi v1100 v1111
  let c1_i32_594 : BitVec 32 := 1#32
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let v1082 : BitVec 32 := Scalar.subi c1_i32_594 v74
  let c4_i32_610 : BitVec 32 := 4#32
  let c0_i32_611 : BitVec 32 := 0#32
  let v1113 : BitVec 1 := Scalar.cmpi .eq c4_i32_610 c0_i32_611
  let c1_i32_612 : BitVec 32 := 1#32
  let v1114 : BitVec 32 := Scalar.select v1113 c1_i32_612 c4_i32_610
  let v1115 : BitVec 32 := Scalar.remsi v1081 v1114
  let c0_i32_614 : BitVec 32 := 0#32
  let v1117 : BitVec 1 := Scalar.cmpi .slt v1115 c0_i32_614
  let c0_i32_615 : BitVec 32 := 0#32
  let v1118 : BitVec 1 := Scalar.cmpi .slt v1114 c0_i32_615
  let v1119 : BitVec 1 := Scalar.xori v1117 v1118
  let c0_i32_613 : BitVec 32 := 0#32
  let v1116 : BitVec 1 := Scalar.cmpi .ne v1115 c0_i32_613
  let v1120 : BitVec 1 := Scalar.andi v1119 v1116
  let v1121 : BitVec 32 := Scalar.addi v1115 v1114
  let v1122 : BitVec 32 := Scalar.select v1120 v1121 v1115
  let v1123 : BitVec 32 := Scalar.addi v1082 v1122
  let c2_i32_616 : BitVec 32 := 2#32
  let c0_i32_617 : BitVec 32 := 0#32
  let v1124 : BitVec 1 := Scalar.cmpi .eq c2_i32_616 c0_i32_617
  let c1_i32_618 : BitVec 32 := 1#32
  let v1125 : BitVec 32 := Scalar.select v1124 c1_i32_618 c2_i32_616
  let v1126 : BitVec 32 := Scalar.remsi v1123 v1125
  let c0_i32_620 : BitVec 32 := 0#32
  let v1128 : BitVec 1 := Scalar.cmpi .slt v1126 c0_i32_620
  let c0_i32_621 : BitVec 32 := 0#32
  let v1129 : BitVec 1 := Scalar.cmpi .slt v1125 c0_i32_621
  let v1130 : BitVec 1 := Scalar.xori v1128 v1129
  let c0_i32_619 : BitVec 32 := 0#32
  let v1127 : BitVec 1 := Scalar.cmpi .ne v1126 c0_i32_619
  let v1131 : BitVec 1 := Scalar.andi v1130 v1127
  let v1132 : BitVec 32 := Scalar.addi v1126 v1125
  let v1133 : BitVec 32 := Scalar.select v1131 v1132 v1126
  let v1134 : BitVec 32 := Scalar.addi v1112 v1133
  let c32_i32_622 : BitVec 32 := 32#32
  let v1135 : BitVec 32 := Scalar.muli v1134 c32_i32_622
  let v1136 : Index := Scalar.indexCast v1135
  let c0 : Index := 0#32
  ![v1136.toNat, 0]
def k0_dev17 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_630 : BitVec 32 := 1#32
  let v1145 : BitVec 32 := Scalar.muli v92 c1_i32_630
  let v1146 : BitVec 32 := Scalar.addi c0_i32_631 v1145
  v1146.toNat
def k0_dev18 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_682 : BitVec 32 := 1#32
  let v1227 : BitVec 32 := Scalar.muli v92 c1_i32_682
  let v1228 : BitVec 32 := Scalar.addi c0_i32_683 v1227
  v1228.toNat
def k0_dev19 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_734 : BitVec 32 := 1#32
  let v1309 : BitVec 32 := Scalar.muli v92 c1_i32_734
  let v1310 : BitVec 32 := Scalar.addi c0_i32_735 v1309
  v1310.toNat
def k0_dev20 (d0 : Dev nD) : Nat :=
  let c0_i32_787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_786 : BitVec 32 := 1#32
  let v1391 : BitVec 32 := Scalar.muli v92 c1_i32_786
  let v1392 : BitVec 32 := Scalar.addi c0_i32_787 v1391
  v1392.toNat
def k0_dev21 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_838 : BitVec 32 := 1#32
  let v1473 : BitVec 32 := Scalar.muli v92 c1_i32_838
  let v1474 : BitVec 32 := Scalar.addi c0_i32_839 v1473
  v1474.toNat
def k0_dev22 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_890 : BitVec 32 := 1#32
  let v1555 : BitVec 32 := Scalar.muli v92 c1_i32_890
  let v1556 : BitVec 32 := Scalar.addi c0_i32_891 v1555
  v1556.toNat
def k0_dev23 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_942 : BitVec 32 := 1#32
  let v1637 : BitVec 32 := Scalar.muli v92 c1_i32_942
  let v1638 : BitVec 32 := Scalar.addi c0_i32_943 v1637
  v1638.toNat
def k0_dev24 (d0 : Dev nD) : Nat :=
  let c0_i32_995 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_994 : BitVec 32 := 1#32
  let v1719 : BitVec 32 := Scalar.muli v92 c1_i32_994
  let v1720 : BitVec 32 := Scalar.addi c0_i32_995 v1719
  v1720.toNat
def k0_dev25 (d0 : Dev nD) : Nat :=
  let c0_i32_1047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_1046 : BitVec 32 := 1#32
  let v1801 : BitVec 32 := Scalar.muli v92 c1_i32_1046
  let v1802 : BitVec 32 := Scalar.addi c0_i32_1047 v1801
  v1802.toNat
def k0_dev26 (d0 : Dev nD) : Nat :=
  let c0_i32_1099 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_1098 : BitVec 32 := 1#32
  let v1883 : BitVec 32 := Scalar.muli v92 c1_i32_1098
  let v1884 : BitVec 32 := Scalar.addi c0_i32_1099 v1883
  v1884.toNat
def k0_dev27 (d0 : Dev nD) : Nat :=
  let c0_i32_1151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_1150 : BitVec 32 := 1#32
  let v1965 : BitVec 32 := Scalar.muli v92 c1_i32_1150
  let v1966 : BitVec 32 := Scalar.addi c0_i32_1151 v1965
  v1966.toNat
def k0_dev28 (d0 : Dev nD) : Nat :=
  let c0_i32_1203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_1202 : BitVec 32 := 1#32
  let v2047 : BitVec 32 := Scalar.muli v92 c1_i32_1202
  let v2048 : BitVec 32 := Scalar.addi c0_i32_1203 v2047
  v2048.toNat
def k0_dev29 (d0 : Dev nD) : Nat :=
  let c0_i32_1255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_1254 : BitVec 32 := 1#32
  let v2129 : BitVec 32 := Scalar.muli v92 c1_i32_1254
  let v2130 : BitVec 32 := Scalar.addi c0_i32_1255 v2129
  v2130.toNat
def k0_dev30 (d0 : Dev nD) : Nat :=
  let c0_i32_1307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_1306 : BitVec 32 := 1#32
  let v2211 : BitVec 32 := Scalar.muli v92 c1_i32_1306
  let v2212 : BitVec 32 := Scalar.addi c0_i32_1307 v2211
  v2212.toNat
def k0_dev31 (d0 : Dev nD) : Nat :=
  let c0_i32_1359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_1358 : BitVec 32 := 1#32
  let v2293 : BitVec 32 := Scalar.muli v92 c1_i32_1358
  let v2294 : BitVec 32 := Scalar.addi c0_i32_1359 v2293
  v2294.toNat
def k0_dev32 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c8_i32_31 : BitVec 32 := 8#32
  let v77 : BitVec 32 := Scalar.muli v29 c8_i32_31
  let c2_i32_32 : BitVec 32 := 2#32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v78 : BitVec 32 := Scalar.muli c2_i32_32 v46
  let v79 : BitVec 32 := Scalar.addi v77 v78
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c1_i32_33 : BitVec 32 := 1#32
  let v80 : BitVec 32 := Scalar.addi v74 c1_i32_33
  let v81 : BitVec 32 := Scalar.addi v80 v46
  let c2_i32_34 : BitVec 32 := 2#32
  let c0_i32_35 : BitVec 32 := 0#32
  let v82 : BitVec 1 := Scalar.cmpi .eq c2_i32_34 c0_i32_35
  let c1_i32_36 : BitVec 32 := 1#32
  let v83 : BitVec 32 := Scalar.select v82 c1_i32_36 c2_i32_34
  let v84 : BitVec 32 := Scalar.remsi v81 v83
  let c0_i32_38 : BitVec 32 := 0#32
  let v86 : BitVec 1 := Scalar.cmpi .slt v84 c0_i32_38
  let c0_i32_39 : BitVec 32 := 0#32
  let v87 : BitVec 1 := Scalar.cmpi .slt v83 c0_i32_39
  let v88 : BitVec 1 := Scalar.xori v86 v87
  let c0_i32_37 : BitVec 32 := 0#32
  let v85 : BitVec 1 := Scalar.cmpi .ne v84 c0_i32_37
  let v89 : BitVec 1 := Scalar.andi v88 v85
  let v90 : BitVec 32 := Scalar.addi v84 v83
  let v91 : BitVec 32 := Scalar.select v89 v90 v84
  let v92 : BitVec 32 := Scalar.addi v79 v91
  let c1_i32_1410 : BitVec 32 := 1#32
  let v2375 : BitVec 32 := Scalar.muli v92 c1_i32_1410
  let v2376 : BitVec 32 := Scalar.addi c0_i32_1411 v2375
  v2376.toNat
def k0_off2 (d0 : Dev nD) (c8_i32_1428 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let v2389 : BitVec 32 := Scalar.addi v76 c8_i32_1428
  let c16_i32_1429 : BitVec 32 := 16#32
  let c0_i32_1430 : BitVec 32 := 0#32
  let v2390 : BitVec 1 := Scalar.cmpi .eq c16_i32_1429 c0_i32_1430
  let c1_i32_1431 : BitVec 32 := 1#32
  let v2391 : BitVec 32 := Scalar.select v2390 c1_i32_1431 c16_i32_1429
  let v2392 : BitVec 32 := Scalar.remsi v2389 v2391
  let c0_i32_1433 : BitVec 32 := 0#32
  let v2394 : BitVec 1 := Scalar.cmpi .slt v2392 c0_i32_1433
  let c0_i32_1434 : BitVec 32 := 0#32
  let v2395 : BitVec 1 := Scalar.cmpi .slt v2391 c0_i32_1434
  let v2396 : BitVec 1 := Scalar.xori v2394 v2395
  let c0_i32_1432 : BitVec 32 := 0#32
  let v2393 : BitVec 1 := Scalar.cmpi .ne v2392 c0_i32_1432
  let v2397 : BitVec 1 := Scalar.andi v2396 v2393
  let v2398 : BitVec 32 := Scalar.addi v2392 v2391
  let v2399 : BitVec 32 := Scalar.select v2397 v2398 v2392
  let c0_i32_1436 : BitVec 32 := 0#32
  let v2401 : BitVec 1 := Scalar.cmpi .sgt v2399 c0_i32_1436
  let v2402 : BitVec 32 := Scalar.extui v2401
  let c0_i32_1437 : BitVec 32 := 0#32
  let v2403 : BitVec 1 := Scalar.cmpi .slt v2399 c0_i32_1437
  let v2404 : BitVec 32 := Scalar.extui v2403
  let v2405 : BitVec 32 := Scalar.subi v2402 v2404
  let c4_i32_1435 : BitVec 32 := 4#32
  let c0_i32_1438 : BitVec 32 := 0#32
  let v2406 : BitVec 1 := Scalar.cmpi .sgt c4_i32_1435 c0_i32_1438
  let v2407 : BitVec 32 := Scalar.extui v2406
  let c0_i32_1439 : BitVec 32 := 0#32
  let v2408 : BitVec 1 := Scalar.cmpi .slt c4_i32_1435 c0_i32_1439
  let v2409 : BitVec 32 := Scalar.extui v2408
  let v2410 : BitVec 32 := Scalar.subi v2407 v2409
  let v2411 : BitVec 1 := Scalar.cmpi .ne v2405 v2410
  let v2412 : BitVec 32 := Scalar.remsi v2399 c4_i32_1435
  let c0_i32_1440 : BitVec 32 := 0#32
  let v2413 : BitVec 1 := Scalar.cmpi .ne v2412 c0_i32_1440
  let v2414 : BitVec 1 := Scalar.andi v2411 v2413
  let v2400 : BitVec 32 := Scalar.divsi v2399 c4_i32_1435
  let c1_i32_1441 : BitVec 32 := 1#32
  let v2415 : BitVec 32 := Scalar.subi v2400 c1_i32_1441
  let v2416 : BitVec 32 := Scalar.select v2414 v2415 v2400
  let c8_i32_1442 : BitVec 32 := 8#32
  let v2417 : BitVec 32 := Scalar.muli v2416 c8_i32_1442
  let c2_i32_1449 : BitVec 32 := 2#32
  let c4_i32_1443 : BitVec 32 := 4#32
  let c0_i32_1444 : BitVec 32 := 0#32
  let v2418 : BitVec 1 := Scalar.cmpi .eq c4_i32_1443 c0_i32_1444
  let c1_i32_1445 : BitVec 32 := 1#32
  let v2419 : BitVec 32 := Scalar.select v2418 c1_i32_1445 c4_i32_1443
  let v2420 : BitVec 32 := Scalar.remsi v2399 v2419
  let c0_i32_1447 : BitVec 32 := 0#32
  let v2422 : BitVec 1 := Scalar.cmpi .slt v2420 c0_i32_1447
  let c0_i32_1448 : BitVec 32 := 0#32
  let v2423 : BitVec 1 := Scalar.cmpi .slt v2419 c0_i32_1448
  let v2424 : BitVec 1 := Scalar.xori v2422 v2423
  let c0_i32_1446 : BitVec 32 := 0#32
  let v2421 : BitVec 1 := Scalar.cmpi .ne v2420 c0_i32_1446
  let v2425 : BitVec 1 := Scalar.andi v2424 v2421
  let v2426 : BitVec 32 := Scalar.addi v2420 v2419
  let v2427 : BitVec 32 := Scalar.select v2425 v2426 v2420
  let v2428 : BitVec 32 := Scalar.muli c2_i32_1449 v2427
  let v2429 : BitVec 32 := Scalar.addi v2417 v2428
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_1450 : BitVec 32 := 4#32
  let c0_i32_1451 : BitVec 32 := 0#32
  let v2430 : BitVec 1 := Scalar.cmpi .eq c4_i32_1450 c0_i32_1451
  let c1_i32_1452 : BitVec 32 := 1#32
  let v2431 : BitVec 32 := Scalar.select v2430 c1_i32_1452 c4_i32_1450
  let v2432 : BitVec 32 := Scalar.remsi v2399 v2431
  let c0_i32_1454 : BitVec 32 := 0#32
  let v2434 : BitVec 1 := Scalar.cmpi .slt v2432 c0_i32_1454
  let c0_i32_1455 : BitVec 32 := 0#32
  let v2435 : BitVec 1 := Scalar.cmpi .slt v2431 c0_i32_1455
  let v2436 : BitVec 1 := Scalar.xori v2434 v2435
  let c0_i32_1453 : BitVec 32 := 0#32
  let v2433 : BitVec 1 := Scalar.cmpi .ne v2432 c0_i32_1453
  let v2437 : BitVec 1 := Scalar.andi v2436 v2433
  let v2438 : BitVec 32 := Scalar.addi v2432 v2431
  let v2439 : BitVec 32 := Scalar.select v2437 v2438 v2432
  let v2440 : BitVec 32 := Scalar.addi v74 v2439
  let c2_i32_1456 : BitVec 32 := 2#32
  let c0_i32_1457 : BitVec 32 := 0#32
  let v2441 : BitVec 1 := Scalar.cmpi .eq c2_i32_1456 c0_i32_1457
  let c1_i32_1458 : BitVec 32 := 1#32
  let v2442 : BitVec 32 := Scalar.select v2441 c1_i32_1458 c2_i32_1456
  let v2443 : BitVec 32 := Scalar.remsi v2440 v2442
  let c0_i32_1460 : BitVec 32 := 0#32
  let v2445 : BitVec 1 := Scalar.cmpi .slt v2443 c0_i32_1460
  let c0_i32_1461 : BitVec 32 := 0#32
  let v2446 : BitVec 1 := Scalar.cmpi .slt v2442 c0_i32_1461
  let v2447 : BitVec 1 := Scalar.xori v2445 v2446
  let c0_i32_1459 : BitVec 32 := 0#32
  let v2444 : BitVec 1 := Scalar.cmpi .ne v2443 c0_i32_1459
  let v2448 : BitVec 1 := Scalar.andi v2447 v2444
  let v2449 : BitVec 32 := Scalar.addi v2443 v2442
  let v2450 : BitVec 32 := Scalar.select v2448 v2449 v2443
  let v2451 : BitVec 32 := Scalar.addi v2429 v2450
  let c32_i32_1462 : BitVec 32 := 32#32
  let v2452 : BitVec 32 := Scalar.muli v2451 c32_i32_1462
  let v2453 : Index := Scalar.indexCast v2452
  let c0_1463 : Index := 0#32
  ![v2453.toNat, 0]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  ![v76.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c0_i32_1477 : BitVec 32 := 0#32
  let c0_i32_1478 : BitVec 32 := 0#32
  ![v76.toNat, 0, 0]
def k0_dev33 (d0 : Dev nD) : Nat :=
  let c0_i32_1476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c8_i32_1428 : BitVec 32 := 8#32
  let v2389 : BitVec 32 := Scalar.addi v76 c8_i32_1428
  let c16_i32_1429 : BitVec 32 := 16#32
  let c0_i32_1430 : BitVec 32 := 0#32
  let v2390 : BitVec 1 := Scalar.cmpi .eq c16_i32_1429 c0_i32_1430
  let c1_i32_1431 : BitVec 32 := 1#32
  let v2391 : BitVec 32 := Scalar.select v2390 c1_i32_1431 c16_i32_1429
  let v2392 : BitVec 32 := Scalar.remsi v2389 v2391
  let c0_i32_1433 : BitVec 32 := 0#32
  let v2394 : BitVec 1 := Scalar.cmpi .slt v2392 c0_i32_1433
  let c0_i32_1434 : BitVec 32 := 0#32
  let v2395 : BitVec 1 := Scalar.cmpi .slt v2391 c0_i32_1434
  let v2396 : BitVec 1 := Scalar.xori v2394 v2395
  let c0_i32_1432 : BitVec 32 := 0#32
  let v2393 : BitVec 1 := Scalar.cmpi .ne v2392 c0_i32_1432
  let v2397 : BitVec 1 := Scalar.andi v2396 v2393
  let v2398 : BitVec 32 := Scalar.addi v2392 v2391
  let v2399 : BitVec 32 := Scalar.select v2397 v2398 v2392
  let c0_i32_1436 : BitVec 32 := 0#32
  let v2401 : BitVec 1 := Scalar.cmpi .sgt v2399 c0_i32_1436
  let v2402 : BitVec 32 := Scalar.extui v2401
  let c0_i32_1437 : BitVec 32 := 0#32
  let v2403 : BitVec 1 := Scalar.cmpi .slt v2399 c0_i32_1437
  let v2404 : BitVec 32 := Scalar.extui v2403
  let v2405 : BitVec 32 := Scalar.subi v2402 v2404
  let c4_i32_1435 : BitVec 32 := 4#32
  let c0_i32_1438 : BitVec 32 := 0#32
  let v2406 : BitVec 1 := Scalar.cmpi .sgt c4_i32_1435 c0_i32_1438
  let v2407 : BitVec 32 := Scalar.extui v2406
  let c0_i32_1439 : BitVec 32 := 0#32
  let v2408 : BitVec 1 := Scalar.cmpi .slt c4_i32_1435 c0_i32_1439
  let v2409 : BitVec 32 := Scalar.extui v2408
  let v2410 : BitVec 32 := Scalar.subi v2407 v2409
  let v2411 : BitVec 1 := Scalar.cmpi .ne v2405 v2410
  let v2412 : BitVec 32 := Scalar.remsi v2399 c4_i32_1435
  let c0_i32_1440 : BitVec 32 := 0#32
  let v2413 : BitVec 1 := Scalar.cmpi .ne v2412 c0_i32_1440
  let v2414 : BitVec 1 := Scalar.andi v2411 v2413
  let v2400 : BitVec 32 := Scalar.divsi v2399 c4_i32_1435
  let c1_i32_1441 : BitVec 32 := 1#32
  let v2415 : BitVec 32 := Scalar.subi v2400 c1_i32_1441
  let v2416 : BitVec 32 := Scalar.select v2414 v2415 v2400
  let c8_i32_1442 : BitVec 32 := 8#32
  let v2417 : BitVec 32 := Scalar.muli v2416 c8_i32_1442
  let c2_i32_1449 : BitVec 32 := 2#32
  let c4_i32_1443 : BitVec 32 := 4#32
  let c0_i32_1444 : BitVec 32 := 0#32
  let v2418 : BitVec 1 := Scalar.cmpi .eq c4_i32_1443 c0_i32_1444
  let c1_i32_1445 : BitVec 32 := 1#32
  let v2419 : BitVec 32 := Scalar.select v2418 c1_i32_1445 c4_i32_1443
  let v2420 : BitVec 32 := Scalar.remsi v2399 v2419
  let c0_i32_1447 : BitVec 32 := 0#32
  let v2422 : BitVec 1 := Scalar.cmpi .slt v2420 c0_i32_1447
  let c0_i32_1448 : BitVec 32 := 0#32
  let v2423 : BitVec 1 := Scalar.cmpi .slt v2419 c0_i32_1448
  let v2424 : BitVec 1 := Scalar.xori v2422 v2423
  let c0_i32_1446 : BitVec 32 := 0#32
  let v2421 : BitVec 1 := Scalar.cmpi .ne v2420 c0_i32_1446
  let v2425 : BitVec 1 := Scalar.andi v2424 v2421
  let v2426 : BitVec 32 := Scalar.addi v2420 v2419
  let v2427 : BitVec 32 := Scalar.select v2425 v2426 v2420
  let v2428 : BitVec 32 := Scalar.muli c2_i32_1449 v2427
  let v2429 : BitVec 32 := Scalar.addi v2417 v2428
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_1450 : BitVec 32 := 4#32
  let c0_i32_1451 : BitVec 32 := 0#32
  let v2430 : BitVec 1 := Scalar.cmpi .eq c4_i32_1450 c0_i32_1451
  let c1_i32_1452 : BitVec 32 := 1#32
  let v2431 : BitVec 32 := Scalar.select v2430 c1_i32_1452 c4_i32_1450
  let v2432 : BitVec 32 := Scalar.remsi v2399 v2431
  let c0_i32_1454 : BitVec 32 := 0#32
  let v2434 : BitVec 1 := Scalar.cmpi .slt v2432 c0_i32_1454
  let c0_i32_1455 : BitVec 32 := 0#32
  let v2435 : BitVec 1 := Scalar.cmpi .slt v2431 c0_i32_1455
  let v2436 : BitVec 1 := Scalar.xori v2434 v2435
  let c0_i32_1453 : BitVec 32 := 0#32
  let v2433 : BitVec 1 := Scalar.cmpi .ne v2432 c0_i32_1453
  let v2437 : BitVec 1 := Scalar.andi v2436 v2433
  let v2438 : BitVec 32 := Scalar.addi v2432 v2431
  let v2439 : BitVec 32 := Scalar.select v2437 v2438 v2432
  let v2440 : BitVec 32 := Scalar.addi v74 v2439
  let c2_i32_1456 : BitVec 32 := 2#32
  let c0_i32_1457 : BitVec 32 := 0#32
  let v2441 : BitVec 1 := Scalar.cmpi .eq c2_i32_1456 c0_i32_1457
  let c1_i32_1458 : BitVec 32 := 1#32
  let v2442 : BitVec 32 := Scalar.select v2441 c1_i32_1458 c2_i32_1456
  let v2443 : BitVec 32 := Scalar.remsi v2440 v2442
  let c0_i32_1460 : BitVec 32 := 0#32
  let v2445 : BitVec 1 := Scalar.cmpi .slt v2443 c0_i32_1460
  let c0_i32_1461 : BitVec 32 := 0#32
  let v2446 : BitVec 1 := Scalar.cmpi .slt v2442 c0_i32_1461
  let v2447 : BitVec 1 := Scalar.xori v2445 v2446
  let c0_i32_1459 : BitVec 32 := 0#32
  let v2444 : BitVec 1 := Scalar.cmpi .ne v2443 c0_i32_1459
  let v2448 : BitVec 1 := Scalar.andi v2447 v2444
  let v2449 : BitVec 32 := Scalar.addi v2443 v2442
  let v2450 : BitVec 32 := Scalar.select v2448 v2449 v2443
  let v2451 : BitVec 32 := Scalar.addi v2429 v2450
  let c1_i32_1475 : BitVec 32 := 1#32
  let v2465 : BitVec 32 := Scalar.muli v2451 c1_i32_1475
  let v2466 : BitVec 32 := Scalar.addi c0_i32_1476 v2465
  v2466.toNat
def k0_dev34 (d0 : Dev nD) : Nat :=
  let c0_i32_1539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c7_i32_1491 : BitVec 32 := 7#32
  let v2481 : BitVec 32 := Scalar.addi v76 c7_i32_1491
  let c16_i32_1492 : BitVec 32 := 16#32
  let c0_i32_1493 : BitVec 32 := 0#32
  let v2482 : BitVec 1 := Scalar.cmpi .eq c16_i32_1492 c0_i32_1493
  let c1_i32_1494 : BitVec 32 := 1#32
  let v2483 : BitVec 32 := Scalar.select v2482 c1_i32_1494 c16_i32_1492
  let v2484 : BitVec 32 := Scalar.remsi v2481 v2483
  let c0_i32_1496 : BitVec 32 := 0#32
  let v2486 : BitVec 1 := Scalar.cmpi .slt v2484 c0_i32_1496
  let c0_i32_1497 : BitVec 32 := 0#32
  let v2487 : BitVec 1 := Scalar.cmpi .slt v2483 c0_i32_1497
  let v2488 : BitVec 1 := Scalar.xori v2486 v2487
  let c0_i32_1495 : BitVec 32 := 0#32
  let v2485 : BitVec 1 := Scalar.cmpi .ne v2484 c0_i32_1495
  let v2489 : BitVec 1 := Scalar.andi v2488 v2485
  let v2490 : BitVec 32 := Scalar.addi v2484 v2483
  let v2491 : BitVec 32 := Scalar.select v2489 v2490 v2484
  let c0_i32_1499 : BitVec 32 := 0#32
  let v2493 : BitVec 1 := Scalar.cmpi .sgt v2491 c0_i32_1499
  let v2494 : BitVec 32 := Scalar.extui v2493
  let c0_i32_1500 : BitVec 32 := 0#32
  let v2495 : BitVec 1 := Scalar.cmpi .slt v2491 c0_i32_1500
  let v2496 : BitVec 32 := Scalar.extui v2495
  let v2497 : BitVec 32 := Scalar.subi v2494 v2496
  let c4_i32_1498 : BitVec 32 := 4#32
  let c0_i32_1501 : BitVec 32 := 0#32
  let v2498 : BitVec 1 := Scalar.cmpi .sgt c4_i32_1498 c0_i32_1501
  let v2499 : BitVec 32 := Scalar.extui v2498
  let c0_i32_1502 : BitVec 32 := 0#32
  let v2500 : BitVec 1 := Scalar.cmpi .slt c4_i32_1498 c0_i32_1502
  let v2501 : BitVec 32 := Scalar.extui v2500
  let v2502 : BitVec 32 := Scalar.subi v2499 v2501
  let v2503 : BitVec 1 := Scalar.cmpi .ne v2497 v2502
  let v2504 : BitVec 32 := Scalar.remsi v2491 c4_i32_1498
  let c0_i32_1503 : BitVec 32 := 0#32
  let v2505 : BitVec 1 := Scalar.cmpi .ne v2504 c0_i32_1503
  let v2506 : BitVec 1 := Scalar.andi v2503 v2505
  let v2492 : BitVec 32 := Scalar.divsi v2491 c4_i32_1498
  let c1_i32_1504 : BitVec 32 := 1#32
  let v2507 : BitVec 32 := Scalar.subi v2492 c1_i32_1504
  let v2508 : BitVec 32 := Scalar.select v2506 v2507 v2492
  let c8_i32_1505 : BitVec 32 := 8#32
  let v2509 : BitVec 32 := Scalar.muli v2508 c8_i32_1505
  let c2_i32_1512 : BitVec 32 := 2#32
  let c4_i32_1506 : BitVec 32 := 4#32
  let c0_i32_1507 : BitVec 32 := 0#32
  let v2510 : BitVec 1 := Scalar.cmpi .eq c4_i32_1506 c0_i32_1507
  let c1_i32_1508 : BitVec 32 := 1#32
  let v2511 : BitVec 32 := Scalar.select v2510 c1_i32_1508 c4_i32_1506
  let v2512 : BitVec 32 := Scalar.remsi v2491 v2511
  let c0_i32_1510 : BitVec 32 := 0#32
  let v2514 : BitVec 1 := Scalar.cmpi .slt v2512 c0_i32_1510
  let c0_i32_1511 : BitVec 32 := 0#32
  let v2515 : BitVec 1 := Scalar.cmpi .slt v2511 c0_i32_1511
  let v2516 : BitVec 1 := Scalar.xori v2514 v2515
  let c0_i32_1509 : BitVec 32 := 0#32
  let v2513 : BitVec 1 := Scalar.cmpi .ne v2512 c0_i32_1509
  let v2517 : BitVec 1 := Scalar.andi v2516 v2513
  let v2518 : BitVec 32 := Scalar.addi v2512 v2511
  let v2519 : BitVec 32 := Scalar.select v2517 v2518 v2512
  let v2520 : BitVec 32 := Scalar.muli c2_i32_1512 v2519
  let v2521 : BitVec 32 := Scalar.addi v2509 v2520
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_1513 : BitVec 32 := 4#32
  let c0_i32_1514 : BitVec 32 := 0#32
  let v2522 : BitVec 1 := Scalar.cmpi .eq c4_i32_1513 c0_i32_1514
  let c1_i32_1515 : BitVec 32 := 1#32
  let v2523 : BitVec 32 := Scalar.select v2522 c1_i32_1515 c4_i32_1513
  let v2524 : BitVec 32 := Scalar.remsi v2491 v2523
  let c0_i32_1517 : BitVec 32 := 0#32
  let v2526 : BitVec 1 := Scalar.cmpi .slt v2524 c0_i32_1517
  let c0_i32_1518 : BitVec 32 := 0#32
  let v2527 : BitVec 1 := Scalar.cmpi .slt v2523 c0_i32_1518
  let v2528 : BitVec 1 := Scalar.xori v2526 v2527
  let c0_i32_1516 : BitVec 32 := 0#32
  let v2525 : BitVec 1 := Scalar.cmpi .ne v2524 c0_i32_1516
  let v2529 : BitVec 1 := Scalar.andi v2528 v2525
  let v2530 : BitVec 32 := Scalar.addi v2524 v2523
  let v2531 : BitVec 32 := Scalar.select v2529 v2530 v2524
  let v2532 : BitVec 32 := Scalar.addi v74 v2531
  let c2_i32_1519 : BitVec 32 := 2#32
  let c0_i32_1520 : BitVec 32 := 0#32
  let v2533 : BitVec 1 := Scalar.cmpi .eq c2_i32_1519 c0_i32_1520
  let c1_i32_1521 : BitVec 32 := 1#32
  let v2534 : BitVec 32 := Scalar.select v2533 c1_i32_1521 c2_i32_1519
  let v2535 : BitVec 32 := Scalar.remsi v2532 v2534
  let c0_i32_1523 : BitVec 32 := 0#32
  let v2537 : BitVec 1 := Scalar.cmpi .slt v2535 c0_i32_1523
  let c0_i32_1524 : BitVec 32 := 0#32
  let v2538 : BitVec 1 := Scalar.cmpi .slt v2534 c0_i32_1524
  let v2539 : BitVec 1 := Scalar.xori v2537 v2538
  let c0_i32_1522 : BitVec 32 := 0#32
  let v2536 : BitVec 1 := Scalar.cmpi .ne v2535 c0_i32_1522
  let v2540 : BitVec 1 := Scalar.andi v2539 v2536
  let v2541 : BitVec 32 := Scalar.addi v2535 v2534
  let v2542 : BitVec 32 := Scalar.select v2540 v2541 v2535
  let v2543 : BitVec 32 := Scalar.addi v2521 v2542
  let c1_i32_1538 : BitVec 32 := 1#32
  let v2557 : BitVec 32 := Scalar.muli v2543 c1_i32_1538
  let v2558 : BitVec 32 := Scalar.addi c0_i32_1539 v2557
  v2558.toNat
def k0_dev35 (d0 : Dev nD) : Nat :=
  let c0_i32_1602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c9_i32_1554 : BitVec 32 := 9#32
  let v2573 : BitVec 32 := Scalar.addi v76 c9_i32_1554
  let c16_i32_1555 : BitVec 32 := 16#32
  let c0_i32_1556 : BitVec 32 := 0#32
  let v2574 : BitVec 1 := Scalar.cmpi .eq c16_i32_1555 c0_i32_1556
  let c1_i32_1557 : BitVec 32 := 1#32
  let v2575 : BitVec 32 := Scalar.select v2574 c1_i32_1557 c16_i32_1555
  let v2576 : BitVec 32 := Scalar.remsi v2573 v2575
  let c0_i32_1559 : BitVec 32 := 0#32
  let v2578 : BitVec 1 := Scalar.cmpi .slt v2576 c0_i32_1559
  let c0_i32_1560 : BitVec 32 := 0#32
  let v2579 : BitVec 1 := Scalar.cmpi .slt v2575 c0_i32_1560
  let v2580 : BitVec 1 := Scalar.xori v2578 v2579
  let c0_i32_1558 : BitVec 32 := 0#32
  let v2577 : BitVec 1 := Scalar.cmpi .ne v2576 c0_i32_1558
  let v2581 : BitVec 1 := Scalar.andi v2580 v2577
  let v2582 : BitVec 32 := Scalar.addi v2576 v2575
  let v2583 : BitVec 32 := Scalar.select v2581 v2582 v2576
  let c0_i32_1562 : BitVec 32 := 0#32
  let v2585 : BitVec 1 := Scalar.cmpi .sgt v2583 c0_i32_1562
  let v2586 : BitVec 32 := Scalar.extui v2585
  let c0_i32_1563 : BitVec 32 := 0#32
  let v2587 : BitVec 1 := Scalar.cmpi .slt v2583 c0_i32_1563
  let v2588 : BitVec 32 := Scalar.extui v2587
  let v2589 : BitVec 32 := Scalar.subi v2586 v2588
  let c4_i32_1561 : BitVec 32 := 4#32
  let c0_i32_1564 : BitVec 32 := 0#32
  let v2590 : BitVec 1 := Scalar.cmpi .sgt c4_i32_1561 c0_i32_1564
  let v2591 : BitVec 32 := Scalar.extui v2590
  let c0_i32_1565 : BitVec 32 := 0#32
  let v2592 : BitVec 1 := Scalar.cmpi .slt c4_i32_1561 c0_i32_1565
  let v2593 : BitVec 32 := Scalar.extui v2592
  let v2594 : BitVec 32 := Scalar.subi v2591 v2593
  let v2595 : BitVec 1 := Scalar.cmpi .ne v2589 v2594
  let v2596 : BitVec 32 := Scalar.remsi v2583 c4_i32_1561
  let c0_i32_1566 : BitVec 32 := 0#32
  let v2597 : BitVec 1 := Scalar.cmpi .ne v2596 c0_i32_1566
  let v2598 : BitVec 1 := Scalar.andi v2595 v2597
  let v2584 : BitVec 32 := Scalar.divsi v2583 c4_i32_1561
  let c1_i32_1567 : BitVec 32 := 1#32
  let v2599 : BitVec 32 := Scalar.subi v2584 c1_i32_1567
  let v2600 : BitVec 32 := Scalar.select v2598 v2599 v2584
  let c8_i32_1568 : BitVec 32 := 8#32
  let v2601 : BitVec 32 := Scalar.muli v2600 c8_i32_1568
  let c2_i32_1575 : BitVec 32 := 2#32
  let c4_i32_1569 : BitVec 32 := 4#32
  let c0_i32_1570 : BitVec 32 := 0#32
  let v2602 : BitVec 1 := Scalar.cmpi .eq c4_i32_1569 c0_i32_1570
  let c1_i32_1571 : BitVec 32 := 1#32
  let v2603 : BitVec 32 := Scalar.select v2602 c1_i32_1571 c4_i32_1569
  let v2604 : BitVec 32 := Scalar.remsi v2583 v2603
  let c0_i32_1573 : BitVec 32 := 0#32
  let v2606 : BitVec 1 := Scalar.cmpi .slt v2604 c0_i32_1573
  let c0_i32_1574 : BitVec 32 := 0#32
  let v2607 : BitVec 1 := Scalar.cmpi .slt v2603 c0_i32_1574
  let v2608 : BitVec 1 := Scalar.xori v2606 v2607
  let c0_i32_1572 : BitVec 32 := 0#32
  let v2605 : BitVec 1 := Scalar.cmpi .ne v2604 c0_i32_1572
  let v2609 : BitVec 1 := Scalar.andi v2608 v2605
  let v2610 : BitVec 32 := Scalar.addi v2604 v2603
  let v2611 : BitVec 32 := Scalar.select v2609 v2610 v2604
  let v2612 : BitVec 32 := Scalar.muli c2_i32_1575 v2611
  let v2613 : BitVec 32 := Scalar.addi v2601 v2612
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_1576 : BitVec 32 := 4#32
  let c0_i32_1577 : BitVec 32 := 0#32
  let v2614 : BitVec 1 := Scalar.cmpi .eq c4_i32_1576 c0_i32_1577
  let c1_i32_1578 : BitVec 32 := 1#32
  let v2615 : BitVec 32 := Scalar.select v2614 c1_i32_1578 c4_i32_1576
  let v2616 : BitVec 32 := Scalar.remsi v2583 v2615
  let c0_i32_1580 : BitVec 32 := 0#32
  let v2618 : BitVec 1 := Scalar.cmpi .slt v2616 c0_i32_1580
  let c0_i32_1581 : BitVec 32 := 0#32
  let v2619 : BitVec 1 := Scalar.cmpi .slt v2615 c0_i32_1581
  let v2620 : BitVec 1 := Scalar.xori v2618 v2619
  let c0_i32_1579 : BitVec 32 := 0#32
  let v2617 : BitVec 1 := Scalar.cmpi .ne v2616 c0_i32_1579
  let v2621 : BitVec 1 := Scalar.andi v2620 v2617
  let v2622 : BitVec 32 := Scalar.addi v2616 v2615
  let v2623 : BitVec 32 := Scalar.select v2621 v2622 v2616
  let v2624 : BitVec 32 := Scalar.addi v74 v2623
  let c2_i32_1582 : BitVec 32 := 2#32
  let c0_i32_1583 : BitVec 32 := 0#32
  let v2625 : BitVec 1 := Scalar.cmpi .eq c2_i32_1582 c0_i32_1583
  let c1_i32_1584 : BitVec 32 := 1#32
  let v2626 : BitVec 32 := Scalar.select v2625 c1_i32_1584 c2_i32_1582
  let v2627 : BitVec 32 := Scalar.remsi v2624 v2626
  let c0_i32_1586 : BitVec 32 := 0#32
  let v2629 : BitVec 1 := Scalar.cmpi .slt v2627 c0_i32_1586
  let c0_i32_1587 : BitVec 32 := 0#32
  let v2630 : BitVec 1 := Scalar.cmpi .slt v2626 c0_i32_1587
  let v2631 : BitVec 1 := Scalar.xori v2629 v2630
  let c0_i32_1585 : BitVec 32 := 0#32
  let v2628 : BitVec 1 := Scalar.cmpi .ne v2627 c0_i32_1585
  let v2632 : BitVec 1 := Scalar.andi v2631 v2628
  let v2633 : BitVec 32 := Scalar.addi v2627 v2626
  let v2634 : BitVec 32 := Scalar.select v2632 v2633 v2627
  let v2635 : BitVec 32 := Scalar.addi v2613 v2634
  let c1_i32_1601 : BitVec 32 := 1#32
  let v2649 : BitVec 32 := Scalar.muli v2635 c1_i32_1601
  let v2650 : BitVec 32 := Scalar.addi c0_i32_1602 v2649
  v2650.toNat
def k0_dev36 (d0 : Dev nD) : Nat :=
  let c0_i32_1665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c6_i32_1617 : BitVec 32 := 6#32
  let v2665 : BitVec 32 := Scalar.addi v76 c6_i32_1617
  let c16_i32_1618 : BitVec 32 := 16#32
  let c0_i32_1619 : BitVec 32 := 0#32
  let v2666 : BitVec 1 := Scalar.cmpi .eq c16_i32_1618 c0_i32_1619
  let c1_i32_1620 : BitVec 32 := 1#32
  let v2667 : BitVec 32 := Scalar.select v2666 c1_i32_1620 c16_i32_1618
  let v2668 : BitVec 32 := Scalar.remsi v2665 v2667
  let c0_i32_1622 : BitVec 32 := 0#32
  let v2670 : BitVec 1 := Scalar.cmpi .slt v2668 c0_i32_1622
  let c0_i32_1623 : BitVec 32 := 0#32
  let v2671 : BitVec 1 := Scalar.cmpi .slt v2667 c0_i32_1623
  let v2672 : BitVec 1 := Scalar.xori v2670 v2671
  let c0_i32_1621 : BitVec 32 := 0#32
  let v2669 : BitVec 1 := Scalar.cmpi .ne v2668 c0_i32_1621
  let v2673 : BitVec 1 := Scalar.andi v2672 v2669
  let v2674 : BitVec 32 := Scalar.addi v2668 v2667
  let v2675 : BitVec 32 := Scalar.select v2673 v2674 v2668
  let c0_i32_1625 : BitVec 32 := 0#32
  let v2677 : BitVec 1 := Scalar.cmpi .sgt v2675 c0_i32_1625
  let v2678 : BitVec 32 := Scalar.extui v2677
  let c0_i32_1626 : BitVec 32 := 0#32
  let v2679 : BitVec 1 := Scalar.cmpi .slt v2675 c0_i32_1626
  let v2680 : BitVec 32 := Scalar.extui v2679
  let v2681 : BitVec 32 := Scalar.subi v2678 v2680
  let c4_i32_1624 : BitVec 32 := 4#32
  let c0_i32_1627 : BitVec 32 := 0#32
  let v2682 : BitVec 1 := Scalar.cmpi .sgt c4_i32_1624 c0_i32_1627
  let v2683 : BitVec 32 := Scalar.extui v2682
  let c0_i32_1628 : BitVec 32 := 0#32
  let v2684 : BitVec 1 := Scalar.cmpi .slt c4_i32_1624 c0_i32_1628
  let v2685 : BitVec 32 := Scalar.extui v2684
  let v2686 : BitVec 32 := Scalar.subi v2683 v2685
  let v2687 : BitVec 1 := Scalar.cmpi .ne v2681 v2686
  let v2688 : BitVec 32 := Scalar.remsi v2675 c4_i32_1624
  let c0_i32_1629 : BitVec 32 := 0#32
  let v2689 : BitVec 1 := Scalar.cmpi .ne v2688 c0_i32_1629
  let v2690 : BitVec 1 := Scalar.andi v2687 v2689
  let v2676 : BitVec 32 := Scalar.divsi v2675 c4_i32_1624
  let c1_i32_1630 : BitVec 32 := 1#32
  let v2691 : BitVec 32 := Scalar.subi v2676 c1_i32_1630
  let v2692 : BitVec 32 := Scalar.select v2690 v2691 v2676
  let c8_i32_1631 : BitVec 32 := 8#32
  let v2693 : BitVec 32 := Scalar.muli v2692 c8_i32_1631
  let c2_i32_1638 : BitVec 32 := 2#32
  let c4_i32_1632 : BitVec 32 := 4#32
  let c0_i32_1633 : BitVec 32 := 0#32
  let v2694 : BitVec 1 := Scalar.cmpi .eq c4_i32_1632 c0_i32_1633
  let c1_i32_1634 : BitVec 32 := 1#32
  let v2695 : BitVec 32 := Scalar.select v2694 c1_i32_1634 c4_i32_1632
  let v2696 : BitVec 32 := Scalar.remsi v2675 v2695
  let c0_i32_1636 : BitVec 32 := 0#32
  let v2698 : BitVec 1 := Scalar.cmpi .slt v2696 c0_i32_1636
  let c0_i32_1637 : BitVec 32 := 0#32
  let v2699 : BitVec 1 := Scalar.cmpi .slt v2695 c0_i32_1637
  let v2700 : BitVec 1 := Scalar.xori v2698 v2699
  let c0_i32_1635 : BitVec 32 := 0#32
  let v2697 : BitVec 1 := Scalar.cmpi .ne v2696 c0_i32_1635
  let v2701 : BitVec 1 := Scalar.andi v2700 v2697
  let v2702 : BitVec 32 := Scalar.addi v2696 v2695
  let v2703 : BitVec 32 := Scalar.select v2701 v2702 v2696
  let v2704 : BitVec 32 := Scalar.muli c2_i32_1638 v2703
  let v2705 : BitVec 32 := Scalar.addi v2693 v2704
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_1639 : BitVec 32 := 4#32
  let c0_i32_1640 : BitVec 32 := 0#32
  let v2706 : BitVec 1 := Scalar.cmpi .eq c4_i32_1639 c0_i32_1640
  let c1_i32_1641 : BitVec 32 := 1#32
  let v2707 : BitVec 32 := Scalar.select v2706 c1_i32_1641 c4_i32_1639
  let v2708 : BitVec 32 := Scalar.remsi v2675 v2707
  let c0_i32_1643 : BitVec 32 := 0#32
  let v2710 : BitVec 1 := Scalar.cmpi .slt v2708 c0_i32_1643
  let c0_i32_1644 : BitVec 32 := 0#32
  let v2711 : BitVec 1 := Scalar.cmpi .slt v2707 c0_i32_1644
  let v2712 : BitVec 1 := Scalar.xori v2710 v2711
  let c0_i32_1642 : BitVec 32 := 0#32
  let v2709 : BitVec 1 := Scalar.cmpi .ne v2708 c0_i32_1642
  let v2713 : BitVec 1 := Scalar.andi v2712 v2709
  let v2714 : BitVec 32 := Scalar.addi v2708 v2707
  let v2715 : BitVec 32 := Scalar.select v2713 v2714 v2708
  let v2716 : BitVec 32 := Scalar.addi v74 v2715
  let c2_i32_1645 : BitVec 32 := 2#32
  let c0_i32_1646 : BitVec 32 := 0#32
  let v2717 : BitVec 1 := Scalar.cmpi .eq c2_i32_1645 c0_i32_1646
  let c1_i32_1647 : BitVec 32 := 1#32
  let v2718 : BitVec 32 := Scalar.select v2717 c1_i32_1647 c2_i32_1645
  let v2719 : BitVec 32 := Scalar.remsi v2716 v2718
  let c0_i32_1649 : BitVec 32 := 0#32
  let v2721 : BitVec 1 := Scalar.cmpi .slt v2719 c0_i32_1649
  let c0_i32_1650 : BitVec 32 := 0#32
  let v2722 : BitVec 1 := Scalar.cmpi .slt v2718 c0_i32_1650
  let v2723 : BitVec 1 := Scalar.xori v2721 v2722
  let c0_i32_1648 : BitVec 32 := 0#32
  let v2720 : BitVec 1 := Scalar.cmpi .ne v2719 c0_i32_1648
  let v2724 : BitVec 1 := Scalar.andi v2723 v2720
  let v2725 : BitVec 32 := Scalar.addi v2719 v2718
  let v2726 : BitVec 32 := Scalar.select v2724 v2725 v2719
  let v2727 : BitVec 32 := Scalar.addi v2705 v2726
  let c1_i32_1664 : BitVec 32 := 1#32
  let v2741 : BitVec 32 := Scalar.muli v2727 c1_i32_1664
  let v2742 : BitVec 32 := Scalar.addi c0_i32_1665 v2741
  v2742.toNat
def k0_dev37 (d0 : Dev nD) : Nat :=
  let c0_i32_1728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c10_i32_1680 : BitVec 32 := 10#32
  let v2757 : BitVec 32 := Scalar.addi v76 c10_i32_1680
  let c16_i32_1681 : BitVec 32 := 16#32
  let c0_i32_1682 : BitVec 32 := 0#32
  let v2758 : BitVec 1 := Scalar.cmpi .eq c16_i32_1681 c0_i32_1682
  let c1_i32_1683 : BitVec 32 := 1#32
  let v2759 : BitVec 32 := Scalar.select v2758 c1_i32_1683 c16_i32_1681
  let v2760 : BitVec 32 := Scalar.remsi v2757 v2759
  let c0_i32_1685 : BitVec 32 := 0#32
  let v2762 : BitVec 1 := Scalar.cmpi .slt v2760 c0_i32_1685
  let c0_i32_1686 : BitVec 32 := 0#32
  let v2763 : BitVec 1 := Scalar.cmpi .slt v2759 c0_i32_1686
  let v2764 : BitVec 1 := Scalar.xori v2762 v2763
  let c0_i32_1684 : BitVec 32 := 0#32
  let v2761 : BitVec 1 := Scalar.cmpi .ne v2760 c0_i32_1684
  let v2765 : BitVec 1 := Scalar.andi v2764 v2761
  let v2766 : BitVec 32 := Scalar.addi v2760 v2759
  let v2767 : BitVec 32 := Scalar.select v2765 v2766 v2760
  let c0_i32_1688 : BitVec 32 := 0#32
  let v2769 : BitVec 1 := Scalar.cmpi .sgt v2767 c0_i32_1688
  let v2770 : BitVec 32 := Scalar.extui v2769
  let c0_i32_1689 : BitVec 32 := 0#32
  let v2771 : BitVec 1 := Scalar.cmpi .slt v2767 c0_i32_1689
  let v2772 : BitVec 32 := Scalar.extui v2771
  let v2773 : BitVec 32 := Scalar.subi v2770 v2772
  let c4_i32_1687 : BitVec 32 := 4#32
  let c0_i32_1690 : BitVec 32 := 0#32
  let v2774 : BitVec 1 := Scalar.cmpi .sgt c4_i32_1687 c0_i32_1690
  let v2775 : BitVec 32 := Scalar.extui v2774
  let c0_i32_1691 : BitVec 32 := 0#32
  let v2776 : BitVec 1 := Scalar.cmpi .slt c4_i32_1687 c0_i32_1691
  let v2777 : BitVec 32 := Scalar.extui v2776
  let v2778 : BitVec 32 := Scalar.subi v2775 v2777
  let v2779 : BitVec 1 := Scalar.cmpi .ne v2773 v2778
  let v2780 : BitVec 32 := Scalar.remsi v2767 c4_i32_1687
  let c0_i32_1692 : BitVec 32 := 0#32
  let v2781 : BitVec 1 := Scalar.cmpi .ne v2780 c0_i32_1692
  let v2782 : BitVec 1 := Scalar.andi v2779 v2781
  let v2768 : BitVec 32 := Scalar.divsi v2767 c4_i32_1687
  let c1_i32_1693 : BitVec 32 := 1#32
  let v2783 : BitVec 32 := Scalar.subi v2768 c1_i32_1693
  let v2784 : BitVec 32 := Scalar.select v2782 v2783 v2768
  let c8_i32_1694 : BitVec 32 := 8#32
  let v2785 : BitVec 32 := Scalar.muli v2784 c8_i32_1694
  let c2_i32_1701 : BitVec 32 := 2#32
  let c4_i32_1695 : BitVec 32 := 4#32
  let c0_i32_1696 : BitVec 32 := 0#32
  let v2786 : BitVec 1 := Scalar.cmpi .eq c4_i32_1695 c0_i32_1696
  let c1_i32_1697 : BitVec 32 := 1#32
  let v2787 : BitVec 32 := Scalar.select v2786 c1_i32_1697 c4_i32_1695
  let v2788 : BitVec 32 := Scalar.remsi v2767 v2787
  let c0_i32_1699 : BitVec 32 := 0#32
  let v2790 : BitVec 1 := Scalar.cmpi .slt v2788 c0_i32_1699
  let c0_i32_1700 : BitVec 32 := 0#32
  let v2791 : BitVec 1 := Scalar.cmpi .slt v2787 c0_i32_1700
  let v2792 : BitVec 1 := Scalar.xori v2790 v2791
  let c0_i32_1698 : BitVec 32 := 0#32
  let v2789 : BitVec 1 := Scalar.cmpi .ne v2788 c0_i32_1698
  let v2793 : BitVec 1 := Scalar.andi v2792 v2789
  let v2794 : BitVec 32 := Scalar.addi v2788 v2787
  let v2795 : BitVec 32 := Scalar.select v2793 v2794 v2788
  let v2796 : BitVec 32 := Scalar.muli c2_i32_1701 v2795
  let v2797 : BitVec 32 := Scalar.addi v2785 v2796
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_1702 : BitVec 32 := 4#32
  let c0_i32_1703 : BitVec 32 := 0#32
  let v2798 : BitVec 1 := Scalar.cmpi .eq c4_i32_1702 c0_i32_1703
  let c1_i32_1704 : BitVec 32 := 1#32
  let v2799 : BitVec 32 := Scalar.select v2798 c1_i32_1704 c4_i32_1702
  let v2800 : BitVec 32 := Scalar.remsi v2767 v2799
  let c0_i32_1706 : BitVec 32 := 0#32
  let v2802 : BitVec 1 := Scalar.cmpi .slt v2800 c0_i32_1706
  let c0_i32_1707 : BitVec 32 := 0#32
  let v2803 : BitVec 1 := Scalar.cmpi .slt v2799 c0_i32_1707
  let v2804 : BitVec 1 := Scalar.xori v2802 v2803
  let c0_i32_1705 : BitVec 32 := 0#32
  let v2801 : BitVec 1 := Scalar.cmpi .ne v2800 c0_i32_1705
  let v2805 : BitVec 1 := Scalar.andi v2804 v2801
  let v2806 : BitVec 32 := Scalar.addi v2800 v2799
  let v2807 : BitVec 32 := Scalar.select v2805 v2806 v2800
  let v2808 : BitVec 32 := Scalar.addi v74 v2807
  let c2_i32_1708 : BitVec 32 := 2#32
  let c0_i32_1709 : BitVec 32 := 0#32
  let v2809 : BitVec 1 := Scalar.cmpi .eq c2_i32_1708 c0_i32_1709
  let c1_i32_1710 : BitVec 32 := 1#32
  let v2810 : BitVec 32 := Scalar.select v2809 c1_i32_1710 c2_i32_1708
  let v2811 : BitVec 32 := Scalar.remsi v2808 v2810
  let c0_i32_1712 : BitVec 32 := 0#32
  let v2813 : BitVec 1 := Scalar.cmpi .slt v2811 c0_i32_1712
  let c0_i32_1713 : BitVec 32 := 0#32
  let v2814 : BitVec 1 := Scalar.cmpi .slt v2810 c0_i32_1713
  let v2815 : BitVec 1 := Scalar.xori v2813 v2814
  let c0_i32_1711 : BitVec 32 := 0#32
  let v2812 : BitVec 1 := Scalar.cmpi .ne v2811 c0_i32_1711
  let v2816 : BitVec 1 := Scalar.andi v2815 v2812
  let v2817 : BitVec 32 := Scalar.addi v2811 v2810
  let v2818 : BitVec 32 := Scalar.select v2816 v2817 v2811
  let v2819 : BitVec 32 := Scalar.addi v2797 v2818
  let c1_i32_1727 : BitVec 32 := 1#32
  let v2833 : BitVec 32 := Scalar.muli v2819 c1_i32_1727
  let v2834 : BitVec 32 := Scalar.addi c0_i32_1728 v2833
  v2834.toNat
def k0_dev38 (d0 : Dev nD) : Nat :=
  let c0_i32_1791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c5_i32_1743 : BitVec 32 := 5#32
  let v2849 : BitVec 32 := Scalar.addi v76 c5_i32_1743
  let c16_i32_1744 : BitVec 32 := 16#32
  let c0_i32_1745 : BitVec 32 := 0#32
  let v2850 : BitVec 1 := Scalar.cmpi .eq c16_i32_1744 c0_i32_1745
  let c1_i32_1746 : BitVec 32 := 1#32
  let v2851 : BitVec 32 := Scalar.select v2850 c1_i32_1746 c16_i32_1744
  let v2852 : BitVec 32 := Scalar.remsi v2849 v2851
  let c0_i32_1748 : BitVec 32 := 0#32
  let v2854 : BitVec 1 := Scalar.cmpi .slt v2852 c0_i32_1748
  let c0_i32_1749 : BitVec 32 := 0#32
  let v2855 : BitVec 1 := Scalar.cmpi .slt v2851 c0_i32_1749
  let v2856 : BitVec 1 := Scalar.xori v2854 v2855
  let c0_i32_1747 : BitVec 32 := 0#32
  let v2853 : BitVec 1 := Scalar.cmpi .ne v2852 c0_i32_1747
  let v2857 : BitVec 1 := Scalar.andi v2856 v2853
  let v2858 : BitVec 32 := Scalar.addi v2852 v2851
  let v2859 : BitVec 32 := Scalar.select v2857 v2858 v2852
  let c0_i32_1751 : BitVec 32 := 0#32
  let v2861 : BitVec 1 := Scalar.cmpi .sgt v2859 c0_i32_1751
  let v2862 : BitVec 32 := Scalar.extui v2861
  let c0_i32_1752 : BitVec 32 := 0#32
  let v2863 : BitVec 1 := Scalar.cmpi .slt v2859 c0_i32_1752
  let v2864 : BitVec 32 := Scalar.extui v2863
  let v2865 : BitVec 32 := Scalar.subi v2862 v2864
  let c4_i32_1750 : BitVec 32 := 4#32
  let c0_i32_1753 : BitVec 32 := 0#32
  let v2866 : BitVec 1 := Scalar.cmpi .sgt c4_i32_1750 c0_i32_1753
  let v2867 : BitVec 32 := Scalar.extui v2866
  let c0_i32_1754 : BitVec 32 := 0#32
  let v2868 : BitVec 1 := Scalar.cmpi .slt c4_i32_1750 c0_i32_1754
  let v2869 : BitVec 32 := Scalar.extui v2868
  let v2870 : BitVec 32 := Scalar.subi v2867 v2869
  let v2871 : BitVec 1 := Scalar.cmpi .ne v2865 v2870
  let v2872 : BitVec 32 := Scalar.remsi v2859 c4_i32_1750
  let c0_i32_1755 : BitVec 32 := 0#32
  let v2873 : BitVec 1 := Scalar.cmpi .ne v2872 c0_i32_1755
  let v2874 : BitVec 1 := Scalar.andi v2871 v2873
  let v2860 : BitVec 32 := Scalar.divsi v2859 c4_i32_1750
  let c1_i32_1756 : BitVec 32 := 1#32
  let v2875 : BitVec 32 := Scalar.subi v2860 c1_i32_1756
  let v2876 : BitVec 32 := Scalar.select v2874 v2875 v2860
  let c8_i32_1757 : BitVec 32 := 8#32
  let v2877 : BitVec 32 := Scalar.muli v2876 c8_i32_1757
  let c2_i32_1764 : BitVec 32 := 2#32
  let c4_i32_1758 : BitVec 32 := 4#32
  let c0_i32_1759 : BitVec 32 := 0#32
  let v2878 : BitVec 1 := Scalar.cmpi .eq c4_i32_1758 c0_i32_1759
  let c1_i32_1760 : BitVec 32 := 1#32
  let v2879 : BitVec 32 := Scalar.select v2878 c1_i32_1760 c4_i32_1758
  let v2880 : BitVec 32 := Scalar.remsi v2859 v2879
  let c0_i32_1762 : BitVec 32 := 0#32
  let v2882 : BitVec 1 := Scalar.cmpi .slt v2880 c0_i32_1762
  let c0_i32_1763 : BitVec 32 := 0#32
  let v2883 : BitVec 1 := Scalar.cmpi .slt v2879 c0_i32_1763
  let v2884 : BitVec 1 := Scalar.xori v2882 v2883
  let c0_i32_1761 : BitVec 32 := 0#32
  let v2881 : BitVec 1 := Scalar.cmpi .ne v2880 c0_i32_1761
  let v2885 : BitVec 1 := Scalar.andi v2884 v2881
  let v2886 : BitVec 32 := Scalar.addi v2880 v2879
  let v2887 : BitVec 32 := Scalar.select v2885 v2886 v2880
  let v2888 : BitVec 32 := Scalar.muli c2_i32_1764 v2887
  let v2889 : BitVec 32 := Scalar.addi v2877 v2888
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_1765 : BitVec 32 := 4#32
  let c0_i32_1766 : BitVec 32 := 0#32
  let v2890 : BitVec 1 := Scalar.cmpi .eq c4_i32_1765 c0_i32_1766
  let c1_i32_1767 : BitVec 32 := 1#32
  let v2891 : BitVec 32 := Scalar.select v2890 c1_i32_1767 c4_i32_1765
  let v2892 : BitVec 32 := Scalar.remsi v2859 v2891
  let c0_i32_1769 : BitVec 32 := 0#32
  let v2894 : BitVec 1 := Scalar.cmpi .slt v2892 c0_i32_1769
  let c0_i32_1770 : BitVec 32 := 0#32
  let v2895 : BitVec 1 := Scalar.cmpi .slt v2891 c0_i32_1770
  let v2896 : BitVec 1 := Scalar.xori v2894 v2895
  let c0_i32_1768 : BitVec 32 := 0#32
  let v2893 : BitVec 1 := Scalar.cmpi .ne v2892 c0_i32_1768
  let v2897 : BitVec 1 := Scalar.andi v2896 v2893
  let v2898 : BitVec 32 := Scalar.addi v2892 v2891
  let v2899 : BitVec 32 := Scalar.select v2897 v2898 v2892
  let v2900 : BitVec 32 := Scalar.addi v74 v2899
  let c2_i32_1771 : BitVec 32 := 2#32
  let c0_i32_1772 : BitVec 32 := 0#32
  let v2901 : BitVec 1 := Scalar.cmpi .eq c2_i32_1771 c0_i32_1772
  let c1_i32_1773 : BitVec 32 := 1#32
  let v2902 : BitVec 32 := Scalar.select v2901 c1_i32_1773 c2_i32_1771
  let v2903 : BitVec 32 := Scalar.remsi v2900 v2902
  let c0_i32_1775 : BitVec 32 := 0#32
  let v2905 : BitVec 1 := Scalar.cmpi .slt v2903 c0_i32_1775
  let c0_i32_1776 : BitVec 32 := 0#32
  let v2906 : BitVec 1 := Scalar.cmpi .slt v2902 c0_i32_1776
  let v2907 : BitVec 1 := Scalar.xori v2905 v2906
  let c0_i32_1774 : BitVec 32 := 0#32
  let v2904 : BitVec 1 := Scalar.cmpi .ne v2903 c0_i32_1774
  let v2908 : BitVec 1 := Scalar.andi v2907 v2904
  let v2909 : BitVec 32 := Scalar.addi v2903 v2902
  let v2910 : BitVec 32 := Scalar.select v2908 v2909 v2903
  let v2911 : BitVec 32 := Scalar.addi v2889 v2910
  let c1_i32_1790 : BitVec 32 := 1#32
  let v2925 : BitVec 32 := Scalar.muli v2911 c1_i32_1790
  let v2926 : BitVec 32 := Scalar.addi c0_i32_1791 v2925
  v2926.toNat
def k0_dev39 (d0 : Dev nD) : Nat :=
  let c0_i32_1854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c11_i32_1806 : BitVec 32 := 11#32
  let v2941 : BitVec 32 := Scalar.addi v76 c11_i32_1806
  let c16_i32_1807 : BitVec 32 := 16#32
  let c0_i32_1808 : BitVec 32 := 0#32
  let v2942 : BitVec 1 := Scalar.cmpi .eq c16_i32_1807 c0_i32_1808
  let c1_i32_1809 : BitVec 32 := 1#32
  let v2943 : BitVec 32 := Scalar.select v2942 c1_i32_1809 c16_i32_1807
  let v2944 : BitVec 32 := Scalar.remsi v2941 v2943
  let c0_i32_1811 : BitVec 32 := 0#32
  let v2946 : BitVec 1 := Scalar.cmpi .slt v2944 c0_i32_1811
  let c0_i32_1812 : BitVec 32 := 0#32
  let v2947 : BitVec 1 := Scalar.cmpi .slt v2943 c0_i32_1812
  let v2948 : BitVec 1 := Scalar.xori v2946 v2947
  let c0_i32_1810 : BitVec 32 := 0#32
  let v2945 : BitVec 1 := Scalar.cmpi .ne v2944 c0_i32_1810
  let v2949 : BitVec 1 := Scalar.andi v2948 v2945
  let v2950 : BitVec 32 := Scalar.addi v2944 v2943
  let v2951 : BitVec 32 := Scalar.select v2949 v2950 v2944
  let c0_i32_1814 : BitVec 32 := 0#32
  let v2953 : BitVec 1 := Scalar.cmpi .sgt v2951 c0_i32_1814
  let v2954 : BitVec 32 := Scalar.extui v2953
  let c0_i32_1815 : BitVec 32 := 0#32
  let v2955 : BitVec 1 := Scalar.cmpi .slt v2951 c0_i32_1815
  let v2956 : BitVec 32 := Scalar.extui v2955
  let v2957 : BitVec 32 := Scalar.subi v2954 v2956
  let c4_i32_1813 : BitVec 32 := 4#32
  let c0_i32_1816 : BitVec 32 := 0#32
  let v2958 : BitVec 1 := Scalar.cmpi .sgt c4_i32_1813 c0_i32_1816
  let v2959 : BitVec 32 := Scalar.extui v2958
  let c0_i32_1817 : BitVec 32 := 0#32
  let v2960 : BitVec 1 := Scalar.cmpi .slt c4_i32_1813 c0_i32_1817
  let v2961 : BitVec 32 := Scalar.extui v2960
  let v2962 : BitVec 32 := Scalar.subi v2959 v2961
  let v2963 : BitVec 1 := Scalar.cmpi .ne v2957 v2962
  let v2964 : BitVec 32 := Scalar.remsi v2951 c4_i32_1813
  let c0_i32_1818 : BitVec 32 := 0#32
  let v2965 : BitVec 1 := Scalar.cmpi .ne v2964 c0_i32_1818
  let v2966 : BitVec 1 := Scalar.andi v2963 v2965
  let v2952 : BitVec 32 := Scalar.divsi v2951 c4_i32_1813
  let c1_i32_1819 : BitVec 32 := 1#32
  let v2967 : BitVec 32 := Scalar.subi v2952 c1_i32_1819
  let v2968 : BitVec 32 := Scalar.select v2966 v2967 v2952
  let c8_i32_1820 : BitVec 32 := 8#32
  let v2969 : BitVec 32 := Scalar.muli v2968 c8_i32_1820
  let c2_i32_1827 : BitVec 32 := 2#32
  let c4_i32_1821 : BitVec 32 := 4#32
  let c0_i32_1822 : BitVec 32 := 0#32
  let v2970 : BitVec 1 := Scalar.cmpi .eq c4_i32_1821 c0_i32_1822
  let c1_i32_1823 : BitVec 32 := 1#32
  let v2971 : BitVec 32 := Scalar.select v2970 c1_i32_1823 c4_i32_1821
  let v2972 : BitVec 32 := Scalar.remsi v2951 v2971
  let c0_i32_1825 : BitVec 32 := 0#32
  let v2974 : BitVec 1 := Scalar.cmpi .slt v2972 c0_i32_1825
  let c0_i32_1826 : BitVec 32 := 0#32
  let v2975 : BitVec 1 := Scalar.cmpi .slt v2971 c0_i32_1826
  let v2976 : BitVec 1 := Scalar.xori v2974 v2975
  let c0_i32_1824 : BitVec 32 := 0#32
  let v2973 : BitVec 1 := Scalar.cmpi .ne v2972 c0_i32_1824
  let v2977 : BitVec 1 := Scalar.andi v2976 v2973
  let v2978 : BitVec 32 := Scalar.addi v2972 v2971
  let v2979 : BitVec 32 := Scalar.select v2977 v2978 v2972
  let v2980 : BitVec 32 := Scalar.muli c2_i32_1827 v2979
  let v2981 : BitVec 32 := Scalar.addi v2969 v2980
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_1828 : BitVec 32 := 4#32
  let c0_i32_1829 : BitVec 32 := 0#32
  let v2982 : BitVec 1 := Scalar.cmpi .eq c4_i32_1828 c0_i32_1829
  let c1_i32_1830 : BitVec 32 := 1#32
  let v2983 : BitVec 32 := Scalar.select v2982 c1_i32_1830 c4_i32_1828
  let v2984 : BitVec 32 := Scalar.remsi v2951 v2983
  let c0_i32_1832 : BitVec 32 := 0#32
  let v2986 : BitVec 1 := Scalar.cmpi .slt v2984 c0_i32_1832
  let c0_i32_1833 : BitVec 32 := 0#32
  let v2987 : BitVec 1 := Scalar.cmpi .slt v2983 c0_i32_1833
  let v2988 : BitVec 1 := Scalar.xori v2986 v2987
  let c0_i32_1831 : BitVec 32 := 0#32
  let v2985 : BitVec 1 := Scalar.cmpi .ne v2984 c0_i32_1831
  let v2989 : BitVec 1 := Scalar.andi v2988 v2985
  let v2990 : BitVec 32 := Scalar.addi v2984 v2983
  let v2991 : BitVec 32 := Scalar.select v2989 v2990 v2984
  let v2992 : BitVec 32 := Scalar.addi v74 v2991
  let c2_i32_1834 : BitVec 32 := 2#32
  let c0_i32_1835 : BitVec 32 := 0#32
  let v2993 : BitVec 1 := Scalar.cmpi .eq c2_i32_1834 c0_i32_1835
  let c1_i32_1836 : BitVec 32 := 1#32
  let v2994 : BitVec 32 := Scalar.select v2993 c1_i32_1836 c2_i32_1834
  let v2995 : BitVec 32 := Scalar.remsi v2992 v2994
  let c0_i32_1838 : BitVec 32 := 0#32
  let v2997 : BitVec 1 := Scalar.cmpi .slt v2995 c0_i32_1838
  let c0_i32_1839 : BitVec 32 := 0#32
  let v2998 : BitVec 1 := Scalar.cmpi .slt v2994 c0_i32_1839
  let v2999 : BitVec 1 := Scalar.xori v2997 v2998
  let c0_i32_1837 : BitVec 32 := 0#32
  let v2996 : BitVec 1 := Scalar.cmpi .ne v2995 c0_i32_1837
  let v3000 : BitVec 1 := Scalar.andi v2999 v2996
  let v3001 : BitVec 32 := Scalar.addi v2995 v2994
  let v3002 : BitVec 32 := Scalar.select v3000 v3001 v2995
  let v3003 : BitVec 32 := Scalar.addi v2981 v3002
  let c1_i32_1853 : BitVec 32 := 1#32
  let v3017 : BitVec 32 := Scalar.muli v3003 c1_i32_1853
  let v3018 : BitVec 32 := Scalar.addi c0_i32_1854 v3017
  v3018.toNat
def k0_dev40 (d0 : Dev nD) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c4_i32_1869 : BitVec 32 := 4#32
  let v3033 : BitVec 32 := Scalar.addi v76 c4_i32_1869
  let c16_i32_1870 : BitVec 32 := 16#32
  let c0_i32_1871 : BitVec 32 := 0#32
  let v3034 : BitVec 1 := Scalar.cmpi .eq c16_i32_1870 c0_i32_1871
  let c1_i32_1872 : BitVec 32 := 1#32
  let v3035 : BitVec 32 := Scalar.select v3034 c1_i32_1872 c16_i32_1870
  let v3036 : BitVec 32 := Scalar.remsi v3033 v3035
  let c0_i32_1874 : BitVec 32 := 0#32
  let v3038 : BitVec 1 := Scalar.cmpi .slt v3036 c0_i32_1874
  let c0_i32_1875 : BitVec 32 := 0#32
  let v3039 : BitVec 1 := Scalar.cmpi .slt v3035 c0_i32_1875
  let v3040 : BitVec 1 := Scalar.xori v3038 v3039
  let c0_i32_1873 : BitVec 32 := 0#32
  let v3037 : BitVec 1 := Scalar.cmpi .ne v3036 c0_i32_1873
  let v3041 : BitVec 1 := Scalar.andi v3040 v3037
  let v3042 : BitVec 32 := Scalar.addi v3036 v3035
  let v3043 : BitVec 32 := Scalar.select v3041 v3042 v3036
  let c0_i32_1877 : BitVec 32 := 0#32
  let v3045 : BitVec 1 := Scalar.cmpi .sgt v3043 c0_i32_1877
  let v3046 : BitVec 32 := Scalar.extui v3045
  let c0_i32_1878 : BitVec 32 := 0#32
  let v3047 : BitVec 1 := Scalar.cmpi .slt v3043 c0_i32_1878
  let v3048 : BitVec 32 := Scalar.extui v3047
  let v3049 : BitVec 32 := Scalar.subi v3046 v3048
  let c4_i32_1876 : BitVec 32 := 4#32
  let c0_i32_1879 : BitVec 32 := 0#32
  let v3050 : BitVec 1 := Scalar.cmpi .sgt c4_i32_1876 c0_i32_1879
  let v3051 : BitVec 32 := Scalar.extui v3050
  let c0_i32_1880 : BitVec 32 := 0#32
  let v3052 : BitVec 1 := Scalar.cmpi .slt c4_i32_1876 c0_i32_1880
  let v3053 : BitVec 32 := Scalar.extui v3052
  let v3054 : BitVec 32 := Scalar.subi v3051 v3053
  let v3055 : BitVec 1 := Scalar.cmpi .ne v3049 v3054
  let v3056 : BitVec 32 := Scalar.remsi v3043 c4_i32_1876
  let c0_i32_1881 : BitVec 32 := 0#32
  let v3057 : BitVec 1 := Scalar.cmpi .ne v3056 c0_i32_1881
  let v3058 : BitVec 1 := Scalar.andi v3055 v3057
  let v3044 : BitVec 32 := Scalar.divsi v3043 c4_i32_1876
  let c1_i32_1882 : BitVec 32 := 1#32
  let v3059 : BitVec 32 := Scalar.subi v3044 c1_i32_1882
  let v3060 : BitVec 32 := Scalar.select v3058 v3059 v3044
  let c8_i32_1883 : BitVec 32 := 8#32
  let v3061 : BitVec 32 := Scalar.muli v3060 c8_i32_1883
  let c2_i32_1890 : BitVec 32 := 2#32
  let c4_i32_1884 : BitVec 32 := 4#32
  let c0_i32_1885 : BitVec 32 := 0#32
  let v3062 : BitVec 1 := Scalar.cmpi .eq c4_i32_1884 c0_i32_1885
  let c1_i32_1886 : BitVec 32 := 1#32
  let v3063 : BitVec 32 := Scalar.select v3062 c1_i32_1886 c4_i32_1884
  let v3064 : BitVec 32 := Scalar.remsi v3043 v3063
  let c0_i32_1888 : BitVec 32 := 0#32
  let v3066 : BitVec 1 := Scalar.cmpi .slt v3064 c0_i32_1888
  let c0_i32_1889 : BitVec 32 := 0#32
  let v3067 : BitVec 1 := Scalar.cmpi .slt v3063 c0_i32_1889
  let v3068 : BitVec 1 := Scalar.xori v3066 v3067
  let c0_i32_1887 : BitVec 32 := 0#32
  let v3065 : BitVec 1 := Scalar.cmpi .ne v3064 c0_i32_1887
  let v3069 : BitVec 1 := Scalar.andi v3068 v3065
  let v3070 : BitVec 32 := Scalar.addi v3064 v3063
  let v3071 : BitVec 32 := Scalar.select v3069 v3070 v3064
  let v3072 : BitVec 32 := Scalar.muli c2_i32_1890 v3071
  let v3073 : BitVec 32 := Scalar.addi v3061 v3072
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_1891 : BitVec 32 := 4#32
  let c0_i32_1892 : BitVec 32 := 0#32
  let v3074 : BitVec 1 := Scalar.cmpi .eq c4_i32_1891 c0_i32_1892
  let c1_i32_1893 : BitVec 32 := 1#32
  let v3075 : BitVec 32 := Scalar.select v3074 c1_i32_1893 c4_i32_1891
  let v3076 : BitVec 32 := Scalar.remsi v3043 v3075
  let c0_i32_1895 : BitVec 32 := 0#32
  let v3078 : BitVec 1 := Scalar.cmpi .slt v3076 c0_i32_1895
  let c0_i32_1896 : BitVec 32 := 0#32
  let v3079 : BitVec 1 := Scalar.cmpi .slt v3075 c0_i32_1896
  let v3080 : BitVec 1 := Scalar.xori v3078 v3079
  let c0_i32_1894 : BitVec 32 := 0#32
  let v3077 : BitVec 1 := Scalar.cmpi .ne v3076 c0_i32_1894
  let v3081 : BitVec 1 := Scalar.andi v3080 v3077
  let v3082 : BitVec 32 := Scalar.addi v3076 v3075
  let v3083 : BitVec 32 := Scalar.select v3081 v3082 v3076
  let v3084 : BitVec 32 := Scalar.addi v74 v3083
  let c2_i32_1897 : BitVec 32 := 2#32
  let c0_i32_1898 : BitVec 32 := 0#32
  let v3085 : BitVec 1 := Scalar.cmpi .eq c2_i32_1897 c0_i32_1898
  let c1_i32_1899 : BitVec 32 := 1#32
  let v3086 : BitVec 32 := Scalar.select v3085 c1_i32_1899 c2_i32_1897
  let v3087 : BitVec 32 := Scalar.remsi v3084 v3086
  let c0_i32_1901 : BitVec 32 := 0#32
  let v3089 : BitVec 1 := Scalar.cmpi .slt v3087 c0_i32_1901
  let c0_i32_1902 : BitVec 32 := 0#32
  let v3090 : BitVec 1 := Scalar.cmpi .slt v3086 c0_i32_1902
  let v3091 : BitVec 1 := Scalar.xori v3089 v3090
  let c0_i32_1900 : BitVec 32 := 0#32
  let v3088 : BitVec 1 := Scalar.cmpi .ne v3087 c0_i32_1900
  let v3092 : BitVec 1 := Scalar.andi v3091 v3088
  let v3093 : BitVec 32 := Scalar.addi v3087 v3086
  let v3094 : BitVec 32 := Scalar.select v3092 v3093 v3087
  let v3095 : BitVec 32 := Scalar.addi v3073 v3094
  let c1_i32_1916 : BitVec 32 := 1#32
  let v3109 : BitVec 32 := Scalar.muli v3095 c1_i32_1916
  let v3110 : BitVec 32 := Scalar.addi c0_i32_1917 v3109
  v3110.toNat
def k0_dev41 (d0 : Dev nD) : Nat :=
  let c0_i32_1980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c12_i32_1932 : BitVec 32 := 12#32
  let v3125 : BitVec 32 := Scalar.addi v76 c12_i32_1932
  let c16_i32_1933 : BitVec 32 := 16#32
  let c0_i32_1934 : BitVec 32 := 0#32
  let v3126 : BitVec 1 := Scalar.cmpi .eq c16_i32_1933 c0_i32_1934
  let c1_i32_1935 : BitVec 32 := 1#32
  let v3127 : BitVec 32 := Scalar.select v3126 c1_i32_1935 c16_i32_1933
  let v3128 : BitVec 32 := Scalar.remsi v3125 v3127
  let c0_i32_1937 : BitVec 32 := 0#32
  let v3130 : BitVec 1 := Scalar.cmpi .slt v3128 c0_i32_1937
  let c0_i32_1938 : BitVec 32 := 0#32
  let v3131 : BitVec 1 := Scalar.cmpi .slt v3127 c0_i32_1938
  let v3132 : BitVec 1 := Scalar.xori v3130 v3131
  let c0_i32_1936 : BitVec 32 := 0#32
  let v3129 : BitVec 1 := Scalar.cmpi .ne v3128 c0_i32_1936
  let v3133 : BitVec 1 := Scalar.andi v3132 v3129
  let v3134 : BitVec 32 := Scalar.addi v3128 v3127
  let v3135 : BitVec 32 := Scalar.select v3133 v3134 v3128
  let c0_i32_1940 : BitVec 32 := 0#32
  let v3137 : BitVec 1 := Scalar.cmpi .sgt v3135 c0_i32_1940
  let v3138 : BitVec 32 := Scalar.extui v3137
  let c0_i32_1941 : BitVec 32 := 0#32
  let v3139 : BitVec 1 := Scalar.cmpi .slt v3135 c0_i32_1941
  let v3140 : BitVec 32 := Scalar.extui v3139
  let v3141 : BitVec 32 := Scalar.subi v3138 v3140
  let c4_i32_1939 : BitVec 32 := 4#32
  let c0_i32_1942 : BitVec 32 := 0#32
  let v3142 : BitVec 1 := Scalar.cmpi .sgt c4_i32_1939 c0_i32_1942
  let v3143 : BitVec 32 := Scalar.extui v3142
  let c0_i32_1943 : BitVec 32 := 0#32
  let v3144 : BitVec 1 := Scalar.cmpi .slt c4_i32_1939 c0_i32_1943
  let v3145 : BitVec 32 := Scalar.extui v3144
  let v3146 : BitVec 32 := Scalar.subi v3143 v3145
  let v3147 : BitVec 1 := Scalar.cmpi .ne v3141 v3146
  let v3148 : BitVec 32 := Scalar.remsi v3135 c4_i32_1939
  let c0_i32_1944 : BitVec 32 := 0#32
  let v3149 : BitVec 1 := Scalar.cmpi .ne v3148 c0_i32_1944
  let v3150 : BitVec 1 := Scalar.andi v3147 v3149
  let v3136 : BitVec 32 := Scalar.divsi v3135 c4_i32_1939
  let c1_i32_1945 : BitVec 32 := 1#32
  let v3151 : BitVec 32 := Scalar.subi v3136 c1_i32_1945
  let v3152 : BitVec 32 := Scalar.select v3150 v3151 v3136
  let c8_i32_1946 : BitVec 32 := 8#32
  let v3153 : BitVec 32 := Scalar.muli v3152 c8_i32_1946
  let c2_i32_1953 : BitVec 32 := 2#32
  let c4_i32_1947 : BitVec 32 := 4#32
  let c0_i32_1948 : BitVec 32 := 0#32
  let v3154 : BitVec 1 := Scalar.cmpi .eq c4_i32_1947 c0_i32_1948
  let c1_i32_1949 : BitVec 32 := 1#32
  let v3155 : BitVec 32 := Scalar.select v3154 c1_i32_1949 c4_i32_1947
  let v3156 : BitVec 32 := Scalar.remsi v3135 v3155
  let c0_i32_1951 : BitVec 32 := 0#32
  let v3158 : BitVec 1 := Scalar.cmpi .slt v3156 c0_i32_1951
  let c0_i32_1952 : BitVec 32 := 0#32
  let v3159 : BitVec 1 := Scalar.cmpi .slt v3155 c0_i32_1952
  let v3160 : BitVec 1 := Scalar.xori v3158 v3159
  let c0_i32_1950 : BitVec 32 := 0#32
  let v3157 : BitVec 1 := Scalar.cmpi .ne v3156 c0_i32_1950
  let v3161 : BitVec 1 := Scalar.andi v3160 v3157
  let v3162 : BitVec 32 := Scalar.addi v3156 v3155
  let v3163 : BitVec 32 := Scalar.select v3161 v3162 v3156
  let v3164 : BitVec 32 := Scalar.muli c2_i32_1953 v3163
  let v3165 : BitVec 32 := Scalar.addi v3153 v3164
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_1954 : BitVec 32 := 4#32
  let c0_i32_1955 : BitVec 32 := 0#32
  let v3166 : BitVec 1 := Scalar.cmpi .eq c4_i32_1954 c0_i32_1955
  let c1_i32_1956 : BitVec 32 := 1#32
  let v3167 : BitVec 32 := Scalar.select v3166 c1_i32_1956 c4_i32_1954
  let v3168 : BitVec 32 := Scalar.remsi v3135 v3167
  let c0_i32_1958 : BitVec 32 := 0#32
  let v3170 : BitVec 1 := Scalar.cmpi .slt v3168 c0_i32_1958
  let c0_i32_1959 : BitVec 32 := 0#32
  let v3171 : BitVec 1 := Scalar.cmpi .slt v3167 c0_i32_1959
  let v3172 : BitVec 1 := Scalar.xori v3170 v3171
  let c0_i32_1957 : BitVec 32 := 0#32
  let v3169 : BitVec 1 := Scalar.cmpi .ne v3168 c0_i32_1957
  let v3173 : BitVec 1 := Scalar.andi v3172 v3169
  let v3174 : BitVec 32 := Scalar.addi v3168 v3167
  let v3175 : BitVec 32 := Scalar.select v3173 v3174 v3168
  let v3176 : BitVec 32 := Scalar.addi v74 v3175
  let c2_i32_1960 : BitVec 32 := 2#32
  let c0_i32_1961 : BitVec 32 := 0#32
  let v3177 : BitVec 1 := Scalar.cmpi .eq c2_i32_1960 c0_i32_1961
  let c1_i32_1962 : BitVec 32 := 1#32
  let v3178 : BitVec 32 := Scalar.select v3177 c1_i32_1962 c2_i32_1960
  let v3179 : BitVec 32 := Scalar.remsi v3176 v3178
  let c0_i32_1964 : BitVec 32 := 0#32
  let v3181 : BitVec 1 := Scalar.cmpi .slt v3179 c0_i32_1964
  let c0_i32_1965 : BitVec 32 := 0#32
  let v3182 : BitVec 1 := Scalar.cmpi .slt v3178 c0_i32_1965
  let v3183 : BitVec 1 := Scalar.xori v3181 v3182
  let c0_i32_1963 : BitVec 32 := 0#32
  let v3180 : BitVec 1 := Scalar.cmpi .ne v3179 c0_i32_1963
  let v3184 : BitVec 1 := Scalar.andi v3183 v3180
  let v3185 : BitVec 32 := Scalar.addi v3179 v3178
  let v3186 : BitVec 32 := Scalar.select v3184 v3185 v3179
  let v3187 : BitVec 32 := Scalar.addi v3165 v3186
  let c1_i32_1979 : BitVec 32 := 1#32
  let v3201 : BitVec 32 := Scalar.muli v3187 c1_i32_1979
  let v3202 : BitVec 32 := Scalar.addi c0_i32_1980 v3201
  v3202.toNat
def k0_dev42 (d0 : Dev nD) : Nat :=
  let c0_i32_2043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c3_i32_1995 : BitVec 32 := 3#32
  let v3217 : BitVec 32 := Scalar.addi v76 c3_i32_1995
  let c16_i32_1996 : BitVec 32 := 16#32
  let c0_i32_1997 : BitVec 32 := 0#32
  let v3218 : BitVec 1 := Scalar.cmpi .eq c16_i32_1996 c0_i32_1997
  let c1_i32_1998 : BitVec 32 := 1#32
  let v3219 : BitVec 32 := Scalar.select v3218 c1_i32_1998 c16_i32_1996
  let v3220 : BitVec 32 := Scalar.remsi v3217 v3219
  let c0_i32_2000 : BitVec 32 := 0#32
  let v3222 : BitVec 1 := Scalar.cmpi .slt v3220 c0_i32_2000
  let c0_i32_2001 : BitVec 32 := 0#32
  let v3223 : BitVec 1 := Scalar.cmpi .slt v3219 c0_i32_2001
  let v3224 : BitVec 1 := Scalar.xori v3222 v3223
  let c0_i32_1999 : BitVec 32 := 0#32
  let v3221 : BitVec 1 := Scalar.cmpi .ne v3220 c0_i32_1999
  let v3225 : BitVec 1 := Scalar.andi v3224 v3221
  let v3226 : BitVec 32 := Scalar.addi v3220 v3219
  let v3227 : BitVec 32 := Scalar.select v3225 v3226 v3220
  let c0_i32_2003 : BitVec 32 := 0#32
  let v3229 : BitVec 1 := Scalar.cmpi .sgt v3227 c0_i32_2003
  let v3230 : BitVec 32 := Scalar.extui v3229
  let c0_i32_2004 : BitVec 32 := 0#32
  let v3231 : BitVec 1 := Scalar.cmpi .slt v3227 c0_i32_2004
  let v3232 : BitVec 32 := Scalar.extui v3231
  let v3233 : BitVec 32 := Scalar.subi v3230 v3232
  let c4_i32_2002 : BitVec 32 := 4#32
  let c0_i32_2005 : BitVec 32 := 0#32
  let v3234 : BitVec 1 := Scalar.cmpi .sgt c4_i32_2002 c0_i32_2005
  let v3235 : BitVec 32 := Scalar.extui v3234
  let c0_i32_2006 : BitVec 32 := 0#32
  let v3236 : BitVec 1 := Scalar.cmpi .slt c4_i32_2002 c0_i32_2006
  let v3237 : BitVec 32 := Scalar.extui v3236
  let v3238 : BitVec 32 := Scalar.subi v3235 v3237
  let v3239 : BitVec 1 := Scalar.cmpi .ne v3233 v3238
  let v3240 : BitVec 32 := Scalar.remsi v3227 c4_i32_2002
  let c0_i32_2007 : BitVec 32 := 0#32
  let v3241 : BitVec 1 := Scalar.cmpi .ne v3240 c0_i32_2007
  let v3242 : BitVec 1 := Scalar.andi v3239 v3241
  let v3228 : BitVec 32 := Scalar.divsi v3227 c4_i32_2002
  let c1_i32_2008 : BitVec 32 := 1#32
  let v3243 : BitVec 32 := Scalar.subi v3228 c1_i32_2008
  let v3244 : BitVec 32 := Scalar.select v3242 v3243 v3228
  let c8_i32_2009 : BitVec 32 := 8#32
  let v3245 : BitVec 32 := Scalar.muli v3244 c8_i32_2009
  let c2_i32_2016 : BitVec 32 := 2#32
  let c4_i32_2010 : BitVec 32 := 4#32
  let c0_i32_2011 : BitVec 32 := 0#32
  let v3246 : BitVec 1 := Scalar.cmpi .eq c4_i32_2010 c0_i32_2011
  let c1_i32_2012 : BitVec 32 := 1#32
  let v3247 : BitVec 32 := Scalar.select v3246 c1_i32_2012 c4_i32_2010
  let v3248 : BitVec 32 := Scalar.remsi v3227 v3247
  let c0_i32_2014 : BitVec 32 := 0#32
  let v3250 : BitVec 1 := Scalar.cmpi .slt v3248 c0_i32_2014
  let c0_i32_2015 : BitVec 32 := 0#32
  let v3251 : BitVec 1 := Scalar.cmpi .slt v3247 c0_i32_2015
  let v3252 : BitVec 1 := Scalar.xori v3250 v3251
  let c0_i32_2013 : BitVec 32 := 0#32
  let v3249 : BitVec 1 := Scalar.cmpi .ne v3248 c0_i32_2013
  let v3253 : BitVec 1 := Scalar.andi v3252 v3249
  let v3254 : BitVec 32 := Scalar.addi v3248 v3247
  let v3255 : BitVec 32 := Scalar.select v3253 v3254 v3248
  let v3256 : BitVec 32 := Scalar.muli c2_i32_2016 v3255
  let v3257 : BitVec 32 := Scalar.addi v3245 v3256
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_2017 : BitVec 32 := 4#32
  let c0_i32_2018 : BitVec 32 := 0#32
  let v3258 : BitVec 1 := Scalar.cmpi .eq c4_i32_2017 c0_i32_2018
  let c1_i32_2019 : BitVec 32 := 1#32
  let v3259 : BitVec 32 := Scalar.select v3258 c1_i32_2019 c4_i32_2017
  let v3260 : BitVec 32 := Scalar.remsi v3227 v3259
  let c0_i32_2021 : BitVec 32 := 0#32
  let v3262 : BitVec 1 := Scalar.cmpi .slt v3260 c0_i32_2021
  let c0_i32_2022 : BitVec 32 := 0#32
  let v3263 : BitVec 1 := Scalar.cmpi .slt v3259 c0_i32_2022
  let v3264 : BitVec 1 := Scalar.xori v3262 v3263
  let c0_i32_2020 : BitVec 32 := 0#32
  let v3261 : BitVec 1 := Scalar.cmpi .ne v3260 c0_i32_2020
  let v3265 : BitVec 1 := Scalar.andi v3264 v3261
  let v3266 : BitVec 32 := Scalar.addi v3260 v3259
  let v3267 : BitVec 32 := Scalar.select v3265 v3266 v3260
  let v3268 : BitVec 32 := Scalar.addi v74 v3267
  let c2_i32_2023 : BitVec 32 := 2#32
  let c0_i32_2024 : BitVec 32 := 0#32
  let v3269 : BitVec 1 := Scalar.cmpi .eq c2_i32_2023 c0_i32_2024
  let c1_i32_2025 : BitVec 32 := 1#32
  let v3270 : BitVec 32 := Scalar.select v3269 c1_i32_2025 c2_i32_2023
  let v3271 : BitVec 32 := Scalar.remsi v3268 v3270
  let c0_i32_2027 : BitVec 32 := 0#32
  let v3273 : BitVec 1 := Scalar.cmpi .slt v3271 c0_i32_2027
  let c0_i32_2028 : BitVec 32 := 0#32
  let v3274 : BitVec 1 := Scalar.cmpi .slt v3270 c0_i32_2028
  let v3275 : BitVec 1 := Scalar.xori v3273 v3274
  let c0_i32_2026 : BitVec 32 := 0#32
  let v3272 : BitVec 1 := Scalar.cmpi .ne v3271 c0_i32_2026
  let v3276 : BitVec 1 := Scalar.andi v3275 v3272
  let v3277 : BitVec 32 := Scalar.addi v3271 v3270
  let v3278 : BitVec 32 := Scalar.select v3276 v3277 v3271
  let v3279 : BitVec 32 := Scalar.addi v3257 v3278
  let c1_i32_2042 : BitVec 32 := 1#32
  let v3293 : BitVec 32 := Scalar.muli v3279 c1_i32_2042
  let v3294 : BitVec 32 := Scalar.addi c0_i32_2043 v3293
  v3294.toNat
def k0_dev43 (d0 : Dev nD) : Nat :=
  let c0_i32_2106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c13_i32_2058 : BitVec 32 := 13#32
  let v3309 : BitVec 32 := Scalar.addi v76 c13_i32_2058
  let c16_i32_2059 : BitVec 32 := 16#32
  let c0_i32_2060 : BitVec 32 := 0#32
  let v3310 : BitVec 1 := Scalar.cmpi .eq c16_i32_2059 c0_i32_2060
  let c1_i32_2061 : BitVec 32 := 1#32
  let v3311 : BitVec 32 := Scalar.select v3310 c1_i32_2061 c16_i32_2059
  let v3312 : BitVec 32 := Scalar.remsi v3309 v3311
  let c0_i32_2063 : BitVec 32 := 0#32
  let v3314 : BitVec 1 := Scalar.cmpi .slt v3312 c0_i32_2063
  let c0_i32_2064 : BitVec 32 := 0#32
  let v3315 : BitVec 1 := Scalar.cmpi .slt v3311 c0_i32_2064
  let v3316 : BitVec 1 := Scalar.xori v3314 v3315
  let c0_i32_2062 : BitVec 32 := 0#32
  let v3313 : BitVec 1 := Scalar.cmpi .ne v3312 c0_i32_2062
  let v3317 : BitVec 1 := Scalar.andi v3316 v3313
  let v3318 : BitVec 32 := Scalar.addi v3312 v3311
  let v3319 : BitVec 32 := Scalar.select v3317 v3318 v3312
  let c0_i32_2066 : BitVec 32 := 0#32
  let v3321 : BitVec 1 := Scalar.cmpi .sgt v3319 c0_i32_2066
  let v3322 : BitVec 32 := Scalar.extui v3321
  let c0_i32_2067 : BitVec 32 := 0#32
  let v3323 : BitVec 1 := Scalar.cmpi .slt v3319 c0_i32_2067
  let v3324 : BitVec 32 := Scalar.extui v3323
  let v3325 : BitVec 32 := Scalar.subi v3322 v3324
  let c4_i32_2065 : BitVec 32 := 4#32
  let c0_i32_2068 : BitVec 32 := 0#32
  let v3326 : BitVec 1 := Scalar.cmpi .sgt c4_i32_2065 c0_i32_2068
  let v3327 : BitVec 32 := Scalar.extui v3326
  let c0_i32_2069 : BitVec 32 := 0#32
  let v3328 : BitVec 1 := Scalar.cmpi .slt c4_i32_2065 c0_i32_2069
  let v3329 : BitVec 32 := Scalar.extui v3328
  let v3330 : BitVec 32 := Scalar.subi v3327 v3329
  let v3331 : BitVec 1 := Scalar.cmpi .ne v3325 v3330
  let v3332 : BitVec 32 := Scalar.remsi v3319 c4_i32_2065
  let c0_i32_2070 : BitVec 32 := 0#32
  let v3333 : BitVec 1 := Scalar.cmpi .ne v3332 c0_i32_2070
  let v3334 : BitVec 1 := Scalar.andi v3331 v3333
  let v3320 : BitVec 32 := Scalar.divsi v3319 c4_i32_2065
  let c1_i32_2071 : BitVec 32 := 1#32
  let v3335 : BitVec 32 := Scalar.subi v3320 c1_i32_2071
  let v3336 : BitVec 32 := Scalar.select v3334 v3335 v3320
  let c8_i32_2072 : BitVec 32 := 8#32
  let v3337 : BitVec 32 := Scalar.muli v3336 c8_i32_2072
  let c2_i32_2079 : BitVec 32 := 2#32
  let c4_i32_2073 : BitVec 32 := 4#32
  let c0_i32_2074 : BitVec 32 := 0#32
  let v3338 : BitVec 1 := Scalar.cmpi .eq c4_i32_2073 c0_i32_2074
  let c1_i32_2075 : BitVec 32 := 1#32
  let v3339 : BitVec 32 := Scalar.select v3338 c1_i32_2075 c4_i32_2073
  let v3340 : BitVec 32 := Scalar.remsi v3319 v3339
  let c0_i32_2077 : BitVec 32 := 0#32
  let v3342 : BitVec 1 := Scalar.cmpi .slt v3340 c0_i32_2077
  let c0_i32_2078 : BitVec 32 := 0#32
  let v3343 : BitVec 1 := Scalar.cmpi .slt v3339 c0_i32_2078
  let v3344 : BitVec 1 := Scalar.xori v3342 v3343
  let c0_i32_2076 : BitVec 32 := 0#32
  let v3341 : BitVec 1 := Scalar.cmpi .ne v3340 c0_i32_2076
  let v3345 : BitVec 1 := Scalar.andi v3344 v3341
  let v3346 : BitVec 32 := Scalar.addi v3340 v3339
  let v3347 : BitVec 32 := Scalar.select v3345 v3346 v3340
  let v3348 : BitVec 32 := Scalar.muli c2_i32_2079 v3347
  let v3349 : BitVec 32 := Scalar.addi v3337 v3348
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_2080 : BitVec 32 := 4#32
  let c0_i32_2081 : BitVec 32 := 0#32
  let v3350 : BitVec 1 := Scalar.cmpi .eq c4_i32_2080 c0_i32_2081
  let c1_i32_2082 : BitVec 32 := 1#32
  let v3351 : BitVec 32 := Scalar.select v3350 c1_i32_2082 c4_i32_2080
  let v3352 : BitVec 32 := Scalar.remsi v3319 v3351
  let c0_i32_2084 : BitVec 32 := 0#32
  let v3354 : BitVec 1 := Scalar.cmpi .slt v3352 c0_i32_2084
  let c0_i32_2085 : BitVec 32 := 0#32
  let v3355 : BitVec 1 := Scalar.cmpi .slt v3351 c0_i32_2085
  let v3356 : BitVec 1 := Scalar.xori v3354 v3355
  let c0_i32_2083 : BitVec 32 := 0#32
  let v3353 : BitVec 1 := Scalar.cmpi .ne v3352 c0_i32_2083
  let v3357 : BitVec 1 := Scalar.andi v3356 v3353
  let v3358 : BitVec 32 := Scalar.addi v3352 v3351
  let v3359 : BitVec 32 := Scalar.select v3357 v3358 v3352
  let v3360 : BitVec 32 := Scalar.addi v74 v3359
  let c2_i32_2086 : BitVec 32 := 2#32
  let c0_i32_2087 : BitVec 32 := 0#32
  let v3361 : BitVec 1 := Scalar.cmpi .eq c2_i32_2086 c0_i32_2087
  let c1_i32_2088 : BitVec 32 := 1#32
  let v3362 : BitVec 32 := Scalar.select v3361 c1_i32_2088 c2_i32_2086
  let v3363 : BitVec 32 := Scalar.remsi v3360 v3362
  let c0_i32_2090 : BitVec 32 := 0#32
  let v3365 : BitVec 1 := Scalar.cmpi .slt v3363 c0_i32_2090
  let c0_i32_2091 : BitVec 32 := 0#32
  let v3366 : BitVec 1 := Scalar.cmpi .slt v3362 c0_i32_2091
  let v3367 : BitVec 1 := Scalar.xori v3365 v3366
  let c0_i32_2089 : BitVec 32 := 0#32
  let v3364 : BitVec 1 := Scalar.cmpi .ne v3363 c0_i32_2089
  let v3368 : BitVec 1 := Scalar.andi v3367 v3364
  let v3369 : BitVec 32 := Scalar.addi v3363 v3362
  let v3370 : BitVec 32 := Scalar.select v3368 v3369 v3363
  let v3371 : BitVec 32 := Scalar.addi v3349 v3370
  let c1_i32_2105 : BitVec 32 := 1#32
  let v3385 : BitVec 32 := Scalar.muli v3371 c1_i32_2105
  let v3386 : BitVec 32 := Scalar.addi c0_i32_2106 v3385
  v3386.toNat
def k0_dev44 (d0 : Dev nD) : Nat :=
  let c0_i32_2169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c2_i32_2121 : BitVec 32 := 2#32
  let v3401 : BitVec 32 := Scalar.addi v76 c2_i32_2121
  let c16_i32_2122 : BitVec 32 := 16#32
  let c0_i32_2123 : BitVec 32 := 0#32
  let v3402 : BitVec 1 := Scalar.cmpi .eq c16_i32_2122 c0_i32_2123
  let c1_i32_2124 : BitVec 32 := 1#32
  let v3403 : BitVec 32 := Scalar.select v3402 c1_i32_2124 c16_i32_2122
  let v3404 : BitVec 32 := Scalar.remsi v3401 v3403
  let c0_i32_2126 : BitVec 32 := 0#32
  let v3406 : BitVec 1 := Scalar.cmpi .slt v3404 c0_i32_2126
  let c0_i32_2127 : BitVec 32 := 0#32
  let v3407 : BitVec 1 := Scalar.cmpi .slt v3403 c0_i32_2127
  let v3408 : BitVec 1 := Scalar.xori v3406 v3407
  let c0_i32_2125 : BitVec 32 := 0#32
  let v3405 : BitVec 1 := Scalar.cmpi .ne v3404 c0_i32_2125
  let v3409 : BitVec 1 := Scalar.andi v3408 v3405
  let v3410 : BitVec 32 := Scalar.addi v3404 v3403
  let v3411 : BitVec 32 := Scalar.select v3409 v3410 v3404
  let c0_i32_2129 : BitVec 32 := 0#32
  let v3413 : BitVec 1 := Scalar.cmpi .sgt v3411 c0_i32_2129
  let v3414 : BitVec 32 := Scalar.extui v3413
  let c0_i32_2130 : BitVec 32 := 0#32
  let v3415 : BitVec 1 := Scalar.cmpi .slt v3411 c0_i32_2130
  let v3416 : BitVec 32 := Scalar.extui v3415
  let v3417 : BitVec 32 := Scalar.subi v3414 v3416
  let c4_i32_2128 : BitVec 32 := 4#32
  let c0_i32_2131 : BitVec 32 := 0#32
  let v3418 : BitVec 1 := Scalar.cmpi .sgt c4_i32_2128 c0_i32_2131
  let v3419 : BitVec 32 := Scalar.extui v3418
  let c0_i32_2132 : BitVec 32 := 0#32
  let v3420 : BitVec 1 := Scalar.cmpi .slt c4_i32_2128 c0_i32_2132
  let v3421 : BitVec 32 := Scalar.extui v3420
  let v3422 : BitVec 32 := Scalar.subi v3419 v3421
  let v3423 : BitVec 1 := Scalar.cmpi .ne v3417 v3422
  let v3424 : BitVec 32 := Scalar.remsi v3411 c4_i32_2128
  let c0_i32_2133 : BitVec 32 := 0#32
  let v3425 : BitVec 1 := Scalar.cmpi .ne v3424 c0_i32_2133
  let v3426 : BitVec 1 := Scalar.andi v3423 v3425
  let v3412 : BitVec 32 := Scalar.divsi v3411 c4_i32_2128
  let c1_i32_2134 : BitVec 32 := 1#32
  let v3427 : BitVec 32 := Scalar.subi v3412 c1_i32_2134
  let v3428 : BitVec 32 := Scalar.select v3426 v3427 v3412
  let c8_i32_2135 : BitVec 32 := 8#32
  let v3429 : BitVec 32 := Scalar.muli v3428 c8_i32_2135
  let c2_i32_2142 : BitVec 32 := 2#32
  let c4_i32_2136 : BitVec 32 := 4#32
  let c0_i32_2137 : BitVec 32 := 0#32
  let v3430 : BitVec 1 := Scalar.cmpi .eq c4_i32_2136 c0_i32_2137
  let c1_i32_2138 : BitVec 32 := 1#32
  let v3431 : BitVec 32 := Scalar.select v3430 c1_i32_2138 c4_i32_2136
  let v3432 : BitVec 32 := Scalar.remsi v3411 v3431
  let c0_i32_2140 : BitVec 32 := 0#32
  let v3434 : BitVec 1 := Scalar.cmpi .slt v3432 c0_i32_2140
  let c0_i32_2141 : BitVec 32 := 0#32
  let v3435 : BitVec 1 := Scalar.cmpi .slt v3431 c0_i32_2141
  let v3436 : BitVec 1 := Scalar.xori v3434 v3435
  let c0_i32_2139 : BitVec 32 := 0#32
  let v3433 : BitVec 1 := Scalar.cmpi .ne v3432 c0_i32_2139
  let v3437 : BitVec 1 := Scalar.andi v3436 v3433
  let v3438 : BitVec 32 := Scalar.addi v3432 v3431
  let v3439 : BitVec 32 := Scalar.select v3437 v3438 v3432
  let v3440 : BitVec 32 := Scalar.muli c2_i32_2142 v3439
  let v3441 : BitVec 32 := Scalar.addi v3429 v3440
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_2143 : BitVec 32 := 4#32
  let c0_i32_2144 : BitVec 32 := 0#32
  let v3442 : BitVec 1 := Scalar.cmpi .eq c4_i32_2143 c0_i32_2144
  let c1_i32_2145 : BitVec 32 := 1#32
  let v3443 : BitVec 32 := Scalar.select v3442 c1_i32_2145 c4_i32_2143
  let v3444 : BitVec 32 := Scalar.remsi v3411 v3443
  let c0_i32_2147 : BitVec 32 := 0#32
  let v3446 : BitVec 1 := Scalar.cmpi .slt v3444 c0_i32_2147
  let c0_i32_2148 : BitVec 32 := 0#32
  let v3447 : BitVec 1 := Scalar.cmpi .slt v3443 c0_i32_2148
  let v3448 : BitVec 1 := Scalar.xori v3446 v3447
  let c0_i32_2146 : BitVec 32 := 0#32
  let v3445 : BitVec 1 := Scalar.cmpi .ne v3444 c0_i32_2146
  let v3449 : BitVec 1 := Scalar.andi v3448 v3445
  let v3450 : BitVec 32 := Scalar.addi v3444 v3443
  let v3451 : BitVec 32 := Scalar.select v3449 v3450 v3444
  let v3452 : BitVec 32 := Scalar.addi v74 v3451
  let c2_i32_2149 : BitVec 32 := 2#32
  let c0_i32_2150 : BitVec 32 := 0#32
  let v3453 : BitVec 1 := Scalar.cmpi .eq c2_i32_2149 c0_i32_2150
  let c1_i32_2151 : BitVec 32 := 1#32
  let v3454 : BitVec 32 := Scalar.select v3453 c1_i32_2151 c2_i32_2149
  let v3455 : BitVec 32 := Scalar.remsi v3452 v3454
  let c0_i32_2153 : BitVec 32 := 0#32
  let v3457 : BitVec 1 := Scalar.cmpi .slt v3455 c0_i32_2153
  let c0_i32_2154 : BitVec 32 := 0#32
  let v3458 : BitVec 1 := Scalar.cmpi .slt v3454 c0_i32_2154
  let v3459 : BitVec 1 := Scalar.xori v3457 v3458
  let c0_i32_2152 : BitVec 32 := 0#32
  let v3456 : BitVec 1 := Scalar.cmpi .ne v3455 c0_i32_2152
  let v3460 : BitVec 1 := Scalar.andi v3459 v3456
  let v3461 : BitVec 32 := Scalar.addi v3455 v3454
  let v3462 : BitVec 32 := Scalar.select v3460 v3461 v3455
  let v3463 : BitVec 32 := Scalar.addi v3441 v3462
  let c1_i32_2168 : BitVec 32 := 1#32
  let v3477 : BitVec 32 := Scalar.muli v3463 c1_i32_2168
  let v3478 : BitVec 32 := Scalar.addi c0_i32_2169 v3477
  v3478.toNat
def k0_dev45 (d0 : Dev nD) : Nat :=
  let c0_i32_2232 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c14_i32_2184 : BitVec 32 := 14#32
  let v3493 : BitVec 32 := Scalar.addi v76 c14_i32_2184
  let c16_i32_2185 : BitVec 32 := 16#32
  let c0_i32_2186 : BitVec 32 := 0#32
  let v3494 : BitVec 1 := Scalar.cmpi .eq c16_i32_2185 c0_i32_2186
  let c1_i32_2187 : BitVec 32 := 1#32
  let v3495 : BitVec 32 := Scalar.select v3494 c1_i32_2187 c16_i32_2185
  let v3496 : BitVec 32 := Scalar.remsi v3493 v3495
  let c0_i32_2189 : BitVec 32 := 0#32
  let v3498 : BitVec 1 := Scalar.cmpi .slt v3496 c0_i32_2189
  let c0_i32_2190 : BitVec 32 := 0#32
  let v3499 : BitVec 1 := Scalar.cmpi .slt v3495 c0_i32_2190
  let v3500 : BitVec 1 := Scalar.xori v3498 v3499
  let c0_i32_2188 : BitVec 32 := 0#32
  let v3497 : BitVec 1 := Scalar.cmpi .ne v3496 c0_i32_2188
  let v3501 : BitVec 1 := Scalar.andi v3500 v3497
  let v3502 : BitVec 32 := Scalar.addi v3496 v3495
  let v3503 : BitVec 32 := Scalar.select v3501 v3502 v3496
  let c0_i32_2192 : BitVec 32 := 0#32
  let v3505 : BitVec 1 := Scalar.cmpi .sgt v3503 c0_i32_2192
  let v3506 : BitVec 32 := Scalar.extui v3505
  let c0_i32_2193 : BitVec 32 := 0#32
  let v3507 : BitVec 1 := Scalar.cmpi .slt v3503 c0_i32_2193
  let v3508 : BitVec 32 := Scalar.extui v3507
  let v3509 : BitVec 32 := Scalar.subi v3506 v3508
  let c4_i32_2191 : BitVec 32 := 4#32
  let c0_i32_2194 : BitVec 32 := 0#32
  let v3510 : BitVec 1 := Scalar.cmpi .sgt c4_i32_2191 c0_i32_2194
  let v3511 : BitVec 32 := Scalar.extui v3510
  let c0_i32_2195 : BitVec 32 := 0#32
  let v3512 : BitVec 1 := Scalar.cmpi .slt c4_i32_2191 c0_i32_2195
  let v3513 : BitVec 32 := Scalar.extui v3512
  let v3514 : BitVec 32 := Scalar.subi v3511 v3513
  let v3515 : BitVec 1 := Scalar.cmpi .ne v3509 v3514
  let v3516 : BitVec 32 := Scalar.remsi v3503 c4_i32_2191
  let c0_i32_2196 : BitVec 32 := 0#32
  let v3517 : BitVec 1 := Scalar.cmpi .ne v3516 c0_i32_2196
  let v3518 : BitVec 1 := Scalar.andi v3515 v3517
  let v3504 : BitVec 32 := Scalar.divsi v3503 c4_i32_2191
  let c1_i32_2197 : BitVec 32 := 1#32
  let v3519 : BitVec 32 := Scalar.subi v3504 c1_i32_2197
  let v3520 : BitVec 32 := Scalar.select v3518 v3519 v3504
  let c8_i32_2198 : BitVec 32 := 8#32
  let v3521 : BitVec 32 := Scalar.muli v3520 c8_i32_2198
  let c2_i32_2205 : BitVec 32 := 2#32
  let c4_i32_2199 : BitVec 32 := 4#32
  let c0_i32_2200 : BitVec 32 := 0#32
  let v3522 : BitVec 1 := Scalar.cmpi .eq c4_i32_2199 c0_i32_2200
  let c1_i32_2201 : BitVec 32 := 1#32
  let v3523 : BitVec 32 := Scalar.select v3522 c1_i32_2201 c4_i32_2199
  let v3524 : BitVec 32 := Scalar.remsi v3503 v3523
  let c0_i32_2203 : BitVec 32 := 0#32
  let v3526 : BitVec 1 := Scalar.cmpi .slt v3524 c0_i32_2203
  let c0_i32_2204 : BitVec 32 := 0#32
  let v3527 : BitVec 1 := Scalar.cmpi .slt v3523 c0_i32_2204
  let v3528 : BitVec 1 := Scalar.xori v3526 v3527
  let c0_i32_2202 : BitVec 32 := 0#32
  let v3525 : BitVec 1 := Scalar.cmpi .ne v3524 c0_i32_2202
  let v3529 : BitVec 1 := Scalar.andi v3528 v3525
  let v3530 : BitVec 32 := Scalar.addi v3524 v3523
  let v3531 : BitVec 32 := Scalar.select v3529 v3530 v3524
  let v3532 : BitVec 32 := Scalar.muli c2_i32_2205 v3531
  let v3533 : BitVec 32 := Scalar.addi v3521 v3532
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_2206 : BitVec 32 := 4#32
  let c0_i32_2207 : BitVec 32 := 0#32
  let v3534 : BitVec 1 := Scalar.cmpi .eq c4_i32_2206 c0_i32_2207
  let c1_i32_2208 : BitVec 32 := 1#32
  let v3535 : BitVec 32 := Scalar.select v3534 c1_i32_2208 c4_i32_2206
  let v3536 : BitVec 32 := Scalar.remsi v3503 v3535
  let c0_i32_2210 : BitVec 32 := 0#32
  let v3538 : BitVec 1 := Scalar.cmpi .slt v3536 c0_i32_2210
  let c0_i32_2211 : BitVec 32 := 0#32
  let v3539 : BitVec 1 := Scalar.cmpi .slt v3535 c0_i32_2211
  let v3540 : BitVec 1 := Scalar.xori v3538 v3539
  let c0_i32_2209 : BitVec 32 := 0#32
  let v3537 : BitVec 1 := Scalar.cmpi .ne v3536 c0_i32_2209
  let v3541 : BitVec 1 := Scalar.andi v3540 v3537
  let v3542 : BitVec 32 := Scalar.addi v3536 v3535
  let v3543 : BitVec 32 := Scalar.select v3541 v3542 v3536
  let v3544 : BitVec 32 := Scalar.addi v74 v3543
  let c2_i32_2212 : BitVec 32 := 2#32
  let c0_i32_2213 : BitVec 32 := 0#32
  let v3545 : BitVec 1 := Scalar.cmpi .eq c2_i32_2212 c0_i32_2213
  let c1_i32_2214 : BitVec 32 := 1#32
  let v3546 : BitVec 32 := Scalar.select v3545 c1_i32_2214 c2_i32_2212
  let v3547 : BitVec 32 := Scalar.remsi v3544 v3546
  let c0_i32_2216 : BitVec 32 := 0#32
  let v3549 : BitVec 1 := Scalar.cmpi .slt v3547 c0_i32_2216
  let c0_i32_2217 : BitVec 32 := 0#32
  let v3550 : BitVec 1 := Scalar.cmpi .slt v3546 c0_i32_2217
  let v3551 : BitVec 1 := Scalar.xori v3549 v3550
  let c0_i32_2215 : BitVec 32 := 0#32
  let v3548 : BitVec 1 := Scalar.cmpi .ne v3547 c0_i32_2215
  let v3552 : BitVec 1 := Scalar.andi v3551 v3548
  let v3553 : BitVec 32 := Scalar.addi v3547 v3546
  let v3554 : BitVec 32 := Scalar.select v3552 v3553 v3547
  let v3555 : BitVec 32 := Scalar.addi v3533 v3554
  let c1_i32_2231 : BitVec 32 := 1#32
  let v3569 : BitVec 32 := Scalar.muli v3555 c1_i32_2231
  let v3570 : BitVec 32 := Scalar.addi c0_i32_2232 v3569
  v3570.toNat
def k0_dev46 (d0 : Dev nD) : Nat :=
  let c0_i32_2295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c1_i32_2247 : BitVec 32 := 1#32
  let v3585 : BitVec 32 := Scalar.addi v76 c1_i32_2247
  let c16_i32_2248 : BitVec 32 := 16#32
  let c0_i32_2249 : BitVec 32 := 0#32
  let v3586 : BitVec 1 := Scalar.cmpi .eq c16_i32_2248 c0_i32_2249
  let c1_i32_2250 : BitVec 32 := 1#32
  let v3587 : BitVec 32 := Scalar.select v3586 c1_i32_2250 c16_i32_2248
  let v3588 : BitVec 32 := Scalar.remsi v3585 v3587
  let c0_i32_2252 : BitVec 32 := 0#32
  let v3590 : BitVec 1 := Scalar.cmpi .slt v3588 c0_i32_2252
  let c0_i32_2253 : BitVec 32 := 0#32
  let v3591 : BitVec 1 := Scalar.cmpi .slt v3587 c0_i32_2253
  let v3592 : BitVec 1 := Scalar.xori v3590 v3591
  let c0_i32_2251 : BitVec 32 := 0#32
  let v3589 : BitVec 1 := Scalar.cmpi .ne v3588 c0_i32_2251
  let v3593 : BitVec 1 := Scalar.andi v3592 v3589
  let v3594 : BitVec 32 := Scalar.addi v3588 v3587
  let v3595 : BitVec 32 := Scalar.select v3593 v3594 v3588
  let c0_i32_2255 : BitVec 32 := 0#32
  let v3597 : BitVec 1 := Scalar.cmpi .sgt v3595 c0_i32_2255
  let v3598 : BitVec 32 := Scalar.extui v3597
  let c0_i32_2256 : BitVec 32 := 0#32
  let v3599 : BitVec 1 := Scalar.cmpi .slt v3595 c0_i32_2256
  let v3600 : BitVec 32 := Scalar.extui v3599
  let v3601 : BitVec 32 := Scalar.subi v3598 v3600
  let c4_i32_2254 : BitVec 32 := 4#32
  let c0_i32_2257 : BitVec 32 := 0#32
  let v3602 : BitVec 1 := Scalar.cmpi .sgt c4_i32_2254 c0_i32_2257
  let v3603 : BitVec 32 := Scalar.extui v3602
  let c0_i32_2258 : BitVec 32 := 0#32
  let v3604 : BitVec 1 := Scalar.cmpi .slt c4_i32_2254 c0_i32_2258
  let v3605 : BitVec 32 := Scalar.extui v3604
  let v3606 : BitVec 32 := Scalar.subi v3603 v3605
  let v3607 : BitVec 1 := Scalar.cmpi .ne v3601 v3606
  let v3608 : BitVec 32 := Scalar.remsi v3595 c4_i32_2254
  let c0_i32_2259 : BitVec 32 := 0#32
  let v3609 : BitVec 1 := Scalar.cmpi .ne v3608 c0_i32_2259
  let v3610 : BitVec 1 := Scalar.andi v3607 v3609
  let v3596 : BitVec 32 := Scalar.divsi v3595 c4_i32_2254
  let c1_i32_2260 : BitVec 32 := 1#32
  let v3611 : BitVec 32 := Scalar.subi v3596 c1_i32_2260
  let v3612 : BitVec 32 := Scalar.select v3610 v3611 v3596
  let c8_i32_2261 : BitVec 32 := 8#32
  let v3613 : BitVec 32 := Scalar.muli v3612 c8_i32_2261
  let c2_i32_2268 : BitVec 32 := 2#32
  let c4_i32_2262 : BitVec 32 := 4#32
  let c0_i32_2263 : BitVec 32 := 0#32
  let v3614 : BitVec 1 := Scalar.cmpi .eq c4_i32_2262 c0_i32_2263
  let c1_i32_2264 : BitVec 32 := 1#32
  let v3615 : BitVec 32 := Scalar.select v3614 c1_i32_2264 c4_i32_2262
  let v3616 : BitVec 32 := Scalar.remsi v3595 v3615
  let c0_i32_2266 : BitVec 32 := 0#32
  let v3618 : BitVec 1 := Scalar.cmpi .slt v3616 c0_i32_2266
  let c0_i32_2267 : BitVec 32 := 0#32
  let v3619 : BitVec 1 := Scalar.cmpi .slt v3615 c0_i32_2267
  let v3620 : BitVec 1 := Scalar.xori v3618 v3619
  let c0_i32_2265 : BitVec 32 := 0#32
  let v3617 : BitVec 1 := Scalar.cmpi .ne v3616 c0_i32_2265
  let v3621 : BitVec 1 := Scalar.andi v3620 v3617
  let v3622 : BitVec 32 := Scalar.addi v3616 v3615
  let v3623 : BitVec 32 := Scalar.select v3621 v3622 v3616
  let v3624 : BitVec 32 := Scalar.muli c2_i32_2268 v3623
  let v3625 : BitVec 32 := Scalar.addi v3613 v3624
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_2269 : BitVec 32 := 4#32
  let c0_i32_2270 : BitVec 32 := 0#32
  let v3626 : BitVec 1 := Scalar.cmpi .eq c4_i32_2269 c0_i32_2270
  let c1_i32_2271 : BitVec 32 := 1#32
  let v3627 : BitVec 32 := Scalar.select v3626 c1_i32_2271 c4_i32_2269
  let v3628 : BitVec 32 := Scalar.remsi v3595 v3627
  let c0_i32_2273 : BitVec 32 := 0#32
  let v3630 : BitVec 1 := Scalar.cmpi .slt v3628 c0_i32_2273
  let c0_i32_2274 : BitVec 32 := 0#32
  let v3631 : BitVec 1 := Scalar.cmpi .slt v3627 c0_i32_2274
  let v3632 : BitVec 1 := Scalar.xori v3630 v3631
  let c0_i32_2272 : BitVec 32 := 0#32
  let v3629 : BitVec 1 := Scalar.cmpi .ne v3628 c0_i32_2272
  let v3633 : BitVec 1 := Scalar.andi v3632 v3629
  let v3634 : BitVec 32 := Scalar.addi v3628 v3627
  let v3635 : BitVec 32 := Scalar.select v3633 v3634 v3628
  let v3636 : BitVec 32 := Scalar.addi v74 v3635
  let c2_i32_2275 : BitVec 32 := 2#32
  let c0_i32_2276 : BitVec 32 := 0#32
  let v3637 : BitVec 1 := Scalar.cmpi .eq c2_i32_2275 c0_i32_2276
  let c1_i32_2277 : BitVec 32 := 1#32
  let v3638 : BitVec 32 := Scalar.select v3637 c1_i32_2277 c2_i32_2275
  let v3639 : BitVec 32 := Scalar.remsi v3636 v3638
  let c0_i32_2279 : BitVec 32 := 0#32
  let v3641 : BitVec 1 := Scalar.cmpi .slt v3639 c0_i32_2279
  let c0_i32_2280 : BitVec 32 := 0#32
  let v3642 : BitVec 1 := Scalar.cmpi .slt v3638 c0_i32_2280
  let v3643 : BitVec 1 := Scalar.xori v3641 v3642
  let c0_i32_2278 : BitVec 32 := 0#32
  let v3640 : BitVec 1 := Scalar.cmpi .ne v3639 c0_i32_2278
  let v3644 : BitVec 1 := Scalar.andi v3643 v3640
  let v3645 : BitVec 32 := Scalar.addi v3639 v3638
  let v3646 : BitVec 32 := Scalar.select v3644 v3645 v3639
  let v3647 : BitVec 32 := Scalar.addi v3625 v3646
  let c1_i32_2294 : BitVec 32 := 1#32
  let v3661 : BitVec 32 := Scalar.muli v3647 c1_i32_2294
  let v3662 : BitVec 32 := Scalar.addi c0_i32_2295 v3661
  v3662.toNat
def k0_dev47 (d0 : Dev nD) : Nat :=
  let c0_i32_2358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let c15_i32_2310 : BitVec 32 := 15#32
  let v3677 : BitVec 32 := Scalar.addi v76 c15_i32_2310
  let c16_i32_2311 : BitVec 32 := 16#32
  let c0_i32_2312 : BitVec 32 := 0#32
  let v3678 : BitVec 1 := Scalar.cmpi .eq c16_i32_2311 c0_i32_2312
  let c1_i32_2313 : BitVec 32 := 1#32
  let v3679 : BitVec 32 := Scalar.select v3678 c1_i32_2313 c16_i32_2311
  let v3680 : BitVec 32 := Scalar.remsi v3677 v3679
  let c0_i32_2315 : BitVec 32 := 0#32
  let v3682 : BitVec 1 := Scalar.cmpi .slt v3680 c0_i32_2315
  let c0_i32_2316 : BitVec 32 := 0#32
  let v3683 : BitVec 1 := Scalar.cmpi .slt v3679 c0_i32_2316
  let v3684 : BitVec 1 := Scalar.xori v3682 v3683
  let c0_i32_2314 : BitVec 32 := 0#32
  let v3681 : BitVec 1 := Scalar.cmpi .ne v3680 c0_i32_2314
  let v3685 : BitVec 1 := Scalar.andi v3684 v3681
  let v3686 : BitVec 32 := Scalar.addi v3680 v3679
  let v3687 : BitVec 32 := Scalar.select v3685 v3686 v3680
  let c0_i32_2318 : BitVec 32 := 0#32
  let v3689 : BitVec 1 := Scalar.cmpi .sgt v3687 c0_i32_2318
  let v3690 : BitVec 32 := Scalar.extui v3689
  let c0_i32_2319 : BitVec 32 := 0#32
  let v3691 : BitVec 1 := Scalar.cmpi .slt v3687 c0_i32_2319
  let v3692 : BitVec 32 := Scalar.extui v3691
  let v3693 : BitVec 32 := Scalar.subi v3690 v3692
  let c4_i32_2317 : BitVec 32 := 4#32
  let c0_i32_2320 : BitVec 32 := 0#32
  let v3694 : BitVec 1 := Scalar.cmpi .sgt c4_i32_2317 c0_i32_2320
  let v3695 : BitVec 32 := Scalar.extui v3694
  let c0_i32_2321 : BitVec 32 := 0#32
  let v3696 : BitVec 1 := Scalar.cmpi .slt c4_i32_2317 c0_i32_2321
  let v3697 : BitVec 32 := Scalar.extui v3696
  let v3698 : BitVec 32 := Scalar.subi v3695 v3697
  let v3699 : BitVec 1 := Scalar.cmpi .ne v3693 v3698
  let v3700 : BitVec 32 := Scalar.remsi v3687 c4_i32_2317
  let c0_i32_2322 : BitVec 32 := 0#32
  let v3701 : BitVec 1 := Scalar.cmpi .ne v3700 c0_i32_2322
  let v3702 : BitVec 1 := Scalar.andi v3699 v3701
  let v3688 : BitVec 32 := Scalar.divsi v3687 c4_i32_2317
  let c1_i32_2323 : BitVec 32 := 1#32
  let v3703 : BitVec 32 := Scalar.subi v3688 c1_i32_2323
  let v3704 : BitVec 32 := Scalar.select v3702 v3703 v3688
  let c8_i32_2324 : BitVec 32 := 8#32
  let v3705 : BitVec 32 := Scalar.muli v3704 c8_i32_2324
  let c2_i32_2331 : BitVec 32 := 2#32
  let c4_i32_2325 : BitVec 32 := 4#32
  let c0_i32_2326 : BitVec 32 := 0#32
  let v3706 : BitVec 1 := Scalar.cmpi .eq c4_i32_2325 c0_i32_2326
  let c1_i32_2327 : BitVec 32 := 1#32
  let v3707 : BitVec 32 := Scalar.select v3706 c1_i32_2327 c4_i32_2325
  let v3708 : BitVec 32 := Scalar.remsi v3687 v3707
  let c0_i32_2329 : BitVec 32 := 0#32
  let v3710 : BitVec 1 := Scalar.cmpi .slt v3708 c0_i32_2329
  let c0_i32_2330 : BitVec 32 := 0#32
  let v3711 : BitVec 1 := Scalar.cmpi .slt v3707 c0_i32_2330
  let v3712 : BitVec 1 := Scalar.xori v3710 v3711
  let c0_i32_2328 : BitVec 32 := 0#32
  let v3709 : BitVec 1 := Scalar.cmpi .ne v3708 c0_i32_2328
  let v3713 : BitVec 1 := Scalar.andi v3712 v3709
  let v3714 : BitVec 32 := Scalar.addi v3708 v3707
  let v3715 : BitVec 32 := Scalar.select v3713 v3714 v3708
  let v3716 : BitVec 32 := Scalar.muli c2_i32_2331 v3715
  let v3717 : BitVec 32 := Scalar.addi v3705 v3716
  let c1_i32_17 : BitVec 32 := 1#32
  let v47 : BitVec 32 := Scalar.addi v12 c1_i32_17
  let c0_i32_19 : BitVec 32 := 0#32
  let v49 : BitVec 1 := Scalar.cmpi .sgt v47 c0_i32_19
  let v50 : BitVec 32 := Scalar.extui v49
  let c0_i32_20 : BitVec 32 := 0#32
  let v51 : BitVec 1 := Scalar.cmpi .slt v47 c0_i32_20
  let v52 : BitVec 32 := Scalar.extui v51
  let v53 : BitVec 32 := Scalar.subi v50 v52
  let c2_i32_18 : BitVec 32 := 2#32
  let c0_i32_21 : BitVec 32 := 0#32
  let v54 : BitVec 1 := Scalar.cmpi .sgt c2_i32_18 c0_i32_21
  let v55 : BitVec 32 := Scalar.extui v54
  let c0_i32_22 : BitVec 32 := 0#32
  let v56 : BitVec 1 := Scalar.cmpi .slt c2_i32_18 c0_i32_22
  let v57 : BitVec 32 := Scalar.extui v56
  let v58 : BitVec 32 := Scalar.subi v55 v57
  let v59 : BitVec 1 := Scalar.cmpi .ne v53 v58
  let v60 : BitVec 32 := Scalar.remsi v47 c2_i32_18
  let c0_i32_23 : BitVec 32 := 0#32
  let v61 : BitVec 1 := Scalar.cmpi .ne v60 c0_i32_23
  let v62 : BitVec 1 := Scalar.andi v59 v61
  let v48 : BitVec 32 := Scalar.divsi v47 c2_i32_18
  let c1_i32_24 : BitVec 32 := 1#32
  let v63 : BitVec 32 := Scalar.subi v48 c1_i32_24
  let v64 : BitVec 32 := Scalar.select v62 v63 v48
  let c2_i32_25 : BitVec 32 := 2#32
  let c0_i32_26 : BitVec 32 := 0#32
  let v65 : BitVec 1 := Scalar.cmpi .eq c2_i32_25 c0_i32_26
  let c1_i32_27 : BitVec 32 := 1#32
  let v66 : BitVec 32 := Scalar.select v65 c1_i32_27 c2_i32_25
  let v67 : BitVec 32 := Scalar.remsi v64 v66
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let c0_i32_28 : BitVec 32 := 0#32
  let v68 : BitVec 1 := Scalar.cmpi .ne v67 c0_i32_28
  let v72 : BitVec 1 := Scalar.andi v71 v68
  let v73 : BitVec 32 := Scalar.addi v67 v66
  let v74 : BitVec 32 := Scalar.select v72 v73 v67
  let c4_i32_2332 : BitVec 32 := 4#32
  let c0_i32_2333 : BitVec 32 := 0#32
  let v3718 : BitVec 1 := Scalar.cmpi .eq c4_i32_2332 c0_i32_2333
  let c1_i32_2334 : BitVec 32 := 1#32
  let v3719 : BitVec 32 := Scalar.select v3718 c1_i32_2334 c4_i32_2332
  let v3720 : BitVec 32 := Scalar.remsi v3687 v3719
  let c0_i32_2336 : BitVec 32 := 0#32
  let v3722 : BitVec 1 := Scalar.cmpi .slt v3720 c0_i32_2336
  let c0_i32_2337 : BitVec 32 := 0#32
  let v3723 : BitVec 1 := Scalar.cmpi .slt v3719 c0_i32_2337
  let v3724 : BitVec 1 := Scalar.xori v3722 v3723
  let c0_i32_2335 : BitVec 32 := 0#32
  let v3721 : BitVec 1 := Scalar.cmpi .ne v3720 c0_i32_2335
  let v3725 : BitVec 1 := Scalar.andi v3724 v3721
  let v3726 : BitVec 32 := Scalar.addi v3720 v3719
  let v3727 : BitVec 32 := Scalar.select v3725 v3726 v3720
  let v3728 : BitVec 32 := Scalar.addi v74 v3727
  let c2_i32_2338 : BitVec 32 := 2#32
  let c0_i32_2339 : BitVec 32 := 0#32
  let v3729 : BitVec 1 := Scalar.cmpi .eq c2_i32_2338 c0_i32_2339
  let c1_i32_2340 : BitVec 32 := 1#32
  let v3730 : BitVec 32 := Scalar.select v3729 c1_i32_2340 c2_i32_2338
  let v3731 : BitVec 32 := Scalar.remsi v3728 v3730
  let c0_i32_2342 : BitVec 32 := 0#32
  let v3733 : BitVec 1 := Scalar.cmpi .slt v3731 c0_i32_2342
  let c0_i32_2343 : BitVec 32 := 0#32
  let v3734 : BitVec 1 := Scalar.cmpi .slt v3730 c0_i32_2343
  let v3735 : BitVec 1 := Scalar.xori v3733 v3734
  let c0_i32_2341 : BitVec 32 := 0#32
  let v3732 : BitVec 1 := Scalar.cmpi .ne v3731 c0_i32_2341
  let v3736 : BitVec 1 := Scalar.andi v3735 v3732
  let v3737 : BitVec 32 := Scalar.addi v3731 v3730
  let v3738 : BitVec 32 := Scalar.select v3736 v3737 v3731
  let v3739 : BitVec 32 := Scalar.addi v3717 v3738
  let c1_i32_2357 : BitVec 32 := 1#32
  let v3753 : BitVec 32 := Scalar.muli v3739 c1_i32_2357
  let v3754 : BitVec 32 := Scalar.addi c0_i32_2358 v3753
  v3754.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2373 : BitVec 32 := 32#32
  let v3769 : BitVec 32 := Scalar.muli v2 c32_i32_2373
  let v3770 : Index := Scalar.indexCast v3769
  let c0_2374 : Index := 0#32
  ![v3770.toNat, 0]
def k0_off6 (d0 : Dev nD) (c8_i32_2383 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let v3780 : BitVec 32 := Scalar.subi v76 c8_i32_2383
  let c16_i32_2384 : BitVec 32 := 16#32
  let c0_i32_2385 : BitVec 32 := 0#32
  let v3781 : BitVec 1 := Scalar.cmpi .eq c16_i32_2384 c0_i32_2385
  let c1_i32_2386 : BitVec 32 := 1#32
  let v3782 : BitVec 32 := Scalar.select v3781 c1_i32_2386 c16_i32_2384
  let v3783 : BitVec 32 := Scalar.remsi v3780 v3782
  let c0_i32_2388 : BitVec 32 := 0#32
  let v3785 : BitVec 1 := Scalar.cmpi .slt v3783 c0_i32_2388
  let c0_i32_2389 : BitVec 32 := 0#32
  let v3786 : BitVec 1 := Scalar.cmpi .slt v3782 c0_i32_2389
  let v3787 : BitVec 1 := Scalar.xori v3785 v3786
  let c0_i32_2387 : BitVec 32 := 0#32
  let v3784 : BitVec 1 := Scalar.cmpi .ne v3783 c0_i32_2387
  let v3788 : BitVec 1 := Scalar.andi v3787 v3784
  let v3789 : BitVec 32 := Scalar.addi v3783 v3782
  let v3790 : BitVec 32 := Scalar.select v3788 v3789 v3783
  ![v3790.toNat]
def k0_off7 (d0 : Dev nD) (c8_i32_2383 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let v3780 : BitVec 32 := Scalar.subi v76 c8_i32_2383
  let c16_i32_2384 : BitVec 32 := 16#32
  let c0_i32_2385 : BitVec 32 := 0#32
  let v3781 : BitVec 1 := Scalar.cmpi .eq c16_i32_2384 c0_i32_2385
  let c1_i32_2386 : BitVec 32 := 1#32
  let v3782 : BitVec 32 := Scalar.select v3781 c1_i32_2386 c16_i32_2384
  let v3783 : BitVec 32 := Scalar.remsi v3780 v3782
  let c0_i32_2388 : BitVec 32 := 0#32
  let v3785 : BitVec 1 := Scalar.cmpi .slt v3783 c0_i32_2388
  let c0_i32_2389 : BitVec 32 := 0#32
  let v3786 : BitVec 1 := Scalar.cmpi .slt v3782 c0_i32_2389
  let v3787 : BitVec 1 := Scalar.xori v3785 v3786
  let c0_i32_2387 : BitVec 32 := 0#32
  let v3784 : BitVec 1 := Scalar.cmpi .ne v3783 c0_i32_2387
  let v3788 : BitVec 1 := Scalar.andi v3787 v3784
  let v3789 : BitVec 32 := Scalar.addi v3783 v3782
  let v3790 : BitVec 32 := Scalar.select v3788 v3789 v3783
  let c0_i32_2392 : BitVec 32 := 0#32
  let c0_i32_2393 : BitVec 32 := 0#32
  ![v3790.toNat, 0, 0]
def k0_off8 (d0 : Dev nD) (c8_i32_2383 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c8_i32_4 : BitVec 32 := 8#32
  let c0_i32_7 : BitVec 32 := 0#32
  let v19 : BitVec 1 := Scalar.cmpi .sgt c8_i32_4 c0_i32_7
  let v20 : BitVec 32 := Scalar.extui v19
  let c0_i32_8 : BitVec 32 := 0#32
  let v21 : BitVec 1 := Scalar.cmpi .slt c8_i32_4 c0_i32_8
  let v22 : BitVec 32 := Scalar.extui v21
  let v23 : BitVec 32 := Scalar.subi v20 v22
  let v24 : BitVec 1 := Scalar.cmpi .ne v18 v23
  let v25 : BitVec 32 := Scalar.remsi v2 c8_i32_4
  let c0_i32_9 : BitVec 32 := 0#32
  let v26 : BitVec 1 := Scalar.cmpi .ne v25 c0_i32_9
  let v27 : BitVec 1 := Scalar.andi v24 v26
  let v13 : BitVec 32 := Scalar.divsi v2 c8_i32_4
  let c1_i32_10 : BitVec 32 := 1#32
  let v28 : BitVec 32 := Scalar.subi v13 c1_i32_10
  let v29 : BitVec 32 := Scalar.select v27 v28 v13
  let c4_i32 : BitVec 32 := 4#32
  let v75 : BitVec 32 := Scalar.muli v29 c4_i32
  let c8_i32 : BitVec 32 := 8#32
  let c0_i32 : BitVec 32 := 0#32
  let v3 : BitVec 1 := Scalar.cmpi .eq c8_i32 c0_i32
  let c1_i32_0 : BitVec 32 := 1#32
  let v4 : BitVec 32 := Scalar.select v3 c1_i32_0 c8_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_11 : BitVec 32 := 0#32
  let v31 : BitVec 1 := Scalar.cmpi .sgt v12 c0_i32_11
  let v32 : BitVec 32 := Scalar.extui v31
  let c0_i32_12 : BitVec 32 := 0#32
  let v33 : BitVec 1 := Scalar.cmpi .slt v12 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v12 c2_i32
  let c0_i32_15 : BitVec 32 := 0#32
  let v43 : BitVec 1 := Scalar.cmpi .ne v42 c0_i32_15
  let v44 : BitVec 1 := Scalar.andi v41 v43
  let v30 : BitVec 32 := Scalar.divsi v12 c2_i32
  let c1_i32_16 : BitVec 32 := 1#32
  let v45 : BitVec 32 := Scalar.subi v30 c1_i32_16
  let v46 : BitVec 32 := Scalar.select v44 v45 v30
  let v76 : BitVec 32 := Scalar.addi v75 v46
  let v3780 : BitVec 32 := Scalar.subi v76 c8_i32_2383
  let c16_i32_2384 : BitVec 32 := 16#32
  let c0_i32_2385 : BitVec 32 := 0#32
  let v3781 : BitVec 1 := Scalar.cmpi .eq c16_i32_2384 c0_i32_2385
  let c1_i32_2386 : BitVec 32 := 1#32
  let v3782 : BitVec 32 := Scalar.select v3781 c1_i32_2386 c16_i32_2384
  let v3783 : BitVec 32 := Scalar.remsi v3780 v3782
  let c0_i32_2388 : BitVec 32 := 0#32
  let v3785 : BitVec 1 := Scalar.cmpi .slt v3783 c0_i32_2388
  let c0_i32_2389 : BitVec 32 := 0#32
  let v3786 : BitVec 1 := Scalar.cmpi .slt v3782 c0_i32_2389
  let v3787 : BitVec 1 := Scalar.xori v3785 v3786
  let c0_i32_2387 : BitVec 32 := 0#32
  let v3784 : BitVec 1 := Scalar.cmpi .ne v3783 c0_i32_2387
  let v3788 : BitVec 1 := Scalar.andi v3787 v3784
  let v3789 : BitVec 32 := Scalar.addi v3783 v3782
  let v3790 : BitVec 32 := Scalar.select v3788 v3789 v3783
  let v3801 : Index := Scalar.indexCast v3790
  let c0_2398 : Index := 0#32
  let c0_2399 : Index := 0#32
  ![v3801.toNat, 0, 0]
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_16 : (16#32 : BitVec 32).msb = false
  h_S32x32 : 0 < S32x32.numel
  shapeCasts_S32x32_S32x32 : S32x32.ShapeCasts S32x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S16x32x1024_S1x32x1024_0_0_0 : ∀ a, (![0, 0, 0] : Fin 3 → Nat) a + S1x32x1024.size a ≤ S16x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  inb_S16_S1_0 : ∀ a, (![0] : Fin 1 → Nat) a + S1.size a ≤ S16.size a
  squeezes_S1_S_ : S1.Squeezes S_
  inb_S16x32x1024_S1x32x1024_1_0_0 : ∀ a, (![1, 0, 0] : Fin 3 → Nat) a + S1x32x1024.size a ≤ S16x32x1024.size a
  inb_S16_S1_1 : ∀ a, (![1] : Fin 1 → Nat) a + S1.size a ≤ S16.size a
  inb_S16x32x1024_S1x32x1024_2_0_0 : ∀ a, (![2, 0, 0] : Fin 3 → Nat) a + S1x32x1024.size a ≤ S16x32x1024.size a
  inb_S16_S1_2 : ∀ a, (![2] : Fin 1 → Nat) a + S1.size a ≤ S16.size a
  inb_S16x32x1024_S1x32x1024_3_0_0 : ∀ a, (![3, 0, 0] : Fin 3 → Nat) a + S1x32x1024.size a ≤ S16x32x1024.size a
  inb_S16_S1_3 : ∀ a, (![3] : Fin 1 → Nat) a + S1.size a ≤ S16.size a
  inb_S16x32x1024_S1x32x1024_4_0_0 : ∀ a, (![4, 0, 0] : Fin 3 → Nat) a + S1x32x1024.size a ≤ S16x32x1024.size a
  inb_S16_S1_4 : ∀ a, (![4] : Fin 1 → Nat) a + S1.size a ≤ S16.size a
  inb_S16x32x1024_S1x32x1024_5_0_0 : ∀ a, (![5, 0, 0] : Fin 3 → Nat) a + S1x32x1024.size a ≤ S16x32x1024.size a
  inb_S16_S1_5 : ∀ a, (![5] : Fin 1 → Nat) a + S1.size a ≤ S16.size a
  inb_S16x32x1024_S1x32x1024_6_0_0 : ∀ a, (![6, 0, 0] : Fin 3 → Nat) a + S1x32x1024.size a ≤ S16x32x1024.size a
  inb_S16_S1_6 : ∀ a, (![6] : Fin 1 → Nat) a + S1.size a ≤ S16.size a
  inb_S16x32x1024_S1x32x1024_7_0_0 : ∀ a, (![7, 0, 0] : Fin 3 → Nat) a + S1x32x1024.size a ≤ S16x32x1024.size a
  inb_S16_S1_7 : ∀ a, (![7] : Fin 1 → Nat) a + S1.size a ≤ S16.size a
  inb_S16x32x1024_S1x32x1024_8_0_0 : ∀ a, (![8, 0, 0] : Fin 3 → Nat) a + S1x32x1024.size a ≤ S16x32x1024.size a
  inb_S16_S1_8 : ∀ a, (![8] : Fin 1 → Nat) a + S1.size a ≤ S16.size a
  inb_S16x32x1024_S1x32x1024_9_0_0 : ∀ a, (![9, 0, 0] : Fin 3 → Nat) a + S1x32x1024.size a ≤ S16x32x1024.size a
  inb_S16_S1_9 : ∀ a, (![9] : Fin 1 → Nat) a + S1.size a ≤ S16.size a
  inb_S16x32x1024_S1x32x1024_10_0_0 : ∀ a, (![10, 0, 0] : Fin 3 → Nat) a + S1x32x1024.size a ≤ S16x32x1024.size a
  inb_S16_S1_10 : ∀ a, (![10] : Fin 1 → Nat) a + S1.size a ≤ S16.size a
  inb_S16x32x1024_S1x32x1024_11_0_0 : ∀ a, (![11, 0, 0] : Fin 3 → Nat) a + S1x32x1024.size a ≤ S16x32x1024.size a
  inb_S16_S1_11 : ∀ a, (![11] : Fin 1 → Nat) a + S1.size a ≤ S16.size a
  inb_S16x32x1024_S1x32x1024_12_0_0 : ∀ a, (![12, 0, 0] : Fin 3 → Nat) a + S1x32x1024.size a ≤ S16x32x1024.size a
  inb_S16_S1_12 : ∀ a, (![12] : Fin 1 → Nat) a + S1.size a ≤ S16.size a
  inb_S16x32x1024_S1x32x1024_13_0_0 : ∀ a, (![13, 0, 0] : Fin 3 → Nat) a + S1x32x1024.size a ≤ S16x32x1024.size a
  inb_S16_S1_13 : ∀ a, (![13] : Fin 1 → Nat) a + S1.size a ≤ S16.size a
  inb_S16x32x1024_S1x32x1024_14_0_0 : ∀ a, (![14, 0, 0] : Fin 3 → Nat) a + S1x32x1024.size a ≤ S16x32x1024.size a
  inb_S16_S1_14 : ∀ a, (![14] : Fin 1 → Nat) a + S1.size a ≤ S16.size a
  inb_S16x32x1024_S1x32x1024_15_0_0 : ∀ a, (![15, 0, 0] : Fin 3 → Nat) a + S1x32x1024.size a ≤ S16x32x1024.size a
  inb_S16_S1_15 : ∀ a, (![15] : Fin 1 → Nat) a + S1.size a ≤ S16.size a
  inb_S15x32x1024_S1x32x1024_0_0_0 : ∀ a, (![0, 0, 0] : Fin 3 → Nat) a + S1x32x1024.size a ≤ S15x32x1024.size a
  inb_S15_S1_0 : ∀ a, (![0] : Fin 1 → Nat) a + S1.size a ≤ S15.size a
  squeezes_S1x32x1024_S32x1024 : S1x32x1024.Squeezes S32x1024
  inb_S15x32x1024_S1x32x1024_1_0_0 : ∀ a, (![1, 0, 0] : Fin 3 → Nat) a + S1x32x1024.size a ≤ S15x32x1024.size a
  inb_S15_S1_1 : ∀ a, (![1] : Fin 1 → Nat) a + S1.size a ≤ S15.size a
  inb_S15x32x1024_S1x32x1024_2_0_0 : ∀ a, (![2, 0, 0] : Fin 3 → Nat) a + S1x32x1024.size a ≤ S15x32x1024.size a
  inb_S15_S1_2 : ∀ a, (![2] : Fin 1 → Nat) a + S1.size a ≤ S15.size a
  inb_S15x32x1024_S1x32x1024_3_0_0 : ∀ a, (![3, 0, 0] : Fin 3 → Nat) a + S1x32x1024.size a ≤ S15x32x1024.size a
  inb_S15_S1_3 : ∀ a, (![3] : Fin 1 → Nat) a + S1.size a ≤ S15.size a
  inb_S15x32x1024_S1x32x1024_4_0_0 : ∀ a, (![4, 0, 0] : Fin 3 → Nat) a + S1x32x1024.size a ≤ S15x32x1024.size a
  inb_S15_S1_4 : ∀ a, (![4] : Fin 1 → Nat) a + S1.size a ≤ S15.size a
  inb_S15x32x1024_S1x32x1024_5_0_0 : ∀ a, (![5, 0, 0] : Fin 3 → Nat) a + S1x32x1024.size a ≤ S15x32x1024.size a
  inb_S15_S1_5 : ∀ a, (![5] : Fin 1 → Nat) a + S1.size a ≤ S15.size a
  inb_S15x32x1024_S1x32x1024_6_0_0 : ∀ a, (![6, 0, 0] : Fin 3 → Nat) a + S1x32x1024.size a ≤ S15x32x1024.size a
  inb_S15_S1_6 : ∀ a, (![6] : Fin 1 → Nat) a + S1.size a ≤ S15.size a
  inb_S15x32x1024_S1x32x1024_7_0_0 : ∀ a, (![7, 0, 0] : Fin 3 → Nat) a + S1x32x1024.size a ≤ S15x32x1024.size a
  inb_S15_S1_7 : ∀ a, (![7] : Fin 1 → Nat) a + S1.size a ≤ S15.size a
  inb_S15x32x1024_S1x32x1024_8_0_0 : ∀ a, (![8, 0, 0] : Fin 3 → Nat) a + S1x32x1024.size a ≤ S15x32x1024.size a
  inb_S15_S1_8 : ∀ a, (![8] : Fin 1 → Nat) a + S1.size a ≤ S15.size a
  inb_S15x32x1024_S1x32x1024_9_0_0 : ∀ a, (![9, 0, 0] : Fin 3 → Nat) a + S1x32x1024.size a ≤ S15x32x1024.size a
  inb_S15_S1_9 : ∀ a, (![9] : Fin 1 → Nat) a + S1.size a ≤ S15.size a
  inb_S15x32x1024_S1x32x1024_10_0_0 : ∀ a, (![10, 0, 0] : Fin 3 → Nat) a + S1x32x1024.size a ≤ S15x32x1024.size a
  inb_S15_S1_10 : ∀ a, (![10] : Fin 1 → Nat) a + S1.size a ≤ S15.size a
  inb_S15x32x1024_S1x32x1024_11_0_0 : ∀ a, (![11, 0, 0] : Fin 3 → Nat) a + S1x32x1024.size a ≤ S15x32x1024.size a
  inb_S15_S1_11 : ∀ a, (![11] : Fin 1 → Nat) a + S1.size a ≤ S15.size a
  inb_S15x32x1024_S1x32x1024_12_0_0 : ∀ a, (![12, 0, 0] : Fin 3 → Nat) a + S1x32x1024.size a ≤ S15x32x1024.size a
  inb_S15_S1_12 : ∀ a, (![12] : Fin 1 → Nat) a + S1.size a ≤ S15.size a
  inb_S15x32x1024_S1x32x1024_13_0_0 : ∀ a, (![13, 0, 0] : Fin 3 → Nat) a + S1x32x1024.size a ≤ S15x32x1024.size a
  inb_S15_S1_13 : ∀ a, (![13] : Fin 1 → Nat) a + S1.size a ≤ S15.size a
  inb_S15x32x1024_S1x32x1024_14_0_0 : ∀ a, (![14, 0, 0] : Fin 3 → Nat) a + S1x32x1024.size a ≤ S15x32x1024.size a
  inb_S15_S1_14 : ∀ a, (![14] : Fin 1 → Nat) a + S1.size a ≤ S15.size a
  dot_S32x32_S32x1024_S32x1024_1_0_0_1_n_n_wf : DotDims.WF S32x32 S32x1024 S32x1024 [1] [0] [0] [1] [] []
  hcc0_scratch4 : 3 + S16.numel ≤ 66
  hcc0_scratch5 : 19 + S16.numel ≤ 66
  hcc0_scratch6 : 35 + S15.numel ≤ 66
  hcc0_scratch7 : 50 + S16.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_off1_inb : ∀ d0 : Dev nD, ∀ (r : Fin 16), ∀ a, (k0_off1 d0 (BitVec.ofNat 32 (1 + r.val))) a + S32x32.size a ≤ S1024x32.size a
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_off2_inb : ∀ d0 : Dev nD, ∀ (r : Fin 15), ∀ a, (k0_off2 d0 (BitVec.ofNat 32 (1 + r.val))) a + S32x32.size a ≤ S1024x32.size a
  k0_off3_inb : ∀ d0 : Dev nD, ∀ a, (k0_off3 d0) a + S1.size a ≤ S16.size a
  k0_off4_inb : ∀ d0 : Dev nD, ∀ a, (k0_off4 d0) a + S1x32x1024.size a ≤ S16x32x1024.size a
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_off5_inb : ∀ d0 : Dev nD, ∀ a, (k0_off5 d0) a + S32x32.size a ≤ S1024x32.size a
  k0_off6_inb : ∀ d0 : Dev nD, ∀ (r : Fin 15), ∀ a, (k0_off6 d0 (BitVec.ofNat 32 (1 + r.val))) a + S1.size a ≤ S16.size a
  k0_off7_inb : ∀ d0 : Dev nD, ∀ (r : Fin 15), ∀ a, (k0_off7 d0 (BitVec.ofNat 32 (1 + r.val))) a + S1x32x1024.size a ≤ S16x32x1024.size a
  k0_off8_inb : ∀ d0 : Dev nD, ∀ (r : Fin 15), ∀ a, (k0_off8 d0 (BitVec.ofNat 32 (1 + r.val))) a + S1x32x1024.size a ≤ S16x32x1024.size a
  hstage0_0 : ∀ j, (stage0_0 j).IsWhole
  hstage0_1 : ∀ j, (stage0_1 j).IsWhole
  hstage0_2 : ∀ j, (stage0_2 j).IsWhole

variable [Facts₀]

abbrev cc0_scratch4 : DmaSems sig S16 := SemArray.consecutive 3 S16 hcc0_scratch4
abbrev cc0_scratch5 : DmaSems sig S16 := SemArray.consecutive 19 S16 hcc0_scratch5
abbrev cc0_scratch6 : DmaSems sig S15 := SemArray.consecutive 35 S15 hcc0_scratch6
abbrev cc0_scratch7 : DmaSems sig S16 := SemArray.consecutive 50 S16 hcc0_scratch7
def dot_S32x32_S32x1024_S32x1024_1_0_0_1_n_n : DotDims S32x32 S32x1024 S32x1024 where
  lhsContracting := [1]
  rhsContracting := [0]
  lhsNonContracting := [0]
  rhsNonContracting := [1]
  lhsBatch := []
  rhsBatch := []
  wf := dot_S32x32_S32x1024_S32x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x1024_S1024x1024_S1024x1024_1_0_0_1_n_n_wf : DotDims.WF S1024x1024 S1024x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

class Facts : Prop extends Facts₀ where

variable [Facts]
-- ==== Proof.Topo.lean ====
/-
  The mesh of this kernel, as arithmetic on the device's number, and the printed device and offset
  chains in closed form.

  The 32 devices are 16 pairs.  Device `c` sits in pair `rr c` (0..15) on side `xx c` (0 or 1);
  `gg r x` is the device of pair `r` on side `x`, so `gg (rr c) (xx c) = c`.  The partner of `c`
  is the other device of its pair.  For an offset `o` the device `o` pairs further on the same
  side is `peerN c o`, the one on the other side `crossN c o`; `srcN c o` is the device `o`
  pairs back on the same side, the one whose `peerN · o` is `c`.
-/
import proofs.«900440_g7700000000000441_dist_gemm_rs_m1024_k1024_n1024_f32_none_v7x_i32_1_alg».proof.Proof.Gen.KernelIdeal

set_option Elab.async false

namespace Cert.Mesh

def rr (c : ℕ) : ℕ := (c / 8) * 4 + (c % 8) / 2
def xx (c : ℕ) : ℕ := ((c % 8 + 1) / 2) % 2
def gg (r x : ℕ) : ℕ := (r / 4) * 8 + 2 * (r % 4) + (x + r % 4) % 2
def nbrN (c : ℕ) : ℕ := gg (rr c) (1 - xx c)
def peerN (c o : ℕ) : ℕ := gg ((rr c + o) % 16) (xx c)
def crossN (c o : ℕ) : ℕ := gg ((rr c + o) % 16) (1 - xx c)
def srcN (c o : ℕ) : ℕ := gg ((rr c + 16 - o) % 16) (xx c)

/-- The fifteen offsets in the order the kernel walks them. -/
def offs : Fin 15 → ℕ := ![8, 7, 9, 6, 10, 5, 11, 4, 12, 3, 13, 2, 14, 1, 15]
/-- The same followed by the full turn 16 (the device's own pair). -/
def offsAll : Fin 16 → ℕ := ![8, 7, 9, 6, 10, 5, 11, 4, 12, 3, 13, 2, 14, 1, 15, 16]

theorem gg_lt : ∀ r : Fin 16, ∀ x : Fin 2, gg r.val x.val < 32 := by decide
theorem rr_lt : ∀ c : Fin 32, rr c.val < 16 := by decide
theorem xx_lt : ∀ c : Fin 32, xx c.val < 2 := by decide
theorem gg_rr_xx : ∀ c : Fin 32, gg (rr c.val) (xx c.val) = c.val := by decide
theorem nbrN_lt : ∀ c : Fin 32, nbrN c.val < 32 := by decide
theorem nbrN_nbrN : ∀ c : Fin 32, nbrN (nbrN c.val) = c.val := by decide
theorem nbrN_ne : ∀ c : Fin 32, nbrN c.val ≠ c.val := by decide
theorem peerN_lt : ∀ c : Fin 32, ∀ o : Fin 17, peerN c.val o.val < 32 := by decide
theorem crossN_lt : ∀ c : Fin 32, ∀ o : Fin 17, crossN c.val o.val < 32 := by decide
theorem srcN_lt : ∀ c : Fin 32, ∀ o : Fin 17, srcN c.val o.val < 32 := by decide
theorem srcN_peerN : ∀ c : Fin 32, ∀ o : Fin 17, srcN (peerN c.val o.val) o.val = c.val := by decide
theorem peerN_srcN : ∀ c : Fin 32, ∀ o : Fin 17, peerN (srcN c.val o.val) o.val = c.val := by decide
theorem rr_peerN : ∀ c : Fin 32, ∀ o : Fin 17, rr (peerN c.val o.val) = (rr c.val + o.val) % 16 := by decide
theorem rr_nbrN : ∀ c : Fin 32, rr (nbrN c.val) = rr c.val := by decide
theorem crossN_eq : ∀ c : Fin 32, ∀ o : Fin 17, crossN c.val o.val = peerN (nbrN c.val) o.val := by decide

end Cert.Mesh

namespace Cert.KernelIdeal.Topo

open Idealize.ShloMosaic Cert.KernelIdeal Cert.KernelIdeal.Gen Cert.Mesh

/-! ## The printed device chains -/

theorem k0_dev1_eq : ∀ c : Dev nD, k0_dev1 c = nbrN c.val := by decide +kernel
theorem k0_dev2_eq : ∀ c : Dev nD, k0_dev2 c = peerN c.val 8 := by decide +kernel
theorem k0_dev3_eq : ∀ c : Dev nD, k0_dev3 c = peerN c.val 7 := by decide +kernel
theorem k0_dev4_eq : ∀ c : Dev nD, k0_dev4 c = peerN c.val 9 := by decide +kernel
theorem k0_dev5_eq : ∀ c : Dev nD, k0_dev5 c = peerN c.val 6 := by decide +kernel
theorem k0_dev6_eq : ∀ c : Dev nD, k0_dev6 c = peerN c.val 10 := by decide +kernel
theorem k0_dev7_eq : ∀ c : Dev nD, k0_dev7 c = peerN c.val 5 := by decide +kernel
theorem k0_dev8_eq : ∀ c : Dev nD, k0_dev8 c = peerN c.val 11 := by decide +kernel
theorem k0_dev9_eq : ∀ c : Dev nD, k0_dev9 c = peerN c.val 4 := by decide +kernel
theorem k0_dev10_eq : ∀ c : Dev nD, k0_dev10 c = peerN c.val 12 := by decide +kernel
theorem k0_dev11_eq : ∀ c : Dev nD, k0_dev11 c = peerN c.val 3 := by decide +kernel
theorem k0_dev12_eq : ∀ c : Dev nD, k0_dev12 c = peerN c.val 13 := by decide +kernel
theorem k0_dev13_eq : ∀ c : Dev nD, k0_dev13 c = peerN c.val 2 := by decide +kernel
theorem k0_dev14_eq : ∀ c : Dev nD, k0_dev14 c = peerN c.val 14 := by decide +kernel
theorem k0_dev15_eq : ∀ c : Dev nD, k0_dev15 c = peerN c.val 1 := by decide +kernel
theorem k0_dev16_eq : ∀ c : Dev nD, k0_dev16 c = peerN c.val 15 := by decide +kernel
theorem k0_dev17_eq : ∀ c : Dev nD, k0_dev17 c = nbrN c.val := by decide +kernel
theorem k0_dev18_eq : ∀ c : Dev nD, k0_dev18 c = nbrN c.val := by decide +kernel
theorem k0_dev19_eq : ∀ c : Dev nD, k0_dev19 c = nbrN c.val := by decide +kernel
theorem k0_dev20_eq : ∀ c : Dev nD, k0_dev20 c = nbrN c.val := by decide +kernel
theorem k0_dev21_eq : ∀ c : Dev nD, k0_dev21 c = nbrN c.val := by decide +kernel
theorem k0_dev22_eq : ∀ c : Dev nD, k0_dev22 c = nbrN c.val := by decide +kernel
theorem k0_dev23_eq : ∀ c : Dev nD, k0_dev23 c = nbrN c.val := by decide +kernel
theorem k0_dev24_eq : ∀ c : Dev nD, k0_dev24 c = nbrN c.val := by decide +kernel
theorem k0_dev25_eq : ∀ c : Dev nD, k0_dev25 c = nbrN c.val := by decide +kernel
theorem k0_dev26_eq : ∀ c : Dev nD, k0_dev26 c = nbrN c.val := by decide +kernel
theorem k0_dev27_eq : ∀ c : Dev nD, k0_dev27 c = nbrN c.val := by decide +kernel
theorem k0_dev28_eq : ∀ c : Dev nD, k0_dev28 c = nbrN c.val := by decide +kernel
theorem k0_dev29_eq : ∀ c : Dev nD, k0_dev29 c = nbrN c.val := by decide +kernel
theorem k0_dev30_eq : ∀ c : Dev nD, k0_dev30 c = nbrN c.val := by decide +kernel
theorem k0_dev31_eq : ∀ c : Dev nD, k0_dev31 c = nbrN c.val := by decide +kernel
theorem k0_dev32_eq : ∀ c : Dev nD, k0_dev32 c = nbrN c.val := by decide +kernel
theorem k0_dev33_eq : ∀ c : Dev nD, k0_dev33 c = peerN c.val 8 := by decide +kernel
theorem k0_dev34_eq : ∀ c : Dev nD, k0_dev34 c = peerN c.val 7 := by decide +kernel
theorem k0_dev35_eq : ∀ c : Dev nD, k0_dev35 c = peerN c.val 9 := by decide +kernel
theorem k0_dev36_eq : ∀ c : Dev nD, k0_dev36 c = peerN c.val 6 := by decide +kernel
theorem k0_dev37_eq : ∀ c : Dev nD, k0_dev37 c = peerN c.val 10 := by decide +kernel
theorem k0_dev38_eq : ∀ c : Dev nD, k0_dev38 c = peerN c.val 5 := by decide +kernel
theorem k0_dev39_eq : ∀ c : Dev nD, k0_dev39 c = peerN c.val 11 := by decide +kernel
theorem k0_dev40_eq : ∀ c : Dev nD, k0_dev40 c = peerN c.val 4 := by decide +kernel
theorem k0_dev41_eq : ∀ c : Dev nD, k0_dev41 c = peerN c.val 12 := by decide +kernel
theorem k0_dev42_eq : ∀ c : Dev nD, k0_dev42 c = peerN c.val 3 := by decide +kernel
theorem k0_dev43_eq : ∀ c : Dev nD, k0_dev43 c = peerN c.val 13 := by decide +kernel
theorem k0_dev44_eq : ∀ c : Dev nD, k0_dev44 c = peerN c.val 2 := by decide +kernel
theorem k0_dev45_eq : ∀ c : Dev nD, k0_dev45 c = peerN c.val 14 := by decide +kernel
theorem k0_dev46_eq : ∀ c : Dev nD, k0_dev46 c = peerN c.val 1 := by decide +kernel
theorem k0_dev47_eq : ∀ c : Dev nD, k0_dev47 c = peerN c.val 15 := by decide +kernel

/-! ## The printed offsets -/

theorem k0_off1_eq : ∀ c : Dev nD, ∀ r : Fin 16, k0_off1 c (BitVec.ofNat 32 (1 + r.val)) = ![32 * crossN c.val (1 + r.val), 0] := by decide +kernel
theorem k0_off2_eq : ∀ c : Dev nD, ∀ r : Fin 15, k0_off2 c (BitVec.ofNat 32 (1 + r.val)) = ![32 * peerN c.val (1 + r.val), 0] := by decide +kernel
theorem k0_off3_eq : ∀ c : Dev nD, k0_off3 c = ![rr c.val] := by decide +kernel
theorem k0_off4_eq : ∀ c : Dev nD, k0_off4 c = ![rr c.val, 0, 0] := by decide +kernel
theorem k0_off6_eq : ∀ c : Dev nD, ∀ r : Fin 15, k0_off6 c (BitVec.ofNat 32 (1 + r.val)) = ![(rr c.val + 16 - (1 + r.val)) % 16] := by decide +kernel
theorem k0_off7_eq : ∀ c : Dev nD, ∀ r : Fin 15, k0_off7 c (BitVec.ofNat 32 (1 + r.val)) = ![(rr c.val + 16 - (1 + r.val)) % 16, 0, 0] := by decide +kernel
theorem k0_off8_eq : ∀ c : Dev nD, ∀ r : Fin 15, k0_off8 c (BitVec.ofNat 32 (1 + r.val)) = ![(rr c.val + 16 - (1 + r.val)) % 16, 0, 0] := by decide +kernel

end Cert.KernelIdeal.Topo
-- ==== Proof.Sched.lean ====
/-
  The protocol of the kernel under the rounds discipline.

  Every device owns one cell on the runtime's barrier semaphore and 63 cells on its own DMA
  semaphores: sixteen for the sends of the first phase, sixteen for its receives, fifteen for
  the sends of the second phase and sixteen for its receives (the one of the device's own pair
  is never used).  Everything happens in round 0.

  * The barrier cell of `c` has sixteen duties of one unit: duty 0 is paid by the partner of `c`
    and hands `c` the partner's sixteen first-phase receive slots to write into; duty `i+1` is
    paid by the device `offs i` pairs back on the side of `c` and hands `c` the one second-phase
    receive slot of that device that belongs to the pair of `c`.
  * A send cell has one duty, paid by the device's own copy when the source slot has been read:
    the slot comes back with what was staged in it.
  * A receive cell has one duty, paid by the sender's copy when the slot has been written: the
    slot comes with the sender's staged contents.
-/
import proofs.«900440_g7700000000000441_dist_gemm_rs_m1024_k1024_n1024_f32_none_v7x_i32_1_alg».proof.Proof.Topo
import proofs.«900440_g7700000000000441_dist_gemm_rs_m1024_k1024_n1024_f32_none_v7x_i32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.Pipeline.Value

noncomputable section

namespace Cert.KernelIdeal.Proto

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duty names `Fin 16`) -/

abbrev DN : Type := Fin 16
abbrev UB : Type := URounds (GSem nD τ sig) DN
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh on devices -/

def nbr (c : Dev nD) : Dev nD := ⟨nbrN c.val, nbrN_lt c⟩
def peer (c : Dev nD) (o : Fin 17) : Dev nD := ⟨peerN c.val o.val, peerN_lt c o⟩
def cross (c : Dev nD) (o : Fin 17) : Dev nD := ⟨crossN c.val o.val, crossN_lt c o⟩
def src (c : Dev nD) (o : Fin 17) : Dev nD := ⟨srcN c.val o.val, srcN_lt c o⟩
/-- The pair of a device. -/
def pairOf (c : Dev nD) : Fin 16 := ⟨rr c.val, rr_lt c⟩
/-- The device of pair `ρ` on the side of `c`. -/
def onSide (c : Dev nD) (ρ : Fin 16) : Dev nD := ⟨gg ρ.val (xx c.val), gg_lt ρ ⟨xx c.val, xx_lt c⟩⟩
/-- The fifteen offsets, and the sixteen with the full turn, as elements of `Fin 17`. -/
def off (i : Fin 15) : Fin 17 := ⟨offs i, by revert i; decide⟩
def offA (k : Fin 16) : Fin 17 := ⟨offsAll k, by revert k; decide⟩

theorem nbr_nbr (c : Dev nD) : nbr (nbr c) = c := by revert c; decide
theorem nbr_ne (c : Dev nD) : nbr c ≠ c := by revert c; decide
theorem src_peer (c : Dev nD) (o : Fin 17) : src (peer c o) o = c := by revert c o; decide
theorem peer_src (c : Dev nD) (o : Fin 17) : peer (src c o) o = c := by revert c o; decide

/-! ## Semaphores and cells -/

abbrev barS : Sem sig := (SemArray.scalar (sig.barrier 0 rfl) : Sems sig S_).sem
def p1sS (k : Fin 16) : DmaSem sig := ⟨3 + k.val, by have := k.isLt; show 3 + k.val < 66; omega⟩
def p1rS (k : Fin 16) : DmaSem sig := ⟨19 + k.val, by have := k.isLt; show 19 + k.val < 66; omega⟩
def p2sS (k : Fin 15) : DmaSem sig := ⟨35 + k.val, by have := k.isLt; show 35 + k.val < 66; omega⟩
def p2rS (k : Fin 16) : DmaSem sig := ⟨50 + k.val, by have := k.isLt; show 50 + k.val < 66; omega⟩

abbrev barCell (c : Dev nD) : GSem nD τ sig := ((c : Thread nD τ), .reg barS)
abbrev dcell (c : Dev nD) (q : DmaSem sig) : GSem nD τ sig := ((c : Thread nD τ), .dma q)

/-! ## The four scratch buffers and their slots -/

theorem slot_inb16 : ∀ k : Fin 16, ∀ a, (![k.val, 0, 0] : Fin 3 → ℕ) a + S1x32x1024.size a ≤ S16x32x1024.size a := by decide
theorem slot_inb15 : ∀ k : Fin 15, ∀ a, (![k.val, 0, 0] : Fin 3 → ℕ) a + S1x32x1024.size a ≤ S15x32x1024.size a := by decide

/-- Slot `k` of a sixteen-slot scratch buffer. -/
abbrev slot16 (b : Memref sig .tc .vmem S16x32x1024 .f32) (k : ℕ) (hk : k < 16) : Memref sig .tc .vmem S1x32x1024 .f32 :=
  b.slice (Rect.unit (s := S16x32x1024) ![k, 0, 0] S1x32x1024.size (slot_inb16 ⟨k, hk⟩)) (fun _ => rfl)
abbrev slot15 (b : Memref sig .tc .vmem S15x32x1024 .f32) (k : ℕ) (hk : k < 15) : Memref sig .tc .vmem S1x32x1024 .f32 :=
  b.slice (Rect.unit (s := S15x32x1024) ![k, 0, 0] S1x32x1024.size (slot_inb15 ⟨k, hk⟩)) (fun _ => rfl)

abbrev stageM : Memref sig .tc .vmem S16x32x1024 .f32 := Memref.whole cc0_scratch0
abbrev inboxM : Memref sig .tc .vmem S16x32x1024 .f32 := Memref.whole cc0_scratch1
abbrev outboxM : Memref sig .tc .vmem S15x32x1024 .f32 := Memref.whole cc0_scratch2
abbrev gatherM : Memref sig .tc .vmem S16x32x1024 .f32 := Memref.whole cc0_scratch3

/-- Contents of a buffer whose part under the slot `sl` is `V` (elsewhere arbitrary: a points-to on
    the slot's elements does not see them). -/
def put (c : Dev nD) (sl : Memref sig .tc .vmem S1x32x1024 .f32) (V : Vec F S1x32x1024 .f32) : Buf (Elt F) (sl.view.loc (c : Thread nD τ)) :=
  sl.view.write (Elt F) (fun _ => Classical.arbitrary _) V Finset.univ

theorem read_put (c : Dev nD) (sl : Memref sig .tc .vmem S1x32x1024 .f32) (V : Vec F S1x32x1024 .f32) :
    sl.view.read (Elt F) (put c sl V) = V := View.read_write_univ _ _

/-- A slot held on device `c` with the value `V` in it; and held at whatever it holds. -/
abbrev holds (c : Dev nD) (sl : Memref sig .tc .vmem S1x32x1024 .f32) (V : Vec F S1x32x1024 .f32) : sProp 𝕄 :=
  (sl.view.loc (c : Thread nD τ) ↦[sl.view.set]{fullShare} put c sl V)

abbrev free (c : Dev nD) (sl : Memref sig .tc .vmem S1x32x1024 .f32) : sProp 𝕄 :=
  iprop(∃ f : Buf (Elt F) (sl.view.loc (c : Thread nD τ)), (sl.view.loc (c : Thread nD τ) ↦[sl.view.set]{fullShare} f))

/-- A points-to on a slot's elements sees only what the slot reads. -/
theorem pts_congr_read (c : Dev nD) (sl : Memref sig .tc .vmem S1x32x1024 .f32) (f g : Buf (Elt F) (sl.view.loc (c : Thread nD τ)))
    (h : sl.view.read (Elt F) f = sl.view.read (Elt F) g) :
    (sl.view.loc (c : Thread nD τ) ↦[sl.view.set]{fullShare} f : sProp 𝕄) = (sl.view.loc (c : Thread nD τ) ↦[sl.view.set]{fullShare} g) :=
  pointsTo_congr (fun i hi => by
    obtain ⟨y, rfl⟩ := View.exists_emb_of_mem_set sl.view hi
    have := congrFun h y
    rw [View.read_apply, View.read_apply] at this
    exact (cast_inj _).mp this)

theorem holds_of_read (c : Dev nD) (sl : Memref sig .tc .vmem S1x32x1024 .f32) (f : Buf (Elt F) (sl.view.loc (c : Thread nD τ))) (V : Vec F S1x32x1024 .f32)
    (h : sl.view.read (Elt F) f = V) :
    (sl.view.loc (c : Thread nD τ) ↦[sl.view.set]{fullShare} f : sProp 𝕄) = holds c sl V :=
  pts_congr_read c sl f _ (h.trans (read_put c sl V).symm)

/-! ## The schedule -/

section Sched

/- `W1 s t`: what device `s` stages in the first phase for the row block of device `t`;
    `W2 s t`: what device `s` sends device `t` in the second phase. -/
variable (W1 W2 : Dev nD → Dev nD → Vec F S1x32x1024 .f32)

/-- The credit of one slot's copy. -/
abbrev N : ℕ := (slot16 stageM 0 (by decide)).view.dmaCredit
theorem N_pos : 0 < N := View.dmaCredit_pos _ (by decide)

/-- What the single duty of a DMA cell hands its owner. -/
def dmaPay (c : Dev nD) (q : DmaSem sig) : sProp 𝕄 :=
  if h1 : 3 ≤ q.val ∧ q.val < 19 then holds c (slot16 stageM (q.val - 3) (by omega)) (W1 c (cross c (offA ⟨q.val - 3, by omega⟩)))
  else if h2 : 19 ≤ q.val ∧ q.val < 35 then holds c (slot16 inboxM (q.val - 19) (by omega)) (W1 (nbr c) (peer c (offA ⟨q.val - 19, by omega⟩)))
  else if h3 : 35 ≤ q.val ∧ q.val < 50 then holds c (slot15 outboxM (q.val - 35) (by omega)) (W2 c (peer c (off ⟨q.val - 35, by omega⟩)))
  else if h4 : 50 ≤ q.val ∧ q.val < 66 then holds c (slot16 gatherM (q.val - 50) (by omega)) (W2 (onSide c ⟨q.val - 50, by omega⟩) c)
  else iprop(emp)

/-- The sixteen first-phase receive slots of device `n`, free to be written, each with the fact
    that its receive cell is at round 0. -/
def barPay0 (n : Dev nD) : sProp 𝕄 :=
  iprop(free (F := F) n (slot16 inboxM 0 (by decide)) ∗ reached ER (dcell n (p1rS 0)) 0
    ∗ free (F := F) n (slot16 inboxM 1 (by decide)) ∗ reached ER (dcell n (p1rS 1)) 0
    ∗ free (F := F) n (slot16 inboxM 2 (by decide)) ∗ reached ER (dcell n (p1rS 2)) 0
    ∗ free (F := F) n (slot16 inboxM 3 (by decide)) ∗ reached ER (dcell n (p1rS 3)) 0
    ∗ free (F := F) n (slot16 inboxM 4 (by decide)) ∗ reached ER (dcell n (p1rS 4)) 0
    ∗ free (F := F) n (slot16 inboxM 5 (by decide)) ∗ reached ER (dcell n (p1rS 5)) 0
    ∗ free (F := F) n (slot16 inboxM 6 (by decide)) ∗ reached ER (dcell n (p1rS 6)) 0
    ∗ free (F := F) n (slot16 inboxM 7 (by decide)) ∗ reached ER (dcell n (p1rS 7)) 0
    ∗ free (F := F) n (slot16 inboxM 8 (by decide)) ∗ reached ER (dcell n (p1rS 8)) 0
    ∗ free (F := F) n (slot16 inboxM 9 (by decide)) ∗ reached ER (dcell n (p1rS 9)) 0
    ∗ free (F := F) n (slot16 inboxM 10 (by decide)) ∗ reached ER (dcell n (p1rS 10)) 0
    ∗ free (F := F) n (slot16 inboxM 11 (by decide)) ∗ reached ER (dcell n (p1rS 11)) 0
    ∗ free (F := F) n (slot16 inboxM 12 (by decide)) ∗ reached ER (dcell n (p1rS 12)) 0
    ∗ free (F := F) n (slot16 inboxM 13 (by decide)) ∗ reached ER (dcell n (p1rS 13)) 0
    ∗ free (F := F) n (slot16 inboxM 14 (by decide)) ∗ reached ER (dcell n (p1rS 14)) 0
    ∗ free (F := F) n (slot16 inboxM 15 (by decide)) ∗ reached ER (dcell n (p1rS 15)) 0)

set_option synthInstance.maxHeartbeats 2000000 in
set_option synthInstance.maxSize 4096 in
set_option maxHeartbeats 2000000 in
instance barPay0_storable (n : Dev nD) : BI.Storable (upEmb : UEmb _ 𝕄) (barPay0 (F := F) n) := by unfold barPay0; infer_instance

/-- What duty `j` of the barrier cell of `c` hands `c`. -/
def barPay (c : Dev nD) (j : DN) : sProp 𝕄 :=
  if h : j.val = 0 then barPay0 (F := F) (nbr c)
  else iprop(free (F := F) (src c (off ⟨j.val - 1, by have := j.isLt; omega⟩)) (slot16 gatherM (rr c.val) (rr_lt c))
        ∗ reached ER (dcell (src c (off ⟨j.val - 1, by have := j.isLt; omega⟩)) (p2rS (pairOf c))) 0)

/-- A DMA semaphore of the protocol that device `c` uses: every scratch semaphore but the
    second-phase receive semaphore of its own pair. -/
def used (c : Dev nD) (q : DmaSem sig) : Prop := 3 ≤ q.val ∧ q ≠ p2rS (pairOf c)
instance (c : Dev nD) (q : DmaSem sig) : Decidable (used c q) := by unfold used; infer_instance

def rd : Rounds.Schedule (GSem nD τ sig) DN 𝕄 where
  duties g r :=
    if r = 0 ∧ g.1.2 = .tc then
      (match g.2 with
        | .reg s => if s = barS then Finset.univ else ∅
        | .dma q => if used g.1.1 q then {0} else ∅)
    else ∅
  amount g _ _ := if g.2 = .reg barS then 1 else N
  payload g _ d := match g.2 with
    | .reg _ => barPay g.1.1 d
    | .dma q => dmaPay W1 W2 g.1.1 q
  amount_pos g _ _ _ := by
    by_cases h : g.2 = .reg barS
    · rw [if_pos h]; exact Nat.one_pos
    · rw [if_neg h]; exact N_pos

instance rd_payload_storable (g : GSem nD τ sig) (r : ℕ) (d : DN) :
    BI.Storable (upEmb : UEmb _ 𝕄) ((rd (F := F) W1 W2).payload g r d) := by
  show BI.Storable upEmb (match g.2 with | .reg _ => barPay g.1.1 d | .dma q => dmaPay W1 W2 g.1.1 q)
  unfold barPay dmaPay
  (repeat' split) <;> infer_instance

end Sched

/-! ## The schedule's tables -/

section Tables

variable (W1 W2 : Dev nD → Dev nD → Vec F S1x32x1024 .f32) (c : Dev nD)

theorem duties_bar : (rd (F := F) W1 W2).duties (barCell c) 0 = Finset.univ := by
  dsimp only [rd]; rw [if_pos ⟨rfl, rfl⟩, if_pos rfl]
theorem duties_dma (q : DmaSem sig) (hq : used c q) : (rd (F := F) W1 W2).duties (dcell c q) 0 = {0} := by
  dsimp only [rd]; rw [if_pos ⟨rfl, rfl⟩, if_pos hq]
theorem duties_dma_unused (q : DmaSem sig) (hq : ¬ used c q) (r : ℕ) : (rd (F := F) W1 W2).duties (dcell c q) r = ∅ := by
  dsimp only [rd]; split
  · first | rfl | (rw [if_neg hq])
  · rfl
theorem duties_later (g : GSem nD τ sig) : ∀ r, 1 ≤ r → (rd (F := F) W1 W2).duties g r = ∅ :=
  fun r hr => by dsimp only [rd]; rw [if_neg fun h => by omega]

theorem amount_bar (d : DN) : (rd (F := F) W1 W2).amount (barCell c) 0 d = 1 := by dsimp only [rd]; exact if_pos rfl
theorem amount_dma (q : DmaSem sig) (d : DN) : (rd (F := F) W1 W2).amount (dcell c q) 0 d = N := by
  dsimp only [rd]; exact if_neg (fun h => by cases h)

theorem expect_bar : (rd (F := F) W1 W2).expect (barCell c) 0 = 16 := by
  unfold Schedule.expect Schedule.amountOf
  rw [duties_bar, Finset.sum_congr rfl fun d _ => amount_bar W1 W2 c d, Finset.sum_const, Finset.card_univ, Fintype.card_fin, smul_eq_mul]
theorem expect_dma (q : DmaSem sig) (hq : used c q) : (rd (F := F) W1 W2).expect (dcell c q) 0 = N := by
  unfold Schedule.expect Schedule.amountOf; rw [duties_dma W1 W2 c q hq, Finset.sum_singleton, amount_dma]

theorem payload_bar (j : DN) : (rd (F := F) W1 W2).payload (barCell c) 0 j = barPay c j := rfl
theorem payload_dma (q : DmaSem sig) (d : DN) : (rd (F := F) W1 W2).payload (dcell c q) 0 d = dmaPay W1 W2 c q := rfl

theorem barPay_zero : barPay (F := F) c 0 = barPay0 (F := F) (nbr c) := by
  unfold barPay; exact dif_pos rfl
theorem barPay_succ (i : Fin 15) : barPay (F := F) c ⟨i.val + 1, by have := i.isLt; omega⟩
    = iprop(free (F := F) (src c (off i)) (slot16 gatherM (rr c.val) (rr_lt c)) ∗ reached ER (dcell (src c (off i)) (p2rS (pairOf c))) 0) := by
  unfold barPay; rw [dif_neg (Nat.succ_ne_zero _)]; rfl

theorem dmaPay_p1s (k : Fin 16) : dmaPay W1 W2 c (p1sS k) = holds c (slot16 stageM k.val k.isLt) (W1 c (cross c (offA k))) := by
  unfold dmaPay p1sS; rw [dif_pos ⟨by show 3 ≤ 3 + k.val; omega, by show 3 + k.val < 19; have := k.isLt; omega⟩]
  simp only [Nat.add_sub_cancel_left, Fin.eta]
theorem dmaPay_p1r (k : Fin 16) : dmaPay W1 W2 c (p1rS k) = holds c (slot16 inboxM k.val k.isLt) (W1 (nbr c) (peer c (offA k))) := by
  unfold dmaPay p1rS
  rw [dif_neg (fun h => by have : 19 + k.val < 19 := h.2; omega), dif_pos ⟨by show 19 ≤ 19 + k.val; omega, by show 19 + k.val < 35; have := k.isLt; omega⟩]
  simp only [Nat.add_sub_cancel_left, Fin.eta]
theorem dmaPay_p2s (k : Fin 15) : dmaPay W1 W2 c (p2sS k) = holds c (slot15 outboxM k.val k.isLt) (W2 c (peer c (off k))) := by
  unfold dmaPay p2sS
  rw [dif_neg (fun h => by have : 35 + k.val < 19 := h.2; omega), dif_neg (fun h => by have : 35 + k.val < 35 := h.2; omega),
    dif_pos ⟨by show 35 ≤ 35 + k.val; omega, by show 35 + k.val < 50; have := k.isLt; omega⟩]
  simp only [Nat.add_sub_cancel_left, Fin.eta]
theorem dmaPay_p2r (k : Fin 16) : dmaPay W1 W2 c (p2rS k) = holds c (slot16 gatherM k.val k.isLt) (W2 (onSide c k) c) := by
  unfold dmaPay p2rS
  rw [dif_neg (fun h => by have : 50 + k.val < 19 := h.2; omega), dif_neg (fun h => by have : 50 + k.val < 35 := h.2; omega),
    dif_neg (fun h => by have : 50 + k.val < 50 := h.2; omega),
    dif_pos ⟨by show 50 ≤ 50 + k.val; omega, by show 50 + k.val < 66; have := k.isLt; omega⟩]
  simp only [Nat.add_sub_cancel_left, Fin.eta]

end Tables

end Cert.KernelIdeal.Proto

end
-- ==== Proof.Tables.lean ====
/-
  The schedule's tables in the form the body's run reads them: the printed device chains as the
  mesh's functions, the printed offsets in closed form, and each cell's duties, amounts and
  payloads with the entry on the left.
-/
import proofs.«900440_g7700000000000441_dist_gemm_rs_m1024_k1024_n1024_f32_none_v7x_i32_1_alg».proof.Proof.Sched
import Idealize.ShloMosaic.Lib.Tactic

set_option Elab.async false

noncomputable section

namespace Cert.KernelIdeal.Proto

open Cert.KernelIdeal Cert.KernelIdeal.Gen Cert.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The printed device chains -/

@[sl_canon] theorem dev1_eq (c : Dev nD) : (⟨k0_dev1 c, k0_dev1_lt c⟩ : Dev nD) = nbr c := Fin.ext (Topo.k0_dev1_eq c)
@[sl_canon] theorem dev2_eq (c : Dev nD) : (⟨k0_dev2 c, k0_dev2_lt c⟩ : Dev nD) = peer c (off 0) := Fin.ext (Topo.k0_dev2_eq c)
@[sl_canon] theorem dev3_eq (c : Dev nD) : (⟨k0_dev3 c, k0_dev3_lt c⟩ : Dev nD) = peer c (off 1) := Fin.ext (Topo.k0_dev3_eq c)
@[sl_canon] theorem dev4_eq (c : Dev nD) : (⟨k0_dev4 c, k0_dev4_lt c⟩ : Dev nD) = peer c (off 2) := Fin.ext (Topo.k0_dev4_eq c)
@[sl_canon] theorem dev5_eq (c : Dev nD) : (⟨k0_dev5 c, k0_dev5_lt c⟩ : Dev nD) = peer c (off 3) := Fin.ext (Topo.k0_dev5_eq c)
@[sl_canon] theorem dev6_eq (c : Dev nD) : (⟨k0_dev6 c, k0_dev6_lt c⟩ : Dev nD) = peer c (off 4) := Fin.ext (Topo.k0_dev6_eq c)
@[sl_canon] theorem dev7_eq (c : Dev nD) : (⟨k0_dev7 c, k0_dev7_lt c⟩ : Dev nD) = peer c (off 5) := Fin.ext (Topo.k0_dev7_eq c)
@[sl_canon] theorem dev8_eq (c : Dev nD) : (⟨k0_dev8 c, k0_dev8_lt c⟩ : Dev nD) = peer c (off 6) := Fin.ext (Topo.k0_dev8_eq c)
@[sl_canon] theorem dev9_eq (c : Dev nD) : (⟨k0_dev9 c, k0_dev9_lt c⟩ : Dev nD) = peer c (off 7) := Fin.ext (Topo.k0_dev9_eq c)
@[sl_canon] theorem dev10_eq (c : Dev nD) : (⟨k0_dev10 c, k0_dev10_lt c⟩ : Dev nD) = peer c (off 8) := Fin.ext (Topo.k0_dev10_eq c)
@[sl_canon] theorem dev11_eq (c : Dev nD) : (⟨k0_dev11 c, k0_dev11_lt c⟩ : Dev nD) = peer c (off 9) := Fin.ext (Topo.k0_dev11_eq c)
@[sl_canon] theorem dev12_eq (c : Dev nD) : (⟨k0_dev12 c, k0_dev12_lt c⟩ : Dev nD) = peer c (off 10) := Fin.ext (Topo.k0_dev12_eq c)
@[sl_canon] theorem dev13_eq (c : Dev nD) : (⟨k0_dev13 c, k0_dev13_lt c⟩ : Dev nD) = peer c (off 11) := Fin.ext (Topo.k0_dev13_eq c)
@[sl_canon] theorem dev14_eq (c : Dev nD) : (⟨k0_dev14 c, k0_dev14_lt c⟩ : Dev nD) = peer c (off 12) := Fin.ext (Topo.k0_dev14_eq c)
@[sl_canon] theorem dev15_eq (c : Dev nD) : (⟨k0_dev15 c, k0_dev15_lt c⟩ : Dev nD) = peer c (off 13) := Fin.ext (Topo.k0_dev15_eq c)
@[sl_canon] theorem dev16_eq (c : Dev nD) : (⟨k0_dev16 c, k0_dev16_lt c⟩ : Dev nD) = peer c (off 14) := Fin.ext (Topo.k0_dev16_eq c)
@[sl_canon] theorem dev17_eq (c : Dev nD) : (⟨k0_dev17 c, k0_dev17_lt c⟩ : Dev nD) = nbr c := Fin.ext (Topo.k0_dev17_eq c)
@[sl_canon] theorem dev18_eq (c : Dev nD) : (⟨k0_dev18 c, k0_dev18_lt c⟩ : Dev nD) = nbr c := Fin.ext (Topo.k0_dev18_eq c)
@[sl_canon] theorem dev19_eq (c : Dev nD) : (⟨k0_dev19 c, k0_dev19_lt c⟩ : Dev nD) = nbr c := Fin.ext (Topo.k0_dev19_eq c)
@[sl_canon] theorem dev20_eq (c : Dev nD) : (⟨k0_dev20 c, k0_dev20_lt c⟩ : Dev nD) = nbr c := Fin.ext (Topo.k0_dev20_eq c)
@[sl_canon] theorem dev21_eq (c : Dev nD) : (⟨k0_dev21 c, k0_dev21_lt c⟩ : Dev nD) = nbr c := Fin.ext (Topo.k0_dev21_eq c)
@[sl_canon] theorem dev22_eq (c : Dev nD) : (⟨k0_dev22 c, k0_dev22_lt c⟩ : Dev nD) = nbr c := Fin.ext (Topo.k0_dev22_eq c)
@[sl_canon] theorem dev23_eq (c : Dev nD) : (⟨k0_dev23 c, k0_dev23_lt c⟩ : Dev nD) = nbr c := Fin.ext (Topo.k0_dev23_eq c)
@[sl_canon] theorem dev24_eq (c : Dev nD) : (⟨k0_dev24 c, k0_dev24_lt c⟩ : Dev nD) = nbr c := Fin.ext (Topo.k0_dev24_eq c)
@[sl_canon] theorem dev25_eq (c : Dev nD) : (⟨k0_dev25 c, k0_dev25_lt c⟩ : Dev nD) = nbr c := Fin.ext (Topo.k0_dev25_eq c)
@[sl_canon] theorem dev26_eq (c : Dev nD) : (⟨k0_dev26 c, k0_dev26_lt c⟩ : Dev nD) = nbr c := Fin.ext (Topo.k0_dev26_eq c)
@[sl_canon] theorem dev27_eq (c : Dev nD) : (⟨k0_dev27 c, k0_dev27_lt c⟩ : Dev nD) = nbr c := Fin.ext (Topo.k0_dev27_eq c)
@[sl_canon] theorem dev28_eq (c : Dev nD) : (⟨k0_dev28 c, k0_dev28_lt c⟩ : Dev nD) = nbr c := Fin.ext (Topo.k0_dev28_eq c)
@[sl_canon] theorem dev29_eq (c : Dev nD) : (⟨k0_dev29 c, k0_dev29_lt c⟩ : Dev nD) = nbr c := Fin.ext (Topo.k0_dev29_eq c)
@[sl_canon] theorem dev30_eq (c : Dev nD) : (⟨k0_dev30 c, k0_dev30_lt c⟩ : Dev nD) = nbr c := Fin.ext (Topo.k0_dev30_eq c)
@[sl_canon] theorem dev31_eq (c : Dev nD) : (⟨k0_dev31 c, k0_dev31_lt c⟩ : Dev nD) = nbr c := Fin.ext (Topo.k0_dev31_eq c)
@[sl_canon] theorem dev32_eq (c : Dev nD) : (⟨k0_dev32 c, k0_dev32_lt c⟩ : Dev nD) = nbr c := Fin.ext (Topo.k0_dev32_eq c)
@[sl_canon] theorem dev33_eq (c : Dev nD) : (⟨k0_dev33 c, k0_dev33_lt c⟩ : Dev nD) = peer c (off 0) := Fin.ext (Topo.k0_dev33_eq c)
@[sl_canon] theorem dev34_eq (c : Dev nD) : (⟨k0_dev34 c, k0_dev34_lt c⟩ : Dev nD) = peer c (off 1) := Fin.ext (Topo.k0_dev34_eq c)
@[sl_canon] theorem dev35_eq (c : Dev nD) : (⟨k0_dev35 c, k0_dev35_lt c⟩ : Dev nD) = peer c (off 2) := Fin.ext (Topo.k0_dev35_eq c)
@[sl_canon] theorem dev36_eq (c : Dev nD) : (⟨k0_dev36 c, k0_dev36_lt c⟩ : Dev nD) = peer c (off 3) := Fin.ext (Topo.k0_dev36_eq c)
@[sl_canon] theorem dev37_eq (c : Dev nD) : (⟨k0_dev37 c, k0_dev37_lt c⟩ : Dev nD) = peer c (off 4) := Fin.ext (Topo.k0_dev37_eq c)
@[sl_canon] theorem dev38_eq (c : Dev nD) : (⟨k0_dev38 c, k0_dev38_lt c⟩ : Dev nD) = peer c (off 5) := Fin.ext (Topo.k0_dev38_eq c)
@[sl_canon] theorem dev39_eq (c : Dev nD) : (⟨k0_dev39 c, k0_dev39_lt c⟩ : Dev nD) = peer c (off 6) := Fin.ext (Topo.k0_dev39_eq c)
@[sl_canon] theorem dev40_eq (c : Dev nD) : (⟨k0_dev40 c, k0_dev40_lt c⟩ : Dev nD) = peer c (off 7) := Fin.ext (Topo.k0_dev40_eq c)
@[sl_canon] theorem dev41_eq (c : Dev nD) : (⟨k0_dev41 c, k0_dev41_lt c⟩ : Dev nD) = peer c (off 8) := Fin.ext (Topo.k0_dev41_eq c)
@[sl_canon] theorem dev42_eq (c : Dev nD) : (⟨k0_dev42 c, k0_dev42_lt c⟩ : Dev nD) = peer c (off 9) := Fin.ext (Topo.k0_dev42_eq c)
@[sl_canon] theorem dev43_eq (c : Dev nD) : (⟨k0_dev43 c, k0_dev43_lt c⟩ : Dev nD) = peer c (off 10) := Fin.ext (Topo.k0_dev43_eq c)
@[sl_canon] theorem dev44_eq (c : Dev nD) : (⟨k0_dev44 c, k0_dev44_lt c⟩ : Dev nD) = peer c (off 11) := Fin.ext (Topo.k0_dev44_eq c)
@[sl_canon] theorem dev45_eq (c : Dev nD) : (⟨k0_dev45 c, k0_dev45_lt c⟩ : Dev nD) = peer c (off 12) := Fin.ext (Topo.k0_dev45_eq c)
@[sl_canon] theorem dev46_eq (c : Dev nD) : (⟨k0_dev46 c, k0_dev46_lt c⟩ : Dev nD) = peer c (off 13) := Fin.ext (Topo.k0_dev46_eq c)
@[sl_canon] theorem dev47_eq (c : Dev nD) : (⟨k0_dev47 c, k0_dev47_lt c⟩ : Dev nD) = peer c (off 14) := Fin.ext (Topo.k0_dev47_eq c)

/-! ## The printed offsets in closed form -/

instance closedOff_k0_off3 (c : Dev nD) : ClosedOff (k0_off3 c) := ⟨![rr c.val], Topo.k0_off3_eq c⟩
instance closedOff_k0_off4 (c : Dev nD) : ClosedOff (k0_off4 c) := ⟨![rr c.val, 0, 0], Topo.k0_off4_eq c⟩
instance closedOff_k0_off1_8 (c : Dev nD) : ClosedOff (k0_off1 c 8#32) := ⟨![32 * (cross c (offA 0)).val, 0], by revert c; decide +kernel⟩
instance closedOff_k0_off1_7 (c : Dev nD) : ClosedOff (k0_off1 c 7#32) := ⟨![32 * (cross c (offA 1)).val, 0], by revert c; decide +kernel⟩
instance closedOff_k0_off1_9 (c : Dev nD) : ClosedOff (k0_off1 c 9#32) := ⟨![32 * (cross c (offA 2)).val, 0], by revert c; decide +kernel⟩
instance closedOff_k0_off1_6 (c : Dev nD) : ClosedOff (k0_off1 c 6#32) := ⟨![32 * (cross c (offA 3)).val, 0], by revert c; decide +kernel⟩
instance closedOff_k0_off1_10 (c : Dev nD) : ClosedOff (k0_off1 c 10#32) := ⟨![32 * (cross c (offA 4)).val, 0], by revert c; decide +kernel⟩
instance closedOff_k0_off1_5 (c : Dev nD) : ClosedOff (k0_off1 c 5#32) := ⟨![32 * (cross c (offA 5)).val, 0], by revert c; decide +kernel⟩
instance closedOff_k0_off1_11 (c : Dev nD) : ClosedOff (k0_off1 c 11#32) := ⟨![32 * (cross c (offA 6)).val, 0], by revert c; decide +kernel⟩
instance closedOff_k0_off1_4 (c : Dev nD) : ClosedOff (k0_off1 c 4#32) := ⟨![32 * (cross c (offA 7)).val, 0], by revert c; decide +kernel⟩
instance closedOff_k0_off1_12 (c : Dev nD) : ClosedOff (k0_off1 c 12#32) := ⟨![32 * (cross c (offA 8)).val, 0], by revert c; decide +kernel⟩
instance closedOff_k0_off1_3 (c : Dev nD) : ClosedOff (k0_off1 c 3#32) := ⟨![32 * (cross c (offA 9)).val, 0], by revert c; decide +kernel⟩
instance closedOff_k0_off1_13 (c : Dev nD) : ClosedOff (k0_off1 c 13#32) := ⟨![32 * (cross c (offA 10)).val, 0], by revert c; decide +kernel⟩
instance closedOff_k0_off1_2 (c : Dev nD) : ClosedOff (k0_off1 c 2#32) := ⟨![32 * (cross c (offA 11)).val, 0], by revert c; decide +kernel⟩
instance closedOff_k0_off1_14 (c : Dev nD) : ClosedOff (k0_off1 c 14#32) := ⟨![32 * (cross c (offA 12)).val, 0], by revert c; decide +kernel⟩
instance closedOff_k0_off1_1 (c : Dev nD) : ClosedOff (k0_off1 c 1#32) := ⟨![32 * (cross c (offA 13)).val, 0], by revert c; decide +kernel⟩
instance closedOff_k0_off1_15 (c : Dev nD) : ClosedOff (k0_off1 c 15#32) := ⟨![32 * (cross c (offA 14)).val, 0], by revert c; decide +kernel⟩
instance closedOff_k0_off1_16 (c : Dev nD) : ClosedOff (k0_off1 c 16#32) := ⟨![32 * (cross c (offA 15)).val, 0], by revert c; decide +kernel⟩
instance closedOff_k0_off2_8 (c : Dev nD) : ClosedOff (k0_off2 c 8#32) := ⟨![32 * (peer c (off 0)).val, 0], by revert c; decide +kernel⟩
instance closedOff_k0_off2_7 (c : Dev nD) : ClosedOff (k0_off2 c 7#32) := ⟨![32 * (peer c (off 1)).val, 0], by revert c; decide +kernel⟩
instance closedOff_k0_off2_9 (c : Dev nD) : ClosedOff (k0_off2 c 9#32) := ⟨![32 * (peer c (off 2)).val, 0], by revert c; decide +kernel⟩
instance closedOff_k0_off2_6 (c : Dev nD) : ClosedOff (k0_off2 c 6#32) := ⟨![32 * (peer c (off 3)).val, 0], by revert c; decide +kernel⟩
instance closedOff_k0_off2_10 (c : Dev nD) : ClosedOff (k0_off2 c 10#32) := ⟨![32 * (peer c (off 4)).val, 0], by revert c; decide +kernel⟩
instance closedOff_k0_off2_5 (c : Dev nD) : ClosedOff (k0_off2 c 5#32) := ⟨![32 * (peer c (off 5)).val, 0], by revert c; decide +kernel⟩
instance closedOff_k0_off2_11 (c : Dev nD) : ClosedOff (k0_off2 c 11#32) := ⟨![32 * (peer c (off 6)).val, 0], by revert c; decide +kernel⟩
instance closedOff_k0_off2_4 (c : Dev nD) : ClosedOff (k0_off2 c 4#32) := ⟨![32 * (peer c (off 7)).val, 0], by revert c; decide +kernel⟩
instance closedOff_k0_off2_12 (c : Dev nD) : ClosedOff (k0_off2 c 12#32) := ⟨![32 * (peer c (off 8)).val, 0], by revert c; decide +kernel⟩
instance closedOff_k0_off2_3 (c : Dev nD) : ClosedOff (k0_off2 c 3#32) := ⟨![32 * (peer c (off 9)).val, 0], by revert c; decide +kernel⟩
instance closedOff_k0_off2_13 (c : Dev nD) : ClosedOff (k0_off2 c 13#32) := ⟨![32 * (peer c (off 10)).val, 0], by revert c; decide +kernel⟩
instance closedOff_k0_off2_2 (c : Dev nD) : ClosedOff (k0_off2 c 2#32) := ⟨![32 * (peer c (off 11)).val, 0], by revert c; decide +kernel⟩
instance closedOff_k0_off2_14 (c : Dev nD) : ClosedOff (k0_off2 c 14#32) := ⟨![32 * (peer c (off 12)).val, 0], by revert c; decide +kernel⟩
instance closedOff_k0_off2_1 (c : Dev nD) : ClosedOff (k0_off2 c 1#32) := ⟨![32 * (peer c (off 13)).val, 0], by revert c; decide +kernel⟩
instance closedOff_k0_off2_15 (c : Dev nD) : ClosedOff (k0_off2 c 15#32) := ⟨![32 * (peer c (off 14)).val, 0], by revert c; decide +kernel⟩
instance closedOff_k0_off6_8 (c : Dev nD) : ClosedOff (k0_off6 c 8#32) := ⟨![rr (src c (off 0)).val], by revert c; decide +kernel⟩
instance closedOff_k0_off6_7 (c : Dev nD) : ClosedOff (k0_off6 c 7#32) := ⟨![rr (src c (off 1)).val], by revert c; decide +kernel⟩
instance closedOff_k0_off6_9 (c : Dev nD) : ClosedOff (k0_off6 c 9#32) := ⟨![rr (src c (off 2)).val], by revert c; decide +kernel⟩
instance closedOff_k0_off6_6 (c : Dev nD) : ClosedOff (k0_off6 c 6#32) := ⟨![rr (src c (off 3)).val], by revert c; decide +kernel⟩
instance closedOff_k0_off6_10 (c : Dev nD) : ClosedOff (k0_off6 c 10#32) := ⟨![rr (src c (off 4)).val], by revert c; decide +kernel⟩
instance closedOff_k0_off6_5 (c : Dev nD) : ClosedOff (k0_off6 c 5#32) := ⟨![rr (src c (off 5)).val], by revert c; decide +kernel⟩
instance closedOff_k0_off6_11 (c : Dev nD) : ClosedOff (k0_off6 c 11#32) := ⟨![rr (src c (off 6)).val], by revert c; decide +kernel⟩
instance closedOff_k0_off6_4 (c : Dev nD) : ClosedOff (k0_off6 c 4#32) := ⟨![rr (src c (off 7)).val], by revert c; decide +kernel⟩
instance closedOff_k0_off6_12 (c : Dev nD) : ClosedOff (k0_off6 c 12#32) := ⟨![rr (src c (off 8)).val], by revert c; decide +kernel⟩
instance closedOff_k0_off6_3 (c : Dev nD) : ClosedOff (k0_off6 c 3#32) := ⟨![rr (src c (off 9)).val], by revert c; decide +kernel⟩
instance closedOff_k0_off6_13 (c : Dev nD) : ClosedOff (k0_off6 c 13#32) := ⟨![rr (src c (off 10)).val], by revert c; decide +kernel⟩
instance closedOff_k0_off6_2 (c : Dev nD) : ClosedOff (k0_off6 c 2#32) := ⟨![rr (src c (off 11)).val], by revert c; decide +kernel⟩
instance closedOff_k0_off6_14 (c : Dev nD) : ClosedOff (k0_off6 c 14#32) := ⟨![rr (src c (off 12)).val], by revert c; decide +kernel⟩
instance closedOff_k0_off6_1 (c : Dev nD) : ClosedOff (k0_off6 c 1#32) := ⟨![rr (src c (off 13)).val], by revert c; decide +kernel⟩
instance closedOff_k0_off6_15 (c : Dev nD) : ClosedOff (k0_off6 c 15#32) := ⟨![rr (src c (off 14)).val], by revert c; decide +kernel⟩
instance closedOff_k0_off7_8 (c : Dev nD) : ClosedOff (k0_off7 c 8#32) := ⟨![rr (src c (off 0)).val, 0, 0], by revert c; decide +kernel⟩
instance closedOff_k0_off7_7 (c : Dev nD) : ClosedOff (k0_off7 c 7#32) := ⟨![rr (src c (off 1)).val, 0, 0], by revert c; decide +kernel⟩
instance closedOff_k0_off7_9 (c : Dev nD) : ClosedOff (k0_off7 c 9#32) := ⟨![rr (src c (off 2)).val, 0, 0], by revert c; decide +kernel⟩
instance closedOff_k0_off7_6 (c : Dev nD) : ClosedOff (k0_off7 c 6#32) := ⟨![rr (src c (off 3)).val, 0, 0], by revert c; decide +kernel⟩
instance closedOff_k0_off7_10 (c : Dev nD) : ClosedOff (k0_off7 c 10#32) := ⟨![rr (src c (off 4)).val, 0, 0], by revert c; decide +kernel⟩
instance closedOff_k0_off7_5 (c : Dev nD) : ClosedOff (k0_off7 c 5#32) := ⟨![rr (src c (off 5)).val, 0, 0], by revert c; decide +kernel⟩
instance closedOff_k0_off7_11 (c : Dev nD) : ClosedOff (k0_off7 c 11#32) := ⟨![rr (src c (off 6)).val, 0, 0], by revert c; decide +kernel⟩
instance closedOff_k0_off7_4 (c : Dev nD) : ClosedOff (k0_off7 c 4#32) := ⟨![rr (src c (off 7)).val, 0, 0], by revert c; decide +kernel⟩
instance closedOff_k0_off7_12 (c : Dev nD) : ClosedOff (k0_off7 c 12#32) := ⟨![rr (src c (off 8)).val, 0, 0], by revert c; decide +kernel⟩
instance closedOff_k0_off7_3 (c : Dev nD) : ClosedOff (k0_off7 c 3#32) := ⟨![rr (src c (off 9)).val, 0, 0], by revert c; decide +kernel⟩
instance closedOff_k0_off7_13 (c : Dev nD) : ClosedOff (k0_off7 c 13#32) := ⟨![rr (src c (off 10)).val, 0, 0], by revert c; decide +kernel⟩
instance closedOff_k0_off7_2 (c : Dev nD) : ClosedOff (k0_off7 c 2#32) := ⟨![rr (src c (off 11)).val, 0, 0], by revert c; decide +kernel⟩
instance closedOff_k0_off7_14 (c : Dev nD) : ClosedOff (k0_off7 c 14#32) := ⟨![rr (src c (off 12)).val, 0, 0], by revert c; decide +kernel⟩
instance closedOff_k0_off7_1 (c : Dev nD) : ClosedOff (k0_off7 c 1#32) := ⟨![rr (src c (off 13)).val, 0, 0], by revert c; decide +kernel⟩
instance closedOff_k0_off7_15 (c : Dev nD) : ClosedOff (k0_off7 c 15#32) := ⟨![rr (src c (off 14)).val, 0, 0], by revert c; decide +kernel⟩
instance closedOff_k0_off8_8 (c : Dev nD) : ClosedOff (k0_off8 c 8#32) := ⟨![rr (src c (off 0)).val, 0, 0], by revert c; decide +kernel⟩
instance closedOff_k0_off8_7 (c : Dev nD) : ClosedOff (k0_off8 c 7#32) := ⟨![rr (src c (off 1)).val, 0, 0], by revert c; decide +kernel⟩
instance closedOff_k0_off8_9 (c : Dev nD) : ClosedOff (k0_off8 c 9#32) := ⟨![rr (src c (off 2)).val, 0, 0], by revert c; decide +kernel⟩
instance closedOff_k0_off8_6 (c : Dev nD) : ClosedOff (k0_off8 c 6#32) := ⟨![rr (src c (off 3)).val, 0, 0], by revert c; decide +kernel⟩
instance closedOff_k0_off8_10 (c : Dev nD) : ClosedOff (k0_off8 c 10#32) := ⟨![rr (src c (off 4)).val, 0, 0], by revert c; decide +kernel⟩
instance closedOff_k0_off8_5 (c : Dev nD) : ClosedOff (k0_off8 c 5#32) := ⟨![rr (src c (off 5)).val, 0, 0], by revert c; decide +kernel⟩
instance closedOff_k0_off8_11 (c : Dev nD) : ClosedOff (k0_off8 c 11#32) := ⟨![rr (src c (off 6)).val, 0, 0], by revert c; decide +kernel⟩
instance closedOff_k0_off8_4 (c : Dev nD) : ClosedOff (k0_off8 c 4#32) := ⟨![rr (src c (off 7)).val, 0, 0], by revert c; decide +kernel⟩
instance closedOff_k0_off8_12 (c : Dev nD) : ClosedOff (k0_off8 c 12#32) := ⟨![rr (src c (off 8)).val, 0, 0], by revert c; decide +kernel⟩
instance closedOff_k0_off8_3 (c : Dev nD) : ClosedOff (k0_off8 c 3#32) := ⟨![rr (src c (off 9)).val, 0, 0], by revert c; decide +kernel⟩
instance closedOff_k0_off8_13 (c : Dev nD) : ClosedOff (k0_off8 c 13#32) := ⟨![rr (src c (off 10)).val, 0, 0], by revert c; decide +kernel⟩
instance closedOff_k0_off8_2 (c : Dev nD) : ClosedOff (k0_off8 c 2#32) := ⟨![rr (src c (off 11)).val, 0, 0], by revert c; decide +kernel⟩
instance closedOff_k0_off8_14 (c : Dev nD) : ClosedOff (k0_off8 c 14#32) := ⟨![rr (src c (off 12)).val, 0, 0], by revert c; decide +kernel⟩
instance closedOff_k0_off8_1 (c : Dev nD) : ClosedOff (k0_off8 c 1#32) := ⟨![rr (src c (off 13)).val, 0, 0], by revert c; decide +kernel⟩
instance closedOff_k0_off8_15 (c : Dev nD) : ClosedOff (k0_off8 c 15#32) := ⟨![rr (src c (off 14)).val, 0, 0], by revert c; decide +kernel⟩

/-! ## The barrier cells -/

section
variable (W1 W2 : Dev nD → Dev nD → Vec F S1x32x1024 .f32) (c : Dev nD)

/-- The barrier cell's duties, listed. -/
theorem duties_bar_list : (rd (F := F) W1 W2).duties (barCell c) 0 = {(0 : DN), (1 : DN), (2 : DN), (3 : DN), (4 : DN), (5 : DN), (6 : DN), (7 : DN), (8 : DN), (9 : DN), (10 : DN), (11 : DN), (12 : DN), (13 : DN), (14 : DN), (15 : DN)} := by
  rw [duties_bar]; decide

/-- What `c` hands its partner with its signal: its own sixteen first-phase receive slots. -/
theorem payload_bar_nbr : (rd (F := F) W1 W2).payload (barCell (nbr c)) 0 0
    = iprop((∃ f : Buf (Elt F) ((slot16 inboxM 0 (by decide)).view.loc (c : Thread nD τ)), ((slot16 inboxM 0 (by decide)).view.loc (c : Thread nD τ) ↦[(slot16 inboxM 0 (by decide)).view.set]{fullShare} f)) ∗ reached ER (dcell c (p1rS 0)) 0
      ∗ (∃ f : Buf (Elt F) ((slot16 inboxM 1 (by decide)).view.loc (c : Thread nD τ)), ((slot16 inboxM 1 (by decide)).view.loc (c : Thread nD τ) ↦[(slot16 inboxM 1 (by decide)).view.set]{fullShare} f)) ∗ reached ER (dcell c (p1rS 1)) 0
      ∗ (∃ f : Buf (Elt F) ((slot16 inboxM 2 (by decide)).view.loc (c : Thread nD τ)), ((slot16 inboxM 2 (by decide)).view.loc (c : Thread nD τ) ↦[(slot16 inboxM 2 (by decide)).view.set]{fullShare} f)) ∗ reached ER (dcell c (p1rS 2)) 0
      ∗ (∃ f : Buf (Elt F) ((slot16 inboxM 3 (by decide)).view.loc (c : Thread nD τ)), ((slot16 inboxM 3 (by decide)).view.loc (c : Thread nD τ) ↦[(slot16 inboxM 3 (by decide)).view.set]{fullShare} f)) ∗ reached ER (dcell c (p1rS 3)) 0
      ∗ (∃ f : Buf (Elt F) ((slot16 inboxM 4 (by decide)).view.loc (c : Thread nD τ)), ((slot16 inboxM 4 (by decide)).view.loc (c : Thread nD τ) ↦[(slot16 inboxM 4 (by decide)).view.set]{fullShare} f)) ∗ reached ER (dcell c (p1rS 4)) 0
      ∗ (∃ f : Buf (Elt F) ((slot16 inboxM 5 (by decide)).view.loc (c : Thread nD τ)), ((slot16 inboxM 5 (by decide)).view.loc (c : Thread nD τ) ↦[(slot16 inboxM 5 (by decide)).view.set]{fullShare} f)) ∗ reached ER (dcell c (p1rS 5)) 0
      ∗ (∃ f : Buf (Elt F) ((slot16 inboxM 6 (by decide)).view.loc (c : Thread nD τ)), ((slot16 inboxM 6 (by decide)).view.loc (c : Thread nD τ) ↦[(slot16 inboxM 6 (by decide)).view.set]{fullShare} f)) ∗ reached ER (dcell c (p1rS 6)) 0
      ∗ (∃ f : Buf (Elt F) ((slot16 inboxM 7 (by decide)).view.loc (c : Thread nD τ)), ((slot16 inboxM 7 (by decide)).view.loc (c : Thread nD τ) ↦[(slot16 inboxM 7 (by decide)).view.set]{fullShare} f)) ∗ reached ER (dcell c (p1rS 7)) 0
      ∗ (∃ f : Buf (Elt F) ((slot16 inboxM 8 (by decide)).view.loc (c : Thread nD τ)), ((slot16 inboxM 8 (by decide)).view.loc (c : Thread nD τ) ↦[(slot16 inboxM 8 (by decide)).view.set]{fullShare} f)) ∗ reached ER (dcell c (p1rS 8)) 0
      ∗ (∃ f : Buf (Elt F) ((slot16 inboxM 9 (by decide)).view.loc (c : Thread nD τ)), ((slot16 inboxM 9 (by decide)).view.loc (c : Thread nD τ) ↦[(slot16 inboxM 9 (by decide)).view.set]{fullShare} f)) ∗ reached ER (dcell c (p1rS 9)) 0
      ∗ (∃ f : Buf (Elt F) ((slot16 inboxM 10 (by decide)).view.loc (c : Thread nD τ)), ((slot16 inboxM 10 (by decide)).view.loc (c : Thread nD τ) ↦[(slot16 inboxM 10 (by decide)).view.set]{fullShare} f)) ∗ reached ER (dcell c (p1rS 10)) 0
      ∗ (∃ f : Buf (Elt F) ((slot16 inboxM 11 (by decide)).view.loc (c : Thread nD τ)), ((slot16 inboxM 11 (by decide)).view.loc (c : Thread nD τ) ↦[(slot16 inboxM 11 (by decide)).view.set]{fullShare} f)) ∗ reached ER (dcell c (p1rS 11)) 0
      ∗ (∃ f : Buf (Elt F) ((slot16 inboxM 12 (by decide)).view.loc (c : Thread nD τ)), ((slot16 inboxM 12 (by decide)).view.loc (c : Thread nD τ) ↦[(slot16 inboxM 12 (by decide)).view.set]{fullShare} f)) ∗ reached ER (dcell c (p1rS 12)) 0
      ∗ (∃ f : Buf (Elt F) ((slot16 inboxM 13 (by decide)).view.loc (c : Thread nD τ)), ((slot16 inboxM 13 (by decide)).view.loc (c : Thread nD τ) ↦[(slot16 inboxM 13 (by decide)).view.set]{fullShare} f)) ∗ reached ER (dcell c (p1rS 13)) 0
      ∗ (∃ f : Buf (Elt F) ((slot16 inboxM 14 (by decide)).view.loc (c : Thread nD τ)), ((slot16 inboxM 14 (by decide)).view.loc (c : Thread nD τ) ↦[(slot16 inboxM 14 (by decide)).view.set]{fullShare} f)) ∗ reached ER (dcell c (p1rS 14)) 0
      ∗ (∃ f : Buf (Elt F) ((slot16 inboxM 15 (by decide)).view.loc (c : Thread nD τ)), ((slot16 inboxM 15 (by decide)).view.loc (c : Thread nD τ) ↦[(slot16 inboxM 15 (by decide)).view.set]{fullShare} f)) ∗ reached ER (dcell c (p1rS 15)) 0) := by
  rw [payload_bar, barPay_zero, nbr_nbr]; rfl

/-- What `c` hands the peer `off 0` further on: its own second-phase receive slot of that peer's pair. -/
theorem payload_bar_peer0 : (rd (F := F) W1 W2).payload (barCell (peer c (off 0))) 0 (1 : DN)
    = iprop((∃ f : Buf (Elt F) ((slot16 gatherM (rr (peer c (off 0)).val) (rr_lt (peer c (off 0)))).view.loc (c : Thread nD τ)), ((slot16 gatherM (rr (peer c (off 0)).val) (rr_lt (peer c (off 0)))).view.loc (c : Thread nD τ) ↦[(slot16 gatherM (rr (peer c (off 0)).val) (rr_lt (peer c (off 0)))).view.set]{fullShare} f)) ∗ reached ER (dcell c (p2rS (pairOf (peer c (off 0))))) 0) := by
  rw [payload_bar, show ((1 : DN)) = ⟨(0 : Fin 15).val + 1, by decide⟩ from rfl, barPay_succ, src_peer]
/-- What `c` hands the peer `off 1` further on: its own second-phase receive slot of that peer's pair. -/
theorem payload_bar_peer1 : (rd (F := F) W1 W2).payload (barCell (peer c (off 1))) 0 (2 : DN)
    = iprop((∃ f : Buf (Elt F) ((slot16 gatherM (rr (peer c (off 1)).val) (rr_lt (peer c (off 1)))).view.loc (c : Thread nD τ)), ((slot16 gatherM (rr (peer c (off 1)).val) (rr_lt (peer c (off 1)))).view.loc (c : Thread nD τ) ↦[(slot16 gatherM (rr (peer c (off 1)).val) (rr_lt (peer c (off 1)))).view.set]{fullShare} f)) ∗ reached ER (dcell c (p2rS (pairOf (peer c (off 1))))) 0) := by
  rw [payload_bar, show ((2 : DN)) = ⟨(1 : Fin 15).val + 1, by decide⟩ from rfl, barPay_succ, src_peer]
/-- What `c` hands the peer `off 2` further on: its own second-phase receive slot of that peer's pair. -/
theorem payload_bar_peer2 : (rd (F := F) W1 W2).payload (barCell (peer c (off 2))) 0 (3 : DN)
    = iprop((∃ f : Buf (Elt F) ((slot16 gatherM (rr (peer c (off 2)).val) (rr_lt (peer c (off 2)))).view.loc (c : Thread nD τ)), ((slot16 gatherM (rr (peer c (off 2)).val) (rr_lt (peer c (off 2)))).view.loc (c : Thread nD τ) ↦[(slot16 gatherM (rr (peer c (off 2)).val) (rr_lt (peer c (off 2)))).view.set]{fullShare} f)) ∗ reached ER (dcell c (p2rS (pairOf (peer c (off 2))))) 0) := by
  rw [payload_bar, show ((3 : DN)) = ⟨(2 : Fin 15).val + 1, by decide⟩ from rfl, barPay_succ, src_peer]
/-- What `c` hands the peer `off 3` further on: its own second-phase receive slot of that peer's pair. -/
theorem payload_bar_peer3 : (rd (F := F) W1 W2).payload (barCell (peer c (off 3))) 0 (4 : DN)
    = iprop((∃ f : Buf (Elt F) ((slot16 gatherM (rr (peer c (off 3)).val) (rr_lt (peer c (off 3)))).view.loc (c : Thread nD τ)), ((slot16 gatherM (rr (peer c (off 3)).val) (rr_lt (peer c (off 3)))).view.loc (c : Thread nD τ) ↦[(slot16 gatherM (rr (peer c (off 3)).val) (rr_lt (peer c (off 3)))).view.set]{fullShare} f)) ∗ reached ER (dcell c (p2rS (pairOf (peer c (off 3))))) 0) := by
  rw [payload_bar, show ((4 : DN)) = ⟨(3 : Fin 15).val + 1, by decide⟩ from rfl, barPay_succ, src_peer]
/-- What `c` hands the peer `off 4` further on: its own second-phase receive slot of that peer's pair. -/
theorem payload_bar_peer4 : (rd (F := F) W1 W2).payload (barCell (peer c (off 4))) 0 (5 : DN)
    = iprop((∃ f : Buf (Elt F) ((slot16 gatherM (rr (peer c (off 4)).val) (rr_lt (peer c (off 4)))).view.loc (c : Thread nD τ)), ((slot16 gatherM (rr (peer c (off 4)).val) (rr_lt (peer c (off 4)))).view.loc (c : Thread nD τ) ↦[(slot16 gatherM (rr (peer c (off 4)).val) (rr_lt (peer c (off 4)))).view.set]{fullShare} f)) ∗ reached ER (dcell c (p2rS (pairOf (peer c (off 4))))) 0) := by
  rw [payload_bar, show ((5 : DN)) = ⟨(4 : Fin 15).val + 1, by decide⟩ from rfl, barPay_succ, src_peer]
/-- What `c` hands the peer `off 5` further on: its own second-phase receive slot of that peer's pair. -/
theorem payload_bar_peer5 : (rd (F := F) W1 W2).payload (barCell (peer c (off 5))) 0 (6 : DN)
    = iprop((∃ f : Buf (Elt F) ((slot16 gatherM (rr (peer c (off 5)).val) (rr_lt (peer c (off 5)))).view.loc (c : Thread nD τ)), ((slot16 gatherM (rr (peer c (off 5)).val) (rr_lt (peer c (off 5)))).view.loc (c : Thread nD τ) ↦[(slot16 gatherM (rr (peer c (off 5)).val) (rr_lt (peer c (off 5)))).view.set]{fullShare} f)) ∗ reached ER (dcell c (p2rS (pairOf (peer c (off 5))))) 0) := by
  rw [payload_bar, show ((6 : DN)) = ⟨(5 : Fin 15).val + 1, by decide⟩ from rfl, barPay_succ, src_peer]
/-- What `c` hands the peer `off 6` further on: its own second-phase receive slot of that peer's pair. -/
theorem payload_bar_peer6 : (rd (F := F) W1 W2).payload (barCell (peer c (off 6))) 0 (7 : DN)
    = iprop((∃ f : Buf (Elt F) ((slot16 gatherM (rr (peer c (off 6)).val) (rr_lt (peer c (off 6)))).view.loc (c : Thread nD τ)), ((slot16 gatherM (rr (peer c (off 6)).val) (rr_lt (peer c (off 6)))).view.loc (c : Thread nD τ) ↦[(slot16 gatherM (rr (peer c (off 6)).val) (rr_lt (peer c (off 6)))).view.set]{fullShare} f)) ∗ reached ER (dcell c (p2rS (pairOf (peer c (off 6))))) 0) := by
  rw [payload_bar, show ((7 : DN)) = ⟨(6 : Fin 15).val + 1, by decide⟩ from rfl, barPay_succ, src_peer]
/-- What `c` hands the peer `off 7` further on: its own second-phase receive slot of that peer's pair. -/
theorem payload_bar_peer7 : (rd (F := F) W1 W2).payload (barCell (peer c (off 7))) 0 (8 : DN)
    = iprop((∃ f : Buf (Elt F) ((slot16 gatherM (rr (peer c (off 7)).val) (rr_lt (peer c (off 7)))).view.loc (c : Thread nD τ)), ((slot16 gatherM (rr (peer c (off 7)).val) (rr_lt (peer c (off 7)))).view.loc (c : Thread nD τ) ↦[(slot16 gatherM (rr (peer c (off 7)).val) (rr_lt (peer c (off 7)))).view.set]{fullShare} f)) ∗ reached ER (dcell c (p2rS (pairOf (peer c (off 7))))) 0) := by
  rw [payload_bar, show ((8 : DN)) = ⟨(7 : Fin 15).val + 1, by decide⟩ from rfl, barPay_succ, src_peer]
/-- What `c` hands the peer `off 8` further on: its own second-phase receive slot of that peer's pair. -/
theorem payload_bar_peer8 : (rd (F := F) W1 W2).payload (barCell (peer c (off 8))) 0 (9 : DN)
    = iprop((∃ f : Buf (Elt F) ((slot16 gatherM (rr (peer c (off 8)).val) (rr_lt (peer c (off 8)))).view.loc (c : Thread nD τ)), ((slot16 gatherM (rr (peer c (off 8)).val) (rr_lt (peer c (off 8)))).view.loc (c : Thread nD τ) ↦[(slot16 gatherM (rr (peer c (off 8)).val) (rr_lt (peer c (off 8)))).view.set]{fullShare} f)) ∗ reached ER (dcell c (p2rS (pairOf (peer c (off 8))))) 0) := by
  rw [payload_bar, show ((9 : DN)) = ⟨(8 : Fin 15).val + 1, by decide⟩ from rfl, barPay_succ, src_peer]
/-- What `c` hands the peer `off 9` further on: its own second-phase receive slot of that peer's pair. -/
theorem payload_bar_peer9 : (rd (F := F) W1 W2).payload (barCell (peer c (off 9))) 0 (10 : DN)
    = iprop((∃ f : Buf (Elt F) ((slot16 gatherM (rr (peer c (off 9)).val) (rr_lt (peer c (off 9)))).view.loc (c : Thread nD τ)), ((slot16 gatherM (rr (peer c (off 9)).val) (rr_lt (peer c (off 9)))).view.loc (c : Thread nD τ) ↦[(slot16 gatherM (rr (peer c (off 9)).val) (rr_lt (peer c (off 9)))).view.set]{fullShare} f)) ∗ reached ER (dcell c (p2rS (pairOf (peer c (off 9))))) 0) := by
  rw [payload_bar, show ((10 : DN)) = ⟨(9 : Fin 15).val + 1, by decide⟩ from rfl, barPay_succ, src_peer]
/-- What `c` hands the peer `off 10` further on: its own second-phase receive slot of that peer's pair. -/
theorem payload_bar_peer10 : (rd (F := F) W1 W2).payload (barCell (peer c (off 10))) 0 (11 : DN)
    = iprop((∃ f : Buf (Elt F) ((slot16 gatherM (rr (peer c (off 10)).val) (rr_lt (peer c (off 10)))).view.loc (c : Thread nD τ)), ((slot16 gatherM (rr (peer c (off 10)).val) (rr_lt (peer c (off 10)))).view.loc (c : Thread nD τ) ↦[(slot16 gatherM (rr (peer c (off 10)).val) (rr_lt (peer c (off 10)))).view.set]{fullShare} f)) ∗ reached ER (dcell c (p2rS (pairOf (peer c (off 10))))) 0) := by
  rw [payload_bar, show ((11 : DN)) = ⟨(10 : Fin 15).val + 1, by decide⟩ from rfl, barPay_succ, src_peer]
/-- What `c` hands the peer `off 11` further on: its own second-phase receive slot of that peer's pair. -/
theorem payload_bar_peer11 : (rd (F := F) W1 W2).payload (barCell (peer c (off 11))) 0 (12 : DN)
    = iprop((∃ f : Buf (Elt F) ((slot16 gatherM (rr (peer c (off 11)).val) (rr_lt (peer c (off 11)))).view.loc (c : Thread nD τ)), ((slot16 gatherM (rr (peer c (off 11)).val) (rr_lt (peer c (off 11)))).view.loc (c : Thread nD τ) ↦[(slot16 gatherM (rr (peer c (off 11)).val) (rr_lt (peer c (off 11)))).view.set]{fullShare} f)) ∗ reached ER (dcell c (p2rS (pairOf (peer c (off 11))))) 0) := by
  rw [payload_bar, show ((12 : DN)) = ⟨(11 : Fin 15).val + 1, by decide⟩ from rfl, barPay_succ, src_peer]
/-- What `c` hands the peer `off 12` further on: its own second-phase receive slot of that peer's pair. -/
theorem payload_bar_peer12 : (rd (F := F) W1 W2).payload (barCell (peer c (off 12))) 0 (13 : DN)
    = iprop((∃ f : Buf (Elt F) ((slot16 gatherM (rr (peer c (off 12)).val) (rr_lt (peer c (off 12)))).view.loc (c : Thread nD τ)), ((slot16 gatherM (rr (peer c (off 12)).val) (rr_lt (peer c (off 12)))).view.loc (c : Thread nD τ) ↦[(slot16 gatherM (rr (peer c (off 12)).val) (rr_lt (peer c (off 12)))).view.set]{fullShare} f)) ∗ reached ER (dcell c (p2rS (pairOf (peer c (off 12))))) 0) := by
  rw [payload_bar, show ((13 : DN)) = ⟨(12 : Fin 15).val + 1, by decide⟩ from rfl, barPay_succ, src_peer]
/-- What `c` hands the peer `off 13` further on: its own second-phase receive slot of that peer's pair. -/
theorem payload_bar_peer13 : (rd (F := F) W1 W2).payload (barCell (peer c (off 13))) 0 (14 : DN)
    = iprop((∃ f : Buf (Elt F) ((slot16 gatherM (rr (peer c (off 13)).val) (rr_lt (peer c (off 13)))).view.loc (c : Thread nD τ)), ((slot16 gatherM (rr (peer c (off 13)).val) (rr_lt (peer c (off 13)))).view.loc (c : Thread nD τ) ↦[(slot16 gatherM (rr (peer c (off 13)).val) (rr_lt (peer c (off 13)))).view.set]{fullShare} f)) ∗ reached ER (dcell c (p2rS (pairOf (peer c (off 13))))) 0) := by
  rw [payload_bar, show ((14 : DN)) = ⟨(13 : Fin 15).val + 1, by decide⟩ from rfl, barPay_succ, src_peer]
/-- What `c` hands the peer `off 14` further on: its own second-phase receive slot of that peer's pair. -/
theorem payload_bar_peer14 : (rd (F := F) W1 W2).payload (barCell (peer c (off 14))) 0 (15 : DN)
    = iprop((∃ f : Buf (Elt F) ((slot16 gatherM (rr (peer c (off 14)).val) (rr_lt (peer c (off 14)))).view.loc (c : Thread nD τ)), ((slot16 gatherM (rr (peer c (off 14)).val) (rr_lt (peer c (off 14)))).view.loc (c : Thread nD τ) ↦[(slot16 gatherM (rr (peer c (off 14)).val) (rr_lt (peer c (off 14)))).view.set]{fullShare} f)) ∗ reached ER (dcell c (p2rS (pairOf (peer c (off 14))))) 0) := by
  rw [payload_bar, show ((15 : DN)) = ⟨(14 : Fin 15).val + 1, by decide⟩ from rfl, barPay_succ, src_peer]

/-- What the partner's signal hands `c`: the partner's sixteen first-phase receive slots. -/
theorem payload_bar_own0 : (rd (F := F) W1 W2).payload (barCell c) 0 0
    = iprop((∃ f : Buf (Elt F) ((slot16 inboxM 0 (by decide)).view.loc ((nbr c) : Thread nD τ)), ((slot16 inboxM 0 (by decide)).view.loc ((nbr c) : Thread nD τ) ↦[(slot16 inboxM 0 (by decide)).view.set]{fullShare} f)) ∗ reached ER (dcell (nbr c) (p1rS 0)) 0
      ∗ (∃ f : Buf (Elt F) ((slot16 inboxM 1 (by decide)).view.loc ((nbr c) : Thread nD τ)), ((slot16 inboxM 1 (by decide)).view.loc ((nbr c) : Thread nD τ) ↦[(slot16 inboxM 1 (by decide)).view.set]{fullShare} f)) ∗ reached ER (dcell (nbr c) (p1rS 1)) 0
      ∗ (∃ f : Buf (Elt F) ((slot16 inboxM 2 (by decide)).view.loc ((nbr c) : Thread nD τ)), ((slot16 inboxM 2 (by decide)).view.loc ((nbr c) : Thread nD τ) ↦[(slot16 inboxM 2 (by decide)).view.set]{fullShare} f)) ∗ reached ER (dcell (nbr c) (p1rS 2)) 0
      ∗ (∃ f : Buf (Elt F) ((slot16 inboxM 3 (by decide)).view.loc ((nbr c) : Thread nD τ)), ((slot16 inboxM 3 (by decide)).view.loc ((nbr c) : Thread nD τ) ↦[(slot16 inboxM 3 (by decide)).view.set]{fullShare} f)) ∗ reached ER (dcell (nbr c) (p1rS 3)) 0
      ∗ (∃ f : Buf (Elt F) ((slot16 inboxM 4 (by decide)).view.loc ((nbr c) : Thread nD τ)), ((slot16 inboxM 4 (by decide)).view.loc ((nbr c) : Thread nD τ) ↦[(slot16 inboxM 4 (by decide)).view.set]{fullShare} f)) ∗ reached ER (dcell (nbr c) (p1rS 4)) 0
      ∗ (∃ f : Buf (Elt F) ((slot16 inboxM 5 (by decide)).view.loc ((nbr c) : Thread nD τ)), ((slot16 inboxM 5 (by decide)).view.loc ((nbr c) : Thread nD τ) ↦[(slot16 inboxM 5 (by decide)).view.set]{fullShare} f)) ∗ reached ER (dcell (nbr c) (p1rS 5)) 0
      ∗ (∃ f : Buf (Elt F) ((slot16 inboxM 6 (by decide)).view.loc ((nbr c) : Thread nD τ)), ((slot16 inboxM 6 (by decide)).view.loc ((nbr c) : Thread nD τ) ↦[(slot16 inboxM 6 (by decide)).view.set]{fullShare} f)) ∗ reached ER (dcell (nbr c) (p1rS 6)) 0
      ∗ (∃ f : Buf (Elt F) ((slot16 inboxM 7 (by decide)).view.loc ((nbr c) : Thread nD τ)), ((slot16 inboxM 7 (by decide)).view.loc ((nbr c) : Thread nD τ) ↦[(slot16 inboxM 7 (by decide)).view.set]{fullShare} f)) ∗ reached ER (dcell (nbr c) (p1rS 7)) 0
      ∗ (∃ f : Buf (Elt F) ((slot16 inboxM 8 (by decide)).view.loc ((nbr c) : Thread nD τ)), ((slot16 inboxM 8 (by decide)).view.loc ((nbr c) : Thread nD τ) ↦[(slot16 inboxM 8 (by decide)).view.set]{fullShare} f)) ∗ reached ER (dcell (nbr c) (p1rS 8)) 0
      ∗ (∃ f : Buf (Elt F) ((slot16 inboxM 9 (by decide)).view.loc ((nbr c) : Thread nD τ)), ((slot16 inboxM 9 (by decide)).view.loc ((nbr c) : Thread nD τ) ↦[(slot16 inboxM 9 (by decide)).view.set]{fullShare} f)) ∗ reached ER (dcell (nbr c) (p1rS 9)) 0
      ∗ (∃ f : Buf (Elt F) ((slot16 inboxM 10 (by decide)).view.loc ((nbr c) : Thread nD τ)), ((slot16 inboxM 10 (by decide)).view.loc ((nbr c) : Thread nD τ) ↦[(slot16 inboxM 10 (by decide)).view.set]{fullShare} f)) ∗ reached ER (dcell (nbr c) (p1rS 10)) 0
      ∗ (∃ f : Buf (Elt F) ((slot16 inboxM 11 (by decide)).view.loc ((nbr c) : Thread nD τ)), ((slot16 inboxM 11 (by decide)).view.loc ((nbr c) : Thread nD τ) ↦[(slot16 inboxM 11 (by decide)).view.set]{fullShare} f)) ∗ reached ER (dcell (nbr c) (p1rS 11)) 0
      ∗ (∃ f : Buf (Elt F) ((slot16 inboxM 12 (by decide)).view.loc ((nbr c) : Thread nD τ)), ((slot16 inboxM 12 (by decide)).view.loc ((nbr c) : Thread nD τ) ↦[(slot16 inboxM 12 (by decide)).view.set]{fullShare} f)) ∗ reached ER (dcell (nbr c) (p1rS 12)) 0
      ∗ (∃ f : Buf (Elt F) ((slot16 inboxM 13 (by decide)).view.loc ((nbr c) : Thread nD τ)), ((slot16 inboxM 13 (by decide)).view.loc ((nbr c) : Thread nD τ) ↦[(slot16 inboxM 13 (by decide)).view.set]{fullShare} f)) ∗ reached ER (dcell (nbr c) (p1rS 13)) 0
      ∗ (∃ f : Buf (Elt F) ((slot16 inboxM 14 (by decide)).view.loc ((nbr c) : Thread nD τ)), ((slot16 inboxM 14 (by decide)).view.loc ((nbr c) : Thread nD τ) ↦[(slot16 inboxM 14 (by decide)).view.set]{fullShare} f)) ∗ reached ER (dcell (nbr c) (p1rS 14)) 0
      ∗ (∃ f : Buf (Elt F) ((slot16 inboxM 15 (by decide)).view.loc ((nbr c) : Thread nD τ)), ((slot16 inboxM 15 (by decide)).view.loc ((nbr c) : Thread nD τ) ↦[(slot16 inboxM 15 (by decide)).view.set]{fullShare} f)) ∗ reached ER (dcell (nbr c) (p1rS 15)) 0) := by
  rw [payload_bar, barPay_zero]; rfl

/-- What the signal of the device `off 0` pairs back hands `c`: that device's receive slot of the pair of `c`. -/
theorem payload_bar_own1 : (rd (F := F) W1 W2).payload (barCell c) 0 (1 : DN)
    = iprop((∃ f : Buf (Elt F) ((slot16 gatherM (rr c.val) (rr_lt c)).view.loc ((src c (off 0)) : Thread nD τ)), ((slot16 gatherM (rr c.val) (rr_lt c)).view.loc ((src c (off 0)) : Thread nD τ) ↦[(slot16 gatherM (rr c.val) (rr_lt c)).view.set]{fullShare} f)) ∗ reached ER (dcell (src c (off 0)) (p2rS (pairOf c))) 0) := by
  rw [payload_bar, show ((1 : DN)) = ⟨(0 : Fin 15).val + 1, by decide⟩ from rfl, barPay_succ]
/-- What the signal of the device `off 1` pairs back hands `c`: that device's receive slot of the pair of `c`. -/
theorem payload_bar_own2 : (rd (F := F) W1 W2).payload (barCell c) 0 (2 : DN)
    = iprop((∃ f : Buf (Elt F) ((slot16 gatherM (rr c.val) (rr_lt c)).view.loc ((src c (off 1)) : Thread nD τ)), ((slot16 gatherM (rr c.val) (rr_lt c)).view.loc ((src c (off 1)) : Thread nD τ) ↦[(slot16 gatherM (rr c.val) (rr_lt c)).view.set]{fullShare} f)) ∗ reached ER (dcell (src c (off 1)) (p2rS (pairOf c))) 0) := by
  rw [payload_bar, show ((2 : DN)) = ⟨(1 : Fin 15).val + 1, by decide⟩ from rfl, barPay_succ]
/-- What the signal of the device `off 2` pairs back hands `c`: that device's receive slot of the pair of `c`. -/
theorem payload_bar_own3 : (rd (F := F) W1 W2).payload (barCell c) 0 (3 : DN)
    = iprop((∃ f : Buf (Elt F) ((slot16 gatherM (rr c.val) (rr_lt c)).view.loc ((src c (off 2)) : Thread nD τ)), ((slot16 gatherM (rr c.val) (rr_lt c)).view.loc ((src c (off 2)) : Thread nD τ) ↦[(slot16 gatherM (rr c.val) (rr_lt c)).view.set]{fullShare} f)) ∗ reached ER (dcell (src c (off 2)) (p2rS (pairOf c))) 0) := by
  rw [payload_bar, show ((3 : DN)) = ⟨(2 : Fin 15).val + 1, by decide⟩ from rfl, barPay_succ]
/-- What the signal of the device `off 3` pairs back hands `c`: that device's receive slot of the pair of `c`. -/
theorem payload_bar_own4 : (rd (F := F) W1 W2).payload (barCell c) 0 (4 : DN)
    = iprop((∃ f : Buf (Elt F) ((slot16 gatherM (rr c.val) (rr_lt c)).view.loc ((src c (off 3)) : Thread nD τ)), ((slot16 gatherM (rr c.val) (rr_lt c)).view.loc ((src c (off 3)) : Thread nD τ) ↦[(slot16 gatherM (rr c.val) (rr_lt c)).view.set]{fullShare} f)) ∗ reached ER (dcell (src c (off 3)) (p2rS (pairOf c))) 0) := by
  rw [payload_bar, show ((4 : DN)) = ⟨(3 : Fin 15).val + 1, by decide⟩ from rfl, barPay_succ]
/-- What the signal of the device `off 4` pairs back hands `c`: that device's receive slot of the pair of `c`. -/
theorem payload_bar_own5 : (rd (F := F) W1 W2).payload (barCell c) 0 (5 : DN)
    = iprop((∃ f : Buf (Elt F) ((slot16 gatherM (rr c.val) (rr_lt c)).view.loc ((src c (off 4)) : Thread nD τ)), ((slot16 gatherM (rr c.val) (rr_lt c)).view.loc ((src c (off 4)) : Thread nD τ) ↦[(slot16 gatherM (rr c.val) (rr_lt c)).view.set]{fullShare} f)) ∗ reached ER (dcell (src c (off 4)) (p2rS (pairOf c))) 0) := by
  rw [payload_bar, show ((5 : DN)) = ⟨(4 : Fin 15).val + 1, by decide⟩ from rfl, barPay_succ]
/-- What the signal of the device `off 5` pairs back hands `c`: that device's receive slot of the pair of `c`. -/
theorem payload_bar_own6 : (rd (F := F) W1 W2).payload (barCell c) 0 (6 : DN)
    = iprop((∃ f : Buf (Elt F) ((slot16 gatherM (rr c.val) (rr_lt c)).view.loc ((src c (off 5)) : Thread nD τ)), ((slot16 gatherM (rr c.val) (rr_lt c)).view.loc ((src c (off 5)) : Thread nD τ) ↦[(slot16 gatherM (rr c.val) (rr_lt c)).view.set]{fullShare} f)) ∗ reached ER (dcell (src c (off 5)) (p2rS (pairOf c))) 0) := by
  rw [payload_bar, show ((6 : DN)) = ⟨(5 : Fin 15).val + 1, by decide⟩ from rfl, barPay_succ]
/-- What the signal of the device `off 6` pairs back hands `c`: that device's receive slot of the pair of `c`. -/
theorem payload_bar_own7 : (rd (F := F) W1 W2).payload (barCell c) 0 (7 : DN)
    = iprop((∃ f : Buf (Elt F) ((slot16 gatherM (rr c.val) (rr_lt c)).view.loc ((src c (off 6)) : Thread nD τ)), ((slot16 gatherM (rr c.val) (rr_lt c)).view.loc ((src c (off 6)) : Thread nD τ) ↦[(slot16 gatherM (rr c.val) (rr_lt c)).view.set]{fullShare} f)) ∗ reached ER (dcell (src c (off 6)) (p2rS (pairOf c))) 0) := by
  rw [payload_bar, show ((7 : DN)) = ⟨(6 : Fin 15).val + 1, by decide⟩ from rfl, barPay_succ]
/-- What the signal of the device `off 7` pairs back hands `c`: that device's receive slot of the pair of `c`. -/
theorem payload_bar_own8 : (rd (F := F) W1 W2).payload (barCell c) 0 (8 : DN)
    = iprop((∃ f : Buf (Elt F) ((slot16 gatherM (rr c.val) (rr_lt c)).view.loc ((src c (off 7)) : Thread nD τ)), ((slot16 gatherM (rr c.val) (rr_lt c)).view.loc ((src c (off 7)) : Thread nD τ) ↦[(slot16 gatherM (rr c.val) (rr_lt c)).view.set]{fullShare} f)) ∗ reached ER (dcell (src c (off 7)) (p2rS (pairOf c))) 0) := by
  rw [payload_bar, show ((8 : DN)) = ⟨(7 : Fin 15).val + 1, by decide⟩ from rfl, barPay_succ]
/-- What the signal of the device `off 8` pairs back hands `c`: that device's receive slot of the pair of `c`. -/
theorem payload_bar_own9 : (rd (F := F) W1 W2).payload (barCell c) 0 (9 : DN)
    = iprop((∃ f : Buf (Elt F) ((slot16 gatherM (rr c.val) (rr_lt c)).view.loc ((src c (off 8)) : Thread nD τ)), ((slot16 gatherM (rr c.val) (rr_lt c)).view.loc ((src c (off 8)) : Thread nD τ) ↦[(slot16 gatherM (rr c.val) (rr_lt c)).view.set]{fullShare} f)) ∗ reached ER (dcell (src c (off 8)) (p2rS (pairOf c))) 0) := by
  rw [payload_bar, show ((9 : DN)) = ⟨(8 : Fin 15).val + 1, by decide⟩ from rfl, barPay_succ]
/-- What the signal of the device `off 9` pairs back hands `c`: that device's receive slot of the pair of `c`. -/
theorem payload_bar_own10 : (rd (F := F) W1 W2).payload (barCell c) 0 (10 : DN)
    = iprop((∃ f : Buf (Elt F) ((slot16 gatherM (rr c.val) (rr_lt c)).view.loc ((src c (off 9)) : Thread nD τ)), ((slot16 gatherM (rr c.val) (rr_lt c)).view.loc ((src c (off 9)) : Thread nD τ) ↦[(slot16 gatherM (rr c.val) (rr_lt c)).view.set]{fullShare} f)) ∗ reached ER (dcell (src c (off 9)) (p2rS (pairOf c))) 0) := by
  rw [payload_bar, show ((10 : DN)) = ⟨(9 : Fin 15).val + 1, by decide⟩ from rfl, barPay_succ]
/-- What the signal of the device `off 10` pairs back hands `c`: that device's receive slot of the pair of `c`. -/
theorem payload_bar_own11 : (rd (F := F) W1 W2).payload (barCell c) 0 (11 : DN)
    = iprop((∃ f : Buf (Elt F) ((slot16 gatherM (rr c.val) (rr_lt c)).view.loc ((src c (off 10)) : Thread nD τ)), ((slot16 gatherM (rr c.val) (rr_lt c)).view.loc ((src c (off 10)) : Thread nD τ) ↦[(slot16 gatherM (rr c.val) (rr_lt c)).view.set]{fullShare} f)) ∗ reached ER (dcell (src c (off 10)) (p2rS (pairOf c))) 0) := by
  rw [payload_bar, show ((11 : DN)) = ⟨(10 : Fin 15).val + 1, by decide⟩ from rfl, barPay_succ]
/-- What the signal of the device `off 11` pairs back hands `c`: that device's receive slot of the pair of `c`. -/
theorem payload_bar_own12 : (rd (F := F) W1 W2).payload (barCell c) 0 (12 : DN)
    = iprop((∃ f : Buf (Elt F) ((slot16 gatherM (rr c.val) (rr_lt c)).view.loc ((src c (off 11)) : Thread nD τ)), ((slot16 gatherM (rr c.val) (rr_lt c)).view.loc ((src c (off 11)) : Thread nD τ) ↦[(slot16 gatherM (rr c.val) (rr_lt c)).view.set]{fullShare} f)) ∗ reached ER (dcell (src c (off 11)) (p2rS (pairOf c))) 0) := by
  rw [payload_bar, show ((12 : DN)) = ⟨(11 : Fin 15).val + 1, by decide⟩ from rfl, barPay_succ]
/-- What the signal of the device `off 12` pairs back hands `c`: that device's receive slot of the pair of `c`. -/
theorem payload_bar_own13 : (rd (F := F) W1 W2).payload (barCell c) 0 (13 : DN)
    = iprop((∃ f : Buf (Elt F) ((slot16 gatherM (rr c.val) (rr_lt c)).view.loc ((src c (off 12)) : Thread nD τ)), ((slot16 gatherM (rr c.val) (rr_lt c)).view.loc ((src c (off 12)) : Thread nD τ) ↦[(slot16 gatherM (rr c.val) (rr_lt c)).view.set]{fullShare} f)) ∗ reached ER (dcell (src c (off 12)) (p2rS (pairOf c))) 0) := by
  rw [payload_bar, show ((13 : DN)) = ⟨(12 : Fin 15).val + 1, by decide⟩ from rfl, barPay_succ]
/-- What the signal of the device `off 13` pairs back hands `c`: that device's receive slot of the pair of `c`. -/
theorem payload_bar_own14 : (rd (F := F) W1 W2).payload (barCell c) 0 (14 : DN)
    = iprop((∃ f : Buf (Elt F) ((slot16 gatherM (rr c.val) (rr_lt c)).view.loc ((src c (off 13)) : Thread nD τ)), ((slot16 gatherM (rr c.val) (rr_lt c)).view.loc ((src c (off 13)) : Thread nD τ) ↦[(slot16 gatherM (rr c.val) (rr_lt c)).view.set]{fullShare} f)) ∗ reached ER (dcell (src c (off 13)) (p2rS (pairOf c))) 0) := by
  rw [payload_bar, show ((14 : DN)) = ⟨(13 : Fin 15).val + 1, by decide⟩ from rfl, barPay_succ]
/-- What the signal of the device `off 14` pairs back hands `c`: that device's receive slot of the pair of `c`. -/
theorem payload_bar_own15 : (rd (F := F) W1 W2).payload (barCell c) 0 (15 : DN)
    = iprop((∃ f : Buf (Elt F) ((slot16 gatherM (rr c.val) (rr_lt c)).view.loc ((src c (off 14)) : Thread nD τ)), ((slot16 gatherM (rr c.val) (rr_lt c)).view.loc ((src c (off 14)) : Thread nD τ) ↦[(slot16 gatherM (rr c.val) (rr_lt c)).view.set]{fullShare} f)) ∗ reached ER (dcell (src c (off 14)) (p2rS (pairOf c))) 0) := by
  rw [payload_bar, show ((15 : DN)) = ⟨(14 : Fin 15).val + 1, by decide⟩ from rfl, barPay_succ]

/-! ## The DMA cells of `c` itself -/

theorem used_p1s (k : Fin 16) : used c (p1sS k) := by revert c k; decide
theorem used_p1r (k : Fin 16) : used c (p1rS k) := by revert c k; decide
theorem used_p2s (k : Fin 15) : used c (p2sS k) := by revert c k; decide
theorem used_p2r_src (o : Fin 17) (ho : 1 ≤ o.val ∧ o.val ≤ 15) : used c (p2rS (pairOf (src c o))) := by revert c o; decide
theorem used_p2r_peer (o : Fin 17) (ho : 1 ≤ o.val ∧ o.val ≤ 15) : used (peer c o) (p2rS (pairOf c)) := by revert c o; decide

theorem duties_p1s (k : Fin 16) : (rd (F := F) W1 W2).duties (dcell c (p1sS k)) 0 = {0} := duties_dma W1 W2 c _ (used_p1s c k)
theorem duties_p1r (k : Fin 16) : (rd (F := F) W1 W2).duties (dcell c (p1rS k)) 0 = {0} := duties_dma W1 W2 c _ (used_p1r c k)
theorem duties_p2s (k : Fin 15) : (rd (F := F) W1 W2).duties (dcell c (p2sS k)) 0 = {0} := duties_dma W1 W2 c _ (used_p2s c k)
theorem expect_p1s (k : Fin 16) : (rd (F := F) W1 W2).expect (dcell c (p1sS k)) 0 = N := expect_dma W1 W2 c _ (used_p1s c k)
theorem expect_p1r (k : Fin 16) : (rd (F := F) W1 W2).expect (dcell c (p1rS k)) 0 = N := expect_dma W1 W2 c _ (used_p1r c k)
theorem expect_p2s (k : Fin 15) : (rd (F := F) W1 W2).expect (dcell c (p2sS k)) 0 = N := expect_dma W1 W2 c _ (used_p2s c k)

theorem payload_p1s0 : (rd (F := F) W1 W2).payload (dcell c (p1sS 0)) 0 0
    = ((slot16 stageM 0 (by decide)).view.loc (c : Thread nD τ) ↦[(slot16 stageM 0 (by decide)).view.set]{fullShare} put c (slot16 stageM 0 (by decide)) (W1 c (cross c (offA 0)))) := by
  rw [payload_dma, dmaPay_p1s]; rfl
theorem payload_p1r0 : (rd (F := F) W1 W2).payload (dcell c (p1rS 0)) 0 0
    = ((slot16 inboxM 0 (by decide)).view.loc (c : Thread nD τ) ↦[(slot16 inboxM 0 (by decide)).view.set]{fullShare} put c (slot16 inboxM 0 (by decide)) (W1 (nbr c) (peer c (offA 0)))) := by
  rw [payload_dma, dmaPay_p1r]; rfl
theorem payload_p1s1 : (rd (F := F) W1 W2).payload (dcell c (p1sS 1)) 0 0
    = ((slot16 stageM 1 (by decide)).view.loc (c : Thread nD τ) ↦[(slot16 stageM 1 (by decide)).view.set]{fullShare} put c (slot16 stageM 1 (by decide)) (W1 c (cross c (offA 1)))) := by
  rw [payload_dma, dmaPay_p1s]; rfl
theorem payload_p1r1 : (rd (F := F) W1 W2).payload (dcell c (p1rS 1)) 0 0
    = ((slot16 inboxM 1 (by decide)).view.loc (c : Thread nD τ) ↦[(slot16 inboxM 1 (by decide)).view.set]{fullShare} put c (slot16 inboxM 1 (by decide)) (W1 (nbr c) (peer c (offA 1)))) := by
  rw [payload_dma, dmaPay_p1r]; rfl
theorem payload_p1s2 : (rd (F := F) W1 W2).payload (dcell c (p1sS 2)) 0 0
    = ((slot16 stageM 2 (by decide)).view.loc (c : Thread nD τ) ↦[(slot16 stageM 2 (by decide)).view.set]{fullShare} put c (slot16 stageM 2 (by decide)) (W1 c (cross c (offA 2)))) := by
  rw [payload_dma, dmaPay_p1s]; rfl
theorem payload_p1r2 : (rd (F := F) W1 W2).payload (dcell c (p1rS 2)) 0 0
    = ((slot16 inboxM 2 (by decide)).view.loc (c : Thread nD τ) ↦[(slot16 inboxM 2 (by decide)).view.set]{fullShare} put c (slot16 inboxM 2 (by decide)) (W1 (nbr c) (peer c (offA 2)))) := by
  rw [payload_dma, dmaPay_p1r]; rfl
theorem payload_p1s3 : (rd (F := F) W1 W2).payload (dcell c (p1sS 3)) 0 0
    = ((slot16 stageM 3 (by decide)).view.loc (c : Thread nD τ) ↦[(slot16 stageM 3 (by decide)).view.set]{fullShare} put c (slot16 stageM 3 (by decide)) (W1 c (cross c (offA 3)))) := by
  rw [payload_dma, dmaPay_p1s]; rfl
theorem payload_p1r3 : (rd (F := F) W1 W2).payload (dcell c (p1rS 3)) 0 0
    = ((slot16 inboxM 3 (by decide)).view.loc (c : Thread nD τ) ↦[(slot16 inboxM 3 (by decide)).view.set]{fullShare} put c (slot16 inboxM 3 (by decide)) (W1 (nbr c) (peer c (offA 3)))) := by
  rw [payload_dma, dmaPay_p1r]; rfl
theorem payload_p1s4 : (rd (F := F) W1 W2).payload (dcell c (p1sS 4)) 0 0
    = ((slot16 stageM 4 (by decide)).view.loc (c : Thread nD τ) ↦[(slot16 stageM 4 (by decide)).view.set]{fullShare} put c (slot16 stageM 4 (by decide)) (W1 c (cross c (offA 4)))) := by
  rw [payload_dma, dmaPay_p1s]; rfl
theorem payload_p1r4 : (rd (F := F) W1 W2).payload (dcell c (p1rS 4)) 0 0
    = ((slot16 inboxM 4 (by decide)).view.loc (c : Thread nD τ) ↦[(slot16 inboxM 4 (by decide)).view.set]{fullShare} put c (slot16 inboxM 4 (by decide)) (W1 (nbr c) (peer c (offA 4)))) := by
  rw [payload_dma, dmaPay_p1r]; rfl
theorem payload_p1s5 : (rd (F := F) W1 W2).payload (dcell c (p1sS 5)) 0 0
    = ((slot16 stageM 5 (by decide)).view.loc (c : Thread nD τ) ↦[(slot16 stageM 5 (by decide)).view.set]{fullShare} put c (slot16 stageM 5 (by decide)) (W1 c (cross c (offA 5)))) := by
  rw [payload_dma, dmaPay_p1s]; rfl
theorem payload_p1r5 : (rd (F := F) W1 W2).payload (dcell c (p1rS 5)) 0 0
    = ((slot16 inboxM 5 (by decide)).view.loc (c : Thread nD τ) ↦[(slot16 inboxM 5 (by decide)).view.set]{fullShare} put c (slot16 inboxM 5 (by decide)) (W1 (nbr c) (peer c (offA 5)))) := by
  rw [payload_dma, dmaPay_p1r]; rfl
theorem payload_p1s6 : (rd (F := F) W1 W2).payload (dcell c (p1sS 6)) 0 0
    = ((slot16 stageM 6 (by decide)).view.loc (c : Thread nD τ) ↦[(slot16 stageM 6 (by decide)).view.set]{fullShare} put c (slot16 stageM 6 (by decide)) (W1 c (cross c (offA 6)))) := by
  rw [payload_dma, dmaPay_p1s]; rfl
theorem payload_p1r6 : (rd (F := F) W1 W2).payload (dcell c (p1rS 6)) 0 0
    = ((slot16 inboxM 6 (by decide)).view.loc (c : Thread nD τ) ↦[(slot16 inboxM 6 (by decide)).view.set]{fullShare} put c (slot16 inboxM 6 (by decide)) (W1 (nbr c) (peer c (offA 6)))) := by
  rw [payload_dma, dmaPay_p1r]; rfl
theorem payload_p1s7 : (rd (F := F) W1 W2).payload (dcell c (p1sS 7)) 0 0
    = ((slot16 stageM 7 (by decide)).view.loc (c : Thread nD τ) ↦[(slot16 stageM 7 (by decide)).view.set]{fullShare} put c (slot16 stageM 7 (by decide)) (W1 c (cross c (offA 7)))) := by
  rw [payload_dma, dmaPay_p1s]; rfl
theorem payload_p1r7 : (rd (F := F) W1 W2).payload (dcell c (p1rS 7)) 0 0
    = ((slot16 inboxM 7 (by decide)).view.loc (c : Thread nD τ) ↦[(slot16 inboxM 7 (by decide)).view.set]{fullShare} put c (slot16 inboxM 7 (by decide)) (W1 (nbr c) (peer c (offA 7)))) := by
  rw [payload_dma, dmaPay_p1r]; rfl
theorem payload_p1s8 : (rd (F := F) W1 W2).payload (dcell c (p1sS 8)) 0 0
    = ((slot16 stageM 8 (by decide)).view.loc (c : Thread nD τ) ↦[(slot16 stageM 8 (by decide)).view.set]{fullShare} put c (slot16 stageM 8 (by decide)) (W1 c (cross c (offA 8)))) := by
  rw [payload_dma, dmaPay_p1s]; rfl
theorem payload_p1r8 : (rd (F := F) W1 W2).payload (dcell c (p1rS 8)) 0 0
    = ((slot16 inboxM 8 (by decide)).view.loc (c : Thread nD τ) ↦[(slot16 inboxM 8 (by decide)).view.set]{fullShare} put c (slot16 inboxM 8 (by decide)) (W1 (nbr c) (peer c (offA 8)))) := by
  rw [payload_dma, dmaPay_p1r]; rfl
theorem payload_p1s9 : (rd (F := F) W1 W2).payload (dcell c (p1sS 9)) 0 0
    = ((slot16 stageM 9 (by decide)).view.loc (c : Thread nD τ) ↦[(slot16 stageM 9 (by decide)).view.set]{fullShare} put c (slot16 stageM 9 (by decide)) (W1 c (cross c (offA 9)))) := by
  rw [payload_dma, dmaPay_p1s]; rfl
theorem payload_p1r9 : (rd (F := F) W1 W2).payload (dcell c (p1rS 9)) 0 0
    = ((slot16 inboxM 9 (by decide)).view.loc (c : Thread nD τ) ↦[(slot16 inboxM 9 (by decide)).view.set]{fullShare} put c (slot16 inboxM 9 (by decide)) (W1 (nbr c) (peer c (offA 9)))) := by
  rw [payload_dma, dmaPay_p1r]; rfl
theorem payload_p1s10 : (rd (F := F) W1 W2).payload (dcell c (p1sS 10)) 0 0
    = ((slot16 stageM 10 (by decide)).view.loc (c : Thread nD τ) ↦[(slot16 stageM 10 (by decide)).view.set]{fullShare} put c (slot16 stageM 10 (by decide)) (W1 c (cross c (offA 10)))) := by
  rw [payload_dma, dmaPay_p1s]; rfl
theorem payload_p1r10 : (rd (F := F) W1 W2).payload (dcell c (p1rS 10)) 0 0
    = ((slot16 inboxM 10 (by decide)).view.loc (c : Thread nD τ) ↦[(slot16 inboxM 10 (by decide)).view.set]{fullShare} put c (slot16 inboxM 10 (by decide)) (W1 (nbr c) (peer c (offA 10)))) := by
  rw [payload_dma, dmaPay_p1r]; rfl
theorem payload_p1s11 : (rd (F := F) W1 W2).payload (dcell c (p1sS 11)) 0 0
    = ((slot16 stageM 11 (by decide)).view.loc (c : Thread nD τ) ↦[(slot16 stageM 11 (by decide)).view.set]{fullShare} put c (slot16 stageM 11 (by decide)) (W1 c (cross c (offA 11)))) := by
  rw [payload_dma, dmaPay_p1s]; rfl
theorem payload_p1r11 : (rd (F := F) W1 W2).payload (dcell c (p1rS 11)) 0 0
    = ((slot16 inboxM 11 (by decide)).view.loc (c : Thread nD τ) ↦[(slot16 inboxM 11 (by decide)).view.set]{fullShare} put c (slot16 inboxM 11 (by decide)) (W1 (nbr c) (peer c (offA 11)))) := by
  rw [payload_dma, dmaPay_p1r]; rfl
theorem payload_p1s12 : (rd (F := F) W1 W2).payload (dcell c (p1sS 12)) 0 0
    = ((slot16 stageM 12 (by decide)).view.loc (c : Thread nD τ) ↦[(slot16 stageM 12 (by decide)).view.set]{fullShare} put c (slot16 stageM 12 (by decide)) (W1 c (cross c (offA 12)))) := by
  rw [payload_dma, dmaPay_p1s]; rfl
theorem payload_p1r12 : (rd (F := F) W1 W2).payload (dcell c (p1rS 12)) 0 0
    = ((slot16 inboxM 12 (by decide)).view.loc (c : Thread nD τ) ↦[(slot16 inboxM 12 (by decide)).view.set]{fullShare} put c (slot16 inboxM 12 (by decide)) (W1 (nbr c) (peer c (offA 12)))) := by
  rw [payload_dma, dmaPay_p1r]; rfl
theorem payload_p1s13 : (rd (F := F) W1 W2).payload (dcell c (p1sS 13)) 0 0
    = ((slot16 stageM 13 (by decide)).view.loc (c : Thread nD τ) ↦[(slot16 stageM 13 (by decide)).view.set]{fullShare} put c (slot16 stageM 13 (by decide)) (W1 c (cross c (offA 13)))) := by
  rw [payload_dma, dmaPay_p1s]; rfl
theorem payload_p1r13 : (rd (F := F) W1 W2).payload (dcell c (p1rS 13)) 0 0
    = ((slot16 inboxM 13 (by decide)).view.loc (c : Thread nD τ) ↦[(slot16 inboxM 13 (by decide)).view.set]{fullShare} put c (slot16 inboxM 13 (by decide)) (W1 (nbr c) (peer c (offA 13)))) := by
  rw [payload_dma, dmaPay_p1r]; rfl
theorem payload_p1s14 : (rd (F := F) W1 W2).payload (dcell c (p1sS 14)) 0 0
    = ((slot16 stageM 14 (by decide)).view.loc (c : Thread nD τ) ↦[(slot16 stageM 14 (by decide)).view.set]{fullShare} put c (slot16 stageM 14 (by decide)) (W1 c (cross c (offA 14)))) := by
  rw [payload_dma, dmaPay_p1s]; rfl
theorem payload_p1r14 : (rd (F := F) W1 W2).payload (dcell c (p1rS 14)) 0 0
    = ((slot16 inboxM 14 (by decide)).view.loc (c : Thread nD τ) ↦[(slot16 inboxM 14 (by decide)).view.set]{fullShare} put c (slot16 inboxM 14 (by decide)) (W1 (nbr c) (peer c (offA 14)))) := by
  rw [payload_dma, dmaPay_p1r]; rfl
theorem payload_p1s15 : (rd (F := F) W1 W2).payload (dcell c (p1sS 15)) 0 0
    = ((slot16 stageM 15 (by decide)).view.loc (c : Thread nD τ) ↦[(slot16 stageM 15 (by decide)).view.set]{fullShare} put c (slot16 stageM 15 (by decide)) (W1 c (cross c (offA 15)))) := by
  rw [payload_dma, dmaPay_p1s]; rfl
theorem payload_p1r15 : (rd (F := F) W1 W2).payload (dcell c (p1rS 15)) 0 0
    = ((slot16 inboxM 15 (by decide)).view.loc (c : Thread nD τ) ↦[(slot16 inboxM 15 (by decide)).view.set]{fullShare} put c (slot16 inboxM 15 (by decide)) (W1 (nbr c) (peer c (offA 15)))) := by
  rw [payload_dma, dmaPay_p1r]; rfl
theorem payload_p2s0 : (rd (F := F) W1 W2).payload (dcell c (p2sS 0)) 0 0
    = ((slot15 outboxM 0 (by decide)).view.loc (c : Thread nD τ) ↦[(slot15 outboxM 0 (by decide)).view.set]{fullShare} put c (slot15 outboxM 0 (by decide)) (W2 c (peer c (off 0)))) := by
  rw [payload_dma, dmaPay_p2s]; rfl
theorem payload_p2s1 : (rd (F := F) W1 W2).payload (dcell c (p2sS 1)) 0 0
    = ((slot15 outboxM 1 (by decide)).view.loc (c : Thread nD τ) ↦[(slot15 outboxM 1 (by decide)).view.set]{fullShare} put c (slot15 outboxM 1 (by decide)) (W2 c (peer c (off 1)))) := by
  rw [payload_dma, dmaPay_p2s]; rfl
theorem payload_p2s2 : (rd (F := F) W1 W2).payload (dcell c (p2sS 2)) 0 0
    = ((slot15 outboxM 2 (by decide)).view.loc (c : Thread nD τ) ↦[(slot15 outboxM 2 (by decide)).view.set]{fullShare} put c (slot15 outboxM 2 (by decide)) (W2 c (peer c (off 2)))) := by
  rw [payload_dma, dmaPay_p2s]; rfl
theorem payload_p2s3 : (rd (F := F) W1 W2).payload (dcell c (p2sS 3)) 0 0
    = ((slot15 outboxM 3 (by decide)).view.loc (c : Thread nD τ) ↦[(slot15 outboxM 3 (by decide)).view.set]{fullShare} put c (slot15 outboxM 3 (by decide)) (W2 c (peer c (off 3)))) := by
  rw [payload_dma, dmaPay_p2s]; rfl
theorem payload_p2s4 : (rd (F := F) W1 W2).payload (dcell c (p2sS 4)) 0 0
    = ((slot15 outboxM 4 (by decide)).view.loc (c : Thread nD τ) ↦[(slot15 outboxM 4 (by decide)).view.set]{fullShare} put c (slot15 outboxM 4 (by decide)) (W2 c (peer c (off 4)))) := by
  rw [payload_dma, dmaPay_p2s]; rfl
theorem payload_p2s5 : (rd (F := F) W1 W2).payload (dcell c (p2sS 5)) 0 0
    = ((slot15 outboxM 5 (by decide)).view.loc (c : Thread nD τ) ↦[(slot15 outboxM 5 (by decide)).view.set]{fullShare} put c (slot15 outboxM 5 (by decide)) (W2 c (peer c (off 5)))) := by
  rw [payload_dma, dmaPay_p2s]; rfl
theorem payload_p2s6 : (rd (F := F) W1 W2).payload (dcell c (p2sS 6)) 0 0
    = ((slot15 outboxM 6 (by decide)).view.loc (c : Thread nD τ) ↦[(slot15 outboxM 6 (by decide)).view.set]{fullShare} put c (slot15 outboxM 6 (by decide)) (W2 c (peer c (off 6)))) := by
  rw [payload_dma, dmaPay_p2s]; rfl
theorem payload_p2s7 : (rd (F := F) W1 W2).payload (dcell c (p2sS 7)) 0 0
    = ((slot15 outboxM 7 (by decide)).view.loc (c : Thread nD τ) ↦[(slot15 outboxM 7 (by decide)).view.set]{fullShare} put c (slot15 outboxM 7 (by decide)) (W2 c (peer c (off 7)))) := by
  rw [payload_dma, dmaPay_p2s]; rfl
theorem payload_p2s8 : (rd (F := F) W1 W2).payload (dcell c (p2sS 8)) 0 0
    = ((slot15 outboxM 8 (by decide)).view.loc (c : Thread nD τ) ↦[(slot15 outboxM 8 (by decide)).view.set]{fullShare} put c (slot15 outboxM 8 (by decide)) (W2 c (peer c (off 8)))) := by
  rw [payload_dma, dmaPay_p2s]; rfl
theorem payload_p2s9 : (rd (F := F) W1 W2).payload (dcell c (p2sS 9)) 0 0
    = ((slot15 outboxM 9 (by decide)).view.loc (c : Thread nD τ) ↦[(slot15 outboxM 9 (by decide)).view.set]{fullShare} put c (slot15 outboxM 9 (by decide)) (W2 c (peer c (off 9)))) := by
  rw [payload_dma, dmaPay_p2s]; rfl
theorem payload_p2s10 : (rd (F := F) W1 W2).payload (dcell c (p2sS 10)) 0 0
    = ((slot15 outboxM 10 (by decide)).view.loc (c : Thread nD τ) ↦[(slot15 outboxM 10 (by decide)).view.set]{fullShare} put c (slot15 outboxM 10 (by decide)) (W2 c (peer c (off 10)))) := by
  rw [payload_dma, dmaPay_p2s]; rfl
theorem payload_p2s11 : (rd (F := F) W1 W2).payload (dcell c (p2sS 11)) 0 0
    = ((slot15 outboxM 11 (by decide)).view.loc (c : Thread nD τ) ↦[(slot15 outboxM 11 (by decide)).view.set]{fullShare} put c (slot15 outboxM 11 (by decide)) (W2 c (peer c (off 11)))) := by
  rw [payload_dma, dmaPay_p2s]; rfl
theorem payload_p2s12 : (rd (F := F) W1 W2).payload (dcell c (p2sS 12)) 0 0
    = ((slot15 outboxM 12 (by decide)).view.loc (c : Thread nD τ) ↦[(slot15 outboxM 12 (by decide)).view.set]{fullShare} put c (slot15 outboxM 12 (by decide)) (W2 c (peer c (off 12)))) := by
  rw [payload_dma, dmaPay_p2s]; rfl
theorem payload_p2s13 : (rd (F := F) W1 W2).payload (dcell c (p2sS 13)) 0 0
    = ((slot15 outboxM 13 (by decide)).view.loc (c : Thread nD τ) ↦[(slot15 outboxM 13 (by decide)).view.set]{fullShare} put c (slot15 outboxM 13 (by decide)) (W2 c (peer c (off 13)))) := by
  rw [payload_dma, dmaPay_p2s]; rfl
theorem payload_p2s14 : (rd (F := F) W1 W2).payload (dcell c (p2sS 14)) 0 0
    = ((slot15 outboxM 14 (by decide)).view.loc (c : Thread nD τ) ↦[(slot15 outboxM 14 (by decide)).view.set]{fullShare} put c (slot15 outboxM 14 (by decide)) (W2 c (peer c (off 14)))) := by
  rw [payload_dma, dmaPay_p2s]; rfl

end

end Cert.KernelIdeal.Proto

end
-- ==== Proof.Rules.lean ====
/-
  One rule for every remote copy of the kernel: a slot of a scratch buffer of `c` is copied into a
  slot of a scratch buffer of `n`.  The copy pays the single duty of the send cell on `c` (the source
  slot comes back with what it held) and the single duty of the receive cell on `n` (the destination
  slot arrives holding the same value).
-/
import proofs.«900440_g7700000000000441_dist_gemm_rs_m1024_k1024_n1024_f32_none_v7x_i32_1_alg».proof.Proof.Tables
import proofs.«900440_g7700000000000441_dist_gemm_rs_m1024_k1024_n1024_f32_none_v7x_i32_1_alg».proof.Proof.Gen.KernelIdeal.Skeleton

noncomputable section

namespace Cert.KernelIdeal.Proto

open Cert.KernelIdeal Cert.KernelIdeal.Gen Cert.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

abbrev 𝒱₀ : Variants := Variants.none

theorem wp_send_slot (W1 W2 : Dev nD → Dev nD → Vec F S1x32x1024 .f32) (c n : Dev nD)
    {src dst : Memref sig .tc .vmem S1x32x1024 .f32} (qs qr : DmaSem sig) (κ₁ κ₂ : ℕ) (V : Vec F S1x32x1024 .f32)
    (hds : (0 : DN) ∈ (rd W1 W2).duties (dcell c qs) 0) (hdr : (0 : DN) ∈ (rd W1 W2).duties (dcell n qr) 0)
    (hN : dst.view.amount (.dma qr) = N)
    (hp1 : (rd W1 W2).payload (dcell c qs) 0 0 = holds c src V) (hp2 : (rd W1 W2).payload (dcell n qr) 0 0 = holds n dst V)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α}
    (fs : Buf (Elt F) (src.view.loc (c : Thread nD τ))) (hfs : src.view.read (Elt F) fs = V)
    (fd : Buf (Elt F) (dst.view.loc (n : Thread nD τ))) (O : CellTallies nD τ sig Unit) (W : Waits sig Unit) :
    iprop(cellInv ER (rd W1 W2) κ₁ (dcell c qs) ∗ cellInv ER (rd W1 W2) κ₂ (dcell n qr)
        ∗ (src.view.loc (c : Thread nD τ) ↦[src.view.set]{fullShare} fs) ∗ (dst.view.loc (n : Thread nD τ) ↦[dst.view.set]{fullShare} fd)
        ∗ owes (c : Thread nD τ) (O + tallyAt (dcell n qr) () N) W
        ∗ dutyTok ER (dcell c qs) 0 0 ∗ reached ER (dcell c qs) 0 ∗ dutyTok ER (dcell n qr) 0 0 ∗ reached ER (dcell n qr) 0)
      ⊢ iprop(((cred (tallyAt (dcell c qs) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) :=
  Rounds.wp_send_pointsTo 𝒱₀ ER (rd W1 W2) (c : Thread nD τ) none (κ₁ := κ₁) (κ₂ := κ₂) (r₁ := 0) (r₂ := 0) (d₁ := 0) (d₂ := 0) (fd := fd)
    hds hdr () () N hN (amount_dma W1 W2 c qs 0) (amount_dma W1 W2 n qr 0) O rfl (W := W)
    (by rw [hp1]; exact Entails.of_eq (holds_of_read c src fs V hfs))
    (by rw [hp2]; exact Entails.of_eq (holds_of_read n dst _ V (by rw [View.read_write_univ]; exact hfs)))

/-! ## What a device still owes -/

/-- The receive cell credited by the `s`-th of the 31 copies of `c`: the sixteen of the first phase go
    to the partner's receive cells, the fifteen of the second to the peers' cells of the pair of `c`. -/
def debtCellOf (c : Dev nD) (s : ℕ) : GSem nD τ sig :=
  if h : s < 16 then dcell (nbr c) (p1rS ⟨s, h⟩)
  else if h2 : s - 16 < 15 then dcell (peer c (off ⟨s - 16, h2⟩)) (p2rS (pairOf c))
  else barCell c

/-- What `c` owes once its first `s` copies are on their way: the credit of every later copy. -/
def debt (c : Dev nD) (s : ℕ) : CellTallies nD τ sig Unit := ∑ j ∈ Finset.range (31 - s), tallyAt (debtCellOf c (30 - j)) () N

theorem debt_end (c : Dev nD) : debt c 31 = 0 := by unfold debt; exact Finset.sum_empty
theorem debt_peel0 (c : Dev nD) : debt c 0 = debt c 1 + tallyAt (dcell (nbr c) (p1rS 0)) () N := by
  unfold debt; rw [show (31 - 0 : ℕ) = (30 - 0) + 1 from rfl, Finset.sum_range_succ]; rfl
theorem debt_peel1 (c : Dev nD) : debt c 1 = debt c 2 + tallyAt (dcell (nbr c) (p1rS 1)) () N := by
  unfold debt; rw [show (31 - 1 : ℕ) = (30 - 1) + 1 from rfl, Finset.sum_range_succ]; rfl
theorem debt_peel2 (c : Dev nD) : debt c 2 = debt c 3 + tallyAt (dcell (nbr c) (p1rS 2)) () N := by
  unfold debt; rw [show (31 - 2 : ℕ) = (30 - 2) + 1 from rfl, Finset.sum_range_succ]; rfl
theorem debt_peel3 (c : Dev nD) : debt c 3 = debt c 4 + tallyAt (dcell (nbr c) (p1rS 3)) () N := by
  unfold debt; rw [show (31 - 3 : ℕ) = (30 - 3) + 1 from rfl, Finset.sum_range_succ]; rfl
theorem debt_peel4 (c : Dev nD) : debt c 4 = debt c 5 + tallyAt (dcell (nbr c) (p1rS 4)) () N := by
  unfold debt; rw [show (31 - 4 : ℕ) = (30 - 4) + 1 from rfl, Finset.sum_range_succ]; rfl
theorem debt_peel5 (c : Dev nD) : debt c 5 = debt c 6 + tallyAt (dcell (nbr c) (p1rS 5)) () N := by
  unfold debt; rw [show (31 - 5 : ℕ) = (30 - 5) + 1 from rfl, Finset.sum_range_succ]; rfl
theorem debt_peel6 (c : Dev nD) : debt c 6 = debt c 7 + tallyAt (dcell (nbr c) (p1rS 6)) () N := by
  unfold debt; rw [show (31 - 6 : ℕ) = (30 - 6) + 1 from rfl, Finset.sum_range_succ]; rfl
theorem debt_peel7 (c : Dev nD) : debt c 7 = debt c 8 + tallyAt (dcell (nbr c) (p1rS 7)) () N := by
  unfold debt; rw [show (31 - 7 : ℕ) = (30 - 7) + 1 from rfl, Finset.sum_range_succ]; rfl
theorem debt_peel8 (c : Dev nD) : debt c 8 = debt c 9 + tallyAt (dcell (nbr c) (p1rS 8)) () N := by
  unfold debt; rw [show (31 - 8 : ℕ) = (30 - 8) + 1 from rfl, Finset.sum_range_succ]; rfl
theorem debt_peel9 (c : Dev nD) : debt c 9 = debt c 10 + tallyAt (dcell (nbr c) (p1rS 9)) () N := by
  unfold debt; rw [show (31 - 9 : ℕ) = (30 - 9) + 1 from rfl, Finset.sum_range_succ]; rfl
theorem debt_peel10 (c : Dev nD) : debt c 10 = debt c 11 + tallyAt (dcell (nbr c) (p1rS 10)) () N := by
  unfold debt; rw [show (31 - 10 : ℕ) = (30 - 10) + 1 from rfl, Finset.sum_range_succ]; rfl
theorem debt_peel11 (c : Dev nD) : debt c 11 = debt c 12 + tallyAt (dcell (nbr c) (p1rS 11)) () N := by
  unfold debt; rw [show (31 - 11 : ℕ) = (30 - 11) + 1 from rfl, Finset.sum_range_succ]; rfl
theorem debt_peel12 (c : Dev nD) : debt c 12 = debt c 13 + tallyAt (dcell (nbr c) (p1rS 12)) () N := by
  unfold debt; rw [show (31 - 12 : ℕ) = (30 - 12) + 1 from rfl, Finset.sum_range_succ]; rfl
theorem debt_peel13 (c : Dev nD) : debt c 13 = debt c 14 + tallyAt (dcell (nbr c) (p1rS 13)) () N := by
  unfold debt; rw [show (31 - 13 : ℕ) = (30 - 13) + 1 from rfl, Finset.sum_range_succ]; rfl
theorem debt_peel14 (c : Dev nD) : debt c 14 = debt c 15 + tallyAt (dcell (nbr c) (p1rS 14)) () N := by
  unfold debt; rw [show (31 - 14 : ℕ) = (30 - 14) + 1 from rfl, Finset.sum_range_succ]; rfl
theorem debt_peel15 (c : Dev nD) : debt c 15 = debt c 16 + tallyAt (dcell (nbr c) (p1rS 15)) () N := by
  unfold debt; rw [show (31 - 15 : ℕ) = (30 - 15) + 1 from rfl, Finset.sum_range_succ]; rfl
theorem debt_peel16 (c : Dev nD) : debt c 16 = debt c 17 + tallyAt (dcell (peer c (off 0)) (p2rS (pairOf c))) () N := by
  unfold debt; rw [show (31 - 16 : ℕ) = (30 - 16) + 1 from rfl, Finset.sum_range_succ]; rfl
theorem debt_peel17 (c : Dev nD) : debt c 17 = debt c 18 + tallyAt (dcell (peer c (off 1)) (p2rS (pairOf c))) () N := by
  unfold debt; rw [show (31 - 17 : ℕ) = (30 - 17) + 1 from rfl, Finset.sum_range_succ]; rfl
theorem debt_peel18 (c : Dev nD) : debt c 18 = debt c 19 + tallyAt (dcell (peer c (off 2)) (p2rS (pairOf c))) () N := by
  unfold debt; rw [show (31 - 18 : ℕ) = (30 - 18) + 1 from rfl, Finset.sum_range_succ]; rfl
theorem debt_peel19 (c : Dev nD) : debt c 19 = debt c 20 + tallyAt (dcell (peer c (off 3)) (p2rS (pairOf c))) () N := by
  unfold debt; rw [show (31 - 19 : ℕ) = (30 - 19) + 1 from rfl, Finset.sum_range_succ]; rfl
theorem debt_peel20 (c : Dev nD) : debt c 20 = debt c 21 + tallyAt (dcell (peer c (off 4)) (p2rS (pairOf c))) () N := by
  unfold debt; rw [show (31 - 20 : ℕ) = (30 - 20) + 1 from rfl, Finset.sum_range_succ]; rfl
theorem debt_peel21 (c : Dev nD) : debt c 21 = debt c 22 + tallyAt (dcell (peer c (off 5)) (p2rS (pairOf c))) () N := by
  unfold debt; rw [show (31 - 21 : ℕ) = (30 - 21) + 1 from rfl, Finset.sum_range_succ]; rfl
theorem debt_peel22 (c : Dev nD) : debt c 22 = debt c 23 + tallyAt (dcell (peer c (off 6)) (p2rS (pairOf c))) () N := by
  unfold debt; rw [show (31 - 22 : ℕ) = (30 - 22) + 1 from rfl, Finset.sum_range_succ]; rfl
theorem debt_peel23 (c : Dev nD) : debt c 23 = debt c 24 + tallyAt (dcell (peer c (off 7)) (p2rS (pairOf c))) () N := by
  unfold debt; rw [show (31 - 23 : ℕ) = (30 - 23) + 1 from rfl, Finset.sum_range_succ]; rfl
theorem debt_peel24 (c : Dev nD) : debt c 24 = debt c 25 + tallyAt (dcell (peer c (off 8)) (p2rS (pairOf c))) () N := by
  unfold debt; rw [show (31 - 24 : ℕ) = (30 - 24) + 1 from rfl, Finset.sum_range_succ]; rfl
theorem debt_peel25 (c : Dev nD) : debt c 25 = debt c 26 + tallyAt (dcell (peer c (off 9)) (p2rS (pairOf c))) () N := by
  unfold debt; rw [show (31 - 25 : ℕ) = (30 - 25) + 1 from rfl, Finset.sum_range_succ]; rfl
theorem debt_peel26 (c : Dev nD) : debt c 26 = debt c 27 + tallyAt (dcell (peer c (off 10)) (p2rS (pairOf c))) () N := by
  unfold debt; rw [show (31 - 26 : ℕ) = (30 - 26) + 1 from rfl, Finset.sum_range_succ]; rfl
theorem debt_peel27 (c : Dev nD) : debt c 27 = debt c 28 + tallyAt (dcell (peer c (off 11)) (p2rS (pairOf c))) () N := by
  unfold debt; rw [show (31 - 27 : ℕ) = (30 - 27) + 1 from rfl, Finset.sum_range_succ]; rfl
theorem debt_peel28 (c : Dev nD) : debt c 28 = debt c 29 + tallyAt (dcell (peer c (off 12)) (p2rS (pairOf c))) () N := by
  unfold debt; rw [show (31 - 28 : ℕ) = (30 - 28) + 1 from rfl, Finset.sum_range_succ]; rfl
theorem debt_peel29 (c : Dev nD) : debt c 29 = debt c 30 + tallyAt (dcell (peer c (off 13)) (p2rS (pairOf c))) () N := by
  unfold debt; rw [show (31 - 29 : ℕ) = (30 - 29) + 1 from rfl, Finset.sum_range_succ]; rfl
theorem debt_peel30 (c : Dev nD) : debt c 30 = debt c 31 + tallyAt (dcell (peer c (off 14)) (p2rS (pairOf c))) () N := by
  unfold debt; rw [show (31 - 30 : ℕ) = (30 - 30) + 1 from rfl, Finset.sum_range_succ]; rfl

attribute [irreducible] debt

end Cert.KernelIdeal.Proto

end
-- ==== Proof.Value.lean ====
/-
  The value of the fused product and reduce-scatter, as mathematics.

  Device `d` holds the column block `xb d` of `X` and the row block `wb d` of `W`.  For a row
  block `t` its partial product is `(rows [32t, 32t+32) of xb d) · wb d`.  Device `c` ends with the
  sum, over all 32 devices `d`, of `d`'s partial product for row block `c`, added up pair by pair
  in the order of the offsets.  At the ideal instance addition is commutative and associative, the
  32 devices are met exactly once each, and a contraction over 1024 splits into 32 contractions
  over 32: the sum is block `c` of `X · W`.
-/
import proofs.«900440_g7700000000000441_dist_gemm_rs_m1024_k1024_n1024_f32_none_v7x_i32_1_alg».proof.Proof.Topo
import proofs.«900440_g7700000000000441_dist_gemm_rs_m1024_k1024_n1024_f32_none_v7x_i32_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.KernelIdeal.Val

open Idealize.ShloMosaic Cert.KernelIdeal Cert.Mesh

section Defs

variable {F : FTy → Type} [FloatOps F]

/-- One device's product of a 32-row slab of its `x` block with its `w` block. -/
def part (xv : Vec F S32x32 .f32) (wv : Vec F S32x1024 .f32) : FVec F S32x1024 .f32 :=
  matmul dot_S32x32_S32x1024_S32x1024_1_0_0_1_n_n none (shapeCast S32x32 xv Gen.shapeCasts_S32x32_S32x32) (shapeCast S32x1024 wv Gen.shapeCasts_S32x1024_S32x1024) (constant S32x1024 .f32 0x00000000#32)

/-- A `[32,1024]` value seen as `[1,32,1024]`. -/
def up (v : FVec F S32x1024 .f32) : FVec F S1x32x1024 .f32 := shapeCast S1x32x1024 v Gen.shapeCasts_S32x1024_S1x32x1024

/-- A `[1,32,1024]` value seen as `[32,1024]`. -/
def down (v : Vec F S1x32x1024 .f32) : FVec F S32x1024 .f32 := shapeCast S32x1024 v Gen.shapeCasts_S1x32x1024_S32x1024

/-- The cast of a `[32,1024]` value to its own shape. -/
def same (v : Vec F S32x1024 .f32) : FVec F S32x1024 .f32 := shapeCast S32x1024 v Gen.shapeCasts_S32x1024_S32x1024

/-- Rows `[32t, 32t+32)` of a device's `x` block: `(i, j) ↦ x (32t + i, j)` (the row is taken
    modulo 1024 so that the definition is total; `t < 32` wherever it is used). -/
def xrows (x : Vec F S1024x32 .f32) (t : ℕ) : Vec F S32x32 .f32 :=
  fun i => x (ValueIdx.ix2 (⟨(32 * t + (i 0).val) % 1024, Nat.mod_lt _ (by decide)⟩ : Fin 1024) (i 1 : Fin 32))

/-- Device `d`'s partial product for row block `t`. -/
def pp (xs : ℕ → Vec F S1024x32 .f32) (ws : ℕ → Vec F S32x1024 .f32) (d t : ℕ) : FVec F S32x1024 .f32 :=
  part (xrows (xs d) t) (ws d)

/-- What device `s` sends for row block `t`: its own partial product plus its partner's. -/
def pair (xs : ℕ → Vec F S1024x32 .f32) (ws : ℕ → Vec F S32x1024 .f32) (s t : ℕ) : FVec F S32x1024 .f32 :=
  addf (pp xs ws s t) (down (up (pp xs ws (nbrN s) t)))

/-- The first value of device `c`'s result: its own partial product plus its partner's. -/
def out0 (xs : ℕ → Vec F S1024x32 .f32) (ws : ℕ → Vec F S32x1024 .f32) (c : ℕ) : FVec F S32x1024 .f32 :=
  addf (pp xs ws c c) (down (up (pp xs ws (nbrN c) c)))

/-- The `i`-th offset as a function of a natural number (`0` from 15 on). -/
def offN (i : ℕ) : ℕ := if h : i < 15 then offs ⟨i, h⟩ else 0

/-- The result after `i` of the fifteen pair sums have been added, in the order of the offsets. -/
def outN (xs : ℕ → Vec F S1024x32 .f32) (ws : ℕ → Vec F S32x1024 .f32) (c : ℕ) : ℕ → FVec F S32x1024 .f32
  | 0 => out0 xs ws c
  | i + 1 => addf (same (outN xs ws c i)) (down (up (pair xs ws (srcN c (offN i)) c)))

/-- Device `c`'s result. -/
def outOf (xs : ℕ → Vec F S1024x32 .f32) (ws : ℕ → Vec F S32x1024 .f32) (c : ℕ) : FVec F S32x1024 .f32 :=
  outN xs ws c 15

theorem outN_zero (xs : ℕ → Vec F S1024x32 .f32) (ws : ℕ → Vec F S32x1024 .f32) (c : ℕ) :
    outN xs ws c 0 = addf (pp xs ws c c) (down (up (pp xs ws (nbrN c) c))) := rfl

theorem outN_succ (xs : ℕ → Vec F S1024x32 .f32) (ws : ℕ → Vec F S32x1024 .f32) (c : ℕ) (i : Fin 15) :
    outN xs ws c (i.val + 1)
      = addf (same (outN xs ws c i.val)) (down (up (pair xs ws (srcN c (offs i)) c))) := by
  show addf (same (outN xs ws c i.val)) (down (up (pair xs ws (srcN c (offN i.val)) c))) = _
  rw [show offN i.val = offs i from dif_pos i.isLt]

end Defs

/-! ## The casts are identities -/

section Casts

variable {F : FTy → Type} [FloatOps F]

theorem down_up (v : FVec F S32x1024 .f32) : down (up v) = v :=
  shapeCast_shapeCast v _ _

theorem same_eq (v : Vec F S32x1024 .f32) : same v = v :=
  shapeCast_self v _

end Casts

/-! ## One partial product at an index -/

theorem lhs_part_0 (i : S32x1024.Idx) (q : dot_S32x32_S32x1024_S32x1024_1_0_0_1_n_n.contr.Idx) :
    (dot_S32x32_S32x1024_S32x1024_1_0_0_1_n_n.lhsIdx i q 0).val = (i 0).val := by
  unfold DotDims.lhsIdx
  rw [dif_neg (show ¬(0 : Fin S32x32.rank) ∈ dot_S32x32_S32x1024_S32x1024_1_0_0_1_n_n.lhsBatch by decide), dif_pos (show (0 : Fin S32x32.rank) ∈ dot_S32x32_S32x1024_S32x1024_1_0_0_1_n_n.lhsNonContracting by decide)]
  rfl

theorem rhs_part_1 (i : S32x1024.Idx) (q : dot_S32x32_S32x1024_S32x1024_1_0_0_1_n_n.contr.Idx) :
    (dot_S32x32_S32x1024_S32x1024_1_0_0_1_n_n.rhsIdx i q 1).val = (i 1).val := by
  unfold DotDims.rhsIdx
  rw [dif_neg (show ¬(1 : Fin S32x1024.rank) ∈ dot_S32x32_S32x1024_S32x1024_1_0_0_1_n_n.rhsBatch by decide), dif_pos (show (1 : Fin S32x1024.rank) ∈ dot_S32x32_S32x1024_S32x1024_1_0_0_1_n_n.rhsNonContracting by decide)]
  rfl

/-- The product of a `[32,32]` slab with a `[32,1024]` block, at `(p, q)`: the sum over the 32
    contraction positions. -/
theorem part_apply (xv : Vec Ideal S32x32 .f32) (wv : Vec Ideal S32x1024 .f32) (p : Fin 32) (q : Fin 1024) :
    part xv wv (ValueIdx.ix2 p q) = ∑ k : Fin 32, xv (ValueIdx.ix2 p k) * wv (ValueIdx.ix2 k q) := by
  unfold part
  rw [shapeCast_self, shapeCast_self]
  show FloatOps.matmul _ _ _ _ _ _ = _
  rw [Ideal.matmul_constant_zero_apply,
    ← Equiv.sum_comp (ValueIdx.contrEquiv1 dot_S32x32_S32x1024_S32x1024_1_0_0_1_n_n 32 rfl rfl).symm]
  refine Finset.sum_congr rfl fun k _ => ?_
  have hk := ValueIdx.contrEquiv1_symm_val dot_S32x32_S32x1024_S32x1024_1_0_0_1_n_n 32 rfl rfl k
  have el : dot_S32x32_S32x1024_S32x1024_1_0_0_1_n_n.lhsIdx (ValueIdx.ix2 p q) ((ValueIdx.contrEquiv1 dot_S32x32_S32x1024_S32x1024_1_0_0_1_n_n 32 rfl rfl).symm k) = ValueIdx.ix2 p k := funext fun a => Fin.ext (by
    match a with
    | ⟨0, _⟩ => exact lhs_part_0 _ _
    | ⟨1, _⟩ => exact (dot_S32x32_S32x1024_S32x1024_1_0_0_1_n_n.lhsIdx_val_of_single rfl _ _).trans hk)
  have er : dot_S32x32_S32x1024_S32x1024_1_0_0_1_n_n.rhsIdx (ValueIdx.ix2 p q) ((ValueIdx.contrEquiv1 dot_S32x32_S32x1024_S32x1024_1_0_0_1_n_n 32 rfl rfl).symm k) = ValueIdx.ix2 k q := funext fun a => Fin.ext (by
    match a with
    | ⟨0, _⟩ => exact (dot_S32x32_S32x1024_S32x1024_1_0_0_1_n_n.rhsIdx_val_of_single rfl _ _).trans hk
    | ⟨1, _⟩ => exact rhs_part_1 _ _)
  rw [el, er]

/-- Device `d`'s partial product for row block `t`, at `(p, q)`. -/
theorem pp_apply (xs : ℕ → Vec Ideal S1024x32 .f32) (ws : ℕ → Vec Ideal S32x1024 .f32) (d t : ℕ)
    (p : Fin 32) (q : Fin 1024) :
    pp xs ws d t (ValueIdx.ix2 p q)
      = ∑ k : Fin 32, xs d (ValueIdx.ix2 (⟨(32 * t + p.val) % 1024, Nat.mod_lt _ (by decide)⟩ : Fin 1024) k)
          * ws d (ValueIdx.ix2 k q) := by
  unfold pp
  rw [part_apply]
  rfl

/-! ## The result as a sum of partial products -/

/-- After `n` pair sums the result is the device's own pair plus the `n` pairs added so far. -/
theorem outN_apply (xs : ℕ → Vec Ideal S1024x32 .f32) (ws : ℕ → Vec Ideal S32x1024 .f32) (c n : ℕ)
    (j : S32x1024.Idx) :
    outN xs ws c n j
      = (pp xs ws c c j + pp xs ws (nbrN c) c j)
        + ∑ i ∈ Finset.range n,
            (pp xs ws (srcN c (offN i)) c j + pp xs ws (nbrN (srcN c (offN i))) c j) := by
  induction n with
  | zero =>
    show addf (pp xs ws c c) (down (up (pp xs ws (nbrN c) c))) j = _
    rw [down_up, Finset.sum_range_zero, add_zero]
    rfl
  | succ n ih =>
    show addf (same (outN xs ws c n)) (down (up (pair xs ws (srcN c (offN n)) c))) j = _
    rw [same_eq, down_up, Finset.sum_range_succ, ← add_assoc, ← ih]
    unfold pair
    rw [down_up]
    rfl

/-! ## The devices met are all 32, once each -/

/-- The sixteen senders met, in order: the device itself, then the source of each offset. -/
def srcs (c : ℕ) (i : Fin 16) : ℕ := if i.val = 0 then c else srcN c (offN (i.val - 1))

/-- The 32 devices met: each sender and its partner. -/
def dev (c : ℕ) (x : Fin 16 × Fin 2) : ℕ := if x.2.val = 0 then srcs c x.1 else nbrN (srcs c x.1)

theorem dev_lt : ∀ c : Fin 32, ∀ x : Fin 16 × Fin 2, dev c.val x < 32 := by decide +kernel

theorem dev_bij : ∀ c : Fin 32,
    Function.Bijective (fun x : Fin 16 × Fin 2 => (⟨dev c.val x, dev_lt c x⟩ : Fin 32)) := by decide +kernel

/-- The device's own pair plus the fifteen pairs of the offsets is the sum over all 32 devices. -/
theorem sum_devices {M : Type*} [AddCommMonoid M] (g : ℕ → M) (c : Fin 32) :
    (g c.val + g (nbrN c.val))
        + ∑ i ∈ Finset.range 15, (g (srcN c.val (offN i)) + g (nbrN (srcN c.val (offN i))))
      = ∑ d : Fin 32, g d.val := by
  rw [← (dev_bij c).sum_comp (fun d : Fin 32 => g d.val), Fintype.sum_prod_type, Fin.sum_univ_succ,
    Finset.sum_range]
  simp only [Fin.sum_univ_two]
  congr 1

/-- A sum over 1024 positions is the sum over 32 blocks of 32. -/
theorem sum_split {M : Type*} [AddCommMonoid M] (f : Fin 1024 → M) :
    ∑ k : Fin 1024, f k
      = ∑ d : Fin 32, ∑ kk : Fin 32, f ⟨kk.val + 32 * d.val, by have := kk.isLt; have := d.isLt; omega⟩ := by
  rw [← Equiv.sum_comp (finProdFinEquiv : Fin 32 × Fin 32 ≃ Fin (32 * 32)) (show Fin (32 * 32) → M from f),
    Fintype.sum_prod_type]
  rfl

/-! ## Where the blocks' indices land -/

/-- Row `32c + p`, column `kk` of device `d`'s column block of `X` is the left factor of the
    reference's product at row `32c + p`, contraction position `32d + kk`. -/
theorem x_idx (hX : Layout.Tiles ⟨2, ![1024, 32]⟩ ⟨2, ![1024, 1024]⟩ 1 32)
    (hO : Layout.Tiles ⟨2, ![32, 1024]⟩ ⟨2, ![1024, 1024]⟩ 0 32) (c d : Fin 32) (p kk : Fin 32) (q : Fin 1024)
    (h1 : (32 * c.val + p.val) % 1024 < 1024) (h2 : kk.val + 32 * d.val < 1024) :
    hX.idx d (ValueIdx.ix2 (⟨(32 * c.val + p.val) % 1024, h1⟩ : Fin 1024) kk)
      = Cert.ReferenceIdeal.Read.lidx_main_v0 (hO.idx c (ValueIdx.ix2 p q)) ⟨kk.val + 32 * d.val, h2⟩ := by
  have hc := c.isLt
  have hp := p.isLt
  funext a
  apply Fin.ext
  match a with
  | ⟨0, _⟩ =>
    refine (Layout.idx_cols_val hX d _).1.trans ?_
    refine Eq.trans ?_ (Layout.idx_rows_val hO c (ValueIdx.ix2 p q)).1.symm
    show (32 * c.val + p.val) % 1024 = c.val * 32 + p.val
    omega
  | ⟨1, _⟩ =>
    refine (Layout.idx_cols_val hX d _).2.trans ?_
    show d.val * 32 + kk.val = kk.val + 32 * d.val
    omega

/-- Row `kk`, column `q` of device `d`'s row block of `W` is the right factor of the reference's
    product at column `q`, contraction position `32d + kk`. -/
theorem w_idx (hW : Layout.Tiles ⟨2, ![32, 1024]⟩ ⟨2, ![1024, 1024]⟩ 0 32) (c d : Fin 32) (p kk : Fin 32)
    (q : Fin 1024) (h2 : kk.val + 32 * d.val < 1024) :
    hW.idx d (ValueIdx.ix2 kk q)
      = Cert.ReferenceIdeal.Read.ridx_main_v0 (hW.idx c (ValueIdx.ix2 p q)) ⟨kk.val + 32 * d.val, h2⟩ := by
  funext a
  apply Fin.ext
  match a with
  | ⟨0, _⟩ =>
    refine (Layout.idx_rows_val hW d _).1.trans ?_
    show d.val * 32 + kk.val = kk.val + 32 * d.val
    omega
  | ⟨1, _⟩ =>
    refine (Layout.idx_rows_val hW d _).2.trans ?_
    exact (Layout.idx_rows_val hW c (ValueIdx.ix2 p q)).2.symm

/-! ## The result is the device's block of the product -/

/-- Device `c`'s result is row block `c` of `X · W`, for any families `xs`, `ws` that are, on the 32
    devices, the column blocks of `X` and the row blocks of `W`. -/
theorem out_eq_block_of (X W : (⟨Cert.ReferenceIdeal.S1024x1024, .f32⟩ : BufTy).Contents (Elt Ideal)) (c : Fin 32)
    (hX : Layout.Tiles ⟨2, ![1024, 32]⟩ ⟨2, ![1024, 1024]⟩ 1 32)
    (hW : Layout.Tiles ⟨2, ![32, 1024]⟩ ⟨2, ![1024, 1024]⟩ 0 32)
    (xs : ℕ → Vec Ideal S1024x32 .f32) (ws : ℕ → Vec Ideal S32x1024 .f32)
    (hxs : ∀ d : Fin 32, xs d.val = Layout.block ⟨2, ![1024, 32]⟩ ⟨2, ![1024, 1024]⟩ 1 32 d X hX)
    (hws : ∀ d : Fin 32, ws d.val = Layout.block ⟨2, ![32, 1024]⟩ ⟨2, ![1024, 1024]⟩ 0 32 d W hW) :
    outOf xs ws c.val
      = Layout.block ⟨2, ![32, 1024]⟩ ⟨2, ![1024, 1024]⟩ 0 32 c (Cert.ReferenceIdeal.Read.val_main_v0 (F := Ideal) X W) hW := by
  funext j
  obtain ⟨p, q, rfl⟩ : ∃ (p : Fin 32) (q : Fin 1024), j = ValueIdx.ix2 p q := ⟨j 0, j 1, ValueIdx.eq_ix2 j⟩
  unfold outOf
  rw [outN_apply]
  refine (sum_devices (fun d => pp xs ws d c.val (ValueIdx.ix2 p q)) c).trans ?_
  rw [Layout.block_apply, Cert.ReferenceIdeal.Read.val_main_v0_apply, sum_split]
  refine Finset.sum_congr rfl fun d _ => ?_
  rw [pp_apply]
  refine Finset.sum_congr rfl fun kk _ => ?_
  rw [hxs d, hws d, Layout.block_apply, Layout.block_apply]
  exact congrArg₂ (· * ·) (congrArg X (x_idx hX hW c d p kk q _ _)) (congrArg W (w_idx hW c d p kk q _))

/-- Device `c`'s result, computed from the devices' column blocks of `X` and row blocks of `W`, is
    row block `c` of `X · W`. -/
theorem out_eq_block (X W : (⟨Cert.ReferenceIdeal.S1024x1024, .f32⟩ : BufTy).Contents (Elt Ideal)) (c : Dev nD) :
    outOf (fun d => if h : d < 32 then Layout.block ⟨2, ![1024, 32]⟩ ⟨2, ![1024, 1024]⟩ 1 32 ⟨d, h⟩ X else fun _ => 0)
          (fun d => if h : d < 32 then Layout.block ⟨2, ![32, 1024]⟩ ⟨2, ![1024, 1024]⟩ 0 32 ⟨d, h⟩ W else fun _ => 0) c.val
      = Layout.block ⟨2, ![32, 1024]⟩ ⟨2, ![1024, 1024]⟩ 0 32 c (Cert.ReferenceIdeal.Read.val_main_v0 (F := Ideal) X W) :=
  out_eq_block_of X W c (by decide) (by decide) _ _ (fun d => dif_pos d.isLt) (fun d => dif_pos d.isLt)

/-! ## The slab is what the body's load reads -/

section Load

variable {F : FTy → Type} [FloatOps F]

/-- A load of the unit-stride `[32,32]` rectangle at rows `32t` of a `[1024,32]` view reads rows
    `[32t, 32t+32)` of what the view reads. -/
theorem xrows_eq_readAt {sig : RefSig} {κ : Kind} {sp : Space} (v : View sig κ sp S1024x32 .f32)
    (f : v.ty.Contents (Elt F)) (t : ℕ) (ht : t < 32)
    (h : ∀ a, (![32 * t, 0] : Fin 2 → ℕ) a + S32x32.size a ≤ S1024x32.size a) :
    v.readAt (Elt F) (Rect.unit (s := S1024x32) ![32 * t, 0] S32x32.size h).toLoadRect f
      = xrows (v.read (Elt F) f) t := by
  funext x
  show v.read (Elt F) f _ = v.read (Elt F) f _
  congr 1
  funext a
  apply Fin.ext
  match a with
  | ⟨0, _⟩ =>
    have hx : (x 0).val < 32 := (x 0).isLt
    show 32 * t + 1 * (x 0).val = (32 * t + (x 0).val) % 1024
    omega
  | ⟨1, _⟩ =>
    show 0 + 1 * (x 1).val = (x 1).val
    omega

/-- The same through the whole staging buffer of `x`, which reads as its contents. -/
theorem xrows_eq_readAt_stg (f : (⟨S1024x32, .f32⟩ : BufTy).Contents (Elt F)) (t : ℕ) (ht : t < 32)
    (h : ∀ a, (![32 * t, 0] : Fin 2 → ℕ) a + S32x32.size a ≤ S1024x32.size a) :
    (Memref.whole cc0_stg0_0 : Memref sig .tc .vmem S1024x32 .f32).view.readAt (Elt F)
        (Rect.unit (s := S1024x32) ![32 * t, 0] S32x32.size h).toLoadRect f
      = xrows f t :=
  xrows_eq_readAt (F := F) (Memref.whole cc0_stg0_0 : Memref sig .tc .vmem S1024x32 .f32).view f t ht h

end Load

end Cert.KernelIdeal.Val

end
-- ==== Proof.Spec.lean ====
/-
  The values the protocol moves.  Device `s` holds the columns `[32 s, 32 s + 32)` of `x` and the rows
  `[32 s, 32 s + 32)` of `w` in its two staging buffers.  `W1 s t` is the product of rows `[32 t, 32 t + 32)`
  of its `x` block with its `w` block — what it stages in the first phase for device `t`; `W2 s t` is
  that product plus its partner's — what it sends `t` in the second phase; `outAt c` is the sum device
  `c` ends with.
-/
import proofs.«900440_g7700000000000441_dist_gemm_rs_m1024_k1024_n1024_f32_none_v7x_i32_1_alg».proof.Proof.Rules
import proofs.«900440_g7700000000000441_dist_gemm_rs_m1024_k1024_n1024_f32_none_v7x_i32_1_alg».proof.Proof.Value

noncomputable section

namespace Cert.KernelIdeal.Proto

open Cert.KernelIdeal Cert.KernelIdeal.Gen Cert.Mesh Cert.KernelIdeal.Val
open Idealize.ShloMosaic Idealize.ShloMosaic.TcCoe
open Idealize.SL Idealize.SL.Sem

variable {F : FTy → Type} [FloatOps F]
variable (m : (ℓ : Loc nD τ sig) → Buf (Elt F) ℓ)

/-- What the `x` and `w` staging buffers of device `c` hold during the body: its argument arrays. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The two families by device number. -/
def xsOf : ℕ → Vec F S1024x32 .f32 := fun d => xstg m ⟨d % 32, Nat.mod_lt _ (by decide)⟩
def wsOf : ℕ → Vec F S32x1024 .f32 := fun d => wstg m ⟨d % 32, Nat.mod_lt _ (by decide)⟩

def W1 (s t : Dev nD) : Vec F S1x32x1024 .f32 := up (pp (xsOf m) (wsOf m) s.val t.val)
def W2 (s t : Dev nD) : Vec F S1x32x1024 .f32 := up (pair (xsOf m) (wsOf m) s.val t.val)
def outAt (c : Dev nD) : (cc0_stg2_0 : Ref sig .tc).ty.Contents (Elt F) := outOf (xsOf m) (wsOf m) c.val

end Cert.KernelIdeal.Proto

end
-- ==== Proof.BodyStmt.lean ====
/-
  What one device's body starts from and what it leaves: the statement of the body's run.

  The start is cut in groups by the stretch of the body that uses them: the entry handshake; each of
  the sixteen staged products of the first phase; each of the fifteen sums of the second phase; the last
  first-phase receive; each of the fifteen second-phase receives; and what is held throughout.
-/
import proofs.«900440_g7700000000000441_dist_gemm_rs_m1024_k1024_n1024_f32_none_v7x_i32_1_alg».proof.Proof.Spec
import proofs.«900440_g7700000000000441_dist_gemm_rs_m1024_k1024_n1024_f32_none_v7x_i32_1_alg».proof.Proof.Gen.KernelIdeal.Points

noncomputable section

namespace Cert.KernelIdeal.Proto

open Cert.KernelIdeal Cert.KernelIdeal.Gen Cert.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section
variable (m : (ℓ : Loc nD τ sig) → Buf (Elt F) ℓ) (κ : GSem nD τ sig → ℕ) (c : Dev nD) (W : Waits sig Unit)
variable (fx : Buf (Elt F) ((Memref.whole cc0_stg0_0 : Memref sig .tc .vmem S1024x32 .f32).view.loc (c : Thread nD τ))) (fw : Buf (Elt F) ((Memref.whole cc0_stg1_0 : Memref sig .tc .vmem S32x1024 .f32).view.loc (c : Thread nD τ))) (fo : Buf (Elt F) ((Memref.whole cc0_stg2_0 : Memref sig .tc .vmem S32x1024 .f32).view.loc (c : Thread nD τ)))
variable (f0 : Buf (Elt F) (stageM.view.loc (c : Thread nD τ))) (f1 : Buf (Elt F) (inboxM.view.loc (c : Thread nD τ))) (f2 : Buf (Elt F) (outboxM.view.loc (c : Thread nD τ))) (f3 : Buf (Elt F) (gatherM.view.loc (c : Thread nD τ)))

/-- The entry handshake: the barrier cells, the slots handed over with the signals, the wait. -/
def gBar : sProp 𝕄 :=
  iprop(cellInv ER (rd (W1 m) (W2 m)) (κ (barCell c)) (barCell c)
    ∗ cellInv ER (rd (W1 m) (W2 m)) (κ (barCell (nbr c))) (barCell (nbr c))
    ∗ cellInv ER (rd (W1 m) (W2 m)) (κ (barCell (peer c (off 0)))) (barCell (peer c (off 0)))
    ∗ cellInv ER (rd (W1 m) (W2 m)) (κ (barCell (peer c (off 1)))) (barCell (peer c (off 1)))
    ∗ cellInv ER (rd (W1 m) (W2 m)) (κ (barCell (peer c (off 2)))) (barCell (peer c (off 2)))
    ∗ cellInv ER (rd (W1 m) (W2 m)) (κ (barCell (peer c (off 3)))) (barCell (peer c (off 3)))
    ∗ cellInv ER (rd (W1 m) (W2 m)) (κ (barCell (peer c (off 4)))) (barCell (peer c (off 4)))
    ∗ cellInv ER (rd (W1 m) (W2 m)) (κ (barCell (peer c (off 5)))) (barCell (peer c (off 5)))
    ∗ cellInv ER (rd (W1 m) (W2 m)) (κ (barCell (peer c (off 6)))) (barCell (peer c (off 6)))
    ∗ cellInv ER (rd (W1 m) (W2 m)) (κ (barCell (peer c (off 7)))) (barCell (peer c (off 7)))
    ∗ cellInv ER (rd (W1 m) (W2 m)) (κ (barCell (peer c (off 8)))) (barCell (peer c (off 8)))
    ∗ cellInv ER (rd (W1 m) (W2 m)) (κ (barCell (peer c (off 9)))) (barCell (peer c (off 9)))
    ∗ cellInv ER (rd (W1 m) (W2 m)) (κ (barCell (peer c (off 10)))) (barCell (peer c (off 10)))
    ∗ cellInv ER (rd (W1 m) (W2 m)) (κ (barCell (peer c (off 11)))) (barCell (peer c (off 11)))
    ∗ cellInv ER (rd (W1 m) (W2 m)) (κ (barCell (peer c (off 12)))) (barCell (peer c (off 12)))
    ∗ cellInv ER (rd (W1 m) (W2 m)) (κ (barCell (peer c (off 13)))) (barCell (peer c (off 13)))
    ∗ cellInv ER (rd (W1 m) (W2 m)) (κ (barCell (peer c (off 14)))) (barCell (peer c (off 14)))
    ∗ reached ER (barCell (nbr c)) 0
    ∗ reached ER (barCell (peer c (off 0))) 0
    ∗ reached ER (barCell (peer c (off 1))) 0
    ∗ reached ER (barCell (peer c (off 2))) 0
    ∗ reached ER (barCell (peer c (off 3))) 0
    ∗ reached ER (barCell (peer c (off 4))) 0
    ∗ reached ER (barCell (peer c (off 5))) 0
    ∗ reached ER (barCell (peer c (off 6))) 0
    ∗ reached ER (barCell (peer c (off 7))) 0
    ∗ reached ER (barCell (peer c (off 8))) 0
    ∗ reached ER (barCell (peer c (off 9))) 0
    ∗ reached ER (barCell (peer c (off 10))) 0
    ∗ reached ER (barCell (peer c (off 11))) 0
    ∗ reached ER (barCell (peer c (off 12))) 0
    ∗ reached ER (barCell (peer c (off 13))) 0
    ∗ reached ER (barCell (peer c (off 14))) 0
    ∗ reached ER (dcell c (p1rS 0)) 0
    ∗ reached ER (dcell c (p1rS 1)) 0
    ∗ reached ER (dcell c (p1rS 2)) 0
    ∗ reached ER (dcell c (p1rS 3)) 0
    ∗ reached ER (dcell c (p1rS 4)) 0
    ∗ reached ER (dcell c (p1rS 5)) 0
    ∗ reached ER (dcell c (p1rS 6)) 0
    ∗ reached ER (dcell c (p1rS 7)) 0
    ∗ reached ER (dcell c (p1rS 8)) 0
    ∗ reached ER (dcell c (p1rS 9)) 0
    ∗ reached ER (dcell c (p1rS 10)) 0
    ∗ reached ER (dcell c (p1rS 11)) 0
    ∗ reached ER (dcell c (p1rS 12)) 0
    ∗ reached ER (dcell c (p1rS 13)) 0
    ∗ reached ER (dcell c (p1rS 14)) 0
    ∗ reached ER (dcell c (p1rS 15)) 0
    ∗ reached ER (dcell c (p2rS (pairOf (peer c (off 0))))) 0
    ∗ reached ER (dcell c (p2rS (pairOf (peer c (off 1))))) 0
    ∗ reached ER (dcell c (p2rS (pairOf (peer c (off 2))))) 0
    ∗ reached ER (dcell c (p2rS (pairOf (peer c (off 3))))) 0
    ∗ reached ER (dcell c (p2rS (pairOf (peer c (off 4))))) 0
    ∗ reached ER (dcell c (p2rS (pairOf (peer c (off 5))))) 0
    ∗ reached ER (dcell c (p2rS (pairOf (peer c (off 6))))) 0
    ∗ reached ER (dcell c (p2rS (pairOf (peer c (off 7))))) 0
    ∗ reached ER (dcell c (p2rS (pairOf (peer c (off 8))))) 0
    ∗ reached ER (dcell c (p2rS (pairOf (peer c (off 9))))) 0
    ∗ reached ER (dcell c (p2rS (pairOf (peer c (off 10))))) 0
    ∗ reached ER (dcell c (p2rS (pairOf (peer c (off 11))))) 0
    ∗ reached ER (dcell c (p2rS (pairOf (peer c (off 12))))) 0
    ∗ reached ER (dcell c (p2rS (pairOf (peer c (off 13))))) 0
    ∗ reached ER (dcell c (p2rS (pairOf (peer c (off 14))))) 0
    ∗ dutyTok ER (barCell (nbr c)) 0 0
    ∗ dutyTok ER (barCell (peer c (off 0))) 0 (1 : DN)
    ∗ dutyTok ER (barCell (peer c (off 1))) 0 (2 : DN)
    ∗ dutyTok ER (barCell (peer c (off 2))) 0 (3 : DN)
    ∗ dutyTok ER (barCell (peer c (off 3))) 0 (4 : DN)
    ∗ dutyTok ER (barCell (peer c (off 4))) 0 (5 : DN)
    ∗ dutyTok ER (barCell (peer c (off 5))) 0 (6 : DN)
    ∗ dutyTok ER (barCell (peer c (off 6))) 0 (7 : DN)
    ∗ dutyTok ER (barCell (peer c (off 7))) 0 (8 : DN)
    ∗ dutyTok ER (barCell (peer c (off 8))) 0 (9 : DN)
    ∗ dutyTok ER (barCell (peer c (off 9))) 0 (10 : DN)
    ∗ dutyTok ER (barCell (peer c (off 10))) 0 (11 : DN)
    ∗ dutyTok ER (barCell (peer c (off 11))) 0 (12 : DN)
    ∗ dutyTok ER (barCell (peer c (off 12))) 0 (13 : DN)
    ∗ dutyTok ER (barCell (peer c (off 13))) 0 (14 : DN)
    ∗ dutyTok ER (barCell (peer c (off 14))) 0 (15 : DN)
    ∗ ((slot16 inboxM 0 (of_decide_eq_true rfl)).view.loc (c : Thread nD τ) ↦[(slot16 inboxM 0 (of_decide_eq_true rfl)).view.set]{fullShare} f1)
    ∗ ((slot16 inboxM 1 (of_decide_eq_true rfl)).view.loc (c : Thread nD τ) ↦[(slot16 inboxM 1 (of_decide_eq_true rfl)).view.set]{fullShare} f1)
    ∗ ((slot16 inboxM 2 (of_decide_eq_true rfl)).view.loc (c : Thread nD τ) ↦[(slot16 inboxM 2 (of_decide_eq_true rfl)).view.set]{fullShare} f1)
    ∗ ((slot16 inboxM 3 (of_decide_eq_true rfl)).view.loc (c : Thread nD τ) ↦[(slot16 inboxM 3 (of_decide_eq_true rfl)).view.set]{fullShare} f1)
    ∗ ((slot16 inboxM 4 (of_decide_eq_true rfl)).view.loc (c : Thread nD τ) ↦[(slot16 inboxM 4 (of_decide_eq_true rfl)).view.set]{fullShare} f1)
    ∗ ((slot16 inboxM 5 (of_decide_eq_true rfl)).view.loc (c : Thread nD τ) ↦[(slot16 inboxM 5 (of_decide_eq_true rfl)).view.set]{fullShare} f1)
    ∗ ((slot16 inboxM 6 (of_decide_eq_true rfl)).view.loc (c : Thread nD τ) ↦[(slot16 inboxM 6 (of_decide_eq_true rfl)).view.set]{fullShare} f1)
    ∗ ((slot16 inboxM 7 (of_decide_eq_true rfl)).view.loc (c : Thread nD τ) ↦[(slot16 inboxM 7 (of_decide_eq_true rfl)).view.set]{fullShare} f1)
    ∗ ((slot16 inboxM 8 (of_decide_eq_true rfl)).view.loc (c : Thread nD τ) ↦[(slot16 inboxM 8 (of_decide_eq_true rfl)).view.set]{fullShare} f1)
    ∗ ((slot16 inboxM 9 (of_decide_eq_true rfl)).view.loc (c : Thread nD τ) ↦[(slot16 inboxM 9 (of_decide_eq_true rfl)).view.set]{fullShare} f1)
    ∗ ((slot16 inboxM 10 (of_decide_eq_true rfl)).view.loc (c : Thread nD τ) ↦[(slot16 inboxM 10 (of_decide_eq_true rfl)).view.set]{fullShare} f1)
    ∗ ((slot16 inboxM 11 (of_decide_eq_true rfl)).view.loc (c : Thread nD τ) ↦[(slot16 inboxM 11 (of_decide_eq_true rfl)).view.set]{fullShare} f1)
    ∗ ((slot16 inboxM 12 (of_decide_eq_true rfl)).view.loc (c : Thread nD τ) ↦[(slot16 inboxM 12 (of_decide_eq_true rfl)).view.set]{fullShare} f1)
    ∗ ((slot16 inboxM 13 (of_decide_eq_true rfl)).view.loc (c : Thread nD τ) ↦[(slot16 inboxM 13 (of_decide_eq_true rfl)).view.set]{fullShare} f1)
    ∗ ((slot16 inboxM 14 (of_decide_eq_true rfl)).view.loc (c : Thread nD τ) ↦[(slot16 inboxM 14 (of_decide_eq_true rfl)).view.set]{fullShare} f1)
    ∗ ((slot16 inboxM 15 (of_decide_eq_true rfl)).view.loc (c : Thread nD τ) ↦[(slot16 inboxM 15 (of_decide_eq_true rfl)).view.set]{fullShare} f1)
    ∗ ((slot16 gatherM (rr (peer c (off 0)).val) (rr_lt (peer c (off 0)))).view.loc (c : Thread nD τ) ↦[(slot16 gatherM (rr (peer c (off 0)).val) (rr_lt (peer c (off 0)))).view.set]{fullShare} f3)
    ∗ ((slot16 gatherM (rr (peer c (off 1)).val) (rr_lt (peer c (off 1)))).view.loc (c : Thread nD τ) ↦[(slot16 gatherM (rr (peer c (off 1)).val) (rr_lt (peer c (off 1)))).view.set]{fullShare} f3)
    ∗ ((slot16 gatherM (rr (peer c (off 2)).val) (rr_lt (peer c (off 2)))).view.loc (c : Thread nD τ) ↦[(slot16 gatherM (rr (peer c (off 2)).val) (rr_lt (peer c (off 2)))).view.set]{fullShare} f3)
    ∗ ((slot16 gatherM (rr (peer c (off 3)).val) (rr_lt (peer c (off 3)))).view.loc (c : Thread nD τ) ↦[(slot16 gatherM (rr (peer c (off 3)).val) (rr_lt (peer c (off 3)))).view.set]{fullShare} f3)
    ∗ ((slot16 gatherM (rr (peer c (off 4)).val) (rr_lt (peer c (off 4)))).view.loc (c : Thread nD τ) ↦[(slot16 gatherM (rr (peer c (off 4)).val) (rr_lt (peer c (off 4)))).view.set]{fullShare} f3)
    ∗ ((slot16 gatherM (rr (peer c (off 5)).val) (rr_lt (peer c (off 5)))).view.loc (c : Thread nD τ) ↦[(slot16 gatherM (rr (peer c (off 5)).val) (rr_lt (peer c (off 5)))).view.set]{fullShare} f3)
    ∗ ((slot16 gatherM (rr (peer c (off 6)).val) (rr_lt (peer c (off 6)))).view.loc (c : Thread nD τ) ↦[(slot16 gatherM (rr (peer c (off 6)).val) (rr_lt (peer c (off 6)))).view.set]{fullShare} f3)
    ∗ ((slot16 gatherM (rr (peer c (off 7)).val) (rr_lt (peer c (off 7)))).view.loc (c : Thread nD τ) ↦[(slot16 gatherM (rr (peer c (off 7)).val) (rr_lt (peer c (off 7)))).view.set]{fullShare} f3)
    ∗ ((slot16 gatherM (rr (peer c (off 8)).val) (rr_lt (peer c (off 8)))).view.loc (c : Thread nD τ) ↦[(slot16 gatherM (rr (peer c (off 8)).val) (rr_lt (peer c (off 8)))).view.set]{fullShare} f3)
    ∗ ((slot16 gatherM (rr (peer c (off 9)).val) (rr_lt (peer c (off 9)))).view.loc (c : Thread nD τ) ↦[(slot16 gatherM (rr (peer c (off 9)).val) (rr_lt (peer c (off 9)))).view.set]{fullShare} f3)
    ∗ ((slot16 gatherM (rr (peer c (off 10)).val) (rr_lt (peer c (off 10)))).view.loc (c : Thread nD τ) ↦[(slot16 gatherM (rr (peer c (off 10)).val) (rr_lt (peer c (off 10)))).view.set]{fullShare} f3)
    ∗ ((slot16 gatherM (rr (peer c (off 11)).val) (rr_lt (peer c (off 11)))).view.loc (c : Thread nD τ) ↦[(slot16 gatherM (rr (peer c (off 11)).val) (rr_lt (peer c (off 11)))).view.set]{fullShare} f3)
    ∗ ((slot16 gatherM (rr (peer c (off 12)).val) (rr_lt (peer c (off 12)))).view.loc (c : Thread nD τ) ↦[(slot16 gatherM (rr (peer c (off 12)).val) (rr_lt (peer c (off 12)))).view.set]{fullShare} f3)
    ∗ ((slot16 gatherM (rr (peer c (off 13)).val) (rr_lt (peer c (off 13)))).view.loc (c : Thread nD τ) ↦[(slot16 gatherM (rr (peer c (off 13)).val) (rr_lt (peer c (off 13)))).view.set]{fullShare} f3)
    ∗ ((slot16 gatherM (rr (peer c (off 14)).val) (rr_lt (peer c (off 14)))).view.loc (c : Thread nD τ) ↦[(slot16 gatherM (rr (peer c (off 14)).val) (rr_lt (peer c (off 14)))).view.set]{fullShare} f3)
    ∗ atPos ER (barCell c) 0 ∅ 0
    ∗ cred (tallyAt (barCell c) () 16)
    ∗ MayWait (c : Thread nD τ) (.reg barS) () (debt c 0))

/-- Staged product 0 of the first phase and its copy to the partner. -/
def gP1_0 : sProp 𝕄 :=
  iprop(cellInv ER (rd (W1 m) (W2 m)) (κ (dcell c (p1sS 0))) (dcell c (p1sS 0))
    ∗ cellInv ER (rd (W1 m) (W2 m)) (κ (dcell (nbr c) (p1rS 0))) (dcell (nbr c) (p1rS 0))
    ∗ reached ER (dcell c (p1sS 0)) 0
    ∗ dutyTok ER (dcell c (p1sS 0)) 0 0
    ∗ dutyTok ER (dcell (nbr c) (p1rS 0)) 0 0
    ∗ atPos ER (dcell c (p1sS 0)) 0 ∅ 0
    ∗ ((slot16 stageM 0 (of_decide_eq_true rfl)).view.loc (c : Thread nD τ) ↦[(slot16 stageM 0 (of_decide_eq_true rfl)).view.set]{fullShare} f0))

/-- Staged product 1 of the first phase and its copy to the partner. -/
def gP1_1 : sProp 𝕄 :=
  iprop(cellInv ER (rd (W1 m) (W2 m)) (κ (dcell c (p1sS 1))) (dcell c (p1sS 1))
    ∗ cellInv ER (rd (W1 m) (W2 m)) (κ (dcell (nbr c) (p1rS 1))) (dcell (nbr c) (p1rS 1))
    ∗ reached ER (dcell c (p1sS 1)) 0
    ∗ dutyTok ER (dcell c (p1sS 1)) 0 0
    ∗ dutyTok ER (dcell (nbr c) (p1rS 1)) 0 0
    ∗ atPos ER (dcell c (p1sS 1)) 0 ∅ 0
    ∗ ((slot16 stageM 1 (of_decide_eq_true rfl)).view.loc (c : Thread nD τ) ↦[(slot16 stageM 1 (of_decide_eq_true rfl)).view.set]{fullShare} f0))

/-- Staged product 2 of the first phase and its copy to the partner. -/
def gP1_2 : sProp 𝕄 :=
  iprop(cellInv ER (rd (W1 m) (W2 m)) (κ (dcell c (p1sS 2))) (dcell c (p1sS 2))
    ∗ cellInv ER (rd (W1 m) (W2 m)) (κ (dcell (nbr c) (p1rS 2))) (dcell (nbr c) (p1rS 2))
    ∗ reached ER (dcell c (p1sS 2)) 0
    ∗ dutyTok ER (dcell c (p1sS 2)) 0 0
    ∗ dutyTok ER (dcell (nbr c) (p1rS 2)) 0 0
    ∗ atPos ER (dcell c (p1sS 2)) 0 ∅ 0
    ∗ ((slot16 stageM 2 (of_decide_eq_true rfl)).view.loc (c : Thread nD τ) ↦[(slot16 stageM 2 (of_decide_eq_true rfl)).view.set]{fullShare} f0))

/-- Staged product 3 of the first phase and its copy to the partner. -/
def gP1_3 : sProp 𝕄 :=
  iprop(cellInv ER (rd (W1 m) (W2 m)) (κ (dcell c (p1sS 3))) (dcell c (p1sS 3))
    ∗ cellInv ER (rd (W1 m) (W2 m)) (κ (dcell (nbr c) (p1rS 3))) (dcell (nbr c) (p1rS 3))
    ∗ reached ER (dcell c (p1sS 3)) 0
    ∗ dutyTok ER (dcell c (p1sS 3)) 0 0
    ∗ dutyTok ER (dcell (nbr c) (p1rS 3)) 0 0
    ∗ atPos ER (dcell c (p1sS 3)) 0 ∅ 0
    ∗ ((slot16 stageM 3 (of_decide_eq_true rfl)).view.loc (c : Thread nD τ) ↦[(slot16 stageM 3 (of_decide_eq_true rfl)).view.set]{fullShare} f0))

/-- Staged product 4 of the first phase and its copy to the partner. -/
def gP1_4 : sProp 𝕄 :=
  iprop(cellInv ER (rd (W1 m) (W2 m)) (κ (dcell c (p1sS 4))) (dcell c (p1sS 4))
    ∗ cellInv ER (rd (W1 m) (W2 m)) (κ (dcell (nbr c) (p1rS 4))) (dcell (nbr c) (p1rS 4))
    ∗ reached ER (dcell c (p1sS 4)) 0
    ∗ dutyTok ER (dcell c (p1sS 4)) 0 0
    ∗ dutyTok ER (dcell (nbr c) (p1rS 4)) 0 0
    ∗ atPos ER (dcell c (p1sS 4)) 0 ∅ 0
    ∗ ((slot16 stageM 4 (of_decide_eq_true rfl)).view.loc (c : Thread nD τ) ↦[(slot16 stageM 4 (of_decide_eq_true rfl)).view.set]{fullShare} f0))

/-- Staged product 5 of the first phase and its copy to the partner. -/
def gP1_5 : sProp 𝕄 :=
  iprop(cellInv ER (rd (W1 m) (W2 m)) (κ (dcell c (p1sS 5))) (dcell c (p1sS 5))
    ∗ cellInv ER (rd (W1 m) (W2 m)) (κ (dcell (nbr c) (p1rS 5))) (dcell (nbr c) (p1rS 5))
    ∗ reached ER (dcell c (p1sS 5)) 0
    ∗ dutyTok ER (dcell c (p1sS 5)) 0 0
    ∗ dutyTok ER (dcell (nbr c) (p1rS 5)) 0 0
    ∗ atPos ER (dcell c (p1sS 5)) 0 ∅ 0
    ∗ ((slot16 stageM 5 (of_decide_eq_true rfl)).view.loc (c : Thread nD τ) ↦[(slot16 stageM 5 (of_decide_eq_true rfl)).view.set]{fullShare} f0))

/-- Staged product 6 of the first phase and its copy to the partner. -/
def gP1_6 : sProp 𝕄 :=
  iprop(cellInv ER (rd (W1 m) (W2 m)) (κ (dcell c (p1sS 6))) (dcell c (p1sS 6))
    ∗ cellInv ER (rd (W1 m) (W2 m)) (κ (dcell (nbr c) (p1rS 6))) (dcell (nbr c) (p1rS 6))
    ∗ reached ER (dcell c (p1sS 6)) 0
    ∗ dutyTok ER (dcell c (p1sS 6)) 0 0
    ∗ dutyTok ER (dcell (nbr c) (p1rS 6)) 0 0
    ∗ atPos ER (dcell c (p1sS 6)) 0 ∅ 0
    ∗ ((slot16 stageM 6 (of_decide_eq_true rfl)).view.loc (c : Thread nD τ) ↦[(slot16 stageM 6 (of_decide_eq_true rfl)).view.set]{fullShare} f0))

/-- Staged product 7 of the first phase and its copy to the partner. -/
def gP1_7 : sProp 𝕄 :=
  iprop(cellInv ER (rd (W1 m) (W2 m)) (κ (dcell c (p1sS 7))) (dcell c (p1sS 7))
    ∗ cellInv ER (rd (W1 m) (W2 m)) (κ (dcell (nbr c) (p1rS 7))) (dcell (nbr c) (p1rS 7))
    ∗ reached ER (dcell c (p1sS 7)) 0
    ∗ dutyTok ER (dcell c (p1sS 7)) 0 0
    ∗ dutyTok ER (dcell (nbr c) (p1rS 7)) 0 0
    ∗ atPos ER (dcell c (p1sS 7)) 0 ∅ 0
    ∗ ((slot16 stageM 7 (of_decide_eq_true rfl)).view.loc (c : Thread nD τ) ↦[(slot16 stageM 7 (of_decide_eq_true rfl)).view.set]{fullShare} f0))

/-- Staged product 8 of the first phase and its copy to the partner. -/
def gP1_8 : sProp 𝕄 :=
  iprop(cellInv ER (rd (W1 m) (W2 m)) (κ (dcell c (p1sS 8))) (dcell c (p1sS 8))
    ∗ cellInv ER (rd (W1 m) (W2 m)) (κ (dcell (nbr c) (p1rS 8))) (dcell (nbr c) (p1rS 8))
    ∗ reached ER (dcell c (p1sS 8)) 0
    ∗ dutyTok ER (dcell c (p1sS 8)) 0 0
    ∗ dutyTok ER (dcell (nbr c) (p1rS 8)) 0 0
    ∗ atPos ER (dcell c (p1sS 8)) 0 ∅ 0
    ∗ ((slot16 stageM 8 (of_decide_eq_true rfl)).view.loc (c : Thread nD τ) ↦[(slot16 stageM 8 (of_decide_eq_true rfl)).view.set]{fullShare} f0))

/-- Staged product 9 of the first phase and its copy to the partner. -/
def gP1_9 : sProp 𝕄 :=
  iprop(cellInv ER (rd (W1 m) (W2 m)) (κ (dcell c (p1sS 9))) (dcell c (p1sS 9))
    ∗ cellInv ER (rd (W1 m) (W2 m)) (κ (dcell (nbr c) (p1rS 9))) (dcell (nbr c) (p1rS 9))
    ∗ reached ER (dcell c (p1sS 9)) 0
    ∗ dutyTok ER (dcell c (p1sS 9)) 0 0
    ∗ dutyTok ER (dcell (nbr c) (p1rS 9)) 0 0
    ∗ atPos ER (dcell c (p1sS 9)) 0 ∅ 0
    ∗ ((slot16 stageM 9 (of_decide_eq_true rfl)).view.loc (c : Thread nD τ) ↦[(slot16 stageM 9 (of_decide_eq_true rfl)).view.set]{fullShare} f0))

/-- Staged product 10 of the first phase and its copy to the partner. -/
def gP1_10 : sProp 𝕄 :=
  iprop(cellInv ER (rd (W1 m) (W2 m)) (κ (dcell c (p1sS 10))) (dcell c (p1sS 10))
    ∗ cellInv ER (rd (W1 m) (W2 m)) (κ (dcell (nbr c) (p1rS 10))) (dcell (nbr c) (p1rS 10))
    ∗ reached ER (dcell c (p1sS 10)) 0
    ∗ dutyTok ER (dcell c (p1sS 10)) 0 0
    ∗ dutyTok ER (dcell (nbr c) (p1rS 10)) 0 0
    ∗ atPos ER (dcell c (p1sS 10)) 0 ∅ 0
    ∗ ((slot16 stageM 10 (of_decide_eq_true rfl)).view.loc (c : Thread nD τ) ↦[(slot16 stageM 10 (of_decide_eq_true rfl)).view.set]{fullShare} f0))

/-- Staged product 11 of the first phase and its copy to the partner. -/
def gP1_11 : sProp 𝕄 :=
  iprop(cellInv ER (rd (W1 m) (W2 m)) (κ (dcell c (p1sS 11))) (dcell c (p1sS 11))
    ∗ cellInv ER (rd (W1 m) (W2 m)) (κ (dcell (nbr c) (p1rS 11))) (dcell (nbr c) (p1rS 11))
    ∗ reached ER (dcell c (p1sS 11)) 0
    ∗ dutyTok ER (dcell c (p1sS 11)) 0 0
    ∗ dutyTok ER (dcell (nbr c) (p1rS 11)) 0 0
    ∗ atPos ER (dcell c (p1sS 11)) 0 ∅ 0
    ∗ ((slot16 stageM 11 (of_decide_eq_true rfl)).view.loc (c : Thread nD τ) ↦[(slot16 stageM 11 (of_decide_eq_true rfl)).view.set]{fullShare} f0))

/-- Staged product 12 of the first phase and its copy to the partner. -/
def gP1_12 : sProp 𝕄 :=
  iprop(cellInv ER (rd (W1 m) (W2 m)) (κ (dcell c (p1sS 12))) (dcell c (p1sS 12))
    ∗ cellInv ER (rd (W1 m) (W2 m)) (κ (dcell (nbr c) (p1rS 12))) (dcell (nbr c) (p1rS 12))
    ∗ reached ER (dcell c (p1sS 12)) 0
    ∗ dutyTok ER (dcell c (p1sS 12)) 0 0
    ∗ dutyTok ER (dcell (nbr c) (p1rS 12)) 0 0
    ∗ atPos ER (dcell c (p1sS 12)) 0 ∅ 0
    ∗ ((slot16 stageM 12 (of_decide_eq_true rfl)).view.loc (c : Thread nD τ) ↦[(slot16 stageM 12 (of_decide_eq_true rfl)).view.set]{fullShare} f0))

/-- Staged product 13 of the first phase and its copy to the partner. -/
def gP1_13 : sProp 𝕄 :=
  iprop(cellInv ER (rd (W1 m) (W2 m)) (κ (dcell c (p1sS 13))) (dcell c (p1sS 13))
    ∗ cellInv ER (rd (W1 m) (W2 m)) (κ (dcell (nbr c) (p1rS 13))) (dcell (nbr c) (p1rS 13))
    ∗ reached ER (dcell c (p1sS 13)) 0
    ∗ dutyTok ER (dcell c (p1sS 13)) 0 0
    ∗ dutyTok ER (dcell (nbr c) (p1rS 13)) 0 0
    ∗ atPos ER (dcell c (p1sS 13)) 0 ∅ 0
    ∗ ((slot16 stageM 13 (of_decide_eq_true rfl)).view.loc (c : Thread nD τ) ↦[(slot16 stageM 13 (of_decide_eq_true rfl)).view.set]{fullShare} f0))

/-- Staged product 14 of the first phase and its copy to the partner. -/
def gP1_14 : sProp 𝕄 :=
  iprop(cellInv ER (rd (W1 m) (W2 m)) (κ (dcell c (p1sS 14))) (dcell c (p1sS 14))
    ∗ cellInv ER (rd (W1 m) (W2 m)) (κ (dcell (nbr c) (p1rS 14))) (dcell (nbr c) (p1rS 14))
    ∗ reached ER (dcell c (p1sS 14)) 0
    ∗ dutyTok ER (dcell c (p1sS 14)) 0 0
    ∗ dutyTok ER (dcell (nbr c) (p1rS 14)) 0 0
    ∗ atPos ER (dcell c (p1sS 14)) 0 ∅ 0
    ∗ ((slot16 stageM 14 (of_decide_eq_true rfl)).view.loc (c : Thread nD τ) ↦[(slot16 stageM 14 (of_decide_eq_true rfl)).view.set]{fullShare} f0))

/-- Staged product 15 of the first phase and its copy to the partner. -/
def gP1_15 : sProp 𝕄 :=
  iprop(cellInv ER (rd (W1 m) (W2 m)) (κ (dcell c (p1sS 15))) (dcell c (p1sS 15))
    ∗ cellInv ER (rd (W1 m) (W2 m)) (κ (dcell (nbr c) (p1rS 15))) (dcell (nbr c) (p1rS 15))
    ∗ reached ER (dcell c (p1sS 15)) 0
    ∗ dutyTok ER (dcell c (p1sS 15)) 0 0
    ∗ dutyTok ER (dcell (nbr c) (p1rS 15)) 0 0
    ∗ atPos ER (dcell c (p1sS 15)) 0 ∅ 0
    ∗ ((slot16 stageM 15 (of_decide_eq_true rfl)).view.loc (c : Thread nD τ) ↦[(slot16 stageM 15 (of_decide_eq_true rfl)).view.set]{fullShare} f0))

/-- Sum 0 of the second phase: the wait for the partner's product, the sum, its copy to the peer. -/
def gP2_0 : sProp 𝕄 :=
  iprop(cellInv ER (rd (W1 m) (W2 m)) (κ (dcell c (p1rS 0))) (dcell c (p1rS 0))
    ∗ cellInv ER (rd (W1 m) (W2 m)) (κ (dcell c (p2sS 0))) (dcell c (p2sS 0))
    ∗ cellInv ER (rd (W1 m) (W2 m)) (κ (dcell (peer c (off 0)) (p2rS (pairOf c)))) (dcell (peer c (off 0)) (p2rS (pairOf c)))
    ∗ reached ER (dcell c (p2sS 0)) 0
    ∗ atPos ER (dcell c (p1rS 0)) 0 ∅ 0
    ∗ cred (tallyAt (dcell c (p1rS 0)) () N)
    ∗ MayWait (c : Thread nD τ) (.dma (p1rS 0)) () (debt c 16)
    ∗ dutyTok ER (dcell c (p2sS 0)) 0 0
    ∗ dutyTok ER (dcell (peer c (off 0)) (p2rS (pairOf c))) 0 0
    ∗ atPos ER (dcell c (p2sS 0)) 0 ∅ 0
    ∗ ((slot15 outboxM 0 (of_decide_eq_true rfl)).view.loc (c : Thread nD τ) ↦[(slot15 outboxM 0 (of_decide_eq_true rfl)).view.set]{fullShare} f2))

/-- Sum 1 of the second phase: the wait for the partner's product, the sum, its copy to the peer. -/
def gP2_1 : sProp 𝕄 :=
  iprop(cellInv ER (rd (W1 m) (W2 m)) (κ (dcell c (p1rS 1))) (dcell c (p1rS 1))
    ∗ cellInv ER (rd (W1 m) (W2 m)) (κ (dcell c (p2sS 1))) (dcell c (p2sS 1))
    ∗ cellInv ER (rd (W1 m) (W2 m)) (κ (dcell (peer c (off 1)) (p2rS (pairOf c)))) (dcell (peer c (off 1)) (p2rS (pairOf c)))
    ∗ reached ER (dcell c (p2sS 1)) 0
    ∗ atPos ER (dcell c (p1rS 1)) 0 ∅ 0
    ∗ cred (tallyAt (dcell c (p1rS 1)) () N)
    ∗ MayWait (c : Thread nD τ) (.dma (p1rS 1)) () (debt c 17)
    ∗ dutyTok ER (dcell c (p2sS 1)) 0 0
    ∗ dutyTok ER (dcell (peer c (off 1)) (p2rS (pairOf c))) 0 0
    ∗ atPos ER (dcell c (p2sS 1)) 0 ∅ 0
    ∗ ((slot15 outboxM 1 (of_decide_eq_true rfl)).view.loc (c : Thread nD τ) ↦[(slot15 outboxM 1 (of_decide_eq_true rfl)).view.set]{fullShare} f2))

/-- Sum 2 of the second phase: the wait for the partner's product, the sum, its copy to the peer. -/
def gP2_2 : sProp 𝕄 :=
  iprop(cellInv ER (rd (W1 m) (W2 m)) (κ (dcell c (p1rS 2))) (dcell c (p1rS 2))
    ∗ cellInv ER (rd (W1 m) (W2 m)) (κ (dcell c (p2sS 2))) (dcell c (p2sS 2))
    ∗ cellInv ER (rd (W1 m) (W2 m)) (κ (dcell (peer c (off 2)) (p2rS (pairOf c)))) (dcell (peer c (off 2)) (p2rS (pairOf c)))
    ∗ reached ER (dcell c (p2sS 2)) 0
    ∗ atPos ER (dcell c (p1rS 2)) 0 ∅ 0
    ∗ cred (tallyAt (dcell c (p1rS 2)) () N)
    ∗ MayWait (c : Thread nD τ) (.dma (p1rS 2)) () (debt c 18)
    ∗ dutyTok ER (dcell c (p2sS 2)) 0 0
    ∗ dutyTok ER (dcell (peer c (off 2)) (p2rS (pairOf c))) 0 0
    ∗ atPos ER (dcell c (p2sS 2)) 0 ∅ 0
    ∗ ((slot15 outboxM 2 (of_decide_eq_true rfl)).view.loc (c : Thread nD τ) ↦[(slot15 outboxM 2 (of_decide_eq_true rfl)).view.set]{fullShare} f2))

/-- Sum 3 of the second phase: the wait for the partner's product, the sum, its copy to the peer. -/
def gP2_3 : sProp 𝕄 :=
  iprop(cellInv ER (rd (W1 m) (W2 m)) (κ (dcell c (p1rS 3))) (dcell c (p1rS 3))
    ∗ cellInv ER (rd (W1 m) (W2 m)) (κ (dcell c (p2sS 3))) (dcell c (p2sS 3))
    ∗ cellInv ER (rd (W1 m) (W2 m)) (κ (dcell (peer c (off 3)) (p2rS (pairOf c)))) (dcell (peer c (off 3)) (p2rS (pairOf c)))
    ∗ reached ER (dcell c (p2sS 3)) 0
    ∗ atPos ER (dcell c (p1rS 3)) 0 ∅ 0
    ∗ cred (tallyAt (dcell c (p1rS 3)) () N)
    ∗ MayWait (c : Thread nD τ) (.dma (p1rS 3)) () (debt c 19)
    ∗ dutyTok ER (dcell c (p2sS 3)) 0 0
    ∗ dutyTok ER (dcell (peer c (off 3)) (p2rS (pairOf c))) 0 0
    ∗ atPos ER (dcell c (p2sS 3)) 0 ∅ 0
    ∗ ((slot15 outboxM 3 (of_decide_eq_true rfl)).view.loc (c : Thread nD τ) ↦[(slot15 outboxM 3 (of_decide_eq_true rfl)).view.set]{fullShare} f2))

/-- Sum 4 of the second phase: the wait for the partner's product, the sum, its copy to the peer. -/
def gP2_4 : sProp 𝕄 :=
  iprop(cellInv ER (rd (W1 m) (W2 m)) (κ (dcell c (p1rS 4))) (dcell c (p1rS 4))
    ∗ cellInv ER (rd (W1 m) (W2 m)) (κ (dcell c (p2sS 4))) (dcell c (p2sS 4))
    ∗ cellInv ER (rd (W1 m) (W2 m)) (κ (dcell (peer c (off 4)) (p2rS (pairOf c)))) (dcell (peer c (off 4)) (p2rS (pairOf c)))
    ∗ reached ER (dcell c (p2sS 4)) 0
    ∗ atPos ER (dcell c (p1rS 4)) 0 ∅ 0
    ∗ cred (tallyAt (dcell c (p1rS 4)) () N)
    ∗ MayWait (c : Thread nD τ) (.dma (p1rS 4)) () (debt c 20)
    ∗ dutyTok ER (dcell c (p2sS 4)) 0 0
    ∗ dutyTok ER (dcell (peer c (off 4)) (p2rS (pairOf c))) 0 0
    ∗ atPos ER (dcell c (p2sS 4)) 0 ∅ 0
    ∗ ((slot15 outboxM 4 (of_decide_eq_true rfl)).view.loc (c : Thread nD τ) ↦[(slot15 outboxM 4 (of_decide_eq_true rfl)).view.set]{fullShare} f2))

/-- Sum 5 of the second phase: the wait for the partner's product, the sum, its copy to the peer. -/
def gP2_5 : sProp 𝕄 :=
  iprop(cellInv ER (rd (W1 m) (W2 m)) (κ (dcell c (p1rS 5))) (dcell c (p1rS 5))
    ∗ cellInv ER (rd (W1 m) (W2 m)) (κ (dcell c (p2sS 5))) (dcell c (p2sS 5))
    ∗ cellInv ER (rd (W1 m) (W2 m)) (κ (dcell (peer c (off 5)) (p2rS (pairOf c)))) (dcell (peer c (off 5)) (p2rS (pairOf c)))
    ∗ reached ER (dcell c (p2sS 5)) 0
    ∗ atPos ER (dcell c (p1rS 5)) 0 ∅ 0
    ∗ cred (tallyAt (dcell c (p1rS 5)) () N)
    ∗ MayWait (c : Thread nD τ) (.dma (p1rS 5)) () (debt c 21)
    ∗ dutyTok ER (dcell c (p2sS 5)) 0 0
    ∗ dutyTok ER (dcell (peer c (off 5)) (p2rS (pairOf c))) 0 0
    ∗ atPos ER (dcell c (p2sS 5)) 0 ∅ 0
    ∗ ((slot15 outboxM 5 (of_decide_eq_true rfl)).view.loc (c : Thread nD τ) ↦[(slot15 outboxM 5 (of_decide_eq_true rfl)).view.set]{fullShare} f2))

/-- Sum 6 of the second phase: the wait for the partner's product, the sum, its copy to the peer. -/
def gP2_6 : sProp 𝕄 :=
  iprop(cellInv ER (rd (W1 m) (W2 m)) (κ (dcell c (p1rS 6))) (dcell c (p1rS 6))
    ∗ cellInv ER (rd (W1 m) (W2 m)) (κ (dcell c (p2sS 6))) (dcell c (p2sS 6))
    ∗ cellInv ER (rd (W1 m) (W2 m)) (κ (dcell (peer c (off 6)) (p2rS (pairOf c)))) (dcell (peer c (off 6)) (p2rS (pairOf c)))
    ∗ reached ER (dcell c (p2sS 6)) 0
    ∗ atPos ER (dcell c (p1rS 6)) 0 ∅ 0
    ∗ cred (tallyAt (dcell c (p1rS 6)) () N)
    ∗ MayWait (c : Thread nD τ) (.dma (p1rS 6)) () (debt c 22)
    ∗ dutyTok ER (dcell c (p2sS 6)) 0 0
    ∗ dutyTok ER (dcell (peer c (off 6)) (p2rS (pairOf c))) 0 0
    ∗ atPos ER (dcell c (p2sS 6)) 0 ∅ 0
    ∗ ((slot15 outboxM 6 (of_decide_eq_true rfl)).view.loc (c : Thread nD τ) ↦[(slot15 outboxM 6 (of_decide_eq_true rfl)).view.set]{fullShare} f2))

/-- Sum 7 of the second phase: the wait for the partner's product, the sum, its copy to the peer. -/
def gP2_7 : sProp 𝕄 :=
  iprop(cellInv ER (rd (W1 m) (W2 m)) (κ (dcell c (p1rS 7))) (dcell c (p1rS 7))
    ∗ cellInv ER (rd (W1 m) (W2 m)) (κ (dcell c (p2sS 7))) (dcell c (p2sS 7))
    ∗ cellInv ER (rd (W1 m) (W2 m)) (κ (dcell (peer c (off 7)) (p2rS (pairOf c)))) (dcell (peer c (off 7)) (p2rS (pairOf c)))
    ∗ reached ER (dcell c (p2sS 7)) 0
    ∗ atPos ER (dcell c (p1rS 7)) 0 ∅ 0
    ∗ cred (tallyAt (dcell c (p1rS 7)) () N)
    ∗ MayWait (c : Thread nD τ) (.dma (p1rS 7)) () (debt c 23)
    ∗ dutyTok ER (dcell c (p2sS 7)) 0 0
    ∗ dutyTok ER (dcell (peer c (off 7)) (p2rS (pairOf c))) 0 0
    ∗ atPos ER (dcell c (p2sS 7)) 0 ∅ 0
    ∗ ((slot15 outboxM 7 (of_decide_eq_true rfl)).view.loc (c : Thread nD τ) ↦[(slot15 outboxM 7 (of_decide_eq_true rfl)).view.set]{fullShare} f2))

/-- Sum 8 of the second phase: the wait for the partner's product, the sum, its copy to the peer. -/
def gP2_8 : sProp 𝕄 :=
  iprop(cellInv ER (rd (W1 m) (W2 m)) (κ (dcell c (p1rS 8))) (dcell c (p1rS 8))
    ∗ cellInv ER (rd (W1 m) (W2 m)) (κ (dcell c (p2sS 8))) (dcell c (p2sS 8))
    ∗ cellInv ER (rd (W1 m) (W2 m)) (κ (dcell (peer c (off 8)) (p2rS (pairOf c)))) (dcell (peer c (off 8)) (p2rS (pairOf c)))
    ∗ reached ER (dcell c (p2sS 8)) 0
    ∗ atPos ER (dcell c (p1rS 8)) 0 ∅ 0
    ∗ cred (tallyAt (dcell c (p1rS 8)) () N)
    ∗ MayWait (c : Thread nD τ) (.dma (p1rS 8)) () (debt c 24)
    ∗ dutyTok ER (dcell c (p2sS 8)) 0 0
    ∗ dutyTok ER (dcell (peer c (off 8)) (p2rS (pairOf c))) 0 0
    ∗ atPos ER (dcell c (p2sS 8)) 0 ∅ 0
    ∗ ((slot15 outboxM 8 (of_decide_eq_true rfl)).view.loc (c : Thread nD τ) ↦[(slot15 outboxM 8 (of_decide_eq_true rfl)).view.set]{fullShare} f2))

/-- Sum 9 of the second phase: the wait for the partner's product, the sum, its copy to the peer. -/
def gP2_9 : sProp 𝕄 :=
  iprop(cellInv ER (rd (W1 m) (W2 m)) (κ (dcell c (p1rS 9))) (dcell c (p1rS 9))
    ∗ cellInv ER (rd (W1 m) (W2 m)) (κ (dcell c (p2sS 9))) (dcell c (p2sS 9))
    ∗ cellInv ER (rd (W1 m) (W2 m)) (κ (dcell (peer c (off 9)) (p2rS (pairOf c)))) (dcell (peer c (off 9)) (p2rS (pairOf c)))
    ∗ reached ER (dcell c (p2sS 9)) 0
    ∗ atPos ER (dcell c (p1rS 9)) 0 ∅ 0
    ∗ cred (tallyAt (dcell c (p1rS 9)) () N)
    ∗ MayWait (c : Thread nD τ) (.dma (p1rS 9)) () (debt c 25)
    ∗ dutyTok ER (dcell c (p2sS 9)) 0 0
    ∗ dutyTok ER (dcell (peer c (off 9)) (p2rS (pairOf c))) 0 0
    ∗ atPos ER (dcell c (p2sS 9)) 0 ∅ 0
    ∗ ((slot15 outboxM 9 (of_decide_eq_true rfl)).view.loc (c : Thread nD τ) ↦[(slot15 outboxM 9 (of_decide_eq_true rfl)).view.set]{fullShare} f2))

/-- Sum 10 of the second phase: the wait for the partner's product, the sum, its copy to the peer. -/
def gP2_10 : sProp 𝕄 :=
  iprop(cellInv ER (rd (W1 m) (W2 m)) (κ (dcell c (p1rS 10))) (dcell c (p1rS 10))
    ∗ cellInv ER (rd (W1 m) (W2 m)) (κ (dcell c (p2sS 10))) (dcell c (p2sS 10))
    ∗ cellInv ER (rd (W1 m) (W2 m)) (κ (dcell (peer c (off 10)) (p2rS (pairOf c)))) (dcell (peer c (off 10)) (p2rS (pairOf c)))
    ∗ reached ER (dcell c (p2sS 10)) 0
    ∗ atPos ER (dcell c (p1rS 10)) 0 ∅ 0
    ∗ cred (tallyAt (dcell c (p1rS 10)) () N)
    ∗ MayWait (c : Thread nD τ) (.dma (p1rS 10)) () (debt c 26)
    ∗ dutyTok ER (dcell c (p2sS 10)) 0 0
    ∗ dutyTok ER (dcell (peer c (off 10)) (p2rS (pairOf c))) 0 0
    ∗ atPos ER (dcell c (p2sS 10)) 0 ∅ 0
    ∗ ((slot15 outboxM 10 (of_decide_eq_true rfl)).view.loc (c : Thread nD τ) ↦[(slot15 outboxM 10 (of_decide_eq_true rfl)).view.set]{fullShare} f2))

/-- Sum 11 of the second phase: the wait for the partner's product, the sum, its copy to the peer. -/
def gP2_11 : sProp 𝕄 :=
  iprop(cellInv ER (rd (W1 m) (W2 m)) (κ (dcell c (p1rS 11))) (dcell c (p1rS 11))
    ∗ cellInv ER (rd (W1 m) (W2 m)) (κ (dcell c (p2sS 11))) (dcell c (p2sS 11))
    ∗ cellInv ER (rd (W1 m) (W2 m)) (κ (dcell (peer c (off 11)) (p2rS (pairOf c)))) (dcell (peer c (off 11)) (p2rS (pairOf c)))
    ∗ reached ER (dcell c (p2sS 11)) 0
    ∗ atPos ER (dcell c (p1rS 11)) 0 ∅ 0
    ∗ cred (tallyAt (dcell c (p1rS 11)) () N)
    ∗ MayWait (c : Thread nD τ) (.dma (p1rS 11)) () (debt c 27)
    ∗ dutyTok ER (dcell c (p2sS 11)) 0 0
    ∗ dutyTok ER (dcell (peer c (off 11)) (p2rS (pairOf c))) 0 0
    ∗ atPos ER (dcell c (p2sS 11)) 0 ∅ 0
    ∗ ((slot15 outboxM 11 (of_decide_eq_true rfl)).view.loc (c : Thread nD τ) ↦[(slot15 outboxM 11 (of_decide_eq_true rfl)).view.set]{fullShare} f2))

/-- Sum 12 of the second phase: the wait for the partner's product, the sum, its copy to the peer. -/
def gP2_12 : sProp 𝕄 :=
  iprop(cellInv ER (rd (W1 m) (W2 m)) (κ (dcell c (p1rS 12))) (dcell c (p1rS 12))
    ∗ cellInv ER (rd (W1 m) (W2 m)) (κ (dcell c (p2sS 12))) (dcell c (p2sS 12))
    ∗ cellInv ER (rd (W1 m) (W2 m)) (κ (dcell (peer c (off 12)) (p2rS (pairOf c)))) (dcell (peer c (off 12)) (p2rS (pairOf c)))
    ∗ reached ER (dcell c (p2sS 12)) 0
    ∗ atPos ER (dcell c (p1rS 12)) 0 ∅ 0
    ∗ cred (tallyAt (dcell c (p1rS 12)) () N)
    ∗ MayWait (c : Thread nD τ) (.dma (p1rS 12)) () (debt c 28)
    ∗ dutyTok ER (dcell c (p2sS 12)) 0 0
    ∗ dutyTok ER (dcell (peer c (off 12)) (p2rS (pairOf c))) 0 0
    ∗ atPos ER (dcell c (p2sS 12)) 0 ∅ 0
    ∗ ((slot15 outboxM 12 (of_decide_eq_true rfl)).view.loc (c : Thread nD τ) ↦[(slot15 outboxM 12 (of_decide_eq_true rfl)).view.set]{fullShare} f2))

/-- Sum 13 of the second phase: the wait for the partner's product, the sum, its copy to the peer. -/
def gP2_13 : sProp 𝕄 :=
  iprop(cellInv ER (rd (W1 m) (W2 m)) (κ (dcell c (p1rS 13))) (dcell c (p1rS 13))
    ∗ cellInv ER (rd (W1 m) (W2 m)) (κ (dcell c (p2sS 13))) (dcell c (p2sS 13))
    ∗ cellInv ER (rd (W1 m) (W2 m)) (κ (dcell (peer c (off 13)) (p2rS (pairOf c)))) (dcell (peer c (off 13)) (p2rS (pairOf c)))
    ∗ reached ER (dcell c (p2sS 13)) 0
    ∗ atPos ER (dcell c (p1rS 13)) 0 ∅ 0
    ∗ cred (tallyAt (dcell c (p1rS 13)) () N)
    ∗ MayWait (c : Thread nD τ) (.dma (p1rS 13)) () (debt c 29)
    ∗ dutyTok ER (dcell c (p2sS 13)) 0 0
    ∗ dutyTok ER (dcell (peer c (off 13)) (p2rS (pairOf c))) 0 0
    ∗ atPos ER (dcell c (p2sS 13)) 0 ∅ 0
    ∗ ((slot15 outboxM 13 (of_decide_eq_true rfl)).view.loc (c : Thread nD τ) ↦[(slot15 outboxM 13 (of_decide_eq_true rfl)).view.set]{fullShare} f2))

/-- Sum 14 of the second phase: the wait for the partner's product, the sum, its copy to the peer. -/
def gP2_14 : sProp 𝕄 :=
  iprop(cellInv ER (rd (W1 m) (W2 m)) (κ (dcell c (p1rS 14))) (dcell c (p1rS 14))
    ∗ cellInv ER (rd (W1 m) (W2 m)) (κ (dcell c (p2sS 14))) (dcell c (p2sS 14))
    ∗ cellInv ER (rd (W1 m) (W2 m)) (κ (dcell (peer c (off 14)) (p2rS (pairOf c)))) (dcell (peer c (off 14)) (p2rS (pairOf c)))
    ∗ reached ER (dcell c (p2sS 14)) 0
    ∗ atPos ER (dcell c (p1rS 14)) 0 ∅ 0
    ∗ cred (tallyAt (dcell c (p1rS 14)) () N)
    ∗ MayWait (c : Thread nD τ) (.dma (p1rS 14)) () (debt c 30)
    ∗ dutyTok ER (dcell c (p2sS 14)) 0 0
    ∗ dutyTok ER (dcell (peer c (off 14)) (p2rS (pairOf c))) 0 0
    ∗ atPos ER (dcell c (p2sS 14)) 0 ∅ 0
    ∗ ((slot15 outboxM 14 (of_decide_eq_true rfl)).view.loc (c : Thread nD τ) ↦[(slot15 outboxM 14 (of_decide_eq_true rfl)).view.set]{fullShare} f2))

/-- The last first-phase receive. -/
def gP1last : sProp 𝕄 :=
  iprop(cellInv ER (rd (W1 m) (W2 m)) (κ (dcell c (p1rS 15))) (dcell c (p1rS 15))
    ∗ atPos ER (dcell c (p1rS 15)) 0 ∅ 0
    ∗ cred (tallyAt (dcell c (p1rS 15)) () N))

/-- Second-phase receive 0. -/
def gFin_0 : sProp 𝕄 :=
  iprop(cellInv ER (rd (W1 m) (W2 m)) (κ (dcell c (p2rS (pairOf (src c (off 0)))))) (dcell c (p2rS (pairOf (src c (off 0)))))
    ∗ atPos ER (dcell c (p2rS (pairOf (src c (off 0))))) 0 ∅ 0
    ∗ cred (tallyAt (dcell c (p2rS (pairOf (src c (off 0))))) () N))

/-- Second-phase receive 1. -/
def gFin_1 : sProp 𝕄 :=
  iprop(cellInv ER (rd (W1 m) (W2 m)) (κ (dcell c (p2rS (pairOf (src c (off 1)))))) (dcell c (p2rS (pairOf (src c (off 1)))))
    ∗ atPos ER (dcell c (p2rS (pairOf (src c (off 1))))) 0 ∅ 0
    ∗ cred (tallyAt (dcell c (p2rS (pairOf (src c (off 1))))) () N))

/-- Second-phase receive 2. -/
def gFin_2 : sProp 𝕄 :=
  iprop(cellInv ER (rd (W1 m) (W2 m)) (κ (dcell c (p2rS (pairOf (src c (off 2)))))) (dcell c (p2rS (pairOf (src c (off 2)))))
    ∗ atPos ER (dcell c (p2rS (pairOf (src c (off 2))))) 0 ∅ 0
    ∗ cred (tallyAt (dcell c (p2rS (pairOf (src c (off 2))))) () N))

/-- Second-phase receive 3. -/
def gFin_3 : sProp 𝕄 :=
  iprop(cellInv ER (rd (W1 m) (W2 m)) (κ (dcell c (p2rS (pairOf (src c (off 3)))))) (dcell c (p2rS (pairOf (src c (off 3)))))
    ∗ atPos ER (dcell c (p2rS (pairOf (src c (off 3))))) 0 ∅ 0
    ∗ cred (tallyAt (dcell c (p2rS (pairOf (src c (off 3))))) () N))

/-- Second-phase receive 4. -/
def gFin_4 : sProp 𝕄 :=
  iprop(cellInv ER (rd (W1 m) (W2 m)) (κ (dcell c (p2rS (pairOf (src c (off 4)))))) (dcell c (p2rS (pairOf (src c (off 4)))))
    ∗ atPos ER (dcell c (p2rS (pairOf (src c (off 4))))) 0 ∅ 0
    ∗ cred (tallyAt (dcell c (p2rS (pairOf (src c (off 4))))) () N))

/-- Second-phase receive 5. -/
def gFin_5 : sProp 𝕄 :=
  iprop(cellInv ER (rd (W1 m) (W2 m)) (κ (dcell c (p2rS (pairOf (src c (off 5)))))) (dcell c (p2rS (pairOf (src c (off 5)))))
    ∗ atPos ER (dcell c (p2rS (pairOf (src c (off 5))))) 0 ∅ 0
    ∗ cred (tallyAt (dcell c (p2rS (pairOf (src c (off 5))))) () N))

/-- Second-phase receive 6. -/
def gFin_6 : sProp 𝕄 :=
  iprop(cellInv ER (rd (W1 m) (W2 m)) (κ (dcell c (p2rS (pairOf (src c (off 6)))))) (dcell c (p2rS (pairOf (src c (off 6)))))
    ∗ atPos ER (dcell c (p2rS (pairOf (src c (off 6))))) 0 ∅ 0
    ∗ cred (tallyAt (dcell c (p2rS (pairOf (src c (off 6))))) () N))

/-- Second-phase receive 7. -/
def gFin_7 : sProp 𝕄 :=
  iprop(cellInv ER (rd (W1 m) (W2 m)) (κ (dcell c (p2rS (pairOf (src c (off 7)))))) (dcell c (p2rS (pairOf (src c (off 7)))))
    ∗ atPos ER (dcell c (p2rS (pairOf (src c (off 7))))) 0 ∅ 0
    ∗ cred (tallyAt (dcell c (p2rS (pairOf (src c (off 7))))) () N))

/-- Second-phase receive 8. -/
def gFin_8 : sProp 𝕄 :=
  iprop(cellInv ER (rd (W1 m) (W2 m)) (κ (dcell c (p2rS (pairOf (src c (off 8)))))) (dcell c (p2rS (pairOf (src c (off 8)))))
    ∗ atPos ER (dcell c (p2rS (pairOf (src c (off 8))))) 0 ∅ 0
    ∗ cred (tallyAt (dcell c (p2rS (pairOf (src c (off 8))))) () N))

/-- Second-phase receive 9. -/
def gFin_9 : sProp 𝕄 :=
  iprop(cellInv ER (rd (W1 m) (W2 m)) (κ (dcell c (p2rS (pairOf (src c (off 9)))))) (dcell c (p2rS (pairOf (src c (off 9)))))
    ∗ atPos ER (dcell c (p2rS (pairOf (src c (off 9))))) 0 ∅ 0
    ∗ cred (tallyAt (dcell c (p2rS (pairOf (src c (off 9))))) () N))

/-- Second-phase receive 10. -/
def gFin_10 : sProp 𝕄 :=
  iprop(cellInv ER (rd (W1 m) (W2 m)) (κ (dcell c (p2rS (pairOf (src c (off 10)))))) (dcell c (p2rS (pairOf (src c (off 10)))))
    ∗ atPos ER (dcell c (p2rS (pairOf (src c (off 10))))) 0 ∅ 0
    ∗ cred (tallyAt (dcell c (p2rS (pairOf (src c (off 10))))) () N))

/-- Second-phase receive 11. -/
def gFin_11 : sProp 𝕄 :=
  iprop(cellInv ER (rd (W1 m) (W2 m)) (κ (dcell c (p2rS (pairOf (src c (off 11)))))) (dcell c (p2rS (pairOf (src c (off 11)))))
    ∗ atPos ER (dcell c (p2rS (pairOf (src c (off 11))))) 0 ∅ 0
    ∗ cred (tallyAt (dcell c (p2rS (pairOf (src c (off 11))))) () N))

/-- Second-phase receive 12. -/
def gFin_12 : sProp 𝕄 :=
  iprop(cellInv ER (rd (W1 m) (W2 m)) (κ (dcell c (p2rS (pairOf (src c (off 12)))))) (dcell c (p2rS (pairOf (src c (off 12)))))
    ∗ atPos ER (dcell c (p2rS (pairOf (src c (off 12))))) 0 ∅ 0
    ∗ cred (tallyAt (dcell c (p2rS (pairOf (src c (off 12))))) () N))

/-- Second-phase receive 13. -/
def gFin_13 : sProp 𝕄 :=
  iprop(cellInv ER (rd (W1 m) (W2 m)) (κ (dcell c (p2rS (pairOf (src c (off 13)))))) (dcell c (p2rS (pairOf (src c (off 13)))))
    ∗ atPos ER (dcell c (p2rS (pairOf (src c (off 13))))) 0 ∅ 0
    ∗ cred (tallyAt (dcell c (p2rS (pairOf (src c (off 13))))) () N))

/-- Second-phase receive 14. -/
def gFin_14 : sProp 𝕄 :=
  iprop(cellInv ER (rd (W1 m) (W2 m)) (κ (dcell c (p2rS (pairOf (src c (off 14)))))) (dcell c (p2rS (pairOf (src c (off 14)))))
    ∗ atPos ER (dcell c (p2rS (pairOf (src c (off 14))))) 0 ∅ 0
    ∗ cred (tallyAt (dcell c (p2rS (pairOf (src c (off 14))))) () N))

/-- Held throughout: the staging buffers, the device's own second-phase slot, the unused cell, what it owes. -/
def gMisc : sProp 𝕄 :=
  iprop(cellInv ER (rd (W1 m) (W2 m)) (κ (dcell c (p2rS (pairOf c)))) (dcell c (p2rS (pairOf c)))
    ∗ atPos ER (dcell c (p2rS (pairOf c))) 0 ∅ 0
    ∗ ((Memref.whole cc0_stg0_0 : Memref sig .tc .vmem S1024x32 .f32).view.loc (c : Thread nD τ) ↦[(Memref.whole cc0_stg0_0 : Memref sig .tc .vmem S1024x32 .f32).view.set]{fullShare} fx)
    ∗ ((Memref.whole cc0_stg1_0 : Memref sig .tc .vmem S32x1024 .f32).view.loc (c : Thread nD τ) ↦[(Memref.whole cc0_stg1_0 : Memref sig .tc .vmem S32x1024 .f32).view.set]{fullShare} fw)
    ∗ ((Memref.whole cc0_stg2_0 : Memref sig .tc .vmem S32x1024 .f32).view.loc (c : Thread nD τ) ↦[(Memref.whole cc0_stg2_0 : Memref sig .tc .vmem S32x1024 .f32).view.set]{fullShare} fo)
    ∗ ((slot16 gatherM (rr c.val) (rr_lt c)).view.loc (c : Thread nD τ) ↦[(slot16 gatherM (rr c.val) (rr_lt c)).view.set]{fullShare} f3)
    ∗ owes (c : Thread nD τ) (debt c 0 + tallyAt (barCell (peer c (off 14))) () 1 + tallyAt (barCell (peer c (off 13))) () 1 + tallyAt (barCell (peer c (off 12))) () 1 + tallyAt (barCell (peer c (off 11))) () 1 + tallyAt (barCell (peer c (off 10))) () 1 + tallyAt (barCell (peer c (off 9))) () 1 + tallyAt (barCell (peer c (off 8))) () 1 + tallyAt (barCell (peer c (off 7))) () 1 + tallyAt (barCell (peer c (off 6))) () 1 + tallyAt (barCell (peer c (off 5))) () 1 + tallyAt (barCell (peer c (off 4))) () 1 + tallyAt (barCell (peer c (off 3))) () 1 + tallyAt (barCell (peer c (off 2))) () 1 + tallyAt (barCell (peer c (off 1))) () 1 + tallyAt (barCell (peer c (off 0))) () 1 + tallyAt (barCell (nbr c)) () 1) W)

/-- The protocol's ghost state on device `c`: the invariants of the cells it touches, the rounds it knows
    reached, the tokens of the duties it pays, its positions on its own cells. -/
def ghost : sProp 𝕄 :=
  iprop(cellInv ER (rd (W1 m) (W2 m)) (κ (barCell c)) (barCell c)
    ∗ cellInv ER (rd (W1 m) (W2 m)) (κ (barCell (nbr c))) (barCell (nbr c))
    ∗ cellInv ER (rd (W1 m) (W2 m)) (κ (barCell (peer c (off 0)))) (barCell (peer c (off 0)))
    ∗ cellInv ER (rd (W1 m) (W2 m)) (κ (barCell (peer c (off 1)))) (barCell (peer c (off 1)))
    ∗ cellInv ER (rd (W1 m) (W2 m)) (κ (barCell (peer c (off 2)))) (barCell (peer c (off 2)))
    ∗ cellInv ER (rd (W1 m) (W2 m)) (κ (barCell (peer c (off 3)))) (barCell (peer c (off 3)))
    ∗ cellInv ER (rd (W1 m) (W2 m)) (κ (barCell (peer c (off 4)))) (barCell (peer c (off 4)))
    ∗ cellInv ER (rd (W1 m) (W2 m)) (κ (barCell (peer c (off 5)))) (barCell (peer c (off 5)))
    ∗ cellInv ER (rd (W1 m) (W2 m)) (κ (barCell (peer c (off 6)))) (barCell (peer c (off 6)))
    ∗ cellInv ER (rd (W1 m) (W2 m)) (κ (barCell (peer c (off 7)))) (barCell (peer c (off 7)))
    ∗ cellInv ER (rd (W1 m) (W2 m)) (κ (barCell (peer c (off 8)))) (barCell (peer c (off 8)))
    ∗ cellInv ER (rd (W1 m) (W2 m)) (κ (barCell (peer c (off 9)))) (barCell (peer c (off 9)))
    ∗ cellInv ER (rd (W1 m) (W2 m)) (κ (barCell (peer c (off 10)))) (barCell (peer c (off 10)))
    ∗ cellInv ER (rd (W1 m) (W2 m)) (κ (barCell (peer c (off 11)))) (barCell (peer c (off 11)))
    ∗ cellInv ER (rd (W1 m) (W2 m)) (κ (barCell (peer c (off 12)))) (barCell (peer c (off 12)))
    ∗ cellInv ER (rd (W1 m) (W2 m)) (κ (barCell (peer c (off 13)))) (barCell (peer c (off 13)))
    ∗ cellInv ER (rd (W1 m) (W2 m)) (κ (barCell (peer c (off 14)))) (barCell (peer c (off 14)))
    ∗ reached ER (barCell (nbr c)) 0
    ∗ reached ER (barCell (peer c (off 0))) 0
    ∗ reached ER (barCell (peer c (off 1))) 0
    ∗ reached ER (barCell (peer c (off 2))) 0
    ∗ reached ER (barCell (peer c (off 3))) 0
    ∗ reached ER (barCell (peer c (off 4))) 0
    ∗ reached ER (barCell (peer c (off 5))) 0
    ∗ reached ER (barCell (peer c (off 6))) 0
    ∗ reached ER (barCell (peer c (off 7))) 0
    ∗ reached ER (barCell (peer c (off 8))) 0
    ∗ reached ER (barCell (peer c (off 9))) 0
    ∗ reached ER (barCell (peer c (off 10))) 0
    ∗ reached ER (barCell (peer c (off 11))) 0
    ∗ reached ER (barCell (peer c (off 12))) 0
    ∗ reached ER (barCell (peer c (off 13))) 0
    ∗ reached ER (barCell (peer c (off 14))) 0
    ∗ reached ER (dcell c (p1rS 0)) 0
    ∗ reached ER (dcell c (p1rS 1)) 0
    ∗ reached ER (dcell c (p1rS 2)) 0
    ∗ reached ER (dcell c (p1rS 3)) 0
    ∗ reached ER (dcell c (p1rS 4)) 0
    ∗ reached ER (dcell c (p1rS 5)) 0
    ∗ reached ER (dcell c (p1rS 6)) 0
    ∗ reached ER (dcell c (p1rS 7)) 0
    ∗ reached ER (dcell c (p1rS 8)) 0
    ∗ reached ER (dcell c (p1rS 9)) 0
    ∗ reached ER (dcell c (p1rS 10)) 0
    ∗ reached ER (dcell c (p1rS 11)) 0
    ∗ reached ER (dcell c (p1rS 12)) 0
    ∗ reached ER (dcell c (p1rS 13)) 0
    ∗ reached ER (dcell c (p1rS 14)) 0
    ∗ reached ER (dcell c (p1rS 15)) 0
    ∗ reached ER (dcell c (p2rS (pairOf (peer c (off 0))))) 0
    ∗ reached ER (dcell c (p2rS (pairOf (peer c (off 1))))) 0
    ∗ reached ER (dcell c (p2rS (pairOf (peer c (off 2))))) 0
    ∗ reached ER (dcell c (p2rS (pairOf (peer c (off 3))))) 0
    ∗ reached ER (dcell c (p2rS (pairOf (peer c (off 4))))) 0
    ∗ reached ER (dcell c (p2rS (pairOf (peer c (off 5))))) 0
    ∗ reached ER (dcell c (p2rS (pairOf (peer c (off 6))))) 0
    ∗ reached ER (dcell c (p2rS (pairOf (peer c (off 7))))) 0
    ∗ reached ER (dcell c (p2rS (pairOf (peer c (off 8))))) 0
    ∗ reached ER (dcell c (p2rS (pairOf (peer c (off 9))))) 0
    ∗ reached ER (dcell c (p2rS (pairOf (peer c (off 10))))) 0
    ∗ reached ER (dcell c (p2rS (pairOf (peer c (off 11))))) 0
    ∗ reached ER (dcell c (p2rS (pairOf (peer c (off 12))))) 0
    ∗ reached ER (dcell c (p2rS (pairOf (peer c (off 13))))) 0
    ∗ reached ER (dcell c (p2rS (pairOf (peer c (off 14))))) 0
    ∗ dutyTok ER (barCell (nbr c)) 0 0
    ∗ dutyTok ER (barCell (peer c (off 0))) 0 (1 : DN)
    ∗ dutyTok ER (barCell (peer c (off 1))) 0 (2 : DN)
    ∗ dutyTok ER (barCell (peer c (off 2))) 0 (3 : DN)
    ∗ dutyTok ER (barCell (peer c (off 3))) 0 (4 : DN)
    ∗ dutyTok ER (barCell (peer c (off 4))) 0 (5 : DN)
    ∗ dutyTok ER (barCell (peer c (off 5))) 0 (6 : DN)
    ∗ dutyTok ER (barCell (peer c (off 6))) 0 (7 : DN)
    ∗ dutyTok ER (barCell (peer c (off 7))) 0 (8 : DN)
    ∗ dutyTok ER (barCell (peer c (off 8))) 0 (9 : DN)
    ∗ dutyTok ER (barCell (peer c (off 9))) 0 (10 : DN)
    ∗ dutyTok ER (barCell (peer c (off 10))) 0 (11 : DN)
    ∗ dutyTok ER (barCell (peer c (off 11))) 0 (12 : DN)
    ∗ dutyTok ER (barCell (peer c (off 12))) 0 (13 : DN)
    ∗ dutyTok ER (barCell (peer c (off 13))) 0 (14 : DN)
    ∗ dutyTok ER (barCell (peer c (off 14))) 0 (15 : DN)
    ∗ atPos ER (barCell c) 0 ∅ 0
    ∗ cellInv ER (rd (W1 m) (W2 m)) (κ (dcell c (p1sS 0))) (dcell c (p1sS 0))
    ∗ cellInv ER (rd (W1 m) (W2 m)) (κ (dcell (nbr c) (p1rS 0))) (dcell (nbr c) (p1rS 0))
    ∗ reached ER (dcell c (p1sS 0)) 0
    ∗ dutyTok ER (dcell c (p1sS 0)) 0 0
    ∗ dutyTok ER (dcell (nbr c) (p1rS 0)) 0 0
    ∗ atPos ER (dcell c (p1sS 0)) 0 ∅ 0
    ∗ cellInv ER (rd (W1 m) (W2 m)) (κ (dcell c (p1sS 1))) (dcell c (p1sS 1))
    ∗ cellInv ER (rd (W1 m) (W2 m)) (κ (dcell (nbr c) (p1rS 1))) (dcell (nbr c) (p1rS 1))
    ∗ reached ER (dcell c (p1sS 1)) 0
    ∗ dutyTok ER (dcell c (p1sS 1)) 0 0
    ∗ dutyTok ER (dcell (nbr c) (p1rS 1)) 0 0
    ∗ atPos ER (dcell c (p1sS 1)) 0 ∅ 0
    ∗ cellInv ER (rd (W1 m) (W2 m)) (κ (dcell c (p1sS 2))) (dcell c (p1sS 2))
    ∗ cellInv ER (rd (W1 m) (W2 m)) (κ (dcell (nbr c) (p1rS 2))) (dcell (nbr c) (p1rS 2))
    ∗ reached ER (dcell c (p1sS 2)) 0
    ∗ dutyTok ER (dcell c (p1sS 2)) 0 0
    ∗ dutyTok ER (dcell (nbr c) (p1rS 2)) 0 0
    ∗ atPos ER (dcell c (p1sS 2)) 0 ∅ 0
    ∗ cellInv ER (rd (W1 m) (W2 m)) (κ (dcell c (p1sS 3))) (dcell c (p1sS 3))
    ∗ cellInv ER (rd (W1 m) (W2 m)) (κ (dcell (nbr c) (p1rS 3))) (dcell (nbr c) (p1rS 3))
    ∗ reached ER (dcell c (p1sS 3)) 0
    ∗ dutyTok ER (dcell c (p1sS 3)) 0 0
    ∗ dutyTok ER (dcell (nbr c) (p1rS 3)) 0 0
    ∗ atPos ER (dcell c (p1sS 3)) 0 ∅ 0
    ∗ cellInv ER (rd (W1 m) (W2 m)) (κ (dcell c (p1sS 4))) (dcell c (p1sS 4))
    ∗ cellInv ER (rd (W1 m) (W2 m)) (κ (dcell (nbr c) (p1rS 4))) (dcell (nbr c) (p1rS 4))
    ∗ reached ER (dcell c (p1sS 4)) 0
    ∗ dutyTok ER (dcell c (p1sS 4)) 0 0
    ∗ dutyTok ER (dcell (nbr c) (p1rS 4)) 0 0
    ∗ atPos ER (dcell c (p1sS 4)) 0 ∅ 0
    ∗ cellInv ER (rd (W1 m) (W2 m)) (κ (dcell c (p1sS 5))) (dcell c (p1sS 5))
    ∗ cellInv ER (rd (W1 m) (W2 m)) (κ (dcell (nbr c) (p1rS 5))) (dcell (nbr c) (p1rS 5))
    ∗ reached ER (dcell c (p1sS 5)) 0
    ∗ dutyTok ER (dcell c (p1sS 5)) 0 0
    ∗ dutyTok ER (dcell (nbr c) (p1rS 5)) 0 0
    ∗ atPos ER (dcell c (p1sS 5)) 0 ∅ 0
    ∗ cellInv ER (rd (W1 m) (W2 m)) (κ (dcell c (p1sS 6))) (dcell c (p1sS 6))
    ∗ cellInv ER (rd (W1 m) (W2 m)) (κ (dcell (nbr c) (p1rS 6))) (dcell (nbr c) (p1rS 6))
    ∗ reached ER (dcell c (p1sS 6)) 0
    ∗ dutyTok ER (dcell c (p1sS 6)) 0 0
    ∗ dutyTok ER (dcell (nbr c) (p1rS 6)) 0 0
    ∗ atPos ER (dcell c (p1sS 6)) 0 ∅ 0
    ∗ cellInv ER (rd (W1 m) (W2 m)) (κ (dcell c (p1sS 7))) (dcell c (p1sS 7))
    ∗ cellInv ER (rd (W1 m) (W2 m)) (κ (dcell (nbr c) (p1rS 7))) (dcell (nbr c) (p1rS 7))
    ∗ reached ER (dcell c (p1sS 7)) 0
    ∗ dutyTok ER (dcell c (p1sS 7)) 0 0
    ∗ dutyTok ER (dcell (nbr c) (p1rS 7)) 0 0
    ∗ atPos ER (dcell c (p1sS 7)) 0 ∅ 0
    ∗ cellInv ER (rd (W1 m) (W2 m)) (κ (dcell c (p1sS 8))) (dcell c (p1sS 8))
    ∗ cellInv ER (rd (W1 m) (W2 m)) (κ (dcell (nbr c) (p1rS 8))) (dcell (nbr c) (p1rS 8))
    ∗ reached ER (dcell c (p1sS 8)) 0
    ∗ dutyTok ER (dcell c (p1sS 8)) 0 0
    ∗ dutyTok ER (dcell (nbr c) (p1rS 8)) 0 0
    ∗ atPos ER (dcell c (p1sS 8)) 0 ∅ 0
    ∗ cellInv ER (rd (W1 m) (W2 m)) (κ (dcell c (p1sS 9))) (dcell c (p1sS 9))
    ∗ cellInv ER (rd (W1 m) (W2 m)) (κ (dcell (nbr c) (p1rS 9))) (dcell (nbr c) (p1rS 9))
    ∗ reached ER (dcell c (p1sS 9)) 0
    ∗ dutyTok ER (dcell c (p1sS 9)) 0 0
    ∗ dutyTok ER (dcell (nbr c) (p1rS 9)) 0 0
    ∗ atPos ER (dcell c (p1sS 9)) 0 ∅ 0
    ∗ cellInv ER (rd (W1 m) (W2 m)) (κ (dcell c (p1sS 10))) (dcell c (p1sS 10))
    ∗ cellInv ER (rd (W1 m) (W2 m)) (κ (dcell (nbr c) (p1rS 10))) (dcell (nbr c) (p1rS 10))
    ∗ reached ER (dcell c (p1sS 10)) 0
    ∗ dutyTok ER (dcell c (p1sS 10)) 0 0
    ∗ dutyTok ER (dcell (nbr c) (p1rS 10)) 0 0
    ∗ atPos ER (dcell c (p1sS 10)) 0 ∅ 0
    ∗ cellInv ER (rd (W1 m) (W2 m)) (κ (dcell c (p1sS 11))) (dcell c (p1sS 11))
    ∗ cellInv ER (rd (W1 m) (W2 m)) (κ (dcell (nbr c) (p1rS 11))) (dcell (nbr c) (p1rS 11))
    ∗ reached ER (dcell c (p1sS 11)) 0
    ∗ dutyTok ER (dcell c (p1sS 11)) 0 0
    ∗ dutyTok ER (dcell (nbr c) (p1rS 11)) 0 0
    ∗ atPos ER (dcell c (p1sS 11)) 0 ∅ 0
    ∗ cellInv ER (rd (W1 m) (W2 m)) (κ (dcell c (p1sS 12))) (dcell c (p1sS 12))
    ∗ cellInv ER (rd (W1 m) (W2 m)) (κ (dcell (nbr c) (p1rS 12))) (dcell (nbr c) (p1rS 12))
    ∗ reached ER (dcell c (p1sS 12)) 0
    ∗ dutyTok ER (dcell c (p1sS 12)) 0 0
    ∗ dutyTok ER (dcell (nbr c) (p1rS 12)) 0 0
    ∗ atPos ER (dcell c (p1sS 12)) 0 ∅ 0
    ∗ cellInv ER (rd (W1 m) (W2 m)) (κ (dcell c (p1sS 13))) (dcell c (p1sS 13))
    ∗ cellInv ER (rd (W1 m) (W2 m)) (κ (dcell (nbr c) (p1rS 13))) (dcell (nbr c) (p1rS 13))
    ∗ reached ER (dcell c (p1sS 13)) 0
    ∗ dutyTok ER (dcell c (p1sS 13)) 0 0
    ∗ dutyTok ER (dcell (nbr c) (p1rS 13)) 0 0
    ∗ atPos ER (dcell c (p1sS 13)) 0 ∅ 0
    ∗ cellInv ER (rd (W1 m) (W2 m)) (κ (dcell c (p1sS 14))) (dcell c (p1sS 14))
    ∗ cellInv ER (rd (W1 m) (W2 m)) (κ (dcell (nbr c) (p1rS 14))) (dcell (nbr c) (p1rS 14))
    ∗ reached ER (dcell c (p1sS 14)) 0
    ∗ dutyTok ER (dcell c (p1sS 14)) 0 0
    ∗ dutyTok ER (dcell (nbr c) (p1rS 14)) 0 0
    ∗ atPos ER (dcell c (p1sS 14)) 0 ∅ 0
    ∗ cellInv ER (rd (W1 m) (W2 m)) (κ (dcell c (p1sS 15))) (dcell c (p1sS 15))
    ∗ cellInv ER (rd (W1 m) (W2 m)) (κ (dcell (nbr c) (p1rS 15))) (dcell (nbr c) (p1rS 15))
    ∗ reached ER (dcell c (p1sS 15)) 0
    ∗ dutyTok ER (dcell c (p1sS 15)) 0 0
    ∗ dutyTok ER (dcell (nbr c) (p1rS 15)) 0 0
    ∗ atPos ER (dcell c (p1sS 15)) 0 ∅ 0
    ∗ cellInv ER (rd (W1 m) (W2 m)) (κ (dcell c (p1rS 0))) (dcell c (p1rS 0))
    ∗ cellInv ER (rd (W1 m) (W2 m)) (κ (dcell c (p2sS 0))) (dcell c (p2sS 0))
    ∗ cellInv ER (rd (W1 m) (W2 m)) (κ (dcell (peer c (off 0)) (p2rS (pairOf c)))) (dcell (peer c (off 0)) (p2rS (pairOf c)))
    ∗ reached ER (dcell c (p2sS 0)) 0
    ∗ atPos ER (dcell c (p1rS 0)) 0 ∅ 0
    ∗ dutyTok ER (dcell c (p2sS 0)) 0 0
    ∗ dutyTok ER (dcell (peer c (off 0)) (p2rS (pairOf c))) 0 0
    ∗ atPos ER (dcell c (p2sS 0)) 0 ∅ 0
    ∗ cellInv ER (rd (W1 m) (W2 m)) (κ (dcell c (p1rS 1))) (dcell c (p1rS 1))
    ∗ cellInv ER (rd (W1 m) (W2 m)) (κ (dcell c (p2sS 1))) (dcell c (p2sS 1))
    ∗ cellInv ER (rd (W1 m) (W2 m)) (κ (dcell (peer c (off 1)) (p2rS (pairOf c)))) (dcell (peer c (off 1)) (p2rS (pairOf c)))
    ∗ reached ER (dcell c (p2sS 1)) 0
    ∗ atPos ER (dcell c (p1rS 1)) 0 ∅ 0
    ∗ dutyTok ER (dcell c (p2sS 1)) 0 0
    ∗ dutyTok ER (dcell (peer c (off 1)) (p2rS (pairOf c))) 0 0
    ∗ atPos ER (dcell c (p2sS 1)) 0 ∅ 0
    ∗ cellInv ER (rd (W1 m) (W2 m)) (κ (dcell c (p1rS 2))) (dcell c (p1rS 2))
    ∗ cellInv ER (rd (W1 m) (W2 m)) (κ (dcell c (p2sS 2))) (dcell c (p2sS 2))
    ∗ cellInv ER (rd (W1 m) (W2 m)) (κ (dcell (peer c (off 2)) (p2rS (pairOf c)))) (dcell (peer c (off 2)) (p2rS (pairOf c)))
    ∗ reached ER (dcell c (p2sS 2)) 0
    ∗ atPos ER (dcell c (p1rS 2)) 0 ∅ 0
    ∗ dutyTok ER (dcell c (p2sS 2)) 0 0
    ∗ dutyTok ER (dcell (peer c (off 2)) (p2rS (pairOf c))) 0 0
    ∗ atPos ER (dcell c (p2sS 2)) 0 ∅ 0
    ∗ cellInv ER (rd (W1 m) (W2 m)) (κ (dcell c (p1rS 3))) (dcell c (p1rS 3))
    ∗ cellInv ER (rd (W1 m) (W2 m)) (κ (dcell c (p2sS 3))) (dcell c (p2sS 3))
    ∗ cellInv ER (rd (W1 m) (W2 m)) (κ (dcell (peer c (off 3)) (p2rS (pairOf c)))) (dcell (peer c (off 3)) (p2rS (pairOf c)))
    ∗ reached ER (dcell c (p2sS 3)) 0
    ∗ atPos ER (dcell c (p1rS 3)) 0 ∅ 0
    ∗ dutyTok ER (dcell c (p2sS 3)) 0 0
    ∗ dutyTok ER (dcell (peer c (off 3)) (p2rS (pairOf c))) 0 0
    ∗ atPos ER (dcell c (p2sS 3)) 0 ∅ 0
    ∗ cellInv ER (rd (W1 m) (W2 m)) (κ (dcell c (p1rS 4))) (dcell c (p1rS 4))
    ∗ cellInv ER (rd (W1 m) (W2 m)) (κ (dcell c (p2sS 4))) (dcell c (p2sS 4))
    ∗ cellInv ER (rd (W1 m) (W2 m)) (κ (dcell (peer c (off 4)) (p2rS (pairOf c)))) (dcell (peer c (off 4)) (p2rS (pairOf c)))
    ∗ reached ER (dcell c (p2sS 4)) 0
    ∗ atPos ER (dcell c (p1rS 4)) 0 ∅ 0
    ∗ dutyTok ER (dcell c (p2sS 4)) 0 0
    ∗ dutyTok ER (dcell (peer c (off 4)) (p2rS (pairOf c))) 0 0
    ∗ atPos ER (dcell c (p2sS 4)) 0 ∅ 0
    ∗ cellInv ER (rd (W1 m) (W2 m)) (κ (dcell c (p1rS 5))) (dcell c (p1rS 5))
    ∗ cellInv ER (rd (W1 m) (W2 m)) (κ (dcell c (p2sS 5))) (dcell c (p2sS 5))
    ∗ cellInv ER (rd (W1 m) (W2 m)) (κ (dcell (peer c (off 5)) (p2rS (pairOf c)))) (dcell (peer c (off 5)) (p2rS (pairOf c)))
    ∗ reached ER (dcell c (p2sS 5)) 0
    ∗ atPos ER (dcell c (p1rS 5)) 0 ∅ 0
    ∗ dutyTok ER (dcell c (p2sS 5)) 0 0
    ∗ dutyTok ER (dcell (peer c (off 5)) (p2rS (pairOf c))) 0 0
    ∗ atPos ER (dcell c (p2sS 5)) 0 ∅ 0
    ∗ cellInv ER (rd (W1 m) (W2 m)) (κ (dcell c (p1rS 6))) (dcell c (p1rS 6))
    ∗ cellInv ER (rd (W1 m) (W2 m)) (κ (dcell c (p2sS 6))) (dcell c (p2sS 6))
    ∗ cellInv ER (rd (W1 m) (W2 m)) (κ (dcell (peer c (off 6)) (p2rS (pairOf c)))) (dcell (peer c (off 6)) (p2rS (pairOf c)))
    ∗ reached ER (dcell c (p2sS 6)) 0
    ∗ atPos ER (dcell c (p1rS 6)) 0 ∅ 0
    ∗ dutyTok ER (dcell c (p2sS 6)) 0 0
    ∗ dutyTok ER (dcell (peer c (off 6)) (p2rS (pairOf c))) 0 0
    ∗ atPos ER (dcell c (p2sS 6)) 0 ∅ 0
    ∗ cellInv ER (rd (W1 m) (W2 m)) (κ (dcell c (p1rS 7))) (dcell c (p1rS 7))
    ∗ cellInv ER (rd (W1 m) (W2 m)) (κ (dcell c (p2sS 7))) (dcell c (p2sS 7))
    ∗ cellInv ER (rd (W1 m) (W2 m)) (κ (dcell (peer c (off 7)) (p2rS (pairOf c)))) (dcell (peer c (off 7)) (p2rS (pairOf c)))
    ∗ reached ER (dcell c (p2sS 7)) 0
    ∗ atPos ER (dcell c (p1rS 7)) 0 ∅ 0
    ∗ dutyTok ER (dcell c (p2sS 7)) 0 0
    ∗ dutyTok ER (dcell (peer c (off 7)) (p2rS (pairOf c))) 0 0
    ∗ atPos ER (dcell c (p2sS 7)) 0 ∅ 0
    ∗ cellInv ER (rd (W1 m) (W2 m)) (κ (dcell c (p1rS 8))) (dcell c (p1rS 8))
    ∗ cellInv ER (rd (W1 m) (W2 m)) (κ (dcell c (p2sS 8))) (dcell c (p2sS 8))
    ∗ cellInv ER (rd (W1 m) (W2 m)) (κ (dcell (peer c (off 8)) (p2rS (pairOf c)))) (dcell (peer c (off 8)) (p2rS (pairOf c)))
    ∗ reached ER (dcell c (p2sS 8)) 0
    ∗ atPos ER (dcell c (p1rS 8)) 0 ∅ 0
    ∗ dutyTok ER (dcell c (p2sS 8)) 0 0
    ∗ dutyTok ER (dcell (peer c (off 8)) (p2rS (pairOf c))) 0 0
    ∗ atPos ER (dcell c (p2sS 8)) 0 ∅ 0
    ∗ cellInv ER (rd (W1 m) (W2 m)) (κ (dcell c (p1rS 9))) (dcell c (p1rS 9))
    ∗ cellInv ER (rd (W1 m) (W2 m)) (κ (dcell c (p2sS 9))) (dcell c (p2sS 9))
    ∗ cellInv ER (rd (W1 m) (W2 m)) (κ (dcell (peer c (off 9)) (p2rS (pairOf c)))) (dcell (peer c (off 9)) (p2rS (pairOf c)))
    ∗ reached ER (dcell c (p2sS 9)) 0
    ∗ atPos ER (dcell c (p1rS 9)) 0 ∅ 0
    ∗ dutyTok ER (dcell c (p2sS 9)) 0 0
    ∗ dutyTok ER (dcell (peer c (off 9)) (p2rS (pairOf c))) 0 0
    ∗ atPos ER (dcell c (p2sS 9)) 0 ∅ 0
    ∗ cellInv ER (rd (W1 m) (W2 m)) (κ (dcell c (p1rS 10))) (dcell c (p1rS 10))
    ∗ cellInv ER (rd (W1 m) (W2 m)) (κ (dcell c (p2sS 10))) (dcell c (p2sS 10))
    ∗ cellInv ER (rd (W1 m) (W2 m)) (κ (dcell (peer c (off 10)) (p2rS (pairOf c)))) (dcell (peer c (off 10)) (p2rS (pairOf c)))
    ∗ reached ER (dcell c (p2sS 10)) 0
    ∗ atPos ER (dcell c (p1rS 10)) 0 ∅ 0
    ∗ dutyTok ER (dcell c (p2sS 10)) 0 0
    ∗ dutyTok ER (dcell (peer c (off 10)) (p2rS (pairOf c))) 0 0
    ∗ atPos ER (dcell c (p2sS 10)) 0 ∅ 0
    ∗ cellInv ER (rd (W1 m) (W2 m)) (κ (dcell c (p1rS 11))) (dcell c (p1rS 11))
    ∗ cellInv ER (rd (W1 m) (W2 m)) (κ (dcell c (p2sS 11))) (dcell c (p2sS 11))
    ∗ cellInv ER (rd (W1 m) (W2 m)) (κ (dcell (peer c (off 11)) (p2rS (pairOf c)))) (dcell (peer c (off 11)) (p2rS (pairOf c)))
    ∗ reached ER (dcell c (p2sS 11)) 0
    ∗ atPos ER (dcell c (p1rS 11)) 0 ∅ 0
    ∗ dutyTok ER (dcell c (p2sS 11)) 0 0
    ∗ dutyTok ER (dcell (peer c (off 11)) (p2rS (pairOf c))) 0 0
    ∗ atPos ER (dcell c (p2sS 11)) 0 ∅ 0
    ∗ cellInv ER (rd (W1 m) (W2 m)) (κ (dcell c (p1rS 12))) (dcell c (p1rS 12))
    ∗ cellInv ER (rd (W1 m) (W2 m)) (κ (dcell c (p2sS 12))) (dcell c (p2sS 12))
    ∗ cellInv ER (rd (W1 m) (W2 m)) (κ (dcell (peer c (off 12)) (p2rS (pairOf c)))) (dcell (peer c (off 12)) (p2rS (pairOf c)))
    ∗ reached ER (dcell c (p2sS 12)) 0
    ∗ atPos ER (dcell c (p1rS 12)) 0 ∅ 0
    ∗ dutyTok ER (dcell c (p2sS 12)) 0 0
    ∗ dutyTok ER (dcell (peer c (off 12)) (p2rS (pairOf c))) 0 0
    ∗ atPos ER (dcell c (p2sS 12)) 0 ∅ 0
    ∗ cellInv ER (rd (W1 m) (W2 m)) (κ (dcell c (p1rS 13))) (dcell c (p1rS 13))
    ∗ cellInv ER (rd (W1 m) (W2 m)) (κ (dcell c (p2sS 13))) (dcell c (p2sS 13))
    ∗ cellInv ER (rd (W1 m) (W2 m)) (κ (dcell (peer c (off 13)) (p2rS (pairOf c)))) (dcell (peer c (off 13)) (p2rS (pairOf c)))
    ∗ reached ER (dcell c (p2sS 13)) 0
    ∗ atPos ER (dcell c (p1rS 13)) 0 ∅ 0
    ∗ dutyTok ER (dcell c (p2sS 13)) 0 0
    ∗ dutyTok ER (dcell (peer c (off 13)) (p2rS (pairOf c))) 0 0
    ∗ atPos ER (dcell c (p2sS 13)) 0 ∅ 0
    ∗ cellInv ER (rd (W1 m) (W2 m)) (κ (dcell c (p1rS 14))) (dcell c (p1rS 14))
    ∗ cellInv ER (rd (W1 m) (W2 m)) (κ (dcell c (p2sS 14))) (dcell c (p2sS 14))
    ∗ cellInv ER (rd (W1 m) (W2 m)) (κ (dcell (peer c (off 14)) (p2rS (pairOf c)))) (dcell (peer c (off 14)) (p2rS (pairOf c)))
    ∗ reached ER (dcell c (p2sS 14)) 0
    ∗ atPos ER (dcell c (p1rS 14)) 0 ∅ 0
    ∗ dutyTok ER (dcell c (p2sS 14)) 0 0
    ∗ dutyTok ER (dcell (peer c (off 14)) (p2rS (pairOf c))) 0 0
    ∗ atPos ER (dcell c (p2sS 14)) 0 ∅ 0
    ∗ cellInv ER (rd (W1 m) (W2 m)) (κ (dcell c (p1rS 15))) (dcell c (p1rS 15))
    ∗ atPos ER (dcell c (p1rS 15)) 0 ∅ 0
    ∗ cellInv ER (rd (W1 m) (W2 m)) (κ (dcell c (p2rS (pairOf (src c (off 0)))))) (dcell c (p2rS (pairOf (src c (off 0)))))
    ∗ atPos ER (dcell c (p2rS (pairOf (src c (off 0))))) 0 ∅ 0
    ∗ cellInv ER (rd (W1 m) (W2 m)) (κ (dcell c (p2rS (pairOf (src c (off 1)))))) (dcell c (p2rS (pairOf (src c (off 1)))))
    ∗ atPos ER (dcell c (p2rS (pairOf (src c (off 1))))) 0 ∅ 0
    ∗ cellInv ER (rd (W1 m) (W2 m)) (κ (dcell c (p2rS (pairOf (src c (off 2)))))) (dcell c (p2rS (pairOf (src c (off 2)))))
    ∗ atPos ER (dcell c (p2rS (pairOf (src c (off 2))))) 0 ∅ 0
    ∗ cellInv ER (rd (W1 m) (W2 m)) (κ (dcell c (p2rS (pairOf (src c (off 3)))))) (dcell c (p2rS (pairOf (src c (off 3)))))
    ∗ atPos ER (dcell c (p2rS (pairOf (src c (off 3))))) 0 ∅ 0
    ∗ cellInv ER (rd (W1 m) (W2 m)) (κ (dcell c (p2rS (pairOf (src c (off 4)))))) (dcell c (p2rS (pairOf (src c (off 4)))))
    ∗ atPos ER (dcell c (p2rS (pairOf (src c (off 4))))) 0 ∅ 0
    ∗ cellInv ER (rd (W1 m) (W2 m)) (κ (dcell c (p2rS (pairOf (src c (off 5)))))) (dcell c (p2rS (pairOf (src c (off 5)))))
    ∗ atPos ER (dcell c (p2rS (pairOf (src c (off 5))))) 0 ∅ 0
    ∗ cellInv ER (rd (W1 m) (W2 m)) (κ (dcell c (p2rS (pairOf (src c (off 6)))))) (dcell c (p2rS (pairOf (src c (off 6)))))
    ∗ atPos ER (dcell c (p2rS (pairOf (src c (off 6))))) 0 ∅ 0
    ∗ cellInv ER (rd (W1 m) (W2 m)) (κ (dcell c (p2rS (pairOf (src c (off 7)))))) (dcell c (p2rS (pairOf (src c (off 7)))))
    ∗ atPos ER (dcell c (p2rS (pairOf (src c (off 7))))) 0 ∅ 0
    ∗ cellInv ER (rd (W1 m) (W2 m)) (κ (dcell c (p2rS (pairOf (src c (off 8)))))) (dcell c (p2rS (pairOf (src c (off 8)))))
    ∗ atPos ER (dcell c (p2rS (pairOf (src c (off 8))))) 0 ∅ 0
    ∗ cellInv ER (rd (W1 m) (W2 m)) (κ (dcell c (p2rS (pairOf (src c (off 9)))))) (dcell c (p2rS (pairOf (src c (off 9)))))
    ∗ atPos ER (dcell c (p2rS (pairOf (src c (off 9))))) 0 ∅ 0
    ∗ cellInv ER (rd (W1 m) (W2 m)) (κ (dcell c (p2rS (pairOf (src c (off 10)))))) (dcell c (p2rS (pairOf (src c (off 10)))))
    ∗ atPos ER (dcell c (p2rS (pairOf (src c (off 10))))) 0 ∅ 0
    ∗ cellInv ER (rd (W1 m) (W2 m)) (κ (dcell c (p2rS (pairOf (src c (off 11)))))) (dcell c (p2rS (pairOf (src c (off 11)))))
    ∗ atPos ER (dcell c (p2rS (pairOf (src c (off 11))))) 0 ∅ 0
    ∗ cellInv ER (rd (W1 m) (W2 m)) (κ (dcell c (p2rS (pairOf (src c (off 12)))))) (dcell c (p2rS (pairOf (src c (off 12)))))
    ∗ atPos ER (dcell c (p2rS (pairOf (src c (off 12))))) 0 ∅ 0
    ∗ cellInv ER (rd (W1 m) (W2 m)) (κ (dcell c (p2rS (pairOf (src c (off 13)))))) (dcell c (p2rS (pairOf (src c (off 13)))))
    ∗ atPos ER (dcell c (p2rS (pairOf (src c (off 13))))) 0 ∅ 0
    ∗ cellInv ER (rd (W1 m) (W2 m)) (κ (dcell c (p2rS (pairOf (src c (off 14)))))) (dcell c (p2rS (pairOf (src c (off 14)))))
    ∗ atPos ER (dcell c (p2rS (pairOf (src c (off 14))))) 0 ∅ 0
    ∗ cellInv ER (rd (W1 m) (W2 m)) (κ (dcell c (p2rS (pairOf c)))) (dcell c (p2rS (pairOf c)))
    ∗ atPos ER (dcell c (p2rS (pairOf c))) 0 ∅ 0)

/-- Its launch credit: the barrier's sixteen units and one copy's credit on each receive cell it waits on. -/
def credits : sProp 𝕄 :=
  iprop(cred (tallyAt (barCell c) () 16)
    ∗ cred (tallyAt (dcell c (p1rS 0)) () N)
    ∗ cred (tallyAt (dcell c (p1rS 1)) () N)
    ∗ cred (tallyAt (dcell c (p1rS 2)) () N)
    ∗ cred (tallyAt (dcell c (p1rS 3)) () N)
    ∗ cred (tallyAt (dcell c (p1rS 4)) () N)
    ∗ cred (tallyAt (dcell c (p1rS 5)) () N)
    ∗ cred (tallyAt (dcell c (p1rS 6)) () N)
    ∗ cred (tallyAt (dcell c (p1rS 7)) () N)
    ∗ cred (tallyAt (dcell c (p1rS 8)) () N)
    ∗ cred (tallyAt (dcell c (p1rS 9)) () N)
    ∗ cred (tallyAt (dcell c (p1rS 10)) () N)
    ∗ cred (tallyAt (dcell c (p1rS 11)) () N)
    ∗ cred (tallyAt (dcell c (p1rS 12)) () N)
    ∗ cred (tallyAt (dcell c (p1rS 13)) () N)
    ∗ cred (tallyAt (dcell c (p1rS 14)) () N)
    ∗ cred (tallyAt (dcell c (p1rS 15)) () N)
    ∗ cred (tallyAt (dcell c (p2rS (pairOf (src c (off 0))))) () N)
    ∗ cred (tallyAt (dcell c (p2rS (pairOf (src c (off 1))))) () N)
    ∗ cred (tallyAt (dcell c (p2rS (pairOf (src c (off 2))))) () N)
    ∗ cred (tallyAt (dcell c (p2rS (pairOf (src c (off 3))))) () N)
    ∗ cred (tallyAt (dcell c (p2rS (pairOf (src c (off 4))))) () N)
    ∗ cred (tallyAt (dcell c (p2rS (pairOf (src c (off 5))))) () N)
    ∗ cred (tallyAt (dcell c (p2rS (pairOf (src c (off 6))))) () N)
    ∗ cred (tallyAt (dcell c (p2rS (pairOf (src c (off 7))))) () N)
    ∗ cred (tallyAt (dcell c (p2rS (pairOf (src c (off 8))))) () N)
    ∗ cred (tallyAt (dcell c (p2rS (pairOf (src c (off 9))))) () N)
    ∗ cred (tallyAt (dcell c (p2rS (pairOf (src c (off 10))))) () N)
    ∗ cred (tallyAt (dcell c (p2rS (pairOf (src c (off 11))))) () N)
    ∗ cred (tallyAt (dcell c (p2rS (pairOf (src c (off 12))))) () N)
    ∗ cred (tallyAt (dcell c (p2rS (pairOf (src c (off 13))))) () N)
    ∗ cred (tallyAt (dcell c (p2rS (pairOf (src c (off 14))))) () N))

/-- The evidence for its waits on cells other devices pay while it still owes. -/
def mayWaits : sProp 𝕄 :=
  iprop(MayWait (c : Thread nD τ) (.reg barS) () (debt c 0)
    ∗ MayWait (c : Thread nD τ) (.dma (p1rS 0)) () (debt c 16)
    ∗ MayWait (c : Thread nD τ) (.dma (p1rS 1)) () (debt c 17)
    ∗ MayWait (c : Thread nD τ) (.dma (p1rS 2)) () (debt c 18)
    ∗ MayWait (c : Thread nD τ) (.dma (p1rS 3)) () (debt c 19)
    ∗ MayWait (c : Thread nD τ) (.dma (p1rS 4)) () (debt c 20)
    ∗ MayWait (c : Thread nD τ) (.dma (p1rS 5)) () (debt c 21)
    ∗ MayWait (c : Thread nD τ) (.dma (p1rS 6)) () (debt c 22)
    ∗ MayWait (c : Thread nD τ) (.dma (p1rS 7)) () (debt c 23)
    ∗ MayWait (c : Thread nD τ) (.dma (p1rS 8)) () (debt c 24)
    ∗ MayWait (c : Thread nD τ) (.dma (p1rS 9)) () (debt c 25)
    ∗ MayWait (c : Thread nD τ) (.dma (p1rS 10)) () (debt c 26)
    ∗ MayWait (c : Thread nD τ) (.dma (p1rS 11)) () (debt c 27)
    ∗ MayWait (c : Thread nD τ) (.dma (p1rS 12)) () (debt c 28)
    ∗ MayWait (c : Thread nD τ) (.dma (p1rS 13)) () (debt c 29)
    ∗ MayWait (c : Thread nD τ) (.dma (p1rS 14)) () (debt c 30))

/-- The buffers it starts with: the three staging buffers and the four scratch buffers slot by slot. -/
def buffers : sProp 𝕄 :=
  iprop(((slot16 inboxM 0 (of_decide_eq_true rfl)).view.loc (c : Thread nD τ) ↦[(slot16 inboxM 0 (of_decide_eq_true rfl)).view.set]{fullShare} f1)
    ∗ ((slot16 inboxM 1 (of_decide_eq_true rfl)).view.loc (c : Thread nD τ) ↦[(slot16 inboxM 1 (of_decide_eq_true rfl)).view.set]{fullShare} f1)
    ∗ ((slot16 inboxM 2 (of_decide_eq_true rfl)).view.loc (c : Thread nD τ) ↦[(slot16 inboxM 2 (of_decide_eq_true rfl)).view.set]{fullShare} f1)
    ∗ ((slot16 inboxM 3 (of_decide_eq_true rfl)).view.loc (c : Thread nD τ) ↦[(slot16 inboxM 3 (of_decide_eq_true rfl)).view.set]{fullShare} f1)
    ∗ ((slot16 inboxM 4 (of_decide_eq_true rfl)).view.loc (c : Thread nD τ) ↦[(slot16 inboxM 4 (of_decide_eq_true rfl)).view.set]{fullShare} f1)
    ∗ ((slot16 inboxM 5 (of_decide_eq_true rfl)).view.loc (c : Thread nD τ) ↦[(slot16 inboxM 5 (of_decide_eq_true rfl)).view.set]{fullShare} f1)
    ∗ ((slot16 inboxM 6 (of_decide_eq_true rfl)).view.loc (c : Thread nD τ) ↦[(slot16 inboxM 6 (of_decide_eq_true rfl)).view.set]{fullShare} f1)
    ∗ ((slot16 inboxM 7 (of_decide_eq_true rfl)).view.loc (c : Thread nD τ) ↦[(slot16 inboxM 7 (of_decide_eq_true rfl)).view.set]{fullShare} f1)
    ∗ ((slot16 inboxM 8 (of_decide_eq_true rfl)).view.loc (c : Thread nD τ) ↦[(slot16 inboxM 8 (of_decide_eq_true rfl)).view.set]{fullShare} f1)
    ∗ ((slot16 inboxM 9 (of_decide_eq_true rfl)).view.loc (c : Thread nD τ) ↦[(slot16 inboxM 9 (of_decide_eq_true rfl)).view.set]{fullShare} f1)
    ∗ ((slot16 inboxM 10 (of_decide_eq_true rfl)).view.loc (c : Thread nD τ) ↦[(slot16 inboxM 10 (of_decide_eq_true rfl)).view.set]{fullShare} f1)
    ∗ ((slot16 inboxM 11 (of_decide_eq_true rfl)).view.loc (c : Thread nD τ) ↦[(slot16 inboxM 11 (of_decide_eq_true rfl)).view.set]{fullShare} f1)
    ∗ ((slot16 inboxM 12 (of_decide_eq_true rfl)).view.loc (c : Thread nD τ) ↦[(slot16 inboxM 12 (of_decide_eq_true rfl)).view.set]{fullShare} f1)
    ∗ ((slot16 inboxM 13 (of_decide_eq_true rfl)).view.loc (c : Thread nD τ) ↦[(slot16 inboxM 13 (of_decide_eq_true rfl)).view.set]{fullShare} f1)
    ∗ ((slot16 inboxM 14 (of_decide_eq_true rfl)).view.loc (c : Thread nD τ) ↦[(slot16 inboxM 14 (of_decide_eq_true rfl)).view.set]{fullShare} f1)
    ∗ ((slot16 inboxM 15 (of_decide_eq_true rfl)).view.loc (c : Thread nD τ) ↦[(slot16 inboxM 15 (of_decide_eq_true rfl)).view.set]{fullShare} f1)
    ∗ ((slot16 gatherM (rr (peer c (off 0)).val) (rr_lt (peer c (off 0)))).view.loc (c : Thread nD τ) ↦[(slot16 gatherM (rr (peer c (off 0)).val) (rr_lt (peer c (off 0)))).view.set]{fullShare} f3)
    ∗ ((slot16 gatherM (rr (peer c (off 1)).val) (rr_lt (peer c (off 1)))).view.loc (c : Thread nD τ) ↦[(slot16 gatherM (rr (peer c (off 1)).val) (rr_lt (peer c (off 1)))).view.set]{fullShare} f3)
    ∗ ((slot16 gatherM (rr (peer c (off 2)).val) (rr_lt (peer c (off 2)))).view.loc (c : Thread nD τ) ↦[(slot16 gatherM (rr (peer c (off 2)).val) (rr_lt (peer c (off 2)))).view.set]{fullShare} f3)
    ∗ ((slot16 gatherM (rr (peer c (off 3)).val) (rr_lt (peer c (off 3)))).view.loc (c : Thread nD τ) ↦[(slot16 gatherM (rr (peer c (off 3)).val) (rr_lt (peer c (off 3)))).view.set]{fullShare} f3)
    ∗ ((slot16 gatherM (rr (peer c (off 4)).val) (rr_lt (peer c (off 4)))).view.loc (c : Thread nD τ) ↦[(slot16 gatherM (rr (peer c (off 4)).val) (rr_lt (peer c (off 4)))).view.set]{fullShare} f3)
    ∗ ((slot16 gatherM (rr (peer c (off 5)).val) (rr_lt (peer c (off 5)))).view.loc (c : Thread nD τ) ↦[(slot16 gatherM (rr (peer c (off 5)).val) (rr_lt (peer c (off 5)))).view.set]{fullShare} f3)
    ∗ ((slot16 gatherM (rr (peer c (off 6)).val) (rr_lt (peer c (off 6)))).view.loc (c : Thread nD τ) ↦[(slot16 gatherM (rr (peer c (off 6)).val) (rr_lt (peer c (off 6)))).view.set]{fullShare} f3)
    ∗ ((slot16 gatherM (rr (peer c (off 7)).val) (rr_lt (peer c (off 7)))).view.loc (c : Thread nD τ) ↦[(slot16 gatherM (rr (peer c (off 7)).val) (rr_lt (peer c (off 7)))).view.set]{fullShare} f3)
    ∗ ((slot16 gatherM (rr (peer c (off 8)).val) (rr_lt (peer c (off 8)))).view.loc (c : Thread nD τ) ↦[(slot16 gatherM (rr (peer c (off 8)).val) (rr_lt (peer c (off 8)))).view.set]{fullShare} f3)
    ∗ ((slot16 gatherM (rr (peer c (off 9)).val) (rr_lt (peer c (off 9)))).view.loc (c : Thread nD τ) ↦[(slot16 gatherM (rr (peer c (off 9)).val) (rr_lt (peer c (off 9)))).view.set]{fullShare} f3)
    ∗ ((slot16 gatherM (rr (peer c (off 10)).val) (rr_lt (peer c (off 10)))).view.loc (c : Thread nD τ) ↦[(slot16 gatherM (rr (peer c (off 10)).val) (rr_lt (peer c (off 10)))).view.set]{fullShare} f3)
    ∗ ((slot16 gatherM (rr (peer c (off 11)).val) (rr_lt (peer c (off 11)))).view.loc (c : Thread nD τ) ↦[(slot16 gatherM (rr (peer c (off 11)).val) (rr_lt (peer c (off 11)))).view.set]{fullShare} f3)
    ∗ ((slot16 gatherM (rr (peer c (off 12)).val) (rr_lt (peer c (off 12)))).view.loc (c : Thread nD τ) ↦[(slot16 gatherM (rr (peer c (off 12)).val) (rr_lt (peer c (off 12)))).view.set]{fullShare} f3)
    ∗ ((slot16 gatherM (rr (peer c (off 13)).val) (rr_lt (peer c (off 13)))).view.loc (c : Thread nD τ) ↦[(slot16 gatherM (rr (peer c (off 13)).val) (rr_lt (peer c (off 13)))).view.set]{fullShare} f3)
    ∗ ((slot16 gatherM (rr (peer c (off 14)).val) (rr_lt (peer c (off 14)))).view.loc (c : Thread nD τ) ↦[(slot16 gatherM (rr (peer c (off 14)).val) (rr_lt (peer c (off 14)))).view.set]{fullShare} f3)
    ∗ ((slot16 stageM 0 (of_decide_eq_true rfl)).view.loc (c : Thread nD τ) ↦[(slot16 stageM 0 (of_decide_eq_true rfl)).view.set]{fullShare} f0)
    ∗ ((slot16 stageM 1 (of_decide_eq_true rfl)).view.loc (c : Thread nD τ) ↦[(slot16 stageM 1 (of_decide_eq_true rfl)).view.set]{fullShare} f0)
    ∗ ((slot16 stageM 2 (of_decide_eq_true rfl)).view.loc (c : Thread nD τ) ↦[(slot16 stageM 2 (of_decide_eq_true rfl)).view.set]{fullShare} f0)
    ∗ ((slot16 stageM 3 (of_decide_eq_true rfl)).view.loc (c : Thread nD τ) ↦[(slot16 stageM 3 (of_decide_eq_true rfl)).view.set]{fullShare} f0)
    ∗ ((slot16 stageM 4 (of_decide_eq_true rfl)).view.loc (c : Thread nD τ) ↦[(slot16 stageM 4 (of_decide_eq_true rfl)).view.set]{fullShare} f0)
    ∗ ((slot16 stageM 5 (of_decide_eq_true rfl)).view.loc (c : Thread nD τ) ↦[(slot16 stageM 5 (of_decide_eq_true rfl)).view.set]{fullShare} f0)
    ∗ ((slot16 stageM 6 (of_decide_eq_true rfl)).view.loc (c : Thread nD τ) ↦[(slot16 stageM 6 (of_decide_eq_true rfl)).view.set]{fullShare} f0)
    ∗ ((slot16 stageM 7 (of_decide_eq_true rfl)).view.loc (c : Thread nD τ) ↦[(slot16 stageM 7 (of_decide_eq_true rfl)).view.set]{fullShare} f0)
    ∗ ((slot16 stageM 8 (of_decide_eq_true rfl)).view.loc (c : Thread nD τ) ↦[(slot16 stageM 8 (of_decide_eq_true rfl)).view.set]{fullShare} f0)
    ∗ ((slot16 stageM 9 (of_decide_eq_true rfl)).view.loc (c : Thread nD τ) ↦[(slot16 stageM 9 (of_decide_eq_true rfl)).view.set]{fullShare} f0)
    ∗ ((slot16 stageM 10 (of_decide_eq_true rfl)).view.loc (c : Thread nD τ) ↦[(slot16 stageM 10 (of_decide_eq_true rfl)).view.set]{fullShare} f0)
    ∗ ((slot16 stageM 11 (of_decide_eq_true rfl)).view.loc (c : Thread nD τ) ↦[(slot16 stageM 11 (of_decide_eq_true rfl)).view.set]{fullShare} f0)
    ∗ ((slot16 stageM 12 (of_decide_eq_true rfl)).view.loc (c : Thread nD τ) ↦[(slot16 stageM 12 (of_decide_eq_true rfl)).view.set]{fullShare} f0)
    ∗ ((slot16 stageM 13 (of_decide_eq_true rfl)).view.loc (c : Thread nD τ) ↦[(slot16 stageM 13 (of_decide_eq_true rfl)).view.set]{fullShare} f0)
    ∗ ((slot16 stageM 14 (of_decide_eq_true rfl)).view.loc (c : Thread nD τ) ↦[(slot16 stageM 14 (of_decide_eq_true rfl)).view.set]{fullShare} f0)
    ∗ ((slot16 stageM 15 (of_decide_eq_true rfl)).view.loc (c : Thread nD τ) ↦[(slot16 stageM 15 (of_decide_eq_true rfl)).view.set]{fullShare} f0)
    ∗ ((slot15 outboxM 0 (of_decide_eq_true rfl)).view.loc (c : Thread nD τ) ↦[(slot15 outboxM 0 (of_decide_eq_true rfl)).view.set]{fullShare} f2)
    ∗ ((slot15 outboxM 1 (of_decide_eq_true rfl)).view.loc (c : Thread nD τ) ↦[(slot15 outboxM 1 (of_decide_eq_true rfl)).view.set]{fullShare} f2)
    ∗ ((slot15 outboxM 2 (of_decide_eq_true rfl)).view.loc (c : Thread nD τ) ↦[(slot15 outboxM 2 (of_decide_eq_true rfl)).view.set]{fullShare} f2)
    ∗ ((slot15 outboxM 3 (of_decide_eq_true rfl)).view.loc (c : Thread nD τ) ↦[(slot15 outboxM 3 (of_decide_eq_true rfl)).view.set]{fullShare} f2)
    ∗ ((slot15 outboxM 4 (of_decide_eq_true rfl)).view.loc (c : Thread nD τ) ↦[(slot15 outboxM 4 (of_decide_eq_true rfl)).view.set]{fullShare} f2)
    ∗ ((slot15 outboxM 5 (of_decide_eq_true rfl)).view.loc (c : Thread nD τ) ↦[(slot15 outboxM 5 (of_decide_eq_true rfl)).view.set]{fullShare} f2)
    ∗ ((slot15 outboxM 6 (of_decide_eq_true rfl)).view.loc (c : Thread nD τ) ↦[(slot15 outboxM 6 (of_decide_eq_true rfl)).view.set]{fullShare} f2)
    ∗ ((slot15 outboxM 7 (of_decide_eq_true rfl)).view.loc (c : Thread nD τ) ↦[(slot15 outboxM 7 (of_decide_eq_true rfl)).view.set]{fullShare} f2)
    ∗ ((slot15 outboxM 8 (of_decide_eq_true rfl)).view.loc (c : Thread nD τ) ↦[(slot15 outboxM 8 (of_decide_eq_true rfl)).view.set]{fullShare} f2)
    ∗ ((slot15 outboxM 9 (of_decide_eq_true rfl)).view.loc (c : Thread nD τ) ↦[(slot15 outboxM 9 (of_decide_eq_true rfl)).view.set]{fullShare} f2)
    ∗ ((slot15 outboxM 10 (of_decide_eq_true rfl)).view.loc (c : Thread nD τ) ↦[(slot15 outboxM 10 (of_decide_eq_true rfl)).view.set]{fullShare} f2)
    ∗ ((slot15 outboxM 11 (of_decide_eq_true rfl)).view.loc (c : Thread nD τ) ↦[(slot15 outboxM 11 (of_decide_eq_true rfl)).view.set]{fullShare} f2)
    ∗ ((slot15 outboxM 12 (of_decide_eq_true rfl)).view.loc (c : Thread nD τ) ↦[(slot15 outboxM 12 (of_decide_eq_true rfl)).view.set]{fullShare} f2)
    ∗ ((slot15 outboxM 13 (of_decide_eq_true rfl)).view.loc (c : Thread nD τ) ↦[(slot15 outboxM 13 (of_decide_eq_true rfl)).view.set]{fullShare} f2)
    ∗ ((slot15 outboxM 14 (of_decide_eq_true rfl)).view.loc (c : Thread nD τ) ↦[(slot15 outboxM 14 (of_decide_eq_true rfl)).view.set]{fullShare} f2)
    ∗ ((Memref.whole cc0_stg0_0 : Memref sig .tc .vmem S1024x32 .f32).view.loc (c : Thread nD τ) ↦[(Memref.whole cc0_stg0_0 : Memref sig .tc .vmem S1024x32 .f32).view.set]{fullShare} fx)
    ∗ ((Memref.whole cc0_stg1_0 : Memref sig .tc .vmem S32x1024 .f32).view.loc (c : Thread nD τ) ↦[(Memref.whole cc0_stg1_0 : Memref sig .tc .vmem S32x1024 .f32).view.set]{fullShare} fw)
    ∗ ((Memref.whole cc0_stg2_0 : Memref sig .tc .vmem S32x1024 .f32).view.loc (c : Thread nD τ) ↦[(Memref.whole cc0_stg2_0 : Memref sig .tc .vmem S32x1024 .f32).view.set]{fullShare} fo)
    ∗ ((slot16 gatherM (rr c.val) (rr_lt c)).view.loc (c : Thread nD τ) ↦[(slot16 gatherM (rr c.val) (rr_lt c)).view.set]{fullShare} f3))

/-- What it owes at entry. -/
def O₀ : CellTallies nD τ sig Unit := debt c 0 + tallyAt (barCell (peer c (off 14))) () 1 + tallyAt (barCell (peer c (off 13))) () 1 + tallyAt (barCell (peer c (off 12))) () 1 + tallyAt (barCell (peer c (off 11))) () 1 + tallyAt (barCell (peer c (off 10))) () 1 + tallyAt (barCell (peer c (off 9))) () 1 + tallyAt (barCell (peer c (off 8))) () 1 + tallyAt (barCell (peer c (off 7))) () 1 + tallyAt (barCell (peer c (off 6))) () 1 + tallyAt (barCell (peer c (off 5))) () 1 + tallyAt (barCell (peer c (off 4))) () 1 + tallyAt (barCell (peer c (off 3))) () 1 + tallyAt (barCell (peer c (off 2))) () 1 + tallyAt (barCell (peer c (off 1))) () 1 + tallyAt (barCell (peer c (off 0))) () 1 + tallyAt (barCell (nbr c)) () 1

/-- What the body starts from. -/
def bodyPre : sProp 𝕄 :=
  iprop(gBar m κ c f1 f3
    ∗ gP1_0 m κ c f0 ∗ gP1_1 m κ c f0 ∗ gP1_2 m κ c f0 ∗ gP1_3 m κ c f0 ∗ gP1_4 m κ c f0 ∗ gP1_5 m κ c f0 ∗ gP1_6 m κ c f0 ∗ gP1_7 m κ c f0 ∗ gP1_8 m κ c f0 ∗ gP1_9 m κ c f0 ∗ gP1_10 m κ c f0 ∗ gP1_11 m κ c f0 ∗ gP1_12 m κ c f0 ∗ gP1_13 m κ c f0 ∗ gP1_14 m κ c f0 ∗ gP1_15 m κ c f0
    ∗ gP2_0 m κ c f2 ∗ gP2_1 m κ c f2 ∗ gP2_2 m κ c f2 ∗ gP2_3 m κ c f2 ∗ gP2_4 m κ c f2 ∗ gP2_5 m κ c f2 ∗ gP2_6 m κ c f2 ∗ gP2_7 m κ c f2 ∗ gP2_8 m κ c f2 ∗ gP2_9 m κ c f2 ∗ gP2_10 m κ c f2 ∗ gP2_11 m κ c f2 ∗ gP2_12 m κ c f2 ∗ gP2_13 m κ c f2 ∗ gP2_14 m κ c f2
    ∗ gP1last m κ c
    ∗ gFin_0 m κ c ∗ gFin_1 m κ c ∗ gFin_2 m κ c ∗ gFin_3 m κ c ∗ gFin_4 m κ c ∗ gFin_5 m κ c ∗ gFin_6 m κ c ∗ gFin_7 m κ c ∗ gFin_8 m κ c ∗ gFin_9 m κ c ∗ gFin_10 m κ c ∗ gFin_11 m κ c ∗ gFin_12 m κ c ∗ gFin_13 m κ c ∗ gFin_14 m κ c
    ∗ gMisc m κ c W fx fw fo f3)

/-- What it leaves: the result in the output staging buffer, the inputs as they were, the four scratch
    buffers whole again, the 63 scratch semaphores at zero, nothing owed. -/
def bodyPost : sProp 𝕄 :=
  iprop(((Memref.whole cc0_stg2_0 : Memref sig .tc .vmem S32x1024 .f32).view.loc (c : Thread nD τ) ↦[(Memref.whole cc0_stg2_0 : Memref sig .tc .vmem S32x1024 .f32).view.set]{fullShare} outAt m c) ∗ ((Memref.whole cc0_stg0_0 : Memref sig .tc .vmem S1024x32 .f32).view.loc (c : Thread nD τ) ↦[(Memref.whole cc0_stg0_0 : Memref sig .tc .vmem S1024x32 .f32).view.set]{fullShare} fx) ∗ ((Memref.whole cc0_stg1_0 : Memref sig .tc .vmem S32x1024 .f32).view.loc (c : Thread nD τ) ↦[(Memref.whole cc0_stg1_0 : Memref sig .tc .vmem S32x1024 .f32).view.set]{fullShare} fw)
    ∗ (∃ f, (stageM.view.loc (c : Thread nD τ) ↦[stageM.view.set]{fullShare} f)) ∗ (∃ f, (inboxM.view.loc (c : Thread nD τ) ↦[inboxM.view.set]{fullShare} f)) ∗ (∃ f, (outboxM.view.loc (c : Thread nD τ) ↦[outboxM.view.set]{fullShare} f)) ∗ (∃ f, (gatherM.view.loc (c : Thread nD τ) ↦[gatherM.view.set]{fullShare} f))
    ∗ semVal (dcell c (p1sS 0)) 0
    ∗ semVal (dcell c (p1sS 1)) 0
    ∗ semVal (dcell c (p1sS 2)) 0
    ∗ semVal (dcell c (p1sS 3)) 0
    ∗ semVal (dcell c (p1sS 4)) 0
    ∗ semVal (dcell c (p1sS 5)) 0
    ∗ semVal (dcell c (p1sS 6)) 0
    ∗ semVal (dcell c (p1sS 7)) 0
    ∗ semVal (dcell c (p1sS 8)) 0
    ∗ semVal (dcell c (p1sS 9)) 0
    ∗ semVal (dcell c (p1sS 10)) 0
    ∗ semVal (dcell c (p1sS 11)) 0
    ∗ semVal (dcell c (p1sS 12)) 0
    ∗ semVal (dcell c (p1sS 13)) 0
    ∗ semVal (dcell c (p1sS 14)) 0
    ∗ semVal (dcell c (p1sS 15)) 0
    ∗ semVal (dcell c (p1rS 0)) 0
    ∗ semVal (dcell c (p1rS 1)) 0
    ∗ semVal (dcell c (p1rS 2)) 0
    ∗ semVal (dcell c (p1rS 3)) 0
    ∗ semVal (dcell c (p1rS 4)) 0
    ∗ semVal (dcell c (p1rS 5)) 0
    ∗ semVal (dcell c (p1rS 6)) 0
    ∗ semVal (dcell c (p1rS 7)) 0
    ∗ semVal (dcell c (p1rS 8)) 0
    ∗ semVal (dcell c (p1rS 9)) 0
    ∗ semVal (dcell c (p1rS 10)) 0
    ∗ semVal (dcell c (p1rS 11)) 0
    ∗ semVal (dcell c (p1rS 12)) 0
    ∗ semVal (dcell c (p1rS 13)) 0
    ∗ semVal (dcell c (p1rS 14)) 0
    ∗ semVal (dcell c (p1rS 15)) 0
    ∗ semVal (dcell c (p2sS 0)) 0
    ∗ semVal (dcell c (p2sS 1)) 0
    ∗ semVal (dcell c (p2sS 2)) 0
    ∗ semVal (dcell c (p2sS 3)) 0
    ∗ semVal (dcell c (p2sS 4)) 0
    ∗ semVal (dcell c (p2sS 5)) 0
    ∗ semVal (dcell c (p2sS 6)) 0
    ∗ semVal (dcell c (p2sS 7)) 0
    ∗ semVal (dcell c (p2sS 8)) 0
    ∗ semVal (dcell c (p2sS 9)) 0
    ∗ semVal (dcell c (p2sS 10)) 0
    ∗ semVal (dcell c (p2sS 11)) 0
    ∗ semVal (dcell c (p2sS 12)) 0
    ∗ semVal (dcell c (p2sS 13)) 0
    ∗ semVal (dcell c (p2sS 14)) 0
    ∗ semVal (dcell c (p2rS (pairOf (src c (off 0))))) 0
    ∗ semVal (dcell c (p2rS (pairOf (src c (off 1))))) 0
    ∗ semVal (dcell c (p2rS (pairOf (src c (off 2))))) 0
    ∗ semVal (dcell c (p2rS (pairOf (src c (off 3))))) 0
    ∗ semVal (dcell c (p2rS (pairOf (src c (off 4))))) 0
    ∗ semVal (dcell c (p2rS (pairOf (src c (off 5))))) 0
    ∗ semVal (dcell c (p2rS (pairOf (src c (off 6))))) 0
    ∗ semVal (dcell c (p2rS (pairOf (src c (off 7))))) 0
    ∗ semVal (dcell c (p2rS (pairOf (src c (off 8))))) 0
    ∗ semVal (dcell c (p2rS (pairOf (src c (off 9))))) 0
    ∗ semVal (dcell c (p2rS (pairOf (src c (off 10))))) 0
    ∗ semVal (dcell c (p2rS (pairOf (src c (off 11))))) 0
    ∗ semVal (dcell c (p2rS (pairOf (src c (off 12))))) 0
    ∗ semVal (dcell c (p2rS (pairOf (src c (off 13))))) 0
    ∗ semVal (dcell c (p2rS (pairOf (src c (off 14))))) 0
    ∗ semVal (dcell c (p2rS (pairOf c))) 0
    ∗ (∃ W : Waits sig Unit, owes (c : Thread nD τ) 0 W))

end

end Cert.KernelIdeal.Proto

end
-- ==== Proof.Send.lean ====
/-
  The remote copy's rule in the form the body applies it: the addressed device and the two semaphores
  as the program spells them, with the equations to the protocol's names; and the value a staged
  product holds.
-/
import proofs.«900440_g7700000000000441_dist_gemm_rs_m1024_k1024_n1024_f32_none_v7x_i32_1_alg».proof.Proof.BodyStmt
import proofs.«900440_g7700000000000441_dist_gemm_rs_m1024_k1024_n1024_f32_none_v7x_i32_1_alg».proof.Proof.Gen.KernelIdeal.Skeleton

noncomputable section

namespace Cert.KernelIdeal.Proto

open Cert.KernelIdeal Cert.KernelIdeal.Gen Cert.Mesh Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem wp_send_slot' (W1 W2 : Dev nD → Dev nD → Vec F S1x32x1024 .f32) (c n₁ n₂ : Dev nD) {n : Dev nD} (hn₁ : n = n₁) (hn₂ : n = n₂)
    (src dst : Memref sig .tc .vmem S1x32x1024 .f32) (qs qr : DmaSem sig) {sS sR : DmaSem sig} (hsS : sS = qs) (hsR : sR = qr)
    (κ₁ κ₂ : ℕ) (V : Vec F S1x32x1024 .f32)
    (hds : (0 : DN) ∈ (rd W1 W2).duties (dcell c qs) 0) (hdr : (0 : DN) ∈ (rd W1 W2).duties (dcell n₁ qr) 0)
    (hN : dst.view.amount (.dma qr) = N)
    (hp1 : (rd W1 W2).payload (dcell c qs) 0 0 = holds c src V) (hp2 : (rd W1 W2).payload (dcell n₁ qr) 0 0 = holds n₁ dst V)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fs : Buf (Elt F) (src.view.loc (c : Thread nD τ))) (hfs : src.view.read (Elt F) fs = V)
    (fd : Buf (Elt F) (dst.view.loc (n₂ : Thread nD τ))) (O : CellTallies nD τ sig Unit) (W : Waits sig Unit) :
    iprop(cellInv ER (rd W1 W2) κ₁ (dcell c qs) ∗ cellInv ER (rd W1 W2) κ₂ (dcell n₁ qr)
        ∗ (src.view.loc (c : Thread nD τ) ↦[src.view.set]{fullShare} fs) ∗ (dst.view.loc (n₂ : Thread nD τ) ↦[dst.view.set]{fullShare} fd)
        ∗ owes (c : Thread nD τ) (O + tallyAt (dcell n₁ qr) () N) W
        ∗ dutyTok ER (dcell c qs) 0 0 ∗ reached ER (dcell c qs) 0 ∗ dutyTok ER (dcell n₁ qr) 0 0 ∗ reached ER (dcell n₂ qr) 0)
      ⊢ iprop(((cred (tallyAt (dcell c qs) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn₁; subst hn₂; subst hsS; subst hsR
  exact wp_send_slot W1 W2 c n sS sR κ₁ κ₂ V hds hdr hN hp1 hp2 fs hfs fd O W

/-- The same with the destination slot as the program spells it. -/
theorem wp_send_slot'' (W1 W2 : Dev nD → Dev nD → Vec F S1x32x1024 .f32) (c n₁ n₂ : Dev nD) {n : Dev nD} (hn₁ : n = n₁) (hn₂ : n = n₂)
    (src dst : Memref sig .tc .vmem S1x32x1024 .f32) {dstG : Memref sig .tc .vmem S1x32x1024 .f32} (hdG : dstG = dst)
    (qs qr : DmaSem sig) {sS sR : DmaSem sig} (hsS : sS = qs) (hsR : sR = qr)
    (κ₁ κ₂ : ℕ) (V : Vec F S1x32x1024 .f32)
    (hds : (0 : DN) ∈ (rd W1 W2).duties (dcell c qs) 0) (hdr : (0 : DN) ∈ (rd W1 W2).duties (dcell n₁ qr) 0)
    (hN : dst.view.amount (.dma qr) = N)
    (hp1 : (rd W1 W2).payload (dcell c qs) 0 0 = holds c src V) (hp2 : (rd W1 W2).payload (dcell n₁ qr) 0 0 = holds n₁ dst V)
    {hsc : dstG.view.ref.isScScratch = false} {hsrc : src.view.WordExact} {hdst : dstG.view.WordExact}
    {hsem : DmaTarget.Typed .vmem (.dma sR) (.remote (Dev.tc n : Thread nD τ) dstG (.dma sS) hsc)}
    {α : Type} {Q : α → sProp 𝕄} {k : PUnit → Prog (TpuEff nD τ sig (Elt F) Λ₀ .tc) α}
    (fs : Buf (Elt F) (src.view.loc (c : Thread nD τ))) (hfs : src.view.read (Elt F) fs = V)
    (fd : Buf (Elt F) (dst.view.loc (n₂ : Thread nD τ))) (O : CellTallies nD τ sig Unit) (W : Waits sig Unit) :
    iprop(cellInv ER (rd W1 W2) κ₁ (dcell c qs) ∗ cellInv ER (rd W1 W2) κ₂ (dcell n₁ qr)
        ∗ (src.view.loc (c : Thread nD τ) ↦[src.view.set]{fullShare} fs) ∗ (dst.view.loc (n₂ : Thread nD τ) ↦[dst.view.set]{fullShare} fd)
        ∗ owes (c : Thread nD τ) (O + tallyAt (dcell n₁ qr) () N) W
        ∗ dutyTok ER (dcell c qs) 0 0 ∗ reached ER (dcell c qs) 0 ∗ dutyTok ER (dcell n₁ qr) 0 0 ∗ reached ER (dcell n₂ qr) 0)
      ⊢ iprop(((cred (tallyAt (dcell c qs) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dstG (.dma sS) hsc) (.dma sR) hsrc hdst hsem) k) Q) := by
  subst hdG
  exact wp_send_slot' W1 W2 c n₁ n₂ hn₁ hn₂ src dstG qs qr hsS hsR κ₁ κ₂ V hds hdr hN hp1 hp2 fs hfs fd O W

/-- The second-phase destination: the slot of the pair of `c` in the peer's receive buffer, and its semaphore there. -/
theorem gather_off4 (c : Dev nD) (h) :
    (Memref.whole cc0_scratch3 : Memref sig .tc .vmem S16x32x1024 .f32).slice (Rect.unit (s := S16x32x1024) (k0_off4 c) S1x32x1024.size (k0_off4_inb c)) h
      = slot16 gatherM (rr c.val) (rr_lt c) := by
  have key : ∀ (off : Fin 3 → ℕ) (e : off = ![rr c.val, 0, 0]) (inb : ∀ a, off a + S1x32x1024.size a ≤ S16x32x1024.size a) (h'),
      (Memref.whole cc0_scratch3 : Memref sig .tc .vmem S16x32x1024 .f32).slice (Rect.unit (s := S16x32x1024) off S1x32x1024.size inb) h' = slot16 gatherM (rr c.val) (rr_lt c) := by
    intro off e; subst e; intros; rfl
  exact key _ (Topo.k0_off4_eq c) _ _
theorem sem_off3 : ∀ c : Dev nD, ((SemArray.slice cc0_scratch7 (Rect.unit (s := S16) (k0_off3 c) S1.size (k0_off3_inb c))).squeeze S_ squeezes_S1_S_).sem = p2rS (pairOf c) := by
  decide +kernel

theorem peer_eq_src0 : ∀ c : Dev nD, peer c (off 0) = src c (off 0) := by decide
theorem peer_eq_src1 : ∀ c : Dev nD, peer c (off 1) = src c (off 2) := by decide
theorem peer_eq_src2 : ∀ c : Dev nD, peer c (off 2) = src c (off 1) := by decide
theorem peer_eq_src3 : ∀ c : Dev nD, peer c (off 3) = src c (off 4) := by decide
theorem peer_eq_src4 : ∀ c : Dev nD, peer c (off 4) = src c (off 3) := by decide
theorem peer_eq_src5 : ∀ c : Dev nD, peer c (off 5) = src c (off 6) := by decide
theorem peer_eq_src6 : ∀ c : Dev nD, peer c (off 6) = src c (off 5) := by decide
theorem peer_eq_src7 : ∀ c : Dev nD, peer c (off 7) = src c (off 8) := by decide
theorem peer_eq_src8 : ∀ c : Dev nD, peer c (off 8) = src c (off 7) := by decide
theorem peer_eq_src9 : ∀ c : Dev nD, peer c (off 9) = src c (off 10) := by decide
theorem peer_eq_src10 : ∀ c : Dev nD, peer c (off 10) = src c (off 9) := by decide
theorem peer_eq_src11 : ∀ c : Dev nD, peer c (off 11) = src c (off 12) := by decide
theorem peer_eq_src12 : ∀ c : Dev nD, peer c (off 12) = src c (off 11) := by decide
theorem peer_eq_src13 : ∀ c : Dev nD, peer c (off 13) = src c (off 14) := by decide
theorem peer_eq_src14 : ∀ c : Dev nD, peer c (off 14) = src c (off 13) := by decide

theorem peer_nbr : ∀ (c : Dev nD) (o : Fin 17), peer (nbr c) o = cross c o := by decide
theorem onSide_peer : ∀ (c : Dev nD) (k : Fin 15), onSide (peer c (off k)) (pairOf c) = c := by decide
theorem offA_off : ∀ k : Fin 15, offA ⟨k.val, by have := k.isLt; omega⟩ = off k := by decide
theorem nbr_val (c : Dev nD) : (nbr c).val = nbrN c.val := rfl

section
variable (W1 W2 : Dev nD → Dev nD → Vec F S1x32x1024 .f32) (c : Dev nD)

/-- The peer's receive cell of the pair of `c`: its duty and what it hands the peer. -/
theorem duties_p2r_peer (k : Fin 15) : (rd (F := F) W1 W2).duties (dcell (peer c (off k)) (p2rS (pairOf c))) 0 = {0} :=
  duties_dma W1 W2 _ _ (by revert c k; decide)
theorem payload_p2r_peer (k : Fin 15) : (rd (F := F) W1 W2).payload (dcell (peer c (off k)) (p2rS (pairOf c))) 0 0
    = holds (peer c (off k)) (slot16 gatherM (rr c.val) (rr_lt c)) (W2 c (peer c (off k))) := by
  rw [payload_dma, dmaPay_p2r, onSide_peer]; rfl

end

theorem peer_full : ∀ c : Dev nD, peer c (offA 15) = c := by decide
theorem onSide_src : ∀ (c : Dev nD) (i : Fin 15), onSide c (pairOf (src c (off i))) = src c (off i) := by decide
theorem pairOf_src_val (c : Dev nD) (i : Fin 15) : (pairOf (src c (off i))).val = rr (src c (off i)).val := rfl

section
variable (W1 W2 : Dev nD → Dev nD → Vec F S1x32x1024 .f32) (c : Dev nD)

/-- The receive cell of `c` for the device `off i` pairs back: its duty, its units, what it hands `c`. -/
theorem duties_p2r_src (i : Fin 15) : (rd (F := F) W1 W2).duties (dcell c (p2rS (pairOf (src c (off i))))) 0 = {0} :=
  duties_dma W1 W2 _ _ (by revert c i; decide)
theorem expect_p2r_src (i : Fin 15) : (rd (F := F) W1 W2).expect (dcell c (p2rS (pairOf (src c (off i))))) 0 = N :=
  expect_dma W1 W2 _ _ (by revert c i; decide)
theorem payload_p2r_src (i : Fin 15) : (rd (F := F) W1 W2).payload (dcell c (p2rS (pairOf (src c (off i))))) 0 0
    = holds c (slot16 gatherM (rr (src c (off i)).val) (rr_lt (src c (off i)))) (W2 (src c (off i)) c) := by
  rw [payload_dma, dmaPay_p2r, onSide_src]; rfl

end

/-! ## Copies of squeezed slots -/

/-- Reading, through a view, what a copy between the two views' reshapes wrote: the source as its own view reads it. -/
theorem read_write_reshape {S S' : Shape} {e : EltTy} (v w : View sig .tc .vmem S e) (h : S'.numel = S.numel)
    (fs : v.ty.Contents (Elt F)) (fd : w.ty.Contents (Elt F)) :
    w.read (Elt F) ((w.reshape S' h).write (Elt F) fd ((v.reshape S' h).read (Elt F) fs) Finset.univ) = v.read (Elt F) fs := by
  funext x
  have hw : w.emb x = (w.reshape S' h).emb ((Shape.reshapeEquiv h).symm x) := by
    rw [View.emb_reshape]; simp
  have hv : (v.reshape S' h).emb ((Shape.reshapeEquiv h).symm x) = v.emb x := by
    rw [View.emb_reshape]; simp
  rw [View.read_apply, hw, View.write_emb_of_mem _ _ (Finset.mem_univ _), View.read_apply, hv, View.read_apply]
  simp

theorem wp_send_sq (W1 W2 : Dev nD → Dev nD → Vec F S1x32x1024 .f32) (c n₁ n₂ : Dev nD) {n : Dev nD} (hn₁ : n = n₁) (hn₂ : n = n₂)
    (src dst : Memref sig .tc .vmem S1x32x1024 .f32) (hq : S1x32x1024.Squeezes S32x1024)
    {srcG dstG : Memref sig .tc .vmem S32x1024 .f32} (hsG : srcG = src.squeeze S32x1024 hq) (hdG : dstG = dst.squeeze S32x1024 hq)
    (qs qr : DmaSem sig) {sS sR : DmaSem sig} (hsS : sS = qs) (hsR : sR = qr)
    (κ₁ κ₂ : ℕ) (V : Vec F S1x32x1024 .f32)
    (hds : (0 : DN) ∈ (rd W1 W2).duties (dcell c qs) 0) (hdr : (0 : DN) ∈ (rd W1 W2).duties (dcell n₁ qr) 0)
    (hN : (dst.squeeze S32x1024 hq).view.amount (.dma qr) = N)
    (hp1 : (rd W1 W2).payload (dcell c qs) 0 0 = holds c src V) (hp2 : (rd W1 W2).payload (dcell n₁ qr) 0 0 = holds n₁ dst V)
    {hsc : dstG.view.ref.isScScratch = false} {hsrc : srcG.view.WordExact} {hdst : dstG.view.WordExact}
    {hsem : DmaTarget.Typed .vmem (.dma sR) (.remote (Dev.tc n : Thread nD τ) dstG (.dma sS) hsc)}
    {α : Type} {Q : α → sProp 𝕄} {k : PUnit → Prog (TpuEff nD τ sig (Elt F) Λ₀ .tc) α}
    (fs : Buf (Elt F) (src.view.loc (c : Thread nD τ))) (hfs : src.view.read (Elt F) fs = V)
    (fd : Buf (Elt F) (dst.view.loc (n₂ : Thread nD τ))) (O : CellTallies nD τ sig Unit) (W : Waits sig Unit) :
    iprop(cellInv ER (rd W1 W2) κ₁ (dcell c qs) ∗ cellInv ER (rd W1 W2) κ₂ (dcell n₁ qr)
        ∗ (src.view.loc (c : Thread nD τ) ↦[src.view.set]{fullShare} fs) ∗ (dst.view.loc (n₂ : Thread nD τ) ↦[dst.view.set]{fullShare} fd)
        ∗ owes (c : Thread nD τ) (O + tallyAt (dcell n₁ qr) () N) W
        ∗ dutyTok ER (dcell c qs) 0 0 ∗ reached ER (dcell c qs) 0 ∗ dutyTok ER (dcell n₁ qr) 0 0 ∗ reached ER (dcell n₂ qr) 0)
      ⊢ iprop(((cred (tallyAt (dcell c qs) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcG (.remote (Dev.tc n : Thread nD τ) dstG (.dma sS) hsc) (.dma sR) hsrc hdst hsem) k) Q) := by
  subst hn₁; subst hn₂; subst hsS; subst hsR; subst hsG; subst hdG
  have hs : (src.squeeze S32x1024 hq).view.set = src.view.set := View.set_reshape src.view _
  have hd : (dst.squeeze S32x1024 hq).view.set = dst.view.set := View.set_reshape dst.view _
  rw [show (src.view.loc (c : Thread nD τ) ↦[src.view.set]{fullShare} fs : sProp 𝕄)
        = ((src.squeeze S32x1024 hq).view.loc (c : Thread nD τ) ↦[(src.squeeze S32x1024 hq).view.set]{fullShare} fs) from by rw [hs],
    show (dst.view.loc (n : Thread nD τ) ↦[dst.view.set]{fullShare} fd : sProp 𝕄)
        = ((dst.squeeze S32x1024 hq).view.loc (n : Thread nD τ) ↦[(dst.squeeze S32x1024 hq).view.set]{fullShare} fd) from by rw [hd]]
  exact Rounds.wp_send_pointsTo 𝒱₀ ER (rd W1 W2) (c : Thread nD τ) none (c' := (Dev.tc n : Thread nD τ)) (src := src.squeeze S32x1024 hq) (dst := dst.squeeze S32x1024 hq)
    (κ₁ := κ₁) (κ₂ := κ₂) (r₁ := 0) (r₂ := 0) (d₁ := 0) (d₂ := 0) (fs := fs) (fd := fd)
    hds hdr () () N hN (amount_dma W1 W2 c sS 0) (amount_dma W1 W2 n sR 0) O rfl (W := W)
    (by rw [hp1, hs]; exact Entails.of_eq (holds_of_read c src fs V hfs))
    (by rw [hp2, hd]
        exact Entails.of_eq (holds_of_read n dst _ V ((read_write_reshape src.view dst.view _ fs fd).trans hfs)))

/-! ## The values -/

section
variable (m : (ℓ : Loc nD τ sig) → Buf (Elt F) ℓ)

theorem xsOf_val (c : Dev nD) : xsOf m c.val = xstg m c := by
  unfold xsOf; exact congrArg (xstg m) (Fin.ext (Nat.mod_eq_of_lt c.isLt))
theorem wsOf_val (c : Dev nD) : wsOf m c.val = wstg m c := by
  unfold wsOf; exact congrArg (wstg m) (Fin.ext (Nat.mod_eq_of_lt c.isLt))

/-- The product of the rows of device `t` of the `x` block of `c` with its `w` block, as the body loads and multiplies them. -/
theorem stage_val (c t : Dev nD) (off : Fin 2 → ℕ) (hoff : off = ![32 * t.val, 0]) (inb : ∀ a, off a + S32x32.size a ≤ S1024x32.size a) :
    up (part (View.readAt (Elt F) (Memref.whole cc0_stg0_0 : Memref sig .tc .vmem S1024x32 .f32).view (Rect.unit (s := S1024x32) off S32x32.size inb).toLoadRect (xstg m c))
          (View.readAt (Elt F) (Memref.whole cc0_stg1_0 : Memref sig .tc .vmem S32x1024 .f32).view (Rect.unit (s := S32x1024) ![0, 0] S32x1024.size inb_S32x1024_S32x1024_0_0).toLoadRect (wstg m c)))
      = W1 m c t := by
  subst hoff
  have e : View.readAt (Elt F) (Memref.whole cc0_stg1_0 : Memref sig .tc .vmem S32x1024 .f32).view (Rect.unit (s := S32x1024) ![0, 0] S32x1024.size inb_S32x1024_S32x1024_0_0).toLoadRect (wstg m c) = wstg m c :=
    Memref.readAt_unit_zero (Elt F) cc0_stg1_0 (funext fun a => by fin_cases a <;> rfl) _ (wstg m c)
  rw [xrows_eq_readAt_stg (xstg m c) t.val t.isLt inb, e]
  unfold W1 pp
  rw [xsOf_val, wsOf_val]

end

/-! ## The second-phase receives of `c`: the semaphore, the credit and the rest of the round as the body meets them -/

theorem sem_off6_0 : ∀ c : Dev nD, ((SemArray.slice cc0_scratch7 (Rect.unit (s := S16) (k0_off6 c 8#32) S1.size (k0_off6_inb c 7))).squeeze S_ squeezes_S1_S_).sem = p2rS (pairOf (src c (off 0))) := by
  decide +kernel
theorem credit_off7_0 (c : Dev nD) (h) : (((Memref.whole cc0_scratch3 : Memref sig .tc .vmem S16x32x1024 .f32).slice (Rect.unit (s := S16x32x1024) (k0_off7 c 8#32) S1x32x1024.size (k0_off7_inb c 7)) h).squeeze S32x1024 squeezes_S1x32x1024_S32x1024).view.dmaCredit = N := by
  first | rfl | (simp [View.dmaCredit]; done)
theorem sem_off6_1 : ∀ c : Dev nD, ((SemArray.slice cc0_scratch7 (Rect.unit (s := S16) (k0_off6 c 7#32) S1.size (k0_off6_inb c 6))).squeeze S_ squeezes_S1_S_).sem = p2rS (pairOf (src c (off 1))) := by
  decide +kernel
theorem credit_off7_1 (c : Dev nD) (h) : (((Memref.whole cc0_scratch3 : Memref sig .tc .vmem S16x32x1024 .f32).slice (Rect.unit (s := S16x32x1024) (k0_off7 c 7#32) S1x32x1024.size (k0_off7_inb c 6)) h).squeeze S32x1024 squeezes_S1x32x1024_S32x1024).view.dmaCredit = N := by
  first | rfl | (simp [View.dmaCredit]; done)
theorem sem_off6_2 : ∀ c : Dev nD, ((SemArray.slice cc0_scratch7 (Rect.unit (s := S16) (k0_off6 c 9#32) S1.size (k0_off6_inb c 8))).squeeze S_ squeezes_S1_S_).sem = p2rS (pairOf (src c (off 2))) := by
  decide +kernel
theorem credit_off7_2 (c : Dev nD) (h) : (((Memref.whole cc0_scratch3 : Memref sig .tc .vmem S16x32x1024 .f32).slice (Rect.unit (s := S16x32x1024) (k0_off7 c 9#32) S1x32x1024.size (k0_off7_inb c 8)) h).squeeze S32x1024 squeezes_S1x32x1024_S32x1024).view.dmaCredit = N := by
  first | rfl | (simp [View.dmaCredit]; done)
theorem sem_off6_3 : ∀ c : Dev nD, ((SemArray.slice cc0_scratch7 (Rect.unit (s := S16) (k0_off6 c 6#32) S1.size (k0_off6_inb c 5))).squeeze S_ squeezes_S1_S_).sem = p2rS (pairOf (src c (off 3))) := by
  decide +kernel
theorem credit_off7_3 (c : Dev nD) (h) : (((Memref.whole cc0_scratch3 : Memref sig .tc .vmem S16x32x1024 .f32).slice (Rect.unit (s := S16x32x1024) (k0_off7 c 6#32) S1x32x1024.size (k0_off7_inb c 5)) h).squeeze S32x1024 squeezes_S1x32x1024_S32x1024).view.dmaCredit = N := by
  first | rfl | (simp [View.dmaCredit]; done)
theorem sem_off6_4 : ∀ c : Dev nD, ((SemArray.slice cc0_scratch7 (Rect.unit (s := S16) (k0_off6 c 10#32) S1.size (k0_off6_inb c 9))).squeeze S_ squeezes_S1_S_).sem = p2rS (pairOf (src c (off 4))) := by
  decide +kernel
theorem credit_off7_4 (c : Dev nD) (h) : (((Memref.whole cc0_scratch3 : Memref sig .tc .vmem S16x32x1024 .f32).slice (Rect.unit (s := S16x32x1024) (k0_off7 c 10#32) S1x32x1024.size (k0_off7_inb c 9)) h).squeeze S32x1024 squeezes_S1x32x1024_S32x1024).view.dmaCredit = N := by
  first | rfl | (simp [View.dmaCredit]; done)
theorem sem_off6_5 : ∀ c : Dev nD, ((SemArray.slice cc0_scratch7 (Rect.unit (s := S16) (k0_off6 c 5#32) S1.size (k0_off6_inb c 4))).squeeze S_ squeezes_S1_S_).sem = p2rS (pairOf (src c (off 5))) := by
  decide +kernel
theorem credit_off7_5 (c : Dev nD) (h) : (((Memref.whole cc0_scratch3 : Memref sig .tc .vmem S16x32x1024 .f32).slice (Rect.unit (s := S16x32x1024) (k0_off7 c 5#32) S1x32x1024.size (k0_off7_inb c 4)) h).squeeze S32x1024 squeezes_S1x32x1024_S32x1024).view.dmaCredit = N := by
  first | rfl | (simp [View.dmaCredit]; done)
theorem sem_off6_6 : ∀ c : Dev nD, ((SemArray.slice cc0_scratch7 (Rect.unit (s := S16) (k0_off6 c 11#32) S1.size (k0_off6_inb c 10))).squeeze S_ squeezes_S1_S_).sem = p2rS (pairOf (src c (off 6))) := by
  decide +kernel
theorem credit_off7_6 (c : Dev nD) (h) : (((Memref.whole cc0_scratch3 : Memref sig .tc .vmem S16x32x1024 .f32).slice (Rect.unit (s := S16x32x1024) (k0_off7 c 11#32) S1x32x1024.size (k0_off7_inb c 10)) h).squeeze S32x1024 squeezes_S1x32x1024_S32x1024).view.dmaCredit = N := by
  first | rfl | (simp [View.dmaCredit]; done)
theorem sem_off6_7 : ∀ c : Dev nD, ((SemArray.slice cc0_scratch7 (Rect.unit (s := S16) (k0_off6 c 4#32) S1.size (k0_off6_inb c 3))).squeeze S_ squeezes_S1_S_).sem = p2rS (pairOf (src c (off 7))) := by
  decide +kernel
theorem credit_off7_7 (c : Dev nD) (h) : (((Memref.whole cc0_scratch3 : Memref sig .tc .vmem S16x32x1024 .f32).slice (Rect.unit (s := S16x32x1024) (k0_off7 c 4#32) S1x32x1024.size (k0_off7_inb c 3)) h).squeeze S32x1024 squeezes_S1x32x1024_S32x1024).view.dmaCredit = N := by
  first | rfl | (simp [View.dmaCredit]; done)
theorem sem_off6_8 : ∀ c : Dev nD, ((SemArray.slice cc0_scratch7 (Rect.unit (s := S16) (k0_off6 c 12#32) S1.size (k0_off6_inb c 11))).squeeze S_ squeezes_S1_S_).sem = p2rS (pairOf (src c (off 8))) := by
  decide +kernel
theorem credit_off7_8 (c : Dev nD) (h) : (((Memref.whole cc0_scratch3 : Memref sig .tc .vmem S16x32x1024 .f32).slice (Rect.unit (s := S16x32x1024) (k0_off7 c 12#32) S1x32x1024.size (k0_off7_inb c 11)) h).squeeze S32x1024 squeezes_S1x32x1024_S32x1024).view.dmaCredit = N := by
  first | rfl | (simp [View.dmaCredit]; done)
theorem sem_off6_9 : ∀ c : Dev nD, ((SemArray.slice cc0_scratch7 (Rect.unit (s := S16) (k0_off6 c 3#32) S1.size (k0_off6_inb c 2))).squeeze S_ squeezes_S1_S_).sem = p2rS (pairOf (src c (off 9))) := by
  decide +kernel
theorem credit_off7_9 (c : Dev nD) (h) : (((Memref.whole cc0_scratch3 : Memref sig .tc .vmem S16x32x1024 .f32).slice (Rect.unit (s := S16x32x1024) (k0_off7 c 3#32) S1x32x1024.size (k0_off7_inb c 2)) h).squeeze S32x1024 squeezes_S1x32x1024_S32x1024).view.dmaCredit = N := by
  first | rfl | (simp [View.dmaCredit]; done)
theorem sem_off6_10 : ∀ c : Dev nD, ((SemArray.slice cc0_scratch7 (Rect.unit (s := S16) (k0_off6 c 13#32) S1.size (k0_off6_inb c 12))).squeeze S_ squeezes_S1_S_).sem = p2rS (pairOf (src c (off 10))) := by
  decide +kernel
theorem credit_off7_10 (c : Dev nD) (h) : (((Memref.whole cc0_scratch3 : Memref sig .tc .vmem S16x32x1024 .f32).slice (Rect.unit (s := S16x32x1024) (k0_off7 c 13#32) S1x32x1024.size (k0_off7_inb c 12)) h).squeeze S32x1024 squeezes_S1x32x1024_S32x1024).view.dmaCredit = N := by
  first | rfl | (simp [View.dmaCredit]; done)
theorem sem_off6_11 : ∀ c : Dev nD, ((SemArray.slice cc0_scratch7 (Rect.unit (s := S16) (k0_off6 c 2#32) S1.size (k0_off6_inb c 1))).squeeze S_ squeezes_S1_S_).sem = p2rS (pairOf (src c (off 11))) := by
  decide +kernel
theorem credit_off7_11 (c : Dev nD) (h) : (((Memref.whole cc0_scratch3 : Memref sig .tc .vmem S16x32x1024 .f32).slice (Rect.unit (s := S16x32x1024) (k0_off7 c 2#32) S1x32x1024.size (k0_off7_inb c 1)) h).squeeze S32x1024 squeezes_S1x32x1024_S32x1024).view.dmaCredit = N := by
  first | rfl | (simp [View.dmaCredit]; done)
theorem sem_off6_12 : ∀ c : Dev nD, ((SemArray.slice cc0_scratch7 (Rect.unit (s := S16) (k0_off6 c 14#32) S1.size (k0_off6_inb c 13))).squeeze S_ squeezes_S1_S_).sem = p2rS (pairOf (src c (off 12))) := by
  decide +kernel
theorem credit_off7_12 (c : Dev nD) (h) : (((Memref.whole cc0_scratch3 : Memref sig .tc .vmem S16x32x1024 .f32).slice (Rect.unit (s := S16x32x1024) (k0_off7 c 14#32) S1x32x1024.size (k0_off7_inb c 13)) h).squeeze S32x1024 squeezes_S1x32x1024_S32x1024).view.dmaCredit = N := by
  first | rfl | (simp [View.dmaCredit]; done)
theorem sem_off6_13 : ∀ c : Dev nD, ((SemArray.slice cc0_scratch7 (Rect.unit (s := S16) (k0_off6 c 1#32) S1.size (k0_off6_inb c 0))).squeeze S_ squeezes_S1_S_).sem = p2rS (pairOf (src c (off 13))) := by
  decide +kernel
theorem credit_off7_13 (c : Dev nD) (h) : (((Memref.whole cc0_scratch3 : Memref sig .tc .vmem S16x32x1024 .f32).slice (Rect.unit (s := S16x32x1024) (k0_off7 c 1#32) S1x32x1024.size (k0_off7_inb c 0)) h).squeeze S32x1024 squeezes_S1x32x1024_S32x1024).view.dmaCredit = N := by
  first | rfl | (simp [View.dmaCredit]; done)
theorem sem_off6_14 : ∀ c : Dev nD, ((SemArray.slice cc0_scratch7 (Rect.unit (s := S16) (k0_off6 c 15#32) S1.size (k0_off6_inb c 14))).squeeze S_ squeezes_S1_S_).sem = p2rS (pairOf (src c (off 14))) := by
  decide +kernel
theorem credit_off7_14 (c : Dev nD) (h) : (((Memref.whole cc0_scratch3 : Memref sig .tc .vmem S16x32x1024 .f32).slice (Rect.unit (s := S16x32x1024) (k0_off7 c 15#32) S1x32x1024.size (k0_off7_inb c 14)) h).squeeze S32x1024 squeezes_S1x32x1024_S32x1024).view.dmaCredit = N := by
  first | rfl | (simp [View.dmaCredit]; done)

section
variable (W1 W2 : Dev nD → Dev nD → Vec F S1x32x1024 .f32) (c : Dev nD)

theorem rest_p2r_src (i : Fin 15) :
    bigSep ((rd (F := F) W1 W2).duties (dcell c (p2rS (pairOf (src c (off i))))) 0 \ ∅) (fun d => (rd (F := F) W1 W2).payload (dcell c (p2rS (pairOf (src c (off i))))) 0 d)
      = holds c (slot16 gatherM (rr (src c (off i)).val) (rr_lt (src c (off i)))) (W2 (src c (off i)) c) := by
  rw [Finset.sdiff_empty, duties_p2r_src, bigSep_singleton, payload_p2r_src]

end

theorem offA_castSucc : ∀ k : Fin 15, offA (Fin.castSucc k) = off k := by decide

section
variable (m : (ℓ : Loc nD τ sig) → Buf (Elt F) ℓ)

/-- The sum device `c` sends its peer `off k` further on: its own product for that peer's rows plus its partner's. -/
theorem pair_val (c : Dev nD) (k : Fin 15) (off2 : Fin 2 → ℕ) (hoff : off2 = ![32 * (peer c (off k)).val, 0]) (inb : ∀ a, off2 a + S32x32.size a ≤ S1024x32.size a) :
    up (addf (part (View.readAt (Elt F) (Memref.whole cc0_stg0_0 : Memref sig .tc .vmem S1024x32 .f32).view (Rect.unit (s := S1024x32) off2 S32x32.size inb).toLoadRect (xstg m c))
          (View.readAt (Elt F) (Memref.whole cc0_stg1_0 : Memref sig .tc .vmem S32x1024 .f32).view (Rect.unit (s := S32x1024) ![0, 0] S32x1024.size inb_S32x1024_S32x1024_0_0).toLoadRect (wstg m c)))
        (down (W1 m (nbr c) (peer c (offA (Fin.castSucc k))))))
      = W2 m c (peer c (off k)) := by
  subst hoff
  have e : View.readAt (Elt F) (Memref.whole cc0_stg1_0 : Memref sig .tc .vmem S32x1024 .f32).view (Rect.unit (s := S32x1024) ![0, 0] S32x1024.size inb_S32x1024_S32x1024_0_0).toLoadRect (wstg m c) = wstg m c :=
    Memref.readAt_unit_zero (Elt F) cc0_stg1_0 (funext fun a => by fin_cases a <;> rfl) _ (wstg m c)
  rw [xrows_eq_readAt_stg (xstg m c) (peer c (off k)).val (peer c (off k)).isLt inb, e, offA_castSucc]
  have h3 := xsOf_val m (nbr c)
  have h4 := wsOf_val m (nbr c)
  rw [nbr_val] at h3 h4
  unfold W2 W1 pair pp
  rw [xsOf_val m (nbr c), wsOf_val m (nbr c), xsOf_val m c, wsOf_val m c, h3, h4]

end

theorem used_p2r_src' : ∀ (c : Dev nD) (i : Fin 15), used c (p2rS (pairOf (src c (off i)))) := by decide
theorem not_used_own (c : Dev nD) : ¬ used c (p2rS (pairOf c)) := fun h => h.2 rfl

/-! ## The result buffer -/

/-- The last store through the whole of the result's staging buffer decides what it holds. -/
theorem out_writes (c : Dev nD) (fo : Buf (Elt F) ((Memref.whole cc0_stg2_0 : Memref sig .tc .vmem S32x1024 .f32).view.loc (c : Thread nD τ)))
    (P : Vec F S32x1024 .f32) (L : List (View.Piece (Elt F) S32x1024 .f32)) :
    (Memref.whole cc0_stg2_0 : Memref sig .tc .vmem S32x1024 .f32).view.writes (Elt F) fo
        ((⟨Rect.unit (s := S32x1024) ![0, 0] S32x1024.size inb_S32x1024_S32x1024_0_0, P⟩ : View.Piece (Elt F) S32x1024 .f32) :: L) = P := by
  have hz : (![0, 0] : Fin 2 → ℕ) = fun _ => 0 := funext fun a => by fin_cases a <;> rfl
  have h1 := View.read_writes_eq_canon (Val := Elt F) (Memref.whole cc0_stg2_0 : Memref sig .tc .vmem S32x1024 .f32).view fo
    ((⟨Rect.unit (s := S32x1024) ![0, 0] S32x1024.size inb_S32x1024_S32x1024_0_0, P⟩ : View.Piece (Elt F) S32x1024 .f32) :: L)
    (fun y => ⟨_, List.mem_cons_self .., View.mem_set_unit_zero hz inb_S32x1024_S32x1024_0_0 y⟩)
  have h2 := View.canon_cons_unit_zero (Val := Elt F) hz inb_S32x1024_S32x1024_0_0 P L
  have h3 : (Memref.whole cc0_stg2_0 : Memref sig .tc .vmem S32x1024 .f32).view.read (Elt F)
      ((Memref.whole cc0_stg2_0 : Memref sig .tc .vmem S32x1024 .f32).view.writes (Elt F) fo
        ((⟨Rect.unit (s := S32x1024) ![0, 0] S32x1024.size inb_S32x1024_S32x1024_0_0, P⟩ : View.Piece (Elt F) S32x1024 .f32) :: L))
      = (Memref.whole cc0_stg2_0 : Memref sig .tc .vmem S32x1024 .f32).view.writes (Elt F) fo
        ((⟨Rect.unit (s := S32x1024) ![0, 0] S32x1024.size inb_S32x1024_S32x1024_0_0, P⟩ : View.Piece (Elt F) S32x1024 .f32) :: L) := View.read_whole _ _
  exact h3.symm.trans (h1.trans h2)

section
variable (m : (ℓ : Loc nD τ sig) → Buf (Elt F) ℓ)

theorem srcN_val (c : Dev nD) (i : Fin 15) : (src c (off i)).val = srcN c.val (offs i) := rfl

/-- The first value of the result: the product of the device's own rows with its `w` block plus its partner's. -/
theorem out0_val (c : Dev nD) (inb : ∀ a, (k0_off5 c) a + S32x32.size a ≤ S1024x32.size a) :
    addf (part (View.readAt (Elt F) (Memref.whole cc0_stg0_0 : Memref sig .tc .vmem S1024x32 .f32).view (Rect.unit (s := S1024x32) (k0_off5 c) S32x32.size inb).toLoadRect (xstg m c))
          (View.readAt (Elt F) (Memref.whole cc0_stg1_0 : Memref sig .tc .vmem S32x1024 .f32).view (Rect.unit (s := S32x1024) ![0, 0] S32x1024.size inb_S32x1024_S32x1024_0_0).toLoadRect (wstg m c)))
        (down (W1 m (nbr c) (peer c (offA 15))))
      = outN (xsOf m) (wsOf m) c.val 0 := by
  have key : ∀ (off5 : Fin 2 → ℕ) (e5 : off5 = ![32 * c.val, 0]) (inb : ∀ a, off5 a + S32x32.size a ≤ S1024x32.size a),
      addf (part (View.readAt (Elt F) (Memref.whole cc0_stg0_0 : Memref sig .tc .vmem S1024x32 .f32).view (Rect.unit (s := S1024x32) off5 S32x32.size inb).toLoadRect (xstg m c))
          (View.readAt (Elt F) (Memref.whole cc0_stg1_0 : Memref sig .tc .vmem S32x1024 .f32).view (Rect.unit (s := S32x1024) ![0, 0] S32x1024.size inb_S32x1024_S32x1024_0_0).toLoadRect (wstg m c)))
        (down (W1 m (nbr c) (peer c (offA 15))))
      = outN (xsOf m) (wsOf m) c.val 0 := by
    intro off5 e5 inb
    subst e5
    have e : View.readAt (Elt F) (Memref.whole cc0_stg1_0 : Memref sig .tc .vmem S32x1024 .f32).view (Rect.unit (s := S32x1024) ![0, 0] S32x1024.size inb_S32x1024_S32x1024_0_0).toLoadRect (wstg m c) = wstg m c :=
      Memref.readAt_unit_zero (Elt F) cc0_stg1_0 (funext fun a => by fin_cases a <;> rfl) _ (wstg m c)
    have h3 := xsOf_val m (nbr c)
    have h4 := wsOf_val m (nbr c)
    rw [nbr_val] at h3 h4
    rw [xrows_eq_readAt_stg (xstg m c) c.val c.isLt inb, e, peer_full, outN_zero]
    unfold W1 pp
    rw [xsOf_val m (nbr c), wsOf_val m (nbr c), xsOf_val m c, wsOf_val m c, h3, h4]
  exact key _ (k0_off5_eq c) inb

/-- Adding the sum of the device `off i` pairs back. -/
theorem outS_val (c : Dev nD) (i : Fin 15) (prev : Vec F S32x1024 .f32) (hprev : prev = outN (xsOf m) (wsOf m) c.val i.val) :
    addf (same prev) (down (W2 m (src c (off i)) c)) = outN (xsOf m) (wsOf m) c.val (i.val + 1) := by
  subst hprev
  rw [outN_succ]
  unfold W2
  rfl

end

/-! ## The result's history: sixteen stores through the whole buffer, each but the first adding to what the last left -/

abbrev outRect : Rect S32x1024 := Rect.unit (s := S32x1024) ![0, 0] S32x1024.size inb_S32x1024_S32x1024_0_0

/-- The newest store of the history `L` wrote `P`. -/
def HeadIs (P : Vec F S32x1024 .f32) (L : List (View.Piece (Elt F) S32x1024 .f32)) : Prop :=
  ∃ L', L = (⟨outRect, P⟩ : View.Piece (Elt F) S32x1024 .f32) :: L'

theorem headIs_base (P Q : Vec F S32x1024 .f32) (L' : List (View.Piece (Elt F) S32x1024 .f32)) (h : P = Q) :
    HeadIs Q ((⟨outRect, P⟩ : View.Piece (Elt F) S32x1024 .f32) :: L') := ⟨L', by rw [h]⟩

theorem readCov_head (P : Vec F S32x1024 .f32) (L : List (View.Piece (Elt F) S32x1024 .f32)) (h : HeadIs P L) :
    (Memref.whole cc0_stg2_0 : Memref sig .tc .vmem S32x1024 .f32).view.readCov L outRect.toLoadRect = P := by
  obtain ⟨L', rfl⟩ := h
  have hz : (![0, 0] : Fin 2 → ℕ) = fun _ => 0 := funext fun a => by fin_cases a <;> rfl
  rw [View.readCov_eq_canon_ld _ _ _ (fun y => ⟨_, List.mem_cons_self .., View.mem_set_unit_zero hz inb_S32x1024_S32x1024_0_0 _⟩)]
  have h2 := View.canon_cons_unit_zero (Val := Elt F) hz inb_S32x1024_S32x1024_0_0 P L'
  exact (congrArg (fun X => View.ld X outRect) h2).trans (View.ld_unit_zero hz inb_S32x1024_S32x1024_0_0 P)

theorem out_of_head (c : Dev nD) (fo : Buf (Elt F) ((Memref.whole cc0_stg2_0 : Memref sig .tc .vmem S32x1024 .f32).view.loc (c : Thread nD τ))) (P : Vec F S32x1024 .f32)
    (L : List (View.Piece (Elt F) S32x1024 .f32)) (h : HeadIs P L) : (Memref.whole cc0_stg2_0 : Memref sig .tc .vmem S32x1024 .f32).view.writes (Elt F) fo L = P := by
  obtain ⟨L', rfl⟩ := h; exact out_writes c fo P L'

section
variable (m : (ℓ : Loc nD τ sig) → Buf (Elt F) ℓ)

theorem headIs_step (c : Dev nD) (i : Fin 15) (L : List (View.Piece (Elt F) S32x1024 .f32)) (gv : Vec F S1x32x1024 .f32)
    (hg : gv = W2 m (src c (off i)) c) (h : HeadIs (outN (xsOf m) (wsOf m) c.val i.val) L) :
    HeadIs (outN (xsOf m) (wsOf m) c.val (i.val + 1))
      ((⟨outRect, addf (same ((Memref.whole cc0_stg2_0 : Memref sig .tc .vmem S32x1024 .f32).view.readCov L outRect.toLoadRect)) (down gv)⟩ : View.Piece (Elt F) S32x1024 .f32) :: L) :=
  ⟨L, by rw [readCov_head _ _ h, hg, outS_val m c i _ rfl]⟩

/-- A load of the slot the device `off i` pairs back wrote, through the receive buffer at the printed offset. -/
theorem gather_read (c : Dev nD) (i : Fin 15) (off8 : Fin 3 → ℕ) (h8 : off8 = ![rr (src c (off i)).val, 0, 0])
    (inb : ∀ a, off8 a + S1x32x1024.size a ≤ S16x32x1024.size a) (V : Vec F S1x32x1024 .f32) :
    View.readAt (Elt F) gatherM.view (Rect.unit (s := S16x32x1024) off8 S1x32x1024.size inb).toLoadRect
        (put c (slot16 gatherM (rr (src c (off i)).val) (rr_lt (src c (off i)))) V) = V := by
  subst h8; exact read_put c _ V

end

end Cert.KernelIdeal.Proto

end
-- ==== Proof.Joins.lean ====
/-
  The scratch buffers and their slots: a buffer held whole is its slots held one by one, and back;
  the cells of the scratch semaphores closed once their one round is consumed.
-/
import proofs.«900440_g7700000000000441_dist_gemm_rs_m1024_k1024_n1024_f32_none_v7x_i32_1_alg».proof.Proof.BodyStmt

set_option maxRecDepth 16384

noncomputable section

namespace Cert.KernelIdeal.Proto

open Cert.KernelIdeal Cert.KernelIdeal.Gen Cert.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ### The slots of `stageM` -/

theorem mem_slot_stage (k : ℕ) (hk : k < 16) (i : (cc0_scratch0 : Ref sig .tc).ty.shape.Idx) :
    i ∈ (slot16 stageM k hk).view.set ↔ (i 0).val = k := by
  show i ∈ ((View.whole cc0_scratch0).slice (Rect.unit (s := S16x32x1024) ![k, 0, 0] S1x32x1024.size (slot_inb16 ⟨k, hk⟩))).set ↔ _
  rw [View.set_slice_whole, Rect.mem_set_unit]
  have e0 : S1x32x1024.size 0 = 1 := rfl
  have e1 : S1x32x1024.size 1 = 32 := rfl
  have e2 : S1x32x1024.size 2 = 1024 := rfl
  have v0 : (![k, 0, 0] : Fin 3 → ℕ) 0 = k := rfl
  have v1 : (![k, 0, 0] : Fin 3 → ℕ) 1 = 0 := rfl
  have v2 : (![k, 0, 0] : Fin 3 → ℕ) 2 = 0 := rfl
  have l1 : (i 1).val < 32 := (i 1).isLt
  have l2 : (i 2).val < 1024 := (i 2).isLt
  constructor
  · intro h
    have h0 : (![k, 0, 0] : Fin 3 → ℕ) 0 ≤ (i 0).val ∧ (i 0).val < (![k, 0, 0] : Fin 3 → ℕ) 0 + S1x32x1024.size 0 := h 0
    omega
  · intro h a
    rcases a with ⟨_ | _ | _ | a, ha⟩
    · show (![k, 0, 0] : Fin 3 → ℕ) 0 ≤ (i 0).val ∧ (i 0).val < (![k, 0, 0] : Fin 3 → ℕ) 0 + S1x32x1024.size 0
      omega
    · show (![k, 0, 0] : Fin 3 → ℕ) 1 ≤ (i 1).val ∧ (i 1).val < (![k, 0, 0] : Fin 3 → ℕ) 1 + S1x32x1024.size 1
      omega
    · show (![k, 0, 0] : Fin 3 → ℕ) 2 ≤ (i 2).val ∧ (i 2).val < (![k, 0, 0] : Fin 3 → ℕ) 2 + S1x32x1024.size 2
      omega
    · exact absurd ha (by show ¬ (a + 3 < 3); omega)

/-- The elements of slot `k`. -/
abbrev slotSet_stage (k : Fin 16) : Finset (cc0_scratch0 : Ref sig .tc).ty.shape.Idx := (slot16 stageM k.val k.isLt).view.set

theorem slots_disjoint_stage (k k' : Fin 16) (h : k ≠ k') : Disjoint (slotSet_stage k) (slotSet_stage k') :=
  Finset.disjoint_left.mpr fun i hi hi' => h (Fin.ext (((mem_slot_stage k.val k.isLt i).mp hi).symm.trans ((mem_slot_stage k'.val k'.isLt i).mp hi')))

theorem slots_cover_stage : (Finset.univ : Finset (Fin 16)).biUnion (fun k => slotSet_stage k) = Finset.univ := by
  ext i
  simp only [Finset.mem_biUnion, Finset.mem_univ, true_and, iff_true]
  have hlt : (i 0).val < 16 := (i 0).isLt
  exact ⟨⟨(i 0).val, hlt⟩, (mem_slot_stage (i 0).val hlt i).mpr rfl⟩

/-- The buffer held whole is its slots held one by one, at the same contents. -/
theorem cut_stage (c : Dev nD) (f : Buf (Elt F) ((c : Thread nD τ).loc cc0_scratch0)) :
    (((c : Thread nD τ).loc cc0_scratch0) ↦{fullShare} f : sProp 𝕄)
      = bigSep Finset.univ fun k : Fin 16 => (((c : Thread nD τ).loc cc0_scratch0) ↦[slotSet_stage k]{fullShare} f) := by
  rw [← pointsTo_biUnion (ℓ := (c : Thread nD τ).loc cc0_scratch0) (q := fullShare) (f := f) (Finset.univ : Finset (Fin 16)) (fun k => slotSet_stage k)
    (fun k _ k' _ h => slots_disjoint_stage k k' h), slots_cover_stage]

/-- The slots held one by one at any contents make the buffer held whole at some contents. -/
theorem joinS_stage (c : Dev nD) (g : Fin 16 → Buf (Elt F) ((c : Thread nD τ).loc cc0_scratch0)) :
    (bigSep Finset.univ fun k : Fin 16 => (((c : Thread nD τ).loc cc0_scratch0) ↦[slotSet_stage k]{fullShare} g k : sProp 𝕄))
      ⊢ iprop(∃ f, ((c : Thread nD τ).loc cc0_scratch0) ↦{fullShare} f) := by
  refine (pointsTo_biUnion_join (ℓ := (c : Thread nD τ).loc cc0_scratch0) (q := fullShare) (Finset.univ : Finset (Fin 16)) (fun k => slotSet_stage k) g (g 0)
    (fun k _ k' _ h => slots_disjoint_stage k k' h)).trans ?_
  rw [slots_cover_stage]
  iintro ⟨%f, -, H⟩
  iexists f; iexact H

/-! ### The slots of `inboxM` -/

theorem mem_slot_inbox (k : ℕ) (hk : k < 16) (i : (cc0_scratch1 : Ref sig .tc).ty.shape.Idx) :
    i ∈ (slot16 inboxM k hk).view.set ↔ (i 0).val = k := by
  show i ∈ ((View.whole cc0_scratch1).slice (Rect.unit (s := S16x32x1024) ![k, 0, 0] S1x32x1024.size (slot_inb16 ⟨k, hk⟩))).set ↔ _
  rw [View.set_slice_whole, Rect.mem_set_unit]
  have e0 : S1x32x1024.size 0 = 1 := rfl
  have e1 : S1x32x1024.size 1 = 32 := rfl
  have e2 : S1x32x1024.size 2 = 1024 := rfl
  have v0 : (![k, 0, 0] : Fin 3 → ℕ) 0 = k := rfl
  have v1 : (![k, 0, 0] : Fin 3 → ℕ) 1 = 0 := rfl
  have v2 : (![k, 0, 0] : Fin 3 → ℕ) 2 = 0 := rfl
  have l1 : (i 1).val < 32 := (i 1).isLt
  have l2 : (i 2).val < 1024 := (i 2).isLt
  constructor
  · intro h
    have h0 : (![k, 0, 0] : Fin 3 → ℕ) 0 ≤ (i 0).val ∧ (i 0).val < (![k, 0, 0] : Fin 3 → ℕ) 0 + S1x32x1024.size 0 := h 0
    omega
  · intro h a
    rcases a with ⟨_ | _ | _ | a, ha⟩
    · show (![k, 0, 0] : Fin 3 → ℕ) 0 ≤ (i 0).val ∧ (i 0).val < (![k, 0, 0] : Fin 3 → ℕ) 0 + S1x32x1024.size 0
      omega
    · show (![k, 0, 0] : Fin 3 → ℕ) 1 ≤ (i 1).val ∧ (i 1).val < (![k, 0, 0] : Fin 3 → ℕ) 1 + S1x32x1024.size 1
      omega
    · show (![k, 0, 0] : Fin 3 → ℕ) 2 ≤ (i 2).val ∧ (i 2).val < (![k, 0, 0] : Fin 3 → ℕ) 2 + S1x32x1024.size 2
      omega
    · exact absurd ha (by show ¬ (a + 3 < 3); omega)

/-- The elements of slot `k`. -/
abbrev slotSet_inbox (k : Fin 16) : Finset (cc0_scratch1 : Ref sig .tc).ty.shape.Idx := (slot16 inboxM k.val k.isLt).view.set

theorem slots_disjoint_inbox (k k' : Fin 16) (h : k ≠ k') : Disjoint (slotSet_inbox k) (slotSet_inbox k') :=
  Finset.disjoint_left.mpr fun i hi hi' => h (Fin.ext (((mem_slot_inbox k.val k.isLt i).mp hi).symm.trans ((mem_slot_inbox k'.val k'.isLt i).mp hi')))

theorem slots_cover_inbox : (Finset.univ : Finset (Fin 16)).biUnion (fun k => slotSet_inbox k) = Finset.univ := by
  ext i
  simp only [Finset.mem_biUnion, Finset.mem_univ, true_and, iff_true]
  have hlt : (i 0).val < 16 := (i 0).isLt
  exact ⟨⟨(i 0).val, hlt⟩, (mem_slot_inbox (i 0).val hlt i).mpr rfl⟩

/-- The buffer held whole is its slots held one by one, at the same contents. -/
theorem cut_inbox (c : Dev nD) (f : Buf (Elt F) ((c : Thread nD τ).loc cc0_scratch1)) :
    (((c : Thread nD τ).loc cc0_scratch1) ↦{fullShare} f : sProp 𝕄)
      = bigSep Finset.univ fun k : Fin 16 => (((c : Thread nD τ).loc cc0_scratch1) ↦[slotSet_inbox k]{fullShare} f) := by
  rw [← pointsTo_biUnion (ℓ := (c : Thread nD τ).loc cc0_scratch1) (q := fullShare) (f := f) (Finset.univ : Finset (Fin 16)) (fun k => slotSet_inbox k)
    (fun k _ k' _ h => slots_disjoint_inbox k k' h), slots_cover_inbox]

/-- The slots held one by one at any contents make the buffer held whole at some contents. -/
theorem joinS_inbox (c : Dev nD) (g : Fin 16 → Buf (Elt F) ((c : Thread nD τ).loc cc0_scratch1)) :
    (bigSep Finset.univ fun k : Fin 16 => (((c : Thread nD τ).loc cc0_scratch1) ↦[slotSet_inbox k]{fullShare} g k : sProp 𝕄))
      ⊢ iprop(∃ f, ((c : Thread nD τ).loc cc0_scratch1) ↦{fullShare} f) := by
  refine (pointsTo_biUnion_join (ℓ := (c : Thread nD τ).loc cc0_scratch1) (q := fullShare) (Finset.univ : Finset (Fin 16)) (fun k => slotSet_inbox k) g (g 0)
    (fun k _ k' _ h => slots_disjoint_inbox k k' h)).trans ?_
  rw [slots_cover_inbox]
  iintro ⟨%f, -, H⟩
  iexists f; iexact H

/-! ### The slots of `outboxM` -/

theorem mem_slot_outbox (k : ℕ) (hk : k < 15) (i : (cc0_scratch2 : Ref sig .tc).ty.shape.Idx) :
    i ∈ (slot15 outboxM k hk).view.set ↔ (i 0).val = k := by
  show i ∈ ((View.whole cc0_scratch2).slice (Rect.unit (s := S15x32x1024) ![k, 0, 0] S1x32x1024.size (slot_inb15 ⟨k, hk⟩))).set ↔ _
  rw [View.set_slice_whole, Rect.mem_set_unit]
  have e0 : S1x32x1024.size 0 = 1 := rfl
  have e1 : S1x32x1024.size 1 = 32 := rfl
  have e2 : S1x32x1024.size 2 = 1024 := rfl
  have v0 : (![k, 0, 0] : Fin 3 → ℕ) 0 = k := rfl
  have v1 : (![k, 0, 0] : Fin 3 → ℕ) 1 = 0 := rfl
  have v2 : (![k, 0, 0] : Fin 3 → ℕ) 2 = 0 := rfl
  have l1 : (i 1).val < 32 := (i 1).isLt
  have l2 : (i 2).val < 1024 := (i 2).isLt
  constructor
  · intro h
    have h0 : (![k, 0, 0] : Fin 3 → ℕ) 0 ≤ (i 0).val ∧ (i 0).val < (![k, 0, 0] : Fin 3 → ℕ) 0 + S1x32x1024.size 0 := h 0
    omega
  · intro h a
    rcases a with ⟨_ | _ | _ | a, ha⟩
    · show (![k, 0, 0] : Fin 3 → ℕ) 0 ≤ (i 0).val ∧ (i 0).val < (![k, 0, 0] : Fin 3 → ℕ) 0 + S1x32x1024.size 0
      omega
    · show (![k, 0, 0] : Fin 3 → ℕ) 1 ≤ (i 1).val ∧ (i 1).val < (![k, 0, 0] : Fin 3 → ℕ) 1 + S1x32x1024.size 1
      omega
    · show (![k, 0, 0] : Fin 3 → ℕ) 2 ≤ (i 2).val ∧ (i 2).val < (![k, 0, 0] : Fin 3 → ℕ) 2 + S1x32x1024.size 2
      omega
    · exact absurd ha (by show ¬ (a + 3 < 3); omega)

/-- The elements of slot `k`. -/
abbrev slotSet_outbox (k : Fin 15) : Finset (cc0_scratch2 : Ref sig .tc).ty.shape.Idx := (slot15 outboxM k.val k.isLt).view.set

theorem slots_disjoint_outbox (k k' : Fin 15) (h : k ≠ k') : Disjoint (slotSet_outbox k) (slotSet_outbox k') :=
  Finset.disjoint_left.mpr fun i hi hi' => h (Fin.ext (((mem_slot_outbox k.val k.isLt i).mp hi).symm.trans ((mem_slot_outbox k'.val k'.isLt i).mp hi')))

theorem slots_cover_outbox : (Finset.univ : Finset (Fin 15)).biUnion (fun k => slotSet_outbox k) = Finset.univ := by
  ext i
  simp only [Finset.mem_biUnion, Finset.mem_univ, true_and, iff_true]
  have hlt : (i 0).val < 15 := (i 0).isLt
  exact ⟨⟨(i 0).val, hlt⟩, (mem_slot_outbox (i 0).val hlt i).mpr rfl⟩

/-- The buffer held whole is its slots held one by one, at the same contents. -/
theorem cut_outbox (c : Dev nD) (f : Buf (Elt F) ((c : Thread nD τ).loc cc0_scratch2)) :
    (((c : Thread nD τ).loc cc0_scratch2) ↦{fullShare} f : sProp 𝕄)
      = bigSep Finset.univ fun k : Fin 15 => (((c : Thread nD τ).loc cc0_scratch2) ↦[slotSet_outbox k]{fullShare} f) := by
  rw [← pointsTo_biUnion (ℓ := (c : Thread nD τ).loc cc0_scratch2) (q := fullShare) (f := f) (Finset.univ : Finset (Fin 15)) (fun k => slotSet_outbox k)
    (fun k _ k' _ h => slots_disjoint_outbox k k' h), slots_cover_outbox]

/-- The slots held one by one at any contents make the buffer held whole at some contents. -/
theorem joinS_outbox (c : Dev nD) (g : Fin 15 → Buf (Elt F) ((c : Thread nD τ).loc cc0_scratch2)) :
    (bigSep Finset.univ fun k : Fin 15 => (((c : Thread nD τ).loc cc0_scratch2) ↦[slotSet_outbox k]{fullShare} g k : sProp 𝕄))
      ⊢ iprop(∃ f, ((c : Thread nD τ).loc cc0_scratch2) ↦{fullShare} f) := by
  refine (pointsTo_biUnion_join (ℓ := (c : Thread nD τ).loc cc0_scratch2) (q := fullShare) (Finset.univ : Finset (Fin 15)) (fun k => slotSet_outbox k) g (g 0)
    (fun k _ k' _ h => slots_disjoint_outbox k k' h)).trans ?_
  rw [slots_cover_outbox]
  iintro ⟨%f, -, H⟩
  iexists f; iexact H

/-! ### The slots of `gatherM` -/

theorem mem_slot_gather (k : ℕ) (hk : k < 16) (i : (cc0_scratch3 : Ref sig .tc).ty.shape.Idx) :
    i ∈ (slot16 gatherM k hk).view.set ↔ (i 0).val = k := by
  show i ∈ ((View.whole cc0_scratch3).slice (Rect.unit (s := S16x32x1024) ![k, 0, 0] S1x32x1024.size (slot_inb16 ⟨k, hk⟩))).set ↔ _
  rw [View.set_slice_whole, Rect.mem_set_unit]
  have e0 : S1x32x1024.size 0 = 1 := rfl
  have e1 : S1x32x1024.size 1 = 32 := rfl
  have e2 : S1x32x1024.size 2 = 1024 := rfl
  have v0 : (![k, 0, 0] : Fin 3 → ℕ) 0 = k := rfl
  have v1 : (![k, 0, 0] : Fin 3 → ℕ) 1 = 0 := rfl
  have v2 : (![k, 0, 0] : Fin 3 → ℕ) 2 = 0 := rfl
  have l1 : (i 1).val < 32 := (i 1).isLt
  have l2 : (i 2).val < 1024 := (i 2).isLt
  constructor
  · intro h
    have h0 : (![k, 0, 0] : Fin 3 → ℕ) 0 ≤ (i 0).val ∧ (i 0).val < (![k, 0, 0] : Fin 3 → ℕ) 0 + S1x32x1024.size 0 := h 0
    omega
  · intro h a
    rcases a with ⟨_ | _ | _ | a, ha⟩
    · show (![k, 0, 0] : Fin 3 → ℕ) 0 ≤ (i 0).val ∧ (i 0).val < (![k, 0, 0] : Fin 3 → ℕ) 0 + S1x32x1024.size 0
      omega
    · show (![k, 0, 0] : Fin 3 → ℕ) 1 ≤ (i 1).val ∧ (i 1).val < (![k, 0, 0] : Fin 3 → ℕ) 1 + S1x32x1024.size 1
      omega
    · show (![k, 0, 0] : Fin 3 → ℕ) 2 ≤ (i 2).val ∧ (i 2).val < (![k, 0, 0] : Fin 3 → ℕ) 2 + S1x32x1024.size 2
      omega
    · exact absurd ha (by show ¬ (a + 3 < 3); omega)

/-- The elements of slot `k`. -/
abbrev slotSet_gather (k : Fin 16) : Finset (cc0_scratch3 : Ref sig .tc).ty.shape.Idx := (slot16 gatherM k.val k.isLt).view.set

theorem slots_disjoint_gather (k k' : Fin 16) (h : k ≠ k') : Disjoint (slotSet_gather k) (slotSet_gather k') :=
  Finset.disjoint_left.mpr fun i hi hi' => h (Fin.ext (((mem_slot_gather k.val k.isLt i).mp hi).symm.trans ((mem_slot_gather k'.val k'.isLt i).mp hi')))

theorem slots_cover_gather : (Finset.univ : Finset (Fin 16)).biUnion (fun k => slotSet_gather k) = Finset.univ := by
  ext i
  simp only [Finset.mem_biUnion, Finset.mem_univ, true_and, iff_true]
  have hlt : (i 0).val < 16 := (i 0).isLt
  exact ⟨⟨(i 0).val, hlt⟩, (mem_slot_gather (i 0).val hlt i).mpr rfl⟩

/-- The buffer held whole is its slots held one by one, at the same contents. -/
theorem cut_gather (c : Dev nD) (f : Buf (Elt F) ((c : Thread nD τ).loc cc0_scratch3)) :
    (((c : Thread nD τ).loc cc0_scratch3) ↦{fullShare} f : sProp 𝕄)
      = bigSep Finset.univ fun k : Fin 16 => (((c : Thread nD τ).loc cc0_scratch3) ↦[slotSet_gather k]{fullShare} f) := by
  rw [← pointsTo_biUnion (ℓ := (c : Thread nD τ).loc cc0_scratch3) (q := fullShare) (f := f) (Finset.univ : Finset (Fin 16)) (fun k => slotSet_gather k)
    (fun k _ k' _ h => slots_disjoint_gather k k' h), slots_cover_gather]

/-- The slots held one by one at any contents make the buffer held whole at some contents. -/
theorem joinS_gather (c : Dev nD) (g : Fin 16 → Buf (Elt F) ((c : Thread nD τ).loc cc0_scratch3)) :
    (bigSep Finset.univ fun k : Fin 16 => (((c : Thread nD τ).loc cc0_scratch3) ↦[slotSet_gather k]{fullShare} g k : sProp 𝕄))
      ⊢ iprop(∃ f, ((c : Thread nD τ).loc cc0_scratch3) ↦{fullShare} f) := by
  refine (pointsTo_biUnion_join (ℓ := (c : Thread nD τ).loc cc0_scratch3) (q := fullShare) (Finset.univ : Finset (Fin 16)) (fun k => slotSet_gather k) g (g 0)
    (fun k _ k' _ h => slots_disjoint_gather k k' h)).trans ?_
  rw [slots_cover_gather]
  iintro ⟨%f, -, H⟩
  iexists f; iexact H

/-! ### The order in which a device waits for its second-phase receive cells -/

/-- The pairs whose devices pay the second-phase receive cells of `c`, in the order `c` waits for them, then its own. -/
def sg (c : Dev nD) (k : Fin 16) : Fin 16 := if h : k.val < 15 then pairOf (src c (off ⟨k.val, h⟩)) else pairOf c
theorem sg_injective : ∀ c : Dev nD, Function.Injective (sg c) := by decide +kernel
def sgE (c : Dev nD) : Fin 16 ≃ Fin 16 :=
  Equiv.ofBijective (sg c) ((Fintype.bijective_iff_injective_and_card _).mpr ⟨sg_injective c, rfl⟩)
theorem sg_cast (c : Dev nD) (i : Fin 15) : sg c i.castSucc = pairOf (src c (off i)) := by
  unfold sg; rw [dif_pos (show (i.castSucc : Fin 16).val < 15 from i.isLt)]; rfl

/-- The pairs of the devices `c` sends to in the second phase, in the order it sends, then its own. -/
def pg (c : Dev nD) (k : Fin 16) : Fin 16 := if h : k.val < 15 then pairOf (peer c (off ⟨k.val, h⟩)) else pairOf c
theorem pg_injective : ∀ c : Dev nD, Function.Injective (pg c) := by decide +kernel
def pgE (c : Dev nD) : Fin 16 ≃ Fin 16 :=
  Equiv.ofBijective (pg c) ((Fintype.bijective_iff_injective_and_card _).mpr ⟨pg_injective c, rfl⟩)

/-- The 16 slots of `stageM`, each at its own contents, rejoined. -/
theorem stage_join (c : Dev nD) (g : Fin 16 → Buf (Elt F) (stageM.view.loc (c : Thread nD τ))) :
    iprop(((slot16 stageM 0 (of_decide_eq_true rfl)).view.loc (c : Thread nD τ) ↦[(slot16 stageM 0 (of_decide_eq_true rfl)).view.set]{fullShare} g 0)
      ∗ ((slot16 stageM 1 (of_decide_eq_true rfl)).view.loc (c : Thread nD τ) ↦[(slot16 stageM 1 (of_decide_eq_true rfl)).view.set]{fullShare} g 1)
      ∗ ((slot16 stageM 2 (of_decide_eq_true rfl)).view.loc (c : Thread nD τ) ↦[(slot16 stageM 2 (of_decide_eq_true rfl)).view.set]{fullShare} g 2)
      ∗ ((slot16 stageM 3 (of_decide_eq_true rfl)).view.loc (c : Thread nD τ) ↦[(slot16 stageM 3 (of_decide_eq_true rfl)).view.set]{fullShare} g 3)
      ∗ ((slot16 stageM 4 (of_decide_eq_true rfl)).view.loc (c : Thread nD τ) ↦[(slot16 stageM 4 (of_decide_eq_true rfl)).view.set]{fullShare} g 4)
      ∗ ((slot16 stageM 5 (of_decide_eq_true rfl)).view.loc (c : Thread nD τ) ↦[(slot16 stageM 5 (of_decide_eq_true rfl)).view.set]{fullShare} g 5)
      ∗ ((slot16 stageM 6 (of_decide_eq_true rfl)).view.loc (c : Thread nD τ) ↦[(slot16 stageM 6 (of_decide_eq_true rfl)).view.set]{fullShare} g 6)
      ∗ ((slot16 stageM 7 (of_decide_eq_true rfl)).view.loc (c : Thread nD τ) ↦[(slot16 stageM 7 (of_decide_eq_true rfl)).view.set]{fullShare} g 7)
      ∗ ((slot16 stageM 8 (of_decide_eq_true rfl)).view.loc (c : Thread nD τ) ↦[(slot16 stageM 8 (of_decide_eq_true rfl)).view.set]{fullShare} g 8)
      ∗ ((slot16 stageM 9 (of_decide_eq_true rfl)).view.loc (c : Thread nD τ) ↦[(slot16 stageM 9 (of_decide_eq_true rfl)).view.set]{fullShare} g 9)
      ∗ ((slot16 stageM 10 (of_decide_eq_true rfl)).view.loc (c : Thread nD τ) ↦[(slot16 stageM 10 (of_decide_eq_true rfl)).view.set]{fullShare} g 10)
      ∗ ((slot16 stageM 11 (of_decide_eq_true rfl)).view.loc (c : Thread nD τ) ↦[(slot16 stageM 11 (of_decide_eq_true rfl)).view.set]{fullShare} g 11)
      ∗ ((slot16 stageM 12 (of_decide_eq_true rfl)).view.loc (c : Thread nD τ) ↦[(slot16 stageM 12 (of_decide_eq_true rfl)).view.set]{fullShare} g 12)
      ∗ ((slot16 stageM 13 (of_decide_eq_true rfl)).view.loc (c : Thread nD τ) ↦[(slot16 stageM 13 (of_decide_eq_true rfl)).view.set]{fullShare} g 13)
      ∗ ((slot16 stageM 14 (of_decide_eq_true rfl)).view.loc (c : Thread nD τ) ↦[(slot16 stageM 14 (of_decide_eq_true rfl)).view.set]{fullShare} g 14)
      ∗ ((slot16 stageM 15 (of_decide_eq_true rfl)).view.loc (c : Thread nD τ) ↦[(slot16 stageM 15 (of_decide_eq_true rfl)).view.set]{fullShare} g 15))
      ⊢ (iprop(∃ f, (stageM.view.loc (c : Thread nD τ) ↦[stageM.view.set]{fullShare} f)) : sProp 𝕄) := by
  have hset : (stageM.view.set : Finset (cc0_scratch0 : Ref sig .tc).ty.shape.Idx) = Finset.univ := View.set_whole _
  rw [hset]
  exact BI.Entails.trans (Entails.of_eq (bigSep_fin16 (F := F) (fun k : Fin 16 => (((c : Thread nD τ).loc cc0_scratch0) ↦[slotSet_stage k]{fullShare} g k : sProp 𝕄))).symm)
    (joinS_stage c g)

/-- The 16 slots of `inboxM`, each at its own contents, rejoined. -/
theorem inbox_join (c : Dev nD) (g : Fin 16 → Buf (Elt F) (inboxM.view.loc (c : Thread nD τ))) :
    iprop(((slot16 inboxM 0 (of_decide_eq_true rfl)).view.loc (c : Thread nD τ) ↦[(slot16 inboxM 0 (of_decide_eq_true rfl)).view.set]{fullShare} g 0)
      ∗ ((slot16 inboxM 1 (of_decide_eq_true rfl)).view.loc (c : Thread nD τ) ↦[(slot16 inboxM 1 (of_decide_eq_true rfl)).view.set]{fullShare} g 1)
      ∗ ((slot16 inboxM 2 (of_decide_eq_true rfl)).view.loc (c : Thread nD τ) ↦[(slot16 inboxM 2 (of_decide_eq_true rfl)).view.set]{fullShare} g 2)
      ∗ ((slot16 inboxM 3 (of_decide_eq_true rfl)).view.loc (c : Thread nD τ) ↦[(slot16 inboxM 3 (of_decide_eq_true rfl)).view.set]{fullShare} g 3)
      ∗ ((slot16 inboxM 4 (of_decide_eq_true rfl)).view.loc (c : Thread nD τ) ↦[(slot16 inboxM 4 (of_decide_eq_true rfl)).view.set]{fullShare} g 4)
      ∗ ((slot16 inboxM 5 (of_decide_eq_true rfl)).view.loc (c : Thread nD τ) ↦[(slot16 inboxM 5 (of_decide_eq_true rfl)).view.set]{fullShare} g 5)
      ∗ ((slot16 inboxM 6 (of_decide_eq_true rfl)).view.loc (c : Thread nD τ) ↦[(slot16 inboxM 6 (of_decide_eq_true rfl)).view.set]{fullShare} g 6)
      ∗ ((slot16 inboxM 7 (of_decide_eq_true rfl)).view.loc (c : Thread nD τ) ↦[(slot16 inboxM 7 (of_decide_eq_true rfl)).view.set]{fullShare} g 7)
      ∗ ((slot16 inboxM 8 (of_decide_eq_true rfl)).view.loc (c : Thread nD τ) ↦[(slot16 inboxM 8 (of_decide_eq_true rfl)).view.set]{fullShare} g 8)
      ∗ ((slot16 inboxM 9 (of_decide_eq_true rfl)).view.loc (c : Thread nD τ) ↦[(slot16 inboxM 9 (of_decide_eq_true rfl)).view.set]{fullShare} g 9)
      ∗ ((slot16 inboxM 10 (of_decide_eq_true rfl)).view.loc (c : Thread nD τ) ↦[(slot16 inboxM 10 (of_decide_eq_true rfl)).view.set]{fullShare} g 10)
      ∗ ((slot16 inboxM 11 (of_decide_eq_true rfl)).view.loc (c : Thread nD τ) ↦[(slot16 inboxM 11 (of_decide_eq_true rfl)).view.set]{fullShare} g 11)
      ∗ ((slot16 inboxM 12 (of_decide_eq_true rfl)).view.loc (c : Thread nD τ) ↦[(slot16 inboxM 12 (of_decide_eq_true rfl)).view.set]{fullShare} g 12)
      ∗ ((slot16 inboxM 13 (of_decide_eq_true rfl)).view.loc (c : Thread nD τ) ↦[(slot16 inboxM 13 (of_decide_eq_true rfl)).view.set]{fullShare} g 13)
      ∗ ((slot16 inboxM 14 (of_decide_eq_true rfl)).view.loc (c : Thread nD τ) ↦[(slot16 inboxM 14 (of_decide_eq_true rfl)).view.set]{fullShare} g 14)
      ∗ ((slot16 inboxM 15 (of_decide_eq_true rfl)).view.loc (c : Thread nD τ) ↦[(slot16 inboxM 15 (of_decide_eq_true rfl)).view.set]{fullShare} g 15))
      ⊢ (iprop(∃ f, (inboxM.view.loc (c : Thread nD τ) ↦[inboxM.view.set]{fullShare} f)) : sProp 𝕄) := by
  have hset : (inboxM.view.set : Finset (cc0_scratch1 : Ref sig .tc).ty.shape.Idx) = Finset.univ := View.set_whole _
  rw [hset]
  exact BI.Entails.trans (Entails.of_eq (bigSep_fin16 (F := F) (fun k : Fin 16 => (((c : Thread nD τ).loc cc0_scratch1) ↦[slotSet_inbox k]{fullShare} g k : sProp 𝕄))).symm)
    (joinS_inbox c g)

/-- The 15 slots of `outboxM`, each at its own contents, rejoined. -/
theorem outbox_join (c : Dev nD) (g : Fin 15 → Buf (Elt F) (outboxM.view.loc (c : Thread nD τ))) :
    iprop(((slot15 outboxM 0 (of_decide_eq_true rfl)).view.loc (c : Thread nD τ) ↦[(slot15 outboxM 0 (of_decide_eq_true rfl)).view.set]{fullShare} g 0)
      ∗ ((slot15 outboxM 1 (of_decide_eq_true rfl)).view.loc (c : Thread nD τ) ↦[(slot15 outboxM 1 (of_decide_eq_true rfl)).view.set]{fullShare} g 1)
      ∗ ((slot15 outboxM 2 (of_decide_eq_true rfl)).view.loc (c : Thread nD τ) ↦[(slot15 outboxM 2 (of_decide_eq_true rfl)).view.set]{fullShare} g 2)
      ∗ ((slot15 outboxM 3 (of_decide_eq_true rfl)).view.loc (c : Thread nD τ) ↦[(slot15 outboxM 3 (of_decide_eq_true rfl)).view.set]{fullShare} g 3)
      ∗ ((slot15 outboxM 4 (of_decide_eq_true rfl)).view.loc (c : Thread nD τ) ↦[(slot15 outboxM 4 (of_decide_eq_true rfl)).view.set]{fullShare} g 4)
      ∗ ((slot15 outboxM 5 (of_decide_eq_true rfl)).view.loc (c : Thread nD τ) ↦[(slot15 outboxM 5 (of_decide_eq_true rfl)).view.set]{fullShare} g 5)
      ∗ ((slot15 outboxM 6 (of_decide_eq_true rfl)).view.loc (c : Thread nD τ) ↦[(slot15 outboxM 6 (of_decide_eq_true rfl)).view.set]{fullShare} g 6)
      ∗ ((slot15 outboxM 7 (of_decide_eq_true rfl)).view.loc (c : Thread nD τ) ↦[(slot15 outboxM 7 (of_decide_eq_true rfl)).view.set]{fullShare} g 7)
      ∗ ((slot15 outboxM 8 (of_decide_eq_true rfl)).view.loc (c : Thread nD τ) ↦[(slot15 outboxM 8 (of_decide_eq_true rfl)).view.set]{fullShare} g 8)
      ∗ ((slot15 outboxM 9 (of_decide_eq_true rfl)).view.loc (c : Thread nD τ) ↦[(slot15 outboxM 9 (of_decide_eq_true rfl)).view.set]{fullShare} g 9)
      ∗ ((slot15 outboxM 10 (of_decide_eq_true rfl)).view.loc (c : Thread nD τ) ↦[(slot15 outboxM 10 (of_decide_eq_true rfl)).view.set]{fullShare} g 10)
      ∗ ((slot15 outboxM 11 (of_decide_eq_true rfl)).view.loc (c : Thread nD τ) ↦[(slot15 outboxM 11 (of_decide_eq_true rfl)).view.set]{fullShare} g 11)
      ∗ ((slot15 outboxM 12 (of_decide_eq_true rfl)).view.loc (c : Thread nD τ) ↦[(slot15 outboxM 12 (of_decide_eq_true rfl)).view.set]{fullShare} g 12)
      ∗ ((slot15 outboxM 13 (of_decide_eq_true rfl)).view.loc (c : Thread nD τ) ↦[(slot15 outboxM 13 (of_decide_eq_true rfl)).view.set]{fullShare} g 13)
      ∗ ((slot15 outboxM 14 (of_decide_eq_true rfl)).view.loc (c : Thread nD τ) ↦[(slot15 outboxM 14 (of_decide_eq_true rfl)).view.set]{fullShare} g 14))
      ⊢ (iprop(∃ f, (outboxM.view.loc (c : Thread nD τ) ↦[outboxM.view.set]{fullShare} f)) : sProp 𝕄) := by
  have hset : (outboxM.view.set : Finset (cc0_scratch2 : Ref sig .tc).ty.shape.Idx) = Finset.univ := View.set_whole _
  rw [hset]
  exact BI.Entails.trans (Entails.of_eq (bigSep_fin15 (F := F) (fun k : Fin 15 => (((c : Thread nD τ).loc cc0_scratch2) ↦[slotSet_outbox k]{fullShare} g k : sProp 𝕄))).symm)
    (joinS_outbox c g)

/-- The sixteen slots of `gatherM` in the order the device receives into them, then its own, rejoined. -/
theorem gather_join (c : Dev nD) (g : Fin 15 → Buf (Elt F) (gatherM.view.loc (c : Thread nD τ))) (g' : Buf (Elt F) (gatherM.view.loc (c : Thread nD τ))) :
    iprop(((slot16 gatherM (rr (src c (off 0)).val) (rr_lt (src c (off 0)))).view.loc (c : Thread nD τ) ↦[(slot16 gatherM (rr (src c (off 0)).val) (rr_lt (src c (off 0)))).view.set]{fullShare} g 0)
      ∗ ((slot16 gatherM (rr (src c (off 1)).val) (rr_lt (src c (off 1)))).view.loc (c : Thread nD τ) ↦[(slot16 gatherM (rr (src c (off 1)).val) (rr_lt (src c (off 1)))).view.set]{fullShare} g 1)
      ∗ ((slot16 gatherM (rr (src c (off 2)).val) (rr_lt (src c (off 2)))).view.loc (c : Thread nD τ) ↦[(slot16 gatherM (rr (src c (off 2)).val) (rr_lt (src c (off 2)))).view.set]{fullShare} g 2)
      ∗ ((slot16 gatherM (rr (src c (off 3)).val) (rr_lt (src c (off 3)))).view.loc (c : Thread nD τ) ↦[(slot16 gatherM (rr (src c (off 3)).val) (rr_lt (src c (off 3)))).view.set]{fullShare} g 3)
      ∗ ((slot16 gatherM (rr (src c (off 4)).val) (rr_lt (src c (off 4)))).view.loc (c : Thread nD τ) ↦[(slot16 gatherM (rr (src c (off 4)).val) (rr_lt (src c (off 4)))).view.set]{fullShare} g 4)
      ∗ ((slot16 gatherM (rr (src c (off 5)).val) (rr_lt (src c (off 5)))).view.loc (c : Thread nD τ) ↦[(slot16 gatherM (rr (src c (off 5)).val) (rr_lt (src c (off 5)))).view.set]{fullShare} g 5)
      ∗ ((slot16 gatherM (rr (src c (off 6)).val) (rr_lt (src c (off 6)))).view.loc (c : Thread nD τ) ↦[(slot16 gatherM (rr (src c (off 6)).val) (rr_lt (src c (off 6)))).view.set]{fullShare} g 6)
      ∗ ((slot16 gatherM (rr (src c (off 7)).val) (rr_lt (src c (off 7)))).view.loc (c : Thread nD τ) ↦[(slot16 gatherM (rr (src c (off 7)).val) (rr_lt (src c (off 7)))).view.set]{fullShare} g 7)
      ∗ ((slot16 gatherM (rr (src c (off 8)).val) (rr_lt (src c (off 8)))).view.loc (c : Thread nD τ) ↦[(slot16 gatherM (rr (src c (off 8)).val) (rr_lt (src c (off 8)))).view.set]{fullShare} g 8)
      ∗ ((slot16 gatherM (rr (src c (off 9)).val) (rr_lt (src c (off 9)))).view.loc (c : Thread nD τ) ↦[(slot16 gatherM (rr (src c (off 9)).val) (rr_lt (src c (off 9)))).view.set]{fullShare} g 9)
      ∗ ((slot16 gatherM (rr (src c (off 10)).val) (rr_lt (src c (off 10)))).view.loc (c : Thread nD τ) ↦[(slot16 gatherM (rr (src c (off 10)).val) (rr_lt (src c (off 10)))).view.set]{fullShare} g 10)
      ∗ ((slot16 gatherM (rr (src c (off 11)).val) (rr_lt (src c (off 11)))).view.loc (c : Thread nD τ) ↦[(slot16 gatherM (rr (src c (off 11)).val) (rr_lt (src c (off 11)))).view.set]{fullShare} g 11)
      ∗ ((slot16 gatherM (rr (src c (off 12)).val) (rr_lt (src c (off 12)))).view.loc (c : Thread nD τ) ↦[(slot16 gatherM (rr (src c (off 12)).val) (rr_lt (src c (off 12)))).view.set]{fullShare} g 12)
      ∗ ((slot16 gatherM (rr (src c (off 13)).val) (rr_lt (src c (off 13)))).view.loc (c : Thread nD τ) ↦[(slot16 gatherM (rr (src c (off 13)).val) (rr_lt (src c (off 13)))).view.set]{fullShare} g 13)
      ∗ ((slot16 gatherM (rr (src c (off 14)).val) (rr_lt (src c (off 14)))).view.loc (c : Thread nD τ) ↦[(slot16 gatherM (rr (src c (off 14)).val) (rr_lt (src c (off 14)))).view.set]{fullShare} g 14)
      ∗ ((slot16 gatherM (rr c.val) (rr_lt c)).view.loc (c : Thread nD τ) ↦[(slot16 gatherM (rr c.val) (rr_lt c)).view.set]{fullShare} g'))
      ⊢ (iprop(∃ f, (gatherM.view.loc (c : Thread nD τ) ↦[gatherM.view.set]{fullShare} f)) : sProp 𝕄) := by
  have hset : (gatherM.view.set : Finset (cc0_scratch3 : Ref sig .tc).ty.shape.Idx) = Finset.univ := View.set_whole _
  rw [hset]
  let h : Fin 16 → Buf (Elt F) ((c : Thread nD τ).loc cc0_scratch3) := fun k => if hk : k.val < 15 then g ⟨k.val, hk⟩ else g'
  have hjoin := joinS_gather c (fun ρ => h ((sgE c).symm ρ))
  rw [bigSep_univ_equiv (sgE c), bigSep_fin16] at hjoin
  simp only [Equiv.symm_apply_apply] at hjoin
  exact hjoin

/-! ### The cells closed -/

/-- A used scratch cell whose one round is consumed gives its counter back at zero. -/
theorem close_dma (m : (ℓ : Loc nD τ sig) → Buf (Elt F) ℓ) (κ : GSem nD τ sig → ℕ) (c : Dev nD) (q : DmaSem sig) (hq : used c q) :
    iprop(cellInv ER (rd (W1 m) (W2 m)) (κ (dcell c q)) (dcell c q) ∗ atPos ER (dcell c q) 1 ∅ 0) ⊢ |={Set.univ}=> semVal (dcell c q) 0 :=
  Rounds.cell_close ER (rd (W1 m) (W2 m)) (Set.mem_univ (κ (dcell c q))) (fun h => h) (R := 1) (duties_later (W1 m) (W2 m) (dcell c q))

/-- The scratch cell with no duty gives its counter back at zero as it stands. -/
theorem close_unused (m : (ℓ : Loc nD τ sig) → Buf (Elt F) ℓ) (κ : GSem nD τ sig → ℕ) (c : Dev nD) (q : DmaSem sig) (hq : ¬ used c q) :
    iprop(cellInv ER (rd (W1 m) (W2 m)) (κ (dcell c q)) (dcell c q) ∗ atPos ER (dcell c q) 0 ∅ 0) ⊢ |={Set.univ}=> semVal (dcell c q) 0 :=
  Rounds.cell_close ER (rd (W1 m) (W2 m)) (Set.mem_univ (κ (dcell c q))) (fun h => h) (R := 0) (fun r _ => duties_dma_unused (W1 m) (W2 m) c q hq r)

end Cert.KernelIdeal.Proto

end
-- ==== Proof.Body.lean ====
/-
  The body's run on one device, from the start stated in BodyStmt to its end.

  The entry handshake (sixteen signals, one wait), the first phase (sixteen products staged and copied to the
  partner), the second phase (fifteen times: the partner's product received, added to the device's own, the
  sum copied to the peer that owns those rows), the result (the device's own rows: its product plus its
  partner's, then the fifteen sums received, added in the order of the offsets), the waits for the 31 copies'
  sources, and the 63 cells closed.
-/
import proofs.«900440_g7700000000000441_dist_gemm_rs_m1024_k1024_n1024_f32_none_v7x_i32_1_alg».proof.Proof.Send
import proofs.«900440_g7700000000000441_dist_gemm_rs_m1024_k1024_n1024_f32_none_v7x_i32_1_alg».proof.Proof.Joins

set_option maxRecDepth 65536

noncomputable section

namespace Cert.KernelIdeal.Proto

open Cert.KernelIdeal Cert.KernelIdeal.Gen Cert.Mesh Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

attribute [local irreducible] nbr peer src cross pairOf onSide off offA
attribute [local sl_rounds] duties_bar_list amount_bar expect_bar payload_bar_own1 payload_bar_own2 payload_bar_own3 payload_bar_own4 payload_bar_own5 payload_bar_own6 payload_bar_own7 payload_bar_own8 payload_bar_own9 payload_bar_own10 payload_bar_own11 payload_bar_own12 payload_bar_own13 payload_bar_own14 payload_bar_own15 payload_bar_own0 duties_p1s duties_p1r duties_p2s expect_p1s expect_p1r expect_p2s amount_dma payload_p1s0 payload_p1s1 payload_p1s2 payload_p1s3 payload_p1s4 payload_p1s5 payload_p1s6 payload_p1s7 payload_p1s8 payload_p1s9 payload_p1s10 payload_p1s11 payload_p1s12 payload_p1s13 payload_p1s14 payload_p1s15 payload_p1r0 payload_p1r1 payload_p1r2 payload_p1r3 payload_p1r4 payload_p1r5 payload_p1r6 payload_p1r7 payload_p1r8 payload_p1r9 payload_p1r10 payload_p1r11 payload_p1r12 payload_p1r13 payload_p1r14 payload_p1r15 payload_p2s0 payload_p2s1 payload_p2s2 payload_p2s3 payload_p2s4 payload_p2s5 payload_p2s6 payload_p2s7 payload_p2s8 payload_p2s9 payload_p2s10 payload_p2s11 payload_p2s12 payload_p2s13 payload_p2s14
attribute [local sl_rounds high] payload_bar_nbr payload_bar_peer0 payload_bar_peer1 payload_bar_peer2 payload_bar_peer3 payload_bar_peer4 payload_bar_peer5 payload_bar_peer6 payload_bar_peer7 payload_bar_peer8 payload_bar_peer9 payload_bar_peer10 payload_bar_peer11 payload_bar_peer12 payload_bar_peer13 payload_bar_peer14

set_option maxHeartbeats 16000000 in
theorem sound_body (m : (ℓ : Loc nD τ sig) → Buf (Elt F) ℓ) (κ : GSem nD τ sig → ℕ) (c : Dev nD) (W : Waits sig Unit)
    (fo : Buf (Elt F) ((Memref.whole cc0_stg2_0 : Memref sig .tc .vmem S32x1024 .f32).view.loc (c : Thread nD τ)))
    (f0 : Buf (Elt F) (stageM.view.loc (c : Thread nD τ))) (f1 : Buf (Elt F) (inboxM.view.loc (c : Thread nD τ))) (f2 : Buf (Elt F) (outboxM.view.loc (c : Thread nD τ))) (f3 : Buf (Elt F) (gatherM.view.loc (c : Thread nD τ)))
    (Kt : PUnit → sProp 𝕄) :
    iprop(bodyPre m κ c W (xstg m c) (wstg m c) fo f0 f1 f2 f3 ∗ (bodyPost m c (xstg m c) (wstg m c) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7) Kt := by
  unfold bodyPre
  iintro ⟨⟨Hbar, HgP1_0, HgP1_1, HgP1_2, HgP1_3, HgP1_4, HgP1_5, HgP1_6, HgP1_7, HgP1_8, HgP1_9, HgP1_10, HgP1_11, HgP1_12, HgP1_13, HgP1_14, HgP1_15, HgP2_0, HgP2_1, HgP2_2, HgP2_3, HgP2_4, HgP2_5, HgP2_6, HgP2_7, HgP2_8, HgP2_9, HgP2_10, HgP2_11, HgP2_12, HgP2_13, HgP2_14, HgP1last, HgFin_0, HgFin_1, HgFin_2, HgFin_3, HgFin_4, HgFin_5, HgFin_6, HgFin_7, HgFin_8, HgFin_9, HgFin_10, HgFin_11, HgFin_12, HgFin_13, HgFin_14, Hmisc⟩, Hk⟩
  unfold gBar; icases Hbar with ⟨#HIb, #HIbn, #HIbp0, #HIbp1, #HIbp2, #HIbp3, #HIbp4, #HIbp5, #HIbp6, #HIbp7, #HIbp8, #HIbp9, #HIbp10, #HIbp11, #HIbp12, #HIbp13, #HIbp14, #Hrbn, #Hrbp0, #Hrbp1, #Hrbp2, #Hrbp3, #Hrbp4, #Hrbp5, #Hrbp6, #Hrbp7, #Hrbp8, #Hrbp9, #Hrbp10, #Hrbp11, #Hrbp12, #Hrbp13, #Hrbp14, #Hrr0, #Hrr1, #Hrr2, #Hrr3, #Hrr4, #Hrr5, #Hrr6, #Hrr7, #Hrr8, #Hrr9, #Hrr10, #Hrr11, #Hrr12, #Hrr13, #Hrr14, #Hrr15, #Hrg0, #Hrg1, #Hrg2, #Hrg3, #Hrg4, #Hrg5, #Hrg6, #Hrg7, #Hrg8, #Hrg9, #Hrg10, #Hrg11, #Hrg12, #Hrg13, #Hrg14, Htbn, Htbp0, Htbp1, Htbp2, Htbp3, Htbp4, Htbp5, Htbp6, Htbp7, Htbp8, Htbp9, Htbp10, Htbp11, Htbp12, Htbp13, Htbp14, Hin0, Hin1, Hin2, Hin3, Hin4, Hin5, Hin6, Hin7, Hin8, Hin9, Hin10, Hin11, Hin12, Hin13, Hin14, Hin15, Hga0, Hga1, Hga2, Hga3, Hga4, Hga5, Hga6, Hga7, Hga8, Hga9, Hga10, Hga11, Hga12, Hga13, Hga14, Hatb, Hcb, Hmwb⟩
  unfold gMisc; icases Hmisc with ⟨#HIp2ru, Hap2ru, Hx, Hw, Ho, Hgown, HO⟩
  unfold gP1_0; icases HgP1_0 with ⟨#HIp1s0, #HIp1rn0, #Hrp1s0, Htp1s0, Htp1rn0, Hap1s0, Hst0⟩
  unfold gP1_1; icases HgP1_1 with ⟨#HIp1s1, #HIp1rn1, #Hrp1s1, Htp1s1, Htp1rn1, Hap1s1, Hst1⟩
  unfold gP1_2; icases HgP1_2 with ⟨#HIp1s2, #HIp1rn2, #Hrp1s2, Htp1s2, Htp1rn2, Hap1s2, Hst2⟩
  unfold gP1_3; icases HgP1_3 with ⟨#HIp1s3, #HIp1rn3, #Hrp1s3, Htp1s3, Htp1rn3, Hap1s3, Hst3⟩
  unfold gP1_4; icases HgP1_4 with ⟨#HIp1s4, #HIp1rn4, #Hrp1s4, Htp1s4, Htp1rn4, Hap1s4, Hst4⟩
  unfold gP1_5; icases HgP1_5 with ⟨#HIp1s5, #HIp1rn5, #Hrp1s5, Htp1s5, Htp1rn5, Hap1s5, Hst5⟩
  unfold gP1_6; icases HgP1_6 with ⟨#HIp1s6, #HIp1rn6, #Hrp1s6, Htp1s6, Htp1rn6, Hap1s6, Hst6⟩
  unfold gP1_7; icases HgP1_7 with ⟨#HIp1s7, #HIp1rn7, #Hrp1s7, Htp1s7, Htp1rn7, Hap1s7, Hst7⟩
  unfold gP1_8; icases HgP1_8 with ⟨#HIp1s8, #HIp1rn8, #Hrp1s8, Htp1s8, Htp1rn8, Hap1s8, Hst8⟩
  unfold gP1_9; icases HgP1_9 with ⟨#HIp1s9, #HIp1rn9, #Hrp1s9, Htp1s9, Htp1rn9, Hap1s9, Hst9⟩
  unfold gP1_10; icases HgP1_10 with ⟨#HIp1s10, #HIp1rn10, #Hrp1s10, Htp1s10, Htp1rn10, Hap1s10, Hst10⟩
  unfold gP1_11; icases HgP1_11 with ⟨#HIp1s11, #HIp1rn11, #Hrp1s11, Htp1s11, Htp1rn11, Hap1s11, Hst11⟩
  unfold gP1_12; icases HgP1_12 with ⟨#HIp1s12, #HIp1rn12, #Hrp1s12, Htp1s12, Htp1rn12, Hap1s12, Hst12⟩
  unfold gP1_13; icases HgP1_13 with ⟨#HIp1s13, #HIp1rn13, #Hrp1s13, Htp1s13, Htp1rn13, Hap1s13, Hst13⟩
  unfold gP1_14; icases HgP1_14 with ⟨#HIp1s14, #HIp1rn14, #Hrp1s14, Htp1s14, Htp1rn14, Hap1s14, Hst14⟩
  unfold gP1_15; icases HgP1_15 with ⟨#HIp1s15, #HIp1rn15, #Hrp1s15, Htp1s15, Htp1rn15, Hap1s15, Hst15⟩
  sl_unfold [cc0_body]
  sl_exec_parts
  ihave Hpay := (show (BI.sep _ (BI.sep _ (BI.sep _ (BI.sep _ (BI.sep _ (BI.sep _ (BI.sep _ (BI.sep _ (BI.sep _ (BI.sep _ (BI.sep _ (BI.sep _ (BI.sep _ (BI.sep _ (BI.sep _ (_))))))))))))))) : sProp 𝕄) ⊢ iprop(_ ∗ _ ∗ _ ∗ _ ∗ _ ∗ _ ∗ _ ∗ _ ∗ _ ∗ _ ∗ _ ∗ _ ∗ _ ∗ _ ∗ _ ∗ _) from BI.Entails.refl _) $$ Hatb_pay1
  icases Hpay with ⟨⟨⟨%gn0, Hn0⟩, #Hrn0, ⟨%gn1, Hn1⟩, #Hrn1, ⟨%gn2, Hn2⟩, #Hrn2, ⟨%gn3, Hn3⟩, #Hrn3, ⟨%gn4, Hn4⟩, #Hrn4, ⟨%gn5, Hn5⟩, #Hrn5, ⟨%gn6, Hn6⟩, #Hrn6, ⟨%gn7, Hn7⟩, #Hrn7, ⟨%gn8, Hn8⟩, #Hrn8, ⟨%gn9, Hn9⟩, #Hrn9, ⟨%gn10, Hn10⟩, #Hrn10, ⟨%gn11, Hn11⟩, #Hrn11, ⟨%gn12, Hn12⟩, #Hrn12, ⟨%gn13, Hn13⟩, #Hrn13, ⟨%gn14, Hn14⟩, #Hrn14, ⟨%gn15, Hn15⟩, #Hrn15⟩, ⟨⟨%hs0, Hs0⟩, #Hrs0⟩, ⟨⟨%hs1, Hs1⟩, #Hrs1⟩, ⟨⟨%hs2, Hs2⟩, #Hrs2⟩, ⟨⟨%hs3, Hs3⟩, #Hrs3⟩, ⟨⟨%hs4, Hs4⟩, #Hrs4⟩, ⟨⟨%hs5, Hs5⟩, #Hrs5⟩, ⟨⟨%hs6, Hs6⟩, #Hrs6⟩, ⟨⟨%hs7, Hs7⟩, #Hrs7⟩, ⟨⟨%hs8, Hs8⟩, #Hrs8⟩, ⟨⟨%hs9, Hs9⟩, #Hrs9⟩, ⟨⟨%hs10, Hs10⟩, #Hrs10⟩, ⟨⟨%hs11, Hs11⟩, #Hrs11⟩, ⟨⟨%hs12, Hs12⟩, #Hrs12⟩, ⟨⟨%hs13, Hs13⟩, #Hrs13⟩, ⟨⟨%hs14, Hs14⟩, #Hrs14⟩⟩
  -- first phase, product 0: staged, then copied to the partner
  have hfs0 : (slot16 stageM 0 (of_decide_eq_true rfl)).view.read (Elt F) (sound_body.sl.Hst0_w1 m c f0) = W1 m c (cross c (offA 0)) := by
    unfold sound_body.sl.Hst0_w1
    refine (View.read_write_univ _ _).trans ?_
    exact stage_val m c (cross c (offA 0)) _ (closedOff_k0_off1_8 c).eq _
  iapply (wp_send_slot' (W1 m) (W2 m) c (nbr c) (nbr c) (dev17_eq c) (dev17_eq c) (slot16 stageM 0 (of_decide_eq_true rfl)) (slot16 inboxM 0 (of_decide_eq_true rfl)) (p1sS 0) (p1rS 0) rfl rfl (κ _) (κ _) (W1 m c (cross c (offA 0)))
      (by rw [duties_p1s]; exact Finset.mem_singleton_self _) (by rw [duties_p1r]; exact Finset.mem_singleton_self _) rfl
      (payload_p1s0 (W1 m) (W2 m) c) (by rw [payload_p1r0, nbr_nbr, peer_nbr]) _ hfs0 gn0 (debt c 1) _) $$ [HIp1s0 HIp1rn0 Hst0 Hn0 HO Htp1s0 Hrp1s0 Htp1rn0 Hrn0]
  · isplitr; · iexact HIp1s0
    isplitr; · iexact HIp1rn0
    isplitl [Hst0]; · iexact Hst0
    isplitl [Hn0]; · iexact Hn0
    isplitl [HO]; · rw [debt_peel0]; iexact HO
    isplitl [Htp1s0]; · iexact Htp1s0
    isplitr; · iexact Hrp1s0
    isplitl [Htp1rn0]; · iexact Htp1rn0
    iexact Hrn0
  iintro ⟨Hcs0, HO⟩
  sl_exec_parts
  -- first phase, product 1: staged, then copied to the partner
  have hfs1 : (slot16 stageM 1 (of_decide_eq_true rfl)).view.read (Elt F) (sound_body.sl.Hst1_w1 m c f0) = W1 m c (cross c (offA 1)) := by
    unfold sound_body.sl.Hst1_w1
    refine (View.read_write_univ _ _).trans ?_
    exact stage_val m c (cross c (offA 1)) _ (closedOff_k0_off1_7 c).eq _
  iapply (wp_send_slot' (W1 m) (W2 m) c (nbr c) (nbr c) (dev18_eq c) (dev18_eq c) (slot16 stageM 1 (of_decide_eq_true rfl)) (slot16 inboxM 1 (of_decide_eq_true rfl)) (p1sS 1) (p1rS 1) rfl rfl (κ _) (κ _) (W1 m c (cross c (offA 1)))
      (by rw [duties_p1s]; exact Finset.mem_singleton_self _) (by rw [duties_p1r]; exact Finset.mem_singleton_self _) rfl
      (payload_p1s1 (W1 m) (W2 m) c) (by rw [payload_p1r1, nbr_nbr, peer_nbr]) _ hfs1 gn1 (debt c 2) _) $$ [HIp1s1 HIp1rn1 Hst1 Hn1 HO Htp1s1 Hrp1s1 Htp1rn1 Hrn1]
  · isplitr; · iexact HIp1s1
    isplitr; · iexact HIp1rn1
    isplitl [Hst1]; · iexact Hst1
    isplitl [Hn1]; · iexact Hn1
    isplitl [HO]; · rw [debt_peel1]; iexact HO
    isplitl [Htp1s1]; · iexact Htp1s1
    isplitr; · iexact Hrp1s1
    isplitl [Htp1rn1]; · iexact Htp1rn1
    iexact Hrn1
  iintro ⟨Hcs1, HO⟩
  sl_exec_parts
  -- first phase, product 2: staged, then copied to the partner
  have hfs2 : (slot16 stageM 2 (of_decide_eq_true rfl)).view.read (Elt F) (sound_body.sl.Hst2_w1 m c f0) = W1 m c (cross c (offA 2)) := by
    unfold sound_body.sl.Hst2_w1
    refine (View.read_write_univ _ _).trans ?_
    exact stage_val m c (cross c (offA 2)) _ (closedOff_k0_off1_9 c).eq _
  iapply (wp_send_slot' (W1 m) (W2 m) c (nbr c) (nbr c) (dev19_eq c) (dev19_eq c) (slot16 stageM 2 (of_decide_eq_true rfl)) (slot16 inboxM 2 (of_decide_eq_true rfl)) (p1sS 2) (p1rS 2) rfl rfl (κ _) (κ _) (W1 m c (cross c (offA 2)))
      (by rw [duties_p1s]; exact Finset.mem_singleton_self _) (by rw [duties_p1r]; exact Finset.mem_singleton_self _) rfl
      (payload_p1s2 (W1 m) (W2 m) c) (by rw [payload_p1r2, nbr_nbr, peer_nbr]) _ hfs2 gn2 (debt c 3) _) $$ [HIp1s2 HIp1rn2 Hst2 Hn2 HO Htp1s2 Hrp1s2 Htp1rn2 Hrn2]
  · isplitr; · iexact HIp1s2
    isplitr; · iexact HIp1rn2
    isplitl [Hst2]; · iexact Hst2
    isplitl [Hn2]; · iexact Hn2
    isplitl [HO]; · rw [debt_peel2]; iexact HO
    isplitl [Htp1s2]; · iexact Htp1s2
    isplitr; · iexact Hrp1s2
    isplitl [Htp1rn2]; · iexact Htp1rn2
    iexact Hrn2
  iintro ⟨Hcs2, HO⟩
  sl_exec_parts
  -- first phase, product 3: staged, then copied to the partner
  have hfs3 : (slot16 stageM 3 (of_decide_eq_true rfl)).view.read (Elt F) (sound_body.sl.Hst3_w1 m c f0) = W1 m c (cross c (offA 3)) := by
    unfold sound_body.sl.Hst3_w1
    refine (View.read_write_univ _ _).trans ?_
    exact stage_val m c (cross c (offA 3)) _ (closedOff_k0_off1_6 c).eq _
  iapply (wp_send_slot' (W1 m) (W2 m) c (nbr c) (nbr c) (dev20_eq c) (dev20_eq c) (slot16 stageM 3 (of_decide_eq_true rfl)) (slot16 inboxM 3 (of_decide_eq_true rfl)) (p1sS 3) (p1rS 3) rfl rfl (κ _) (κ _) (W1 m c (cross c (offA 3)))
      (by rw [duties_p1s]; exact Finset.mem_singleton_self _) (by rw [duties_p1r]; exact Finset.mem_singleton_self _) rfl
      (payload_p1s3 (W1 m) (W2 m) c) (by rw [payload_p1r3, nbr_nbr, peer_nbr]) _ hfs3 gn3 (debt c 4) _) $$ [HIp1s3 HIp1rn3 Hst3 Hn3 HO Htp1s3 Hrp1s3 Htp1rn3 Hrn3]
  · isplitr; · iexact HIp1s3
    isplitr; · iexact HIp1rn3
    isplitl [Hst3]; · iexact Hst3
    isplitl [Hn3]; · iexact Hn3
    isplitl [HO]; · rw [debt_peel3]; iexact HO
    isplitl [Htp1s3]; · iexact Htp1s3
    isplitr; · iexact Hrp1s3
    isplitl [Htp1rn3]; · iexact Htp1rn3
    iexact Hrn3
  iintro ⟨Hcs3, HO⟩
  sl_exec_parts
  -- first phase, product 4: staged, then copied to the partner
  have hfs4 : (slot16 stageM 4 (of_decide_eq_true rfl)).view.read (Elt F) (sound_body.sl.Hst4_w1 m c f0) = W1 m c (cross c (offA 4)) := by
    unfold sound_body.sl.Hst4_w1
    refine (View.read_write_univ _ _).trans ?_
    exact stage_val m c (cross c (offA 4)) _ (closedOff_k0_off1_10 c).eq _
  iapply (wp_send_slot' (W1 m) (W2 m) c (nbr c) (nbr c) (dev21_eq c) (dev21_eq c) (slot16 stageM 4 (of_decide_eq_true rfl)) (slot16 inboxM 4 (of_decide_eq_true rfl)) (p1sS 4) (p1rS 4) rfl rfl (κ _) (κ _) (W1 m c (cross c (offA 4)))
      (by rw [duties_p1s]; exact Finset.mem_singleton_self _) (by rw [duties_p1r]; exact Finset.mem_singleton_self _) rfl
      (payload_p1s4 (W1 m) (W2 m) c) (by rw [payload_p1r4, nbr_nbr, peer_nbr]) _ hfs4 gn4 (debt c 5) _) $$ [HIp1s4 HIp1rn4 Hst4 Hn4 HO Htp1s4 Hrp1s4 Htp1rn4 Hrn4]
  · isplitr; · iexact HIp1s4
    isplitr; · iexact HIp1rn4
    isplitl [Hst4]; · iexact Hst4
    isplitl [Hn4]; · iexact Hn4
    isplitl [HO]; · rw [debt_peel4]; iexact HO
    isplitl [Htp1s4]; · iexact Htp1s4
    isplitr; · iexact Hrp1s4
    isplitl [Htp1rn4]; · iexact Htp1rn4
    iexact Hrn4
  iintro ⟨Hcs4, HO⟩
  sl_exec_parts
  -- first phase, product 5: staged, then copied to the partner
  have hfs5 : (slot16 stageM 5 (of_decide_eq_true rfl)).view.read (Elt F) (sound_body.sl.Hst5_w1 m c f0) = W1 m c (cross c (offA 5)) := by
    unfold sound_body.sl.Hst5_w1
    refine (View.read_write_univ _ _).trans ?_
    exact stage_val m c (cross c (offA 5)) _ (closedOff_k0_off1_5 c).eq _
  iapply (wp_send_slot' (W1 m) (W2 m) c (nbr c) (nbr c) (dev22_eq c) (dev22_eq c) (slot16 stageM 5 (of_decide_eq_true rfl)) (slot16 inboxM 5 (of_decide_eq_true rfl)) (p1sS 5) (p1rS 5) rfl rfl (κ _) (κ _) (W1 m c (cross c (offA 5)))
      (by rw [duties_p1s]; exact Finset.mem_singleton_self _) (by rw [duties_p1r]; exact Finset.mem_singleton_self _) rfl
      (payload_p1s5 (W1 m) (W2 m) c) (by rw [payload_p1r5, nbr_nbr, peer_nbr]) _ hfs5 gn5 (debt c 6) _) $$ [HIp1s5 HIp1rn5 Hst5 Hn5 HO Htp1s5 Hrp1s5 Htp1rn5 Hrn5]
  · isplitr; · iexact HIp1s5
    isplitr; · iexact HIp1rn5
    isplitl [Hst5]; · iexact Hst5
    isplitl [Hn5]; · iexact Hn5
    isplitl [HO]; · rw [debt_peel5]; iexact HO
    isplitl [Htp1s5]; · iexact Htp1s5
    isplitr; · iexact Hrp1s5
    isplitl [Htp1rn5]; · iexact Htp1rn5
    iexact Hrn5
  iintro ⟨Hcs5, HO⟩
  sl_exec_parts
  -- first phase, product 6: staged, then copied to the partner
  have hfs6 : (slot16 stageM 6 (of_decide_eq_true rfl)).view.read (Elt F) (sound_body.sl.Hst6_w1 m c f0) = W1 m c (cross c (offA 6)) := by
    unfold sound_body.sl.Hst6_w1
    refine (View.read_write_univ _ _).trans ?_
    exact stage_val m c (cross c (offA 6)) _ (closedOff_k0_off1_11 c).eq _
  iapply (wp_send_slot' (W1 m) (W2 m) c (nbr c) (nbr c) (dev23_eq c) (dev23_eq c) (slot16 stageM 6 (of_decide_eq_true rfl)) (slot16 inboxM 6 (of_decide_eq_true rfl)) (p1sS 6) (p1rS 6) rfl rfl (κ _) (κ _) (W1 m c (cross c (offA 6)))
      (by rw [duties_p1s]; exact Finset.mem_singleton_self _) (by rw [duties_p1r]; exact Finset.mem_singleton_self _) rfl
      (payload_p1s6 (W1 m) (W2 m) c) (by rw [payload_p1r6, nbr_nbr, peer_nbr]) _ hfs6 gn6 (debt c 7) _) $$ [HIp1s6 HIp1rn6 Hst6 Hn6 HO Htp1s6 Hrp1s6 Htp1rn6 Hrn6]
  · isplitr; · iexact HIp1s6
    isplitr; · iexact HIp1rn6
    isplitl [Hst6]; · iexact Hst6
    isplitl [Hn6]; · iexact Hn6
    isplitl [HO]; · rw [debt_peel6]; iexact HO
    isplitl [Htp1s6]; · iexact Htp1s6
    isplitr; · iexact Hrp1s6
    isplitl [Htp1rn6]; · iexact Htp1rn6
    iexact Hrn6
  iintro ⟨Hcs6, HO⟩
  sl_exec_parts
  -- first phase, product 7: staged, then copied to the partner
  have hfs7 : (slot16 stageM 7 (of_decide_eq_true rfl)).view.read (Elt F) (sound_body.sl.Hst7_w1 m c f0) = W1 m c (cross c (offA 7)) := by
    unfold sound_body.sl.Hst7_w1
    refine (View.read_write_univ _ _).trans ?_
    exact stage_val m c (cross c (offA 7)) _ (closedOff_k0_off1_4 c).eq _
  iapply (wp_send_slot' (W1 m) (W2 m) c (nbr c) (nbr c) (dev24_eq c) (dev24_eq c) (slot16 stageM 7 (of_decide_eq_true rfl)) (slot16 inboxM 7 (of_decide_eq_true rfl)) (p1sS 7) (p1rS 7) rfl rfl (κ _) (κ _) (W1 m c (cross c (offA 7)))
      (by rw [duties_p1s]; exact Finset.mem_singleton_self _) (by rw [duties_p1r]; exact Finset.mem_singleton_self _) rfl
      (payload_p1s7 (W1 m) (W2 m) c) (by rw [payload_p1r7, nbr_nbr, peer_nbr]) _ hfs7 gn7 (debt c 8) _) $$ [HIp1s7 HIp1rn7 Hst7 Hn7 HO Htp1s7 Hrp1s7 Htp1rn7 Hrn7]
  · isplitr; · iexact HIp1s7
    isplitr; · iexact HIp1rn7
    isplitl [Hst7]; · iexact Hst7
    isplitl [Hn7]; · iexact Hn7
    isplitl [HO]; · rw [debt_peel7]; iexact HO
    isplitl [Htp1s7]; · iexact Htp1s7
    isplitr; · iexact Hrp1s7
    isplitl [Htp1rn7]; · iexact Htp1rn7
    iexact Hrn7
  iintro ⟨Hcs7, HO⟩
  sl_exec_parts
  -- first phase, product 8: staged, then copied to the partner
  have hfs8 : (slot16 stageM 8 (of_decide_eq_true rfl)).view.read (Elt F) (sound_body.sl.Hst8_w1 m c f0) = W1 m c (cross c (offA 8)) := by
    unfold sound_body.sl.Hst8_w1
    refine (View.read_write_univ _ _).trans ?_
    exact stage_val m c (cross c (offA 8)) _ (closedOff_k0_off1_12 c).eq _
  iapply (wp_send_slot' (W1 m) (W2 m) c (nbr c) (nbr c) (dev25_eq c) (dev25_eq c) (slot16 stageM 8 (of_decide_eq_true rfl)) (slot16 inboxM 8 (of_decide_eq_true rfl)) (p1sS 8) (p1rS 8) rfl rfl (κ _) (κ _) (W1 m c (cross c (offA 8)))
      (by rw [duties_p1s]; exact Finset.mem_singleton_self _) (by rw [duties_p1r]; exact Finset.mem_singleton_self _) rfl
      (payload_p1s8 (W1 m) (W2 m) c) (by rw [payload_p1r8, nbr_nbr, peer_nbr]) _ hfs8 gn8 (debt c 9) _) $$ [HIp1s8 HIp1rn8 Hst8 Hn8 HO Htp1s8 Hrp1s8 Htp1rn8 Hrn8]
  · isplitr; · iexact HIp1s8
    isplitr; · iexact HIp1rn8
    isplitl [Hst8]; · iexact Hst8
    isplitl [Hn8]; · iexact Hn8
    isplitl [HO]; · rw [debt_peel8]; iexact HO
    isplitl [Htp1s8]; · iexact Htp1s8
    isplitr; · iexact Hrp1s8
    isplitl [Htp1rn8]; · iexact Htp1rn8
    iexact Hrn8
  iintro ⟨Hcs8, HO⟩
  sl_exec_parts
  -- first phase, product 9: staged, then copied to the partner
  have hfs9 : (slot16 stageM 9 (of_decide_eq_true rfl)).view.read (Elt F) (sound_body.sl.Hst9_w1 m c f0) = W1 m c (cross c (offA 9)) := by
    unfold sound_body.sl.Hst9_w1
    refine (View.read_write_univ _ _).trans ?_
    exact stage_val m c (cross c (offA 9)) _ (closedOff_k0_off1_3 c).eq _
  iapply (wp_send_slot' (W1 m) (W2 m) c (nbr c) (nbr c) (dev26_eq c) (dev26_eq c) (slot16 stageM 9 (of_decide_eq_true rfl)) (slot16 inboxM 9 (of_decide_eq_true rfl)) (p1sS 9) (p1rS 9) rfl rfl (κ _) (κ _) (W1 m c (cross c (offA 9)))
      (by rw [duties_p1s]; exact Finset.mem_singleton_self _) (by rw [duties_p1r]; exact Finset.mem_singleton_self _) rfl
      (payload_p1s9 (W1 m) (W2 m) c) (by rw [payload_p1r9, nbr_nbr, peer_nbr]) _ hfs9 gn9 (debt c 10) _) $$ [HIp1s9 HIp1rn9 Hst9 Hn9 HO Htp1s9 Hrp1s9 Htp1rn9 Hrn9]
  · isplitr; · iexact HIp1s9
    isplitr; · iexact HIp1rn9
    isplitl [Hst9]; · iexact Hst9
    isplitl [Hn9]; · iexact Hn9
    isplitl [HO]; · rw [debt_peel9]; iexact HO
    isplitl [Htp1s9]; · iexact Htp1s9
    isplitr; · iexact Hrp1s9
    isplitl [Htp1rn9]; · iexact Htp1rn9
    iexact Hrn9
  iintro ⟨Hcs9, HO⟩
  sl_exec_parts
  -- first phase, product 10: staged, then copied to the partner
  have hfs10 : (slot16 stageM 10 (of_decide_eq_true rfl)).view.read (Elt F) (sound_body.sl.Hst10_w1 m c f0) = W1 m c (cross c (offA 10)) := by
    unfold sound_body.sl.Hst10_w1
    refine (View.read_write_univ _ _).trans ?_
    exact stage_val m c (cross c (offA 10)) _ (closedOff_k0_off1_13 c).eq _
  iapply (wp_send_slot' (W1 m) (W2 m) c (nbr c) (nbr c) (dev27_eq c) (dev27_eq c) (slot16 stageM 10 (of_decide_eq_true rfl)) (slot16 inboxM 10 (of_decide_eq_true rfl)) (p1sS 10) (p1rS 10) rfl rfl (κ _) (κ _) (W1 m c (cross c (offA 10)))
      (by rw [duties_p1s]; exact Finset.mem_singleton_self _) (by rw [duties_p1r]; exact Finset.mem_singleton_self _) rfl
      (payload_p1s10 (W1 m) (W2 m) c) (by rw [payload_p1r10, nbr_nbr, peer_nbr]) _ hfs10 gn10 (debt c 11) _) $$ [HIp1s10 HIp1rn10 Hst10 Hn10 HO Htp1s10 Hrp1s10 Htp1rn10 Hrn10]
  · isplitr; · iexact HIp1s10
    isplitr; · iexact HIp1rn10
    isplitl [Hst10]; · iexact Hst10
    isplitl [Hn10]; · iexact Hn10
    isplitl [HO]; · rw [debt_peel10]; iexact HO
    isplitl [Htp1s10]; · iexact Htp1s10
    isplitr; · iexact Hrp1s10
    isplitl [Htp1rn10]; · iexact Htp1rn10
    iexact Hrn10
  iintro ⟨Hcs10, HO⟩
  sl_exec_parts
  -- first phase, product 11: staged, then copied to the partner
  have hfs11 : (slot16 stageM 11 (of_decide_eq_true rfl)).view.read (Elt F) (sound_body.sl.Hst11_w1 m c f0) = W1 m c (cross c (offA 11)) := by
    unfold sound_body.sl.Hst11_w1
    refine (View.read_write_univ _ _).trans ?_
    exact stage_val m c (cross c (offA 11)) _ (closedOff_k0_off1_2 c).eq _
  iapply (wp_send_slot' (W1 m) (W2 m) c (nbr c) (nbr c) (dev28_eq c) (dev28_eq c) (slot16 stageM 11 (of_decide_eq_true rfl)) (slot16 inboxM 11 (of_decide_eq_true rfl)) (p1sS 11) (p1rS 11) rfl rfl (κ _) (κ _) (W1 m c (cross c (offA 11)))
      (by rw [duties_p1s]; exact Finset.mem_singleton_self _) (by rw [duties_p1r]; exact Finset.mem_singleton_self _) rfl
      (payload_p1s11 (W1 m) (W2 m) c) (by rw [payload_p1r11, nbr_nbr, peer_nbr]) _ hfs11 gn11 (debt c 12) _) $$ [HIp1s11 HIp1rn11 Hst11 Hn11 HO Htp1s11 Hrp1s11 Htp1rn11 Hrn11]
  · isplitr; · iexact HIp1s11
    isplitr; · iexact HIp1rn11
    isplitl [Hst11]; · iexact Hst11
    isplitl [Hn11]; · iexact Hn11
    isplitl [HO]; · rw [debt_peel11]; iexact HO
    isplitl [Htp1s11]; · iexact Htp1s11
    isplitr; · iexact Hrp1s11
    isplitl [Htp1rn11]; · iexact Htp1rn11
    iexact Hrn11
  iintro ⟨Hcs11, HO⟩
  sl_exec_parts
  -- first phase, product 12: staged, then copied to the partner
  have hfs12 : (slot16 stageM 12 (of_decide_eq_true rfl)).view.read (Elt F) (sound_body.sl.Hst12_w1 m c f0) = W1 m c (cross c (offA 12)) := by
    unfold sound_body.sl.Hst12_w1
    refine (View.read_write_univ _ _).trans ?_
    exact stage_val m c (cross c (offA 12)) _ (closedOff_k0_off1_14 c).eq _
  iapply (wp_send_slot' (W1 m) (W2 m) c (nbr c) (nbr c) (dev29_eq c) (dev29_eq c) (slot16 stageM 12 (of_decide_eq_true rfl)) (slot16 inboxM 12 (of_decide_eq_true rfl)) (p1sS 12) (p1rS 12) rfl rfl (κ _) (κ _) (W1 m c (cross c (offA 12)))
      (by rw [duties_p1s]; exact Finset.mem_singleton_self _) (by rw [duties_p1r]; exact Finset.mem_singleton_self _) rfl
      (payload_p1s12 (W1 m) (W2 m) c) (by rw [payload_p1r12, nbr_nbr, peer_nbr]) _ hfs12 gn12 (debt c 13) _) $$ [HIp1s12 HIp1rn12 Hst12 Hn12 HO Htp1s12 Hrp1s12 Htp1rn12 Hrn12]
  · isplitr; · iexact HIp1s12
    isplitr; · iexact HIp1rn12
    isplitl [Hst12]; · iexact Hst12
    isplitl [Hn12]; · iexact Hn12
    isplitl [HO]; · rw [debt_peel12]; iexact HO
    isplitl [Htp1s12]; · iexact Htp1s12
    isplitr; · iexact Hrp1s12
    isplitl [Htp1rn12]; · iexact Htp1rn12
    iexact Hrn12
  iintro ⟨Hcs12, HO⟩
  sl_exec_parts
  -- first phase, product 13: staged, then copied to the partner
  have hfs13 : (slot16 stageM 13 (of_decide_eq_true rfl)).view.read (Elt F) (sound_body.sl.Hst13_w1 m c f0) = W1 m c (cross c (offA 13)) := by
    unfold sound_body.sl.Hst13_w1
    refine (View.read_write_univ _ _).trans ?_
    exact stage_val m c (cross c (offA 13)) _ (closedOff_k0_off1_1 c).eq _
  iapply (wp_send_slot' (W1 m) (W2 m) c (nbr c) (nbr c) (dev30_eq c) (dev30_eq c) (slot16 stageM 13 (of_decide_eq_true rfl)) (slot16 inboxM 13 (of_decide_eq_true rfl)) (p1sS 13) (p1rS 13) rfl rfl (κ _) (κ _) (W1 m c (cross c (offA 13)))
      (by rw [duties_p1s]; exact Finset.mem_singleton_self _) (by rw [duties_p1r]; exact Finset.mem_singleton_self _) rfl
      (payload_p1s13 (W1 m) (W2 m) c) (by rw [payload_p1r13, nbr_nbr, peer_nbr]) _ hfs13 gn13 (debt c 14) _) $$ [HIp1s13 HIp1rn13 Hst13 Hn13 HO Htp1s13 Hrp1s13 Htp1rn13 Hrn13]
  · isplitr; · iexact HIp1s13
    isplitr; · iexact HIp1rn13
    isplitl [Hst13]; · iexact Hst13
    isplitl [Hn13]; · iexact Hn13
    isplitl [HO]; · rw [debt_peel13]; iexact HO
    isplitl [Htp1s13]; · iexact Htp1s13
    isplitr; · iexact Hrp1s13
    isplitl [Htp1rn13]; · iexact Htp1rn13
    iexact Hrn13
  iintro ⟨Hcs13, HO⟩
  sl_exec_parts
  -- first phase, product 14: staged, then copied to the partner
  have hfs14 : (slot16 stageM 14 (of_decide_eq_true rfl)).view.read (Elt F) (sound_body.sl.Hst14_w1 m c f0) = W1 m c (cross c (offA 14)) := by
    unfold sound_body.sl.Hst14_w1
    refine (View.read_write_univ _ _).trans ?_
    exact stage_val m c (cross c (offA 14)) _ (closedOff_k0_off1_15 c).eq _
  iapply (wp_send_slot' (W1 m) (W2 m) c (nbr c) (nbr c) (dev31_eq c) (dev31_eq c) (slot16 stageM 14 (of_decide_eq_true rfl)) (slot16 inboxM 14 (of_decide_eq_true rfl)) (p1sS 14) (p1rS 14) rfl rfl (κ _) (κ _) (W1 m c (cross c (offA 14)))
      (by rw [duties_p1s]; exact Finset.mem_singleton_self _) (by rw [duties_p1r]; exact Finset.mem_singleton_self _) rfl
      (payload_p1s14 (W1 m) (W2 m) c) (by rw [payload_p1r14, nbr_nbr, peer_nbr]) _ hfs14 gn14 (debt c 15) _) $$ [HIp1s14 HIp1rn14 Hst14 Hn14 HO Htp1s14 Hrp1s14 Htp1rn14 Hrn14]
  · isplitr; · iexact HIp1s14
    isplitr; · iexact HIp1rn14
    isplitl [Hst14]; · iexact Hst14
    isplitl [Hn14]; · iexact Hn14
    isplitl [HO]; · rw [debt_peel14]; iexact HO
    isplitl [Htp1s14]; · iexact Htp1s14
    isplitr; · iexact Hrp1s14
    isplitl [Htp1rn14]; · iexact Htp1rn14
    iexact Hrn14
  iintro ⟨Hcs14, HO⟩
  sl_exec_parts
  -- first phase, product 15: staged, then copied to the partner
  have hfs15 : (slot16 stageM 15 (of_decide_eq_true rfl)).view.read (Elt F) (sound_body.sl.Hst15_w1 m c f0) = W1 m c (cross c (offA 15)) := by
    unfold sound_body.sl.Hst15_w1
    refine (View.read_write_univ _ _).trans ?_
    exact stage_val m c (cross c (offA 15)) _ (closedOff_k0_off1_16 c).eq _
  iapply (wp_send_slot' (W1 m) (W2 m) c (nbr c) (nbr c) (dev32_eq c) (dev32_eq c) (slot16 stageM 15 (of_decide_eq_true rfl)) (slot16 inboxM 15 (of_decide_eq_true rfl)) (p1sS 15) (p1rS 15) rfl rfl (κ _) (κ _) (W1 m c (cross c (offA 15)))
      (by rw [duties_p1s]; exact Finset.mem_singleton_self _) (by rw [duties_p1r]; exact Finset.mem_singleton_self _) rfl
      (payload_p1s15 (W1 m) (W2 m) c) (by rw [payload_p1r15, nbr_nbr, peer_nbr]) _ hfs15 gn15 (debt c 16) _) $$ [HIp1s15 HIp1rn15 Hst15 Hn15 HO Htp1s15 Hrp1s15 Htp1rn15 Hrn15]
  · isplitr; · iexact HIp1s15
    isplitr; · iexact HIp1rn15
    isplitl [Hst15]; · iexact Hst15
    isplitl [Hn15]; · iexact Hn15
    isplitl [HO]; · rw [debt_peel15]; iexact HO
    isplitl [Htp1s15]; · iexact Htp1s15
    isplitr; · iexact Hrp1s15
    isplitl [Htp1rn15]; · iexact Htp1rn15
    iexact Hrn15
  iintro ⟨Hcs15, HO⟩
  unfold gP2_0; icases HgP2_0 with ⟨#HIp1r0, #HIp2s0, #HIp2rp0, #Hrp2s0, Hap1r0, Hcp1r0, Hmw1r0, Htp2s0, Htp2rp0, Hap2s0, Hob0⟩
  sl_exec_parts
  -- second phase, sum 0: the partner's product received, added, the sum copied to the peer
  have hfs2_0 : (slot15 outboxM 0 (of_decide_eq_true rfl)).view.read (Elt F) (sound_body.sl.Hob0_w1 m c f2) = W2 m c (peer c (off 0)) := by
    unfold sound_body.sl.Hob0_w1
    refine (View.read_write_univ _ _).trans ?_
    exact pair_val m c 0 _ (closedOff_k0_off2_8 c).eq _
  iapply (wp_send_sq (W1 m) (W2 m) c (peer c (off 0)) (src c (off 0)) (dev33_eq c) ((dev33_eq c).trans (peer_eq_src0 c))
      (slot15 outboxM 0 (of_decide_eq_true rfl)) (slot16 gatherM (rr c.val) (rr_lt c)) squeezes_S1x32x1024_S32x1024 rfl (congrArg (fun M => M.squeeze S32x1024 squeezes_S1x32x1024_S32x1024) (gather_off4 c _))
      (p2sS 0) (p2rS (pairOf c)) rfl (sem_off3 c) (κ _) (κ _) (W2 m c (peer c (off 0)))
      (by rw [duties_p2s]; exact Finset.mem_singleton_self _) (by rw [duties_p2r_peer]; exact Finset.mem_singleton_self _) rfl
      (payload_p2s0 (W1 m) (W2 m) c) (payload_p2r_peer (W1 m) (W2 m) c 0) _ hfs2_0 hs0 (debt c 17) _) $$ [HIp2s0 HIp2rp0 Hob0 Hs0 HO Htp2s0 Hrp2s0 Htp2rp0 Hrs0]
  · isplitr; · iexact HIp2s0
    isplitr; · iexact HIp2rp0
    isplitl [Hob0]; · iexact Hob0
    isplitl [Hs0]; · iexact Hs0
    isplitl [HO]; · rw [debt_peel16]; iexact HO
    isplitl [Htp2s0]; · iexact Htp2s0
    isplitr; · iexact Hrp2s0
    isplitl [Htp2rp0]; · iexact Htp2rp0
    iexact Hrs0
  iintro ⟨Hcs2_0, HO⟩
  unfold gP2_1; icases HgP2_1 with ⟨#HIp1r1, #HIp2s1, #HIp2rp1, #Hrp2s1, Hap1r1, Hcp1r1, Hmw1r1, Htp2s1, Htp2rp1, Hap2s1, Hob1⟩
  sl_exec_parts
  -- second phase, sum 1: the partner's product received, added, the sum copied to the peer
  have hfs2_1 : (slot15 outboxM 1 (of_decide_eq_true rfl)).view.read (Elt F) (sound_body.sl.Hob1_w1 m c f2) = W2 m c (peer c (off 1)) := by
    unfold sound_body.sl.Hob1_w1
    refine (View.read_write_univ _ _).trans ?_
    exact pair_val m c 1 _ (closedOff_k0_off2_7 c).eq _
  iapply (wp_send_sq (W1 m) (W2 m) c (peer c (off 1)) (src c (off 2)) (dev34_eq c) ((dev34_eq c).trans (peer_eq_src1 c))
      (slot15 outboxM 1 (of_decide_eq_true rfl)) (slot16 gatherM (rr c.val) (rr_lt c)) squeezes_S1x32x1024_S32x1024 rfl (congrArg (fun M => M.squeeze S32x1024 squeezes_S1x32x1024_S32x1024) (gather_off4 c _))
      (p2sS 1) (p2rS (pairOf c)) rfl (sem_off3 c) (κ _) (κ _) (W2 m c (peer c (off 1)))
      (by rw [duties_p2s]; exact Finset.mem_singleton_self _) (by rw [duties_p2r_peer]; exact Finset.mem_singleton_self _) rfl
      (payload_p2s1 (W1 m) (W2 m) c) (payload_p2r_peer (W1 m) (W2 m) c 1) _ hfs2_1 hs2 (debt c 18) _) $$ [HIp2s1 HIp2rp1 Hob1 Hs2 HO Htp2s1 Hrp2s1 Htp2rp1 Hrs2]
  · isplitr; · iexact HIp2s1
    isplitr; · iexact HIp2rp1
    isplitl [Hob1]; · iexact Hob1
    isplitl [Hs2]; · iexact Hs2
    isplitl [HO]; · rw [debt_peel17]; iexact HO
    isplitl [Htp2s1]; · iexact Htp2s1
    isplitr; · iexact Hrp2s1
    isplitl [Htp2rp1]; · iexact Htp2rp1
    iexact Hrs2
  iintro ⟨Hcs2_1, HO⟩
  unfold gP2_2; icases HgP2_2 with ⟨#HIp1r2, #HIp2s2, #HIp2rp2, #Hrp2s2, Hap1r2, Hcp1r2, Hmw1r2, Htp2s2, Htp2rp2, Hap2s2, Hob2⟩
  sl_exec_parts
  -- second phase, sum 2: the partner's product received, added, the sum copied to the peer
  have hfs2_2 : (slot15 outboxM 2 (of_decide_eq_true rfl)).view.read (Elt F) (sound_body.sl.Hob2_w1 m c f2) = W2 m c (peer c (off 2)) := by
    unfold sound_body.sl.Hob2_w1
    refine (View.read_write_univ _ _).trans ?_
    exact pair_val m c 2 _ (closedOff_k0_off2_9 c).eq _
  iapply (wp_send_sq (W1 m) (W2 m) c (peer c (off 2)) (src c (off 1)) (dev35_eq c) ((dev35_eq c).trans (peer_eq_src2 c))
      (slot15 outboxM 2 (of_decide_eq_true rfl)) (slot16 gatherM (rr c.val) (rr_lt c)) squeezes_S1x32x1024_S32x1024 rfl (congrArg (fun M => M.squeeze S32x1024 squeezes_S1x32x1024_S32x1024) (gather_off4 c _))
      (p2sS 2) (p2rS (pairOf c)) rfl (sem_off3 c) (κ _) (κ _) (W2 m c (peer c (off 2)))
      (by rw [duties_p2s]; exact Finset.mem_singleton_self _) (by rw [duties_p2r_peer]; exact Finset.mem_singleton_self _) rfl
      (payload_p2s2 (W1 m) (W2 m) c) (payload_p2r_peer (W1 m) (W2 m) c 2) _ hfs2_2 hs1 (debt c 19) _) $$ [HIp2s2 HIp2rp2 Hob2 Hs1 HO Htp2s2 Hrp2s2 Htp2rp2 Hrs1]
  · isplitr; · iexact HIp2s2
    isplitr; · iexact HIp2rp2
    isplitl [Hob2]; · iexact Hob2
    isplitl [Hs1]; · iexact Hs1
    isplitl [HO]; · rw [debt_peel18]; iexact HO
    isplitl [Htp2s2]; · iexact Htp2s2
    isplitr; · iexact Hrp2s2
    isplitl [Htp2rp2]; · iexact Htp2rp2
    iexact Hrs1
  iintro ⟨Hcs2_2, HO⟩
  unfold gP2_3; icases HgP2_3 with ⟨#HIp1r3, #HIp2s3, #HIp2rp3, #Hrp2s3, Hap1r3, Hcp1r3, Hmw1r3, Htp2s3, Htp2rp3, Hap2s3, Hob3⟩
  sl_exec_parts
  -- second phase, sum 3: the partner's product received, added, the sum copied to the peer
  have hfs2_3 : (slot15 outboxM 3 (of_decide_eq_true rfl)).view.read (Elt F) (sound_body.sl.Hob3_w1 m c f2) = W2 m c (peer c (off 3)) := by
    unfold sound_body.sl.Hob3_w1
    refine (View.read_write_univ _ _).trans ?_
    exact pair_val m c 3 _ (closedOff_k0_off2_6 c).eq _
  iapply (wp_send_sq (W1 m) (W2 m) c (peer c (off 3)) (src c (off 4)) (dev36_eq c) ((dev36_eq c).trans (peer_eq_src3 c))
      (slot15 outboxM 3 (of_decide_eq_true rfl)) (slot16 gatherM (rr c.val) (rr_lt c)) squeezes_S1x32x1024_S32x1024 rfl (congrArg (fun M => M.squeeze S32x1024 squeezes_S1x32x1024_S32x1024) (gather_off4 c _))
      (p2sS 3) (p2rS (pairOf c)) rfl (sem_off3 c) (κ _) (κ _) (W2 m c (peer c (off 3)))
      (by rw [duties_p2s]; exact Finset.mem_singleton_self _) (by rw [duties_p2r_peer]; exact Finset.mem_singleton_self _) rfl
      (payload_p2s3 (W1 m) (W2 m) c) (payload_p2r_peer (W1 m) (W2 m) c 3) _ hfs2_3 hs4 (debt c 20) _) $$ [HIp2s3 HIp2rp3 Hob3 Hs4 HO Htp2s3 Hrp2s3 Htp2rp3 Hrs4]
  · isplitr; · iexact HIp2s3
    isplitr; · iexact HIp2rp3
    isplitl [Hob3]; · iexact Hob3
    isplitl [Hs4]; · iexact Hs4
    isplitl [HO]; · rw [debt_peel19]; iexact HO
    isplitl [Htp2s3]; · iexact Htp2s3
    isplitr; · iexact Hrp2s3
    isplitl [Htp2rp3]; · iexact Htp2rp3
    iexact Hrs4
  iintro ⟨Hcs2_3, HO⟩
  unfold gP2_4; icases HgP2_4 with ⟨#HIp1r4, #HIp2s4, #HIp2rp4, #Hrp2s4, Hap1r4, Hcp1r4, Hmw1r4, Htp2s4, Htp2rp4, Hap2s4, Hob4⟩
  sl_exec_parts
  -- second phase, sum 4: the partner's product received, added, the sum copied to the peer
  have hfs2_4 : (slot15 outboxM 4 (of_decide_eq_true rfl)).view.read (Elt F) (sound_body.sl.Hob4_w1 m c f2) = W2 m c (peer c (off 4)) := by
    unfold sound_body.sl.Hob4_w1
    refine (View.read_write_univ _ _).trans ?_
    exact pair_val m c 4 _ (closedOff_k0_off2_10 c).eq _
  iapply (wp_send_sq (W1 m) (W2 m) c (peer c (off 4)) (src c (off 3)) (dev37_eq c) ((dev37_eq c).trans (peer_eq_src4 c))
      (slot15 outboxM 4 (of_decide_eq_true rfl)) (slot16 gatherM (rr c.val) (rr_lt c)) squeezes_S1x32x1024_S32x1024 rfl (congrArg (fun M => M.squeeze S32x1024 squeezes_S1x32x1024_S32x1024) (gather_off4 c _))
      (p2sS 4) (p2rS (pairOf c)) rfl (sem_off3 c) (κ _) (κ _) (W2 m c (peer c (off 4)))
      (by rw [duties_p2s]; exact Finset.mem_singleton_self _) (by rw [duties_p2r_peer]; exact Finset.mem_singleton_self _) rfl
      (payload_p2s4 (W1 m) (W2 m) c) (payload_p2r_peer (W1 m) (W2 m) c 4) _ hfs2_4 hs3 (debt c 21) _) $$ [HIp2s4 HIp2rp4 Hob4 Hs3 HO Htp2s4 Hrp2s4 Htp2rp4 Hrs3]
  · isplitr; · iexact HIp2s4
    isplitr; · iexact HIp2rp4
    isplitl [Hob4]; · iexact Hob4
    isplitl [Hs3]; · iexact Hs3
    isplitl [HO]; · rw [debt_peel20]; iexact HO
    isplitl [Htp2s4]; · iexact Htp2s4
    isplitr; · iexact Hrp2s4
    isplitl [Htp2rp4]; · iexact Htp2rp4
    iexact Hrs3
  iintro ⟨Hcs2_4, HO⟩
  unfold gP2_5; icases HgP2_5 with ⟨#HIp1r5, #HIp2s5, #HIp2rp5, #Hrp2s5, Hap1r5, Hcp1r5, Hmw1r5, Htp2s5, Htp2rp5, Hap2s5, Hob5⟩
  sl_exec_parts
  -- second phase, sum 5: the partner's product received, added, the sum copied to the peer
  have hfs2_5 : (slot15 outboxM 5 (of_decide_eq_true rfl)).view.read (Elt F) (sound_body.sl.Hob5_w1 m c f2) = W2 m c (peer c (off 5)) := by
    unfold sound_body.sl.Hob5_w1
    refine (View.read_write_univ _ _).trans ?_
    exact pair_val m c 5 _ (closedOff_k0_off2_5 c).eq _
  iapply (wp_send_sq (W1 m) (W2 m) c (peer c (off 5)) (src c (off 6)) (dev38_eq c) ((dev38_eq c).trans (peer_eq_src5 c))
      (slot15 outboxM 5 (of_decide_eq_true rfl)) (slot16 gatherM (rr c.val) (rr_lt c)) squeezes_S1x32x1024_S32x1024 rfl (congrArg (fun M => M.squeeze S32x1024 squeezes_S1x32x1024_S32x1024) (gather_off4 c _))
      (p2sS 5) (p2rS (pairOf c)) rfl (sem_off3 c) (κ _) (κ _) (W2 m c (peer c (off 5)))
      (by rw [duties_p2s]; exact Finset.mem_singleton_self _) (by rw [duties_p2r_peer]; exact Finset.mem_singleton_self _) rfl
      (payload_p2s5 (W1 m) (W2 m) c) (payload_p2r_peer (W1 m) (W2 m) c 5) _ hfs2_5 hs6 (debt c 22) _) $$ [HIp2s5 HIp2rp5 Hob5 Hs6 HO Htp2s5 Hrp2s5 Htp2rp5 Hrs6]
  · isplitr; · iexact HIp2s5
    isplitr; · iexact HIp2rp5
    isplitl [Hob5]; · iexact Hob5
    isplitl [Hs6]; · iexact Hs6
    isplitl [HO]; · rw [debt_peel21]; iexact HO
    isplitl [Htp2s5]; · iexact Htp2s5
    isplitr; · iexact Hrp2s5
    isplitl [Htp2rp5]; · iexact Htp2rp5
    iexact Hrs6
  iintro ⟨Hcs2_5, HO⟩
  unfold gP2_6; icases HgP2_6 with ⟨#HIp1r6, #HIp2s6, #HIp2rp6, #Hrp2s6, Hap1r6, Hcp1r6, Hmw1r6, Htp2s6, Htp2rp6, Hap2s6, Hob6⟩
  sl_exec_parts
  -- second phase, sum 6: the partner's product received, added, the sum copied to the peer
  have hfs2_6 : (slot15 outboxM 6 (of_decide_eq_true rfl)).view.read (Elt F) (sound_body.sl.Hob6_w1 m c f2) = W2 m c (peer c (off 6)) := by
    unfold sound_body.sl.Hob6_w1
    refine (View.read_write_univ _ _).trans ?_
    exact pair_val m c 6 _ (closedOff_k0_off2_11 c).eq _
  iapply (wp_send_sq (W1 m) (W2 m) c (peer c (off 6)) (src c (off 5)) (dev39_eq c) ((dev39_eq c).trans (peer_eq_src6 c))
      (slot15 outboxM 6 (of_decide_eq_true rfl)) (slot16 gatherM (rr c.val) (rr_lt c)) squeezes_S1x32x1024_S32x1024 rfl (congrArg (fun M => M.squeeze S32x1024 squeezes_S1x32x1024_S32x1024) (gather_off4 c _))
      (p2sS 6) (p2rS (pairOf c)) rfl (sem_off3 c) (κ _) (κ _) (W2 m c (peer c (off 6)))
      (by rw [duties_p2s]; exact Finset.mem_singleton_self _) (by rw [duties_p2r_peer]; exact Finset.mem_singleton_self _) rfl
      (payload_p2s6 (W1 m) (W2 m) c) (payload_p2r_peer (W1 m) (W2 m) c 6) _ hfs2_6 hs5 (debt c 23) _) $$ [HIp2s6 HIp2rp6 Hob6 Hs5 HO Htp2s6 Hrp2s6 Htp2rp6 Hrs5]
  · isplitr; · iexact HIp2s6
    isplitr; · iexact HIp2rp6
    isplitl [Hob6]; · iexact Hob6
    isplitl [Hs5]; · iexact Hs5
    isplitl [HO]; · rw [debt_peel22]; iexact HO
    isplitl [Htp2s6]; · iexact Htp2s6
    isplitr; · iexact Hrp2s6
    isplitl [Htp2rp6]; · iexact Htp2rp6
    iexact Hrs5
  iintro ⟨Hcs2_6, HO⟩
  unfold gP2_7; icases HgP2_7 with ⟨#HIp1r7, #HIp2s7, #HIp2rp7, #Hrp2s7, Hap1r7, Hcp1r7, Hmw1r7, Htp2s7, Htp2rp7, Hap2s7, Hob7⟩
  sl_exec_parts
  -- second phase, sum 7: the partner's product received, added, the sum copied to the peer
  have hfs2_7 : (slot15 outboxM 7 (of_decide_eq_true rfl)).view.read (Elt F) (sound_body.sl.Hob7_w1 m c f2) = W2 m c (peer c (off 7)) := by
    unfold sound_body.sl.Hob7_w1
    refine (View.read_write_univ _ _).trans ?_
    exact pair_val m c 7 _ (closedOff_k0_off2_4 c).eq _
  iapply (wp_send_sq (W1 m) (W2 m) c (peer c (off 7)) (src c (off 8)) (dev40_eq c) ((dev40_eq c).trans (peer_eq_src7 c))
      (slot15 outboxM 7 (of_decide_eq_true rfl)) (slot16 gatherM (rr c.val) (rr_lt c)) squeezes_S1x32x1024_S32x1024 rfl (congrArg (fun M => M.squeeze S32x1024 squeezes_S1x32x1024_S32x1024) (gather_off4 c _))
      (p2sS 7) (p2rS (pairOf c)) rfl (sem_off3 c) (κ _) (κ _) (W2 m c (peer c (off 7)))
      (by rw [duties_p2s]; exact Finset.mem_singleton_self _) (by rw [duties_p2r_peer]; exact Finset.mem_singleton_self _) rfl
      (payload_p2s7 (W1 m) (W2 m) c) (payload_p2r_peer (W1 m) (W2 m) c 7) _ hfs2_7 hs8 (debt c 24) _) $$ [HIp2s7 HIp2rp7 Hob7 Hs8 HO Htp2s7 Hrp2s7 Htp2rp7 Hrs8]
  · isplitr; · iexact HIp2s7
    isplitr; · iexact HIp2rp7
    isplitl [Hob7]; · iexact Hob7
    isplitl [Hs8]; · iexact Hs8
    isplitl [HO]; · rw [debt_peel23]; iexact HO
    isplitl [Htp2s7]; · iexact Htp2s7
    isplitr; · iexact Hrp2s7
    isplitl [Htp2rp7]; · iexact Htp2rp7
    iexact Hrs8
  iintro ⟨Hcs2_7, HO⟩
  unfold gP2_8; icases HgP2_8 with ⟨#HIp1r8, #HIp2s8, #HIp2rp8, #Hrp2s8, Hap1r8, Hcp1r8, Hmw1r8, Htp2s8, Htp2rp8, Hap2s8, Hob8⟩
  sl_exec_parts
  -- second phase, sum 8: the partner's product received, added, the sum copied to the peer
  have hfs2_8 : (slot15 outboxM 8 (of_decide_eq_true rfl)).view.read (Elt F) (sound_body.sl.Hob8_w1 m c f2) = W2 m c (peer c (off 8)) := by
    unfold sound_body.sl.Hob8_w1
    refine (View.read_write_univ _ _).trans ?_
    exact pair_val m c 8 _ (closedOff_k0_off2_12 c).eq _
  iapply (wp_send_sq (W1 m) (W2 m) c (peer c (off 8)) (src c (off 7)) (dev41_eq c) ((dev41_eq c).trans (peer_eq_src8 c))
      (slot15 outboxM 8 (of_decide_eq_true rfl)) (slot16 gatherM (rr c.val) (rr_lt c)) squeezes_S1x32x1024_S32x1024 rfl (congrArg (fun M => M.squeeze S32x1024 squeezes_S1x32x1024_S32x1024) (gather_off4 c _))
      (p2sS 8) (p2rS (pairOf c)) rfl (sem_off3 c) (κ _) (κ _) (W2 m c (peer c (off 8)))
      (by rw [duties_p2s]; exact Finset.mem_singleton_self _) (by rw [duties_p2r_peer]; exact Finset.mem_singleton_self _) rfl
      (payload_p2s8 (W1 m) (W2 m) c) (payload_p2r_peer (W1 m) (W2 m) c 8) _ hfs2_8 hs7 (debt c 25) _) $$ [HIp2s8 HIp2rp8 Hob8 Hs7 HO Htp2s8 Hrp2s8 Htp2rp8 Hrs7]
  · isplitr; · iexact HIp2s8
    isplitr; · iexact HIp2rp8
    isplitl [Hob8]; · iexact Hob8
    isplitl [Hs7]; · iexact Hs7
    isplitl [HO]; · rw [debt_peel24]; iexact HO
    isplitl [Htp2s8]; · iexact Htp2s8
    isplitr; · iexact Hrp2s8
    isplitl [Htp2rp8]; · iexact Htp2rp8
    iexact Hrs7
  iintro ⟨Hcs2_8, HO⟩
  unfold gP2_9; icases HgP2_9 with ⟨#HIp1r9, #HIp2s9, #HIp2rp9, #Hrp2s9, Hap1r9, Hcp1r9, Hmw1r9, Htp2s9, Htp2rp9, Hap2s9, Hob9⟩
  sl_exec_parts
  -- second phase, sum 9: the partner's product received, added, the sum copied to the peer
  have hfs2_9 : (slot15 outboxM 9 (of_decide_eq_true rfl)).view.read (Elt F) (sound_body.sl.Hob9_w1 m c f2) = W2 m c (peer c (off 9)) := by
    unfold sound_body.sl.Hob9_w1
    refine (View.read_write_univ _ _).trans ?_
    exact pair_val m c 9 _ (closedOff_k0_off2_3 c).eq _
  iapply (wp_send_sq (W1 m) (W2 m) c (peer c (off 9)) (src c (off 10)) (dev42_eq c) ((dev42_eq c).trans (peer_eq_src9 c))
      (slot15 outboxM 9 (of_decide_eq_true rfl)) (slot16 gatherM (rr c.val) (rr_lt c)) squeezes_S1x32x1024_S32x1024 rfl (congrArg (fun M => M.squeeze S32x1024 squeezes_S1x32x1024_S32x1024) (gather_off4 c _))
      (p2sS 9) (p2rS (pairOf c)) rfl (sem_off3 c) (κ _) (κ _) (W2 m c (peer c (off 9)))
      (by rw [duties_p2s]; exact Finset.mem_singleton_self _) (by rw [duties_p2r_peer]; exact Finset.mem_singleton_self _) rfl
      (payload_p2s9 (W1 m) (W2 m) c) (payload_p2r_peer (W1 m) (W2 m) c 9) _ hfs2_9 hs10 (debt c 26) _) $$ [HIp2s9 HIp2rp9 Hob9 Hs10 HO Htp2s9 Hrp2s9 Htp2rp9 Hrs10]
  · isplitr; · iexact HIp2s9
    isplitr; · iexact HIp2rp9
    isplitl [Hob9]; · iexact Hob9
    isplitl [Hs10]; · iexact Hs10
    isplitl [HO]; · rw [debt_peel25]; iexact HO
    isplitl [Htp2s9]; · iexact Htp2s9
    isplitr; · iexact Hrp2s9
    isplitl [Htp2rp9]; · iexact Htp2rp9
    iexact Hrs10
  iintro ⟨Hcs2_9, HO⟩
  unfold gP2_10; icases HgP2_10 with ⟨#HIp1r10, #HIp2s10, #HIp2rp10, #Hrp2s10, Hap1r10, Hcp1r10, Hmw1r10, Htp2s10, Htp2rp10, Hap2s10, Hob10⟩
  sl_exec_parts
  -- second phase, sum 10: the partner's product received, added, the sum copied to the peer
  have hfs2_10 : (slot15 outboxM 10 (of_decide_eq_true rfl)).view.read (Elt F) (sound_body.sl.Hob10_w1 m c f2) = W2 m c (peer c (off 10)) := by
    unfold sound_body.sl.Hob10_w1
    refine (View.read_write_univ _ _).trans ?_
    exact pair_val m c 10 _ (closedOff_k0_off2_13 c).eq _
  iapply (wp_send_sq (W1 m) (W2 m) c (peer c (off 10)) (src c (off 9)) (dev43_eq c) ((dev43_eq c).trans (peer_eq_src10 c))
      (slot15 outboxM 10 (of_decide_eq_true rfl)) (slot16 gatherM (rr c.val) (rr_lt c)) squeezes_S1x32x1024_S32x1024 rfl (congrArg (fun M => M.squeeze S32x1024 squeezes_S1x32x1024_S32x1024) (gather_off4 c _))
      (p2sS 10) (p2rS (pairOf c)) rfl (sem_off3 c) (κ _) (κ _) (W2 m c (peer c (off 10)))
      (by rw [duties_p2s]; exact Finset.mem_singleton_self _) (by rw [duties_p2r_peer]; exact Finset.mem_singleton_self _) rfl
      (payload_p2s10 (W1 m) (W2 m) c) (payload_p2r_peer (W1 m) (W2 m) c 10) _ hfs2_10 hs9 (debt c 27) _) $$ [HIp2s10 HIp2rp10 Hob10 Hs9 HO Htp2s10 Hrp2s10 Htp2rp10 Hrs9]
  · isplitr; · iexact HIp2s10
    isplitr; · iexact HIp2rp10
    isplitl [Hob10]; · iexact Hob10
    isplitl [Hs9]; · iexact Hs9
    isplitl [HO]; · rw [debt_peel26]; iexact HO
    isplitl [Htp2s10]; · iexact Htp2s10
    isplitr; · iexact Hrp2s10
    isplitl [Htp2rp10]; · iexact Htp2rp10
    iexact Hrs9
  iintro ⟨Hcs2_10, HO⟩
  unfold gP2_11; icases HgP2_11 with ⟨#HIp1r11, #HIp2s11, #HIp2rp11, #Hrp2s11, Hap1r11, Hcp1r11, Hmw1r11, Htp2s11, Htp2rp11, Hap2s11, Hob11⟩
  sl_exec_parts
  -- second phase, sum 11: the partner's product received, added, the sum copied to the peer
  have hfs2_11 : (slot15 outboxM 11 (of_decide_eq_true rfl)).view.read (Elt F) (sound_body.sl.Hob11_w1 m c f2) = W2 m c (peer c (off 11)) := by
    unfold sound_body.sl.Hob11_w1
    refine (View.read_write_univ _ _).trans ?_
    exact pair_val m c 11 _ (closedOff_k0_off2_2 c).eq _
  iapply (wp_send_sq (W1 m) (W2 m) c (peer c (off 11)) (src c (off 12)) (dev44_eq c) ((dev44_eq c).trans (peer_eq_src11 c))
      (slot15 outboxM 11 (of_decide_eq_true rfl)) (slot16 gatherM (rr c.val) (rr_lt c)) squeezes_S1x32x1024_S32x1024 rfl (congrArg (fun M => M.squeeze S32x1024 squeezes_S1x32x1024_S32x1024) (gather_off4 c _))
      (p2sS 11) (p2rS (pairOf c)) rfl (sem_off3 c) (κ _) (κ _) (W2 m c (peer c (off 11)))
      (by rw [duties_p2s]; exact Finset.mem_singleton_self _) (by rw [duties_p2r_peer]; exact Finset.mem_singleton_self _) rfl
      (payload_p2s11 (W1 m) (W2 m) c) (payload_p2r_peer (W1 m) (W2 m) c 11) _ hfs2_11 hs12 (debt c 28) _) $$ [HIp2s11 HIp2rp11 Hob11 Hs12 HO Htp2s11 Hrp2s11 Htp2rp11 Hrs12]
  · isplitr; · iexact HIp2s11
    isplitr; · iexact HIp2rp11
    isplitl [Hob11]; · iexact Hob11
    isplitl [Hs12]; · iexact Hs12
    isplitl [HO]; · rw [debt_peel27]; iexact HO
    isplitl [Htp2s11]; · iexact Htp2s11
    isplitr; · iexact Hrp2s11
    isplitl [Htp2rp11]; · iexact Htp2rp11
    iexact Hrs12
  iintro ⟨Hcs2_11, HO⟩
  unfold gP2_12; icases HgP2_12 with ⟨#HIp1r12, #HIp2s12, #HIp2rp12, #Hrp2s12, Hap1r12, Hcp1r12, Hmw1r12, Htp2s12, Htp2rp12, Hap2s12, Hob12⟩
  sl_exec_parts
  -- second phase, sum 12: the partner's product received, added, the sum copied to the peer
  have hfs2_12 : (slot15 outboxM 12 (of_decide_eq_true rfl)).view.read (Elt F) (sound_body.sl.Hob12_w1 m c f2) = W2 m c (peer c (off 12)) := by
    unfold sound_body.sl.Hob12_w1
    refine (View.read_write_univ _ _).trans ?_
    exact pair_val m c 12 _ (closedOff_k0_off2_14 c).eq _
  iapply (wp_send_sq (W1 m) (W2 m) c (peer c (off 12)) (src c (off 11)) (dev45_eq c) ((dev45_eq c).trans (peer_eq_src12 c))
      (slot15 outboxM 12 (of_decide_eq_true rfl)) (slot16 gatherM (rr c.val) (rr_lt c)) squeezes_S1x32x1024_S32x1024 rfl (congrArg (fun M => M.squeeze S32x1024 squeezes_S1x32x1024_S32x1024) (gather_off4 c _))
      (p2sS 12) (p2rS (pairOf c)) rfl (sem_off3 c) (κ _) (κ _) (W2 m c (peer c (off 12)))
      (by rw [duties_p2s]; exact Finset.mem_singleton_self _) (by rw [duties_p2r_peer]; exact Finset.mem_singleton_self _) rfl
      (payload_p2s12 (W1 m) (W2 m) c) (payload_p2r_peer (W1 m) (W2 m) c 12) _ hfs2_12 hs11 (debt c 29) _) $$ [HIp2s12 HIp2rp12 Hob12 Hs11 HO Htp2s12 Hrp2s12 Htp2rp12 Hrs11]
  · isplitr; · iexact HIp2s12
    isplitr; · iexact HIp2rp12
    isplitl [Hob12]; · iexact Hob12
    isplitl [Hs11]; · iexact Hs11
    isplitl [HO]; · rw [debt_peel28]; iexact HO
    isplitl [Htp2s12]; · iexact Htp2s12
    isplitr; · iexact Hrp2s12
    isplitl [Htp2rp12]; · iexact Htp2rp12
    iexact Hrs11
  iintro ⟨Hcs2_12, HO⟩
  unfold gP2_13; icases HgP2_13 with ⟨#HIp1r13, #HIp2s13, #HIp2rp13, #Hrp2s13, Hap1r13, Hcp1r13, Hmw1r13, Htp2s13, Htp2rp13, Hap2s13, Hob13⟩
  sl_exec_parts
  -- second phase, sum 13: the partner's product received, added, the sum copied to the peer
  have hfs2_13 : (slot15 outboxM 13 (of_decide_eq_true rfl)).view.read (Elt F) (sound_body.sl.Hob13_w1 m c f2) = W2 m c (peer c (off 13)) := by
    unfold sound_body.sl.Hob13_w1
    refine (View.read_write_univ _ _).trans ?_
    exact pair_val m c 13 _ (closedOff_k0_off2_1 c).eq _
  iapply (wp_send_sq (W1 m) (W2 m) c (peer c (off 13)) (src c (off 14)) (dev46_eq c) ((dev46_eq c).trans (peer_eq_src13 c))
      (slot15 outboxM 13 (of_decide_eq_true rfl)) (slot16 gatherM (rr c.val) (rr_lt c)) squeezes_S1x32x1024_S32x1024 rfl (congrArg (fun M => M.squeeze S32x1024 squeezes_S1x32x1024_S32x1024) (gather_off4 c _))
      (p2sS 13) (p2rS (pairOf c)) rfl (sem_off3 c) (κ _) (κ _) (W2 m c (peer c (off 13)))
      (by rw [duties_p2s]; exact Finset.mem_singleton_self _) (by rw [duties_p2r_peer]; exact Finset.mem_singleton_self _) rfl
      (payload_p2s13 (W1 m) (W2 m) c) (payload_p2r_peer (W1 m) (W2 m) c 13) _ hfs2_13 hs14 (debt c 30) _) $$ [HIp2s13 HIp2rp13 Hob13 Hs14 HO Htp2s13 Hrp2s13 Htp2rp13 Hrs14]
  · isplitr; · iexact HIp2s13
    isplitr; · iexact HIp2rp13
    isplitl [Hob13]; · iexact Hob13
    isplitl [Hs14]; · iexact Hs14
    isplitl [HO]; · rw [debt_peel29]; iexact HO
    isplitl [Htp2s13]; · iexact Htp2s13
    isplitr; · iexact Hrp2s13
    isplitl [Htp2rp13]; · iexact Htp2rp13
    iexact Hrs14
  iintro ⟨Hcs2_13, HO⟩
  unfold gP2_14; icases HgP2_14 with ⟨#HIp1r14, #HIp2s14, #HIp2rp14, #Hrp2s14, Hap1r14, Hcp1r14, Hmw1r14, Htp2s14, Htp2rp14, Hap2s14, Hob14⟩
  sl_exec_parts
  -- second phase, sum 14: the partner's product received, added, the sum copied to the peer
  have hfs2_14 : (slot15 outboxM 14 (of_decide_eq_true rfl)).view.read (Elt F) (sound_body.sl.Hob14_w1 m c f2) = W2 m c (peer c (off 14)) := by
    unfold sound_body.sl.Hob14_w1
    refine (View.read_write_univ _ _).trans ?_
    exact pair_val m c 14 _ (closedOff_k0_off2_15 c).eq _
  iapply (wp_send_sq (W1 m) (W2 m) c (peer c (off 14)) (src c (off 13)) (dev47_eq c) ((dev47_eq c).trans (peer_eq_src14 c))
      (slot15 outboxM 14 (of_decide_eq_true rfl)) (slot16 gatherM (rr c.val) (rr_lt c)) squeezes_S1x32x1024_S32x1024 rfl (congrArg (fun M => M.squeeze S32x1024 squeezes_S1x32x1024_S32x1024) (gather_off4 c _))
      (p2sS 14) (p2rS (pairOf c)) rfl (sem_off3 c) (κ _) (κ _) (W2 m c (peer c (off 14)))
      (by rw [duties_p2s]; exact Finset.mem_singleton_self _) (by rw [duties_p2r_peer]; exact Finset.mem_singleton_self _) rfl
      (payload_p2s14 (W1 m) (W2 m) c) (payload_p2r_peer (W1 m) (W2 m) c 14) _ hfs2_14 hs13 (debt c 31) _) $$ [HIp2s14 HIp2rp14 Hob14 Hs13 HO Htp2s14 Hrp2s14 Htp2rp14 Hrs13]
  · isplitr; · iexact HIp2s14
    isplitr; · iexact HIp2rp14
    isplitl [Hob14]; · iexact Hob14
    isplitl [Hs13]; · iexact Hs13
    isplitl [HO]; · rw [debt_peel30]; iexact HO
    isplitl [Htp2s14]; · iexact Htp2s14
    isplitr; · iexact Hrp2s14
    isplitl [Htp2rp14]; · iexact Htp2rp14
    iexact Hrs13
  iintro ⟨Hcs2_14, HO⟩
  rw [debt_end]
  unfold gP1last; icases HgP1last with ⟨#HIp1r15, Hap1r15, Hcp1r15⟩
  sl_exec_parts
  -- second-phase receive 0: the sum of the device 8 pairs back has landed; it is added to the result
  unfold gFin_0; icases HgFin_0 with ⟨#HIp2r0, Hap2r0, Hcp2r0⟩
  rw [sem_off6_0 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_0 c _)) $$ [Hcp2r0 HO Hap2r0]
  · isplitr; · iexact HIp2r0
    isplitl [Hcp2r0]; · iexact Hcp2r0
    isplitl [HO]; · iexact HO
    isplitr; · rw [MayWait_zero]; iempintro
    iexact Hap2r0
  iintro ⟨HO, Hap2r0, -, Hpay⟩
  ihave Hgs0 := (Entails.of_eq (rest_p2r_src (W1 m) (W2 m) c 0)) $$ Hpay
  sl_exec_parts
  -- second-phase receive 1: the sum of the device 7 pairs back has landed; it is added to the result
  unfold gFin_1; icases HgFin_1 with ⟨#HIp2r1, Hap2r1, Hcp2r1⟩
  rw [sem_off6_1 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_1 c _)) $$ [Hcp2r1 HO Hap2r1]
  · isplitr; · iexact HIp2r1
    isplitl [Hcp2r1]; · iexact Hcp2r1
    isplitl [HO]; · iexact HO
    isplitr; · rw [MayWait_zero]; iempintro
    iexact Hap2r1
  iintro ⟨HO, Hap2r1, -, Hpay⟩
  ihave Hgs1 := (Entails.of_eq (rest_p2r_src (W1 m) (W2 m) c 1)) $$ Hpay
  sl_exec_parts
  -- second-phase receive 2: the sum of the device 9 pairs back has landed; it is added to the result
  unfold gFin_2; icases HgFin_2 with ⟨#HIp2r2, Hap2r2, Hcp2r2⟩
  rw [sem_off6_2 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_2 c _)) $$ [Hcp2r2 HO Hap2r2]
  · isplitr; · iexact HIp2r2
    isplitl [Hcp2r2]; · iexact Hcp2r2
    isplitl [HO]; · iexact HO
    isplitr; · rw [MayWait_zero]; iempintro
    iexact Hap2r2
  iintro ⟨HO, Hap2r2, -, Hpay⟩
  ihave Hgs2 := (Entails.of_eq (rest_p2r_src (W1 m) (W2 m) c 2)) $$ Hpay
  sl_exec_parts
  -- second-phase receive 3: the sum of the device 6 pairs back has landed; it is added to the result
  unfold gFin_3; icases HgFin_3 with ⟨#HIp2r3, Hap2r3, Hcp2r3⟩
  rw [sem_off6_3 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_3 c _)) $$ [Hcp2r3 HO Hap2r3]
  · isplitr; · iexact HIp2r3
    isplitl [Hcp2r3]; · iexact Hcp2r3
    isplitl [HO]; · iexact HO
    isplitr; · rw [MayWait_zero]; iempintro
    iexact Hap2r3
  iintro ⟨HO, Hap2r3, -, Hpay⟩
  ihave Hgs3 := (Entails.of_eq (rest_p2r_src (W1 m) (W2 m) c 3)) $$ Hpay
  sl_exec_parts
  -- second-phase receive 4: the sum of the device 10 pairs back has landed; it is added to the result
  unfold gFin_4; icases HgFin_4 with ⟨#HIp2r4, Hap2r4, Hcp2r4⟩
  rw [sem_off6_4 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_4 c _)) $$ [Hcp2r4 HO Hap2r4]
  · isplitr; · iexact HIp2r4
    isplitl [Hcp2r4]; · iexact Hcp2r4
    isplitl [HO]; · iexact HO
    isplitr; · rw [MayWait_zero]; iempintro
    iexact Hap2r4
  iintro ⟨HO, Hap2r4, -, Hpay⟩
  ihave Hgs4 := (Entails.of_eq (rest_p2r_src (W1 m) (W2 m) c 4)) $$ Hpay
  sl_exec_parts
  -- second-phase receive 5: the sum of the device 5 pairs back has landed; it is added to the result
  unfold gFin_5; icases HgFin_5 with ⟨#HIp2r5, Hap2r5, Hcp2r5⟩
  rw [sem_off6_5 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_5 c _)) $$ [Hcp2r5 HO Hap2r5]
  · isplitr; · iexact HIp2r5
    isplitl [Hcp2r5]; · iexact Hcp2r5
    isplitl [HO]; · iexact HO
    isplitr; · rw [MayWait_zero]; iempintro
    iexact Hap2r5
  iintro ⟨HO, Hap2r5, -, Hpay⟩
  ihave Hgs5 := (Entails.of_eq (rest_p2r_src (W1 m) (W2 m) c 5)) $$ Hpay
  sl_exec_parts
  -- second-phase receive 6: the sum of the device 11 pairs back has landed; it is added to the result
  unfold gFin_6; icases HgFin_6 with ⟨#HIp2r6, Hap2r6, Hcp2r6⟩
  rw [sem_off6_6 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_6 c _)) $$ [Hcp2r6 HO Hap2r6]
  · isplitr; · iexact HIp2r6
    isplitl [Hcp2r6]; · iexact Hcp2r6
    isplitl [HO]; · iexact HO
    isplitr; · rw [MayWait_zero]; iempintro
    iexact Hap2r6
  iintro ⟨HO, Hap2r6, -, Hpay⟩
  ihave Hgs6 := (Entails.of_eq (rest_p2r_src (W1 m) (W2 m) c 6)) $$ Hpay
  sl_exec_parts
  -- second-phase receive 7: the sum of the device 4 pairs back has landed; it is added to the result
  unfold gFin_7; icases HgFin_7 with ⟨#HIp2r7, Hap2r7, Hcp2r7⟩
  rw [sem_off6_7 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_7 c _)) $$ [Hcp2r7 HO Hap2r7]
  · isplitr; · iexact HIp2r7
    isplitl [Hcp2r7]; · iexact Hcp2r7
    isplitl [HO]; · iexact HO
    isplitr; · rw [MayWait_zero]; iempintro
    iexact Hap2r7
  iintro ⟨HO, Hap2r7, -, Hpay⟩
  ihave Hgs7 := (Entails.of_eq (rest_p2r_src (W1 m) (W2 m) c 7)) $$ Hpay
  sl_exec_parts
  -- second-phase receive 8: the sum of the device 12 pairs back has landed; it is added to the result
  unfold gFin_8; icases HgFin_8 with ⟨#HIp2r8, Hap2r8, Hcp2r8⟩
  rw [sem_off6_8 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_8 c _)) $$ [Hcp2r8 HO Hap2r8]
  · isplitr; · iexact HIp2r8
    isplitl [Hcp2r8]; · iexact Hcp2r8
    isplitl [HO]; · iexact HO
    isplitr; · rw [MayWait_zero]; iempintro
    iexact Hap2r8
  iintro ⟨HO, Hap2r8, -, Hpay⟩
  ihave Hgs8 := (Entails.of_eq (rest_p2r_src (W1 m) (W2 m) c 8)) $$ Hpay
  sl_exec_parts
  -- second-phase receive 9: the sum of the device 3 pairs back has landed; it is added to the result
  unfold gFin_9; icases HgFin_9 with ⟨#HIp2r9, Hap2r9, Hcp2r9⟩
  rw [sem_off6_9 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_9 c _)) $$ [Hcp2r9 HO Hap2r9]
  · isplitr; · iexact HIp2r9
    isplitl [Hcp2r9]; · iexact Hcp2r9
    isplitl [HO]; · iexact HO
    isplitr; · rw [MayWait_zero]; iempintro
    iexact Hap2r9
  iintro ⟨HO, Hap2r9, -, Hpay⟩
  ihave Hgs9 := (Entails.of_eq (rest_p2r_src (W1 m) (W2 m) c 9)) $$ Hpay
  sl_exec_parts
  -- second-phase receive 10: the sum of the device 13 pairs back has landed; it is added to the result
  unfold gFin_10; icases HgFin_10 with ⟨#HIp2r10, Hap2r10, Hcp2r10⟩
  rw [sem_off6_10 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_10 c _)) $$ [Hcp2r10 HO Hap2r10]
  · isplitr; · iexact HIp2r10
    isplitl [Hcp2r10]; · iexact Hcp2r10
    isplitl [HO]; · iexact HO
    isplitr; · rw [MayWait_zero]; iempintro
    iexact Hap2r10
  iintro ⟨HO, Hap2r10, -, Hpay⟩
  ihave Hgs10 := (Entails.of_eq (rest_p2r_src (W1 m) (W2 m) c 10)) $$ Hpay
  sl_exec_parts
  -- second-phase receive 11: the sum of the device 2 pairs back has landed; it is added to the result
  unfold gFin_11; icases HgFin_11 with ⟨#HIp2r11, Hap2r11, Hcp2r11⟩
  rw [sem_off6_11 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_11 c _)) $$ [Hcp2r11 HO Hap2r11]
  · isplitr; · iexact HIp2r11
    isplitl [Hcp2r11]; · iexact Hcp2r11
    isplitl [HO]; · iexact HO
    isplitr; · rw [MayWait_zero]; iempintro
    iexact Hap2r11
  iintro ⟨HO, Hap2r11, -, Hpay⟩
  ihave Hgs11 := (Entails.of_eq (rest_p2r_src (W1 m) (W2 m) c 11)) $$ Hpay
  sl_exec_parts
  -- second-phase receive 12: the sum of the device 14 pairs back has landed; it is added to the result
  unfold gFin_12; icases HgFin_12 with ⟨#HIp2r12, Hap2r12, Hcp2r12⟩
  rw [sem_off6_12 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_12 c _)) $$ [Hcp2r12 HO Hap2r12]
  · isplitr; · iexact HIp2r12
    isplitl [Hcp2r12]; · iexact Hcp2r12
    isplitl [HO]; · iexact HO
    isplitr; · rw [MayWait_zero]; iempintro
    iexact Hap2r12
  iintro ⟨HO, Hap2r12, -, Hpay⟩
  ihave Hgs12 := (Entails.of_eq (rest_p2r_src (W1 m) (W2 m) c 12)) $$ Hpay
  sl_exec_parts
  -- second-phase receive 13: the sum of the device 1 pairs back has landed; it is added to the result
  unfold gFin_13; icases HgFin_13 with ⟨#HIp2r13, Hap2r13, Hcp2r13⟩
  rw [sem_off6_13 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_13 c _)) $$ [Hcp2r13 HO Hap2r13]
  · isplitr; · iexact HIp2r13
    isplitl [Hcp2r13]; · iexact Hcp2r13
    isplitl [HO]; · iexact HO
    isplitr; · rw [MayWait_zero]; iempintro
    iexact Hap2r13
  iintro ⟨HO, Hap2r13, -, Hpay⟩
  ihave Hgs13 := (Entails.of_eq (rest_p2r_src (W1 m) (W2 m) c 13)) $$ Hpay
  sl_exec_parts
  -- second-phase receive 14: the sum of the device 15 pairs back has landed; it is added to the result
  unfold gFin_14; icases HgFin_14 with ⟨#HIp2r14, Hap2r14, Hcp2r14⟩
  rw [sem_off6_14 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_14 c _)) $$ [Hcp2r14 HO Hap2r14]
  · isplitr; · iexact HIp2r14
    isplitl [Hcp2r14]; · iexact Hcp2r14
    isplitl [HO]; · iexact HO
    isplitr; · rw [MayWait_zero]; iempintro
    iexact Hap2r14
  iintro ⟨HO, Hap2r14, -, Hpay⟩
  ihave Hgs14 := (Entails.of_eq (rest_p2r_src (W1 m) (W2 m) c 14)) $$ Hpay
  sl_exec_parts
  have hhead : HeadIs (outN (xsOf m) (wsOf m) c.val 15) (sound_body.sl.Ho_16 m c) :=
    (headIs_step m c 14 _ _ (gather_read c 14 _ (closedOff_k0_off8_15 c).eq _ _)
      (headIs_step m c 13 _ _ (gather_read c 13 _ (closedOff_k0_off8_1 c).eq _ _)
      (headIs_step m c 12 _ _ (gather_read c 12 _ (closedOff_k0_off8_14 c).eq _ _)
      (headIs_step m c 11 _ _ (gather_read c 11 _ (closedOff_k0_off8_2 c).eq _ _)
      (headIs_step m c 10 _ _ (gather_read c 10 _ (closedOff_k0_off8_13 c).eq _ _)
      (headIs_step m c 9 _ _ (gather_read c 9 _ (closedOff_k0_off8_3 c).eq _ _)
      (headIs_step m c 8 _ _ (gather_read c 8 _ (closedOff_k0_off8_12 c).eq _ _)
      (headIs_step m c 7 _ _ (gather_read c 7 _ (closedOff_k0_off8_4 c).eq _ _)
      (headIs_step m c 6 _ _ (gather_read c 6 _ (closedOff_k0_off8_11 c).eq _ _)
      (headIs_step m c 5 _ _ (gather_read c 5 _ (closedOff_k0_off8_5 c).eq _ _)
      (headIs_step m c 4 _ _ (gather_read c 4 _ (closedOff_k0_off8_10 c).eq _ _)
      (headIs_step m c 3 _ _ (gather_read c 3 _ (closedOff_k0_off8_6 c).eq _ _)
      (headIs_step m c 2 _ _ (gather_read c 2 _ (closedOff_k0_off8_9 c).eq _ _)
      (headIs_step m c 1 _ _ (gather_read c 1 _ (closedOff_k0_off8_7 c).eq _ _)
      (headIs_step m c 0 _ _ (gather_read c 0 _ (closedOff_k0_off8_8 c).eq _ _)
      (headIs_base _ _ _ (out0_val m c _)))))))))))))))))
  have hout : (Memref.whole cc0_stg2_0 : Memref sig .tc .vmem S32x1024 .f32).view.writes (Elt F) fo (sound_body.sl.Ho_16 m c) = outAt m c :=
    out_of_head c fo _ _ hhead
  imod (close_dma m κ c (p1sS 0) (used_p1s c 0)) $$ [Hap1s0] with Hz1s0
  · isplitr; · iexact HIp1s0
    iexact Hap1s0
  imod (close_dma m κ c (p1sS 1) (used_p1s c 1)) $$ [Hap1s1] with Hz1s1
  · isplitr; · iexact HIp1s1
    iexact Hap1s1
  imod (close_dma m κ c (p1sS 2) (used_p1s c 2)) $$ [Hap1s2] with Hz1s2
  · isplitr; · iexact HIp1s2
    iexact Hap1s2
  imod (close_dma m κ c (p1sS 3) (used_p1s c 3)) $$ [Hap1s3] with Hz1s3
  · isplitr; · iexact HIp1s3
    iexact Hap1s3
  imod (close_dma m κ c (p1sS 4) (used_p1s c 4)) $$ [Hap1s4] with Hz1s4
  · isplitr; · iexact HIp1s4
    iexact Hap1s4
  imod (close_dma m κ c (p1sS 5) (used_p1s c 5)) $$ [Hap1s5] with Hz1s5
  · isplitr; · iexact HIp1s5
    iexact Hap1s5
  imod (close_dma m κ c (p1sS 6) (used_p1s c 6)) $$ [Hap1s6] with Hz1s6
  · isplitr; · iexact HIp1s6
    iexact Hap1s6
  imod (close_dma m κ c (p1sS 7) (used_p1s c 7)) $$ [Hap1s7] with Hz1s7
  · isplitr; · iexact HIp1s7
    iexact Hap1s7
  imod (close_dma m κ c (p1sS 8) (used_p1s c 8)) $$ [Hap1s8] with Hz1s8
  · isplitr; · iexact HIp1s8
    iexact Hap1s8
  imod (close_dma m κ c (p1sS 9) (used_p1s c 9)) $$ [Hap1s9] with Hz1s9
  · isplitr; · iexact HIp1s9
    iexact Hap1s9
  imod (close_dma m κ c (p1sS 10) (used_p1s c 10)) $$ [Hap1s10] with Hz1s10
  · isplitr; · iexact HIp1s10
    iexact Hap1s10
  imod (close_dma m κ c (p1sS 11) (used_p1s c 11)) $$ [Hap1s11] with Hz1s11
  · isplitr; · iexact HIp1s11
    iexact Hap1s11
  imod (close_dma m κ c (p1sS 12) (used_p1s c 12)) $$ [Hap1s12] with Hz1s12
  · isplitr; · iexact HIp1s12
    iexact Hap1s12
  imod (close_dma m κ c (p1sS 13) (used_p1s c 13)) $$ [Hap1s13] with Hz1s13
  · isplitr; · iexact HIp1s13
    iexact Hap1s13
  imod (close_dma m κ c (p1sS 14) (used_p1s c 14)) $$ [Hap1s14] with Hz1s14
  · isplitr; · iexact HIp1s14
    iexact Hap1s14
  imod (close_dma m κ c (p1sS 15) (used_p1s c 15)) $$ [Hap1s15] with Hz1s15
  · isplitr; · iexact HIp1s15
    iexact Hap1s15
  imod (close_dma m κ c (p1rS 0) (used_p1r c 0)) $$ [Hap1r0] with Hz1r0
  · isplitr; · iexact HIp1r0
    iexact Hap1r0
  imod (close_dma m κ c (p1rS 1) (used_p1r c 1)) $$ [Hap1r1] with Hz1r1
  · isplitr; · iexact HIp1r1
    iexact Hap1r1
  imod (close_dma m κ c (p1rS 2) (used_p1r c 2)) $$ [Hap1r2] with Hz1r2
  · isplitr; · iexact HIp1r2
    iexact Hap1r2
  imod (close_dma m κ c (p1rS 3) (used_p1r c 3)) $$ [Hap1r3] with Hz1r3
  · isplitr; · iexact HIp1r3
    iexact Hap1r3
  imod (close_dma m κ c (p1rS 4) (used_p1r c 4)) $$ [Hap1r4] with Hz1r4
  · isplitr; · iexact HIp1r4
    iexact Hap1r4
  imod (close_dma m κ c (p1rS 5) (used_p1r c 5)) $$ [Hap1r5] with Hz1r5
  · isplitr; · iexact HIp1r5
    iexact Hap1r5
  imod (close_dma m κ c (p1rS 6) (used_p1r c 6)) $$ [Hap1r6] with Hz1r6
  · isplitr; · iexact HIp1r6
    iexact Hap1r6
  imod (close_dma m κ c (p1rS 7) (used_p1r c 7)) $$ [Hap1r7] with Hz1r7
  · isplitr; · iexact HIp1r7
    iexact Hap1r7
  imod (close_dma m κ c (p1rS 8) (used_p1r c 8)) $$ [Hap1r8] with Hz1r8
  · isplitr; · iexact HIp1r8
    iexact Hap1r8
  imod (close_dma m κ c (p1rS 9) (used_p1r c 9)) $$ [Hap1r9] with Hz1r9
  · isplitr; · iexact HIp1r9
    iexact Hap1r9
  imod (close_dma m κ c (p1rS 10) (used_p1r c 10)) $$ [Hap1r10] with Hz1r10
  · isplitr; · iexact HIp1r10
    iexact Hap1r10
  imod (close_dma m κ c (p1rS 11) (used_p1r c 11)) $$ [Hap1r11] with Hz1r11
  · isplitr; · iexact HIp1r11
    iexact Hap1r11
  imod (close_dma m κ c (p1rS 12) (used_p1r c 12)) $$ [Hap1r12] with Hz1r12
  · isplitr; · iexact HIp1r12
    iexact Hap1r12
  imod (close_dma m κ c (p1rS 13) (used_p1r c 13)) $$ [Hap1r13] with Hz1r13
  · isplitr; · iexact HIp1r13
    iexact Hap1r13
  imod (close_dma m κ c (p1rS 14) (used_p1r c 14)) $$ [Hap1r14] with Hz1r14
  · isplitr; · iexact HIp1r14
    iexact Hap1r14
  imod (close_dma m κ c (p1rS 15) (used_p1r c 15)) $$ [Hap1r15] with Hz1r15
  · isplitr; · iexact HIp1r15
    iexact Hap1r15
  imod (close_dma m κ c (p2sS 0) (used_p2s c 0)) $$ [Hap2s0] with Hz2s0
  · isplitr; · iexact HIp2s0
    iexact Hap2s0
  imod (close_dma m κ c (p2sS 1) (used_p2s c 1)) $$ [Hap2s1] with Hz2s1
  · isplitr; · iexact HIp2s1
    iexact Hap2s1
  imod (close_dma m κ c (p2sS 2) (used_p2s c 2)) $$ [Hap2s2] with Hz2s2
  · isplitr; · iexact HIp2s2
    iexact Hap2s2
  imod (close_dma m κ c (p2sS 3) (used_p2s c 3)) $$ [Hap2s3] with Hz2s3
  · isplitr; · iexact HIp2s3
    iexact Hap2s3
  imod (close_dma m κ c (p2sS 4) (used_p2s c 4)) $$ [Hap2s4] with Hz2s4
  · isplitr; · iexact HIp2s4
    iexact Hap2s4
  imod (close_dma m κ c (p2sS 5) (used_p2s c 5)) $$ [Hap2s5] with Hz2s5
  · isplitr; · iexact HIp2s5
    iexact Hap2s5
  imod (close_dma m κ c (p2sS 6) (used_p2s c 6)) $$ [Hap2s6] with Hz2s6
  · isplitr; · iexact HIp2s6
    iexact Hap2s6
  imod (close_dma m κ c (p2sS 7) (used_p2s c 7)) $$ [Hap2s7] with Hz2s7
  · isplitr; · iexact HIp2s7
    iexact Hap2s7
  imod (close_dma m κ c (p2sS 8) (used_p2s c 8)) $$ [Hap2s8] with Hz2s8
  · isplitr; · iexact HIp2s8
    iexact Hap2s8
  imod (close_dma m κ c (p2sS 9) (used_p2s c 9)) $$ [Hap2s9] with Hz2s9
  · isplitr; · iexact HIp2s9
    iexact Hap2s9
  imod (close_dma m κ c (p2sS 10) (used_p2s c 10)) $$ [Hap2s10] with Hz2s10
  · isplitr; · iexact HIp2s10
    iexact Hap2s10
  imod (close_dma m κ c (p2sS 11) (used_p2s c 11)) $$ [Hap2s11] with Hz2s11
  · isplitr; · iexact HIp2s11
    iexact Hap2s11
  imod (close_dma m κ c (p2sS 12) (used_p2s c 12)) $$ [Hap2s12] with Hz2s12
  · isplitr; · iexact HIp2s12
    iexact Hap2s12
  imod (close_dma m κ c (p2sS 13) (used_p2s c 13)) $$ [Hap2s13] with Hz2s13
  · isplitr; · iexact HIp2s13
    iexact Hap2s13
  imod (close_dma m κ c (p2sS 14) (used_p2s c 14)) $$ [Hap2s14] with Hz2s14
  · isplitr; · iexact HIp2s14
    iexact Hap2s14
  imod (close_dma m κ c (p2rS (pairOf (src c (off 0)))) (used_p2r_src' c 0)) $$ [Hap2r0] with Hz2r0
  · isplitr; · iexact HIp2r0
    iexact Hap2r0
  imod (close_dma m κ c (p2rS (pairOf (src c (off 1)))) (used_p2r_src' c 1)) $$ [Hap2r1] with Hz2r1
  · isplitr; · iexact HIp2r1
    iexact Hap2r1
  imod (close_dma m κ c (p2rS (pairOf (src c (off 2)))) (used_p2r_src' c 2)) $$ [Hap2r2] with Hz2r2
  · isplitr; · iexact HIp2r2
    iexact Hap2r2
  imod (close_dma m κ c (p2rS (pairOf (src c (off 3)))) (used_p2r_src' c 3)) $$ [Hap2r3] with Hz2r3
  · isplitr; · iexact HIp2r3
    iexact Hap2r3
  imod (close_dma m κ c (p2rS (pairOf (src c (off 4)))) (used_p2r_src' c 4)) $$ [Hap2r4] with Hz2r4
  · isplitr; · iexact HIp2r4
    iexact Hap2r4
  imod (close_dma m κ c (p2rS (pairOf (src c (off 5)))) (used_p2r_src' c 5)) $$ [Hap2r5] with Hz2r5
  · isplitr; · iexact HIp2r5
    iexact Hap2r5
  imod (close_dma m κ c (p2rS (pairOf (src c (off 6)))) (used_p2r_src' c 6)) $$ [Hap2r6] with Hz2r6
  · isplitr; · iexact HIp2r6
    iexact Hap2r6
  imod (close_dma m κ c (p2rS (pairOf (src c (off 7)))) (used_p2r_src' c 7)) $$ [Hap2r7] with Hz2r7
  · isplitr; · iexact HIp2r7
    iexact Hap2r7
  imod (close_dma m κ c (p2rS (pairOf (src c (off 8)))) (used_p2r_src' c 8)) $$ [Hap2r8] with Hz2r8
  · isplitr; · iexact HIp2r8
    iexact Hap2r8
  imod (close_dma m κ c (p2rS (pairOf (src c (off 9)))) (used_p2r_src' c 9)) $$ [Hap2r9] with Hz2r9
  · isplitr; · iexact HIp2r9
    iexact Hap2r9
  imod (close_dma m κ c (p2rS (pairOf (src c (off 10)))) (used_p2r_src' c 10)) $$ [Hap2r10] with Hz2r10
  · isplitr; · iexact HIp2r10
    iexact Hap2r10
  imod (close_dma m κ c (p2rS (pairOf (src c (off 11)))) (used_p2r_src' c 11)) $$ [Hap2r11] with Hz2r11
  · isplitr; · iexact HIp2r11
    iexact Hap2r11
  imod (close_dma m κ c (p2rS (pairOf (src c (off 12)))) (used_p2r_src' c 12)) $$ [Hap2r12] with Hz2r12
  · isplitr; · iexact HIp2r12
    iexact Hap2r12
  imod (close_dma m κ c (p2rS (pairOf (src c (off 13)))) (used_p2r_src' c 13)) $$ [Hap2r13] with Hz2r13
  · isplitr; · iexact HIp2r13
    iexact Hap2r13
  imod (close_dma m κ c (p2rS (pairOf (src c (off 14)))) (used_p2r_src' c 14)) $$ [Hap2r14] with Hz2r14
  · isplitr; · iexact HIp2r14
    iexact Hap2r14
  imod (close_unused m κ c (p2rS (pairOf c)) (not_used_own c)) $$ [Hap2ru] with Hz2ru
  · isplitr; · iexact HIp2ru
    iexact Hap2ru
  sl_step
  iapply Hk
  unfold bodyPost
  isplitl [Ho]
  · rw [show ((Memref.whole cc0_stg2_0 : Memref sig .tc .vmem S32x1024 .f32).view.writes (Elt F) fo (sound_body.sl.Ho_16 m c)) = outAt m c from hout]; iexact Ho
  isplitl [Hx]; · iexact Hx
  isplitl [Hw]; · iexact Hw
  isplitl [Hap1s0_pay1 Hap1s1_pay1 Hap1s2_pay1 Hap1s3_pay1 Hap1s4_pay1 Hap1s5_pay1 Hap1s6_pay1 Hap1s7_pay1 Hap1s8_pay1 Hap1s9_pay1 Hap1s10_pay1 Hap1s11_pay1 Hap1s12_pay1 Hap1s13_pay1 Hap1s14_pay1 Hap1s15_pay1]
  · iapply (stage_join c ![put c (slot16 stageM 0 (of_decide_eq_true rfl)) (W1 m c (cross c (offA 0))), put c (slot16 stageM 1 (of_decide_eq_true rfl)) (W1 m c (cross c (offA 1))), put c (slot16 stageM 2 (of_decide_eq_true rfl)) (W1 m c (cross c (offA 2))), put c (slot16 stageM 3 (of_decide_eq_true rfl)) (W1 m c (cross c (offA 3))), put c (slot16 stageM 4 (of_decide_eq_true rfl)) (W1 m c (cross c (offA 4))), put c (slot16 stageM 5 (of_decide_eq_true rfl)) (W1 m c (cross c (offA 5))), put c (slot16 stageM 6 (of_decide_eq_true rfl)) (W1 m c (cross c (offA 6))), put c (slot16 stageM 7 (of_decide_eq_true rfl)) (W1 m c (cross c (offA 7))), put c (slot16 stageM 8 (of_decide_eq_true rfl)) (W1 m c (cross c (offA 8))), put c (slot16 stageM 9 (of_decide_eq_true rfl)) (W1 m c (cross c (offA 9))), put c (slot16 stageM 10 (of_decide_eq_true rfl)) (W1 m c (cross c (offA 10))), put c (slot16 stageM 11 (of_decide_eq_true rfl)) (W1 m c (cross c (offA 11))), put c (slot16 stageM 12 (of_decide_eq_true rfl)) (W1 m c (cross c (offA 12))), put c (slot16 stageM 13 (of_decide_eq_true rfl)) (W1 m c (cross c (offA 13))), put c (slot16 stageM 14 (of_decide_eq_true rfl)) (W1 m c (cross c (offA 14))), put c (slot16 stageM 15 (of_decide_eq_true rfl)) (W1 m c (cross c (offA 15)))])
    isplitl [Hap1s0_pay1]; · iexact Hap1s0_pay1
    isplitl [Hap1s1_pay1]; · iexact Hap1s1_pay1
    isplitl [Hap1s2_pay1]; · iexact Hap1s2_pay1
    isplitl [Hap1s3_pay1]; · iexact Hap1s3_pay1
    isplitl [Hap1s4_pay1]; · iexact Hap1s4_pay1
    isplitl [Hap1s5_pay1]; · iexact Hap1s5_pay1
    isplitl [Hap1s6_pay1]; · iexact Hap1s6_pay1
    isplitl [Hap1s7_pay1]; · iexact Hap1s7_pay1
    isplitl [Hap1s8_pay1]; · iexact Hap1s8_pay1
    isplitl [Hap1s9_pay1]; · iexact Hap1s9_pay1
    isplitl [Hap1s10_pay1]; · iexact Hap1s10_pay1
    isplitl [Hap1s11_pay1]; · iexact Hap1s11_pay1
    isplitl [Hap1s12_pay1]; · iexact Hap1s12_pay1
    isplitl [Hap1s13_pay1]; · iexact Hap1s13_pay1
    isplitl [Hap1s14_pay1]; · iexact Hap1s14_pay1
    iexact Hap1s15_pay1
  isplitl [Hap1r0_pay1 Hap1r1_pay1 Hap1r2_pay1 Hap1r3_pay1 Hap1r4_pay1 Hap1r5_pay1 Hap1r6_pay1 Hap1r7_pay1 Hap1r8_pay1 Hap1r9_pay1 Hap1r10_pay1 Hap1r11_pay1 Hap1r12_pay1 Hap1r13_pay1 Hap1r14_pay1 Hap1r15_pay1]
  · iapply (inbox_join c ![put c (slot16 inboxM 0 (of_decide_eq_true rfl)) (W1 m (nbr c) (peer c (offA 0))), put c (slot16 inboxM 1 (of_decide_eq_true rfl)) (W1 m (nbr c) (peer c (offA 1))), put c (slot16 inboxM 2 (of_decide_eq_true rfl)) (W1 m (nbr c) (peer c (offA 2))), put c (slot16 inboxM 3 (of_decide_eq_true rfl)) (W1 m (nbr c) (peer c (offA 3))), put c (slot16 inboxM 4 (of_decide_eq_true rfl)) (W1 m (nbr c) (peer c (offA 4))), put c (slot16 inboxM 5 (of_decide_eq_true rfl)) (W1 m (nbr c) (peer c (offA 5))), put c (slot16 inboxM 6 (of_decide_eq_true rfl)) (W1 m (nbr c) (peer c (offA 6))), put c (slot16 inboxM 7 (of_decide_eq_true rfl)) (W1 m (nbr c) (peer c (offA 7))), put c (slot16 inboxM 8 (of_decide_eq_true rfl)) (W1 m (nbr c) (peer c (offA 8))), put c (slot16 inboxM 9 (of_decide_eq_true rfl)) (W1 m (nbr c) (peer c (offA 9))), put c (slot16 inboxM 10 (of_decide_eq_true rfl)) (W1 m (nbr c) (peer c (offA 10))), put c (slot16 inboxM 11 (of_decide_eq_true rfl)) (W1 m (nbr c) (peer c (offA 11))), put c (slot16 inboxM 12 (of_decide_eq_true rfl)) (W1 m (nbr c) (peer c (offA 12))), put c (slot16 inboxM 13 (of_decide_eq_true rfl)) (W1 m (nbr c) (peer c (offA 13))), put c (slot16 inboxM 14 (of_decide_eq_true rfl)) (W1 m (nbr c) (peer c (offA 14))), put c (slot16 inboxM 15 (of_decide_eq_true rfl)) (W1 m (nbr c) (peer c (offA 15)))])
    isplitl [Hap1r0_pay1]; · iexact Hap1r0_pay1
    isplitl [Hap1r1_pay1]; · iexact Hap1r1_pay1
    isplitl [Hap1r2_pay1]; · iexact Hap1r2_pay1
    isplitl [Hap1r3_pay1]; · iexact Hap1r3_pay1
    isplitl [Hap1r4_pay1]; · iexact Hap1r4_pay1
    isplitl [Hap1r5_pay1]; · iexact Hap1r5_pay1
    isplitl [Hap1r6_pay1]; · iexact Hap1r6_pay1
    isplitl [Hap1r7_pay1]; · iexact Hap1r7_pay1
    isplitl [Hap1r8_pay1]; · iexact Hap1r8_pay1
    isplitl [Hap1r9_pay1]; · iexact Hap1r9_pay1
    isplitl [Hap1r10_pay1]; · iexact Hap1r10_pay1
    isplitl [Hap1r11_pay1]; · iexact Hap1r11_pay1
    isplitl [Hap1r12_pay1]; · iexact Hap1r12_pay1
    isplitl [Hap1r13_pay1]; · iexact Hap1r13_pay1
    isplitl [Hap1r14_pay1]; · iexact Hap1r14_pay1
    iexact Hap1r15_pay1
  isplitl [Hap2s0_pay1 Hap2s1_pay1 Hap2s2_pay1 Hap2s3_pay1 Hap2s4_pay1 Hap2s5_pay1 Hap2s6_pay1 Hap2s7_pay1 Hap2s8_pay1 Hap2s9_pay1 Hap2s10_pay1 Hap2s11_pay1 Hap2s12_pay1 Hap2s13_pay1 Hap2s14_pay1]
  · iapply (outbox_join c ![put c (slot15 outboxM 0 (of_decide_eq_true rfl)) (W2 m c (peer c (off 0))), put c (slot15 outboxM 1 (of_decide_eq_true rfl)) (W2 m c (peer c (off 1))), put c (slot15 outboxM 2 (of_decide_eq_true rfl)) (W2 m c (peer c (off 2))), put c (slot15 outboxM 3 (of_decide_eq_true rfl)) (W2 m c (peer c (off 3))), put c (slot15 outboxM 4 (of_decide_eq_true rfl)) (W2 m c (peer c (off 4))), put c (slot15 outboxM 5 (of_decide_eq_true rfl)) (W2 m c (peer c (off 5))), put c (slot15 outboxM 6 (of_decide_eq_true rfl)) (W2 m c (peer c (off 6))), put c (slot15 outboxM 7 (of_decide_eq_true rfl)) (W2 m c (peer c (off 7))), put c (slot15 outboxM 8 (of_decide_eq_true rfl)) (W2 m c (peer c (off 8))), put c (slot15 outboxM 9 (of_decide_eq_true rfl)) (W2 m c (peer c (off 9))), put c (slot15 outboxM 10 (of_decide_eq_true rfl)) (W2 m c (peer c (off 10))), put c (slot15 outboxM 11 (of_decide_eq_true rfl)) (W2 m c (peer c (off 11))), put c (slot15 outboxM 12 (of_decide_eq_true rfl)) (W2 m c (peer c (off 12))), put c (slot15 outboxM 13 (of_decide_eq_true rfl)) (W2 m c (peer c (off 13))), put c (slot15 outboxM 14 (of_decide_eq_true rfl)) (W2 m c (peer c (off 14)))])
    isplitl [Hap2s0_pay1]; · iexact Hap2s0_pay1
    isplitl [Hap2s1_pay1]; · iexact Hap2s1_pay1
    isplitl [Hap2s2_pay1]; · iexact Hap2s2_pay1
    isplitl [Hap2s3_pay1]; · iexact Hap2s3_pay1
    isplitl [Hap2s4_pay1]; · iexact Hap2s4_pay1
    isplitl [Hap2s5_pay1]; · iexact Hap2s5_pay1
    isplitl [Hap2s6_pay1]; · iexact Hap2s6_pay1
    isplitl [Hap2s7_pay1]; · iexact Hap2s7_pay1
    isplitl [Hap2s8_pay1]; · iexact Hap2s8_pay1
    isplitl [Hap2s9_pay1]; · iexact Hap2s9_pay1
    isplitl [Hap2s10_pay1]; · iexact Hap2s10_pay1
    isplitl [Hap2s11_pay1]; · iexact Hap2s11_pay1
    isplitl [Hap2s12_pay1]; · iexact Hap2s12_pay1
    isplitl [Hap2s13_pay1]; · iexact Hap2s13_pay1
    iexact Hap2s14_pay1
  isplitl [Hgs0 Hgs1 Hgs2 Hgs3 Hgs4 Hgs5 Hgs6 Hgs7 Hgs8 Hgs9 Hgs10 Hgs11 Hgs12 Hgs13 Hgs14 Hgown]
  · iapply (gather_join c ![put c (slot16 gatherM (rr (src c (off 0)).val) (rr_lt (src c (off 0)))) (W2 m (src c (off 0)) c), put c (slot16 gatherM (rr (src c (off 1)).val) (rr_lt (src c (off 1)))) (W2 m (src c (off 1)) c), put c (slot16 gatherM (rr (src c (off 2)).val) (rr_lt (src c (off 2)))) (W2 m (src c (off 2)) c), put c (slot16 gatherM (rr (src c (off 3)).val) (rr_lt (src c (off 3)))) (W2 m (src c (off 3)) c), put c (slot16 gatherM (rr (src c (off 4)).val) (rr_lt (src c (off 4)))) (W2 m (src c (off 4)) c), put c (slot16 gatherM (rr (src c (off 5)).val) (rr_lt (src c (off 5)))) (W2 m (src c (off 5)) c), put c (slot16 gatherM (rr (src c (off 6)).val) (rr_lt (src c (off 6)))) (W2 m (src c (off 6)) c), put c (slot16 gatherM (rr (src c (off 7)).val) (rr_lt (src c (off 7)))) (W2 m (src c (off 7)) c), put c (slot16 gatherM (rr (src c (off 8)).val) (rr_lt (src c (off 8)))) (W2 m (src c (off 8)) c), put c (slot16 gatherM (rr (src c (off 9)).val) (rr_lt (src c (off 9)))) (W2 m (src c (off 9)) c), put c (slot16 gatherM (rr (src c (off 10)).val) (rr_lt (src c (off 10)))) (W2 m (src c (off 10)) c), put c (slot16 gatherM (rr (src c (off 11)).val) (rr_lt (src c (off 11)))) (W2 m (src c (off 11)) c), put c (slot16 gatherM (rr (src c (off 12)).val) (rr_lt (src c (off 12)))) (W2 m (src c (off 12)) c), put c (slot16 gatherM (rr (src c (off 13)).val) (rr_lt (src c (off 13)))) (W2 m (src c (off 13)) c), put c (slot16 gatherM (rr (src c (off 14)).val) (rr_lt (src c (off 14)))) (W2 m (src c (off 14)) c)] f3)
    isplitl [Hgs0]; · iexact Hgs0
    isplitl [Hgs1]; · iexact Hgs1
    isplitl [Hgs2]; · iexact Hgs2
    isplitl [Hgs3]; · iexact Hgs3
    isplitl [Hgs4]; · iexact Hgs4
    isplitl [Hgs5]; · iexact Hgs5
    isplitl [Hgs6]; · iexact Hgs6
    isplitl [Hgs7]; · iexact Hgs7
    isplitl [Hgs8]; · iexact Hgs8
    isplitl [Hgs9]; · iexact Hgs9
    isplitl [Hgs10]; · iexact Hgs10
    isplitl [Hgs11]; · iexact Hgs11
    isplitl [Hgs12]; · iexact Hgs12
    isplitl [Hgs13]; · iexact Hgs13
    isplitl [Hgs14]; · iexact Hgs14
    iexact Hgown
  isplitl [Hz1s0]; · iexact Hz1s0
  isplitl [Hz1s1]; · iexact Hz1s1
  isplitl [Hz1s2]; · iexact Hz1s2
  isplitl [Hz1s3]; · iexact Hz1s3
  isplitl [Hz1s4]; · iexact Hz1s4
  isplitl [Hz1s5]; · iexact Hz1s5
  isplitl [Hz1s6]; · iexact Hz1s6
  isplitl [Hz1s7]; · iexact Hz1s7
  isplitl [Hz1s8]; · iexact Hz1s8
  isplitl [Hz1s9]; · iexact Hz1s9
  isplitl [Hz1s10]; · iexact Hz1s10
  isplitl [Hz1s11]; · iexact Hz1s11
  isplitl [Hz1s12]; · iexact Hz1s12
  isplitl [Hz1s13]; · iexact Hz1s13
  isplitl [Hz1s14]; · iexact Hz1s14
  isplitl [Hz1s15]; · iexact Hz1s15
  isplitl [Hz1r0]; · iexact Hz1r0
  isplitl [Hz1r1]; · iexact Hz1r1
  isplitl [Hz1r2]; · iexact Hz1r2
  isplitl [Hz1r3]; · iexact Hz1r3
  isplitl [Hz1r4]; · iexact Hz1r4
  isplitl [Hz1r5]; · iexact Hz1r5
  isplitl [Hz1r6]; · iexact Hz1r6
  isplitl [Hz1r7]; · iexact Hz1r7
  isplitl [Hz1r8]; · iexact Hz1r8
  isplitl [Hz1r9]; · iexact Hz1r9
  isplitl [Hz1r10]; · iexact Hz1r10
  isplitl [Hz1r11]; · iexact Hz1r11
  isplitl [Hz1r12]; · iexact Hz1r12
  isplitl [Hz1r13]; · iexact Hz1r13
  isplitl [Hz1r14]; · iexact Hz1r14
  isplitl [Hz1r15]; · iexact Hz1r15
  isplitl [Hz2s0]; · iexact Hz2s0
  isplitl [Hz2s1]; · iexact Hz2s1
  isplitl [Hz2s2]; · iexact Hz2s2
  isplitl [Hz2s3]; · iexact Hz2s3
  isplitl [Hz2s4]; · iexact Hz2s4
  isplitl [Hz2s5]; · iexact Hz2s5
  isplitl [Hz2s6]; · iexact Hz2s6
  isplitl [Hz2s7]; · iexact Hz2s7
  isplitl [Hz2s8]; · iexact Hz2s8
  isplitl [Hz2s9]; · iexact Hz2s9
  isplitl [Hz2s10]; · iexact Hz2s10
  isplitl [Hz2s11]; · iexact Hz2s11
  isplitl [Hz2s12]; · iexact Hz2s12
  isplitl [Hz2s13]; · iexact Hz2s13
  isplitl [Hz2s14]; · iexact Hz2s14
  isplitl [Hz2r0]; · iexact Hz2r0
  isplitl [Hz2r1]; · iexact Hz2r1
  isplitl [Hz2r2]; · iexact Hz2r2
  isplitl [Hz2r3]; · iexact Hz2r3
  isplitl [Hz2r4]; · iexact Hz2r4
  isplitl [Hz2r5]; · iexact Hz2r5
  isplitl [Hz2r6]; · iexact Hz2r6
  isplitl [Hz2r7]; · iexact Hz2r7
  isplitl [Hz2r8]; · iexact Hz2r8
  isplitl [Hz2r9]; · iexact Hz2r9
  isplitl [Hz2r10]; · iexact Hz2r10
  isplitl [Hz2r11]; · iexact Hz2r11
  isplitl [Hz2r12]; · iexact Hz2r12
  isplitl [Hz2r13]; · iexact Hz2r13
  isplitl [Hz2r14]; · iexact Hz2r14
  isplitl [Hz2ru]; · iexact Hz2ru
  iexists _; iexact HO

end Cert.KernelIdeal.Proto

end
-- ==== Proof.Launch.lean ====
/-
  The launch: the levels of the cells and the evidence for every wait, the ghost state dealt to the
  devices, the scratch buffers cut into slots, the proof data of the one grid point, and the run of
  the whole mesh from the body's run.
-/
import proofs.«900440_g7700000000000441_dist_gemm_rs_m1024_k1024_n1024_f32_none_v7x_i32_1_alg».proof.Proof.Body
import proofs.«900440_g7700000000000441_dist_gemm_rs_m1024_k1024_n1024_f32_none_v7x_i32_1_alg».proof.Proof.Gen.KernelIdeal.Frame
import proofs.«900440_g7700000000000441_dist_gemm_rs_m1024_k1024_n1024_f32_none_v7x_i32_1_alg».proof.Proof.Joins
import Idealize.ShloMosaic.Lib.Pipeline.Launch
import Idealize.ShloMosaic.Lib.Pipeline.Kit
import Idealize.ShloMosaic.Lib.Tactic

set_option maxRecDepth 16384

noncomputable section

namespace Cert.KernelIdeal.Proto

open Cert.KernelIdeal Cert.KernelIdeal.Gen Cert.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The levels -/

/-- Every TensorCore cell carries the one index. -/
def L (g : GSem nD τ sig) : Finset Unit := if g.1.2 = .tc then {()} else ∅
/-- The barrier cells at 1, the first-phase receive cells at 2, the second-phase receive cells at 3,
    everything else (staging, send cells) at 0. -/
def lv (g : GSem nD τ sig) (_ : Unit) : ℕ :=
  match g.2 with
  | .reg s => if s = barS then 1 else 0
  | .dma q => if 19 ≤ q.val ∧ q.val < 35 then 2 else if 50 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) : () ∈ L ((c : Thread nD τ), sm) := by rw [L_tc]; exact Finset.mem_singleton_self _

theorem lv_bar (c : Dev nD) : lv (barCell c) () = 1 := by dsimp only [lv]; exact if_pos rfl
theorem lv_p1r (c : Dev nD) (k : Fin 16) : lv (dcell c (p1rS k)) () = 2 := by
  dsimp only [lv]; exact if_pos ⟨by show 19 ≤ 19 + k.val; omega, by show 19 + k.val < 35; have := k.isLt; omega⟩
theorem lv_p2r (c : Dev nD) (k : Fin 16) : lv (dcell c (p2rS k)) () = 3 := by
  dsimp only [lv]
  rw [if_neg (fun h => by have : 50 + k.val < 35 := h.2; omega)]
  exact if_pos (by show 50 ≤ 50 + k.val; omega)
theorem lv_stage (c : Dev nD) (q : DmaSem sig) (hq : q.val < 3) : lv (dcell c q) () = 0 := by
  dsimp only [lv]; rw [if_neg (fun h => by omega), if_neg (fun h => by omega)]

/-- Everything a tally charges lies above level `n`. -/
def Above (n : ℕ) (D : CellTallies nD τ sig Unit) : Prop := ∀ (g : GSem nD τ sig) (u : Unit), 0 < D g u → u ∈ L g ∧ n < lv g u

theorem above_add {n : ℕ} {D₁ D₂ : CellTallies nD τ sig Unit} (h₁ : Above n D₁) (h₂ : Above n D₂) : Above n (D₁ + D₂) :=
  fun g u h => (Pipeline.add_pos_cases h).elim (h₁ g u) (h₂ g u)
theorem above_zero {n : ℕ} : Above n (0 : CellTallies nD τ sig Unit) := fun g u h => absurd h (Nat.lt_irrefl 0)
theorem above_tally {n k : ℕ} (c : Dev nD) (sm : SemLoc sig) (h : n < lv ((c : Thread nD τ), sm) ()) :
    Above n (tallyAt ((c : Thread nD τ), sm) () k) := fun g u hg => by
  rw [tallyAt_apply] at hg
  by_cases hh : g = ((c : Thread nD τ), sm) ∧ u = ()
  · rw [hh.1]; exact ⟨mem_L c sm, h⟩
  · rw [if_neg hh] at hg; exact absurd hg (Nat.lt_irrefl 0)
theorem above_mono {n n' : ℕ} {D : CellTallies nD τ sig Unit} (hn : n' ≤ n) (h : Above n D) : Above n' D :=
  fun g u hg => ⟨(h g u hg).1, Nat.lt_of_le_of_lt hn (h g u hg).2⟩

theorem above_debtCell (c : Dev nD) (j : ℕ) (hj : j < 31) : Above (if j < 16 then 1 else 2) (tallyAt (debtCellOf c j) () N) := by
  unfold debtCellOf
  by_cases h : j < 16
  · rw [dif_pos h, if_pos h]; exact above_tally _ _ (by rw [lv_p1r]; decide)
  · rw [dif_neg h, dif_pos (show j - 16 < 15 by omega), if_neg h]; exact above_tally _ _ (by rw [lv_p2r]; decide)

theorem above_debt (c : Dev nD) (s : ℕ) : Above (if s < 16 then 1 else 2) (debt c s) := fun g u h => by
  unfold debt at h
  obtain ⟨j, hj, hp⟩ := Pipeline.sum_pos_exists h
  have hj' : j < 31 - s := Finset.mem_range.mp hj
  refine above_mono ?_ (above_debtCell c (30 - j) (by omega)) g u hp
  by_cases hs : s < 16
  · rw [if_pos hs]; split <;> decide
  · rw [if_neg hs, if_neg (by omega)]

theorem mayWait_above (c : Dev nD) (sm : SemLoc sig) (O : CellTallies nD τ sig Unit) (h : Above (lv ((c : Thread nD τ), sm) ()) O) :
    (levAts L lv : sProp 𝕄) ⊢ MayWait (c : Thread nD τ) sm () O :=
  Pipeline.mayWait_of_levAts (mem_L c sm) h

/-- At the barrier wait a device owes only receive cells. -/
theorem mayWait_bar (c : Dev nD) : (levAts L lv : sProp 𝕄) ⊢ MayWait (c : Thread nD τ) (.reg barS) () (debt c 0) :=
  mayWait_above c _ _ (by rw [show lv ((c : Thread nD τ), .reg barS) () = 1 from lv_bar c]; exact above_debt c 0)

/-- At a first-phase receive wait what is still owed is only second-phase receive cells. -/
theorem mayWait_p1r (c : Dev nD) (k : Fin 16) (hk : k.val < 15) :
    (levAts L lv : sProp 𝕄) ⊢ MayWait (c : Thread nD τ) (.dma (p1rS k)) () (debt c (16 + k.val)) :=
  mayWait_above c _ _ (by
    rw [show lv ((c : Thread nD τ), .dma (p1rS k)) () = 2 from lv_p1r c k]
    have := above_debt c (16 + k.val); rwa [if_neg (by omega)] at this)

theorem dup_sep {P A B : sProp 𝕄} [BI.Persistent P] (h1 : P ⊢ A) (h2 : P ⊢ B) : P ⊢ iprop(A ∗ B) := by
  iintro #H
  isplitr
  · iapply h1; iexact H
  · iapply h2; iexact H

/-- The evidence for all the waits of a device on cells others pay. -/
theorem mayWaits_intro (c : Dev nD) : (levAts L lv : sProp 𝕄) ⊢ mayWaits (F := F) c := by
  unfold mayWaits
  exact dup_sep (mayWait_bar c) (dup_sep (mayWait_p1r c 0 (by decide)) (dup_sep (mayWait_p1r c 1 (by decide)) (dup_sep (mayWait_p1r c 2 (by decide))
    (dup_sep (mayWait_p1r c 3 (by decide)) (dup_sep (mayWait_p1r c 4 (by decide)) (dup_sep (mayWait_p1r c 5 (by decide)) (dup_sep (mayWait_p1r c 6 (by decide))
    (dup_sep (mayWait_p1r c 7 (by decide)) (dup_sep (mayWait_p1r c 8 (by decide)) (dup_sep (mayWait_p1r c 9 (by decide)) (dup_sep (mayWait_p1r c 10 (by decide))
    (dup_sep (mayWait_p1r c 11 (by decide)) (dup_sep (mayWait_p1r c 12 (by decide)) (dup_sep (mayWait_p1r c 13 (by decide)) (mayWait_p1r c 14 (by decide))))))))))))))))

/-- What a device owes at entry lies above the staging cells' level. -/
theorem above_O₀ (c : Dev nD) : Above 0 (O₀ c) := by
  unfold O₀
  have hb (d : Dev nD) : Above 0 (tallyAt (barCell d) () 1) := above_tally d _ (by rw [show lv ((d : Thread nD τ), SemLoc.reg barS) () = 1 from lv_bar d]; decide)
  have hd : Above 0 (debt c 0) := above_mono (Nat.zero_le _) (above_debt c 0)
  repeat' (first | exact hd | exact hb _ | apply above_add)

/-! ## Dealing a conjunction out of five lists, each taken from its head -/

theorem deal {A S S' T T' : sProp 𝕄} (hs : S ⊢ iprop(A ∗ S')) (ht : iprop(A ∗ T') ⊢ T) (h : S' ⊢ T') : S ⊢ T :=
  hs.trans ((sep_mono_right h).trans ht)
theorem putMid {A R Y : sProp 𝕄} : iprop(A ∗ (R ∗ Y)) ⊢ iprop((A ∗ R) ∗ Y) := by
  iintro ⟨HA, HR, HY⟩
  isplitr [HY]
  · isplitl [HA]; · iexact HA
    iexact HR
  · iexact HY
theorem putEnd {A Y : sProp 𝕄} : iprop(A ∗ Y) ⊢ iprop(A ∗ Y) := BI.Entails.refl _
theorem dealFin {A : sProp 𝕄} : iprop(emp ∗ emp ∗ emp ∗ emp ∗ A) ⊢ A := by
  iintro ⟨-, -, -, -, HA⟩; iexact HA
theorem pick1 {A X1 X2 X3 X4 X5 : sProp 𝕄} : iprop((A ∗ X1) ∗ X2 ∗ X3 ∗ X4 ∗ X5) ⊢ iprop(A ∗ (X1 ∗ X2 ∗ X3 ∗ X4 ∗ X5)) := by
  iintro ⟨⟨HA, H1⟩, H2, H3, H4, H5⟩
  isplitl [HA]; · iexact HA
  isplitl [H1]; · iexact H1
  isplitl [H2]; · iexact H2
  isplitl [H3]; · iexact H3
  isplitl [H4]; · iexact H4
  iexact H5
theorem pick1L {A X2 X3 X4 X5 : sProp 𝕄} : iprop(A ∗ X2 ∗ X3 ∗ X4 ∗ X5) ⊢ iprop(A ∗ (emp ∗ X2 ∗ X3 ∗ X4 ∗ X5)) := by
  iintro ⟨HA, H2, H3, H4, H5⟩
  isplitl [HA]; · iexact HA
  isplitr; · iempintro
  isplitl [H2]; · iexact H2
  isplitl [H3]; · iexact H3
  isplitl [H4]; · iexact H4
  iexact H5
theorem pick2 {A X1 X2 X3 X4 X5 : sProp 𝕄} : iprop(X1 ∗ (A ∗ X2) ∗ X3 ∗ X4 ∗ X5) ⊢ iprop(A ∗ (X1 ∗ X2 ∗ X3 ∗ X4 ∗ X5)) := by
  iintro ⟨H1, ⟨HA, H2⟩, H3, H4, H5⟩
  isplitl [HA]; · iexact HA
  isplitl [H1]; · iexact H1
  isplitl [H2]; · iexact H2
  isplitl [H3]; · iexact H3
  isplitl [H4]; · iexact H4
  iexact H5
theorem pick2L {A X1 X3 X4 X5 : sProp 𝕄} : iprop(X1 ∗ A ∗ X3 ∗ X4 ∗ X5) ⊢ iprop(A ∗ (X1 ∗ emp ∗ X3 ∗ X4 ∗ X5)) := by
  iintro ⟨H1, HA, H3, H4, H5⟩
  isplitl [HA]; · iexact HA
  isplitl [H1]; · iexact H1
  isplitr; · iempintro
  isplitl [H3]; · iexact H3
  isplitl [H4]; · iexact H4
  iexact H5
theorem pick3 {A X1 X2 X3 X4 X5 : sProp 𝕄} : iprop(X1 ∗ X2 ∗ (A ∗ X3) ∗ X4 ∗ X5) ⊢ iprop(A ∗ (X1 ∗ X2 ∗ X3 ∗ X4 ∗ X5)) := by
  iintro ⟨H1, H2, ⟨HA, H3⟩, H4, H5⟩
  isplitl [HA]; · iexact HA
  isplitl [H1]; · iexact H1
  isplitl [H2]; · iexact H2
  isplitl [H3]; · iexact H3
  isplitl [H4]; · iexact H4
  iexact H5
theorem pick3L {A X1 X2 X4 X5 : sProp 𝕄} : iprop(X1 ∗ X2 ∗ A ∗ X4 ∗ X5) ⊢ iprop(A ∗ (X1 ∗ X2 ∗ emp ∗ X4 ∗ X5)) := by
  iintro ⟨H1, H2, HA, H4, H5⟩
  isplitl [HA]; · iexact HA
  isplitl [H1]; · iexact H1
  isplitl [H2]; · iexact H2
  isplitr; · iempintro
  isplitl [H4]; · iexact H4
  iexact H5
theorem pick4 {A X1 X2 X3 X4 X5 : sProp 𝕄} : iprop(X1 ∗ X2 ∗ X3 ∗ (A ∗ X4) ∗ X5) ⊢ iprop(A ∗ (X1 ∗ X2 ∗ X3 ∗ X4 ∗ X5)) := by
  iintro ⟨H1, H2, H3, ⟨HA, H4⟩, H5⟩
  isplitl [HA]; · iexact HA
  isplitl [H1]; · iexact H1
  isplitl [H2]; · iexact H2
  isplitl [H3]; · iexact H3
  isplitl [H4]; · iexact H4
  iexact H5
theorem pick4L {A X1 X2 X3 X5 : sProp 𝕄} : iprop(X1 ∗ X2 ∗ X3 ∗ A ∗ X5) ⊢ iprop(A ∗ (X1 ∗ X2 ∗ X3 ∗ emp ∗ X5)) := by
  iintro ⟨H1, H2, H3, HA, H5⟩
  isplitl [HA]; · iexact HA
  isplitl [H1]; · iexact H1
  isplitl [H2]; · iexact H2
  isplitl [H3]; · iexact H3
  isplitr; · iempintro
  iexact H5

/-! ## The cells and the tokens of the launch -/

/-- The kernel's scratch DMA semaphores by family: first-phase send and receive, second-phase send and receive. -/
abbrev DI : Type := Fin 16 ⊕ Fin 16 ⊕ Fin 15 ⊕ Fin 16
def dq : DI → DmaSem sig
  | .inl k => p1sS k
  | .inr (.inl k) => p1rS k
  | .inr (.inr (.inl k)) => p2sS k
  | .inr (.inr (.inr k)) => p2rS k
abbrev osem : DI → SemLoc sig := fun k => .dma (dq k)
/-- A device's cells: the barrier cell and the 63 scratch cells. -/
abbrev CI : Type := Unit ⊕ DI
def csem : CI → SemLoc sig
  | .inl _ => .reg barS
  | .inr k => .dma (dq k)
abbrev kcell (ck : Dev nD × CI) : GSem nD τ sig := ((ck.1 : Thread nD τ), csem ck.2)

theorem csem_injective : Function.Injective csem := by decide
theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def allCells : Finset (GSem nD τ sig) := Finset.univ.map ⟨kcell, kcell_injective⟩

/-- Every duty name of every cell gets a token; those of no duty are never used. -/
abbrev tokOf (x : (Dev nD × CI) × DN) : GSem nD τ sig × ℕ × DN := (kcell x.1, 0, x.2)
theorem tokOf_injective : Function.Injective (tokOf : (Dev nD × CI) × DN → GSem nD τ sig × ℕ × DN) := by
  rintro ⟨ck, d⟩ ⟨ck', d'⟩ h
  have h1 : ck = ck' := kcell_injective (congrArg Prod.fst h)
  have h2 : d = d' := congrArg (fun x : GSem nD τ sig × ℕ × DN => x.2.2) h
  rw [h1, h2]
def allToks : Finset (GSem nD τ sig × ℕ × DN) := Finset.univ.map ⟨tokOf, tokOf_injective⟩

def u₀ : UU := (initOf (Pipeline.cells cfgs cellOf_inj) (Pipeline.launchToks cfgs cellOf_inj), initOf allCells allToks)

theorem ownSemFacts : Pipeline.OwnSemFacts cfg0.spec osem := by decide

/-! ## The proof data -/

section Launch

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A scratch buffer whole, at some contents. -/
abbrev scr (c : Dev nD) (b : Ref sig .tc) : sProp 𝕄 :=
  iprop(∃ f : Buf (Elt F) ((c : Thread nD τ).loc b), ((c : Thread nD τ).loc b) ↦{fullShare} f)
def scr4 (c : Dev nD) : sProp 𝕄 := iprop(scr c cc0_scratch0 ∗ scr c cc0_scratch1 ∗ scr c cc0_scratch2 ∗ scr c cc0_scratch3)

/-- What a device's body starts from besides its buffers: the ghost state at some names, its launch credit, the levels. -/
def start (c : Dev nD) : sProp 𝕄 := iprop((∃ κ, ghost m κ c) ∗ credits c ∗ levAts L lv)

def Φ₀ (c : Dev nD) : sProp 𝕄 := iprop(start m c ∗ scr4 c)
/-- After the point: the kernel's own semaphores at zero and the scratch buffers whole. -/
def Φ₁ (c : Dev nD) : sProp 𝕄 :=
  iprop(Pipeline.ownSems0 (Ix := Unit) (Name := ℕ) (U := UU) (Lvl := ℕ) (Val := Elt F) (τ := τ) osem c ∗ scr4 c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging waits: a staging cell sits below everything a device owes. -/
theorem waits (c : Dev nD) : (levAts L lv : sProp 𝕄) ⊢ Pipeline.cellsWaits cfgs (dats m) () 0 c :=
  Pipeline.cellsWaits_intro cfgs (dats m) () 0 c fun w s t => by
    have hq : lv ((c : Thread nD τ), SemLoc.dma (((cfgs 0).win w).sem s)) () = 0 :=
      lv_stage c _ (by fin_cases w <;> fin_cases s <;> decide)
    rcases t with ⟨_ | _, ht⟩
    · exact mayWait_above c _ _ (by rw [hq]; exact above_O₀ c)
    · exact mayWait_above c _ _ (by rw [hq]; exact above_zero)

/-! ## The launch -/

/-- The duty tokens of device `c`'s own cells. -/
def toks (c : Dev nD) : sProp 𝕄 := bigSep Finset.univ fun k : CI => bigSep Finset.univ fun d : DN => dutyTok ER (kcell (c, k)) 0 d

/-- What the launch element deals device `c`. -/
def G (c : Dev nD) : sProp 𝕄 :=
  iprop((bigSep Finset.univ fun k : CI => roundState ER (rd (W1 m) (W2 m)) (kcell (c, k)) 0)
    ∗ (bigSep Finset.univ fun k : CI => iprop(atPos ER (kcell (c, k)) 0 ∅ 0 ∗ reached ER (kcell (c, k)) 0)) ∗ toks (F := F) c)
def G' (c : Dev nD) : sProp 𝕄 := iprop(∃ κ, ghost m κ c)

theorem fund_proto : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (rd (W1 m) (W2 m)) allCells allToks) $$ HX with ⟨Hst, Hr, Hat, Htok⟩
  imodintro
  ihave Hst' := (Entails.of_eq (hX fun g => roundState ER (rd (W1 m) (W2 m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_CI (Φ : CI → sProp 𝕄) : bigSep Finset.univ Φ = iprop(Φ (.inl ()) ∗ bigSep Finset.univ fun k : DI => Φ (.inr k)) := by
  rw [bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_CI]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd (W1 m) (W2 m)) κ (kcell (c, k))))
          ∗ (bigSep Finset.univ fun k : CI => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd (W1 m) (W2 m)) (kcell (c, k)) 0)
      ⊢ (|={Set.univ}=> bigSep Finset.univ fun k : CI => iprop(∃ κ : ℕ, cellInv ER (rd (W1 m) (W2 m)) κ (kcell (c, k))) : sProp 𝕄) from by
        rw [← bigSep_sep']
        exact (bigSep_mono fun k _ => (Rounds.body_intro ER (rd (W1 m) (W2 m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The same with a persistent part beside ten lists -/

theorem dealP {Rec A S T T' : sProp 𝕄} [BI.Persistent Rec] (hp : Rec ⊢ A) (ht : iprop(A ∗ T') ⊢ T) (h : iprop(Rec ∗ S) ⊢ T') : iprop(Rec ∗ S) ⊢ T := by
  iintro ⟨#HR, HS⟩
  iapply ht
  isplitr
  · iapply hp; iexact HR
  · iapply h
    isplitr; · iexact HR
    iexact HS
theorem dealL {Rec A S S' T T' : sProp 𝕄} (hs : S ⊢ iprop(A ∗ S')) (ht : iprop(A ∗ T') ⊢ T) (h : iprop(Rec ∗ S') ⊢ T') : iprop(Rec ∗ S) ⊢ T := by
  iintro ⟨HR, HS⟩
  ihave H := hs $$ HS
  icases H with ⟨HA, HS'⟩
  iapply ht
  isplitl [HA]; · iexact HA
  iapply h
  isplitl [HR]; · iexact HR
  iexact HS'
theorem dealFinL {Rec A : sProp 𝕄} : iprop(Rec ∗ (emp ∗ emp ∗ emp ∗ emp ∗ emp ∗ emp ∗ emp ∗ emp ∗ emp ∗ A)) ⊢ A := by
  iintro ⟨-, -, -, -, -, -, -, -, -, -, HA⟩; iexact HA
theorem take1 {A X1 X2 X3 X4 X5 X6 X7 X8 X9 X10 : sProp 𝕄} : iprop((A ∗ X1) ∗ X2 ∗ X3 ∗ X4 ∗ X5 ∗ X6 ∗ X7 ∗ X8 ∗ X9 ∗ X10) ⊢ iprop(A ∗ (X1 ∗ X2 ∗ X3 ∗ X4 ∗ X5 ∗ X6 ∗ X7 ∗ X8 ∗ X9 ∗ X10)) := by
  iintro ⟨⟨HA, H1⟩, H2, H3, H4, H5, H6, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take1L {A X2 X3 X4 X5 X6 X7 X8 X9 X10 : sProp 𝕄} : iprop(A ∗ X2 ∗ X3 ∗ X4 ∗ X5 ∗ X6 ∗ X7 ∗ X8 ∗ X9 ∗ X10) ⊢ iprop(A ∗ (emp ∗ X2 ∗ X3 ∗ X4 ∗ X5 ∗ X6 ∗ X7 ∗ X8 ∗ X9 ∗ X10)) := by
  iintro ⟨HA, H2, H3, H4, H5, H6, H7, H8, H9, H10⟩
  isplitl [HA]; · iexact HA
  isplitr; · iempintro
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take2 {A X1 X2 X3 X4 X5 X6 X7 X8 X9 X10 : sProp 𝕄} : iprop(X1 ∗ (A ∗ X2) ∗ X3 ∗ X4 ∗ X5 ∗ X6 ∗ X7 ∗ X8 ∗ X9 ∗ X10) ⊢ iprop(A ∗ (X1 ∗ X2 ∗ X3 ∗ X4 ∗ X5 ∗ X6 ∗ X7 ∗ X8 ∗ X9 ∗ X10)) := by
  iintro ⟨H1, ⟨HA, H2⟩, H3, H4, H5, H6, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take2L {A X1 X3 X4 X5 X6 X7 X8 X9 X10 : sProp 𝕄} : iprop(X1 ∗ A ∗ X3 ∗ X4 ∗ X5 ∗ X6 ∗ X7 ∗ X8 ∗ X9 ∗ X10) ⊢ iprop(A ∗ (X1 ∗ emp ∗ X3 ∗ X4 ∗ X5 ∗ X6 ∗ X7 ∗ X8 ∗ X9 ∗ X10)) := by
  iintro ⟨H1, HA, H3, H4, H5, H6, H7, H8, H9, H10⟩
  isplitl [HA]; · iexact HA
  isplitl [H1]; · iexact H1
  isplitr; · iempintro
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take3 {A X1 X2 X3 X4 X5 X6 X7 X8 X9 X10 : sProp 𝕄} : iprop(X1 ∗ X2 ∗ (A ∗ X3) ∗ X4 ∗ X5 ∗ X6 ∗ X7 ∗ X8 ∗ X9 ∗ X10) ⊢ iprop(A ∗ (X1 ∗ X2 ∗ X3 ∗ X4 ∗ X5 ∗ X6 ∗ X7 ∗ X8 ∗ X9 ∗ X10)) := by
  iintro ⟨H1, H2, ⟨HA, H3⟩, H4, H5, H6, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take3L {A X1 X2 X4 X5 X6 X7 X8 X9 X10 : sProp 𝕄} : iprop(X1 ∗ X2 ∗ A ∗ X4 ∗ X5 ∗ X6 ∗ X7 ∗ X8 ∗ X9 ∗ X10) ⊢ iprop(A ∗ (X1 ∗ X2 ∗ emp ∗ X4 ∗ X5 ∗ X6 ∗ X7 ∗ X8 ∗ X9 ∗ X10)) := by
  iintro ⟨H1, H2, HA, H4, H5, H6, H7, H8, H9, H10⟩
  isplitl [HA]; · iexact HA
  isplitl [H1]; · iexact H1
  isplitl [H2]; · iexact H2
  isplitr; · iempintro
  isplitl [H4]; · iexact H4
  isplitl [H5]; · iexact H5
  isplitl [H6]; · iexact H6
  isplitl [H7]; · iexact H7
  isplitl [H8]; · iexact H8
  isplitl [H9]; · iexact H9
  iexact H10
theorem take4 {A X1 X2 X3 X4 X5 X6 X7 X8 X9 X10 : sProp 𝕄} : iprop(X1 ∗ X2 ∗ X3 ∗ (A ∗ X4) ∗ X5 ∗ X6 ∗ X7 ∗ X8 ∗ X9 ∗ X10) ⊢ iprop(A ∗ (X1 ∗ X2 ∗ X3 ∗ X4 ∗ X5 ∗ X6 ∗ X7 ∗ X8 ∗ X9 ∗ X10)) := by
  iintro ⟨H1, H2, H3, ⟨HA, H4⟩, H5, H6, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take4L {A X1 X2 X3 X5 X6 X7 X8 X9 X10 : sProp 𝕄} : iprop(X1 ∗ X2 ∗ X3 ∗ A ∗ X5 ∗ X6 ∗ X7 ∗ X8 ∗ X9 ∗ X10) ⊢ iprop(A ∗ (X1 ∗ X2 ∗ X3 ∗ emp ∗ X5 ∗ X6 ∗ X7 ∗ X8 ∗ X9 ∗ X10)) := by
  iintro ⟨H1, H2, H3, HA, H5, H6, H7, H8, H9, H10⟩
  isplitl [HA]; · iexact HA
  isplitl [H1]; · iexact H1
  isplitl [H2]; · iexact H2
  isplitl [H3]; · iexact H3
  isplitr; · iempintro
  isplitl [H5]; · iexact H5
  isplitl [H6]; · iexact H6
  isplitl [H7]; · iexact H7
  isplitl [H8]; · iexact H8
  isplitl [H9]; · iexact H9
  iexact H10
theorem take5 {A X1 X2 X3 X4 X5 X6 X7 X8 X9 X10 : sProp 𝕄} : iprop(X1 ∗ X2 ∗ X3 ∗ X4 ∗ (A ∗ X5) ∗ X6 ∗ X7 ∗ X8 ∗ X9 ∗ X10) ⊢ iprop(A ∗ (X1 ∗ X2 ∗ X3 ∗ X4 ∗ X5 ∗ X6 ∗ X7 ∗ X8 ∗ X9 ∗ X10)) := by
  iintro ⟨H1, H2, H3, H4, ⟨HA, H5⟩, H6, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take5L {A X1 X2 X3 X4 X6 X7 X8 X9 X10 : sProp 𝕄} : iprop(X1 ∗ X2 ∗ X3 ∗ X4 ∗ A ∗ X6 ∗ X7 ∗ X8 ∗ X9 ∗ X10) ⊢ iprop(A ∗ (X1 ∗ X2 ∗ X3 ∗ X4 ∗ emp ∗ X6 ∗ X7 ∗ X8 ∗ X9 ∗ X10)) := by
  iintro ⟨H1, H2, H3, H4, HA, H6, H7, H8, H9, H10⟩
  isplitl [HA]; · iexact HA
  isplitl [H1]; · iexact H1
  isplitl [H2]; · iexact H2
  isplitl [H3]; · iexact H3
  isplitl [H4]; · iexact H4
  isplitr; · iempintro
  isplitl [H6]; · iexact H6
  isplitl [H7]; · iexact H7
  isplitl [H8]; · iexact H8
  isplitl [H9]; · iexact H9
  iexact H10
theorem take6 {A X1 X2 X3 X4 X5 X6 X7 X8 X9 X10 : sProp 𝕄} : iprop(X1 ∗ X2 ∗ X3 ∗ X4 ∗ X5 ∗ (A ∗ X6) ∗ X7 ∗ X8 ∗ X9 ∗ X10) ⊢ iprop(A ∗ (X1 ∗ X2 ∗ X3 ∗ X4 ∗ X5 ∗ X6 ∗ X7 ∗ X8 ∗ X9 ∗ X10)) := by
  iintro ⟨H1, H2, H3, H4, H5, ⟨HA, H6⟩, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take6L {A X1 X2 X3 X4 X5 X7 X8 X9 X10 : sProp 𝕄} : iprop(X1 ∗ X2 ∗ X3 ∗ X4 ∗ X5 ∗ A ∗ X7 ∗ X8 ∗ X9 ∗ X10) ⊢ iprop(A ∗ (X1 ∗ X2 ∗ X3 ∗ X4 ∗ X5 ∗ emp ∗ X7 ∗ X8 ∗ X9 ∗ X10)) := by
  iintro ⟨H1, H2, H3, H4, H5, HA, H7, H8, H9, H10⟩
  isplitl [HA]; · iexact HA
  isplitl [H1]; · iexact H1
  isplitl [H2]; · iexact H2
  isplitl [H3]; · iexact H3
  isplitl [H4]; · iexact H4
  isplitl [H5]; · iexact H5
  isplitr; · iempintro
  isplitl [H7]; · iexact H7
  isplitl [H8]; · iexact H8
  isplitl [H9]; · iexact H9
  iexact H10
theorem take7 {A X1 X2 X3 X4 X5 X6 X7 X8 X9 X10 : sProp 𝕄} : iprop(X1 ∗ X2 ∗ X3 ∗ X4 ∗ X5 ∗ X6 ∗ (A ∗ X7) ∗ X8 ∗ X9 ∗ X10) ⊢ iprop(A ∗ (X1 ∗ X2 ∗ X3 ∗ X4 ∗ X5 ∗ X6 ∗ X7 ∗ X8 ∗ X9 ∗ X10)) := by
  iintro ⟨H1, H2, H3, H4, H5, H6, ⟨HA, H7⟩, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take7L {A X1 X2 X3 X4 X5 X6 X8 X9 X10 : sProp 𝕄} : iprop(X1 ∗ X2 ∗ X3 ∗ X4 ∗ X5 ∗ X6 ∗ A ∗ X8 ∗ X9 ∗ X10) ⊢ iprop(A ∗ (X1 ∗ X2 ∗ X3 ∗ X4 ∗ X5 ∗ X6 ∗ emp ∗ X8 ∗ X9 ∗ X10)) := by
  iintro ⟨H1, H2, H3, H4, H5, H6, HA, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitr; · iempintro
  isplitl [H8]; · iexact H8
  isplitl [H9]; · iexact H9
  iexact H10
theorem take8 {A X1 X2 X3 X4 X5 X6 X7 X8 X9 X10 : sProp 𝕄} : iprop(X1 ∗ X2 ∗ X3 ∗ X4 ∗ X5 ∗ X6 ∗ X7 ∗ (A ∗ X8) ∗ X9 ∗ X10) ⊢ iprop(A ∗ (X1 ∗ X2 ∗ X3 ∗ X4 ∗ X5 ∗ X6 ∗ X7 ∗ X8 ∗ X9 ∗ X10)) := by
  iintro ⟨H1, H2, H3, H4, H5, H6, H7, ⟨HA, H8⟩, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take8L {A X1 X2 X3 X4 X5 X6 X7 X9 X10 : sProp 𝕄} : iprop(X1 ∗ X2 ∗ X3 ∗ X4 ∗ X5 ∗ X6 ∗ X7 ∗ A ∗ X9 ∗ X10) ⊢ iprop(A ∗ (X1 ∗ X2 ∗ X3 ∗ X4 ∗ X5 ∗ X6 ∗ X7 ∗ emp ∗ X9 ∗ X10)) := by
  iintro ⟨H1, H2, H3, H4, H5, H6, H7, HA, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitr; · iempintro
  isplitl [H9]; · iexact H9
  iexact H10
theorem take9 {A X1 X2 X3 X4 X5 X6 X7 X8 X9 X10 : sProp 𝕄} : iprop(X1 ∗ X2 ∗ X3 ∗ X4 ∗ X5 ∗ X6 ∗ X7 ∗ X8 ∗ (A ∗ X9) ∗ X10) ⊢ iprop(A ∗ (X1 ∗ X2 ∗ X3 ∗ X4 ∗ X5 ∗ X6 ∗ X7 ∗ X8 ∗ X9 ∗ X10)) := by
  iintro ⟨H1, H2, H3, H4, H5, H6, H7, H8, ⟨HA, H9⟩, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take9L {A X1 X2 X3 X4 X5 X6 X7 X8 X10 : sProp 𝕄} : iprop(X1 ∗ X2 ∗ X3 ∗ X4 ∗ X5 ∗ X6 ∗ X7 ∗ X8 ∗ A ∗ X10) ⊢ iprop(A ∗ (X1 ∗ X2 ∗ X3 ∗ X4 ∗ X5 ∗ X6 ∗ X7 ∗ X8 ∗ emp ∗ X10)) := by
  iintro ⟨H1, H2, H3, H4, H5, H6, H7, H8, HA, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr; · iempintro
  iexact H10
theorem take10 {A X1 X2 X3 X4 X5 X6 X7 X8 X9 X10 : sProp 𝕄} : iprop(X1 ∗ X2 ∗ X3 ∗ X4 ∗ X5 ∗ X6 ∗ X7 ∗ X8 ∗ X9 ∗ (A ∗ X10)) ⊢ iprop(A ∗ (X1 ∗ X2 ∗ X3 ∗ X4 ∗ X5 ∗ X6 ∗ X7 ∗ X8 ∗ X9 ∗ X10)) := by
  iintro ⟨H1, H2, H3, H4, H5, H6, H7, H8, H9, ⟨HA, H10⟩⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take10L {A X1 X2 X3 X4 X5 X6 X7 X8 X9 : sProp 𝕄} : iprop(X1 ∗ X2 ∗ X3 ∗ X4 ∗ X5 ∗ X6 ∗ X7 ∗ X8 ∗ X9 ∗ A) ⊢ iprop(A ∗ (X1 ∗ X2 ∗ X3 ∗ X4 ∗ X5 ∗ X6 ∗ X7 ∗ X8 ∗ X9 ∗ emp)) := by
  iintro ⟨H1, H2, H3, H4, H5, H6, H7, H8, H9, HA⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iempintro

/-! ### The ghost state regrouped: every token to its payer -/

def nbrE : Dev nD ≃ Dev nD := ⟨nbr, nbr, nbr_nbr, nbr_nbr⟩
def peerE (i : Fin 15) : Dev nD ≃ Dev nD :=
  ⟨fun c => peer c (off i), fun c => src c (off i), fun c => src_peer c (off i), fun c => peer_src c (off i)⟩
/-- The barrier duty paid by the device `off i` pairs back. -/
def dn (i : Fin 15) : DN := ⟨i.val + 1, by have := i.isLt; omega⟩
theorem dn_injective : Function.Injective dn := fun i j h => Fin.ext (by have := congrArg Fin.val h; simp only [dn] at this; omega)

def tauEmb (c : Dev nD) : Fin 15 ↪ Fin 16 := ⟨fun i => sg c i.castSucc, (sg_injective c).comp (Fin.castSucc_injective 15)⟩

theorem bigSep_DI (Φ : DI → sProp 𝕄) : bigSep Finset.univ Φ
    = iprop((bigSep Finset.univ fun k => Φ (.inl k)) ∗ (bigSep Finset.univ fun k => Φ (.inr (.inl k)))
        ∗ (bigSep Finset.univ fun k => Φ (.inr (.inr (.inl k)))) ∗ bigSep Finset.univ fun k => Φ (.inr (.inr (.inr k)))) := by
  rw [bigSep_univ_sum, bigSep_univ_sum, bigSep_univ_sum]; rfl

/-- Of the barrier cell's sixteen tokens: duty 0 and the fifteen others. -/
theorem bar_toks_split (Φ : DN → sProp 𝕄) : bigSep Finset.univ Φ ⊢ iprop(Φ 0 ∗ bigSep Finset.univ fun i : Fin 15 => Φ (dn i)) := by
  rw [bigSep_univ_at Φ (0 : DN)]
  refine sep_mono_right ?_
  have hsub : (Finset.univ.map ⟨dn, dn_injective⟩ : Finset DN) ⊆ Finset.univ.erase 0 := fun x hx => by
    obtain ⟨i, _, rfl⟩ := Finset.mem_map.mp hx
    refine Finset.mem_erase.mpr ⟨fun h => ?_, Finset.mem_univ _⟩
    have := congrArg Fin.val h
    simp only [dn, Function.Embedding.coeFn_mk] at this
    exact absurd this (Nat.succ_ne_zero _)
  exact (bigSep_subset hsub).trans (Entails.of_eq (bigSep_map _))

/-- Of the sixteen second-phase receive cells' tokens: those of the fifteen that have a duty, by their payers' pairs. -/
theorem p2r_toks_pick (c : Dev nD) (Φ : Fin 16 → sProp 𝕄) :
    bigSep Finset.univ Φ ⊢ bigSep Finset.univ fun i : Fin 15 => Φ (pairOf (src c (off i))) := by
  refine ((bigSep_subset (Finset.subset_univ (Finset.univ.map (tauEmb c)))).trans (Entails.of_eq (bigSep_map (tauEmb c)))).trans ?_
  exact Entails.of_eq (bigSep_congr fun i _ => by show Φ (sg c i.castSucc) = _; rw [sg_cast])

/-- Of every cell of a family, the token of duty 0. -/
theorem duty0_pick {K : Type} [Fintype K] (Ψ : K → DN → sProp 𝕄) :
    (bigSep Finset.univ fun k => bigSep Finset.univ fun d => Ψ k d) ⊢ bigSep Finset.univ fun k => Ψ k 0 :=
  bigSep_mono fun k _ => bigSep_elim (Finset.mem_univ (0 : DN))

/-- The tokens of the duties of device `c`'s own cells. -/
def ownToks (c : Dev nD) : sProp 𝕄 :=
  iprop(dutyTok ER (barCell c) 0 0
    ∗ (bigSep Finset.univ fun i : Fin 15 => dutyTok ER (barCell c) 0 (dn i))
    ∗ (bigSep Finset.univ fun k : Fin 16 => dutyTok ER (dcell c (p1sS k)) 0 0)
    ∗ (bigSep Finset.univ fun k : Fin 16 => dutyTok ER (dcell c (p1rS k)) 0 0)
    ∗ (bigSep Finset.univ fun k : Fin 15 => dutyTok ER (dcell c (p2sS k)) 0 0)
    ∗ (bigSep Finset.univ fun i : Fin 15 => dutyTok ER (dcell c (p2rS (pairOf (src c (off i))))) 0 0))

theorem toks_own (c : Dev nD) : toks (F := F) c ⊢ ownToks c := by
  unfold toks ownToks
  rw [bigSep_CI, bigSep_DI]
  show iprop((bigSep Finset.univ fun d : DN => dutyTok ER (barCell c) 0 d)
      ∗ (bigSep Finset.univ fun k : Fin 16 => bigSep Finset.univ fun d : DN => dutyTok ER (dcell c (p1sS k)) 0 d)
      ∗ (bigSep Finset.univ fun k : Fin 16 => bigSep Finset.univ fun d : DN => dutyTok ER (dcell c (p1rS k)) 0 d)
      ∗ (bigSep Finset.univ fun k : Fin 15 => bigSep Finset.univ fun d : DN => dutyTok ER (dcell c (p2sS k)) 0 d)
      ∗ (bigSep Finset.univ fun k : Fin 16 => bigSep Finset.univ fun d : DN => dutyTok ER (dcell c (p2rS k)) 0 d)) ⊢ _
  iintro ⟨HB, H1, H2, H3, H4⟩
  ihave HB' := (bar_toks_split (fun d => dutyTok ER (barCell c) 0 d)) $$ HB
  icases HB' with ⟨HB0, HBI⟩
  isplitl [HB0]; · iexact HB0
  isplitl [HBI]; · iexact HBI
  isplitl [H1]
  · iapply (duty0_pick fun (k : Fin 16) (d : DN) => dutyTok ER (dcell c (p1sS k)) 0 d); iexact H1
  isplitl [H2]
  · iapply (duty0_pick fun (k : Fin 16) (d : DN) => dutyTok ER (dcell c (p1rS k)) 0 d); iexact H2
  isplitl [H3]
  · iapply (duty0_pick fun (k : Fin 15) (d : DN) => dutyTok ER (dcell c (p2sS k)) 0 d); iexact H3
  · iapply (p2r_toks_pick c fun ρ => dutyTok ER (dcell c (p2rS ρ)) 0 0)
    iapply (duty0_pick fun (k : Fin 16) (d : DN) => dutyTok ER (dcell c (p2rS k)) 0 d); iexact H4

/-- The tokens of the duties device `c` pays. -/
def payToks (c : Dev nD) : sProp 𝕄 :=
  iprop(dutyTok ER (barCell (nbr c)) 0 0
    ∗ (bigSep Finset.univ fun i : Fin 15 => dutyTok ER (barCell (peer c (off i))) 0 (dn i))
    ∗ (bigSep Finset.univ fun k : Fin 16 => dutyTok ER (dcell c (p1sS k)) 0 0)
    ∗ (bigSep Finset.univ fun k : Fin 16 => dutyTok ER (dcell (nbr c) (p1rS k)) 0 0)
    ∗ (bigSep Finset.univ fun k : Fin 15 => dutyTok ER (dcell c (p2sS k)) 0 0)
    ∗ (bigSep Finset.univ fun i : Fin 15 => dutyTok ER (dcell (peer c (off i)) (p2rS (pairOf c))) 0 0))

theorem perm_dev_fam {J : Type} [Fintype J] (e : J → Dev nD ≃ Dev nD) (Φ : Dev nD → J → sProp 𝕄) :
    (bigSep Finset.univ fun c => bigSep Finset.univ fun j => Φ c j) = bigSep Finset.univ fun c => bigSep Finset.univ fun j => Φ (e j c) j := by
  rw [bigSep_univ_comm, bigSep_univ_comm (fun c j => Φ (e j c) j)]
  exact bigSep_congr fun j _ => bigSep_univ_equiv (e j) _

/-- The tokens dealt to their payers: along the partner map and, offset by offset, along the peer maps. -/
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', bigSep_sep', bigSep_sep', bigSep_sep', bigSep_sep',
    bigSep_univ_equiv nbrE (fun c : Dev nD => (dutyTok ER (barCell c) 0 0 : sProp 𝕄)),
    perm_dev_fam peerE (fun (c : Dev nD) (i : Fin 15) => (dutyTok ER (barCell c) 0 (dn i) : sProp 𝕄)),
    perm_dev_fam (fun _ : Fin 16 => nbrE) (fun (c : Dev nD) (k : Fin 16) => (dutyTok ER (dcell c (p1rS k)) 0 0 : sProp 𝕄)),
    perm_dev_fam peerE (fun (c : Dev nD) (i : Fin 15) => (dutyTok ER (dcell c (p2rS (pairOf (src c (off i))))) 0 0 : sProp 𝕄))]
  refine BI.sep_mono (BI.Entails.refl _) (BI.sep_mono (BI.Entails.refl _) (BI.sep_mono (BI.Entails.refl _) (BI.sep_mono (BI.Entails.refl _) (BI.sep_mono (BI.Entails.refl _) ?_))))
  exact Entails.of_eq (bigSep_congr fun c _ => bigSep_congr fun i _ => by
    show (dutyTok ER (dcell (peer c (off i)) (p2rS (pairOf (src (peer c (off i)) (off i))))) 0 0 : sProp 𝕄) = _
    rw [src_peer])

/-! ### One device's ghost state from the shared records and what stays with it -/

def nameOf (K : Dev nD × CI → ℕ) (g : GSem nD τ sig) : ℕ := by
  classical exact if h : ∃ ck : Dev nD × CI, kcell ck = g then K (Classical.choose h) else 0
theorem nameOf_kcell (K : Dev nD × CI → ℕ) (ck : Dev nD × CI) : nameOf K (kcell ck) = K ck := by
  unfold nameOf
  rw [dif_pos ⟨ck, rfl⟩]
  exact congrArg K (kcell_injective (Classical.choose_spec (⟨ck, rfl⟩ : ∃ ck' : Dev nD × CI, kcell ck' = kcell ck)))

def records (κ : GSem nD τ sig → ℕ) : sProp 𝕄 :=
  iprop((bigSep Finset.univ fun ck : Dev nD × CI => cellInv ER (rd (W1 m) (W2 m)) (κ (kcell ck)) (kcell ck))
    ∗ bigSep Finset.univ fun ck : Dev nD × CI => reached ER (kcell ck) 0)

instance records_persistent (κ : GSem nD τ sig → ℕ) : BI.Persistent (records m κ) := by unfold records; infer_instance

theorem inv_at' (κ : GSem nD τ sig → ℕ) (ck : Dev nD × CI) :
    (bigSep Finset.univ fun ck : Dev nD × CI => (cellInv ER (rd (W1 m) (W2 m)) (κ (kcell ck)) (kcell ck) : sProp 𝕄)) ⊢ cellInv ER (rd (W1 m) (W2 m)) (κ (kcell ck)) (kcell ck) :=
  bigSep_elim (Finset.mem_univ ck)
theorem reached_at' (ck : Dev nD × CI) :
    (bigSep Finset.univ fun ck : Dev nD × CI => (reached ER (kcell ck) 0 : sProp 𝕄)) ⊢ reached ER (kcell ck) 0 :=
  bigSep_elim (Finset.mem_univ ck)
theorem inv_at (κ : GSem nD τ sig → ℕ) (ck : Dev nD × CI) : records m κ ⊢ cellInv ER (rd (W1 m) (W2 m)) (κ (kcell ck)) (kcell ck) := by
  unfold records; iintro ⟨H, -⟩; iapply (inv_at' m κ ck); iexact H
theorem reached_at (κ : GSem nD τ sig → ℕ) (ck : Dev nD × CI) : records m κ ⊢ (reached ER (kcell ck) 0 : sProp 𝕄) := by
  unfold records; iintro ⟨-, H⟩; iapply (reached_at' (F := F) ck); iexact H

/-- What stays with device `c`: its positions on its own cells and the tokens of the duties it pays, each list in the order the body uses it. -/
def linear (c : Dev nD) : sProp 𝕄 :=
  iprop((dutyTok ER (barCell (nbr c)) 0 0 ∗ bigSep Finset.univ fun i : Fin 15 => dutyTok ER (barCell (peer c (off i))) 0 (dn i))
    ∗ atPos ER (barCell c) 0 ∅ 0
    ∗ (bigSep Finset.univ fun k : Fin 16 => dutyTok ER (dcell c (p1sS k)) 0 0)
    ∗ (bigSep Finset.univ fun k : Fin 16 => dutyTok ER (dcell (nbr c) (p1rS k)) 0 0)
    ∗ (bigSep Finset.univ fun k : Fin 16 => atPos ER (dcell c (p1sS k)) 0 ∅ 0)
    ∗ (bigSep Finset.univ fun k : Fin 16 => atPos ER (dcell c (p1rS k)) 0 ∅ 0)
    ∗ (bigSep Finset.univ fun k : Fin 15 => dutyTok ER (dcell c (p2sS k)) 0 0)
    ∗ (bigSep Finset.univ fun i : Fin 15 => dutyTok ER (dcell (peer c (off i)) (p2rS (pairOf c))) 0 0)
    ∗ (bigSep Finset.univ fun k : Fin 15 => atPos ER (dcell c (p2sS k)) 0 ∅ 0)
    ∗ (bigSep Finset.univ fun k : Fin 16 => atPos ER (dcell c (p2rS (sg c k))) 0 ∅ 0))

theorem linear_intro (c : Dev nD) :
    iprop((bigSep Finset.univ fun k : CI => (atPos ER (kcell (c, k)) 0 ∅ 0 : sProp 𝕄)) ∗ payToks c) ⊢ linear (F := F) c := by
  unfold payToks linear
  rw [bigSep_CI, bigSep_DI, bigSep_univ_equiv (sgE c) (fun k : Fin 16 => (atPos ER (kcell (c, .inr (.inr (.inr (.inr k))))) 0 ∅ 0 : sProp 𝕄))]
  iintro ⟨⟨HaB, Ha1, Ha2, Ha3, Ha4⟩, HtB0, HtBI, Ht1, Ht2, Ht3, Ht4⟩
  isplitl [HtB0 HtBI]
  · isplitl [HtB0]; · iexact HtB0
    iexact HtBI
  isplitl [HaB]; · iexact HaB
  isplitl [Ht1]; · iexact Ht1
  isplitl [Ht2]; · iexact Ht2
  isplitl [Ha1]; · iexact Ha1
  isplitl [Ha2]; · iexact Ha2
  isplitl [Ht3]; · iexact Ht3
  isplitl [Ht4]; · iexact Ht4
  isplitl [Ha3]; · iexact Ha3
  iexact Ha4

theorem ghost_intro (κ : GSem nD τ sig → ℕ) (c : Dev nD) : iprop(records m κ ∗ linear c) ⊢ ghost m κ c := by
  unfold linear ghost
  simp only [bigSep_fin15, bigSep_fin16]
  refine dealP (inv_at m κ (c, .inl ())) putEnd ?_
  refine dealP (inv_at m κ ((nbr c), .inl ())) putEnd ?_
  refine dealP (inv_at m κ ((peer c (off 0)), .inl ())) putEnd ?_
  refine dealP (inv_at m κ ((peer c (off 1)), .inl ())) putEnd ?_
  refine dealP (inv_at m κ ((peer c (off 2)), .inl ())) putEnd ?_
  refine dealP (inv_at m κ ((peer c (off 3)), .inl ())) putEnd ?_
  refine dealP (inv_at m κ ((peer c (off 4)), .inl ())) putEnd ?_
  refine dealP (inv_at m κ ((peer c (off 5)), .inl ())) putEnd ?_
  refine dealP (inv_at m κ ((peer c (off 6)), .inl ())) putEnd ?_
  refine dealP (inv_at m κ ((peer c (off 7)), .inl ())) putEnd ?_
  refine dealP (inv_at m κ ((peer c (off 8)), .inl ())) putEnd ?_
  refine dealP (inv_at m κ ((peer c (off 9)), .inl ())) putEnd ?_
  refine dealP (inv_at m κ ((peer c (off 10)), .inl ())) putEnd ?_
  refine dealP (inv_at m κ ((peer c (off 11)), .inl ())) putEnd ?_
  refine dealP (inv_at m κ ((peer c (off 12)), .inl ())) putEnd ?_
  refine dealP (inv_at m κ ((peer c (off 13)), .inl ())) putEnd ?_
  refine dealP (inv_at m κ ((peer c (off 14)), .inl ())) putEnd ?_
  refine dealP (reached_at m κ ((nbr c), .inl ())) putEnd ?_
  refine dealP (reached_at m κ ((peer c (off 0)), .inl ())) putEnd ?_
  refine dealP (reached_at m κ ((peer c (off 1)), .inl ())) putEnd ?_
  refine dealP (reached_at m κ ((peer c (off 2)), .inl ())) putEnd ?_
  refine dealP (reached_at m κ ((peer c (off 3)), .inl ())) putEnd ?_
  refine dealP (reached_at m κ ((peer c (off 4)), .inl ())) putEnd ?_
  refine dealP (reached_at m κ ((peer c (off 5)), .inl ())) putEnd ?_
  refine dealP (reached_at m κ ((peer c (off 6)), .inl ())) putEnd ?_
  refine dealP (reached_at m κ ((peer c (off 7)), .inl ())) putEnd ?_
  refine dealP (reached_at m κ ((peer c (off 8)), .inl ())) putEnd ?_
  refine dealP (reached_at m κ ((peer c (off 9)), .inl ())) putEnd ?_
  refine dealP (reached_at m κ ((peer c (off 10)), .inl ())) putEnd ?_
  refine dealP (reached_at m κ ((peer c (off 11)), .inl ())) putEnd ?_
  refine dealP (reached_at m κ ((peer c (off 12)), .inl ())) putEnd ?_
  refine dealP (reached_at m κ ((peer c (off 13)), .inl ())) putEnd ?_
  refine dealP (reached_at m κ ((peer c (off 14)), .inl ())) putEnd ?_
  refine dealP (reached_at m κ (c, .inr (.inr (.inl 0)))) putEnd ?_
  refine dealP (reached_at m κ (c, .inr (.inr (.inl 1)))) putEnd ?_
  refine dealP (reached_at m κ (c, .inr (.inr (.inl 2)))) putEnd ?_
  refine dealP (reached_at m κ (c, .inr (.inr (.inl 3)))) putEnd ?_
  refine dealP (reached_at m κ (c, .inr (.inr (.inl 4)))) putEnd ?_
  refine dealP (reached_at m κ (c, .inr (.inr (.inl 5)))) putEnd ?_
  refine dealP (reached_at m κ (c, .inr (.inr (.inl 6)))) putEnd ?_
  refine dealP (reached_at m κ (c, .inr (.inr (.inl 7)))) putEnd ?_
  refine dealP (reached_at m κ (c, .inr (.inr (.inl 8)))) putEnd ?_
  refine dealP (reached_at m κ (c, .inr (.inr (.inl 9)))) putEnd ?_
  refine dealP (reached_at m κ (c, .inr (.inr (.inl 10)))) putEnd ?_
  refine dealP (reached_at m κ (c, .inr (.inr (.inl 11)))) putEnd ?_
  refine dealP (reached_at m κ (c, .inr (.inr (.inl 12)))) putEnd ?_
  refine dealP (reached_at m κ (c, .inr (.inr (.inl 13)))) putEnd ?_
  refine dealP (reached_at m κ (c, .inr (.inr (.inl 14)))) putEnd ?_
  refine dealP (reached_at m κ (c, .inr (.inr (.inl 15)))) putEnd ?_
  refine dealP (reached_at m κ (c, .inr (.inr (.inr (.inr (pairOf (peer c (off 0)))))))) putEnd ?_
  refine dealP (reached_at m κ (c, .inr (.inr (.inr (.inr (pairOf (peer c (off 1)))))))) putEnd ?_
  refine dealP (reached_at m κ (c, .inr (.inr (.inr (.inr (pairOf (peer c (off 2)))))))) putEnd ?_
  refine dealP (reached_at m κ (c, .inr (.inr (.inr (.inr (pairOf (peer c (off 3)))))))) putEnd ?_
  refine dealP (reached_at m κ (c, .inr (.inr (.inr (.inr (pairOf (peer c (off 4)))))))) putEnd ?_
  refine dealP (reached_at m κ (c, .inr (.inr (.inr (.inr (pairOf (peer c (off 5)))))))) putEnd ?_
  refine dealP (reached_at m κ (c, .inr (.inr (.inr (.inr (pairOf (peer c (off 6)))))))) putEnd ?_
  refine dealP (reached_at m κ (c, .inr (.inr (.inr (.inr (pairOf (peer c (off 7)))))))) putEnd ?_
  refine dealP (reached_at m κ (c, .inr (.inr (.inr (.inr (pairOf (peer c (off 8)))))))) putEnd ?_
  refine dealP (reached_at m κ (c, .inr (.inr (.inr (.inr (pairOf (peer c (off 9)))))))) putEnd ?_
  refine dealP (reached_at m κ (c, .inr (.inr (.inr (.inr (pairOf (peer c (off 10)))))))) putEnd ?_
  refine dealP (reached_at m κ (c, .inr (.inr (.inr (.inr (pairOf (peer c (off 11)))))))) putEnd ?_
  refine dealP (reached_at m κ (c, .inr (.inr (.inr (.inr (pairOf (peer c (off 12)))))))) putEnd ?_
  refine dealP (reached_at m κ (c, .inr (.inr (.inr (.inr (pairOf (peer c (off 13)))))))) putEnd ?_
  refine dealP (reached_at m κ (c, .inr (.inr (.inr (.inr (pairOf (peer c (off 14)))))))) putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1L putEnd ?_
  refine dealL take2L putEnd ?_
  refine dealP (inv_at m κ (c, .inr (.inl 0))) putEnd ?_
  refine dealP (inv_at m κ ((nbr c), .inr (.inr (.inl 0)))) putEnd ?_
  refine dealP (reached_at m κ (c, .inr (.inl 0))) putEnd ?_
  refine dealL take3 putEnd ?_
  refine dealL take4 putEnd ?_
  refine dealL take5 putEnd ?_
  refine dealP (inv_at m κ (c, .inr (.inl 1))) putEnd ?_
  refine dealP (inv_at m κ ((nbr c), .inr (.inr (.inl 1)))) putEnd ?_
  refine dealP (reached_at m κ (c, .inr (.inl 1))) putEnd ?_
  refine dealL take3 putEnd ?_
  refine dealL take4 putEnd ?_
  refine dealL take5 putEnd ?_
  refine dealP (inv_at m κ (c, .inr (.inl 2))) putEnd ?_
  refine dealP (inv_at m κ ((nbr c), .inr (.inr (.inl 2)))) putEnd ?_
  refine dealP (reached_at m κ (c, .inr (.inl 2))) putEnd ?_
  refine dealL take3 putEnd ?_
  refine dealL take4 putEnd ?_
  refine dealL take5 putEnd ?_
  refine dealP (inv_at m κ (c, .inr (.inl 3))) putEnd ?_
  refine dealP (inv_at m κ ((nbr c), .inr (.inr (.inl 3)))) putEnd ?_
  refine dealP (reached_at m κ (c, .inr (.inl 3))) putEnd ?_
  refine dealL take3 putEnd ?_
  refine dealL take4 putEnd ?_
  refine dealL take5 putEnd ?_
  refine dealP (inv_at m κ (c, .inr (.inl 4))) putEnd ?_
  refine dealP (inv_at m κ ((nbr c), .inr (.inr (.inl 4)))) putEnd ?_
  refine dealP (reached_at m κ (c, .inr (.inl 4))) putEnd ?_
  refine dealL take3 putEnd ?_
  refine dealL take4 putEnd ?_
  refine dealL take5 putEnd ?_
  refine dealP (inv_at m κ (c, .inr (.inl 5))) putEnd ?_
  refine dealP (inv_at m κ ((nbr c), .inr (.inr (.inl 5)))) putEnd ?_
  refine dealP (reached_at m κ (c, .inr (.inl 5))) putEnd ?_
  refine dealL take3 putEnd ?_
  refine dealL take4 putEnd ?_
  refine dealL take5 putEnd ?_
  refine dealP (inv_at m κ (c, .inr (.inl 6))) putEnd ?_
  refine dealP (inv_at m κ ((nbr c), .inr (.inr (.inl 6)))) putEnd ?_
  refine dealP (reached_at m κ (c, .inr (.inl 6))) putEnd ?_
  refine dealL take3 putEnd ?_
  refine dealL take4 putEnd ?_
  refine dealL take5 putEnd ?_
  refine dealP (inv_at m κ (c, .inr (.inl 7))) putEnd ?_
  refine dealP (inv_at m κ ((nbr c), .inr (.inr (.inl 7)))) putEnd ?_
  refine dealP (reached_at m κ (c, .inr (.inl 7))) putEnd ?_
  refine dealL take3 putEnd ?_
  refine dealL take4 putEnd ?_
  refine dealL take5 putEnd ?_
  refine dealP (inv_at m κ (c, .inr (.inl 8))) putEnd ?_
  refine dealP (inv_at m κ ((nbr c), .inr (.inr (.inl 8)))) putEnd ?_
  refine dealP (reached_at m κ (c, .inr (.inl 8))) putEnd ?_
  refine dealL take3 putEnd ?_
  refine dealL take4 putEnd ?_
  refine dealL take5 putEnd ?_
  refine dealP (inv_at m κ (c, .inr (.inl 9))) putEnd ?_
  refine dealP (inv_at m κ ((nbr c), .inr (.inr (.inl 9)))) putEnd ?_
  refine dealP (reached_at m κ (c, .inr (.inl 9))) putEnd ?_
  refine dealL take3 putEnd ?_
  refine dealL take4 putEnd ?_
  refine dealL take5 putEnd ?_
  refine dealP (inv_at m κ (c, .inr (.inl 10))) putEnd ?_
  refine dealP (inv_at m κ ((nbr c), .inr (.inr (.inl 10)))) putEnd ?_
  refine dealP (reached_at m κ (c, .inr (.inl 10))) putEnd ?_
  refine dealL take3 putEnd ?_
  refine dealL take4 putEnd ?_
  refine dealL take5 putEnd ?_
  refine dealP (inv_at m κ (c, .inr (.inl 11))) putEnd ?_
  refine dealP (inv_at m κ ((nbr c), .inr (.inr (.inl 11)))) putEnd ?_
  refine dealP (reached_at m κ (c, .inr (.inl 11))) putEnd ?_
  refine dealL take3 putEnd ?_
  refine dealL take4 putEnd ?_
  refine dealL take5 putEnd ?_
  refine dealP (inv_at m κ (c, .inr (.inl 12))) putEnd ?_
  refine dealP (inv_at m κ ((nbr c), .inr (.inr (.inl 12)))) putEnd ?_
  refine dealP (reached_at m κ (c, .inr (.inl 12))) putEnd ?_
  refine dealL take3 putEnd ?_
  refine dealL take4 putEnd ?_
  refine dealL take5 putEnd ?_
  refine dealP (inv_at m κ (c, .inr (.inl 13))) putEnd ?_
  refine dealP (inv_at m κ ((nbr c), .inr (.inr (.inl 13)))) putEnd ?_
  refine dealP (reached_at m κ (c, .inr (.inl 13))) putEnd ?_
  refine dealL take3 putEnd ?_
  refine dealL take4 putEnd ?_
  refine dealL take5 putEnd ?_
  refine dealP (inv_at m κ (c, .inr (.inl 14))) putEnd ?_
  refine dealP (inv_at m κ ((nbr c), .inr (.inr (.inl 14)))) putEnd ?_
  refine dealP (reached_at m κ (c, .inr (.inl 14))) putEnd ?_
  refine dealL take3 putEnd ?_
  refine dealL take4 putEnd ?_
  refine dealL take5 putEnd ?_
  refine dealP (inv_at m κ (c, .inr (.inl 15))) putEnd ?_
  refine dealP (inv_at m κ ((nbr c), .inr (.inr (.inl 15)))) putEnd ?_
  refine dealP (reached_at m κ (c, .inr (.inl 15))) putEnd ?_
  refine dealL take3L putEnd ?_
  refine dealL take4L putEnd ?_
  refine dealL take5L putEnd ?_
  refine dealP (inv_at m κ (c, .inr (.inr (.inl 0)))) putEnd ?_
  refine dealP (inv_at m κ (c, .inr (.inr (.inr (.inl 0))))) putEnd ?_
  refine dealP (inv_at m κ ((peer c (off 0)), .inr (.inr (.inr (.inr (pairOf c)))))) putEnd ?_
  refine dealP (reached_at m κ (c, .inr (.inr (.inr (.inl 0))))) putEnd ?_
  refine dealL take6 putEnd ?_
  refine dealL take7 putEnd ?_
  refine dealL take8 putEnd ?_
  refine dealL take9 putEnd ?_
  refine dealP (inv_at m κ (c, .inr (.inr (.inl 1)))) putEnd ?_
  refine dealP (inv_at m κ (c, .inr (.inr (.inr (.inl 1))))) putEnd ?_
  refine dealP (inv_at m κ ((peer c (off 1)), .inr (.inr (.inr (.inr (pairOf c)))))) putEnd ?_
  refine dealP (reached_at m κ (c, .inr (.inr (.inr (.inl 1))))) putEnd ?_
  refine dealL take6 putEnd ?_
  refine dealL take7 putEnd ?_
  refine dealL take8 putEnd ?_
  refine dealL take9 putEnd ?_
  refine dealP (inv_at m κ (c, .inr (.inr (.inl 2)))) putEnd ?_
  refine dealP (inv_at m κ (c, .inr (.inr (.inr (.inl 2))))) putEnd ?_
  refine dealP (inv_at m κ ((peer c (off 2)), .inr (.inr (.inr (.inr (pairOf c)))))) putEnd ?_
  refine dealP (reached_at m κ (c, .inr (.inr (.inr (.inl 2))))) putEnd ?_
  refine dealL take6 putEnd ?_
  refine dealL take7 putEnd ?_
  refine dealL take8 putEnd ?_
  refine dealL take9 putEnd ?_
  refine dealP (inv_at m κ (c, .inr (.inr (.inl 3)))) putEnd ?_
  refine dealP (inv_at m κ (c, .inr (.inr (.inr (.inl 3))))) putEnd ?_
  refine dealP (inv_at m κ ((peer c (off 3)), .inr (.inr (.inr (.inr (pairOf c)))))) putEnd ?_
  refine dealP (reached_at m κ (c, .inr (.inr (.inr (.inl 3))))) putEnd ?_
  refine dealL take6 putEnd ?_
  refine dealL take7 putEnd ?_
  refine dealL take8 putEnd ?_
  refine dealL take9 putEnd ?_
  refine dealP (inv_at m κ (c, .inr (.inr (.inl 4)))) putEnd ?_
  refine dealP (inv_at m κ (c, .inr (.inr (.inr (.inl 4))))) putEnd ?_
  refine dealP (inv_at m κ ((peer c (off 4)), .inr (.inr (.inr (.inr (pairOf c)))))) putEnd ?_
  refine dealP (reached_at m κ (c, .inr (.inr (.inr (.inl 4))))) putEnd ?_
  refine dealL take6 putEnd ?_
  refine dealL take7 putEnd ?_
  refine dealL take8 putEnd ?_
  refine dealL take9 putEnd ?_
  refine dealP (inv_at m κ (c, .inr (.inr (.inl 5)))) putEnd ?_
  refine dealP (inv_at m κ (c, .inr (.inr (.inr (.inl 5))))) putEnd ?_
  refine dealP (inv_at m κ ((peer c (off 5)), .inr (.inr (.inr (.inr (pairOf c)))))) putEnd ?_
  refine dealP (reached_at m κ (c, .inr (.inr (.inr (.inl 5))))) putEnd ?_
  refine dealL take6 putEnd ?_
  refine dealL take7 putEnd ?_
  refine dealL take8 putEnd ?_
  refine dealL take9 putEnd ?_
  refine dealP (inv_at m κ (c, .inr (.inr (.inl 6)))) putEnd ?_
  refine dealP (inv_at m κ (c, .inr (.inr (.inr (.inl 6))))) putEnd ?_
  refine dealP (inv_at m κ ((peer c (off 6)), .inr (.inr (.inr (.inr (pairOf c)))))) putEnd ?_
  refine dealP (reached_at m κ (c, .inr (.inr (.inr (.inl 6))))) putEnd ?_
  refine dealL take6 putEnd ?_
  refine dealL take7 putEnd ?_
  refine dealL take8 putEnd ?_
  refine dealL take9 putEnd ?_
  refine dealP (inv_at m κ (c, .inr (.inr (.inl 7)))) putEnd ?_
  refine dealP (inv_at m κ (c, .inr (.inr (.inr (.inl 7))))) putEnd ?_
  refine dealP (inv_at m κ ((peer c (off 7)), .inr (.inr (.inr (.inr (pairOf c)))))) putEnd ?_
  refine dealP (reached_at m κ (c, .inr (.inr (.inr (.inl 7))))) putEnd ?_
  refine dealL take6 putEnd ?_
  refine dealL take7 putEnd ?_
  refine dealL take8 putEnd ?_
  refine dealL take9 putEnd ?_
  refine dealP (inv_at m κ (c, .inr (.inr (.inl 8)))) putEnd ?_
  refine dealP (inv_at m κ (c, .inr (.inr (.inr (.inl 8))))) putEnd ?_
  refine dealP (inv_at m κ ((peer c (off 8)), .inr (.inr (.inr (.inr (pairOf c)))))) putEnd ?_
  refine dealP (reached_at m κ (c, .inr (.inr (.inr (.inl 8))))) putEnd ?_
  refine dealL take6 putEnd ?_
  refine dealL take7 putEnd ?_
  refine dealL take8 putEnd ?_
  refine dealL take9 putEnd ?_
  refine dealP (inv_at m κ (c, .inr (.inr (.inl 9)))) putEnd ?_
  refine dealP (inv_at m κ (c, .inr (.inr (.inr (.inl 9))))) putEnd ?_
  refine dealP (inv_at m κ ((peer c (off 9)), .inr (.inr (.inr (.inr (pairOf c)))))) putEnd ?_
  refine dealP (reached_at m κ (c, .inr (.inr (.inr (.inl 9))))) putEnd ?_
  refine dealL take6 putEnd ?_
  refine dealL take7 putEnd ?_
  refine dealL take8 putEnd ?_
  refine dealL take9 putEnd ?_
  refine dealP (inv_at m κ (c, .inr (.inr (.inl 10)))) putEnd ?_
  refine dealP (inv_at m κ (c, .inr (.inr (.inr (.inl 10))))) putEnd ?_
  refine dealP (inv_at m κ ((peer c (off 10)), .inr (.inr (.inr (.inr (pairOf c)))))) putEnd ?_
  refine dealP (reached_at m κ (c, .inr (.inr (.inr (.inl 10))))) putEnd ?_
  refine dealL take6 putEnd ?_
  refine dealL take7 putEnd ?_
  refine dealL take8 putEnd ?_
  refine dealL take9 putEnd ?_
  refine dealP (inv_at m κ (c, .inr (.inr (.inl 11)))) putEnd ?_
  refine dealP (inv_at m κ (c, .inr (.inr (.inr (.inl 11))))) putEnd ?_
  refine dealP (inv_at m κ ((peer c (off 11)), .inr (.inr (.inr (.inr (pairOf c)))))) putEnd ?_
  refine dealP (reached_at m κ (c, .inr (.inr (.inr (.inl 11))))) putEnd ?_
  refine dealL take6 putEnd ?_
  refine dealL take7 putEnd ?_
  refine dealL take8 putEnd ?_
  refine dealL take9 putEnd ?_
  refine dealP (inv_at m κ (c, .inr (.inr (.inl 12)))) putEnd ?_
  refine dealP (inv_at m κ (c, .inr (.inr (.inr (.inl 12))))) putEnd ?_
  refine dealP (inv_at m κ ((peer c (off 12)), .inr (.inr (.inr (.inr (pairOf c)))))) putEnd ?_
  refine dealP (reached_at m κ (c, .inr (.inr (.inr (.inl 12))))) putEnd ?_
  refine dealL take6 putEnd ?_
  refine dealL take7 putEnd ?_
  refine dealL take8 putEnd ?_
  refine dealL take9 putEnd ?_
  refine dealP (inv_at m κ (c, .inr (.inr (.inl 13)))) putEnd ?_
  refine dealP (inv_at m κ (c, .inr (.inr (.inr (.inl 13))))) putEnd ?_
  refine dealP (inv_at m κ ((peer c (off 13)), .inr (.inr (.inr (.inr (pairOf c)))))) putEnd ?_
  refine dealP (reached_at m κ (c, .inr (.inr (.inr (.inl 13))))) putEnd ?_
  refine dealL take6 putEnd ?_
  refine dealL take7 putEnd ?_
  refine dealL take8 putEnd ?_
  refine dealL take9 putEnd ?_
  refine dealP (inv_at m κ (c, .inr (.inr (.inl 14)))) putEnd ?_
  refine dealP (inv_at m κ (c, .inr (.inr (.inr (.inl 14))))) putEnd ?_
  refine dealP (inv_at m κ ((peer c (off 14)), .inr (.inr (.inr (.inr (pairOf c)))))) putEnd ?_
  refine dealP (reached_at m κ (c, .inr (.inr (.inr (.inl 14))))) putEnd ?_
  refine dealL take6 putEnd ?_
  refine dealL take7L putEnd ?_
  refine dealL take8L putEnd ?_
  refine dealL take9L putEnd ?_
  refine dealP (inv_at m κ (c, .inr (.inr (.inl 15)))) putEnd ?_
  refine dealL take6L putEnd ?_
  refine dealP (inv_at m κ (c, .inr (.inr (.inr (.inr (pairOf (src c (off 0)))))))) putEnd ?_
  refine dealL take10 putEnd ?_
  refine dealP (inv_at m κ (c, .inr (.inr (.inr (.inr (pairOf (src c (off 1)))))))) putEnd ?_
  refine dealL take10 putEnd ?_
  refine dealP (inv_at m κ (c, .inr (.inr (.inr (.inr (pairOf (src c (off 2)))))))) putEnd ?_
  refine dealL take10 putEnd ?_
  refine dealP (inv_at m κ (c, .inr (.inr (.inr (.inr (pairOf (src c (off 3)))))))) putEnd ?_
  refine dealL take10 putEnd ?_
  refine dealP (inv_at m κ (c, .inr (.inr (.inr (.inr (pairOf (src c (off 4)))))))) putEnd ?_
  refine dealL take10 putEnd ?_
  refine dealP (inv_at m κ (c, .inr (.inr (.inr (.inr (pairOf (src c (off 5)))))))) putEnd ?_
  refine dealL take10 putEnd ?_
  refine dealP (inv_at m κ (c, .inr (.inr (.inr (.inr (pairOf (src c (off 6)))))))) putEnd ?_
  refine dealL take10 putEnd ?_
  refine dealP (inv_at m κ (c, .inr (.inr (.inr (.inr (pairOf (src c (off 7)))))))) putEnd ?_
  refine dealL take10 putEnd ?_
  refine dealP (inv_at m κ (c, .inr (.inr (.inr (.inr (pairOf (src c (off 8)))))))) putEnd ?_
  refine dealL take10 putEnd ?_
  refine dealP (inv_at m κ (c, .inr (.inr (.inr (.inr (pairOf (src c (off 9)))))))) putEnd ?_
  refine dealL take10 putEnd ?_
  refine dealP (inv_at m κ (c, .inr (.inr (.inr (.inr (pairOf (src c (off 10)))))))) putEnd ?_
  refine dealL take10 putEnd ?_
  refine dealP (inv_at m κ (c, .inr (.inr (.inr (.inr (pairOf (src c (off 11)))))))) putEnd ?_
  refine dealL take10 putEnd ?_
  refine dealP (inv_at m κ (c, .inr (.inr (.inr (.inr (pairOf (src c (off 12)))))))) putEnd ?_
  refine dealL take10 putEnd ?_
  refine dealP (inv_at m κ (c, .inr (.inr (.inr (.inr (pairOf (src c (off 13)))))))) putEnd ?_
  refine dealL take10 putEnd ?_
  refine dealP (inv_at m κ (c, .inr (.inr (.inr (.inr (pairOf (src c (off 14)))))))) putEnd ?_
  refine dealL take10 putEnd ?_
  refine dealP (inv_at m κ (c, .inr (.inr (.inr (.inr (pairOf c)))))) putEnd ?_
  exact dealFinL

theorem toks_own_all : (bigSep Finset.univ fun c : Dev nD => (toks c : sProp 𝕄)) ⊢ bigSep Finset.univ fun c : Dev nD => ownToks c :=
  bigSep_mono fun c _ => toks_own c
theorem linear_all : (bigSep Finset.univ fun c : Dev nD => iprop((bigSep Finset.univ fun k : CI => (atPos ER (kcell (c, k)) 0 ∅ 0 : sProp 𝕄)) ∗ payToks c))
    ⊢ bigSep Finset.univ fun c : Dev nD => linear c :=
  bigSep_mono fun c _ => linear_intro c
theorem with_records {I : Type} [DecidableEq I] {S : Finset I} {Rc : sProp 𝕄} [BI.Persistent Rc] {Φ Ψ : I → sProp 𝕄}
    (h : ∀ i ∈ S, iprop(Rc ∗ Φ i) ⊢ Ψ i) : iprop(Rc ∗ bigSep S Φ) ⊢ bigSep S Ψ :=
  (sep_mono_left (BI.bigSep_of_persistent S Rc)).trans (by rw [← bigSep_sep']; exact bigSep_mono h)

theorem regroup :
    (bigSep Finset.univ fun c : Dev nD => iprop((bigSep Finset.univ fun k : CI => iprop(∃ κ : ℕ, cellInv ER (rd (W1 m) (W2 m)) κ (kcell (c, k))))
          ∗ (bigSep Finset.univ fun k : CI => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CI => iprop(∃ κ : ℕ, cellInv ER (rd (W1 m) (W2 m)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd (W1 m) (W2 m)) κ (kcell ck) : sProp 𝕄))) $$ HI
  icases HK with ⟨%K, #HI⟩
  ihave Hown := (toks_own_all (F := F)) $$ Htok
  ihave Htk := (toks_around (F := F)) $$ Hown
  iapply (with_records (Rc := records m (nameOf K)) fun c _ =>
    (show iprop(records m (nameOf K) ∗ linear c) ⊢ G' m c from (ghost_intro m (nameOf K) c).trans (by unfold G'; iintro H; iexists (nameOf K); iexact H)))
  isplitr
  · unfold records
    isplitl
    · iapply (Entails.of_eq (bigSep_congr (s := Finset.univ) fun (ck : Dev nD × CI) _ =>
        show (cellInv ER (rd (W1 m) (W2 m)) (K ck) (kcell ck) : sProp 𝕄) = cellInv ER (rd (W1 m) (W2 m)) (nameOf K (kcell ck)) (kcell ck) by rw [nameOf_kcell]))
      iexact HI
    · iexact HR
  · iapply (linear_all (F := F))
    iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- Every device owing one tally on a semaphore of the device a bijection sends it to (the semaphore may depend on the
    ower), the launch deals each device the matching credit on its own semaphore. -/
theorem launchCred_perm (f finv : Dev nD → Dev nD) (h1 : ∀ c, f (finv c) = c) (h2 : ∀ d, finv (f d) = d)
    (sm : Dev nD → SemLoc sig) (n : ℕ) (c : Dev nD) :
    (Pipeline.launchCred (fun d => tallyAt (((f d) : Thread nD τ), sm d) () n) c : sProp 𝕄) ⊢ cred (tallyAt ((c : Thread nD τ), sm (finv c)) () n) := by
  refine (Pipeline.launchCred_elim _ c (sm (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d) : Thread nD τ), sm d) (Finsupp.single () n) ((c : Thread nD τ), sm (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

theorem cred_p1r (c : Dev nD) (s : Fin 16) :
    (Pipeline.launchCred (fun d => tallyAt (dcell (nbr d) (p1rS s)) () N) c : sProp 𝕄) ⊢ cred (tallyAt (dcell c (p1rS s)) () N) :=
  launchCred_perm nbr nbr nbr_nbr nbr_nbr (fun _ => .dma (p1rS s)) N c
theorem cred_p2r (c : Dev nD) (i : Fin 15) :
    (Pipeline.launchCred (fun d => tallyAt (dcell (peer d (off i)) (p2rS (pairOf d))) () N) c : sProp 𝕄)
      ⊢ cred (tallyAt (dcell c (p2rS (pairOf (src c (off i))))) () N) :=
  launchCred_perm (fun d => peer d (off i)) (fun c => src c (off i)) (fun c => peer_src c (off i)) (fun d => src_peer d (off i)) (fun d => .dma (p2rS (pairOf d))) N c
theorem cred_barI (c : Dev nD) (i : Fin 15) :
    (Pipeline.launchCred (fun d => tallyAt (barCell (peer d (off i))) () 1) c : sProp 𝕄) ⊢ cred (tallyAt (barCell c) () 1) :=
  launchCred_perm (fun d => peer d (off i)) (fun c => src c (off i)) (fun c => peer_src c (off i)) (fun d => src_peer d (off i)) (fun _ => .reg barS) 1 c
theorem cred_bar0 (c : Dev nD) :
    (Pipeline.launchCred (fun d => tallyAt (barCell (nbr d)) () 1) c : sProp 𝕄) ⊢ cred (tallyAt (barCell c) () 1) :=
  launchCred_perm nbr nbr nbr_nbr nbr_nbr (fun _ => .reg barS) 1 c
theorem cred_join (g : GSem nD τ sig) (a b s : ℕ) (h : a + b = s) :
    iprop(cred (tallyAt g () a) ∗ cred (tallyAt g () b)) ⊢ (cred (tallyAt g () s) : sProp 𝕄) := by
  rw [← h, ← tallyAt_add]; exact (cred_add _ _).2

/-- The credit of what every device owes the receive cells of `c`: one copy's credit on each. -/
theorem cred_debt (c : Dev nD) : (Pipeline.launchCred (fun d => debt d 0) c : sProp 𝕄)
    ⊢ iprop(cred (tallyAt (dcell c (p2rS (pairOf (src c (off 14))))) () N)
      ∗ cred (tallyAt (dcell c (p2rS (pairOf (src c (off 13))))) () N)
      ∗ cred (tallyAt (dcell c (p2rS (pairOf (src c (off 12))))) () N)
      ∗ cred (tallyAt (dcell c (p2rS (pairOf (src c (off 11))))) () N)
      ∗ cred (tallyAt (dcell c (p2rS (pairOf (src c (off 10))))) () N)
      ∗ cred (tallyAt (dcell c (p2rS (pairOf (src c (off 9))))) () N)
      ∗ cred (tallyAt (dcell c (p2rS (pairOf (src c (off 8))))) () N)
      ∗ cred (tallyAt (dcell c (p2rS (pairOf (src c (off 7))))) () N)
      ∗ cred (tallyAt (dcell c (p2rS (pairOf (src c (off 6))))) () N)
      ∗ cred (tallyAt (dcell c (p2rS (pairOf (src c (off 5))))) () N)
      ∗ cred (tallyAt (dcell c (p2rS (pairOf (src c (off 4))))) () N)
      ∗ cred (tallyAt (dcell c (p2rS (pairOf (src c (off 3))))) () N)
      ∗ cred (tallyAt (dcell c (p2rS (pairOf (src c (off 2))))) () N)
      ∗ cred (tallyAt (dcell c (p2rS (pairOf (src c (off 1))))) () N)
      ∗ cred (tallyAt (dcell c (p2rS (pairOf (src c (off 0))))) () N)
      ∗ cred (tallyAt (dcell c (p1rS 15)) () N)
      ∗ cred (tallyAt (dcell c (p1rS 14)) () N)
      ∗ cred (tallyAt (dcell c (p1rS 13)) () N)
      ∗ cred (tallyAt (dcell c (p1rS 12)) () N)
      ∗ cred (tallyAt (dcell c (p1rS 11)) () N)
      ∗ cred (tallyAt (dcell c (p1rS 10)) () N)
      ∗ cred (tallyAt (dcell c (p1rS 9)) () N)
      ∗ cred (tallyAt (dcell c (p1rS 8)) () N)
      ∗ cred (tallyAt (dcell c (p1rS 7)) () N)
      ∗ cred (tallyAt (dcell c (p1rS 6)) () N)
      ∗ cred (tallyAt (dcell c (p1rS 5)) () N)
      ∗ cred (tallyAt (dcell c (p1rS 4)) () N)
      ∗ cred (tallyAt (dcell c (p1rS 3)) () N)
      ∗ cred (tallyAt (dcell c (p1rS 2)) () N)
      ∗ cred (tallyAt (dcell c (p1rS 1)) () N)
      ∗ cred (tallyAt (dcell c (p1rS 0)) () N)) := by
  have h : (fun d : Dev nD => debt d 0) = fun d => ∑ j ∈ Finset.range 31, tallyAt (debtCellOf d (30 - j)) () N := by
    funext d; unfold debt; rfl
  rw [h, Pipeline.launchCred_sum, bigSep_eq_bigSepL_of_eq (List.range 31) (by decide) (by decide)]
  show bigSepL [0, 1, 2, 3, 4, 5, 6, 7, 8, 9, 10, 11, 12, 13, 14, 15, 16, 17, 18, 19, 20, 21, 22, 23, 24, 25, 26, 27, 28, 29, 30] (fun j => (Pipeline.launchCred (fun d => tallyAt (debtCellOf d (30 - j)) () N) c : sProp 𝕄)) ⊢ _
  simp only [bigSepL_cons_cons, bigSepL_singleton]
  exact BI.sep_mono (cred_p2r c 14) (BI.sep_mono (cred_p2r c 13) (BI.sep_mono (cred_p2r c 12) (BI.sep_mono (cred_p2r c 11) (BI.sep_mono (cred_p2r c 10) (BI.sep_mono (cred_p2r c 9) (BI.sep_mono (cred_p2r c 8) (BI.sep_mono (cred_p2r c 7) (BI.sep_mono (cred_p2r c 6) (BI.sep_mono (cred_p2r c 5) (BI.sep_mono (cred_p2r c 4) (BI.sep_mono (cred_p2r c 3) (BI.sep_mono (cred_p2r c 2) (BI.sep_mono (cred_p2r c 1) (BI.sep_mono (cred_p2r c 0) (BI.sep_mono (cred_p1r c 15) (BI.sep_mono (cred_p1r c 14) (BI.sep_mono (cred_p1r c 13) (BI.sep_mono (cred_p1r c 12) (BI.sep_mono (cred_p1r c 11) (BI.sep_mono (cred_p1r c 10) (BI.sep_mono (cred_p1r c 9) (BI.sep_mono (cred_p1r c 8) (BI.sep_mono (cred_p1r c 7) (BI.sep_mono (cred_p1r c 6) (BI.sep_mono (cred_p1r c 5) (BI.sep_mono (cred_p1r c 4) (BI.sep_mono (cred_p1r c 3) (BI.sep_mono (cred_p1r c 2) (BI.sep_mono (cred_p1r c 1) (cred_p1r c 0))))))))))))))))))))))))))))))

theorem creds (c : Dev nD) : (Pipeline.launchCred O₀ c : sProp 𝕄) ⊢ credits (F := F) c := by
  show (Pipeline.launchCred (fun d => debt d 0 + tallyAt (barCell (peer d (off 14))) () 1 + tallyAt (barCell (peer d (off 13))) () 1 + tallyAt (barCell (peer d (off 12))) () 1 + tallyAt (barCell (peer d (off 11))) () 1 + tallyAt (barCell (peer d (off 10))) () 1 + tallyAt (barCell (peer d (off 9))) () 1 + tallyAt (barCell (peer d (off 8))) () 1 + tallyAt (barCell (peer d (off 7))) () 1 + tallyAt (barCell (peer d (off 6))) () 1 + tallyAt (barCell (peer d (off 5))) () 1 + tallyAt (barCell (peer d (off 4))) () 1 + tallyAt (barCell (peer d (off 3))) () 1 + tallyAt (barCell (peer d (off 2))) () 1 + tallyAt (barCell (peer d (off 1))) () 1 + tallyAt (barCell (peer d (off 0))) () 1 + tallyAt (barCell (nbr d)) () 1) c : sProp 𝕄) ⊢ _
  rw [Pipeline.launchCred_add, Pipeline.launchCred_add, Pipeline.launchCred_add, Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_add, Pipeline.launchCred_add, Pipeline.launchCred_add, Pipeline.launchCred_add]
  unfold credits
  iintro ⟨⟨⟨⟨⟨⟨⟨⟨⟨⟨⟨⟨⟨⟨⟨⟨HD, B14⟩, B13⟩, B12⟩, B11⟩, B10⟩, B9⟩, B8⟩, B7⟩, B6⟩, B5⟩, B4⟩, B3⟩, B2⟩, B1⟩, B0⟩, Bn⟩
  ihave HD' := (cred_debt (F := F) c) $$ HD
  icases HD' with ⟨R14, R13, R12, R11, R10, R9, R8, R7, R6, R5, R4, R3, R2, R1, R0, P15, P14, P13, P12, P11, P10, P9, P8, P7, P6, P5, P4, P3, P2, P1, P0⟩
  ihave Cn := (cred_bar0 (F := F) c) $$ Bn
  ihave C0 := (cred_barI (F := F) c 0) $$ B0
  ihave C1 := (cred_barI (F := F) c 1) $$ B1
  ihave C2 := (cred_barI (F := F) c 2) $$ B2
  ihave C3 := (cred_barI (F := F) c 3) $$ B3
  ihave C4 := (cred_barI (F := F) c 4) $$ B4
  ihave C5 := (cred_barI (F := F) c 5) $$ B5
  ihave C6 := (cred_barI (F := F) c 6) $$ B6
  ihave C7 := (cred_barI (F := F) c 7) $$ B7
  ihave C8 := (cred_barI (F := F) c 8) $$ B8
  ihave C9 := (cred_barI (F := F) c 9) $$ B9
  ihave C10 := (cred_barI (F := F) c 10) $$ B10
  ihave C11 := (cred_barI (F := F) c 11) $$ B11
  ihave C12 := (cred_barI (F := F) c 12) $$ B12
  ihave C13 := (cred_barI (F := F) c 13) $$ B13
  ihave C14 := (cred_barI (F := F) c 14) $$ B14
  ihave A2 := (cred_join (F := F) (barCell c) 1 1 2 rfl) $$ [Cn C0]
  · isplitl [Cn]; · iexact Cn
    iexact C0
  ihave A3 := (cred_join (F := F) (barCell c) 2 1 3 rfl) $$ [A2 C1]
  · isplitl [A2]; · iexact A2
    iexact C1
  ihave A4 := (cred_join (F := F) (barCell c) 3 1 4 rfl) $$ [A3 C2]
  · isplitl [A3]; · iexact A3
    iexact C2
  ihave A5 := (cred_join (F := F) (barCell c) 4 1 5 rfl) $$ [A4 C3]
  · isplitl [A4]; · iexact A4
    iexact C3
  ihave A6 := (cred_join (F := F) (barCell c) 5 1 6 rfl) $$ [A5 C4]
  · isplitl [A5]; · iexact A5
    iexact C4
  ihave A7 := (cred_join (F := F) (barCell c) 6 1 7 rfl) $$ [A6 C5]
  · isplitl [A6]; · iexact A6
    iexact C5
  ihave A8 := (cred_join (F := F) (barCell c) 7 1 8 rfl) $$ [A7 C6]
  · isplitl [A7]; · iexact A7
    iexact C6
  ihave A9 := (cred_join (F := F) (barCell c) 8 1 9 rfl) $$ [A8 C7]
  · isplitl [A8]; · iexact A8
    iexact C7
  ihave A10 := (cred_join (F := F) (barCell c) 9 1 10 rfl) $$ [A9 C8]
  · isplitl [A9]; · iexact A9
    iexact C8
  ihave A11 := (cred_join (F := F) (barCell c) 10 1 11 rfl) $$ [A10 C9]
  · isplitl [A10]; · iexact A10
    iexact C9
  ihave A12 := (cred_join (F := F) (barCell c) 11 1 12 rfl) $$ [A11 C10]
  · isplitl [A11]; · iexact A11
    iexact C10
  ihave A13 := (cred_join (F := F) (barCell c) 12 1 13 rfl) $$ [A12 C11]
  · isplitl [A12]; · iexact A12
    iexact C11
  ihave A14 := (cred_join (F := F) (barCell c) 13 1 14 rfl) $$ [A13 C12]
  · isplitl [A13]; · iexact A13
    iexact C12
  ihave A15 := (cred_join (F := F) (barCell c) 14 1 15 rfl) $$ [A14 C13]
  · isplitl [A14]; · iexact A14
    iexact C13
  ihave A16 := (cred_join (F := F) (barCell c) 15 1 16 rfl) $$ [A15 C14]
  · isplitl [A15]; · iexact A15
    iexact C14
  isplitl [A16]; · iexact A16
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  isplitl [P14]; · iexact P14
  isplitl [P15]; · iexact P15
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iexact R14

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost' (c : Dev nD) : sProp 𝕄 :=
  iprop(Φ₁ c ∗ (dats m 0 c).owesAt () t₀.succ ∗ stg c cc0_stg0_0 (xstg m c) ∗ stg c cc0_stg1_0 (wstg m c) ∗ stg c cc0_stg2_0 (outAt m c))

theorem pick5 {A X1 X2 X3 X4 X5 : sProp 𝕄} : iprop(X1 ∗ X2 ∗ X3 ∗ X4 ∗ (A ∗ X5)) ⊢ iprop(A ∗ (X1 ∗ X2 ∗ X3 ∗ X4 ∗ X5)) := by
  iintro ⟨H1, H2, H3, H4, ⟨HA, H5⟩⟩
  isplitl [HA]; · iexact HA
  isplitl [H1]; · iexact H1
  isplitl [H2]; · iexact H2
  isplitl [H3]; · iexact H3
  isplitl [H4]; · iexact H4
  iexact H5
theorem pick5L {A X1 X2 X3 X4 : sProp 𝕄} : iprop(X1 ∗ X2 ∗ X3 ∗ X4 ∗ A) ⊢ iprop(A ∗ (X1 ∗ X2 ∗ X3 ∗ X4 ∗ emp)) := by
  iintro ⟨H1, H2, H3, H4, HA⟩
  isplitl [HA]; · iexact HA
  isplitl [H1]; · iexact H1
  isplitl [H2]; · iexact H2
  isplitl [H3]; · iexact H3
  isplitl [H4]; · iexact H4
  iempintro
theorem dealFin2 {A : sProp 𝕄} : iprop(emp ∗ A ∗ emp ∗ emp ∗ emp) ⊢ A := by
  iintro ⟨-, HA, -, -, -⟩; iexact HA

/-- The start's buffers from the four scratch buffers' slots, in the order the body takes them, and the three staging buffers. -/
theorem buffers_of_parts (c : Dev nD) (fx : Buf (Elt F) ((Memref.whole cc0_stg0_0 : Memref sig .tc .vmem S1024x32 .f32).view.loc (c : Thread nD τ))) (fw : Buf (Elt F) ((Memref.whole cc0_stg1_0 : Memref sig .tc .vmem S32x1024 .f32).view.loc (c : Thread nD τ))) (fo : Buf (Elt F) ((Memref.whole cc0_stg2_0 : Memref sig .tc .vmem S32x1024 .f32).view.loc (c : Thread nD τ)))
    (f0 : Buf (Elt F) (stageM.view.loc (c : Thread nD τ))) (f1 : Buf (Elt F) (inboxM.view.loc (c : Thread nD τ))) (f2 : Buf (Elt F) (outboxM.view.loc (c : Thread nD τ))) (f3 : Buf (Elt F) (gatherM.view.loc (c : Thread nD τ))) :
    iprop(((((c : Thread nD τ).loc cc0_scratch1) ↦[slotSet_inbox 0]{fullShare} f1)
      ∗ (((c : Thread nD τ).loc cc0_scratch1) ↦[slotSet_inbox 1]{fullShare} f1)
      ∗ (((c : Thread nD τ).loc cc0_scratch1) ↦[slotSet_inbox 2]{fullShare} f1)
      ∗ (((c : Thread nD τ).loc cc0_scratch1) ↦[slotSet_inbox 3]{fullShare} f1)
      ∗ (((c : Thread nD τ).loc cc0_scratch1) ↦[slotSet_inbox 4]{fullShare} f1)
      ∗ (((c : Thread nD τ).loc cc0_scratch1) ↦[slotSet_inbox 5]{fullShare} f1)
      ∗ (((c : Thread nD τ).loc cc0_scratch1) ↦[slotSet_inbox 6]{fullShare} f1)
      ∗ (((c : Thread nD τ).loc cc0_scratch1) ↦[slotSet_inbox 7]{fullShare} f1)
      ∗ (((c : Thread nD τ).loc cc0_scratch1) ↦[slotSet_inbox 8]{fullShare} f1)
      ∗ (((c : Thread nD τ).loc cc0_scratch1) ↦[slotSet_inbox 9]{fullShare} f1)
      ∗ (((c : Thread nD τ).loc cc0_scratch1) ↦[slotSet_inbox 10]{fullShare} f1)
      ∗ (((c : Thread nD τ).loc cc0_scratch1) ↦[slotSet_inbox 11]{fullShare} f1)
      ∗ (((c : Thread nD τ).loc cc0_scratch1) ↦[slotSet_inbox 12]{fullShare} f1)
      ∗ (((c : Thread nD τ).loc cc0_scratch1) ↦[slotSet_inbox 13]{fullShare} f1)
      ∗ (((c : Thread nD τ).loc cc0_scratch1) ↦[slotSet_inbox 14]{fullShare} f1)
      ∗ (((c : Thread nD τ).loc cc0_scratch1) ↦[slotSet_inbox 15]{fullShare} f1))
      ∗ ((((c : Thread nD τ).loc cc0_scratch3) ↦[slotSet_gather (pgE c 0)]{fullShare} f3)
      ∗ (((c : Thread nD τ).loc cc0_scratch3) ↦[slotSet_gather (pgE c 1)]{fullShare} f3)
      ∗ (((c : Thread nD τ).loc cc0_scratch3) ↦[slotSet_gather (pgE c 2)]{fullShare} f3)
      ∗ (((c : Thread nD τ).loc cc0_scratch3) ↦[slotSet_gather (pgE c 3)]{fullShare} f3)
      ∗ (((c : Thread nD τ).loc cc0_scratch3) ↦[slotSet_gather (pgE c 4)]{fullShare} f3)
      ∗ (((c : Thread nD τ).loc cc0_scratch3) ↦[slotSet_gather (pgE c 5)]{fullShare} f3)
      ∗ (((c : Thread nD τ).loc cc0_scratch3) ↦[slotSet_gather (pgE c 6)]{fullShare} f3)
      ∗ (((c : Thread nD τ).loc cc0_scratch3) ↦[slotSet_gather (pgE c 7)]{fullShare} f3)
      ∗ (((c : Thread nD τ).loc cc0_scratch3) ↦[slotSet_gather (pgE c 8)]{fullShare} f3)
      ∗ (((c : Thread nD τ).loc cc0_scratch3) ↦[slotSet_gather (pgE c 9)]{fullShare} f3)
      ∗ (((c : Thread nD τ).loc cc0_scratch3) ↦[slotSet_gather (pgE c 10)]{fullShare} f3)
      ∗ (((c : Thread nD τ).loc cc0_scratch3) ↦[slotSet_gather (pgE c 11)]{fullShare} f3)
      ∗ (((c : Thread nD τ).loc cc0_scratch3) ↦[slotSet_gather (pgE c 12)]{fullShare} f3)
      ∗ (((c : Thread nD τ).loc cc0_scratch3) ↦[slotSet_gather (pgE c 13)]{fullShare} f3)
      ∗ (((c : Thread nD τ).loc cc0_scratch3) ↦[slotSet_gather (pgE c 14)]{fullShare} f3)
      ∗ (((c : Thread nD τ).loc cc0_scratch3) ↦[slotSet_gather (pgE c 15)]{fullShare} f3))
      ∗ ((((c : Thread nD τ).loc cc0_scratch0) ↦[slotSet_stage 0]{fullShare} f0)
      ∗ (((c : Thread nD τ).loc cc0_scratch0) ↦[slotSet_stage 1]{fullShare} f0)
      ∗ (((c : Thread nD τ).loc cc0_scratch0) ↦[slotSet_stage 2]{fullShare} f0)
      ∗ (((c : Thread nD τ).loc cc0_scratch0) ↦[slotSet_stage 3]{fullShare} f0)
      ∗ (((c : Thread nD τ).loc cc0_scratch0) ↦[slotSet_stage 4]{fullShare} f0)
      ∗ (((c : Thread nD τ).loc cc0_scratch0) ↦[slotSet_stage 5]{fullShare} f0)
      ∗ (((c : Thread nD τ).loc cc0_scratch0) ↦[slotSet_stage 6]{fullShare} f0)
      ∗ (((c : Thread nD τ).loc cc0_scratch0) ↦[slotSet_stage 7]{fullShare} f0)
      ∗ (((c : Thread nD τ).loc cc0_scratch0) ↦[slotSet_stage 8]{fullShare} f0)
      ∗ (((c : Thread nD τ).loc cc0_scratch0) ↦[slotSet_stage 9]{fullShare} f0)
      ∗ (((c : Thread nD τ).loc cc0_scratch0) ↦[slotSet_stage 10]{fullShare} f0)
      ∗ (((c : Thread nD τ).loc cc0_scratch0) ↦[slotSet_stage 11]{fullShare} f0)
      ∗ (((c : Thread nD τ).loc cc0_scratch0) ↦[slotSet_stage 12]{fullShare} f0)
      ∗ (((c : Thread nD τ).loc cc0_scratch0) ↦[slotSet_stage 13]{fullShare} f0)
      ∗ (((c : Thread nD τ).loc cc0_scratch0) ↦[slotSet_stage 14]{fullShare} f0)
      ∗ (((c : Thread nD τ).loc cc0_scratch0) ↦[slotSet_stage 15]{fullShare} f0))
      ∗ ((((c : Thread nD τ).loc cc0_scratch2) ↦[slotSet_outbox 0]{fullShare} f2)
      ∗ (((c : Thread nD τ).loc cc0_scratch2) ↦[slotSet_outbox 1]{fullShare} f2)
      ∗ (((c : Thread nD τ).loc cc0_scratch2) ↦[slotSet_outbox 2]{fullShare} f2)
      ∗ (((c : Thread nD τ).loc cc0_scratch2) ↦[slotSet_outbox 3]{fullShare} f2)
      ∗ (((c : Thread nD τ).loc cc0_scratch2) ↦[slotSet_outbox 4]{fullShare} f2)
      ∗ (((c : Thread nD τ).loc cc0_scratch2) ↦[slotSet_outbox 5]{fullShare} f2)
      ∗ (((c : Thread nD τ).loc cc0_scratch2) ↦[slotSet_outbox 6]{fullShare} f2)
      ∗ (((c : Thread nD τ).loc cc0_scratch2) ↦[slotSet_outbox 7]{fullShare} f2)
      ∗ (((c : Thread nD τ).loc cc0_scratch2) ↦[slotSet_outbox 8]{fullShare} f2)
      ∗ (((c : Thread nD τ).loc cc0_scratch2) ↦[slotSet_outbox 9]{fullShare} f2)
      ∗ (((c : Thread nD τ).loc cc0_scratch2) ↦[slotSet_outbox 10]{fullShare} f2)
      ∗ (((c : Thread nD τ).loc cc0_scratch2) ↦[slotSet_outbox 11]{fullShare} f2)
      ∗ (((c : Thread nD τ).loc cc0_scratch2) ↦[slotSet_outbox 12]{fullShare} f2)
      ∗ (((c : Thread nD τ).loc cc0_scratch2) ↦[slotSet_outbox 13]{fullShare} f2)
      ∗ (((c : Thread nD τ).loc cc0_scratch2) ↦[slotSet_outbox 14]{fullShare} f2))
      ∗ ((((c : Thread nD τ).loc cc0_stg0_0) ↦{fullShare} fx) ∗ (((c : Thread nD τ).loc cc0_stg1_0) ↦{fullShare} fw) ∗ (((c : Thread nD τ).loc cc0_stg2_0) ↦{fullShare} fo)))
      ⊢ buffers c fx fw fo f0 f1 f2 f3 := by
  unfold buffers
  simp only [Memref.view_whole, View.set_whole]
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1L putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3L putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4L putEnd ?_
  refine deal pick5 putEnd ?_
  refine deal pick5 putEnd ?_
  refine deal pick5L putEnd ?_
  exact dealFin2

/-- The scratch buffers cut into their slots. -/
theorem scr4_cut (c : Dev nD) (fx : Buf (Elt F) ((Memref.whole cc0_stg0_0 : Memref sig .tc .vmem S1024x32 .f32).view.loc (c : Thread nD τ)))
    (fw : Buf (Elt F) ((Memref.whole cc0_stg1_0 : Memref sig .tc .vmem S32x1024 .f32).view.loc (c : Thread nD τ)))
    (fo : Buf (Elt F) ((Memref.whole cc0_stg2_0 : Memref sig .tc .vmem S32x1024 .f32).view.loc (c : Thread nD τ))) :
    iprop(scr4 (F := F) c ∗ (((c : Thread nD τ).loc cc0_stg0_0) ↦{fullShare} fx) ∗ (((c : Thread nD τ).loc cc0_stg1_0) ↦{fullShare} fw) ∗ (((c : Thread nD τ).loc cc0_stg2_0) ↦{fullShare} fo))
      ⊢ iprop(∃ f0 f1 f2 f3, buffers c fx fw fo f0 f1 f2 f3) := by
  unfold scr4
  iintro ⟨⟨⟨%f0, H0⟩, ⟨%f1, H1⟩, ⟨%f2, H2⟩, ⟨%f3, H3⟩⟩, Hx, Hw, Ho⟩
  iexists f0; iexists f1; iexists f2; iexists f3
  iapply (buffers_of_parts c fx fw fo f0 f1 f2 f3)
  isplitl [H1]
  · iapply (Entails.of_eq ((cut_inbox c f1).trans (bigSep_fin16 _))); iexact H1
  isplitl [H3]
  · iapply (Entails.of_eq (((cut_gather c f3).trans (bigSep_univ_equiv (pgE c) _)).trans (bigSep_fin16 _))); iexact H3
  isplitl [H0]
  · iapply (Entails.of_eq ((cut_stage c f0).trans (bigSep_fin16 _))); iexact H0
  isplitl [H2]
  · iapply (Entails.of_eq ((cut_outbox c f2).trans (bigSep_fin15 _))); iexact H2
  isplitl [Hx]; · iexact Hx
  isplitl [Hw]; · iexact Hw
  iexact Ho

/-- The start regrouped by the stretch of the body that uses each piece. -/
theorem bodyPre_intro (κ : GSem nD τ sig → ℕ) (c : Dev nD) (W : Waits sig Unit) (fx fw fo f0 f1 f2 f3) :
    iprop(ghost m κ c ∗ credits c ∗ mayWaits c ∗ buffers c fx fw fo f0 f1 f2 f3 ∗ owes (c : Thread nD τ) (O₀ c) W)
      ⊢ bodyPre m κ c W fx fw fo f0 f1 f2 f3 := by
  unfold bodyPre gBar gP1_0 gP1_1 gP1_2 gP1_3 gP1_4 gP1_5 gP1_6 gP1_7 gP1_8 gP1_9 gP1_10 gP1_11 gP1_12 gP1_13 gP1_14 gP1_15 gP2_0 gP2_1 gP2_2 gP2_3 gP2_4 gP2_5 gP2_6 gP2_7 gP2_8 gP2_9 gP2_10 gP2_11 gP2_12 gP2_13 gP2_14 gP1last gFin_0 gFin_1 gFin_2 gFin_3 gFin_4 gFin_5 gFin_6 gFin_7 gFin_8 gFin_9 gFin_10 gFin_11 gFin_12 gFin_13 gFin_14 gMisc ghost credits mayWaits buffers
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick1 putMid ?_
  refine deal pick2 putMid ?_
  refine deal pick3 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3L putMid ?_
  refine deal pick1 putMid ?_
  refine deal pick1 putMid ?_
  refine deal pick1 putMid ?_
  refine deal pick4 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2L putEnd ?_
  refine deal pick1 putEnd ?_
  refine deal pick1L putEnd ?_
  refine deal pick4 putEnd ?_
  refine deal pick4 putEnd ?_
  refine deal pick4 putEnd ?_
  refine deal pick4L putEnd ?_
  exact dealFin

theorem ownSems0_chain (c : Dev nD) :
    (Pipeline.ownSems0 (Ix := Unit) (Name := ℕ) (U := UU) (Lvl := ℕ) (Val := Elt F) (τ := τ) osem c : sProp 𝕄)
      = iprop((semVal (dcell c (p1sS 0)) 0 ∗ semVal (dcell c (p1sS 1)) 0 ∗ semVal (dcell c (p1sS 2)) 0 ∗ semVal (dcell c (p1sS 3)) 0 ∗ semVal (dcell c (p1sS 4)) 0 ∗ semVal (dcell c (p1sS 5)) 0 ∗ semVal (dcell c (p1sS 6)) 0 ∗ semVal (dcell c (p1sS 7)) 0 ∗ semVal (dcell c (p1sS 8)) 0 ∗ semVal (dcell c (p1sS 9)) 0 ∗ semVal (dcell c (p1sS 10)) 0 ∗ semVal (dcell c (p1sS 11)) 0 ∗ semVal (dcell c (p1sS 12)) 0 ∗ semVal (dcell c (p1sS 13)) 0 ∗ semVal (dcell c (p1sS 14)) 0 ∗ semVal (dcell c (p1sS 15)) 0)
        ∗ (semVal (dcell c (p1rS 0)) 0 ∗ semVal (dcell c (p1rS 1)) 0 ∗ semVal (dcell c (p1rS 2)) 0 ∗ semVal (dcell c (p1rS 3)) 0 ∗ semVal (dcell c (p1rS 4)) 0 ∗ semVal (dcell c (p1rS 5)) 0 ∗ semVal (dcell c (p1rS 6)) 0 ∗ semVal (dcell c (p1rS 7)) 0 ∗ semVal (dcell c (p1rS 8)) 0 ∗ semVal (dcell c (p1rS 9)) 0 ∗ semVal (dcell c (p1rS 10)) 0 ∗ semVal (dcell c (p1rS 11)) 0 ∗ semVal (dcell c (p1rS 12)) 0 ∗ semVal (dcell c (p1rS 13)) 0 ∗ semVal (dcell c (p1rS 14)) 0 ∗ semVal (dcell c (p1rS 15)) 0)
        ∗ (semVal (dcell c (p2sS 0)) 0 ∗ semVal (dcell c (p2sS 1)) 0 ∗ semVal (dcell c (p2sS 2)) 0 ∗ semVal (dcell c (p2sS 3)) 0 ∗ semVal (dcell c (p2sS 4)) 0 ∗ semVal (dcell c (p2sS 5)) 0 ∗ semVal (dcell c (p2sS 6)) 0 ∗ semVal (dcell c (p2sS 7)) 0 ∗ semVal (dcell c (p2sS 8)) 0 ∗ semVal (dcell c (p2sS 9)) 0 ∗ semVal (dcell c (p2sS 10)) 0 ∗ semVal (dcell c (p2sS 11)) 0 ∗ semVal (dcell c (p2sS 12)) 0 ∗ semVal (dcell c (p2sS 13)) 0 ∗ semVal (dcell c (p2sS 14)) 0)
        ∗ (semVal (dcell c (p2rS (sg c 0))) 0 ∗ semVal (dcell c (p2rS (sg c 1))) 0 ∗ semVal (dcell c (p2rS (sg c 2))) 0 ∗ semVal (dcell c (p2rS (sg c 3))) 0 ∗ semVal (dcell c (p2rS (sg c 4))) 0 ∗ semVal (dcell c (p2rS (sg c 5))) 0 ∗ semVal (dcell c (p2rS (sg c 6))) 0 ∗ semVal (dcell c (p2rS (sg c 7))) 0 ∗ semVal (dcell c (p2rS (sg c 8))) 0 ∗ semVal (dcell c (p2rS (sg c 9))) 0 ∗ semVal (dcell c (p2rS (sg c 10))) 0 ∗ semVal (dcell c (p2rS (sg c 11))) 0 ∗ semVal (dcell c (p2rS (sg c 12))) 0 ∗ semVal (dcell c (p2rS (sg c 13))) 0 ∗ semVal (dcell c (p2rS (sg c 14))) 0 ∗ semVal (dcell c (p2rS (sg c 15))) 0)) := by
  unfold Pipeline.ownSems0
  rw [bigSep_DI, bigSep_univ_equiv (sgE c) (fun k : Fin 16 => (semVal ((c : Thread nD τ), osem (.inr (.inr (.inr k)))) 0 : sProp 𝕄))]
  simp only [bigSep_fin15, bigSep_fin16]
  rfl

/-- What the body leaves, as the pipeline takes it back. -/
theorem post_exit (c : Dev nD) : bodyPost m c (xstg m c) (wstg m c) ⊢ bodyPost' m c := by
  unfold bodyPost bodyPost' Φ₁ scr4
  rw [ownSems0_chain]
  simp only [Memref.view_whole, View.set_whole]
  iintro ⟨Hout, Hx, Hw, H0, H1, H2, H3, Sa0, Sa1, Sa2, Sa3, Sa4, Sa5, Sa6, Sa7, Sa8, Sa9, Sa10, Sa11, Sa12, Sa13, Sa14, Sa15, Sb0, Sb1, Sb2, Sb3, Sb4, Sb5, Sb6, Sb7, Sb8, Sb9, Sb10, Sb11, Sb12, Sb13, Sb14, Sb15, Sc0, Sc1, Sc2, Sc3, Sc4, Sc5, Sc6, Sc7, Sc8, Sc9, Sc10, Sc11, Sc12, Sc13, Sc14, Sd0, Sd1, Sd2, Sd3, Sd4, Sd5, Sd6, Sd7, Sd8, Sd9, Sd10, Sd11, Sd12, Sd13, Sd14, Sd15, ⟨%W, HO⟩⟩
  isplitl [H0 H1 H2 H3 Sa0 Sa1 Sa2 Sa3 Sa4 Sa5 Sa6 Sa7 Sa8 Sa9 Sa10 Sa11 Sa12 Sa13 Sa14 Sa15 Sb0 Sb1 Sb2 Sb3 Sb4 Sb5 Sb6 Sb7 Sb8 Sb9 Sb10 Sb11 Sb12 Sb13 Sb14 Sb15 Sc0 Sc1 Sc2 Sc3 Sc4 Sc5 Sc6 Sc7 Sc8 Sc9 Sc10 Sc11 Sc12 Sc13 Sc14 Sd0 Sd1 Sd2 Sd3 Sd4 Sd5 Sd6 Sd7 Sd8 Sd9 Sd10 Sd11 Sd12 Sd13 Sd14 Sd15]
  · isplitl [Sa0 Sa1 Sa2 Sa3 Sa4 Sa5 Sa6 Sa7 Sa8 Sa9 Sa10 Sa11 Sa12 Sa13 Sa14 Sa15 Sb0 Sb1 Sb2 Sb3 Sb4 Sb5 Sb6 Sb7 Sb8 Sb9 Sb10 Sb11 Sb12 Sb13 Sb14 Sb15 Sc0 Sc1 Sc2 Sc3 Sc4 Sc5 Sc6 Sc7 Sc8 Sc9 Sc10 Sc11 Sc12 Sc13 Sc14 Sd0 Sd1 Sd2 Sd3 Sd4 Sd5 Sd6 Sd7 Sd8 Sd9 Sd10 Sd11 Sd12 Sd13 Sd14 Sd15]
    · isplitl [Sa0 Sa1 Sa2 Sa3 Sa4 Sa5 Sa6 Sa7 Sa8 Sa9 Sa10 Sa11 Sa12 Sa13 Sa14 Sa15]
      ·
        isplitl [Sa0]; · iexact Sa0
        isplitl [Sa1]; · iexact Sa1
        isplitl [Sa2]; · iexact Sa2
        isplitl [Sa3]; · iexact Sa3
        isplitl [Sa4]; · iexact Sa4
        isplitl [Sa5]; · iexact Sa5
        isplitl [Sa6]; · iexact Sa6
        isplitl [Sa7]; · iexact Sa7
        isplitl [Sa8]; · iexact Sa8
        isplitl [Sa9]; · iexact Sa9
        isplitl [Sa10]; · iexact Sa10
        isplitl [Sa11]; · iexact Sa11
        isplitl [Sa12]; · iexact Sa12
        isplitl [Sa13]; · iexact Sa13
        isplitl [Sa14]; · iexact Sa14
        iexact Sa15
      isplitl [Sb0 Sb1 Sb2 Sb3 Sb4 Sb5 Sb6 Sb7 Sb8 Sb9 Sb10 Sb11 Sb12 Sb13 Sb14 Sb15]
      ·
        isplitl [Sb0]; · iexact Sb0
        isplitl [Sb1]; · iexact Sb1
        isplitl [Sb2]; · iexact Sb2
        isplitl [Sb3]; · iexact Sb3
        isplitl [Sb4]; · iexact Sb4
        isplitl [Sb5]; · iexact Sb5
        isplitl [Sb6]; · iexact Sb6
        isplitl [Sb7]; · iexact Sb7
        isplitl [Sb8]; · iexact Sb8
        isplitl [Sb9]; · iexact Sb9
        isplitl [Sb10]; · iexact Sb10
        isplitl [Sb11]; · iexact Sb11
        isplitl [Sb12]; · iexact Sb12
        isplitl [Sb13]; · iexact Sb13
        isplitl [Sb14]; · iexact Sb14
        iexact Sb15
      isplitl [Sc0 Sc1 Sc2 Sc3 Sc4 Sc5 Sc6 Sc7 Sc8 Sc9 Sc10 Sc11 Sc12 Sc13 Sc14]
      ·
        isplitl [Sc0]; · iexact Sc0
        isplitl [Sc1]; · iexact Sc1
        isplitl [Sc2]; · iexact Sc2
        isplitl [Sc3]; · iexact Sc3
        isplitl [Sc4]; · iexact Sc4
        isplitl [Sc5]; · iexact Sc5
        isplitl [Sc6]; · iexact Sc6
        isplitl [Sc7]; · iexact Sc7
        isplitl [Sc8]; · iexact Sc8
        isplitl [Sc9]; · iexact Sc9
        isplitl [Sc10]; · iexact Sc10
        isplitl [Sc11]; · iexact Sc11
        isplitl [Sc12]; · iexact Sc12
        isplitl [Sc13]; · iexact Sc13
        iexact Sc14
      isplitl [Sd0]; · iexact Sd0
      isplitl [Sd1]; · iexact Sd1
      isplitl [Sd2]; · iexact Sd2
      isplitl [Sd3]; · iexact Sd3
      isplitl [Sd4]; · iexact Sd4
      isplitl [Sd5]; · iexact Sd5
      isplitl [Sd6]; · iexact Sd6
      isplitl [Sd7]; · iexact Sd7
      isplitl [Sd8]; · iexact Sd8
      isplitl [Sd9]; · iexact Sd9
      isplitl [Sd10]; · iexact Sd10
      isplitl [Sd11]; · iexact Sd11
      isplitl [Sd12]; · iexact Sd12
      isplitl [Sd13]; · iexact Sd13
      isplitl [Sd14]; · iexact Sd14
      iexact Sd15
    · isplitl [H0]; · iexact H0
      isplitl [H1]; · iexact H1
      isplitl [H2]; · iexact H2
      iexact H3
  isplitl [HO]
  · unfold Dat.owesAt Pipeline.owesWithin
    rw [show (dats m 0 c).owed t₀.succ = 0 from rfl]
    iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem fetch_0 (t : Fin cfg0.N) : (cfg0.win (0 : Fin 3)).fetch t = true := fetch0_0 t
theorem fetch_1 (t : Fin cfg0.N) : (cfg0.win (1 : Fin 3)).fetch t = true := fetch0_1 t

/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7) (fun _ => bodyPost' m c)
  unfold bodyPre' Φ₀ start
  iintro ⟨⟨⟨⟨%κ, Hg⟩, Hcr, #Hlev⟩, Hscr⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch_0 t₀)]; rfl
  have hw : g1 = wstg m c := by rw [hg1]; unfold Dat.before; rw [if_pos (fetch_1 t₀)]; rfl
  subst hx; subst hw
  unfold Dat.owesAt Pipeline.owesWithin
  icases Ho with ⟨%W, %hW, HO⟩
  rw [show (dats m 0 c).owed t₀.castSucc = O₀ c from rfl]
  ihave Hb := (scr4_cut c (xstg m c) (wstg m c) g2) $$ [Hscr Hx Hw Hout]
  · isplitl [Hscr]; · iexact Hscr
    isplitl [Hx]; · iexact Hx
    isplitl [Hw]; · iexact Hw
    iexact Hout
  icases Hb with ⟨%f0, %f1, %f2, %f3, Hb⟩
  iapply (sound_body m κ c W g2 f0 f1 f2 f3 fun _ => bodyPost' m c)
  isplitr []
  · iapply (bodyPre_intro m κ c W (xstg m c) (wstg m c) g2 f0 f1 f2 f3)
    isplitl [Hg]; · iexact Hg
    isplitl [Hcr]; · iexact Hcr
    isplitr; · iapply (mayWaits_intro c); iexact Hlev
    isplitl [Hb]; · iexact Hb
    iexact HO
  · iintro H; iapply (post_exit m c); iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr4
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scr4
  iintro ⟨Hs, Hr⟩
  isplitr; · iempintro
  isplitl [Hs]; · iexact Hs
  iexact Hr

/-! ## The run -/

/-- What the flush of a device's result leaves in its result array. -/
def finalOut (c : Dev nD) : Buf (Elt F) ((c : Thread nD τ).loc main_v1) :=
  (win0_2.blk (0 : Fin 1)).view.write (Elt F) (m ((c : Thread nD τ).loc main_v1)) (outAt m c) Finset.univ

/-- At the compiled mesh of 32 devices, for any float values, from any memory with zero counters: every weakly fair
    execution of @main terminates, and every final state has each device's result array at the computed contents
    and its two argument arrays unchanged. -/
theorem run_main : θ_run defs (onTc (τ := τ) (main (F := F))) ⟨m, fun _ => 0, ρ⟩ (fun r => ∀ c : Dev nD,
      r.2.mem ((c.tc : Thread nD τ).loc main_v1) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => by
      refine ⟨?_, ?_, ?_⟩
      · refine ((h c).1 (2 : Fin 3)).trans ?_
        have h1 := (dats m 0 c).arrAt_succ (2 : Fin 3) t₀
        rw [if_pos (flush0_2 t₀)] at h1
        exact h1
      · exact ((h c).1 (0 : Fin 3)).trans ((dats m 0 c).arrAt_in (0 : Fin 3) rfl _)
      · exact ((h c).1 (1 : Fin 3)).trans ((dats m 0 c).arrAt_in (1 : Fin 3) rfl _))

end Launch

end Cert.KernelIdeal.Proto

end
-- ==== Proof.TopoK.lean ====
/-
  The mesh of this kernel, as arithmetic on the device's number, and the printed device and offset
  chains in closed form.

  The 32 devices are 16 pairs.  Device `c` sits in pair `rr c` (0..15) on side `xx c` (0 or 1);
  `gg r x` is the device of pair `r` on side `x`, so `gg (rr c) (xx c) = c`.  The partner of `c`
  is the other device of its pair.  For an offset `o` the device `o` pairs further on the same
  side is `peerN c o`, the one on the other side `crossN c o`; `srcN c o` is the device `o`
  pairs back on the same side, the one whose `peerN · o` is `c`.
-/
import proofs.«900440_g7700000000000441_dist_gemm_rs_m1024_k1024_n1024_f32_none_v7x_i32_1_alg».proof.Proof.Gen.Kernel
import proofs.«900440_g7700000000000441_dist_gemm_rs_m1024_k1024_n1024_f32_none_v7x_i32_1_alg».proof.Proof.Topo

set_option Elab.async false

namespace Cert.Kernel.Topo

open Idealize.ShloMosaic Cert.Kernel Cert.Kernel.Gen Cert.Mesh

/-! ## The printed device chains -/

theorem k0_dev1_eq : ∀ c : Dev nD, k0_dev1 c = nbrN c.val := by decide +kernel
theorem k0_dev2_eq : ∀ c : Dev nD, k0_dev2 c = peerN c.val 8 := by decide +kernel
theorem k0_dev3_eq : ∀ c : Dev nD, k0_dev3 c = peerN c.val 7 := by decide +kernel
theorem k0_dev4_eq : ∀ c : Dev nD, k0_dev4 c = peerN c.val 9 := by decide +kernel
theorem k0_dev5_eq : ∀ c : Dev nD, k0_dev5 c = peerN c.val 6 := by decide +kernel
theorem k0_dev6_eq : ∀ c : Dev nD, k0_dev6 c = peerN c.val 10 := by decide +kernel
theorem k0_dev7_eq : ∀ c : Dev nD, k0_dev7 c = peerN c.val 5 := by decide +kernel
theorem k0_dev8_eq : ∀ c : Dev nD, k0_dev8 c = peerN c.val 11 := by decide +kernel
theorem k0_dev9_eq : ∀ c : Dev nD, k0_dev9 c = peerN c.val 4 := by decide +kernel
theorem k0_dev10_eq : ∀ c : Dev nD, k0_dev10 c = peerN c.val 12 := by decide +kernel
theorem k0_dev11_eq : ∀ c : Dev nD, k0_dev11 c = peerN c.val 3 := by decide +kernel
theorem k0_dev12_eq : ∀ c : Dev nD, k0_dev12 c = peerN c.val 13 := by decide +kernel
theorem k0_dev13_eq : ∀ c : Dev nD, k0_dev13 c = peerN c.val 2 := by decide +kernel
theorem k0_dev14_eq : ∀ c : Dev nD, k0_dev14 c = peerN c.val 14 := by decide +kernel
theorem k0_dev15_eq : ∀ c : Dev nD, k0_dev15 c = peerN c.val 1 := by decide +kernel
theorem k0_dev16_eq : ∀ c : Dev nD, k0_dev16 c = peerN c.val 15 := by decide +kernel
theorem k0_dev17_eq : ∀ c : Dev nD, k0_dev17 c = nbrN c.val := by decide +kernel
theorem k0_dev18_eq : ∀ c : Dev nD, k0_dev18 c = nbrN c.val := by decide +kernel
theorem k0_dev19_eq : ∀ c : Dev nD, k0_dev19 c = nbrN c.val := by decide +kernel
theorem k0_dev20_eq : ∀ c : Dev nD, k0_dev20 c = nbrN c.val := by decide +kernel
theorem k0_dev21_eq : ∀ c : Dev nD, k0_dev21 c = nbrN c.val := by decide +kernel
theorem k0_dev22_eq : ∀ c : Dev nD, k0_dev22 c = nbrN c.val := by decide +kernel
theorem k0_dev23_eq : ∀ c : Dev nD, k0_dev23 c = nbrN c.val := by decide +kernel
theorem k0_dev24_eq : ∀ c : Dev nD, k0_dev24 c = nbrN c.val := by decide +kernel
theorem k0_dev25_eq : ∀ c : Dev nD, k0_dev25 c = nbrN c.val := by decide +kernel
theorem k0_dev26_eq : ∀ c : Dev nD, k0_dev26 c = nbrN c.val := by decide +kernel
theorem k0_dev27_eq : ∀ c : Dev nD, k0_dev27 c = nbrN c.val := by decide +kernel
theorem k0_dev28_eq : ∀ c : Dev nD, k0_dev28 c = nbrN c.val := by decide +kernel
theorem k0_dev29_eq : ∀ c : Dev nD, k0_dev29 c = nbrN c.val := by decide +kernel
theorem k0_dev30_eq : ∀ c : Dev nD, k0_dev30 c = nbrN c.val := by decide +kernel
theorem k0_dev31_eq : ∀ c : Dev nD, k0_dev31 c = nbrN c.val := by decide +kernel
theorem k0_dev32_eq : ∀ c : Dev nD, k0_dev32 c = nbrN c.val := by decide +kernel
theorem k0_dev33_eq : ∀ c : Dev nD, k0_dev33 c = peerN c.val 8 := by decide +kernel
theorem k0_dev34_eq : ∀ c : Dev nD, k0_dev34 c = peerN c.val 7 := by decide +kernel
theorem k0_dev35_eq : ∀ c : Dev nD, k0_dev35 c = peerN c.val 9 := by decide +kernel
theorem k0_dev36_eq : ∀ c : Dev nD, k0_dev36 c = peerN c.val 6 := by decide +kernel
theorem k0_dev37_eq : ∀ c : Dev nD, k0_dev37 c = peerN c.val 10 := by decide +kernel
theorem k0_dev38_eq : ∀ c : Dev nD, k0_dev38 c = peerN c.val 5 := by decide +kernel
theorem k0_dev39_eq : ∀ c : Dev nD, k0_dev39 c = peerN c.val 11 := by decide +kernel
theorem k0_dev40_eq : ∀ c : Dev nD, k0_dev40 c = peerN c.val 4 := by decide +kernel
theorem k0_dev41_eq : ∀ c : Dev nD, k0_dev41 c = peerN c.val 12 := by decide +kernel
theorem k0_dev42_eq : ∀ c : Dev nD, k0_dev42 c = peerN c.val 3 := by decide +kernel
theorem k0_dev43_eq : ∀ c : Dev nD, k0_dev43 c = peerN c.val 13 := by decide +kernel
theorem k0_dev44_eq : ∀ c : Dev nD, k0_dev44 c = peerN c.val 2 := by decide +kernel
theorem k0_dev45_eq : ∀ c : Dev nD, k0_dev45 c = peerN c.val 14 := by decide +kernel
theorem k0_dev46_eq : ∀ c : Dev nD, k0_dev46 c = peerN c.val 1 := by decide +kernel
theorem k0_dev47_eq : ∀ c : Dev nD, k0_dev47 c = peerN c.val 15 := by decide +kernel

/-! ## The printed offsets -/

theorem k0_off1_eq : ∀ c : Dev nD, ∀ r : Fin 16, k0_off1 c (BitVec.ofNat 32 (1 + r.val)) = ![32 * crossN c.val (1 + r.val), 0] := by decide +kernel
theorem k0_off2_eq : ∀ c : Dev nD, ∀ r : Fin 15, k0_off2 c (BitVec.ofNat 32 (1 + r.val)) = ![32 * peerN c.val (1 + r.val), 0] := by decide +kernel
theorem k0_off3_eq : ∀ c : Dev nD, k0_off3 c = ![rr c.val] := by decide +kernel
theorem k0_off4_eq : ∀ c : Dev nD, k0_off4 c = ![rr c.val, 0, 0] := by decide +kernel
theorem k0_off6_eq : ∀ c : Dev nD, ∀ r : Fin 15, k0_off6 c (BitVec.ofNat 32 (1 + r.val)) = ![(rr c.val + 16 - (1 + r.val)) % 16] := by decide +kernel
theorem k0_off7_eq : ∀ c : Dev nD, ∀ r : Fin 15, k0_off7 c (BitVec.ofNat 32 (1 + r.val)) = ![(rr c.val + 16 - (1 + r.val)) % 16, 0, 0] := by decide +kernel
theorem k0_off8_eq : ∀ c : Dev nD, ∀ r : Fin 15, k0_off8 c (BitVec.ofNat 32 (1 + r.val)) = ![(rr c.val + 16 - (1 + r.val)) % 16, 0, 0] := by decide +kernel

end Cert.Kernel.Topo
-- ==== Proof.SchedK.lean ====
/-
  The protocol of the kernel under the rounds discipline.

  Every device owns one cell on the runtime's barrier semaphore and 63 cells on its own DMA
  semaphores: sixteen for the sends of the first phase, sixteen for its receives, fifteen for
  the sends of the second phase and sixteen for its receives (the one of the device's own pair
  is never used).  Everything happens in round 0.

  * The barrier cell of `c` has sixteen duties of one unit: duty 0 is paid by the partner of `c`
    and hands `c` the partner's sixteen first-phase receive slots to write into; duty `i+1` is
    paid by the device `offs i` pairs back on the side of `c` and hands `c` the one second-phase
    receive slot of that device that belongs to the pair of `c`.
  * A send cell has one duty, paid by the device's own copy when the source slot has been read:
    the slot comes back with what was staged in it.
  * A receive cell has one duty, paid by the sender's copy when the slot has been written: the
    slot comes with the sender's staged contents.
-/
import proofs.«900440_g7700000000000441_dist_gemm_rs_m1024_k1024_n1024_f32_none_v7x_i32_1_alg».proof.Proof.TopoK
import proofs.«900440_g7700000000000441_dist_gemm_rs_m1024_k1024_n1024_f32_none_v7x_i32_1_alg».proof.Proof.Gen.Kernel.Launch
import Idealize.ShloMosaic.Lib.Pipeline.Launch
import Idealize.ShloMosaic.Lib.Pipeline.Kit
import Idealize.ShloMosaic.Lib.Tactic
import Idealize.ShloMosaic.Lib.Pipeline.Value

noncomputable section

namespace Cert.Kernel.Proto

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duty names `Fin 16`) -/

abbrev DN : Type := Fin 16
abbrev UB : Type := URounds (GSem nD τ sig) DN
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh on devices -/

def nbr (c : Dev nD) : Dev nD := ⟨nbrN c.val, nbrN_lt c⟩
def peer (c : Dev nD) (o : Fin 17) : Dev nD := ⟨peerN c.val o.val, peerN_lt c o⟩
def cross (c : Dev nD) (o : Fin 17) : Dev nD := ⟨crossN c.val o.val, crossN_lt c o⟩
def src (c : Dev nD) (o : Fin 17) : Dev nD := ⟨srcN c.val o.val, srcN_lt c o⟩
/-- The pair of a device. -/
def pairOf (c : Dev nD) : Fin 16 := ⟨rr c.val, rr_lt c⟩
/-- The device of pair `ρ` on the side of `c`. -/
def onSide (c : Dev nD) (ρ : Fin 16) : Dev nD := ⟨gg ρ.val (xx c.val), gg_lt ρ ⟨xx c.val, xx_lt c⟩⟩
/-- The fifteen offsets, and the sixteen with the full turn, as elements of `Fin 17`. -/
def off (i : Fin 15) : Fin 17 := ⟨offs i, by revert i; decide⟩
def offA (k : Fin 16) : Fin 17 := ⟨offsAll k, by revert k; decide⟩

theorem nbr_nbr (c : Dev nD) : nbr (nbr c) = c := by revert c; decide
theorem nbr_ne (c : Dev nD) : nbr c ≠ c := by revert c; decide
theorem src_peer (c : Dev nD) (o : Fin 17) : src (peer c o) o = c := by revert c o; decide
theorem peer_src (c : Dev nD) (o : Fin 17) : peer (src c o) o = c := by revert c o; decide

/-! ## Semaphores and cells -/

abbrev barS : Sem sig := (SemArray.scalar (sig.barrier 0 rfl) : Sems sig S_).sem
def p1sS (k : Fin 16) : DmaSem sig := ⟨3 + k.val, by have := k.isLt; show 3 + k.val < 66; omega⟩
def p1rS (k : Fin 16) : DmaSem sig := ⟨19 + k.val, by have := k.isLt; show 19 + k.val < 66; omega⟩
def p2sS (k : Fin 15) : DmaSem sig := ⟨35 + k.val, by have := k.isLt; show 35 + k.val < 66; omega⟩
def p2rS (k : Fin 16) : DmaSem sig := ⟨50 + k.val, by have := k.isLt; show 50 + k.val < 66; omega⟩

abbrev barCell (c : Dev nD) : GSem nD τ sig := ((c : Thread nD τ), .reg barS)
abbrev dcell (c : Dev nD) (q : DmaSem sig) : GSem nD τ sig := ((c : Thread nD τ), .dma q)

/-! ## The four scratch buffers and their slots -/

theorem slot_inb16 : ∀ k : Fin 16, ∀ a, (![k.val, 0, 0] : Fin 3 → ℕ) a + S1x32x1024.size a ≤ S16x32x1024.size a := by decide
theorem slot_inb15 : ∀ k : Fin 15, ∀ a, (![k.val, 0, 0] : Fin 3 → ℕ) a + S1x32x1024.size a ≤ S15x32x1024.size a := by decide

/-- Slot `k` of a sixteen-slot scratch buffer. -/
abbrev slot16 (b : Memref sig .tc .vmem S16x32x1024 .f32) (k : ℕ) (hk : k < 16) : Memref sig .tc .vmem S1x32x1024 .f32 :=
  b.slice (Rect.unit (s := S16x32x1024) ![k, 0, 0] S1x32x1024.size (slot_inb16 ⟨k, hk⟩)) (fun _ => rfl)
abbrev slot15 (b : Memref sig .tc .vmem S15x32x1024 .f32) (k : ℕ) (hk : k < 15) : Memref sig .tc .vmem S1x32x1024 .f32 :=
  b.slice (Rect.unit (s := S15x32x1024) ![k, 0, 0] S1x32x1024.size (slot_inb15 ⟨k, hk⟩)) (fun _ => rfl)

abbrev stageM : Memref sig .tc .vmem S16x32x1024 .f32 := Memref.whole cc0_scratch0
abbrev inboxM : Memref sig .tc .vmem S16x32x1024 .f32 := Memref.whole cc0_scratch1
abbrev outboxM : Memref sig .tc .vmem S15x32x1024 .f32 := Memref.whole cc0_scratch2
abbrev gatherM : Memref sig .tc .vmem S16x32x1024 .f32 := Memref.whole cc0_scratch3

/-- Contents of a buffer whose part under the slot `sl` is `V` (elsewhere arbitrary: a points-to on
    the slot's elements does not see them). -/
def put (c : Dev nD) (sl : Memref sig .tc .vmem S1x32x1024 .f32) (V : Vec F S1x32x1024 .f32) : Buf (Elt F) (sl.view.loc (c : Thread nD τ)) :=
  sl.view.write (Elt F) (fun _ => Classical.arbitrary _) V Finset.univ

theorem read_put (c : Dev nD) (sl : Memref sig .tc .vmem S1x32x1024 .f32) (V : Vec F S1x32x1024 .f32) :
    sl.view.read (Elt F) (put c sl V) = V := View.read_write_univ _ _

/-- A slot held on device `c` with the value `V` in it; and held at whatever it holds. -/
abbrev holds (c : Dev nD) (sl : Memref sig .tc .vmem S1x32x1024 .f32) (V : Vec F S1x32x1024 .f32) : sProp 𝕄 :=
  (sl.view.loc (c : Thread nD τ) ↦[sl.view.set]{fullShare} put c sl V)

abbrev free (c : Dev nD) (sl : Memref sig .tc .vmem S1x32x1024 .f32) : sProp 𝕄 :=
  iprop(∃ f : Buf (Elt F) (sl.view.loc (c : Thread nD τ)), (sl.view.loc (c : Thread nD τ) ↦[sl.view.set]{fullShare} f))

/-- A points-to on a slot's elements sees only what the slot reads. -/
theorem pts_congr_read (c : Dev nD) (sl : Memref sig .tc .vmem S1x32x1024 .f32) (f g : Buf (Elt F) (sl.view.loc (c : Thread nD τ)))
    (h : sl.view.read (Elt F) f = sl.view.read (Elt F) g) :
    (sl.view.loc (c : Thread nD τ) ↦[sl.view.set]{fullShare} f : sProp 𝕄) = (sl.view.loc (c : Thread nD τ) ↦[sl.view.set]{fullShare} g) :=
  pointsTo_congr (fun i hi => by
    obtain ⟨y, rfl⟩ := View.exists_emb_of_mem_set sl.view hi
    have := congrFun h y
    rw [View.read_apply, View.read_apply] at this
    exact (cast_inj _).mp this)

theorem holds_of_read (c : Dev nD) (sl : Memref sig .tc .vmem S1x32x1024 .f32) (f : Buf (Elt F) (sl.view.loc (c : Thread nD τ))) (V : Vec F S1x32x1024 .f32)
    (h : sl.view.read (Elt F) f = V) :
    (sl.view.loc (c : Thread nD τ) ↦[sl.view.set]{fullShare} f : sProp 𝕄) = holds c sl V :=
  pts_congr_read c sl f _ (h.trans (read_put c sl V).symm)

/-! ## The schedule -/

section Sched

/- `W1 s t`: what device `s` stages in the first phase for the row block of device `t`;
    `W2 s t`: what device `s` sends device `t` in the second phase. -/
variable (W1 W2 : Dev nD → Dev nD → Vec F S1x32x1024 .f32)

/-- The credit of one slot's copy. -/
abbrev N : ℕ := (slot16 stageM 0 (by decide)).view.dmaCredit
theorem N_pos : 0 < N := View.dmaCredit_pos _ (by decide)

/-- What the single duty of a DMA cell hands its owner. -/
def dmaPay (c : Dev nD) (q : DmaSem sig) : sProp 𝕄 :=
  if h1 : 3 ≤ q.val ∧ q.val < 19 then holds c (slot16 stageM (q.val - 3) (by omega)) (W1 c (cross c (offA ⟨q.val - 3, by omega⟩)))
  else if h2 : 19 ≤ q.val ∧ q.val < 35 then holds c (slot16 inboxM (q.val - 19) (by omega)) (W1 (nbr c) (peer c (offA ⟨q.val - 19, by omega⟩)))
  else if h3 : 35 ≤ q.val ∧ q.val < 50 then holds c (slot15 outboxM (q.val - 35) (by omega)) (W2 c (peer c (off ⟨q.val - 35, by omega⟩)))
  else if h4 : 50 ≤ q.val ∧ q.val < 66 then holds c (slot16 gatherM (q.val - 50) (by omega)) (W2 (onSide c ⟨q.val - 50, by omega⟩) c)
  else iprop(emp)

/-- The sixteen first-phase receive slots of device `n`, free to be written, each with the fact
    that its receive cell is at round 0. -/
def barPay0 (n : Dev nD) : sProp 𝕄 :=
  iprop(free (F := F) n (slot16 inboxM 0 (by decide)) ∗ reached ER (dcell n (p1rS 0)) 0
    ∗ free (F := F) n (slot16 inboxM 1 (by decide)) ∗ reached ER (dcell n (p1rS 1)) 0
    ∗ free (F := F) n (slot16 inboxM 2 (by decide)) ∗ reached ER (dcell n (p1rS 2)) 0
    ∗ free (F := F) n (slot16 inboxM 3 (by decide)) ∗ reached ER (dcell n (p1rS 3)) 0
    ∗ free (F := F) n (slot16 inboxM 4 (by decide)) ∗ reached ER (dcell n (p1rS 4)) 0
    ∗ free (F := F) n (slot16 inboxM 5 (by decide)) ∗ reached ER (dcell n (p1rS 5)) 0
    ∗ free (F := F) n (slot16 inboxM 6 (by decide)) ∗ reached ER (dcell n (p1rS 6)) 0
    ∗ free (F := F) n (slot16 inboxM 7 (by decide)) ∗ reached ER (dcell n (p1rS 7)) 0
    ∗ free (F := F) n (slot16 inboxM 8 (by decide)) ∗ reached ER (dcell n (p1rS 8)) 0
    ∗ free (F := F) n (slot16 inboxM 9 (by decide)) ∗ reached ER (dcell n (p1rS 9)) 0
    ∗ free (F := F) n (slot16 inboxM 10 (by decide)) ∗ reached ER (dcell n (p1rS 10)) 0
    ∗ free (F := F) n (slot16 inboxM 11 (by decide)) ∗ reached ER (dcell n (p1rS 11)) 0
    ∗ free (F := F) n (slot16 inboxM 12 (by decide)) ∗ reached ER (dcell n (p1rS 12)) 0
    ∗ free (F := F) n (slot16 inboxM 13 (by decide)) ∗ reached ER (dcell n (p1rS 13)) 0
    ∗ free (F := F) n (slot16 inboxM 14 (by decide)) ∗ reached ER (dcell n (p1rS 14)) 0
    ∗ free (F := F) n (slot16 inboxM 15 (by decide)) ∗ reached ER (dcell n (p1rS 15)) 0)

set_option synthInstance.maxHeartbeats 2000000 in
set_option synthInstance.maxSize 4096 in
set_option maxHeartbeats 2000000 in
instance barPay0_storable (n : Dev nD) : BI.Storable (upEmb : UEmb _ 𝕄) (barPay0 (F := F) n) := by unfold barPay0; infer_instance

/-- What duty `j` of the barrier cell of `c` hands `c`. -/
def barPay (c : Dev nD) (j : DN) : sProp 𝕄 :=
  if h : j.val = 0 then barPay0 (F := F) (nbr c)
  else iprop(free (F := F) (src c (off ⟨j.val - 1, by have := j.isLt; omega⟩)) (slot16 gatherM (rr c.val) (rr_lt c))
        ∗ reached ER (dcell (src c (off ⟨j.val - 1, by have := j.isLt; omega⟩)) (p2rS (pairOf c))) 0)

/-- A DMA semaphore of the protocol that device `c` uses: every scratch semaphore but the
    second-phase receive semaphore of its own pair. -/
def used (c : Dev nD) (q : DmaSem sig) : Prop := 3 ≤ q.val ∧ q ≠ p2rS (pairOf c)
instance (c : Dev nD) (q : DmaSem sig) : Decidable (used c q) := by unfold used; infer_instance

def rd : Rounds.Schedule (GSem nD τ sig) DN 𝕄 where
  duties g r :=
    if r = 0 ∧ g.1.2 = .tc then
      (match g.2 with
        | .reg s => if s = barS then Finset.univ else ∅
        | .dma q => if used g.1.1 q then {0} else ∅)
    else ∅
  amount g _ _ := if g.2 = .reg barS then 1 else N
  payload g _ d := match g.2 with
    | .reg _ => barPay g.1.1 d
    | .dma q => dmaPay W1 W2 g.1.1 q
  amount_pos g _ _ _ := by
    by_cases h : g.2 = .reg barS
    · rw [if_pos h]; exact Nat.one_pos
    · rw [if_neg h]; exact N_pos

instance rd_payload_storable (g : GSem nD τ sig) (r : ℕ) (d : DN) :
    BI.Storable (upEmb : UEmb _ 𝕄) ((rd (F := F) W1 W2).payload g r d) := by
  show BI.Storable upEmb (match g.2 with | .reg _ => barPay g.1.1 d | .dma q => dmaPay W1 W2 g.1.1 q)
  unfold barPay dmaPay
  (repeat' split) <;> infer_instance

end Sched

/-! ## The schedule's tables -/

section Tables

variable (W1 W2 : Dev nD → Dev nD → Vec F S1x32x1024 .f32) (c : Dev nD)

theorem duties_bar : (rd (F := F) W1 W2).duties (barCell c) 0 = Finset.univ := by
  dsimp only [rd]; rw [if_pos ⟨rfl, rfl⟩, if_pos rfl]
theorem duties_dma (q : DmaSem sig) (hq : used c q) : (rd (F := F) W1 W2).duties (dcell c q) 0 = {0} := by
  dsimp only [rd]; rw [if_pos ⟨rfl, rfl⟩, if_pos hq]
theorem duties_dma_unused (q : DmaSem sig) (hq : ¬ used c q) (r : ℕ) : (rd (F := F) W1 W2).duties (dcell c q) r = ∅ := by
  dsimp only [rd]; split
  · first | rfl | (rw [if_neg hq])
  · rfl
theorem duties_later (g : GSem nD τ sig) : ∀ r, 1 ≤ r → (rd (F := F) W1 W2).duties g r = ∅ :=
  fun r hr => by dsimp only [rd]; rw [if_neg fun h => by omega]

theorem amount_bar (d : DN) : (rd (F := F) W1 W2).amount (barCell c) 0 d = 1 := by dsimp only [rd]; exact if_pos rfl
theorem amount_dma (q : DmaSem sig) (d : DN) : (rd (F := F) W1 W2).amount (dcell c q) 0 d = N := by
  dsimp only [rd]; exact if_neg (fun h => by cases h)

theorem expect_bar : (rd (F := F) W1 W2).expect (barCell c) 0 = 16 := by
  unfold Schedule.expect Schedule.amountOf
  rw [duties_bar, Finset.sum_congr rfl fun d _ => amount_bar W1 W2 c d, Finset.sum_const, Finset.card_univ, Fintype.card_fin, smul_eq_mul]
theorem expect_dma (q : DmaSem sig) (hq : used c q) : (rd (F := F) W1 W2).expect (dcell c q) 0 = N := by
  unfold Schedule.expect Schedule.amountOf; rw [duties_dma W1 W2 c q hq, Finset.sum_singleton, amount_dma]

theorem payload_bar (j : DN) : (rd (F := F) W1 W2).payload (barCell c) 0 j = barPay c j := rfl
theorem payload_dma (q : DmaSem sig) (d : DN) : (rd (F := F) W1 W2).payload (dcell c q) 0 d = dmaPay W1 W2 c q := rfl

theorem barPay_zero : barPay (F := F) c 0 = barPay0 (F := F) (nbr c) := by
  unfold barPay; exact dif_pos rfl
theorem barPay_succ (i : Fin 15) : barPay (F := F) c ⟨i.val + 1, by have := i.isLt; omega⟩
    = iprop(free (F := F) (src c (off i)) (slot16 gatherM (rr c.val) (rr_lt c)) ∗ reached ER (dcell (src c (off i)) (p2rS (pairOf c))) 0) := by
  unfold barPay; rw [dif_neg (Nat.succ_ne_zero _)]; rfl

theorem dmaPay_p1s (k : Fin 16) : dmaPay W1 W2 c (p1sS k) = holds c (slot16 stageM k.val k.isLt) (W1 c (cross c (offA k))) := by
  unfold dmaPay p1sS; rw [dif_pos ⟨by show 3 ≤ 3 + k.val; omega, by show 3 + k.val < 19; have := k.isLt; omega⟩]
  simp only [Nat.add_sub_cancel_left, Fin.eta]
theorem dmaPay_p1r (k : Fin 16) : dmaPay W1 W2 c (p1rS k) = holds c (slot16 inboxM k.val k.isLt) (W1 (nbr c) (peer c (offA k))) := by
  unfold dmaPay p1rS
  rw [dif_neg (fun h => by have : 19 + k.val < 19 := h.2; omega), dif_pos ⟨by show 19 ≤ 19 + k.val; omega, by show 19 + k.val < 35; have := k.isLt; omega⟩]
  simp only [Nat.add_sub_cancel_left, Fin.eta]
theorem dmaPay_p2s (k : Fin 15) : dmaPay W1 W2 c (p2sS k) = holds c (slot15 outboxM k.val k.isLt) (W2 c (peer c (off k))) := by
  unfold dmaPay p2sS
  rw [dif_neg (fun h => by have : 35 + k.val < 19 := h.2; omega), dif_neg (fun h => by have : 35 + k.val < 35 := h.2; omega),
    dif_pos ⟨by show 35 ≤ 35 + k.val; omega, by show 35 + k.val < 50; have := k.isLt; omega⟩]
  simp only [Nat.add_sub_cancel_left, Fin.eta]
theorem dmaPay_p2r (k : Fin 16) : dmaPay W1 W2 c (p2rS k) = holds c (slot16 gatherM k.val k.isLt) (W2 (onSide c k) c) := by
  unfold dmaPay p2rS
  rw [dif_neg (fun h => by have : 50 + k.val < 19 := h.2; omega), dif_neg (fun h => by have : 50 + k.val < 35 := h.2; omega),
    dif_neg (fun h => by have : 50 + k.val < 50 := h.2; omega),
    dif_pos ⟨by show 50 ≤ 50 + k.val; omega, by show 50 + k.val < 66; have := k.isLt; omega⟩]
  simp only [Nat.add_sub_cancel_left, Fin.eta]

end Tables

end Cert.Kernel.Proto

end
-- ==== Proof.TablesK.lean ====
/-
  The schedule's tables in the form the body's run reads them: the printed device chains as the
  mesh's functions, the printed offsets in closed form, and each cell's duties, amounts and
  payloads with the entry on the left.
-/
import proofs.«900440_g7700000000000441_dist_gemm_rs_m1024_k1024_n1024_f32_none_v7x_i32_1_alg».proof.Proof.SchedK
import Idealize.ShloMosaic.Lib.Tactic

set_option Elab.async false

noncomputable section

namespace Cert.Kernel.Proto

open Cert.Kernel Cert.Kernel.Gen Cert.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## The printed device chains -/

@[sl_canon] theorem dev1_eq (c : Dev nD) : (⟨k0_dev1 c, k0_dev1_lt c⟩ : Dev nD) = nbr c := Fin.ext (Topo.k0_dev1_eq c)
@[sl_canon] theorem dev2_eq (c : Dev nD) : (⟨k0_dev2 c, k0_dev2_lt c⟩ : Dev nD) = peer c (off 0) := Fin.ext (Topo.k0_dev2_eq c)
@[sl_canon] theorem dev3_eq (c : Dev nD) : (⟨k0_dev3 c, k0_dev3_lt c⟩ : Dev nD) = peer c (off 1) := Fin.ext (Topo.k0_dev3_eq c)
@[sl_canon] theorem dev4_eq (c : Dev nD) : (⟨k0_dev4 c, k0_dev4_lt c⟩ : Dev nD) = peer c (off 2) := Fin.ext (Topo.k0_dev4_eq c)
@[sl_canon] theorem dev5_eq (c : Dev nD) : (⟨k0_dev5 c, k0_dev5_lt c⟩ : Dev nD) = peer c (off 3) := Fin.ext (Topo.k0_dev5_eq c)
@[sl_canon] theorem dev6_eq (c : Dev nD) : (⟨k0_dev6 c, k0_dev6_lt c⟩ : Dev nD) = peer c (off 4) := Fin.ext (Topo.k0_dev6_eq c)
@[sl_canon] theorem dev7_eq (c : Dev nD) : (⟨k0_dev7 c, k0_dev7_lt c⟩ : Dev nD) = peer c (off 5) := Fin.ext (Topo.k0_dev7_eq c)
@[sl_canon] theorem dev8_eq (c : Dev nD) : (⟨k0_dev8 c, k0_dev8_lt c⟩ : Dev nD) = peer c (off 6) := Fin.ext (Topo.k0_dev8_eq c)
@[sl_canon] theorem dev9_eq (c : Dev nD) : (⟨k0_dev9 c, k0_dev9_lt c⟩ : Dev nD) = peer c (off 7) := Fin.ext (Topo.k0_dev9_eq c)
@[sl_canon] theorem dev10_eq (c : Dev nD) : (⟨k0_dev10 c, k0_dev10_lt c⟩ : Dev nD) = peer c (off 8) := Fin.ext (Topo.k0_dev10_eq c)
@[sl_canon] theorem dev11_eq (c : Dev nD) : (⟨k0_dev11 c, k0_dev11_lt c⟩ : Dev nD) = peer c (off 9) := Fin.ext (Topo.k0_dev11_eq c)
@[sl_canon] theorem dev12_eq (c : Dev nD) : (⟨k0_dev12 c, k0_dev12_lt c⟩ : Dev nD) = peer c (off 10) := Fin.ext (Topo.k0_dev12_eq c)
@[sl_canon] theorem dev13_eq (c : Dev nD) : (⟨k0_dev13 c, k0_dev13_lt c⟩ : Dev nD) = peer c (off 11) := Fin.ext (Topo.k0_dev13_eq c)
@[sl_canon] theorem dev14_eq (c : Dev nD) : (⟨k0_dev14 c, k0_dev14_lt c⟩ : Dev nD) = peer c (off 12) := Fin.ext (Topo.k0_dev14_eq c)
@[sl_canon] theorem dev15_eq (c : Dev nD) : (⟨k0_dev15 c, k0_dev15_lt c⟩ : Dev nD) = peer c (off 13) := Fin.ext (Topo.k0_dev15_eq c)
@[sl_canon] theorem dev16_eq (c : Dev nD) : (⟨k0_dev16 c, k0_dev16_lt c⟩ : Dev nD) = peer c (off 14) := Fin.ext (Topo.k0_dev16_eq c)
@[sl_canon] theorem dev17_eq (c : Dev nD) : (⟨k0_dev17 c, k0_dev17_lt c⟩ : Dev nD) = nbr c := Fin.ext (Topo.k0_dev17_eq c)
@[sl_canon] theorem dev18_eq (c : Dev nD) : (⟨k0_dev18 c, k0_dev18_lt c⟩ : Dev nD) = nbr c := Fin.ext (Topo.k0_dev18_eq c)
@[sl_canon] theorem dev19_eq (c : Dev nD) : (⟨k0_dev19 c, k0_dev19_lt c⟩ : Dev nD) = nbr c := Fin.ext (Topo.k0_dev19_eq c)
@[sl_canon] theorem dev20_eq (c : Dev nD) : (⟨k0_dev20 c, k0_dev20_lt c⟩ : Dev nD) = nbr c := Fin.ext (Topo.k0_dev20_eq c)
@[sl_canon] theorem dev21_eq (c : Dev nD) : (⟨k0_dev21 c, k0_dev21_lt c⟩ : Dev nD) = nbr c := Fin.ext (Topo.k0_dev21_eq c)
@[sl_canon] theorem dev22_eq (c : Dev nD) : (⟨k0_dev22 c, k0_dev22_lt c⟩ : Dev nD) = nbr c := Fin.ext (Topo.k0_dev22_eq c)
@[sl_canon] theorem dev23_eq (c : Dev nD) : (⟨k0_dev23 c, k0_dev23_lt c⟩ : Dev nD) = nbr c := Fin.ext (Topo.k0_dev23_eq c)
@[sl_canon] theorem dev24_eq (c : Dev nD) : (⟨k0_dev24 c, k0_dev24_lt c⟩ : Dev nD) = nbr c := Fin.ext (Topo.k0_dev24_eq c)
@[sl_canon] theorem dev25_eq (c : Dev nD) : (⟨k0_dev25 c, k0_dev25_lt c⟩ : Dev nD) = nbr c := Fin.ext (Topo.k0_dev25_eq c)
@[sl_canon] theorem dev26_eq (c : Dev nD) : (⟨k0_dev26 c, k0_dev26_lt c⟩ : Dev nD) = nbr c := Fin.ext (Topo.k0_dev26_eq c)
@[sl_canon] theorem dev27_eq (c : Dev nD) : (⟨k0_dev27 c, k0_dev27_lt c⟩ : Dev nD) = nbr c := Fin.ext (Topo.k0_dev27_eq c)
@[sl_canon] theorem dev28_eq (c : Dev nD) : (⟨k0_dev28 c, k0_dev28_lt c⟩ : Dev nD) = nbr c := Fin.ext (Topo.k0_dev28_eq c)
@[sl_canon] theorem dev29_eq (c : Dev nD) : (⟨k0_dev29 c, k0_dev29_lt c⟩ : Dev nD) = nbr c := Fin.ext (Topo.k0_dev29_eq c)
@[sl_canon] theorem dev30_eq (c : Dev nD) : (⟨k0_dev30 c, k0_dev30_lt c⟩ : Dev nD) = nbr c := Fin.ext (Topo.k0_dev30_eq c)
@[sl_canon] theorem dev31_eq (c : Dev nD) : (⟨k0_dev31 c, k0_dev31_lt c⟩ : Dev nD) = nbr c := Fin.ext (Topo.k0_dev31_eq c)
@[sl_canon] theorem dev32_eq (c : Dev nD) : (⟨k0_dev32 c, k0_dev32_lt c⟩ : Dev nD) = nbr c := Fin.ext (Topo.k0_dev32_eq c)
@[sl_canon] theorem dev33_eq (c : Dev nD) : (⟨k0_dev33 c, k0_dev33_lt c⟩ : Dev nD) = peer c (off 0) := Fin.ext (Topo.k0_dev33_eq c)
@[sl_canon] theorem dev34_eq (c : Dev nD) : (⟨k0_dev34 c, k0_dev34_lt c⟩ : Dev nD) = peer c (off 1) := Fin.ext (Topo.k0_dev34_eq c)
@[sl_canon] theorem dev35_eq (c : Dev nD) : (⟨k0_dev35 c, k0_dev35_lt c⟩ : Dev nD) = peer c (off 2) := Fin.ext (Topo.k0_dev35_eq c)
@[sl_canon] theorem dev36_eq (c : Dev nD) : (⟨k0_dev36 c, k0_dev36_lt c⟩ : Dev nD) = peer c (off 3) := Fin.ext (Topo.k0_dev36_eq c)
@[sl_canon] theorem dev37_eq (c : Dev nD) : (⟨k0_dev37 c, k0_dev37_lt c⟩ : Dev nD) = peer c (off 4) := Fin.ext (Topo.k0_dev37_eq c)
@[sl_canon] theorem dev38_eq (c : Dev nD) : (⟨k0_dev38 c, k0_dev38_lt c⟩ : Dev nD) = peer c (off 5) := Fin.ext (Topo.k0_dev38_eq c)
@[sl_canon] theorem dev39_eq (c : Dev nD) : (⟨k0_dev39 c, k0_dev39_lt c⟩ : Dev nD) = peer c (off 6) := Fin.ext (Topo.k0_dev39_eq c)
@[sl_canon] theorem dev40_eq (c : Dev nD) : (⟨k0_dev40 c, k0_dev40_lt c⟩ : Dev nD) = peer c (off 7) := Fin.ext (Topo.k0_dev40_eq c)
@[sl_canon] theorem dev41_eq (c : Dev nD) : (⟨k0_dev41 c, k0_dev41_lt c⟩ : Dev nD) = peer c (off 8) := Fin.ext (Topo.k0_dev41_eq c)
@[sl_canon] theorem dev42_eq (c : Dev nD) : (⟨k0_dev42 c, k0_dev42_lt c⟩ : Dev nD) = peer c (off 9) := Fin.ext (Topo.k0_dev42_eq c)
@[sl_canon] theorem dev43_eq (c : Dev nD) : (⟨k0_dev43 c, k0_dev43_lt c⟩ : Dev nD) = peer c (off 10) := Fin.ext (Topo.k0_dev43_eq c)
@[sl_canon] theorem dev44_eq (c : Dev nD) : (⟨k0_dev44 c, k0_dev44_lt c⟩ : Dev nD) = peer c (off 11) := Fin.ext (Topo.k0_dev44_eq c)
@[sl_canon] theorem dev45_eq (c : Dev nD) : (⟨k0_dev45 c, k0_dev45_lt c⟩ : Dev nD) = peer c (off 12) := Fin.ext (Topo.k0_dev45_eq c)
@[sl_canon] theorem dev46_eq (c : Dev nD) : (⟨k0_dev46 c, k0_dev46_lt c⟩ : Dev nD) = peer c (off 13) := Fin.ext (Topo.k0_dev46_eq c)
@[sl_canon] theorem dev47_eq (c : Dev nD) : (⟨k0_dev47 c, k0_dev47_lt c⟩ : Dev nD) = peer c (off 14) := Fin.ext (Topo.k0_dev47_eq c)

/-! ## The printed offsets in closed form -/

instance closedOff_k0_off3 (c : Dev nD) : ClosedOff (k0_off3 c) := ⟨![rr c.val], Topo.k0_off3_eq c⟩
instance closedOff_k0_off4 (c : Dev nD) : ClosedOff (k0_off4 c) := ⟨![rr c.val, 0, 0], Topo.k0_off4_eq c⟩
instance closedOff_k0_off1_8 (c : Dev nD) : ClosedOff (k0_off1 c 8#32) := ⟨![32 * (cross c (offA 0)).val, 0], by revert c; decide +kernel⟩
instance closedOff_k0_off1_7 (c : Dev nD) : ClosedOff (k0_off1 c 7#32) := ⟨![32 * (cross c (offA 1)).val, 0], by revert c; decide +kernel⟩
instance closedOff_k0_off1_9 (c : Dev nD) : ClosedOff (k0_off1 c 9#32) := ⟨![32 * (cross c (offA 2)).val, 0], by revert c; decide +kernel⟩
instance closedOff_k0_off1_6 (c : Dev nD) : ClosedOff (k0_off1 c 6#32) := ⟨![32 * (cross c (offA 3)).val, 0], by revert c; decide +kernel⟩
instance closedOff_k0_off1_10 (c : Dev nD) : ClosedOff (k0_off1 c 10#32) := ⟨![32 * (cross c (offA 4)).val, 0], by revert c; decide +kernel⟩
instance closedOff_k0_off1_5 (c : Dev nD) : ClosedOff (k0_off1 c 5#32) := ⟨![32 * (cross c (offA 5)).val, 0], by revert c; decide +kernel⟩
instance closedOff_k0_off1_11 (c : Dev nD) : ClosedOff (k0_off1 c 11#32) := ⟨![32 * (cross c (offA 6)).val, 0], by revert c; decide +kernel⟩
instance closedOff_k0_off1_4 (c : Dev nD) : ClosedOff (k0_off1 c 4#32) := ⟨![32 * (cross c (offA 7)).val, 0], by revert c; decide +kernel⟩
instance closedOff_k0_off1_12 (c : Dev nD) : ClosedOff (k0_off1 c 12#32) := ⟨![32 * (cross c (offA 8)).val, 0], by revert c; decide +kernel⟩
instance closedOff_k0_off1_3 (c : Dev nD) : ClosedOff (k0_off1 c 3#32) := ⟨![32 * (cross c (offA 9)).val, 0], by revert c; decide +kernel⟩
instance closedOff_k0_off1_13 (c : Dev nD) : ClosedOff (k0_off1 c 13#32) := ⟨![32 * (cross c (offA 10)).val, 0], by revert c; decide +kernel⟩
instance closedOff_k0_off1_2 (c : Dev nD) : ClosedOff (k0_off1 c 2#32) := ⟨![32 * (cross c (offA 11)).val, 0], by revert c; decide +kernel⟩
instance closedOff_k0_off1_14 (c : Dev nD) : ClosedOff (k0_off1 c 14#32) := ⟨![32 * (cross c (offA 12)).val, 0], by revert c; decide +kernel⟩
instance closedOff_k0_off1_1 (c : Dev nD) : ClosedOff (k0_off1 c 1#32) := ⟨![32 * (cross c (offA 13)).val, 0], by revert c; decide +kernel⟩
instance closedOff_k0_off1_15 (c : Dev nD) : ClosedOff (k0_off1 c 15#32) := ⟨![32 * (cross c (offA 14)).val, 0], by revert c; decide +kernel⟩
instance closedOff_k0_off1_16 (c : Dev nD) : ClosedOff (k0_off1 c 16#32) := ⟨![32 * (cross c (offA 15)).val, 0], by revert c; decide +kernel⟩
instance closedOff_k0_off2_8 (c : Dev nD) : ClosedOff (k0_off2 c 8#32) := ⟨![32 * (peer c (off 0)).val, 0], by revert c; decide +kernel⟩
instance closedOff_k0_off2_7 (c : Dev nD) : ClosedOff (k0_off2 c 7#32) := ⟨![32 * (peer c (off 1)).val, 0], by revert c; decide +kernel⟩
instance closedOff_k0_off2_9 (c : Dev nD) : ClosedOff (k0_off2 c 9#32) := ⟨![32 * (peer c (off 2)).val, 0], by revert c; decide +kernel⟩
instance closedOff_k0_off2_6 (c : Dev nD) : ClosedOff (k0_off2 c 6#32) := ⟨![32 * (peer c (off 3)).val, 0], by revert c; decide +kernel⟩
instance closedOff_k0_off2_10 (c : Dev nD) : ClosedOff (k0_off2 c 10#32) := ⟨![32 * (peer c (off 4)).val, 0], by revert c; decide +kernel⟩
instance closedOff_k0_off2_5 (c : Dev nD) : ClosedOff (k0_off2 c 5#32) := ⟨![32 * (peer c (off 5)).val, 0], by revert c; decide +kernel⟩
instance closedOff_k0_off2_11 (c : Dev nD) : ClosedOff (k0_off2 c 11#32) := ⟨![32 * (peer c (off 6)).val, 0], by revert c; decide +kernel⟩
instance closedOff_k0_off2_4 (c : Dev nD) : ClosedOff (k0_off2 c 4#32) := ⟨![32 * (peer c (off 7)).val, 0], by revert c; decide +kernel⟩
instance closedOff_k0_off2_12 (c : Dev nD) : ClosedOff (k0_off2 c 12#32) := ⟨![32 * (peer c (off 8)).val, 0], by revert c; decide +kernel⟩
instance closedOff_k0_off2_3 (c : Dev nD) : ClosedOff (k0_off2 c 3#32) := ⟨![32 * (peer c (off 9)).val, 0], by revert c; decide +kernel⟩
instance closedOff_k0_off2_13 (c : Dev nD) : ClosedOff (k0_off2 c 13#32) := ⟨![32 * (peer c (off 10)).val, 0], by revert c; decide +kernel⟩
instance closedOff_k0_off2_2 (c : Dev nD) : ClosedOff (k0_off2 c 2#32) := ⟨![32 * (peer c (off 11)).val, 0], by revert c; decide +kernel⟩
instance closedOff_k0_off2_14 (c : Dev nD) : ClosedOff (k0_off2 c 14#32) := ⟨![32 * (peer c (off 12)).val, 0], by revert c; decide +kernel⟩
instance closedOff_k0_off2_1 (c : Dev nD) : ClosedOff (k0_off2 c 1#32) := ⟨![32 * (peer c (off 13)).val, 0], by revert c; decide +kernel⟩
instance closedOff_k0_off2_15 (c : Dev nD) : ClosedOff (k0_off2 c 15#32) := ⟨![32 * (peer c (off 14)).val, 0], by revert c; decide +kernel⟩
instance closedOff_k0_off6_8 (c : Dev nD) : ClosedOff (k0_off6 c 8#32) := ⟨![rr (src c (off 0)).val], by revert c; decide +kernel⟩
instance closedOff_k0_off6_7 (c : Dev nD) : ClosedOff (k0_off6 c 7#32) := ⟨![rr (src c (off 1)).val], by revert c; decide +kernel⟩
instance closedOff_k0_off6_9 (c : Dev nD) : ClosedOff (k0_off6 c 9#32) := ⟨![rr (src c (off 2)).val], by revert c; decide +kernel⟩
instance closedOff_k0_off6_6 (c : Dev nD) : ClosedOff (k0_off6 c 6#32) := ⟨![rr (src c (off 3)).val], by revert c; decide +kernel⟩
instance closedOff_k0_off6_10 (c : Dev nD) : ClosedOff (k0_off6 c 10#32) := ⟨![rr (src c (off 4)).val], by revert c; decide +kernel⟩
instance closedOff_k0_off6_5 (c : Dev nD) : ClosedOff (k0_off6 c 5#32) := ⟨![rr (src c (off 5)).val], by revert c; decide +kernel⟩
instance closedOff_k0_off6_11 (c : Dev nD) : ClosedOff (k0_off6 c 11#32) := ⟨![rr (src c (off 6)).val], by revert c; decide +kernel⟩
instance closedOff_k0_off6_4 (c : Dev nD) : ClosedOff (k0_off6 c 4#32) := ⟨![rr (src c (off 7)).val], by revert c; decide +kernel⟩
instance closedOff_k0_off6_12 (c : Dev nD) : ClosedOff (k0_off6 c 12#32) := ⟨![rr (src c (off 8)).val], by revert c; decide +kernel⟩
instance closedOff_k0_off6_3 (c : Dev nD) : ClosedOff (k0_off6 c 3#32) := ⟨![rr (src c (off 9)).val], by revert c; decide +kernel⟩
instance closedOff_k0_off6_13 (c : Dev nD) : ClosedOff (k0_off6 c 13#32) := ⟨![rr (src c (off 10)).val], by revert c; decide +kernel⟩
instance closedOff_k0_off6_2 (c : Dev nD) : ClosedOff (k0_off6 c 2#32) := ⟨![rr (src c (off 11)).val], by revert c; decide +kernel⟩
instance closedOff_k0_off6_14 (c : Dev nD) : ClosedOff (k0_off6 c 14#32) := ⟨![rr (src c (off 12)).val], by revert c; decide +kernel⟩
instance closedOff_k0_off6_1 (c : Dev nD) : ClosedOff (k0_off6 c 1#32) := ⟨![rr (src c (off 13)).val], by revert c; decide +kernel⟩
instance closedOff_k0_off6_15 (c : Dev nD) : ClosedOff (k0_off6 c 15#32) := ⟨![rr (src c (off 14)).val], by revert c; decide +kernel⟩
instance closedOff_k0_off7_8 (c : Dev nD) : ClosedOff (k0_off7 c 8#32) := ⟨![rr (src c (off 0)).val, 0, 0], by revert c; decide +kernel⟩
instance closedOff_k0_off7_7 (c : Dev nD) : ClosedOff (k0_off7 c 7#32) := ⟨![rr (src c (off 1)).val, 0, 0], by revert c; decide +kernel⟩
instance closedOff_k0_off7_9 (c : Dev nD) : ClosedOff (k0_off7 c 9#32) := ⟨![rr (src c (off 2)).val, 0, 0], by revert c; decide +kernel⟩
instance closedOff_k0_off7_6 (c : Dev nD) : ClosedOff (k0_off7 c 6#32) := ⟨![rr (src c (off 3)).val, 0, 0], by revert c; decide +kernel⟩
instance closedOff_k0_off7_10 (c : Dev nD) : ClosedOff (k0_off7 c 10#32) := ⟨![rr (src c (off 4)).val, 0, 0], by revert c; decide +kernel⟩
instance closedOff_k0_off7_5 (c : Dev nD) : ClosedOff (k0_off7 c 5#32) := ⟨![rr (src c (off 5)).val, 0, 0], by revert c; decide +kernel⟩
instance closedOff_k0_off7_11 (c : Dev nD) : ClosedOff (k0_off7 c 11#32) := ⟨![rr (src c (off 6)).val, 0, 0], by revert c; decide +kernel⟩
instance closedOff_k0_off7_4 (c : Dev nD) : ClosedOff (k0_off7 c 4#32) := ⟨![rr (src c (off 7)).val, 0, 0], by revert c; decide +kernel⟩
instance closedOff_k0_off7_12 (c : Dev nD) : ClosedOff (k0_off7 c 12#32) := ⟨![rr (src c (off 8)).val, 0, 0], by revert c; decide +kernel⟩
instance closedOff_k0_off7_3 (c : Dev nD) : ClosedOff (k0_off7 c 3#32) := ⟨![rr (src c (off 9)).val, 0, 0], by revert c; decide +kernel⟩
instance closedOff_k0_off7_13 (c : Dev nD) : ClosedOff (k0_off7 c 13#32) := ⟨![rr (src c (off 10)).val, 0, 0], by revert c; decide +kernel⟩
instance closedOff_k0_off7_2 (c : Dev nD) : ClosedOff (k0_off7 c 2#32) := ⟨![rr (src c (off 11)).val, 0, 0], by revert c; decide +kernel⟩
instance closedOff_k0_off7_14 (c : Dev nD) : ClosedOff (k0_off7 c 14#32) := ⟨![rr (src c (off 12)).val, 0, 0], by revert c; decide +kernel⟩
instance closedOff_k0_off7_1 (c : Dev nD) : ClosedOff (k0_off7 c 1#32) := ⟨![rr (src c (off 13)).val, 0, 0], by revert c; decide +kernel⟩
instance closedOff_k0_off7_15 (c : Dev nD) : ClosedOff (k0_off7 c 15#32) := ⟨![rr (src c (off 14)).val, 0, 0], by revert c; decide +kernel⟩
instance closedOff_k0_off8_8 (c : Dev nD) : ClosedOff (k0_off8 c 8#32) := ⟨![rr (src c (off 0)).val, 0, 0], by revert c; decide +kernel⟩
instance closedOff_k0_off8_7 (c : Dev nD) : ClosedOff (k0_off8 c 7#32) := ⟨![rr (src c (off 1)).val, 0, 0], by revert c; decide +kernel⟩
instance closedOff_k0_off8_9 (c : Dev nD) : ClosedOff (k0_off8 c 9#32) := ⟨![rr (src c (off 2)).val, 0, 0], by revert c; decide +kernel⟩
instance closedOff_k0_off8_6 (c : Dev nD) : ClosedOff (k0_off8 c 6#32) := ⟨![rr (src c (off 3)).val, 0, 0], by revert c; decide +kernel⟩
instance closedOff_k0_off8_10 (c : Dev nD) : ClosedOff (k0_off8 c 10#32) := ⟨![rr (src c (off 4)).val, 0, 0], by revert c; decide +kernel⟩
instance closedOff_k0_off8_5 (c : Dev nD) : ClosedOff (k0_off8 c 5#32) := ⟨![rr (src c (off 5)).val, 0, 0], by revert c; decide +kernel⟩
instance closedOff_k0_off8_11 (c : Dev nD) : ClosedOff (k0_off8 c 11#32) := ⟨![rr (src c (off 6)).val, 0, 0], by revert c; decide +kernel⟩
instance closedOff_k0_off8_4 (c : Dev nD) : ClosedOff (k0_off8 c 4#32) := ⟨![rr (src c (off 7)).val, 0, 0], by revert c; decide +kernel⟩
instance closedOff_k0_off8_12 (c : Dev nD) : ClosedOff (k0_off8 c 12#32) := ⟨![rr (src c (off 8)).val, 0, 0], by revert c; decide +kernel⟩
instance closedOff_k0_off8_3 (c : Dev nD) : ClosedOff (k0_off8 c 3#32) := ⟨![rr (src c (off 9)).val, 0, 0], by revert c; decide +kernel⟩
instance closedOff_k0_off8_13 (c : Dev nD) : ClosedOff (k0_off8 c 13#32) := ⟨![rr (src c (off 10)).val, 0, 0], by revert c; decide +kernel⟩
instance closedOff_k0_off8_2 (c : Dev nD) : ClosedOff (k0_off8 c 2#32) := ⟨![rr (src c (off 11)).val, 0, 0], by revert c; decide +kernel⟩
instance closedOff_k0_off8_14 (c : Dev nD) : ClosedOff (k0_off8 c 14#32) := ⟨![rr (src c (off 12)).val, 0, 0], by revert c; decide +kernel⟩
instance closedOff_k0_off8_1 (c : Dev nD) : ClosedOff (k0_off8 c 1#32) := ⟨![rr (src c (off 13)).val, 0, 0], by revert c; decide +kernel⟩
instance closedOff_k0_off8_15 (c : Dev nD) : ClosedOff (k0_off8 c 15#32) := ⟨![rr (src c (off 14)).val, 0, 0], by revert c; decide +kernel⟩

/-! ## The barrier cells -/

section
variable (W1 W2 : Dev nD → Dev nD → Vec F S1x32x1024 .f32) (c : Dev nD)

/-- The barrier cell's duties, listed. -/
theorem duties_bar_list : (rd (F := F) W1 W2).duties (barCell c) 0 = {(0 : DN), (1 : DN), (2 : DN), (3 : DN), (4 : DN), (5 : DN), (6 : DN), (7 : DN), (8 : DN), (9 : DN), (10 : DN), (11 : DN), (12 : DN), (13 : DN), (14 : DN), (15 : DN)} := by
  rw [duties_bar]; decide

/-- What `c` hands its partner with its signal: its own sixteen first-phase receive slots. -/
theorem payload_bar_nbr : (rd (F := F) W1 W2).payload (barCell (nbr c)) 0 0
    = iprop((∃ f : Buf (Elt F) ((slot16 inboxM 0 (by decide)).view.loc (c : Thread nD τ)), ((slot16 inboxM 0 (by decide)).view.loc (c : Thread nD τ) ↦[(slot16 inboxM 0 (by decide)).view.set]{fullShare} f)) ∗ reached ER (dcell c (p1rS 0)) 0
      ∗ (∃ f : Buf (Elt F) ((slot16 inboxM 1 (by decide)).view.loc (c : Thread nD τ)), ((slot16 inboxM 1 (by decide)).view.loc (c : Thread nD τ) ↦[(slot16 inboxM 1 (by decide)).view.set]{fullShare} f)) ∗ reached ER (dcell c (p1rS 1)) 0
      ∗ (∃ f : Buf (Elt F) ((slot16 inboxM 2 (by decide)).view.loc (c : Thread nD τ)), ((slot16 inboxM 2 (by decide)).view.loc (c : Thread nD τ) ↦[(slot16 inboxM 2 (by decide)).view.set]{fullShare} f)) ∗ reached ER (dcell c (p1rS 2)) 0
      ∗ (∃ f : Buf (Elt F) ((slot16 inboxM 3 (by decide)).view.loc (c : Thread nD τ)), ((slot16 inboxM 3 (by decide)).view.loc (c : Thread nD τ) ↦[(slot16 inboxM 3 (by decide)).view.set]{fullShare} f)) ∗ reached ER (dcell c (p1rS 3)) 0
      ∗ (∃ f : Buf (Elt F) ((slot16 inboxM 4 (by decide)).view.loc (c : Thread nD τ)), ((slot16 inboxM 4 (by decide)).view.loc (c : Thread nD τ) ↦[(slot16 inboxM 4 (by decide)).view.set]{fullShare} f)) ∗ reached ER (dcell c (p1rS 4)) 0
      ∗ (∃ f : Buf (Elt F) ((slot16 inboxM 5 (by decide)).view.loc (c : Thread nD τ)), ((slot16 inboxM 5 (by decide)).view.loc (c : Thread nD τ) ↦[(slot16 inboxM 5 (by decide)).view.set]{fullShare} f)) ∗ reached ER (dcell c (p1rS 5)) 0
      ∗ (∃ f : Buf (Elt F) ((slot16 inboxM 6 (by decide)).view.loc (c : Thread nD τ)), ((slot16 inboxM 6 (by decide)).view.loc (c : Thread nD τ) ↦[(slot16 inboxM 6 (by decide)).view.set]{fullShare} f)) ∗ reached ER (dcell c (p1rS 6)) 0
      ∗ (∃ f : Buf (Elt F) ((slot16 inboxM 7 (by decide)).view.loc (c : Thread nD τ)), ((slot16 inboxM 7 (by decide)).view.loc (c : Thread nD τ) ↦[(slot16 inboxM 7 (by decide)).view.set]{fullShare} f)) ∗ reached ER (dcell c (p1rS 7)) 0
      ∗ (∃ f : Buf (Elt F) ((slot16 inboxM 8 (by decide)).view.loc (c : Thread nD τ)), ((slot16 inboxM 8 (by decide)).view.loc (c : Thread nD τ) ↦[(slot16 inboxM 8 (by decide)).view.set]{fullShare} f)) ∗ reached ER (dcell c (p1rS 8)) 0
      ∗ (∃ f : Buf (Elt F) ((slot16 inboxM 9 (by decide)).view.loc (c : Thread nD τ)), ((slot16 inboxM 9 (by decide)).view.loc (c : Thread nD τ) ↦[(slot16 inboxM 9 (by decide)).view.set]{fullShare} f)) ∗ reached ER (dcell c (p1rS 9)) 0
      ∗ (∃ f : Buf (Elt F) ((slot16 inboxM 10 (by decide)).view.loc (c : Thread nD τ)), ((slot16 inboxM 10 (by decide)).view.loc (c : Thread nD τ) ↦[(slot16 inboxM 10 (by decide)).view.set]{fullShare} f)) ∗ reached ER (dcell c (p1rS 10)) 0
      ∗ (∃ f : Buf (Elt F) ((slot16 inboxM 11 (by decide)).view.loc (c : Thread nD τ)), ((slot16 inboxM 11 (by decide)).view.loc (c : Thread nD τ) ↦[(slot16 inboxM 11 (by decide)).view.set]{fullShare} f)) ∗ reached ER (dcell c (p1rS 11)) 0
      ∗ (∃ f : Buf (Elt F) ((slot16 inboxM 12 (by decide)).view.loc (c : Thread nD τ)), ((slot16 inboxM 12 (by decide)).view.loc (c : Thread nD τ) ↦[(slot16 inboxM 12 (by decide)).view.set]{fullShare} f)) ∗ reached ER (dcell c (p1rS 12)) 0
      ∗ (∃ f : Buf (Elt F) ((slot16 inboxM 13 (by decide)).view.loc (c : Thread nD τ)), ((slot16 inboxM 13 (by decide)).view.loc (c : Thread nD τ) ↦[(slot16 inboxM 13 (by decide)).view.set]{fullShare} f)) ∗ reached ER (dcell c (p1rS 13)) 0
      ∗ (∃ f : Buf (Elt F) ((slot16 inboxM 14 (by decide)).view.loc (c : Thread nD τ)), ((slot16 inboxM 14 (by decide)).view.loc (c : Thread nD τ) ↦[(slot16 inboxM 14 (by decide)).view.set]{fullShare} f)) ∗ reached ER (dcell c (p1rS 14)) 0
      ∗ (∃ f : Buf (Elt F) ((slot16 inboxM 15 (by decide)).view.loc (c : Thread nD τ)), ((slot16 inboxM 15 (by decide)).view.loc (c : Thread nD τ) ↦[(slot16 inboxM 15 (by decide)).view.set]{fullShare} f)) ∗ reached ER (dcell c (p1rS 15)) 0) := by
  rw [payload_bar, barPay_zero, nbr_nbr]; rfl

/-- What `c` hands the peer `off 0` further on: its own second-phase receive slot of that peer's pair. -/
theorem payload_bar_peer0 : (rd (F := F) W1 W2).payload (barCell (peer c (off 0))) 0 (1 : DN)
    = iprop((∃ f : Buf (Elt F) ((slot16 gatherM (rr (peer c (off 0)).val) (rr_lt (peer c (off 0)))).view.loc (c : Thread nD τ)), ((slot16 gatherM (rr (peer c (off 0)).val) (rr_lt (peer c (off 0)))).view.loc (c : Thread nD τ) ↦[(slot16 gatherM (rr (peer c (off 0)).val) (rr_lt (peer c (off 0)))).view.set]{fullShare} f)) ∗ reached ER (dcell c (p2rS (pairOf (peer c (off 0))))) 0) := by
  rw [payload_bar, show ((1 : DN)) = ⟨(0 : Fin 15).val + 1, by decide⟩ from rfl, barPay_succ, src_peer]
/-- What `c` hands the peer `off 1` further on: its own second-phase receive slot of that peer's pair. -/
theorem payload_bar_peer1 : (rd (F := F) W1 W2).payload (barCell (peer c (off 1))) 0 (2 : DN)
    = iprop((∃ f : Buf (Elt F) ((slot16 gatherM (rr (peer c (off 1)).val) (rr_lt (peer c (off 1)))).view.loc (c : Thread nD τ)), ((slot16 gatherM (rr (peer c (off 1)).val) (rr_lt (peer c (off 1)))).view.loc (c : Thread nD τ) ↦[(slot16 gatherM (rr (peer c (off 1)).val) (rr_lt (peer c (off 1)))).view.set]{fullShare} f)) ∗ reached ER (dcell c (p2rS (pairOf (peer c (off 1))))) 0) := by
  rw [payload_bar, show ((2 : DN)) = ⟨(1 : Fin 15).val + 1, by decide⟩ from rfl, barPay_succ, src_peer]
/-- What `c` hands the peer `off 2` further on: its own second-phase receive slot of that peer's pair. -/
theorem payload_bar_peer2 : (rd (F := F) W1 W2).payload (barCell (peer c (off 2))) 0 (3 : DN)
    = iprop((∃ f : Buf (Elt F) ((slot16 gatherM (rr (peer c (off 2)).val) (rr_lt (peer c (off 2)))).view.loc (c : Thread nD τ)), ((slot16 gatherM (rr (peer c (off 2)).val) (rr_lt (peer c (off 2)))).view.loc (c : Thread nD τ) ↦[(slot16 gatherM (rr (peer c (off 2)).val) (rr_lt (peer c (off 2)))).view.set]{fullShare} f)) ∗ reached ER (dcell c (p2rS (pairOf (peer c (off 2))))) 0) := by
  rw [payload_bar, show ((3 : DN)) = ⟨(2 : Fin 15).val + 1, by decide⟩ from rfl, barPay_succ, src_peer]
/-- What `c` hands the peer `off 3` further on: its own second-phase receive slot of that peer's pair. -/
theorem payload_bar_peer3 : (rd (F := F) W1 W2).payload (barCell (peer c (off 3))) 0 (4 : DN)
    = iprop((∃ f : Buf (Elt F) ((slot16 gatherM (rr (peer c (off 3)).val) (rr_lt (peer c (off 3)))).view.loc (c : Thread nD τ)), ((slot16 gatherM (rr (peer c (off 3)).val) (rr_lt (peer c (off 3)))).view.loc (c : Thread nD τ) ↦[(slot16 gatherM (rr (peer c (off 3)).val) (rr_lt (peer c (off 3)))).view.set]{fullShare} f)) ∗ reached ER (dcell c (p2rS (pairOf (peer c (off 3))))) 0) := by
  rw [payload_bar, show ((4 : DN)) = ⟨(3 : Fin 15).val + 1, by decide⟩ from rfl, barPay_succ, src_peer]
/-- What `c` hands the peer `off 4` further on: its own second-phase receive slot of that peer's pair. -/
theorem payload_bar_peer4 : (rd (F := F) W1 W2).payload (barCell (peer c (off 4))) 0 (5 : DN)
    = iprop((∃ f : Buf (Elt F) ((slot16 gatherM (rr (peer c (off 4)).val) (rr_lt (peer c (off 4)))).view.loc (c : Thread nD τ)), ((slot16 gatherM (rr (peer c (off 4)).val) (rr_lt (peer c (off 4)))).view.loc (c : Thread nD τ) ↦[(slot16 gatherM (rr (peer c (off 4)).val) (rr_lt (peer c (off 4)))).view.set]{fullShare} f)) ∗ reached ER (dcell c (p2rS (pairOf (peer c (off 4))))) 0) := by
  rw [payload_bar, show ((5 : DN)) = ⟨(4 : Fin 15).val + 1, by decide⟩ from rfl, barPay_succ, src_peer]
/-- What `c` hands the peer `off 5` further on: its own second-phase receive slot of that peer's pair. -/
theorem payload_bar_peer5 : (rd (F := F) W1 W2).payload (barCell (peer c (off 5))) 0 (6 : DN)
    = iprop((∃ f : Buf (Elt F) ((slot16 gatherM (rr (peer c (off 5)).val) (rr_lt (peer c (off 5)))).view.loc (c : Thread nD τ)), ((slot16 gatherM (rr (peer c (off 5)).val) (rr_lt (peer c (off 5)))).view.loc (c : Thread nD τ) ↦[(slot16 gatherM (rr (peer c (off 5)).val) (rr_lt (peer c (off 5)))).view.set]{fullShare} f)) ∗ reached ER (dcell c (p2rS (pairOf (peer c (off 5))))) 0) := by
  rw [payload_bar, show ((6 : DN)) = ⟨(5 : Fin 15).val + 1, by decide⟩ from rfl, barPay_succ, src_peer]
/-- What `c` hands the peer `off 6` further on: its own second-phase receive slot of that peer's pair. -/
theorem payload_bar_peer6 : (rd (F := F) W1 W2).payload (barCell (peer c (off 6))) 0 (7 : DN)
    = iprop((∃ f : Buf (Elt F) ((slot16 gatherM (rr (peer c (off 6)).val) (rr_lt (peer c (off 6)))).view.loc (c : Thread nD τ)), ((slot16 gatherM (rr (peer c (off 6)).val) (rr_lt (peer c (off 6)))).view.loc (c : Thread nD τ) ↦[(slot16 gatherM (rr (peer c (off 6)).val) (rr_lt (peer c (off 6)))).view.set]{fullShare} f)) ∗ reached ER (dcell c (p2rS (pairOf (peer c (off 6))))) 0) := by
  rw [payload_bar, show ((7 : DN)) = ⟨(6 : Fin 15).val + 1, by decide⟩ from rfl, barPay_succ, src_peer]
/-- What `c` hands the peer `off 7` further on: its own second-phase receive slot of that peer's pair. -/
theorem payload_bar_peer7 : (rd (F := F) W1 W2).payload (barCell (peer c (off 7))) 0 (8 : DN)
    = iprop((∃ f : Buf (Elt F) ((slot16 gatherM (rr (peer c (off 7)).val) (rr_lt (peer c (off 7)))).view.loc (c : Thread nD τ)), ((slot16 gatherM (rr (peer c (off 7)).val) (rr_lt (peer c (off 7)))).view.loc (c : Thread nD τ) ↦[(slot16 gatherM (rr (peer c (off 7)).val) (rr_lt (peer c (off 7)))).view.set]{fullShare} f)) ∗ reached ER (dcell c (p2rS (pairOf (peer c (off 7))))) 0) := by
  rw [payload_bar, show ((8 : DN)) = ⟨(7 : Fin 15).val + 1, by decide⟩ from rfl, barPay_succ, src_peer]
/-- What `c` hands the peer `off 8` further on: its own second-phase receive slot of that peer's pair. -/
theorem payload_bar_peer8 : (rd (F := F) W1 W2).payload (barCell (peer c (off 8))) 0 (9 : DN)
    = iprop((∃ f : Buf (Elt F) ((slot16 gatherM (rr (peer c (off 8)).val) (rr_lt (peer c (off 8)))).view.loc (c : Thread nD τ)), ((slot16 gatherM (rr (peer c (off 8)).val) (rr_lt (peer c (off 8)))).view.loc (c : Thread nD τ) ↦[(slot16 gatherM (rr (peer c (off 8)).val) (rr_lt (peer c (off 8)))).view.set]{fullShare} f)) ∗ reached ER (dcell c (p2rS (pairOf (peer c (off 8))))) 0) := by
  rw [payload_bar, show ((9 : DN)) = ⟨(8 : Fin 15).val + 1, by decide⟩ from rfl, barPay_succ, src_peer]
/-- What `c` hands the peer `off 9` further on: its own second-phase receive slot of that peer's pair. -/
theorem payload_bar_peer9 : (rd (F := F) W1 W2).payload (barCell (peer c (off 9))) 0 (10 : DN)
    = iprop((∃ f : Buf (Elt F) ((slot16 gatherM (rr (peer c (off 9)).val) (rr_lt (peer c (off 9)))).view.loc (c : Thread nD τ)), ((slot16 gatherM (rr (peer c (off 9)).val) (rr_lt (peer c (off 9)))).view.loc (c : Thread nD τ) ↦[(slot16 gatherM (rr (peer c (off 9)).val) (rr_lt (peer c (off 9)))).view.set]{fullShare} f)) ∗ reached ER (dcell c (p2rS (pairOf (peer c (off 9))))) 0) := by
  rw [payload_bar, show ((10 : DN)) = ⟨(9 : Fin 15).val + 1, by decide⟩ from rfl, barPay_succ, src_peer]
/-- What `c` hands the peer `off 10` further on: its own second-phase receive slot of that peer's pair. -/
theorem payload_bar_peer10 : (rd (F := F) W1 W2).payload (barCell (peer c (off 10))) 0 (11 : DN)
    = iprop((∃ f : Buf (Elt F) ((slot16 gatherM (rr (peer c (off 10)).val) (rr_lt (peer c (off 10)))).view.loc (c : Thread nD τ)), ((slot16 gatherM (rr (peer c (off 10)).val) (rr_lt (peer c (off 10)))).view.loc (c : Thread nD τ) ↦[(slot16 gatherM (rr (peer c (off 10)).val) (rr_lt (peer c (off 10)))).view.set]{fullShare} f)) ∗ reached ER (dcell c (p2rS (pairOf (peer c (off 10))))) 0) := by
  rw [payload_bar, show ((11 : DN)) = ⟨(10 : Fin 15).val + 1, by decide⟩ from rfl, barPay_succ, src_peer]
/-- What `c` hands the peer `off 11` further on: its own second-phase receive slot of that peer's pair. -/
theorem payload_bar_peer11 : (rd (F := F) W1 W2).payload (barCell (peer c (off 11))) 0 (12 : DN)
    = iprop((∃ f : Buf (Elt F) ((slot16 gatherM (rr (peer c (off 11)).val) (rr_lt (peer c (off 11)))).view.loc (c : Thread nD τ)), ((slot16 gatherM (rr (peer c (off 11)).val) (rr_lt (peer c (off 11)))).view.loc (c : Thread nD τ) ↦[(slot16 gatherM (rr (peer c (off 11)).val) (rr_lt (peer c (off 11)))).view.set]{fullShare} f)) ∗ reached ER (dcell c (p2rS (pairOf (peer c (off 11))))) 0) := by
  rw [payload_bar, show ((12 : DN)) = ⟨(11 : Fin 15).val + 1, by decide⟩ from rfl, barPay_succ, src_peer]
/-- What `c` hands the peer `off 12` further on: its own second-phase receive slot of that peer's pair. -/
theorem payload_bar_peer12 : (rd (F := F) W1 W2).payload (barCell (peer c (off 12))) 0 (13 : DN)
    = iprop((∃ f : Buf (Elt F) ((slot16 gatherM (rr (peer c (off 12)).val) (rr_lt (peer c (off 12)))).view.loc (c : Thread nD τ)), ((slot16 gatherM (rr (peer c (off 12)).val) (rr_lt (peer c (off 12)))).view.loc (c : Thread nD τ) ↦[(slot16 gatherM (rr (peer c (off 12)).val) (rr_lt (peer c (off 12)))).view.set]{fullShare} f)) ∗ reached ER (dcell c (p2rS (pairOf (peer c (off 12))))) 0) := by
  rw [payload_bar, show ((13 : DN)) = ⟨(12 : Fin 15).val + 1, by decide⟩ from rfl, barPay_succ, src_peer]
/-- What `c` hands the peer `off 13` further on: its own second-phase receive slot of that peer's pair. -/
theorem payload_bar_peer13 : (rd (F := F) W1 W2).payload (barCell (peer c (off 13))) 0 (14 : DN)
    = iprop((∃ f : Buf (Elt F) ((slot16 gatherM (rr (peer c (off 13)).val) (rr_lt (peer c (off 13)))).view.loc (c : Thread nD τ)), ((slot16 gatherM (rr (peer c (off 13)).val) (rr_lt (peer c (off 13)))).view.loc (c : Thread nD τ) ↦[(slot16 gatherM (rr (peer c (off 13)).val) (rr_lt (peer c (off 13)))).view.set]{fullShare} f)) ∗ reached ER (dcell c (p2rS (pairOf (peer c (off 13))))) 0) := by
  rw [payload_bar, show ((14 : DN)) = ⟨(13 : Fin 15).val + 1, by decide⟩ from rfl, barPay_succ, src_peer]
/-- What `c` hands the peer `off 14` further on: its own second-phase receive slot of that peer's pair. -/
theorem payload_bar_peer14 : (rd (F := F) W1 W2).payload (barCell (peer c (off 14))) 0 (15 : DN)
    = iprop((∃ f : Buf (Elt F) ((slot16 gatherM (rr (peer c (off 14)).val) (rr_lt (peer c (off 14)))).view.loc (c : Thread nD τ)), ((slot16 gatherM (rr (peer c (off 14)).val) (rr_lt (peer c (off 14)))).view.loc (c : Thread nD τ) ↦[(slot16 gatherM (rr (peer c (off 14)).val) (rr_lt (peer c (off 14)))).view.set]{fullShare} f)) ∗ reached ER (dcell c (p2rS (pairOf (peer c (off 14))))) 0) := by
  rw [payload_bar, show ((15 : DN)) = ⟨(14 : Fin 15).val + 1, by decide⟩ from rfl, barPay_succ, src_peer]

/-- What the partner's signal hands `c`: the partner's sixteen first-phase receive slots. -/
theorem payload_bar_own0 : (rd (F := F) W1 W2).payload (barCell c) 0 0
    = iprop((∃ f : Buf (Elt F) ((slot16 inboxM 0 (by decide)).view.loc ((nbr c) : Thread nD τ)), ((slot16 inboxM 0 (by decide)).view.loc ((nbr c) : Thread nD τ) ↦[(slot16 inboxM 0 (by decide)).view.set]{fullShare} f)) ∗ reached ER (dcell (nbr c) (p1rS 0)) 0
      ∗ (∃ f : Buf (Elt F) ((slot16 inboxM 1 (by decide)).view.loc ((nbr c) : Thread nD τ)), ((slot16 inboxM 1 (by decide)).view.loc ((nbr c) : Thread nD τ) ↦[(slot16 inboxM 1 (by decide)).view.set]{fullShare} f)) ∗ reached ER (dcell (nbr c) (p1rS 1)) 0
      ∗ (∃ f : Buf (Elt F) ((slot16 inboxM 2 (by decide)).view.loc ((nbr c) : Thread nD τ)), ((slot16 inboxM 2 (by decide)).view.loc ((nbr c) : Thread nD τ) ↦[(slot16 inboxM 2 (by decide)).view.set]{fullShare} f)) ∗ reached ER (dcell (nbr c) (p1rS 2)) 0
      ∗ (∃ f : Buf (Elt F) ((slot16 inboxM 3 (by decide)).view.loc ((nbr c) : Thread nD τ)), ((slot16 inboxM 3 (by decide)).view.loc ((nbr c) : Thread nD τ) ↦[(slot16 inboxM 3 (by decide)).view.set]{fullShare} f)) ∗ reached ER (dcell (nbr c) (p1rS 3)) 0
      ∗ (∃ f : Buf (Elt F) ((slot16 inboxM 4 (by decide)).view.loc ((nbr c) : Thread nD τ)), ((slot16 inboxM 4 (by decide)).view.loc ((nbr c) : Thread nD τ) ↦[(slot16 inboxM 4 (by decide)).view.set]{fullShare} f)) ∗ reached ER (dcell (nbr c) (p1rS 4)) 0
      ∗ (∃ f : Buf (Elt F) ((slot16 inboxM 5 (by decide)).view.loc ((nbr c) : Thread nD τ)), ((slot16 inboxM 5 (by decide)).view.loc ((nbr c) : Thread nD τ) ↦[(slot16 inboxM 5 (by decide)).view.set]{fullShare} f)) ∗ reached ER (dcell (nbr c) (p1rS 5)) 0
      ∗ (∃ f : Buf (Elt F) ((slot16 inboxM 6 (by decide)).view.loc ((nbr c) : Thread nD τ)), ((slot16 inboxM 6 (by decide)).view.loc ((nbr c) : Thread nD τ) ↦[(slot16 inboxM 6 (by decide)).view.set]{fullShare} f)) ∗ reached ER (dcell (nbr c) (p1rS 6)) 0
      ∗ (∃ f : Buf (Elt F) ((slot16 inboxM 7 (by decide)).view.loc ((nbr c) : Thread nD τ)), ((slot16 inboxM 7 (by decide)).view.loc ((nbr c) : Thread nD τ) ↦[(slot16 inboxM 7 (by decide)).view.set]{fullShare} f)) ∗ reached ER (dcell (nbr c) (p1rS 7)) 0
      ∗ (∃ f : Buf (Elt F) ((slot16 inboxM 8 (by decide)).view.loc ((nbr c) : Thread nD τ)), ((slot16 inboxM 8 (by decide)).view.loc ((nbr c) : Thread nD τ) ↦[(slot16 inboxM 8 (by decide)).view.set]{fullShare} f)) ∗ reached ER (dcell (nbr c) (p1rS 8)) 0
      ∗ (∃ f : Buf (Elt F) ((slot16 inboxM 9 (by decide)).view.loc ((nbr c) : Thread nD τ)), ((slot16 inboxM 9 (by decide)).view.loc ((nbr c) : Thread nD τ) ↦[(slot16 inboxM 9 (by decide)).view.set]{fullShare} f)) ∗ reached ER (dcell (nbr c) (p1rS 9)) 0
      ∗ (∃ f : Buf (Elt F) ((slot16 inboxM 10 (by decide)).view.loc ((nbr c) : Thread nD τ)), ((slot16 inboxM 10 (by decide)).view.loc ((nbr c) : Thread nD τ) ↦[(slot16 inboxM 10 (by decide)).view.set]{fullShare} f)) ∗ reached ER (dcell (nbr c) (p1rS 10)) 0
      ∗ (∃ f : Buf (Elt F) ((slot16 inboxM 11 (by decide)).view.loc ((nbr c) : Thread nD τ)), ((slot16 inboxM 11 (by decide)).view.loc ((nbr c) : Thread nD τ) ↦[(slot16 inboxM 11 (by decide)).view.set]{fullShare} f)) ∗ reached ER (dcell (nbr c) (p1rS 11)) 0
      ∗ (∃ f : Buf (Elt F) ((slot16 inboxM 12 (by decide)).view.loc ((nbr c) : Thread nD τ)), ((slot16 inboxM 12 (by decide)).view.loc ((nbr c) : Thread nD τ) ↦[(slot16 inboxM 12 (by decide)).view.set]{fullShare} f)) ∗ reached ER (dcell (nbr c) (p1rS 12)) 0
      ∗ (∃ f : Buf (Elt F) ((slot16 inboxM 13 (by decide)).view.loc ((nbr c) : Thread nD τ)), ((slot16 inboxM 13 (by decide)).view.loc ((nbr c) : Thread nD τ) ↦[(slot16 inboxM 13 (by decide)).view.set]{fullShare} f)) ∗ reached ER (dcell (nbr c) (p1rS 13)) 0
      ∗ (∃ f : Buf (Elt F) ((slot16 inboxM 14 (by decide)).view.loc ((nbr c) : Thread nD τ)), ((slot16 inboxM 14 (by decide)).view.loc ((nbr c) : Thread nD τ) ↦[(slot16 inboxM 14 (by decide)).view.set]{fullShare} f)) ∗ reached ER (dcell (nbr c) (p1rS 14)) 0
      ∗ (∃ f : Buf (Elt F) ((slot16 inboxM 15 (by decide)).view.loc ((nbr c) : Thread nD τ)), ((slot16 inboxM 15 (by decide)).view.loc ((nbr c) : Thread nD τ) ↦[(slot16 inboxM 15 (by decide)).view.set]{fullShare} f)) ∗ reached ER (dcell (nbr c) (p1rS 15)) 0) := by
  rw [payload_bar, barPay_zero]; rfl

/-- What the signal of the device `off 0` pairs back hands `c`: that device's receive slot of the pair of `c`. -/
theorem payload_bar_own1 : (rd (F := F) W1 W2).payload (barCell c) 0 (1 : DN)
    = iprop((∃ f : Buf (Elt F) ((slot16 gatherM (rr c.val) (rr_lt c)).view.loc ((src c (off 0)) : Thread nD τ)), ((slot16 gatherM (rr c.val) (rr_lt c)).view.loc ((src c (off 0)) : Thread nD τ) ↦[(slot16 gatherM (rr c.val) (rr_lt c)).view.set]{fullShare} f)) ∗ reached ER (dcell (src c (off 0)) (p2rS (pairOf c))) 0) := by
  rw [payload_bar, show ((1 : DN)) = ⟨(0 : Fin 15).val + 1, by decide⟩ from rfl, barPay_succ]
/-- What the signal of the device `off 1` pairs back hands `c`: that device's receive slot of the pair of `c`. -/
theorem payload_bar_own2 : (rd (F := F) W1 W2).payload (barCell c) 0 (2 : DN)
    = iprop((∃ f : Buf (Elt F) ((slot16 gatherM (rr c.val) (rr_lt c)).view.loc ((src c (off 1)) : Thread nD τ)), ((slot16 gatherM (rr c.val) (rr_lt c)).view.loc ((src c (off 1)) : Thread nD τ) ↦[(slot16 gatherM (rr c.val) (rr_lt c)).view.set]{fullShare} f)) ∗ reached ER (dcell (src c (off 1)) (p2rS (pairOf c))) 0) := by
  rw [payload_bar, show ((2 : DN)) = ⟨(1 : Fin 15).val + 1, by decide⟩ from rfl, barPay_succ]
/-- What the signal of the device `off 2` pairs back hands `c`: that device's receive slot of the pair of `c`. -/
theorem payload_bar_own3 : (rd (F := F) W1 W2).payload (barCell c) 0 (3 : DN)
    = iprop((∃ f : Buf (Elt F) ((slot16 gatherM (rr c.val) (rr_lt c)).view.loc ((src c (off 2)) : Thread nD τ)), ((slot16 gatherM (rr c.val) (rr_lt c)).view.loc ((src c (off 2)) : Thread nD τ) ↦[(slot16 gatherM (rr c.val) (rr_lt c)).view.set]{fullShare} f)) ∗ reached ER (dcell (src c (off 2)) (p2rS (pairOf c))) 0) := by
  rw [payload_bar, show ((3 : DN)) = ⟨(2 : Fin 15).val + 1, by decide⟩ from rfl, barPay_succ]
/-- What the signal of the device `off 3` pairs back hands `c`: that device's receive slot of the pair of `c`. -/
theorem payload_bar_own4 : (rd (F := F) W1 W2).payload (barCell c) 0 (4 : DN)
    = iprop((∃ f : Buf (Elt F) ((slot16 gatherM (rr c.val) (rr_lt c)).view.loc ((src c (off 3)) : Thread nD τ)), ((slot16 gatherM (rr c.val) (rr_lt c)).view.loc ((src c (off 3)) : Thread nD τ) ↦[(slot16 gatherM (rr c.val) (rr_lt c)).view.set]{fullShare} f)) ∗ reached ER (dcell (src c (off 3)) (p2rS (pairOf c))) 0) := by
  rw [payload_bar, show ((4 : DN)) = ⟨(3 : Fin 15).val + 1, by decide⟩ from rfl, barPay_succ]
/-- What the signal of the device `off 4` pairs back hands `c`: that device's receive slot of the pair of `c`. -/
theorem payload_bar_own5 : (rd (F := F) W1 W2).payload (barCell c) 0 (5 : DN)
    = iprop((∃ f : Buf (Elt F) ((slot16 gatherM (rr c.val) (rr_lt c)).view.loc ((src c (off 4)) : Thread nD τ)), ((slot16 gatherM (rr c.val) (rr_lt c)).view.loc ((src c (off 4)) : Thread nD τ) ↦[(slot16 gatherM (rr c.val) (rr_lt c)).view.set]{fullShare} f)) ∗ reached ER (dcell (src c (off 4)) (p2rS (pairOf c))) 0) := by
  rw [payload_bar, show ((5 : DN)) = ⟨(4 : Fin 15).val + 1, by decide⟩ from rfl, barPay_succ]
/-- What the signal of the device `off 5` pairs back hands `c`: that device's receive slot of the pair of `c`. -/
theorem payload_bar_own6 : (rd (F := F) W1 W2).payload (barCell c) 0 (6 : DN)
    = iprop((∃ f : Buf (Elt F) ((slot16 gatherM (rr c.val) (rr_lt c)).view.loc ((src c (off 5)) : Thread nD τ)), ((slot16 gatherM (rr c.val) (rr_lt c)).view.loc ((src c (off 5)) : Thread nD τ) ↦[(slot16 gatherM (rr c.val) (rr_lt c)).view.set]{fullShare} f)) ∗ reached ER (dcell (src c (off 5)) (p2rS (pairOf c))) 0) := by
  rw [payload_bar, show ((6 : DN)) = ⟨(5 : Fin 15).val + 1, by decide⟩ from rfl, barPay_succ]
/-- What the signal of the device `off 6` pairs back hands `c`: that device's receive slot of the pair of `c`. -/
theorem payload_bar_own7 : (rd (F := F) W1 W2).payload (barCell c) 0 (7 : DN)
    = iprop((∃ f : Buf (Elt F) ((slot16 gatherM (rr c.val) (rr_lt c)).view.loc ((src c (off 6)) : Thread nD τ)), ((slot16 gatherM (rr c.val) (rr_lt c)).view.loc ((src c (off 6)) : Thread nD τ) ↦[(slot16 gatherM (rr c.val) (rr_lt c)).view.set]{fullShare} f)) ∗ reached ER (dcell (src c (off 6)) (p2rS (pairOf c))) 0) := by
  rw [payload_bar, show ((7 : DN)) = ⟨(6 : Fin 15).val + 1, by decide⟩ from rfl, barPay_succ]
/-- What the signal of the device `off 7` pairs back hands `c`: that device's receive slot of the pair of `c`. -/
theorem payload_bar_own8 : (rd (F := F) W1 W2).payload (barCell c) 0 (8 : DN)
    = iprop((∃ f : Buf (Elt F) ((slot16 gatherM (rr c.val) (rr_lt c)).view.loc ((src c (off 7)) : Thread nD τ)), ((slot16 gatherM (rr c.val) (rr_lt c)).view.loc ((src c (off 7)) : Thread nD τ) ↦[(slot16 gatherM (rr c.val) (rr_lt c)).view.set]{fullShare} f)) ∗ reached ER (dcell (src c (off 7)) (p2rS (pairOf c))) 0) := by
  rw [payload_bar, show ((8 : DN)) = ⟨(7 : Fin 15).val + 1, by decide⟩ from rfl, barPay_succ]
/-- What the signal of the device `off 8` pairs back hands `c`: that device's receive slot of the pair of `c`. -/
theorem payload_bar_own9 : (rd (F := F) W1 W2).payload (barCell c) 0 (9 : DN)
    = iprop((∃ f : Buf (Elt F) ((slot16 gatherM (rr c.val) (rr_lt c)).view.loc ((src c (off 8)) : Thread nD τ)), ((slot16 gatherM (rr c.val) (rr_lt c)).view.loc ((src c (off 8)) : Thread nD τ) ↦[(slot16 gatherM (rr c.val) (rr_lt c)).view.set]{fullShare} f)) ∗ reached ER (dcell (src c (off 8)) (p2rS (pairOf c))) 0) := by
  rw [payload_bar, show ((9 : DN)) = ⟨(8 : Fin 15).val + 1, by decide⟩ from rfl, barPay_succ]
/-- What the signal of the device `off 9` pairs back hands `c`: that device's receive slot of the pair of `c`. -/
theorem payload_bar_own10 : (rd (F := F) W1 W2).payload (barCell c) 0 (10 : DN)
    = iprop((∃ f : Buf (Elt F) ((slot16 gatherM (rr c.val) (rr_lt c)).view.loc ((src c (off 9)) : Thread nD τ)), ((slot16 gatherM (rr c.val) (rr_lt c)).view.loc ((src c (off 9)) : Thread nD τ) ↦[(slot16 gatherM (rr c.val) (rr_lt c)).view.set]{fullShare} f)) ∗ reached ER (dcell (src c (off 9)) (p2rS (pairOf c))) 0) := by
  rw [payload_bar, show ((10 : DN)) = ⟨(9 : Fin 15).val + 1, by decide⟩ from rfl, barPay_succ]
/-- What the signal of the device `off 10` pairs back hands `c`: that device's receive slot of the pair of `c`. -/
theorem payload_bar_own11 : (rd (F := F) W1 W2).payload (barCell c) 0 (11 : DN)
    = iprop((∃ f : Buf (Elt F) ((slot16 gatherM (rr c.val) (rr_lt c)).view.loc ((src c (off 10)) : Thread nD τ)), ((slot16 gatherM (rr c.val) (rr_lt c)).view.loc ((src c (off 10)) : Thread nD τ) ↦[(slot16 gatherM (rr c.val) (rr_lt c)).view.set]{fullShare} f)) ∗ reached ER (dcell (src c (off 10)) (p2rS (pairOf c))) 0) := by
  rw [payload_bar, show ((11 : DN)) = ⟨(10 : Fin 15).val + 1, by decide⟩ from rfl, barPay_succ]
/-- What the signal of the device `off 11` pairs back hands `c`: that device's receive slot of the pair of `c`. -/
theorem payload_bar_own12 : (rd (F := F) W1 W2).payload (barCell c) 0 (12 : DN)
    = iprop((∃ f : Buf (Elt F) ((slot16 gatherM (rr c.val) (rr_lt c)).view.loc ((src c (off 11)) : Thread nD τ)), ((slot16 gatherM (rr c.val) (rr_lt c)).view.loc ((src c (off 11)) : Thread nD τ) ↦[(slot16 gatherM (rr c.val) (rr_lt c)).view.set]{fullShare} f)) ∗ reached ER (dcell (src c (off 11)) (p2rS (pairOf c))) 0) := by
  rw [payload_bar, show ((12 : DN)) = ⟨(11 : Fin 15).val + 1, by decide⟩ from rfl, barPay_succ]
/-- What the signal of the device `off 12` pairs back hands `c`: that device's receive slot of the pair of `c`. -/
theorem payload_bar_own13 : (rd (F := F) W1 W2).payload (barCell c) 0 (13 : DN)
    = iprop((∃ f : Buf (Elt F) ((slot16 gatherM (rr c.val) (rr_lt c)).view.loc ((src c (off 12)) : Thread nD τ)), ((slot16 gatherM (rr c.val) (rr_lt c)).view.loc ((src c (off 12)) : Thread nD τ) ↦[(slot16 gatherM (rr c.val) (rr_lt c)).view.set]{fullShare} f)) ∗ reached ER (dcell (src c (off 12)) (p2rS (pairOf c))) 0) := by
  rw [payload_bar, show ((13 : DN)) = ⟨(12 : Fin 15).val + 1, by decide⟩ from rfl, barPay_succ]
/-- What the signal of the device `off 13` pairs back hands `c`: that device's receive slot of the pair of `c`. -/
theorem payload_bar_own14 : (rd (F := F) W1 W2).payload (barCell c) 0 (14 : DN)
    = iprop((∃ f : Buf (Elt F) ((slot16 gatherM (rr c.val) (rr_lt c)).view.loc ((src c (off 13)) : Thread nD τ)), ((slot16 gatherM (rr c.val) (rr_lt c)).view.loc ((src c (off 13)) : Thread nD τ) ↦[(slot16 gatherM (rr c.val) (rr_lt c)).view.set]{fullShare} f)) ∗ reached ER (dcell (src c (off 13)) (p2rS (pairOf c))) 0) := by
  rw [payload_bar, show ((14 : DN)) = ⟨(13 : Fin 15).val + 1, by decide⟩ from rfl, barPay_succ]
/-- What the signal of the device `off 14` pairs back hands `c`: that device's receive slot of the pair of `c`. -/
theorem payload_bar_own15 : (rd (F := F) W1 W2).payload (barCell c) 0 (15 : DN)
    = iprop((∃ f : Buf (Elt F) ((slot16 gatherM (rr c.val) (rr_lt c)).view.loc ((src c (off 14)) : Thread nD τ)), ((slot16 gatherM (rr c.val) (rr_lt c)).view.loc ((src c (off 14)) : Thread nD τ) ↦[(slot16 gatherM (rr c.val) (rr_lt c)).view.set]{fullShare} f)) ∗ reached ER (dcell (src c (off 14)) (p2rS (pairOf c))) 0) := by
  rw [payload_bar, show ((15 : DN)) = ⟨(14 : Fin 15).val + 1, by decide⟩ from rfl, barPay_succ]

/-! ## The DMA cells of `c` itself -/

theorem used_p1s (k : Fin 16) : used c (p1sS k) := by revert c k; decide
theorem used_p1r (k : Fin 16) : used c (p1rS k) := by revert c k; decide
theorem used_p2s (k : Fin 15) : used c (p2sS k) := by revert c k; decide
theorem used_p2r_src (o : Fin 17) (ho : 1 ≤ o.val ∧ o.val ≤ 15) : used c (p2rS (pairOf (src c o))) := by revert c o; decide
theorem used_p2r_peer (o : Fin 17) (ho : 1 ≤ o.val ∧ o.val ≤ 15) : used (peer c o) (p2rS (pairOf c)) := by revert c o; decide

theorem duties_p1s (k : Fin 16) : (rd (F := F) W1 W2).duties (dcell c (p1sS k)) 0 = {0} := duties_dma W1 W2 c _ (used_p1s c k)
theorem duties_p1r (k : Fin 16) : (rd (F := F) W1 W2).duties (dcell c (p1rS k)) 0 = {0} := duties_dma W1 W2 c _ (used_p1r c k)
theorem duties_p2s (k : Fin 15) : (rd (F := F) W1 W2).duties (dcell c (p2sS k)) 0 = {0} := duties_dma W1 W2 c _ (used_p2s c k)
theorem expect_p1s (k : Fin 16) : (rd (F := F) W1 W2).expect (dcell c (p1sS k)) 0 = N := expect_dma W1 W2 c _ (used_p1s c k)
theorem expect_p1r (k : Fin 16) : (rd (F := F) W1 W2).expect (dcell c (p1rS k)) 0 = N := expect_dma W1 W2 c _ (used_p1r c k)
theorem expect_p2s (k : Fin 15) : (rd (F := F) W1 W2).expect (dcell c (p2sS k)) 0 = N := expect_dma W1 W2 c _ (used_p2s c k)

theorem payload_p1s0 : (rd (F := F) W1 W2).payload (dcell c (p1sS 0)) 0 0
    = ((slot16 stageM 0 (by decide)).view.loc (c : Thread nD τ) ↦[(slot16 stageM 0 (by decide)).view.set]{fullShare} put c (slot16 stageM 0 (by decide)) (W1 c (cross c (offA 0)))) := by
  rw [payload_dma, dmaPay_p1s]; rfl
theorem payload_p1r0 : (rd (F := F) W1 W2).payload (dcell c (p1rS 0)) 0 0
    = ((slot16 inboxM 0 (by decide)).view.loc (c : Thread nD τ) ↦[(slot16 inboxM 0 (by decide)).view.set]{fullShare} put c (slot16 inboxM 0 (by decide)) (W1 (nbr c) (peer c (offA 0)))) := by
  rw [payload_dma, dmaPay_p1r]; rfl
theorem payload_p1s1 : (rd (F := F) W1 W2).payload (dcell c (p1sS 1)) 0 0
    = ((slot16 stageM 1 (by decide)).view.loc (c : Thread nD τ) ↦[(slot16 stageM 1 (by decide)).view.set]{fullShare} put c (slot16 stageM 1 (by decide)) (W1 c (cross c (offA 1)))) := by
  rw [payload_dma, dmaPay_p1s]; rfl
theorem payload_p1r1 : (rd (F := F) W1 W2).payload (dcell c (p1rS 1)) 0 0
    = ((slot16 inboxM 1 (by decide)).view.loc (c : Thread nD τ) ↦[(slot16 inboxM 1 (by decide)).view.set]{fullShare} put c (slot16 inboxM 1 (by decide)) (W1 (nbr c) (peer c (offA 1)))) := by
  rw [payload_dma, dmaPay_p1r]; rfl
theorem payload_p1s2 : (rd (F := F) W1 W2).payload (dcell c (p1sS 2)) 0 0
    = ((slot16 stageM 2 (by decide)).view.loc (c : Thread nD τ) ↦[(slot16 stageM 2 (by decide)).view.set]{fullShare} put c (slot16 stageM 2 (by decide)) (W1 c (cross c (offA 2)))) := by
  rw [payload_dma, dmaPay_p1s]; rfl
theorem payload_p1r2 : (rd (F := F) W1 W2).payload (dcell c (p1rS 2)) 0 0
    = ((slot16 inboxM 2 (by decide)).view.loc (c : Thread nD τ) ↦[(slot16 inboxM 2 (by decide)).view.set]{fullShare} put c (slot16 inboxM 2 (by decide)) (W1 (nbr c) (peer c (offA 2)))) := by
  rw [payload_dma, dmaPay_p1r]; rfl
theorem payload_p1s3 : (rd (F := F) W1 W2).payload (dcell c (p1sS 3)) 0 0
    = ((slot16 stageM 3 (by decide)).view.loc (c : Thread nD τ) ↦[(slot16 stageM 3 (by decide)).view.set]{fullShare} put c (slot16 stageM 3 (by decide)) (W1 c (cross c (offA 3)))) := by
  rw [payload_dma, dmaPay_p1s]; rfl
theorem payload_p1r3 : (rd (F := F) W1 W2).payload (dcell c (p1rS 3)) 0 0
    = ((slot16 inboxM 3 (by decide)).view.loc (c : Thread nD τ) ↦[(slot16 inboxM 3 (by decide)).view.set]{fullShare} put c (slot16 inboxM 3 (by decide)) (W1 (nbr c) (peer c (offA 3)))) := by
  rw [payload_dma, dmaPay_p1r]; rfl
theorem payload_p1s4 : (rd (F := F) W1 W2).payload (dcell c (p1sS 4)) 0 0
    = ((slot16 stageM 4 (by decide)).view.loc (c : Thread nD τ) ↦[(slot16 stageM 4 (by decide)).view.set]{fullShare} put c (slot16 stageM 4 (by decide)) (W1 c (cross c (offA 4)))) := by
  rw [payload_dma, dmaPay_p1s]; rfl
theorem payload_p1r4 : (rd (F := F) W1 W2).payload (dcell c (p1rS 4)) 0 0
    = ((slot16 inboxM 4 (by decide)).view.loc (c : Thread nD τ) ↦[(slot16 inboxM 4 (by decide)).view.set]{fullShare} put c (slot16 inboxM 4 (by decide)) (W1 (nbr c) (peer c (offA 4)))) := by
  rw [payload_dma, dmaPay_p1r]; rfl
theorem payload_p1s5 : (rd (F := F) W1 W2).payload (dcell c (p1sS 5)) 0 0
    = ((slot16 stageM 5 (by decide)).view.loc (c : Thread nD τ) ↦[(slot16 stageM 5 (by decide)).view.set]{fullShare} put c (slot16 stageM 5 (by decide)) (W1 c (cross c (offA 5)))) := by
  rw [payload_dma, dmaPay_p1s]; rfl
theorem payload_p1r5 : (rd (F := F) W1 W2).payload (dcell c (p1rS 5)) 0 0
    = ((slot16 inboxM 5 (by decide)).view.loc (c : Thread nD τ) ↦[(slot16 inboxM 5 (by decide)).view.set]{fullShare} put c (slot16 inboxM 5 (by decide)) (W1 (nbr c) (peer c (offA 5)))) := by
  rw [payload_dma, dmaPay_p1r]; rfl
theorem payload_p1s6 : (rd (F := F) W1 W2).payload (dcell c (p1sS 6)) 0 0
    = ((slot16 stageM 6 (by decide)).view.loc (c : Thread nD τ) ↦[(slot16 stageM 6 (by decide)).view.set]{fullShare} put c (slot16 stageM 6 (by decide)) (W1 c (cross c (offA 6)))) := by
  rw [payload_dma, dmaPay_p1s]; rfl
theorem payload_p1r6 : (rd (F := F) W1 W2).payload (dcell c (p1rS 6)) 0 0
    = ((slot16 inboxM 6 (by decide)).view.loc (c : Thread nD τ) ↦[(slot16 inboxM 6 (by decide)).view.set]{fullShare} put c (slot16 inboxM 6 (by decide)) (W1 (nbr c) (peer c (offA 6)))) := by
  rw [payload_dma, dmaPay_p1r]; rfl
theorem payload_p1s7 : (rd (F := F) W1 W2).payload (dcell c (p1sS 7)) 0 0
    = ((slot16 stageM 7 (by decide)).view.loc (c : Thread nD τ) ↦[(slot16 stageM 7 (by decide)).view.set]{fullShare} put c (slot16 stageM 7 (by decide)) (W1 c (cross c (offA 7)))) := by
  rw [payload_dma, dmaPay_p1s]; rfl
theorem payload_p1r7 : (rd (F := F) W1 W2).payload (dcell c (p1rS 7)) 0 0
    = ((slot16 inboxM 7 (by decide)).view.loc (c : Thread nD τ) ↦[(slot16 inboxM 7 (by decide)).view.set]{fullShare} put c (slot16 inboxM 7 (by decide)) (W1 (nbr c) (peer c (offA 7)))) := by
  rw [payload_dma, dmaPay_p1r]; rfl
theorem payload_p1s8 : (rd (F := F) W1 W2).payload (dcell c (p1sS 8)) 0 0
    = ((slot16 stageM 8 (by decide)).view.loc (c : Thread nD τ) ↦[(slot16 stageM 8 (by decide)).view.set]{fullShare} put c (slot16 stageM 8 (by decide)) (W1 c (cross c (offA 8)))) := by
  rw [payload_dma, dmaPay_p1s]; rfl
theorem payload_p1r8 : (rd (F := F) W1 W2).payload (dcell c (p1rS 8)) 0 0
    = ((slot16 inboxM 8 (by decide)).view.loc (c : Thread nD τ) ↦[(slot16 inboxM 8 (by decide)).view.set]{fullShare} put c (slot16 inboxM 8 (by decide)) (W1 (nbr c) (peer c (offA 8)))) := by
  rw [payload_dma, dmaPay_p1r]; rfl
theorem payload_p1s9 : (rd (F := F) W1 W2).payload (dcell c (p1sS 9)) 0 0
    = ((slot16 stageM 9 (by decide)).view.loc (c : Thread nD τ) ↦[(slot16 stageM 9 (by decide)).view.set]{fullShare} put c (slot16 stageM 9 (by decide)) (W1 c (cross c (offA 9)))) := by
  rw [payload_dma, dmaPay_p1s]; rfl
theorem payload_p1r9 : (rd (F := F) W1 W2).payload (dcell c (p1rS 9)) 0 0
    = ((slot16 inboxM 9 (by decide)).view.loc (c : Thread nD τ) ↦[(slot16 inboxM 9 (by decide)).view.set]{fullShare} put c (slot16 inboxM 9 (by decide)) (W1 (nbr c) (peer c (offA 9)))) := by
  rw [payload_dma, dmaPay_p1r]; rfl
theorem payload_p1s10 : (rd (F := F) W1 W2).payload (dcell c (p1sS 10)) 0 0
    = ((slot16 stageM 10 (by decide)).view.loc (c : Thread nD τ) ↦[(slot16 stageM 10 (by decide)).view.set]{fullShare} put c (slot16 stageM 10 (by decide)) (W1 c (cross c (offA 10)))) := by
  rw [payload_dma, dmaPay_p1s]; rfl
theorem payload_p1r10 : (rd (F := F) W1 W2).payload (dcell c (p1rS 10)) 0 0
    = ((slot16 inboxM 10 (by decide)).view.loc (c : Thread nD τ) ↦[(slot16 inboxM 10 (by decide)).view.set]{fullShare} put c (slot16 inboxM 10 (by decide)) (W1 (nbr c) (peer c (offA 10)))) := by
  rw [payload_dma, dmaPay_p1r]; rfl
theorem payload_p1s11 : (rd (F := F) W1 W2).payload (dcell c (p1sS 11)) 0 0
    = ((slot16 stageM 11 (by decide)).view.loc (c : Thread nD τ) ↦[(slot16 stageM 11 (by decide)).view.set]{fullShare} put c (slot16 stageM 11 (by decide)) (W1 c (cross c (offA 11)))) := by
  rw [payload_dma, dmaPay_p1s]; rfl
theorem payload_p1r11 : (rd (F := F) W1 W2).payload (dcell c (p1rS 11)) 0 0
    = ((slot16 inboxM 11 (by decide)).view.loc (c : Thread nD τ) ↦[(slot16 inboxM 11 (by decide)).view.set]{fullShare} put c (slot16 inboxM 11 (by decide)) (W1 (nbr c) (peer c (offA 11)))) := by
  rw [payload_dma, dmaPay_p1r]; rfl
theorem payload_p1s12 : (rd (F := F) W1 W2).payload (dcell c (p1sS 12)) 0 0
    = ((slot16 stageM 12 (by decide)).view.loc (c : Thread nD τ) ↦[(slot16 stageM 12 (by decide)).view.set]{fullShare} put c (slot16 stageM 12 (by decide)) (W1 c (cross c (offA 12)))) := by
  rw [payload_dma, dmaPay_p1s]; rfl
theorem payload_p1r12 : (rd (F := F) W1 W2).payload (dcell c (p1rS 12)) 0 0
    = ((slot16 inboxM 12 (by decide)).view.loc (c : Thread nD τ) ↦[(slot16 inboxM 12 (by decide)).view.set]{fullShare} put c (slot16 inboxM 12 (by decide)) (W1 (nbr c) (peer c (offA 12)))) := by
  rw [payload_dma, dmaPay_p1r]; rfl
theorem payload_p1s13 : (rd (F := F) W1 W2).payload (dcell c (p1sS 13)) 0 0
    = ((slot16 stageM 13 (by decide)).view.loc (c : Thread nD τ) ↦[(slot16 stageM 13 (by decide)).view.set]{fullShare} put c (slot16 stageM 13 (by decide)) (W1 c (cross c (offA 13)))) := by
  rw [payload_dma, dmaPay_p1s]; rfl
theorem payload_p1r13 : (rd (F := F) W1 W2).payload (dcell c (p1rS 13)) 0 0
    = ((slot16 inboxM 13 (by decide)).view.loc (c : Thread nD τ) ↦[(slot16 inboxM 13 (by decide)).view.set]{fullShare} put c (slot16 inboxM 13 (by decide)) (W1 (nbr c) (peer c (offA 13)))) := by
  rw [payload_dma, dmaPay_p1r]; rfl
theorem payload_p1s14 : (rd (F := F) W1 W2).payload (dcell c (p1sS 14)) 0 0
    = ((slot16 stageM 14 (by decide)).view.loc (c : Thread nD τ) ↦[(slot16 stageM 14 (by decide)).view.set]{fullShare} put c (slot16 stageM 14 (by decide)) (W1 c (cross c (offA 14)))) := by
  rw [payload_dma, dmaPay_p1s]; rfl
theorem payload_p1r14 : (rd (F := F) W1 W2).payload (dcell c (p1rS 14)) 0 0
    = ((slot16 inboxM 14 (by decide)).view.loc (c : Thread nD τ) ↦[(slot16 inboxM 14 (by decide)).view.set]{fullShare} put c (slot16 inboxM 14 (by decide)) (W1 (nbr c) (peer c (offA 14)))) := by
  rw [payload_dma, dmaPay_p1r]; rfl
theorem payload_p1s15 : (rd (F := F) W1 W2).payload (dcell c (p1sS 15)) 0 0
    = ((slot16 stageM 15 (by decide)).view.loc (c : Thread nD τ) ↦[(slot16 stageM 15 (by decide)).view.set]{fullShare} put c (slot16 stageM 15 (by decide)) (W1 c (cross c (offA 15)))) := by
  rw [payload_dma, dmaPay_p1s]; rfl
theorem payload_p1r15 : (rd (F := F) W1 W2).payload (dcell c (p1rS 15)) 0 0
    = ((slot16 inboxM 15 (by decide)).view.loc (c : Thread nD τ) ↦[(slot16 inboxM 15 (by decide)).view.set]{fullShare} put c (slot16 inboxM 15 (by decide)) (W1 (nbr c) (peer c (offA 15)))) := by
  rw [payload_dma, dmaPay_p1r]; rfl
theorem payload_p2s0 : (rd (F := F) W1 W2).payload (dcell c (p2sS 0)) 0 0
    = ((slot15 outboxM 0 (by decide)).view.loc (c : Thread nD τ) ↦[(slot15 outboxM 0 (by decide)).view.set]{fullShare} put c (slot15 outboxM 0 (by decide)) (W2 c (peer c (off 0)))) := by
  rw [payload_dma, dmaPay_p2s]; rfl
theorem payload_p2s1 : (rd (F := F) W1 W2).payload (dcell c (p2sS 1)) 0 0
    = ((slot15 outboxM 1 (by decide)).view.loc (c : Thread nD τ) ↦[(slot15 outboxM 1 (by decide)).view.set]{fullShare} put c (slot15 outboxM 1 (by decide)) (W2 c (peer c (off 1)))) := by
  rw [payload_dma, dmaPay_p2s]; rfl
theorem payload_p2s2 : (rd (F := F) W1 W2).payload (dcell c (p2sS 2)) 0 0
    = ((slot15 outboxM 2 (by decide)).view.loc (c : Thread nD τ) ↦[(slot15 outboxM 2 (by decide)).view.set]{fullShare} put c (slot15 outboxM 2 (by decide)) (W2 c (peer c (off 2)))) := by
  rw [payload_dma, dmaPay_p2s]; rfl
theorem payload_p2s3 : (rd (F := F) W1 W2).payload (dcell c (p2sS 3)) 0 0
    = ((slot15 outboxM 3 (by decide)).view.loc (c : Thread nD τ) ↦[(slot15 outboxM 3 (by decide)).view.set]{fullShare} put c (slot15 outboxM 3 (by decide)) (W2 c (peer c (off 3)))) := by
  rw [payload_dma, dmaPay_p2s]; rfl
theorem payload_p2s4 : (rd (F := F) W1 W2).payload (dcell c (p2sS 4)) 0 0
    = ((slot15 outboxM 4 (by decide)).view.loc (c : Thread nD τ) ↦[(slot15 outboxM 4 (by decide)).view.set]{fullShare} put c (slot15 outboxM 4 (by decide)) (W2 c (peer c (off 4)))) := by
  rw [payload_dma, dmaPay_p2s]; rfl
theorem payload_p2s5 : (rd (F := F) W1 W2).payload (dcell c (p2sS 5)) 0 0
    = ((slot15 outboxM 5 (by decide)).view.loc (c : Thread nD τ) ↦[(slot15 outboxM 5 (by decide)).view.set]{fullShare} put c (slot15 outboxM 5 (by decide)) (W2 c (peer c (off 5)))) := by
  rw [payload_dma, dmaPay_p2s]; rfl
theorem payload_p2s6 : (rd (F := F) W1 W2).payload (dcell c (p2sS 6)) 0 0
    = ((slot15 outboxM 6 (by decide)).view.loc (c : Thread nD τ) ↦[(slot15 outboxM 6 (by decide)).view.set]{fullShare} put c (slot15 outboxM 6 (by decide)) (W2 c (peer c (off 6)))) := by
  rw [payload_dma, dmaPay_p2s]; rfl
theorem payload_p2s7 : (rd (F := F) W1 W2).payload (dcell c (p2sS 7)) 0 0
    = ((slot15 outboxM 7 (by decide)).view.loc (c : Thread nD τ) ↦[(slot15 outboxM 7 (by decide)).view.set]{fullShare} put c (slot15 outboxM 7 (by decide)) (W2 c (peer c (off 7)))) := by
  rw [payload_dma, dmaPay_p2s]; rfl
theorem payload_p2s8 : (rd (F := F) W1 W2).payload (dcell c (p2sS 8)) 0 0
    = ((slot15 outboxM 8 (by decide)).view.loc (c : Thread nD τ) ↦[(slot15 outboxM 8 (by decide)).view.set]{fullShare} put c (slot15 outboxM 8 (by decide)) (W2 c (peer c (off 8)))) := by
  rw [payload_dma, dmaPay_p2s]; rfl
theorem payload_p2s9 : (rd (F := F) W1 W2).payload (dcell c (p2sS 9)) 0 0
    = ((slot15 outboxM 9 (by decide)).view.loc (c : Thread nD τ) ↦[(slot15 outboxM 9 (by decide)).view.set]{fullShare} put c (slot15 outboxM 9 (by decide)) (W2 c (peer c (off 9)))) := by
  rw [payload_dma, dmaPay_p2s]; rfl
theorem payload_p2s10 : (rd (F := F) W1 W2).payload (dcell c (p2sS 10)) 0 0
    = ((slot15 outboxM 10 (by decide)).view.loc (c : Thread nD τ) ↦[(slot15 outboxM 10 (by decide)).view.set]{fullShare} put c (slot15 outboxM 10 (by decide)) (W2 c (peer c (off 10)))) := by
  rw [payload_dma, dmaPay_p2s]; rfl
theorem payload_p2s11 : (rd (F := F) W1 W2).payload (dcell c (p2sS 11)) 0 0
    = ((slot15 outboxM 11 (by decide)).view.loc (c : Thread nD τ) ↦[(slot15 outboxM 11 (by decide)).view.set]{fullShare} put c (slot15 outboxM 11 (by decide)) (W2 c (peer c (off 11)))) := by
  rw [payload_dma, dmaPay_p2s]; rfl
theorem payload_p2s12 : (rd (F := F) W1 W2).payload (dcell c (p2sS 12)) 0 0
    = ((slot15 outboxM 12 (by decide)).view.loc (c : Thread nD τ) ↦[(slot15 outboxM 12 (by decide)).view.set]{fullShare} put c (slot15 outboxM 12 (by decide)) (W2 c (peer c (off 12)))) := by
  rw [payload_dma, dmaPay_p2s]; rfl
theorem payload_p2s13 : (rd (F := F) W1 W2).payload (dcell c (p2sS 13)) 0 0
    = ((slot15 outboxM 13 (by decide)).view.loc (c : Thread nD τ) ↦[(slot15 outboxM 13 (by decide)).view.set]{fullShare} put c (slot15 outboxM 13 (by decide)) (W2 c (peer c (off 13)))) := by
  rw [payload_dma, dmaPay_p2s]; rfl
theorem payload_p2s14 : (rd (F := F) W1 W2).payload (dcell c (p2sS 14)) 0 0
    = ((slot15 outboxM 14 (by decide)).view.loc (c : Thread nD τ) ↦[(slot15 outboxM 14 (by decide)).view.set]{fullShare} put c (slot15 outboxM 14 (by decide)) (W2 c (peer c (off 14)))) := by
  rw [payload_dma, dmaPay_p2s]; rfl

end

end Cert.Kernel.Proto

end
-- ==== Proof.RulesK.lean ====
/-
  One rule for every remote copy of the kernel: a slot of a scratch buffer of `c` is copied into a
  slot of a scratch buffer of `n`.  The copy pays the single duty of the send cell on `c` (the source
  slot comes back with what it held) and the single duty of the receive cell on `n` (the destination
  slot arrives holding the same value).
-/
import proofs.«900440_g7700000000000441_dist_gemm_rs_m1024_k1024_n1024_f32_none_v7x_i32_1_alg».proof.Proof.TablesK
import proofs.«900440_g7700000000000441_dist_gemm_rs_m1024_k1024_n1024_f32_none_v7x_i32_1_alg».proof.Proof.Gen.Kernel.Skeleton

noncomputable section

namespace Cert.Kernel.Proto

open Cert.Kernel Cert.Kernel.Gen Cert.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

abbrev 𝒱₀ : Variants := Variants.none

theorem wp_send_slot (W1 W2 : Dev nD → Dev nD → Vec F S1x32x1024 .f32) (c n : Dev nD)
    {src dst : Memref sig .tc .vmem S1x32x1024 .f32} (qs qr : DmaSem sig) (κ₁ κ₂ : ℕ) (V : Vec F S1x32x1024 .f32)
    (hds : (0 : DN) ∈ (rd W1 W2).duties (dcell c qs) 0) (hdr : (0 : DN) ∈ (rd W1 W2).duties (dcell n qr) 0)
    (hN : dst.view.amount (.dma qr) = N)
    (hp1 : (rd W1 W2).payload (dcell c qs) 0 0 = holds c src V) (hp2 : (rd W1 W2).payload (dcell n qr) 0 0 = holds n dst V)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α}
    (fs : Buf (Elt F) (src.view.loc (c : Thread nD τ))) (hfs : src.view.read (Elt F) fs = V)
    (fd : Buf (Elt F) (dst.view.loc (n : Thread nD τ))) (O : CellTallies nD τ sig Unit) (W : Waits sig Unit) :
    iprop(cellInv ER (rd W1 W2) κ₁ (dcell c qs) ∗ cellInv ER (rd W1 W2) κ₂ (dcell n qr)
        ∗ (src.view.loc (c : Thread nD τ) ↦[src.view.set]{fullShare} fs) ∗ (dst.view.loc (n : Thread nD τ) ↦[dst.view.set]{fullShare} fd)
        ∗ owes (c : Thread nD τ) (O + tallyAt (dcell n qr) () N) W
        ∗ dutyTok ER (dcell c qs) 0 0 ∗ reached ER (dcell c qs) 0 ∗ dutyTok ER (dcell n qr) 0 0 ∗ reached ER (dcell n qr) 0)
      ⊢ iprop(((cred (tallyAt (dcell c qs) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) :=
  Rounds.wp_send_pointsTo 𝒱₀ ER (rd W1 W2) (c : Thread nD τ) none (κ₁ := κ₁) (κ₂ := κ₂) (r₁ := 0) (r₂ := 0) (d₁ := 0) (d₂ := 0) (fd := fd)
    hds hdr () () N hN (amount_dma W1 W2 c qs 0) (amount_dma W1 W2 n qr 0) O rfl (W := W)
    (by rw [hp1]; exact Entails.of_eq (holds_of_read c src fs V hfs))
    (by rw [hp2]; exact Entails.of_eq (holds_of_read n dst _ V (by rw [View.read_write_univ]; exact hfs)))

/-! ## What a device still owes -/

/-- The receive cell credited by the `s`-th of the 31 copies of `c`: the sixteen of the first phase go
    to the partner's receive cells, the fifteen of the second to the peers' cells of the pair of `c`. -/
def debtCellOf (c : Dev nD) (s : ℕ) : GSem nD τ sig :=
  if h : s < 16 then dcell (nbr c) (p1rS ⟨s, h⟩)
  else if h2 : s - 16 < 15 then dcell (peer c (off ⟨s - 16, h2⟩)) (p2rS (pairOf c))
  else barCell c

/-- What `c` owes once its first `s` copies are on their way: the credit of every later copy. -/
def debt (c : Dev nD) (s : ℕ) : CellTallies nD τ sig Unit := ∑ j ∈ Finset.range (31 - s), tallyAt (debtCellOf c (30 - j)) () N

theorem debt_end (c : Dev nD) : debt c 31 = 0 := by unfold debt; exact Finset.sum_empty
theorem debt_peel0 (c : Dev nD) : debt c 0 = debt c 1 + tallyAt (dcell (nbr c) (p1rS 0)) () N := by
  unfold debt; rw [show (31 - 0 : ℕ) = (30 - 0) + 1 from rfl, Finset.sum_range_succ]; rfl
theorem debt_peel1 (c : Dev nD) : debt c 1 = debt c 2 + tallyAt (dcell (nbr c) (p1rS 1)) () N := by
  unfold debt; rw [show (31 - 1 : ℕ) = (30 - 1) + 1 from rfl, Finset.sum_range_succ]; rfl
theorem debt_peel2 (c : Dev nD) : debt c 2 = debt c 3 + tallyAt (dcell (nbr c) (p1rS 2)) () N := by
  unfold debt; rw [show (31 - 2 : ℕ) = (30 - 2) + 1 from rfl, Finset.sum_range_succ]; rfl
theorem debt_peel3 (c : Dev nD) : debt c 3 = debt c 4 + tallyAt (dcell (nbr c) (p1rS 3)) () N := by
  unfold debt; rw [show (31 - 3 : ℕ) = (30 - 3) + 1 from rfl, Finset.sum_range_succ]; rfl
theorem debt_peel4 (c : Dev nD) : debt c 4 = debt c 5 + tallyAt (dcell (nbr c) (p1rS 4)) () N := by
  unfold debt; rw [show (31 - 4 : ℕ) = (30 - 4) + 1 from rfl, Finset.sum_range_succ]; rfl
theorem debt_peel5 (c : Dev nD) : debt c 5 = debt c 6 + tallyAt (dcell (nbr c) (p1rS 5)) () N := by
  unfold debt; rw [show (31 - 5 : ℕ) = (30 - 5) + 1 from rfl, Finset.sum_range_succ]; rfl
theorem debt_peel6 (c : Dev nD) : debt c 6 = debt c 7 + tallyAt (dcell (nbr c) (p1rS 6)) () N := by
  unfold debt; rw [show (31 - 6 : ℕ) = (30 - 6) + 1 from rfl, Finset.sum_range_succ]; rfl
theorem debt_peel7 (c : Dev nD) : debt c 7 = debt c 8 + tallyAt (dcell (nbr c) (p1rS 7)) () N := by
  unfold debt; rw [show (31 - 7 : ℕ) = (30 - 7) + 1 from rfl, Finset.sum_range_succ]; rfl
theorem debt_peel8 (c : Dev nD) : debt c 8 = debt c 9 + tallyAt (dcell (nbr c) (p1rS 8)) () N := by
  unfold debt; rw [show (31 - 8 : ℕ) = (30 - 8) + 1 from rfl, Finset.sum_range_succ]; rfl
theorem debt_peel9 (c : Dev nD) : debt c 9 = debt c 10 + tallyAt (dcell (nbr c) (p1rS 9)) () N := by
  unfold debt; rw [show (31 - 9 : ℕ) = (30 - 9) + 1 from rfl, Finset.sum_range_succ]; rfl
theorem debt_peel10 (c : Dev nD) : debt c 10 = debt c 11 + tallyAt (dcell (nbr c) (p1rS 10)) () N := by
  unfold debt; rw [show (31 - 10 : ℕ) = (30 - 10) + 1 from rfl, Finset.sum_range_succ]; rfl
theorem debt_peel11 (c : Dev nD) : debt c 11 = debt c 12 + tallyAt (dcell (nbr c) (p1rS 11)) () N := by
  unfold debt; rw [show (31 - 11 : ℕ) = (30 - 11) + 1 from rfl, Finset.sum_range_succ]; rfl
theorem debt_peel12 (c : Dev nD) : debt c 12 = debt c 13 + tallyAt (dcell (nbr c) (p1rS 12)) () N := by
  unfold debt; rw [show (31 - 12 : ℕ) = (30 - 12) + 1 from rfl, Finset.sum_range_succ]; rfl
theorem debt_peel13 (c : Dev nD) : debt c 13 = debt c 14 + tallyAt (dcell (nbr c) (p1rS 13)) () N := by
  unfold debt; rw [show (31 - 13 : ℕ) = (30 - 13) + 1 from rfl, Finset.sum_range_succ]; rfl
theorem debt_peel14 (c : Dev nD) : debt c 14 = debt c 15 + tallyAt (dcell (nbr c) (p1rS 14)) () N := by
  unfold debt; rw [show (31 - 14 : ℕ) = (30 - 14) + 1 from rfl, Finset.sum_range_succ]; rfl
theorem debt_peel15 (c : Dev nD) : debt c 15 = debt c 16 + tallyAt (dcell (nbr c) (p1rS 15)) () N := by
  unfold debt; rw [show (31 - 15 : ℕ) = (30 - 15) + 1 from rfl, Finset.sum_range_succ]; rfl
theorem debt_peel16 (c : Dev nD) : debt c 16 = debt c 17 + tallyAt (dcell (peer c (off 0)) (p2rS (pairOf c))) () N := by
  unfold debt; rw [show (31 - 16 : ℕ) = (30 - 16) + 1 from rfl, Finset.sum_range_succ]; rfl
theorem debt_peel17 (c : Dev nD) : debt c 17 = debt c 18 + tallyAt (dcell (peer c (off 1)) (p2rS (pairOf c))) () N := by
  unfold debt; rw [show (31 - 17 : ℕ) = (30 - 17) + 1 from rfl, Finset.sum_range_succ]; rfl
theorem debt_peel18 (c : Dev nD) : debt c 18 = debt c 19 + tallyAt (dcell (peer c (off 2)) (p2rS (pairOf c))) () N := by
  unfold debt; rw [show (31 - 18 : ℕ) = (30 - 18) + 1 from rfl, Finset.sum_range_succ]; rfl
theorem debt_peel19 (c : Dev nD) : debt c 19 = debt c 20 + tallyAt (dcell (peer c (off 3)) (p2rS (pairOf c))) () N := by
  unfold debt; rw [show (31 - 19 : ℕ) = (30 - 19) + 1 from rfl, Finset.sum_range_succ]; rfl
theorem debt_peel20 (c : Dev nD) : debt c 20 = debt c 21 + tallyAt (dcell (peer c (off 4)) (p2rS (pairOf c))) () N := by
  unfold debt; rw [show (31 - 20 : ℕ) = (30 - 20) + 1 from rfl, Finset.sum_range_succ]; rfl
theorem debt_peel21 (c : Dev nD) : debt c 21 = debt c 22 + tallyAt (dcell (peer c (off 5)) (p2rS (pairOf c))) () N := by
  unfold debt; rw [show (31 - 21 : ℕ) = (30 - 21) + 1 from rfl, Finset.sum_range_succ]; rfl
theorem debt_peel22 (c : Dev nD) : debt c 22 = debt c 23 + tallyAt (dcell (peer c (off 6)) (p2rS (pairOf c))) () N := by
  unfold debt; rw [show (31 - 22 : ℕ) = (30 - 22) + 1 from rfl, Finset.sum_range_succ]; rfl
theorem debt_peel23 (c : Dev nD) : debt c 23 = debt c 24 + tallyAt (dcell (peer c (off 7)) (p2rS (pairOf c))) () N := by
  unfold debt; rw [show (31 - 23 : ℕ) = (30 - 23) + 1 from rfl, Finset.sum_range_succ]; rfl
theorem debt_peel24 (c : Dev nD) : debt c 24 = debt c 25 + tallyAt (dcell (peer c (off 8)) (p2rS (pairOf c))) () N := by
  unfold debt; rw [show (31 - 24 : ℕ) = (30 - 24) + 1 from rfl, Finset.sum_range_succ]; rfl
theorem debt_peel25 (c : Dev nD) : debt c 25 = debt c 26 + tallyAt (dcell (peer c (off 9)) (p2rS (pairOf c))) () N := by
  unfold debt; rw [show (31 - 25 : ℕ) = (30 - 25) + 1 from rfl, Finset.sum_range_succ]; rfl
theorem debt_peel26 (c : Dev nD) : debt c 26 = debt c 27 + tallyAt (dcell (peer c (off 10)) (p2rS (pairOf c))) () N := by
  unfold debt; rw [show (31 - 26 : ℕ) = (30 - 26) + 1 from rfl, Finset.sum_range_succ]; rfl
theorem debt_peel27 (c : Dev nD) : debt c 27 = debt c 28 + tallyAt (dcell (peer c (off 11)) (p2rS (pairOf c))) () N := by
  unfold debt; rw [show (31 - 27 : ℕ) = (30 - 27) + 1 from rfl, Finset.sum_range_succ]; rfl
theorem debt_peel28 (c : Dev nD) : debt c 28 = debt c 29 + tallyAt (dcell (peer c (off 12)) (p2rS (pairOf c))) () N := by
  unfold debt; rw [show (31 - 28 : ℕ) = (30 - 28) + 1 from rfl, Finset.sum_range_succ]; rfl
theorem debt_peel29 (c : Dev nD) : debt c 29 = debt c 30 + tallyAt (dcell (peer c (off 13)) (p2rS (pairOf c))) () N := by
  unfold debt; rw [show (31 - 29 : ℕ) = (30 - 29) + 1 from rfl, Finset.sum_range_succ]; rfl
theorem debt_peel30 (c : Dev nD) : debt c 30 = debt c 31 + tallyAt (dcell (peer c (off 14)) (p2rS (pairOf c))) () N := by
  unfold debt; rw [show (31 - 30 : ℕ) = (30 - 30) + 1 from rfl, Finset.sum_range_succ]; rfl

attribute [irreducible] debt

end Cert.Kernel.Proto

end
-- ==== Proof.ValueK.lean ====
/-
  The value of the fused product and reduce-scatter, as mathematics.

  Device `d` holds the column block `xb d` of `X` and the row block `wb d` of `W`.  For a row
  block `t` its partial product is `(rows [32t, 32t+32) of xb d) · wb d`.  Device `c` ends with the
  sum, over all 32 devices `d`, of `d`'s partial product for row block `c`, added up pair by pair
  in the order of the offsets.  At the ideal instance addition is commutative and associative, the
  32 devices are met exactly once each, and a contraction over 1024 splits into 32 contractions
  over 32: the sum is block `c` of `X · W`.
-/
import proofs.«900440_g7700000000000441_dist_gemm_rs_m1024_k1024_n1024_f32_none_v7x_i32_1_alg».proof.Proof.TopoK
import proofs.«900440_g7700000000000441_dist_gemm_rs_m1024_k1024_n1024_f32_none_v7x_i32_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.Kernel.Val

open Idealize.ShloMosaic Cert.Kernel Cert.Mesh

section Defs

variable {F : FTy → Type} [FloatOps F]

/-- One device's product of a 32-row slab of its `x` block with its `w` block. -/
def part (xv : Vec F S32x32 .f32) (wv : Vec F S32x1024 .f32) : FVec F S32x1024 .f32 :=
  matmul dot_S32x32_S32x1024_S32x1024_1_0_0_1_n_n none (shapeCast S32x32 xv Gen.shapeCasts_S32x32_S32x32) (shapeCast S32x1024 wv Gen.shapeCasts_S32x1024_S32x1024) (constant S32x1024 .f32 0x00000000#32)

/-- A `[32,1024]` value seen as `[1,32,1024]`. -/
def up (v : FVec F S32x1024 .f32) : FVec F S1x32x1024 .f32 := shapeCast S1x32x1024 v Gen.shapeCasts_S32x1024_S1x32x1024

/-- A `[1,32,1024]` value seen as `[32,1024]`. -/
def down (v : Vec F S1x32x1024 .f32) : FVec F S32x1024 .f32 := shapeCast S32x1024 v Gen.shapeCasts_S1x32x1024_S32x1024

/-- The cast of a `[32,1024]` value to its own shape. -/
def same (v : Vec F S32x1024 .f32) : FVec F S32x1024 .f32 := shapeCast S32x1024 v Gen.shapeCasts_S32x1024_S32x1024

/-- Rows `[32t, 32t+32)` of a device's `x` block: `(i, j) ↦ x (32t + i, j)` (the row is taken
    modulo 1024 so that the definition is total; `t < 32` wherever it is used). -/
def xrows (x : Vec F S1024x32 .f32) (t : ℕ) : Vec F S32x32 .f32 :=
  fun i => x (ValueIdx.ix2 (⟨(32 * t + (i 0).val) % 1024, Nat.mod_lt _ (by decide)⟩ : Fin 1024) (i 1 : Fin 32))

/-- Device `d`'s partial product for row block `t`. -/
def pp (xs : ℕ → Vec F S1024x32 .f32) (ws : ℕ → Vec F S32x1024 .f32) (d t : ℕ) : FVec F S32x1024 .f32 :=
  part (xrows (xs d) t) (ws d)

/-- What device `s` sends for row block `t`: its own partial product plus its partner's. -/
def pair (xs : ℕ → Vec F S1024x32 .f32) (ws : ℕ → Vec F S32x1024 .f32) (s t : ℕ) : FVec F S32x1024 .f32 :=
  addf (pp xs ws s t) (down (up (pp xs ws (nbrN s) t)))

/-- The first value of device `c`'s result: its own partial product plus its partner's. -/
def out0 (xs : ℕ → Vec F S1024x32 .f32) (ws : ℕ → Vec F S32x1024 .f32) (c : ℕ) : FVec F S32x1024 .f32 :=
  addf (pp xs ws c c) (down (up (pp xs ws (nbrN c) c)))

/-- The `i`-th offset as a function of a natural number (`0` from 15 on). -/
def offN (i : ℕ) : ℕ := if h : i < 15 then offs ⟨i, h⟩ else 0

/-- The result after `i` of the fifteen pair sums have been added, in the order of the offsets. -/
def outN (xs : ℕ → Vec F S1024x32 .f32) (ws : ℕ → Vec F S32x1024 .f32) (c : ℕ) : ℕ → FVec F S32x1024 .f32
  | 0 => out0 xs ws c
  | i + 1 => addf (same (outN xs ws c i)) (down (up (pair xs ws (srcN c (offN i)) c)))

/-- Device `c`'s result. -/
def outOf (xs : ℕ → Vec F S1024x32 .f32) (ws : ℕ → Vec F S32x1024 .f32) (c : ℕ) : FVec F S32x1024 .f32 :=
  outN xs ws c 15

theorem outN_zero (xs : ℕ → Vec F S1024x32 .f32) (ws : ℕ → Vec F S32x1024 .f32) (c : ℕ) :
    outN xs ws c 0 = addf (pp xs ws c c) (down (up (pp xs ws (nbrN c) c))) := rfl

theorem outN_succ (xs : ℕ → Vec F S1024x32 .f32) (ws : ℕ → Vec F S32x1024 .f32) (c : ℕ) (i : Fin 15) :
    outN xs ws c (i.val + 1)
      = addf (same (outN xs ws c i.val)) (down (up (pair xs ws (srcN c (offs i)) c))) := by
  show addf (same (outN xs ws c i.val)) (down (up (pair xs ws (srcN c (offN i.val)) c))) = _
  rw [show offN i.val = offs i from dif_pos i.isLt]

end Defs

/-! ## The casts are identities -/

section Casts

variable {F : FTy → Type} [FloatOps F]

theorem down_up (v : FVec F S32x1024 .f32) : down (up v) = v :=
  shapeCast_shapeCast v _ _

theorem same_eq (v : Vec F S32x1024 .f32) : same v = v :=
  shapeCast_self v _

end Casts

/-! ## One partial product at an index -/

theorem lhs_part_0 (i : S32x1024.Idx) (q : dot_S32x32_S32x1024_S32x1024_1_0_0_1_n_n.contr.Idx) :
    (dot_S32x32_S32x1024_S32x1024_1_0_0_1_n_n.lhsIdx i q 0).val = (i 0).val := by
  unfold DotDims.lhsIdx
  rw [dif_neg (show ¬(0 : Fin S32x32.rank) ∈ dot_S32x32_S32x1024_S32x1024_1_0_0_1_n_n.lhsBatch by decide), dif_pos (show (0 : Fin S32x32.rank) ∈ dot_S32x32_S32x1024_S32x1024_1_0_0_1_n_n.lhsNonContracting by decide)]
  rfl

theorem rhs_part_1 (i : S32x1024.Idx) (q : dot_S32x32_S32x1024_S32x1024_1_0_0_1_n_n.contr.Idx) :
    (dot_S32x32_S32x1024_S32x1024_1_0_0_1_n_n.rhsIdx i q 1).val = (i 1).val := by
  unfold DotDims.rhsIdx
  rw [dif_neg (show ¬(1 : Fin S32x1024.rank) ∈ dot_S32x32_S32x1024_S32x1024_1_0_0_1_n_n.rhsBatch by decide), dif_pos (show (1 : Fin S32x1024.rank) ∈ dot_S32x32_S32x1024_S32x1024_1_0_0_1_n_n.rhsNonContracting by decide)]
  rfl

/-- The product of a `[32,32]` slab with a `[32,1024]` block, at `(p, q)`: the sum over the 32
    contraction positions. -/
theorem part_apply (xv : Vec Ideal S32x32 .f32) (wv : Vec Ideal S32x1024 .f32) (p : Fin 32) (q : Fin 1024) :
    part xv wv (ValueIdx.ix2 p q) = ∑ k : Fin 32, xv (ValueIdx.ix2 p k) * wv (ValueIdx.ix2 k q) := by
  unfold part
  rw [shapeCast_self, shapeCast_self]
  show FloatOps.matmul _ _ _ _ _ _ = _
  rw [Ideal.matmul_constant_zero_apply,
    ← Equiv.sum_comp (ValueIdx.contrEquiv1 dot_S32x32_S32x1024_S32x1024_1_0_0_1_n_n 32 rfl rfl).symm]
  refine Finset.sum_congr rfl fun k _ => ?_
  have hk := ValueIdx.contrEquiv1_symm_val dot_S32x32_S32x1024_S32x1024_1_0_0_1_n_n 32 rfl rfl k
  have el : dot_S32x32_S32x1024_S32x1024_1_0_0_1_n_n.lhsIdx (ValueIdx.ix2 p q) ((ValueIdx.contrEquiv1 dot_S32x32_S32x1024_S32x1024_1_0_0_1_n_n 32 rfl rfl).symm k) = ValueIdx.ix2 p k := funext fun a => Fin.ext (by
    match a with
    | ⟨0, _⟩ => exact lhs_part_0 _ _
    | ⟨1, _⟩ => exact (dot_S32x32_S32x1024_S32x1024_1_0_0_1_n_n.lhsIdx_val_of_single rfl _ _).trans hk)
  have er : dot_S32x32_S32x1024_S32x1024_1_0_0_1_n_n.rhsIdx (ValueIdx.ix2 p q) ((ValueIdx.contrEquiv1 dot_S32x32_S32x1024_S32x1024_1_0_0_1_n_n 32 rfl rfl).symm k) = ValueIdx.ix2 k q := funext fun a => Fin.ext (by
    match a with
    | ⟨0, _⟩ => exact (dot_S32x32_S32x1024_S32x1024_1_0_0_1_n_n.rhsIdx_val_of_single rfl _ _).trans hk
    | ⟨1, _⟩ => exact rhs_part_1 _ _)
  rw [el, er]

/-- Device `d`'s partial product for row block `t`, at `(p, q)`. -/
theorem pp_apply (xs : ℕ → Vec Ideal S1024x32 .f32) (ws : ℕ → Vec Ideal S32x1024 .f32) (d t : ℕ)
    (p : Fin 32) (q : Fin 1024) :
    pp xs ws d t (ValueIdx.ix2 p q)
      = ∑ k : Fin 32, xs d (ValueIdx.ix2 (⟨(32 * t + p.val) % 1024, Nat.mod_lt _ (by decide)⟩ : Fin 1024) k)
          * ws d (ValueIdx.ix2 k q) := by
  unfold pp
  rw [part_apply]
  rfl

/-! ## The result as a sum of partial products -/

/-- After `n` pair sums the result is the device's own pair plus the `n` pairs added so far. -/
theorem outN_apply (xs : ℕ → Vec Ideal S1024x32 .f32) (ws : ℕ → Vec Ideal S32x1024 .f32) (c n : ℕ)
    (j : S32x1024.Idx) :
    outN xs ws c n j
      = (pp xs ws c c j + pp xs ws (nbrN c) c j)
        + ∑ i ∈ Finset.range n,
            (pp xs ws (srcN c (offN i)) c j + pp xs ws (nbrN (srcN c (offN i))) c j) := by
  induction n with
  | zero =>
    show addf (pp xs ws c c) (down (up (pp xs ws (nbrN c) c))) j = _
    rw [down_up, Finset.sum_range_zero, add_zero]
    rfl
  | succ n ih =>
    show addf (same (outN xs ws c n)) (down (up (pair xs ws (srcN c (offN n)) c))) j = _
    rw [same_eq, down_up, Finset.sum_range_succ, ← add_assoc, ← ih]
    unfold pair
    rw [down_up]
    rfl

/-! ## The devices met are all 32, once each -/

/-- The sixteen senders met, in order: the device itself, then the source of each offset. -/
def srcs (c : ℕ) (i : Fin 16) : ℕ := if i.val = 0 then c else srcN c (offN (i.val - 1))

/-- The 32 devices met: each sender and its partner. -/
def dev (c : ℕ) (x : Fin 16 × Fin 2) : ℕ := if x.2.val = 0 then srcs c x.1 else nbrN (srcs c x.1)

theorem dev_lt : ∀ c : Fin 32, ∀ x : Fin 16 × Fin 2, dev c.val x < 32 := by decide +kernel

theorem dev_bij : ∀ c : Fin 32,
    Function.Bijective (fun x : Fin 16 × Fin 2 => (⟨dev c.val x, dev_lt c x⟩ : Fin 32)) := by decide +kernel

/-- The device's own pair plus the fifteen pairs of the offsets is the sum over all 32 devices. -/
theorem sum_devices {M : Type*} [AddCommMonoid M] (g : ℕ → M) (c : Fin 32) :
    (g c.val + g (nbrN c.val))
        + ∑ i ∈ Finset.range 15, (g (srcN c.val (offN i)) + g (nbrN (srcN c.val (offN i))))
      = ∑ d : Fin 32, g d.val := by
  rw [← (dev_bij c).sum_comp (fun d : Fin 32 => g d.val), Fintype.sum_prod_type, Fin.sum_univ_succ,
    Finset.sum_range]
  simp only [Fin.sum_univ_two]
  congr 1

/-- A sum over 1024 positions is the sum over 32 blocks of 32. -/
theorem sum_split {M : Type*} [AddCommMonoid M] (f : Fin 1024 → M) :
    ∑ k : Fin 1024, f k
      = ∑ d : Fin 32, ∑ kk : Fin 32, f ⟨kk.val + 32 * d.val, by have := kk.isLt; have := d.isLt; omega⟩ := by
  rw [← Equiv.sum_comp (finProdFinEquiv : Fin 32 × Fin 32 ≃ Fin (32 * 32)) (show Fin (32 * 32) → M from f),
    Fintype.sum_prod_type]
  rfl

/-! ## Where the blocks' indices land -/

/-- Row `32c + p`, column `kk` of device `d`'s column block of `X` is the left factor of the
    reference's product at row `32c + p`, contraction position `32d + kk`. -/
theorem x_idx (hX : Layout.Tiles ⟨2, ![1024, 32]⟩ ⟨2, ![1024, 1024]⟩ 1 32)
    (hO : Layout.Tiles ⟨2, ![32, 1024]⟩ ⟨2, ![1024, 1024]⟩ 0 32) (c d : Fin 32) (p kk : Fin 32) (q : Fin 1024)
    (h1 : (32 * c.val + p.val) % 1024 < 1024) (h2 : kk.val + 32 * d.val < 1024) :
    hX.idx d (ValueIdx.ix2 (⟨(32 * c.val + p.val) % 1024, h1⟩ : Fin 1024) kk)
      = Cert.ReferenceIdeal.Read.lidx_main_v0 (hO.idx c (ValueIdx.ix2 p q)) ⟨kk.val + 32 * d.val, h2⟩ := by
  have hc := c.isLt
  have hp := p.isLt
  funext a
  apply Fin.ext
  match a with
  | ⟨0, _⟩ =>
    refine (Layout.idx_cols_val hX d _).1.trans ?_
    refine Eq.trans ?_ (Layout.idx_rows_val hO c (ValueIdx.ix2 p q)).1.symm
    show (32 * c.val + p.val) % 1024 = c.val * 32 + p.val
    omega
  | ⟨1, _⟩ =>
    refine (Layout.idx_cols_val hX d _).2.trans ?_
    show d.val * 32 + kk.val = kk.val + 32 * d.val
    omega

/-- Row `kk`, column `q` of device `d`'s row block of `W` is the right factor of the reference's
    product at column `q`, contraction position `32d + kk`. -/
theorem w_idx (hW : Layout.Tiles ⟨2, ![32, 1024]⟩ ⟨2, ![1024, 1024]⟩ 0 32) (c d : Fin 32) (p kk : Fin 32)
    (q : Fin 1024) (h2 : kk.val + 32 * d.val < 1024) :
    hW.idx d (ValueIdx.ix2 kk q)
      = Cert.ReferenceIdeal.Read.ridx_main_v0 (hW.idx c (ValueIdx.ix2 p q)) ⟨kk.val + 32 * d.val, h2⟩ := by
  funext a
  apply Fin.ext
  match a with
  | ⟨0, _⟩ =>
    refine (Layout.idx_rows_val hW d _).1.trans ?_
    show d.val * 32 + kk.val = kk.val + 32 * d.val
    omega
  | ⟨1, _⟩ =>
    refine (Layout.idx_rows_val hW d _).2.trans ?_
    exact (Layout.idx_rows_val hW c (ValueIdx.ix2 p q)).2.symm

/-! ## The result is the device's block of the product -/

/-- Device `c`'s result is row block `c` of `X · W`, for any families `xs`, `ws` that are, on the 32
    devices, the column blocks of `X` and the row blocks of `W`. -/
theorem out_eq_block_of (X W : (⟨Cert.ReferenceIdeal.S1024x1024, .f32⟩ : BufTy).Contents (Elt Ideal)) (c : Fin 32)
    (hX : Layout.Tiles ⟨2, ![1024, 32]⟩ ⟨2, ![1024, 1024]⟩ 1 32)
    (hW : Layout.Tiles ⟨2, ![32, 1024]⟩ ⟨2, ![1024, 1024]⟩ 0 32)
    (xs : ℕ → Vec Ideal S1024x32 .f32) (ws : ℕ → Vec Ideal S32x1024 .f32)
    (hxs : ∀ d : Fin 32, xs d.val = Layout.block ⟨2, ![1024, 32]⟩ ⟨2, ![1024, 1024]⟩ 1 32 d X hX)
    (hws : ∀ d : Fin 32, ws d.val = Layout.block ⟨2, ![32, 1024]⟩ ⟨2, ![1024, 1024]⟩ 0 32 d W hW) :
    outOf xs ws c.val
      = Layout.block ⟨2, ![32, 1024]⟩ ⟨2, ![1024, 1024]⟩ 0 32 c (Cert.ReferenceIdeal.Read.val_main_v0 (F := Ideal) X W) hW := by
  funext j
  obtain ⟨p, q, rfl⟩ : ∃ (p : Fin 32) (q : Fin 1024), j = ValueIdx.ix2 p q := ⟨j 0, j 1, ValueIdx.eq_ix2 j⟩
  unfold outOf
  rw [outN_apply]
  refine (sum_devices (fun d => pp xs ws d c.val (ValueIdx.ix2 p q)) c).trans ?_
  rw [Layout.block_apply, Cert.ReferenceIdeal.Read.val_main_v0_apply, sum_split]
  refine Finset.sum_congr rfl fun d _ => ?_
  rw [pp_apply]
  refine Finset.sum_congr rfl fun kk _ => ?_
  rw [hxs d, hws d, Layout.block_apply, Layout.block_apply]
  exact congrArg₂ (· * ·) (congrArg X (x_idx hX hW c d p kk q _ _)) (congrArg W (w_idx hW c d p kk q _))

/-- Device `c`'s result, computed from the devices' column blocks of `X` and row blocks of `W`, is
    row block `c` of `X · W`. -/
theorem out_eq_block (X W : (⟨Cert.ReferenceIdeal.S1024x1024, .f32⟩ : BufTy).Contents (Elt Ideal)) (c : Dev nD) :
    outOf (fun d => if h : d < 32 then Layout.block ⟨2, ![1024, 32]⟩ ⟨2, ![1024, 1024]⟩ 1 32 ⟨d, h⟩ X else fun _ => 0)
          (fun d => if h : d < 32 then Layout.block ⟨2, ![32, 1024]⟩ ⟨2, ![1024, 1024]⟩ 0 32 ⟨d, h⟩ W else fun _ => 0) c.val
      = Layout.block ⟨2, ![32, 1024]⟩ ⟨2, ![1024, 1024]⟩ 0 32 c (Cert.ReferenceIdeal.Read.val_main_v0 (F := Ideal) X W) :=
  out_eq_block_of X W c (by decide) (by decide) _ _ (fun d => dif_pos d.isLt) (fun d => dif_pos d.isLt)

/-! ## The slab is what the body's load reads -/

section Load

variable {F : FTy → Type} [FloatOps F]

/-- A load of the unit-stride `[32,32]` rectangle at rows `32t` of a `[1024,32]` view reads rows
    `[32t, 32t+32)` of what the view reads. -/
theorem xrows_eq_readAt {sig : RefSig} {κ : Kind} {sp : Space} (v : View sig κ sp S1024x32 .f32)
    (f : v.ty.Contents (Elt F)) (t : ℕ) (ht : t < 32)
    (h : ∀ a, (![32 * t, 0] : Fin 2 → ℕ) a + S32x32.size a ≤ S1024x32.size a) :
    v.readAt (Elt F) (Rect.unit (s := S1024x32) ![32 * t, 0] S32x32.size h).toLoadRect f
      = xrows (v.read (Elt F) f) t := by
  funext x
  show v.read (Elt F) f _ = v.read (Elt F) f _
  congr 1
  funext a
  apply Fin.ext
  match a with
  | ⟨0, _⟩ =>
    have hx : (x 0).val < 32 := (x 0).isLt
    show 32 * t + 1 * (x 0).val = (32 * t + (x 0).val) % 1024
    omega
  | ⟨1, _⟩ =>
    show 0 + 1 * (x 1).val = (x 1).val
    omega

/-- The same through the whole staging buffer of `x`, which reads as its contents. -/
theorem xrows_eq_readAt_stg (f : (⟨S1024x32, .f32⟩ : BufTy).Contents (Elt F)) (t : ℕ) (ht : t < 32)
    (h : ∀ a, (![32 * t, 0] : Fin 2 → ℕ) a + S32x32.size a ≤ S1024x32.size a) :
    (Memref.whole cc0_stg0_0 : Memref sig .tc .vmem S1024x32 .f32).view.readAt (Elt F)
        (Rect.unit (s := S1024x32) ![32 * t, 0] S32x32.size h).toLoadRect f
      = xrows f t :=
  xrows_eq_readAt (F := F) (Memref.whole cc0_stg0_0 : Memref sig .tc .vmem S1024x32 .f32).view f t ht h

end Load

end Cert.Kernel.Val

end
-- ==== Proof.SpecK.lean ====
/-
  The values the protocol moves.  Device `s` holds the columns `[32 s, 32 s + 32)` of `x` and the rows
  `[32 s, 32 s + 32)` of `w` in its two staging buffers.  `W1 s t` is the product of rows `[32 t, 32 t + 32)`
  of its `x` block with its `w` block — what it stages in the first phase for device `t`; `W2 s t` is
  that product plus its partner's — what it sends `t` in the second phase; `outAt c` is the sum device
  `c` ends with.
-/
import proofs.«900440_g7700000000000441_dist_gemm_rs_m1024_k1024_n1024_f32_none_v7x_i32_1_alg».proof.Proof.RulesK
import proofs.«900440_g7700000000000441_dist_gemm_rs_m1024_k1024_n1024_f32_none_v7x_i32_1_alg».proof.Proof.ValueK

noncomputable section

namespace Cert.Kernel.Proto

open Cert.Kernel Cert.Kernel.Gen Cert.Mesh Cert.Kernel.Val
open Idealize.ShloMosaic Idealize.ShloMosaic.TcCoe
open Idealize.SL Idealize.SL.Sem

variable {F : FTy → Type} [FloatOps F]
variable (m : (ℓ : Loc nD τ sig) → Buf (Elt F) ℓ)

/-- What the `x` and `w` staging buffers of device `c` hold during the body: its argument arrays. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The two families by device number. -/
def xsOf : ℕ → Vec F S1024x32 .f32 := fun d => xstg m ⟨d % 32, Nat.mod_lt _ (by decide)⟩
def wsOf : ℕ → Vec F S32x1024 .f32 := fun d => wstg m ⟨d % 32, Nat.mod_lt _ (by decide)⟩

def W1 (s t : Dev nD) : Vec F S1x32x1024 .f32 := up (pp (xsOf m) (wsOf m) s.val t.val)
def W2 (s t : Dev nD) : Vec F S1x32x1024 .f32 := up (pair (xsOf m) (wsOf m) s.val t.val)
def outAt (c : Dev nD) : (cc0_stg2_0 : Ref sig .tc).ty.Contents (Elt F) := outOf (xsOf m) (wsOf m) c.val

end Cert.Kernel.Proto

end
-- ==== Proof.BodyStmtK.lean ====
/-
  What one device's body starts from and what it leaves: the statement of the body's run.

  The start is cut in groups by the stretch of the body that uses them: the entry handshake; each of
  the sixteen staged products of the first phase; each of the fifteen sums of the second phase; the last
  first-phase receive; each of the fifteen second-phase receives; and what is held throughout.
-/
import proofs.«900440_g7700000000000441_dist_gemm_rs_m1024_k1024_n1024_f32_none_v7x_i32_1_alg».proof.Proof.SpecK
import proofs.«900440_g7700000000000441_dist_gemm_rs_m1024_k1024_n1024_f32_none_v7x_i32_1_alg».proof.Proof.Gen.Kernel.Points

noncomputable section

namespace Cert.Kernel.Proto

open Cert.Kernel Cert.Kernel.Gen Cert.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

section
variable (m : (ℓ : Loc nD τ sig) → Buf (Elt F) ℓ) (κ : GSem nD τ sig → ℕ) (c : Dev nD) (W : Waits sig Unit)
variable (fx : Buf (Elt F) ((Memref.whole cc0_stg0_0 : Memref sig .tc .vmem S1024x32 .f32).view.loc (c : Thread nD τ))) (fw : Buf (Elt F) ((Memref.whole cc0_stg1_0 : Memref sig .tc .vmem S32x1024 .f32).view.loc (c : Thread nD τ))) (fo : Buf (Elt F) ((Memref.whole cc0_stg2_0 : Memref sig .tc .vmem S32x1024 .f32).view.loc (c : Thread nD τ)))
variable (f0 : Buf (Elt F) (stageM.view.loc (c : Thread nD τ))) (f1 : Buf (Elt F) (inboxM.view.loc (c : Thread nD τ))) (f2 : Buf (Elt F) (outboxM.view.loc (c : Thread nD τ))) (f3 : Buf (Elt F) (gatherM.view.loc (c : Thread nD τ)))

/-- The entry handshake: the barrier cells, the slots handed over with the signals, the wait. -/
def gBar : sProp 𝕄 :=
  iprop(cellInv ER (rd (W1 m) (W2 m)) (κ (barCell c)) (barCell c)
    ∗ cellInv ER (rd (W1 m) (W2 m)) (κ (barCell (nbr c))) (barCell (nbr c))
    ∗ cellInv ER (rd (W1 m) (W2 m)) (κ (barCell (peer c (off 0)))) (barCell (peer c (off 0)))
    ∗ cellInv ER (rd (W1 m) (W2 m)) (κ (barCell (peer c (off 1)))) (barCell (peer c (off 1)))
    ∗ cellInv ER (rd (W1 m) (W2 m)) (κ (barCell (peer c (off 2)))) (barCell (peer c (off 2)))
    ∗ cellInv ER (rd (W1 m) (W2 m)) (κ (barCell (peer c (off 3)))) (barCell (peer c (off 3)))
    ∗ cellInv ER (rd (W1 m) (W2 m)) (κ (barCell (peer c (off 4)))) (barCell (peer c (off 4)))
    ∗ cellInv ER (rd (W1 m) (W2 m)) (κ (barCell (peer c (off 5)))) (barCell (peer c (off 5)))
    ∗ cellInv ER (rd (W1 m) (W2 m)) (κ (barCell (peer c (off 6)))) (barCell (peer c (off 6)))
    ∗ cellInv ER (rd (W1 m) (W2 m)) (κ (barCell (peer c (off 7)))) (barCell (peer c (off 7)))
    ∗ cellInv ER (rd (W1 m) (W2 m)) (κ (barCell (peer c (off 8)))) (barCell (peer c (off 8)))
    ∗ cellInv ER (rd (W1 m) (W2 m)) (κ (barCell (peer c (off 9)))) (barCell (peer c (off 9)))
    ∗ cellInv ER (rd (W1 m) (W2 m)) (κ (barCell (peer c (off 10)))) (barCell (peer c (off 10)))
    ∗ cellInv ER (rd (W1 m) (W2 m)) (κ (barCell (peer c (off 11)))) (barCell (peer c (off 11)))
    ∗ cellInv ER (rd (W1 m) (W2 m)) (κ (barCell (peer c (off 12)))) (barCell (peer c (off 12)))
    ∗ cellInv ER (rd (W1 m) (W2 m)) (κ (barCell (peer c (off 13)))) (barCell (peer c (off 13)))
    ∗ cellInv ER (rd (W1 m) (W2 m)) (κ (barCell (peer c (off 14)))) (barCell (peer c (off 14)))
    ∗ reached ER (barCell (nbr c)) 0
    ∗ reached ER (barCell (peer c (off 0))) 0
    ∗ reached ER (barCell (peer c (off 1))) 0
    ∗ reached ER (barCell (peer c (off 2))) 0
    ∗ reached ER (barCell (peer c (off 3))) 0
    ∗ reached ER (barCell (peer c (off 4))) 0
    ∗ reached ER (barCell (peer c (off 5))) 0
    ∗ reached ER (barCell (peer c (off 6))) 0
    ∗ reached ER (barCell (peer c (off 7))) 0
    ∗ reached ER (barCell (peer c (off 8))) 0
    ∗ reached ER (barCell (peer c (off 9))) 0
    ∗ reached ER (barCell (peer c (off 10))) 0
    ∗ reached ER (barCell (peer c (off 11))) 0
    ∗ reached ER (barCell (peer c (off 12))) 0
    ∗ reached ER (barCell (peer c (off 13))) 0
    ∗ reached ER (barCell (peer c (off 14))) 0
    ∗ reached ER (dcell c (p1rS 0)) 0
    ∗ reached ER (dcell c (p1rS 1)) 0
    ∗ reached ER (dcell c (p1rS 2)) 0
    ∗ reached ER (dcell c (p1rS 3)) 0
    ∗ reached ER (dcell c (p1rS 4)) 0
    ∗ reached ER (dcell c (p1rS 5)) 0
    ∗ reached ER (dcell c (p1rS 6)) 0
    ∗ reached ER (dcell c (p1rS 7)) 0
    ∗ reached ER (dcell c (p1rS 8)) 0
    ∗ reached ER (dcell c (p1rS 9)) 0
    ∗ reached ER (dcell c (p1rS 10)) 0
    ∗ reached ER (dcell c (p1rS 11)) 0
    ∗ reached ER (dcell c (p1rS 12)) 0
    ∗ reached ER (dcell c (p1rS 13)) 0
    ∗ reached ER (dcell c (p1rS 14)) 0
    ∗ reached ER (dcell c (p1rS 15)) 0
    ∗ reached ER (dcell c (p2rS (pairOf (peer c (off 0))))) 0
    ∗ reached ER (dcell c (p2rS (pairOf (peer c (off 1))))) 0
    ∗ reached ER (dcell c (p2rS (pairOf (peer c (off 2))))) 0
    ∗ reached ER (dcell c (p2rS (pairOf (peer c (off 3))))) 0
    ∗ reached ER (dcell c (p2rS (pairOf (peer c (off 4))))) 0
    ∗ reached ER (dcell c (p2rS (pairOf (peer c (off 5))))) 0
    ∗ reached ER (dcell c (p2rS (pairOf (peer c (off 6))))) 0
    ∗ reached ER (dcell c (p2rS (pairOf (peer c (off 7))))) 0
    ∗ reached ER (dcell c (p2rS (pairOf (peer c (off 8))))) 0
    ∗ reached ER (dcell c (p2rS (pairOf (peer c (off 9))))) 0
    ∗ reached ER (dcell c (p2rS (pairOf (peer c (off 10))))) 0
    ∗ reached ER (dcell c (p2rS (pairOf (peer c (off 11))))) 0
    ∗ reached ER (dcell c (p2rS (pairOf (peer c (off 12))))) 0
    ∗ reached ER (dcell c (p2rS (pairOf (peer c (off 13))))) 0
    ∗ reached ER (dcell c (p2rS (pairOf (peer c (off 14))))) 0
    ∗ dutyTok ER (barCell (nbr c)) 0 0
    ∗ dutyTok ER (barCell (peer c (off 0))) 0 (1 : DN)
    ∗ dutyTok ER (barCell (peer c (off 1))) 0 (2 : DN)
    ∗ dutyTok ER (barCell (peer c (off 2))) 0 (3 : DN)
    ∗ dutyTok ER (barCell (peer c (off 3))) 0 (4 : DN)
    ∗ dutyTok ER (barCell (peer c (off 4))) 0 (5 : DN)
    ∗ dutyTok ER (barCell (peer c (off 5))) 0 (6 : DN)
    ∗ dutyTok ER (barCell (peer c (off 6))) 0 (7 : DN)
    ∗ dutyTok ER (barCell (peer c (off 7))) 0 (8 : DN)
    ∗ dutyTok ER (barCell (peer c (off 8))) 0 (9 : DN)
    ∗ dutyTok ER (barCell (peer c (off 9))) 0 (10 : DN)
    ∗ dutyTok ER (barCell (peer c (off 10))) 0 (11 : DN)
    ∗ dutyTok ER (barCell (peer c (off 11))) 0 (12 : DN)
    ∗ dutyTok ER (barCell (peer c (off 12))) 0 (13 : DN)
    ∗ dutyTok ER (barCell (peer c (off 13))) 0 (14 : DN)
    ∗ dutyTok ER (barCell (peer c (off 14))) 0 (15 : DN)
    ∗ ((slot16 inboxM 0 (of_decide_eq_true rfl)).view.loc (c : Thread nD τ) ↦[(slot16 inboxM 0 (of_decide_eq_true rfl)).view.set]{fullShare} f1)
    ∗ ((slot16 inboxM 1 (of_decide_eq_true rfl)).view.loc (c : Thread nD τ) ↦[(slot16 inboxM 1 (of_decide_eq_true rfl)).view.set]{fullShare} f1)
    ∗ ((slot16 inboxM 2 (of_decide_eq_true rfl)).view.loc (c : Thread nD τ) ↦[(slot16 inboxM 2 (of_decide_eq_true rfl)).view.set]{fullShare} f1)
    ∗ ((slot16 inboxM 3 (of_decide_eq_true rfl)).view.loc (c : Thread nD τ) ↦[(slot16 inboxM 3 (of_decide_eq_true rfl)).view.set]{fullShare} f1)
    ∗ ((slot16 inboxM 4 (of_decide_eq_true rfl)).view.loc (c : Thread nD τ) ↦[(slot16 inboxM 4 (of_decide_eq_true rfl)).view.set]{fullShare} f1)
    ∗ ((slot16 inboxM 5 (of_decide_eq_true rfl)).view.loc (c : Thread nD τ) ↦[(slot16 inboxM 5 (of_decide_eq_true rfl)).view.set]{fullShare} f1)
    ∗ ((slot16 inboxM 6 (of_decide_eq_true rfl)).view.loc (c : Thread nD τ) ↦[(slot16 inboxM 6 (of_decide_eq_true rfl)).view.set]{fullShare} f1)
    ∗ ((slot16 inboxM 7 (of_decide_eq_true rfl)).view.loc (c : Thread nD τ) ↦[(slot16 inboxM 7 (of_decide_eq_true rfl)).view.set]{fullShare} f1)
    ∗ ((slot16 inboxM 8 (of_decide_eq_true rfl)).view.loc (c : Thread nD τ) ↦[(slot16 inboxM 8 (of_decide_eq_true rfl)).view.set]{fullShare} f1)
    ∗ ((slot16 inboxM 9 (of_decide_eq_true rfl)).view.loc (c : Thread nD τ) ↦[(slot16 inboxM 9 (of_decide_eq_true rfl)).view.set]{fullShare} f1)
    ∗ ((slot16 inboxM 10 (of_decide_eq_true rfl)).view.loc (c : Thread nD τ) ↦[(slot16 inboxM 10 (of_decide_eq_true rfl)).view.set]{fullShare} f1)
    ∗ ((slot16 inboxM 11 (of_decide_eq_true rfl)).view.loc (c : Thread nD τ) ↦[(slot16 inboxM 11 (of_decide_eq_true rfl)).view.set]{fullShare} f1)
    ∗ ((slot16 inboxM 12 (of_decide_eq_true rfl)).view.loc (c : Thread nD τ) ↦[(slot16 inboxM 12 (of_decide_eq_true rfl)).view.set]{fullShare} f1)
    ∗ ((slot16 inboxM 13 (of_decide_eq_true rfl)).view.loc (c : Thread nD τ) ↦[(slot16 inboxM 13 (of_decide_eq_true rfl)).view.set]{fullShare} f1)
    ∗ ((slot16 inboxM 14 (of_decide_eq_true rfl)).view.loc (c : Thread nD τ) ↦[(slot16 inboxM 14 (of_decide_eq_true rfl)).view.set]{fullShare} f1)
    ∗ ((slot16 inboxM 15 (of_decide_eq_true rfl)).view.loc (c : Thread nD τ) ↦[(slot16 inboxM 15 (of_decide_eq_true rfl)).view.set]{fullShare} f1)
    ∗ ((slot16 gatherM (rr (peer c (off 0)).val) (rr_lt (peer c (off 0)))).view.loc (c : Thread nD τ) ↦[(slot16 gatherM (rr (peer c (off 0)).val) (rr_lt (peer c (off 0)))).view.set]{fullShare} f3)
    ∗ ((slot16 gatherM (rr (peer c (off 1)).val) (rr_lt (peer c (off 1)))).view.loc (c : Thread nD τ) ↦[(slot16 gatherM (rr (peer c (off 1)).val) (rr_lt (peer c (off 1)))).view.set]{fullShare} f3)
    ∗ ((slot16 gatherM (rr (peer c (off 2)).val) (rr_lt (peer c (off 2)))).view.loc (c : Thread nD τ) ↦[(slot16 gatherM (rr (peer c (off 2)).val) (rr_lt (peer c (off 2)))).view.set]{fullShare} f3)
    ∗ ((slot16 gatherM (rr (peer c (off 3)).val) (rr_lt (peer c (off 3)))).view.loc (c : Thread nD τ) ↦[(slot16 gatherM (rr (peer c (off 3)).val) (rr_lt (peer c (off 3)))).view.set]{fullShare} f3)
    ∗ ((slot16 gatherM (rr (peer c (off 4)).val) (rr_lt (peer c (off 4)))).view.loc (c : Thread nD τ) ↦[(slot16 gatherM (rr (peer c (off 4)).val) (rr_lt (peer c (off 4)))).view.set]{fullShare} f3)
    ∗ ((slot16 gatherM (rr (peer c (off 5)).val) (rr_lt (peer c (off 5)))).view.loc (c : Thread nD τ) ↦[(slot16 gatherM (rr (peer c (off 5)).val) (rr_lt (peer c (off 5)))).view.set]{fullShare} f3)
    ∗ ((slot16 gatherM (rr (peer c (off 6)).val) (rr_lt (peer c (off 6)))).view.loc (c : Thread nD τ) ↦[(slot16 gatherM (rr (peer c (off 6)).val) (rr_lt (peer c (off 6)))).view.set]{fullShare} f3)
    ∗ ((slot16 gatherM (rr (peer c (off 7)).val) (rr_lt (peer c (off 7)))).view.loc (c : Thread nD τ) ↦[(slot16 gatherM (rr (peer c (off 7)).val) (rr_lt (peer c (off 7)))).view.set]{fullShare} f3)
    ∗ ((slot16 gatherM (rr (peer c (off 8)).val) (rr_lt (peer c (off 8)))).view.loc (c : Thread nD τ) ↦[(slot16 gatherM (rr (peer c (off 8)).val) (rr_lt (peer c (off 8)))).view.set]{fullShare} f3)
    ∗ ((slot16 gatherM (rr (peer c (off 9)).val) (rr_lt (peer c (off 9)))).view.loc (c : Thread nD τ) ↦[(slot16 gatherM (rr (peer c (off 9)).val) (rr_lt (peer c (off 9)))).view.set]{fullShare} f3)
    ∗ ((slot16 gatherM (rr (peer c (off 10)).val) (rr_lt (peer c (off 10)))).view.loc (c : Thread nD τ) ↦[(slot16 gatherM (rr (peer c (off 10)).val) (rr_lt (peer c (off 10)))).view.set]{fullShare} f3)
    ∗ ((slot16 gatherM (rr (peer c (off 11)).val) (rr_lt (peer c (off 11)))).view.loc (c : Thread nD τ) ↦[(slot16 gatherM (rr (peer c (off 11)).val) (rr_lt (peer c (off 11)))).view.set]{fullShare} f3)
    ∗ ((slot16 gatherM (rr (peer c (off 12)).val) (rr_lt (peer c (off 12)))).view.loc (c : Thread nD τ) ↦[(slot16 gatherM (rr (peer c (off 12)).val) (rr_lt (peer c (off 12)))).view.set]{fullShare} f3)
    ∗ ((slot16 gatherM (rr (peer c (off 13)).val) (rr_lt (peer c (off 13)))).view.loc (c : Thread nD τ) ↦[(slot16 gatherM (rr (peer c (off 13)).val) (rr_lt (peer c (off 13)))).view.set]{fullShare} f3)
    ∗ ((slot16 gatherM (rr (peer c (off 14)).val) (rr_lt (peer c (off 14)))).view.loc (c : Thread nD τ) ↦[(slot16 gatherM (rr (peer c (off 14)).val) (rr_lt (peer c (off 14)))).view.set]{fullShare} f3)
    ∗ atPos ER (barCell c) 0 ∅ 0
    ∗ cred (tallyAt (barCell c) () 16)
    ∗ MayWait (c : Thread nD τ) (.reg barS) () (debt c 0))

/-- Staged product 0 of the first phase and its copy to the partner. -/
def gP1_0 : sProp 𝕄 :=
  iprop(cellInv ER (rd (W1 m) (W2 m)) (κ (dcell c (p1sS 0))) (dcell c (p1sS 0))
    ∗ cellInv ER (rd (W1 m) (W2 m)) (κ (dcell (nbr c) (p1rS 0))) (dcell (nbr c) (p1rS 0))
    ∗ reached ER (dcell c (p1sS 0)) 0
    ∗ dutyTok ER (dcell c (p1sS 0)) 0 0
    ∗ dutyTok ER (dcell (nbr c) (p1rS 0)) 0 0
    ∗ atPos ER (dcell c (p1sS 0)) 0 ∅ 0
    ∗ ((slot16 stageM 0 (of_decide_eq_true rfl)).view.loc (c : Thread nD τ) ↦[(slot16 stageM 0 (of_decide_eq_true rfl)).view.set]{fullShare} f0))

/-- Staged product 1 of the first phase and its copy to the partner. -/
def gP1_1 : sProp 𝕄 :=
  iprop(cellInv ER (rd (W1 m) (W2 m)) (κ (dcell c (p1sS 1))) (dcell c (p1sS 1))
    ∗ cellInv ER (rd (W1 m) (W2 m)) (κ (dcell (nbr c) (p1rS 1))) (dcell (nbr c) (p1rS 1))
    ∗ reached ER (dcell c (p1sS 1)) 0
    ∗ dutyTok ER (dcell c (p1sS 1)) 0 0
    ∗ dutyTok ER (dcell (nbr c) (p1rS 1)) 0 0
    ∗ atPos ER (dcell c (p1sS 1)) 0 ∅ 0
    ∗ ((slot16 stageM 1 (of_decide_eq_true rfl)).view.loc (c : Thread nD τ) ↦[(slot16 stageM 1 (of_decide_eq_true rfl)).view.set]{fullShare} f0))

/-- Staged product 2 of the first phase and its copy to the partner. -/
def gP1_2 : sProp 𝕄 :=
  iprop(cellInv ER (rd (W1 m) (W2 m)) (κ (dcell c (p1sS 2))) (dcell c (p1sS 2))
    ∗ cellInv ER (rd (W1 m) (W2 m)) (κ (dcell (nbr c) (p1rS 2))) (dcell (nbr c) (p1rS 2))
    ∗ reached ER (dcell c (p1sS 2)) 0
    ∗ dutyTok ER (dcell c (p1sS 2)) 0 0
    ∗ dutyTok ER (dcell (nbr c) (p1rS 2)) 0 0
    ∗ atPos ER (dcell c (p1sS 2)) 0 ∅ 0
    ∗ ((slot16 stageM 2 (of_decide_eq_true rfl)).view.loc (c : Thread nD τ) ↦[(slot16 stageM 2 (of_decide_eq_true rfl)).view.set]{fullShare} f0))

/-- Staged product 3 of the first phase and its copy to the partner. -/
def gP1_3 : sProp 𝕄 :=
  iprop(cellInv ER (rd (W1 m) (W2 m)) (κ (dcell c (p1sS 3))) (dcell c (p1sS 3))
    ∗ cellInv ER (rd (W1 m) (W2 m)) (κ (dcell (nbr c) (p1rS 3))) (dcell (nbr c) (p1rS 3))
    ∗ reached ER (dcell c (p1sS 3)) 0
    ∗ dutyTok ER (dcell c (p1sS 3)) 0 0
    ∗ dutyTok ER (dcell (nbr c) (p1rS 3)) 0 0
    ∗ atPos ER (dcell c (p1sS 3)) 0 ∅ 0
    ∗ ((slot16 stageM 3 (of_decide_eq_true rfl)).view.loc (c : Thread nD τ) ↦[(slot16 stageM 3 (of_decide_eq_true rfl)).view.set]{fullShare} f0))

/-- Staged product 4 of the first phase and its copy to the partner. -/
def gP1_4 : sProp 𝕄 :=
  iprop(cellInv ER (rd (W1 m) (W2 m)) (κ (dcell c (p1sS 4))) (dcell c (p1sS 4))
    ∗ cellInv ER (rd (W1 m) (W2 m)) (κ (dcell (nbr c) (p1rS 4))) (dcell (nbr c) (p1rS 4))
    ∗ reached ER (dcell c (p1sS 4)) 0
    ∗ dutyTok ER (dcell c (p1sS 4)) 0 0
    ∗ dutyTok ER (dcell (nbr c) (p1rS 4)) 0 0
    ∗ atPos ER (dcell c (p1sS 4)) 0 ∅ 0
    ∗ ((slot16 stageM 4 (of_decide_eq_true rfl)).view.loc (c : Thread nD τ) ↦[(slot16 stageM 4 (of_decide_eq_true rfl)).view.set]{fullShare} f0))

/-- Staged product 5 of the first phase and its copy to the partner. -/
def gP1_5 : sProp 𝕄 :=
  iprop(cellInv ER (rd (W1 m) (W2 m)) (κ (dcell c (p1sS 5))) (dcell c (p1sS 5))
    ∗ cellInv ER (rd (W1 m) (W2 m)) (κ (dcell (nbr c) (p1rS 5))) (dcell (nbr c) (p1rS 5))
    ∗ reached ER (dcell c (p1sS 5)) 0
    ∗ dutyTok ER (dcell c (p1sS 5)) 0 0
    ∗ dutyTok ER (dcell (nbr c) (p1rS 5)) 0 0
    ∗ atPos ER (dcell c (p1sS 5)) 0 ∅ 0
    ∗ ((slot16 stageM 5 (of_decide_eq_true rfl)).view.loc (c : Thread nD τ) ↦[(slot16 stageM 5 (of_decide_eq_true rfl)).view.set]{fullShare} f0))

/-- Staged product 6 of the first phase and its copy to the partner. -/
def gP1_6 : sProp 𝕄 :=
  iprop(cellInv ER (rd (W1 m) (W2 m)) (κ (dcell c (p1sS 6))) (dcell c (p1sS 6))
    ∗ cellInv ER (rd (W1 m) (W2 m)) (κ (dcell (nbr c) (p1rS 6))) (dcell (nbr c) (p1rS 6))
    ∗ reached ER (dcell c (p1sS 6)) 0
    ∗ dutyTok ER (dcell c (p1sS 6)) 0 0
    ∗ dutyTok ER (dcell (nbr c) (p1rS 6)) 0 0
    ∗ atPos ER (dcell c (p1sS 6)) 0 ∅ 0
    ∗ ((slot16 stageM 6 (of_decide_eq_true rfl)).view.loc (c : Thread nD τ) ↦[(slot16 stageM 6 (of_decide_eq_true rfl)).view.set]{fullShare} f0))

/-- Staged product 7 of the first phase and its copy to the partner. -/
def gP1_7 : sProp 𝕄 :=
  iprop(cellInv ER (rd (W1 m) (W2 m)) (κ (dcell c (p1sS 7))) (dcell c (p1sS 7))
    ∗ cellInv ER (rd (W1 m) (W2 m)) (κ (dcell (nbr c) (p1rS 7))) (dcell (nbr c) (p1rS 7))
    ∗ reached ER (dcell c (p1sS 7)) 0
    ∗ dutyTok ER (dcell c (p1sS 7)) 0 0
    ∗ dutyTok ER (dcell (nbr c) (p1rS 7)) 0 0
    ∗ atPos ER (dcell c (p1sS 7)) 0 ∅ 0
    ∗ ((slot16 stageM 7 (of_decide_eq_true rfl)).view.loc (c : Thread nD τ) ↦[(slot16 stageM 7 (of_decide_eq_true rfl)).view.set]{fullShare} f0))

/-- Staged product 8 of the first phase and its copy to the partner. -/
def gP1_8 : sProp 𝕄 :=
  iprop(cellInv ER (rd (W1 m) (W2 m)) (κ (dcell c (p1sS 8))) (dcell c (p1sS 8))
    ∗ cellInv ER (rd (W1 m) (W2 m)) (κ (dcell (nbr c) (p1rS 8))) (dcell (nbr c) (p1rS 8))
    ∗ reached ER (dcell c (p1sS 8)) 0
    ∗ dutyTok ER (dcell c (p1sS 8)) 0 0
    ∗ dutyTok ER (dcell (nbr c) (p1rS 8)) 0 0
    ∗ atPos ER (dcell c (p1sS 8)) 0 ∅ 0
    ∗ ((slot16 stageM 8 (of_decide_eq_true rfl)).view.loc (c : Thread nD τ) ↦[(slot16 stageM 8 (of_decide_eq_true rfl)).view.set]{fullShare} f0))

/-- Staged product 9 of the first phase and its copy to the partner. -/
def gP1_9 : sProp 𝕄 :=
  iprop(cellInv ER (rd (W1 m) (W2 m)) (κ (dcell c (p1sS 9))) (dcell c (p1sS 9))
    ∗ cellInv ER (rd (W1 m) (W2 m)) (κ (dcell (nbr c) (p1rS 9))) (dcell (nbr c) (p1rS 9))
    ∗ reached ER (dcell c (p1sS 9)) 0
    ∗ dutyTok ER (dcell c (p1sS 9)) 0 0
    ∗ dutyTok ER (dcell (nbr c) (p1rS 9)) 0 0
    ∗ atPos ER (dcell c (p1sS 9)) 0 ∅ 0
    ∗ ((slot16 stageM 9 (of_decide_eq_true rfl)).view.loc (c : Thread nD τ) ↦[(slot16 stageM 9 (of_decide_eq_true rfl)).view.set]{fullShare} f0))

/-- Staged product 10 of the first phase and its copy to the partner. -/
def gP1_10 : sProp 𝕄 :=
  iprop(cellInv ER (rd (W1 m) (W2 m)) (κ (dcell c (p1sS 10))) (dcell c (p1sS 10))
    ∗ cellInv ER (rd (W1 m) (W2 m)) (κ (dcell (nbr c) (p1rS 10))) (dcell (nbr c) (p1rS 10))
    ∗ reached ER (dcell c (p1sS 10)) 0
    ∗ dutyTok ER (dcell c (p1sS 10)) 0 0
    ∗ dutyTok ER (dcell (nbr c) (p1rS 10)) 0 0
    ∗ atPos ER (dcell c (p1sS 10)) 0 ∅ 0
    ∗ ((slot16 stageM 10 (of_decide_eq_true rfl)).view.loc (c : Thread nD τ) ↦[(slot16 stageM 10 (of_decide_eq_true rfl)).view.set]{fullShare} f0))

/-- Staged product 11 of the first phase and its copy to the partner. -/
def gP1_11 : sProp 𝕄 :=
  iprop(cellInv ER (rd (W1 m) (W2 m)) (κ (dcell c (p1sS 11))) (dcell c (p1sS 11))
    ∗ cellInv ER (rd (W1 m) (W2 m)) (κ (dcell (nbr c) (p1rS 11))) (dcell (nbr c) (p1rS 11))
    ∗ reached ER (dcell c (p1sS 11)) 0
    ∗ dutyTok ER (dcell c (p1sS 11)) 0 0
    ∗ dutyTok ER (dcell (nbr c) (p1rS 11)) 0 0
    ∗ atPos ER (dcell c (p1sS 11)) 0 ∅ 0
    ∗ ((slot16 stageM 11 (of_decide_eq_true rfl)).view.loc (c : Thread nD τ) ↦[(slot16 stageM 11 (of_decide_eq_true rfl)).view.set]{fullShare} f0))

/-- Staged product 12 of the first phase and its copy to the partner. -/
def gP1_12 : sProp 𝕄 :=
  iprop(cellInv ER (rd (W1 m) (W2 m)) (κ (dcell c (p1sS 12))) (dcell c (p1sS 12))
    ∗ cellInv ER (rd (W1 m) (W2 m)) (κ (dcell (nbr c) (p1rS 12))) (dcell (nbr c) (p1rS 12))
    ∗ reached ER (dcell c (p1sS 12)) 0
    ∗ dutyTok ER (dcell c (p1sS 12)) 0 0
    ∗ dutyTok ER (dcell (nbr c) (p1rS 12)) 0 0
    ∗ atPos ER (dcell c (p1sS 12)) 0 ∅ 0
    ∗ ((slot16 stageM 12 (of_decide_eq_true rfl)).view.loc (c : Thread nD τ) ↦[(slot16 stageM 12 (of_decide_eq_true rfl)).view.set]{fullShare} f0))

/-- Staged product 13 of the first phase and its copy to the partner. -/
def gP1_13 : sProp 𝕄 :=
  iprop(cellInv ER (rd (W1 m) (W2 m)) (κ (dcell c (p1sS 13))) (dcell c (p1sS 13))
    ∗ cellInv ER (rd (W1 m) (W2 m)) (κ (dcell (nbr c) (p1rS 13))) (dcell (nbr c) (p1rS 13))
    ∗ reached ER (dcell c (p1sS 13)) 0
    ∗ dutyTok ER (dcell c (p1sS 13)) 0 0
    ∗ dutyTok ER (dcell (nbr c) (p1rS 13)) 0 0
    ∗ atPos ER (dcell c (p1sS 13)) 0 ∅ 0
    ∗ ((slot16 stageM 13 (of_decide_eq_true rfl)).view.loc (c : Thread nD τ) ↦[(slot16 stageM 13 (of_decide_eq_true rfl)).view.set]{fullShare} f0))

/-- Staged product 14 of the first phase and its copy to the partner. -/
def gP1_14 : sProp 𝕄 :=
  iprop(cellInv ER (rd (W1 m) (W2 m)) (κ (dcell c (p1sS 14))) (dcell c (p1sS 14))
    ∗ cellInv ER (rd (W1 m) (W2 m)) (κ (dcell (nbr c) (p1rS 14))) (dcell (nbr c) (p1rS 14))
    ∗ reached ER (dcell c (p1sS 14)) 0
    ∗ dutyTok ER (dcell c (p1sS 14)) 0 0
    ∗ dutyTok ER (dcell (nbr c) (p1rS 14)) 0 0
    ∗ atPos ER (dcell c (p1sS 14)) 0 ∅ 0
    ∗ ((slot16 stageM 14 (of_decide_eq_true rfl)).view.loc (c : Thread nD τ) ↦[(slot16 stageM 14 (of_decide_eq_true rfl)).view.set]{fullShare} f0))

/-- Staged product 15 of the first phase and its copy to the partner. -/
def gP1_15 : sProp 𝕄 :=
  iprop(cellInv ER (rd (W1 m) (W2 m)) (κ (dcell c (p1sS 15))) (dcell c (p1sS 15))
    ∗ cellInv ER (rd (W1 m) (W2 m)) (κ (dcell (nbr c) (p1rS 15))) (dcell (nbr c) (p1rS 15))
    ∗ reached ER (dcell c (p1sS 15)) 0
    ∗ dutyTok ER (dcell c (p1sS 15)) 0 0
    ∗ dutyTok ER (dcell (nbr c) (p1rS 15)) 0 0
    ∗ atPos ER (dcell c (p1sS 15)) 0 ∅ 0
    ∗ ((slot16 stageM 15 (of_decide_eq_true rfl)).view.loc (c : Thread nD τ) ↦[(slot16 stageM 15 (of_decide_eq_true rfl)).view.set]{fullShare} f0))

/-- Sum 0 of the second phase: the wait for the partner's product, the sum, its copy to the peer. -/
def gP2_0 : sProp 𝕄 :=
  iprop(cellInv ER (rd (W1 m) (W2 m)) (κ (dcell c (p1rS 0))) (dcell c (p1rS 0))
    ∗ cellInv ER (rd (W1 m) (W2 m)) (κ (dcell c (p2sS 0))) (dcell c (p2sS 0))
    ∗ cellInv ER (rd (W1 m) (W2 m)) (κ (dcell (peer c (off 0)) (p2rS (pairOf c)))) (dcell (peer c (off 0)) (p2rS (pairOf c)))
    ∗ reached ER (dcell c (p2sS 0)) 0
    ∗ atPos ER (dcell c (p1rS 0)) 0 ∅ 0
    ∗ cred (tallyAt (dcell c (p1rS 0)) () N)
    ∗ MayWait (c : Thread nD τ) (.dma (p1rS 0)) () (debt c 16)
    ∗ dutyTok ER (dcell c (p2sS 0)) 0 0
    ∗ dutyTok ER (dcell (peer c (off 0)) (p2rS (pairOf c))) 0 0
    ∗ atPos ER (dcell c (p2sS 0)) 0 ∅ 0
    ∗ ((slot15 outboxM 0 (of_decide_eq_true rfl)).view.loc (c : Thread nD τ) ↦[(slot15 outboxM 0 (of_decide_eq_true rfl)).view.set]{fullShare} f2))

/-- Sum 1 of the second phase: the wait for the partner's product, the sum, its copy to the peer. -/
def gP2_1 : sProp 𝕄 :=
  iprop(cellInv ER (rd (W1 m) (W2 m)) (κ (dcell c (p1rS 1))) (dcell c (p1rS 1))
    ∗ cellInv ER (rd (W1 m) (W2 m)) (κ (dcell c (p2sS 1))) (dcell c (p2sS 1))
    ∗ cellInv ER (rd (W1 m) (W2 m)) (κ (dcell (peer c (off 1)) (p2rS (pairOf c)))) (dcell (peer c (off 1)) (p2rS (pairOf c)))
    ∗ reached ER (dcell c (p2sS 1)) 0
    ∗ atPos ER (dcell c (p1rS 1)) 0 ∅ 0
    ∗ cred (tallyAt (dcell c (p1rS 1)) () N)
    ∗ MayWait (c : Thread nD τ) (.dma (p1rS 1)) () (debt c 17)
    ∗ dutyTok ER (dcell c (p2sS 1)) 0 0
    ∗ dutyTok ER (dcell (peer c (off 1)) (p2rS (pairOf c))) 0 0
    ∗ atPos ER (dcell c (p2sS 1)) 0 ∅ 0
    ∗ ((slot15 outboxM 1 (of_decide_eq_true rfl)).view.loc (c : Thread nD τ) ↦[(slot15 outboxM 1 (of_decide_eq_true rfl)).view.set]{fullShare} f2))

/-- Sum 2 of the second phase: the wait for the partner's product, the sum, its copy to the peer. -/
def gP2_2 : sProp 𝕄 :=
  iprop(cellInv ER (rd (W1 m) (W2 m)) (κ (dcell c (p1rS 2))) (dcell c (p1rS 2))
    ∗ cellInv ER (rd (W1 m) (W2 m)) (κ (dcell c (p2sS 2))) (dcell c (p2sS 2))
    ∗ cellInv ER (rd (W1 m) (W2 m)) (κ (dcell (peer c (off 2)) (p2rS (pairOf c)))) (dcell (peer c (off 2)) (p2rS (pairOf c)))
    ∗ reached ER (dcell c (p2sS 2)) 0
    ∗ atPos ER (dcell c (p1rS 2)) 0 ∅ 0
    ∗ cred (tallyAt (dcell c (p1rS 2)) () N)
    ∗ MayWait (c : Thread nD τ) (.dma (p1rS 2)) () (debt c 18)
    ∗ dutyTok ER (dcell c (p2sS 2)) 0 0
    ∗ dutyTok ER (dcell (peer c (off 2)) (p2rS (pairOf c))) 0 0
    ∗ atPos ER (dcell c (p2sS 2)) 0 ∅ 0
    ∗ ((slot15 outboxM 2 (of_decide_eq_true rfl)).view.loc (c : Thread nD τ) ↦[(slot15 outboxM 2 (of_decide_eq_true rfl)).view.set]{fullShare} f2))

/-- Sum 3 of the second phase: the wait for the partner's product, the sum, its copy to the peer. -/
def gP2_3 : sProp 𝕄 :=
  iprop(cellInv ER (rd (W1 m) (W2 m)) (κ (dcell c (p1rS 3))) (dcell c (p1rS 3))
    ∗ cellInv ER (rd (W1 m) (W2 m)) (κ (dcell c (p2sS 3))) (dcell c (p2sS 3))
    ∗ cellInv ER (rd (W1 m) (W2 m)) (κ (dcell (peer c (off 3)) (p2rS (pairOf c)))) (dcell (peer c (off 3)) (p2rS (pairOf c)))
    ∗ reached ER (dcell c (p2sS 3)) 0
    ∗ atPos ER (dcell c (p1rS 3)) 0 ∅ 0
    ∗ cred (tallyAt (dcell c (p1rS 3)) () N)
    ∗ MayWait (c : Thread nD τ) (.dma (p1rS 3)) () (debt c 19)
    ∗ dutyTok ER (dcell c (p2sS 3)) 0 0
    ∗ dutyTok ER (dcell (peer c (off 3)) (p2rS (pairOf c))) 0 0
    ∗ atPos ER (dcell c (p2sS 3)) 0 ∅ 0
    ∗ ((slot15 outboxM 3 (of_decide_eq_true rfl)).view.loc (c : Thread nD τ) ↦[(slot15 outboxM 3 (of_decide_eq_true rfl)).view.set]{fullShare} f2))

/-- Sum 4 of the second phase: the wait for the partner's product, the sum, its copy to the peer. -/
def gP2_4 : sProp 𝕄 :=
  iprop(cellInv ER (rd (W1 m) (W2 m)) (κ (dcell c (p1rS 4))) (dcell c (p1rS 4))
    ∗ cellInv ER (rd (W1 m) (W2 m)) (κ (dcell c (p2sS 4))) (dcell c (p2sS 4))
    ∗ cellInv ER (rd (W1 m) (W2 m)) (κ (dcell (peer c (off 4)) (p2rS (pairOf c)))) (dcell (peer c (off 4)) (p2rS (pairOf c)))
    ∗ reached ER (dcell c (p2sS 4)) 0
    ∗ atPos ER (dcell c (p1rS 4)) 0 ∅ 0
    ∗ cred (tallyAt (dcell c (p1rS 4)) () N)
    ∗ MayWait (c : Thread nD τ) (.dma (p1rS 4)) () (debt c 20)
    ∗ dutyTok ER (dcell c (p2sS 4)) 0 0
    ∗ dutyTok ER (dcell (peer c (off 4)) (p2rS (pairOf c))) 0 0
    ∗ atPos ER (dcell c (p2sS 4)) 0 ∅ 0
    ∗ ((slot15 outboxM 4 (of_decide_eq_true rfl)).view.loc (c : Thread nD τ) ↦[(slot15 outboxM 4 (of_decide_eq_true rfl)).view.set]{fullShare} f2))

/-- Sum 5 of the second phase: the wait for the partner's product, the sum, its copy to the peer. -/
def gP2_5 : sProp 𝕄 :=
  iprop(cellInv ER (rd (W1 m) (W2 m)) (κ (dcell c (p1rS 5))) (dcell c (p1rS 5))
    ∗ cellInv ER (rd (W1 m) (W2 m)) (κ (dcell c (p2sS 5))) (dcell c (p2sS 5))
    ∗ cellInv ER (rd (W1 m) (W2 m)) (κ (dcell (peer c (off 5)) (p2rS (pairOf c)))) (dcell (peer c (off 5)) (p2rS (pairOf c)))
    ∗ reached ER (dcell c (p2sS 5)) 0
    ∗ atPos ER (dcell c (p1rS 5)) 0 ∅ 0
    ∗ cred (tallyAt (dcell c (p1rS 5)) () N)
    ∗ MayWait (c : Thread nD τ) (.dma (p1rS 5)) () (debt c 21)
    ∗ dutyTok ER (dcell c (p2sS 5)) 0 0
    ∗ dutyTok ER (dcell (peer c (off 5)) (p2rS (pairOf c))) 0 0
    ∗ atPos ER (dcell c (p2sS 5)) 0 ∅ 0
    ∗ ((slot15 outboxM 5 (of_decide_eq_true rfl)).view.loc (c : Thread nD τ) ↦[(slot15 outboxM 5 (of_decide_eq_true rfl)).view.set]{fullShare} f2))

/-- Sum 6 of the second phase: the wait for the partner's product, the sum, its copy to the peer. -/
def gP2_6 : sProp 𝕄 :=
  iprop(cellInv ER (rd (W1 m) (W2 m)) (κ (dcell c (p1rS 6))) (dcell c (p1rS 6))
    ∗ cellInv ER (rd (W1 m) (W2 m)) (κ (dcell c (p2sS 6))) (dcell c (p2sS 6))
    ∗ cellInv ER (rd (W1 m) (W2 m)) (κ (dcell (peer c (off 6)) (p2rS (pairOf c)))) (dcell (peer c (off 6)) (p2rS (pairOf c)))
    ∗ reached ER (dcell c (p2sS 6)) 0
    ∗ atPos ER (dcell c (p1rS 6)) 0 ∅ 0
    ∗ cred (tallyAt (dcell c (p1rS 6)) () N)
    ∗ MayWait (c : Thread nD τ) (.dma (p1rS 6)) () (debt c 22)
    ∗ dutyTok ER (dcell c (p2sS 6)) 0 0
    ∗ dutyTok ER (dcell (peer c (off 6)) (p2rS (pairOf c))) 0 0
    ∗ atPos ER (dcell c (p2sS 6)) 0 ∅ 0
    ∗ ((slot15 outboxM 6 (of_decide_eq_true rfl)).view.loc (c : Thread nD τ) ↦[(slot15 outboxM 6 (of_decide_eq_true rfl)).view.set]{fullShare} f2))

/-- Sum 7 of the second phase: the wait for the partner's product, the sum, its copy to the peer. -/
def gP2_7 : sProp 𝕄 :=
  iprop(cellInv ER (rd (W1 m) (W2 m)) (κ (dcell c (p1rS 7))) (dcell c (p1rS 7))
    ∗ cellInv ER (rd (W1 m) (W2 m)) (κ (dcell c (p2sS 7))) (dcell c (p2sS 7))
    ∗ cellInv ER (rd (W1 m) (W2 m)) (κ (dcell (peer c (off 7)) (p2rS (pairOf c)))) (dcell (peer c (off 7)) (p2rS (pairOf c)))
    ∗ reached ER (dcell c (p2sS 7)) 0
    ∗ atPos ER (dcell c (p1rS 7)) 0 ∅ 0
    ∗ cred (tallyAt (dcell c (p1rS 7)) () N)
    ∗ MayWait (c : Thread nD τ) (.dma (p1rS 7)) () (debt c 23)
    ∗ dutyTok ER (dcell c (p2sS 7)) 0 0
    ∗ dutyTok ER (dcell (peer c (off 7)) (p2rS (pairOf c))) 0 0
    ∗ atPos ER (dcell c (p2sS 7)) 0 ∅ 0
    ∗ ((slot15 outboxM 7 (of_decide_eq_true rfl)).view.loc (c : Thread nD τ) ↦[(slot15 outboxM 7 (of_decide_eq_true rfl)).view.set]{fullShare} f2))

/-- Sum 8 of the second phase: the wait for the partner's product, the sum, its copy to the peer. -/
def gP2_8 : sProp 𝕄 :=
  iprop(cellInv ER (rd (W1 m) (W2 m)) (κ (dcell c (p1rS 8))) (dcell c (p1rS 8))
    ∗ cellInv ER (rd (W1 m) (W2 m)) (κ (dcell c (p2sS 8))) (dcell c (p2sS 8))
    ∗ cellInv ER (rd (W1 m) (W2 m)) (κ (dcell (peer c (off 8)) (p2rS (pairOf c)))) (dcell (peer c (off 8)) (p2rS (pairOf c)))
    ∗ reached ER (dcell c (p2sS 8)) 0
    ∗ atPos ER (dcell c (p1rS 8)) 0 ∅ 0
    ∗ cred (tallyAt (dcell c (p1rS 8)) () N)
    ∗ MayWait (c : Thread nD τ) (.dma (p1rS 8)) () (debt c 24)
    ∗ dutyTok ER (dcell c (p2sS 8)) 0 0
    ∗ dutyTok ER (dcell (peer c (off 8)) (p2rS (pairOf c))) 0 0
    ∗ atPos ER (dcell c (p2sS 8)) 0 ∅ 0
    ∗ ((slot15 outboxM 8 (of_decide_eq_true rfl)).view.loc (c : Thread nD τ) ↦[(slot15 outboxM 8 (of_decide_eq_true rfl)).view.set]{fullShare} f2))

/-- Sum 9 of the second phase: the wait for the partner's product, the sum, its copy to the peer. -/
def gP2_9 : sProp 𝕄 :=
  iprop(cellInv ER (rd (W1 m) (W2 m)) (κ (dcell c (p1rS 9))) (dcell c (p1rS 9))
    ∗ cellInv ER (rd (W1 m) (W2 m)) (κ (dcell c (p2sS 9))) (dcell c (p2sS 9))
    ∗ cellInv ER (rd (W1 m) (W2 m)) (κ (dcell (peer c (off 9)) (p2rS (pairOf c)))) (dcell (peer c (off 9)) (p2rS (pairOf c)))
    ∗ reached ER (dcell c (p2sS 9)) 0
    ∗ atPos ER (dcell c (p1rS 9)) 0 ∅ 0
    ∗ cred (tallyAt (dcell c (p1rS 9)) () N)
    ∗ MayWait (c : Thread nD τ) (.dma (p1rS 9)) () (debt c 25)
    ∗ dutyTok ER (dcell c (p2sS 9)) 0 0
    ∗ dutyTok ER (dcell (peer c (off 9)) (p2rS (pairOf c))) 0 0
    ∗ atPos ER (dcell c (p2sS 9)) 0 ∅ 0
    ∗ ((slot15 outboxM 9 (of_decide_eq_true rfl)).view.loc (c : Thread nD τ) ↦[(slot15 outboxM 9 (of_decide_eq_true rfl)).view.set]{fullShare} f2))

/-- Sum 10 of the second phase: the wait for the partner's product, the sum, its copy to the peer. -/
def gP2_10 : sProp 𝕄 :=
  iprop(cellInv ER (rd (W1 m) (W2 m)) (κ (dcell c (p1rS 10))) (dcell c (p1rS 10))
    ∗ cellInv ER (rd (W1 m) (W2 m)) (κ (dcell c (p2sS 10))) (dcell c (p2sS 10))
    ∗ cellInv ER (rd (W1 m) (W2 m)) (κ (dcell (peer c (off 10)) (p2rS (pairOf c)))) (dcell (peer c (off 10)) (p2rS (pairOf c)))
    ∗ reached ER (dcell c (p2sS 10)) 0
    ∗ atPos ER (dcell c (p1rS 10)) 0 ∅ 0
    ∗ cred (tallyAt (dcell c (p1rS 10)) () N)
    ∗ MayWait (c : Thread nD τ) (.dma (p1rS 10)) () (debt c 26)
    ∗ dutyTok ER (dcell c (p2sS 10)) 0 0
    ∗ dutyTok ER (dcell (peer c (off 10)) (p2rS (pairOf c))) 0 0
    ∗ atPos ER (dcell c (p2sS 10)) 0 ∅ 0
    ∗ ((slot15 outboxM 10 (of_decide_eq_true rfl)).view.loc (c : Thread nD τ) ↦[(slot15 outboxM 10 (of_decide_eq_true rfl)).view.set]{fullShare} f2))

/-- Sum 11 of the second phase: the wait for the partner's product, the sum, its copy to the peer. -/
def gP2_11 : sProp 𝕄 :=
  iprop(cellInv ER (rd (W1 m) (W2 m)) (κ (dcell c (p1rS 11))) (dcell c (p1rS 11))
    ∗ cellInv ER (rd (W1 m) (W2 m)) (κ (dcell c (p2sS 11))) (dcell c (p2sS 11))
    ∗ cellInv ER (rd (W1 m) (W2 m)) (κ (dcell (peer c (off 11)) (p2rS (pairOf c)))) (dcell (peer c (off 11)) (p2rS (pairOf c)))
    ∗ reached ER (dcell c (p2sS 11)) 0
    ∗ atPos ER (dcell c (p1rS 11)) 0 ∅ 0
    ∗ cred (tallyAt (dcell c (p1rS 11)) () N)
    ∗ MayWait (c : Thread nD τ) (.dma (p1rS 11)) () (debt c 27)
    ∗ dutyTok ER (dcell c (p2sS 11)) 0 0
    ∗ dutyTok ER (dcell (peer c (off 11)) (p2rS (pairOf c))) 0 0
    ∗ atPos ER (dcell c (p2sS 11)) 0 ∅ 0
    ∗ ((slot15 outboxM 11 (of_decide_eq_true rfl)).view.loc (c : Thread nD τ) ↦[(slot15 outboxM 11 (of_decide_eq_true rfl)).view.set]{fullShare} f2))

/-- Sum 12 of the second phase: the wait for the partner's product, the sum, its copy to the peer. -/
def gP2_12 : sProp 𝕄 :=
  iprop(cellInv ER (rd (W1 m) (W2 m)) (κ (dcell c (p1rS 12))) (dcell c (p1rS 12))
    ∗ cellInv ER (rd (W1 m) (W2 m)) (κ (dcell c (p2sS 12))) (dcell c (p2sS 12))
    ∗ cellInv ER (rd (W1 m) (W2 m)) (κ (dcell (peer c (off 12)) (p2rS (pairOf c)))) (dcell (peer c (off 12)) (p2rS (pairOf c)))
    ∗ reached ER (dcell c (p2sS 12)) 0
    ∗ atPos ER (dcell c (p1rS 12)) 0 ∅ 0
    ∗ cred (tallyAt (dcell c (p1rS 12)) () N)
    ∗ MayWait (c : Thread nD τ) (.dma (p1rS 12)) () (debt c 28)
    ∗ dutyTok ER (dcell c (p2sS 12)) 0 0
    ∗ dutyTok ER (dcell (peer c (off 12)) (p2rS (pairOf c))) 0 0
    ∗ atPos ER (dcell c (p2sS 12)) 0 ∅ 0
    ∗ ((slot15 outboxM 12 (of_decide_eq_true rfl)).view.loc (c : Thread nD τ) ↦[(slot15 outboxM 12 (of_decide_eq_true rfl)).view.set]{fullShare} f2))

/-- Sum 13 of the second phase: the wait for the partner's product, the sum, its copy to the peer. -/
def gP2_13 : sProp 𝕄 :=
  iprop(cellInv ER (rd (W1 m) (W2 m)) (κ (dcell c (p1rS 13))) (dcell c (p1rS 13))
    ∗ cellInv ER (rd (W1 m) (W2 m)) (κ (dcell c (p2sS 13))) (dcell c (p2sS 13))
    ∗ cellInv ER (rd (W1 m) (W2 m)) (κ (dcell (peer c (off 13)) (p2rS (pairOf c)))) (dcell (peer c (off 13)) (p2rS (pairOf c)))
    ∗ reached ER (dcell c (p2sS 13)) 0
    ∗ atPos ER (dcell c (p1rS 13)) 0 ∅ 0
    ∗ cred (tallyAt (dcell c (p1rS 13)) () N)
    ∗ MayWait (c : Thread nD τ) (.dma (p1rS 13)) () (debt c 29)
    ∗ dutyTok ER (dcell c (p2sS 13)) 0 0
    ∗ dutyTok ER (dcell (peer c (off 13)) (p2rS (pairOf c))) 0 0
    ∗ atPos ER (dcell c (p2sS 13)) 0 ∅ 0
    ∗ ((slot15 outboxM 13 (of_decide_eq_true rfl)).view.loc (c : Thread nD τ) ↦[(slot15 outboxM 13 (of_decide_eq_true rfl)).view.set]{fullShare} f2))

/-- Sum 14 of the second phase: the wait for the partner's product, the sum, its copy to the peer. -/
def gP2_14 : sProp 𝕄 :=
  iprop(cellInv ER (rd (W1 m) (W2 m)) (κ (dcell c (p1rS 14))) (dcell c (p1rS 14))
    ∗ cellInv ER (rd (W1 m) (W2 m)) (κ (dcell c (p2sS 14))) (dcell c (p2sS 14))
    ∗ cellInv ER (rd (W1 m) (W2 m)) (κ (dcell (peer c (off 14)) (p2rS (pairOf c)))) (dcell (peer c (off 14)) (p2rS (pairOf c)))
    ∗ reached ER (dcell c (p2sS 14)) 0
    ∗ atPos ER (dcell c (p1rS 14)) 0 ∅ 0
    ∗ cred (tallyAt (dcell c (p1rS 14)) () N)
    ∗ MayWait (c : Thread nD τ) (.dma (p1rS 14)) () (debt c 30)
    ∗ dutyTok ER (dcell c (p2sS 14)) 0 0
    ∗ dutyTok ER (dcell (peer c (off 14)) (p2rS (pairOf c))) 0 0
    ∗ atPos ER (dcell c (p2sS 14)) 0 ∅ 0
    ∗ ((slot15 outboxM 14 (of_decide_eq_true rfl)).view.loc (c : Thread nD τ) ↦[(slot15 outboxM 14 (of_decide_eq_true rfl)).view.set]{fullShare} f2))

/-- The last first-phase receive. -/
def gP1last : sProp 𝕄 :=
  iprop(cellInv ER (rd (W1 m) (W2 m)) (κ (dcell c (p1rS 15))) (dcell c (p1rS 15))
    ∗ atPos ER (dcell c (p1rS 15)) 0 ∅ 0
    ∗ cred (tallyAt (dcell c (p1rS 15)) () N))

/-- Second-phase receive 0. -/
def gFin_0 : sProp 𝕄 :=
  iprop(cellInv ER (rd (W1 m) (W2 m)) (κ (dcell c (p2rS (pairOf (src c (off 0)))))) (dcell c (p2rS (pairOf (src c (off 0)))))
    ∗ atPos ER (dcell c (p2rS (pairOf (src c (off 0))))) 0 ∅ 0
    ∗ cred (tallyAt (dcell c (p2rS (pairOf (src c (off 0))))) () N))

/-- Second-phase receive 1. -/
def gFin_1 : sProp 𝕄 :=
  iprop(cellInv ER (rd (W1 m) (W2 m)) (κ (dcell c (p2rS (pairOf (src c (off 1)))))) (dcell c (p2rS (pairOf (src c (off 1)))))
    ∗ atPos ER (dcell c (p2rS (pairOf (src c (off 1))))) 0 ∅ 0
    ∗ cred (tallyAt (dcell c (p2rS (pairOf (src c (off 1))))) () N))

/-- Second-phase receive 2. -/
def gFin_2 : sProp 𝕄 :=
  iprop(cellInv ER (rd (W1 m) (W2 m)) (κ (dcell c (p2rS (pairOf (src c (off 2)))))) (dcell c (p2rS (pairOf (src c (off 2)))))
    ∗ atPos ER (dcell c (p2rS (pairOf (src c (off 2))))) 0 ∅ 0
    ∗ cred (tallyAt (dcell c (p2rS (pairOf (src c (off 2))))) () N))

/-- Second-phase receive 3. -/
def gFin_3 : sProp 𝕄 :=
  iprop(cellInv ER (rd (W1 m) (W2 m)) (κ (dcell c (p2rS (pairOf (src c (off 3)))))) (dcell c (p2rS (pairOf (src c (off 3)))))
    ∗ atPos ER (dcell c (p2rS (pairOf (src c (off 3))))) 0 ∅ 0
    ∗ cred (tallyAt (dcell c (p2rS (pairOf (src c (off 3))))) () N))

/-- Second-phase receive 4. -/
def gFin_4 : sProp 𝕄 :=
  iprop(cellInv ER (rd (W1 m) (W2 m)) (κ (dcell c (p2rS (pairOf (src c (off 4)))))) (dcell c (p2rS (pairOf (src c (off 4)))))
    ∗ atPos ER (dcell c (p2rS (pairOf (src c (off 4))))) 0 ∅ 0
    ∗ cred (tallyAt (dcell c (p2rS (pairOf (src c (off 4))))) () N))

/-- Second-phase receive 5. -/
def gFin_5 : sProp 𝕄 :=
  iprop(cellInv ER (rd (W1 m) (W2 m)) (κ (dcell c (p2rS (pairOf (src c (off 5)))))) (dcell c (p2rS (pairOf (src c (off 5)))))
    ∗ atPos ER (dcell c (p2rS (pairOf (src c (off 5))))) 0 ∅ 0
    ∗ cred (tallyAt (dcell c (p2rS (pairOf (src c (off 5))))) () N))

/-- Second-phase receive 6. -/
def gFin_6 : sProp 𝕄 :=
  iprop(cellInv ER (rd (W1 m) (W2 m)) (κ (dcell c (p2rS (pairOf (src c (off 6)))))) (dcell c (p2rS (pairOf (src c (off 6)))))
    ∗ atPos ER (dcell c (p2rS (pairOf (src c (off 6))))) 0 ∅ 0
    ∗ cred (tallyAt (dcell c (p2rS (pairOf (src c (off 6))))) () N))

/-- Second-phase receive 7. -/
def gFin_7 : sProp 𝕄 :=
  iprop(cellInv ER (rd (W1 m) (W2 m)) (κ (dcell c (p2rS (pairOf (src c (off 7)))))) (dcell c (p2rS (pairOf (src c (off 7)))))
    ∗ atPos ER (dcell c (p2rS (pairOf (src c (off 7))))) 0 ∅ 0
    ∗ cred (tallyAt (dcell c (p2rS (pairOf (src c (off 7))))) () N))

/-- Second-phase receive 8. -/
def gFin_8 : sProp 𝕄 :=
  iprop(cellInv ER (rd (W1 m) (W2 m)) (κ (dcell c (p2rS (pairOf (src c (off 8)))))) (dcell c (p2rS (pairOf (src c (off 8)))))
    ∗ atPos ER (dcell c (p2rS (pairOf (src c (off 8))))) 0 ∅ 0
    ∗ cred (tallyAt (dcell c (p2rS (pairOf (src c (off 8))))) () N))

/-- Second-phase receive 9. -/
def gFin_9 : sProp 𝕄 :=
  iprop(cellInv ER (rd (W1 m) (W2 m)) (κ (dcell c (p2rS (pairOf (src c (off 9)))))) (dcell c (p2rS (pairOf (src c (off 9)))))
    ∗ atPos ER (dcell c (p2rS (pairOf (src c (off 9))))) 0 ∅ 0
    ∗ cred (tallyAt (dcell c (p2rS (pairOf (src c (off 9))))) () N))

/-- Second-phase receive 10. -/
def gFin_10 : sProp 𝕄 :=
  iprop(cellInv ER (rd (W1 m) (W2 m)) (κ (dcell c (p2rS (pairOf (src c (off 10)))))) (dcell c (p2rS (pairOf (src c (off 10)))))
    ∗ atPos ER (dcell c (p2rS (pairOf (src c (off 10))))) 0 ∅ 0
    ∗ cred (tallyAt (dcell c (p2rS (pairOf (src c (off 10))))) () N))

/-- Second-phase receive 11. -/
def gFin_11 : sProp 𝕄 :=
  iprop(cellInv ER (rd (W1 m) (W2 m)) (κ (dcell c (p2rS (pairOf (src c (off 11)))))) (dcell c (p2rS (pairOf (src c (off 11)))))
    ∗ atPos ER (dcell c (p2rS (pairOf (src c (off 11))))) 0 ∅ 0
    ∗ cred (tallyAt (dcell c (p2rS (pairOf (src c (off 11))))) () N))

/-- Second-phase receive 12. -/
def gFin_12 : sProp 𝕄 :=
  iprop(cellInv ER (rd (W1 m) (W2 m)) (κ (dcell c (p2rS (pairOf (src c (off 12)))))) (dcell c (p2rS (pairOf (src c (off 12)))))
    ∗ atPos ER (dcell c (p2rS (pairOf (src c (off 12))))) 0 ∅ 0
    ∗ cred (tallyAt (dcell c (p2rS (pairOf (src c (off 12))))) () N))

/-- Second-phase receive 13. -/
def gFin_13 : sProp 𝕄 :=
  iprop(cellInv ER (rd (W1 m) (W2 m)) (κ (dcell c (p2rS (pairOf (src c (off 13)))))) (dcell c (p2rS (pairOf (src c (off 13)))))
    ∗ atPos ER (dcell c (p2rS (pairOf (src c (off 13))))) 0 ∅ 0
    ∗ cred (tallyAt (dcell c (p2rS (pairOf (src c (off 13))))) () N))

/-- Second-phase receive 14. -/
def gFin_14 : sProp 𝕄 :=
  iprop(cellInv ER (rd (W1 m) (W2 m)) (κ (dcell c (p2rS (pairOf (src c (off 14)))))) (dcell c (p2rS (pairOf (src c (off 14)))))
    ∗ atPos ER (dcell c (p2rS (pairOf (src c (off 14))))) 0 ∅ 0
    ∗ cred (tallyAt (dcell c (p2rS (pairOf (src c (off 14))))) () N))

/-- Held throughout: the staging buffers, the device's own second-phase slot, the unused cell, what it owes. -/
def gMisc : sProp 𝕄 :=
  iprop(cellInv ER (rd (W1 m) (W2 m)) (κ (dcell c (p2rS (pairOf c)))) (dcell c (p2rS (pairOf c)))
    ∗ atPos ER (dcell c (p2rS (pairOf c))) 0 ∅ 0
    ∗ ((Memref.whole cc0_stg0_0 : Memref sig .tc .vmem S1024x32 .f32).view.loc (c : Thread nD τ) ↦[(Memref.whole cc0_stg0_0 : Memref sig .tc .vmem S1024x32 .f32).view.set]{fullShare} fx)
    ∗ ((Memref.whole cc0_stg1_0 : Memref sig .tc .vmem S32x1024 .f32).view.loc (c : Thread nD τ) ↦[(Memref.whole cc0_stg1_0 : Memref sig .tc .vmem S32x1024 .f32).view.set]{fullShare} fw)
    ∗ ((Memref.whole cc0_stg2_0 : Memref sig .tc .vmem S32x1024 .f32).view.loc (c : Thread nD τ) ↦[(Memref.whole cc0_stg2_0 : Memref sig .tc .vmem S32x1024 .f32).view.set]{fullShare} fo)
    ∗ ((slot16 gatherM (rr c.val) (rr_lt c)).view.loc (c : Thread nD τ) ↦[(slot16 gatherM (rr c.val) (rr_lt c)).view.set]{fullShare} f3)
    ∗ owes (c : Thread nD τ) (debt c 0 + tallyAt (barCell (peer c (off 14))) () 1 + tallyAt (barCell (peer c (off 13))) () 1 + tallyAt (barCell (peer c (off 12))) () 1 + tallyAt (barCell (peer c (off 11))) () 1 + tallyAt (barCell (peer c (off 10))) () 1 + tallyAt (barCell (peer c (off 9))) () 1 + tallyAt (barCell (peer c (off 8))) () 1 + tallyAt (barCell (peer c (off 7))) () 1 + tallyAt (barCell (peer c (off 6))) () 1 + tallyAt (barCell (peer c (off 5))) () 1 + tallyAt (barCell (peer c (off 4))) () 1 + tallyAt (barCell (peer c (off 3))) () 1 + tallyAt (barCell (peer c (off 2))) () 1 + tallyAt (barCell (peer c (off 1))) () 1 + tallyAt (barCell (peer c (off 0))) () 1 + tallyAt (barCell (nbr c)) () 1) W)

/-- The protocol's ghost state on device `c`: the invariants of the cells it touches, the rounds it knows
    reached, the tokens of the duties it pays, its positions on its own cells. -/
def ghost : sProp 𝕄 :=
  iprop(cellInv ER (rd (W1 m) (W2 m)) (κ (barCell c)) (barCell c)
    ∗ cellInv ER (rd (W1 m) (W2 m)) (κ (barCell (nbr c))) (barCell (nbr c))
    ∗ cellInv ER (rd (W1 m) (W2 m)) (κ (barCell (peer c (off 0)))) (barCell (peer c (off 0)))
    ∗ cellInv ER (rd (W1 m) (W2 m)) (κ (barCell (peer c (off 1)))) (barCell (peer c (off 1)))
    ∗ cellInv ER (rd (W1 m) (W2 m)) (κ (barCell (peer c (off 2)))) (barCell (peer c (off 2)))
    ∗ cellInv ER (rd (W1 m) (W2 m)) (κ (barCell (peer c (off 3)))) (barCell (peer c (off 3)))
    ∗ cellInv ER (rd (W1 m) (W2 m)) (κ (barCell (peer c (off 4)))) (barCell (peer c (off 4)))
    ∗ cellInv ER (rd (W1 m) (W2 m)) (κ (barCell (peer c (off 5)))) (barCell (peer c (off 5)))
    ∗ cellInv ER (rd (W1 m) (W2 m)) (κ (barCell (peer c (off 6)))) (barCell (peer c (off 6)))
    ∗ cellInv ER (rd (W1 m) (W2 m)) (κ (barCell (peer c (off 7)))) (barCell (peer c (off 7)))
    ∗ cellInv ER (rd (W1 m) (W2 m)) (κ (barCell (peer c (off 8)))) (barCell (peer c (off 8)))
    ∗ cellInv ER (rd (W1 m) (W2 m)) (κ (barCell (peer c (off 9)))) (barCell (peer c (off 9)))
    ∗ cellInv ER (rd (W1 m) (W2 m)) (κ (barCell (peer c (off 10)))) (barCell (peer c (off 10)))
    ∗ cellInv ER (rd (W1 m) (W2 m)) (κ (barCell (peer c (off 11)))) (barCell (peer c (off 11)))
    ∗ cellInv ER (rd (W1 m) (W2 m)) (κ (barCell (peer c (off 12)))) (barCell (peer c (off 12)))
    ∗ cellInv ER (rd (W1 m) (W2 m)) (κ (barCell (peer c (off 13)))) (barCell (peer c (off 13)))
    ∗ cellInv ER (rd (W1 m) (W2 m)) (κ (barCell (peer c (off 14)))) (barCell (peer c (off 14)))
    ∗ reached ER (barCell (nbr c)) 0
    ∗ reached ER (barCell (peer c (off 0))) 0
    ∗ reached ER (barCell (peer c (off 1))) 0
    ∗ reached ER (barCell (peer c (off 2))) 0
    ∗ reached ER (barCell (peer c (off 3))) 0
    ∗ reached ER (barCell (peer c (off 4))) 0
    ∗ reached ER (barCell (peer c (off 5))) 0
    ∗ reached ER (barCell (peer c (off 6))) 0
    ∗ reached ER (barCell (peer c (off 7))) 0
    ∗ reached ER (barCell (peer c (off 8))) 0
    ∗ reached ER (barCell (peer c (off 9))) 0
    ∗ reached ER (barCell (peer c (off 10))) 0
    ∗ reached ER (barCell (peer c (off 11))) 0
    ∗ reached ER (barCell (peer c (off 12))) 0
    ∗ reached ER (barCell (peer c (off 13))) 0
    ∗ reached ER (barCell (peer c (off 14))) 0
    ∗ reached ER (dcell c (p1rS 0)) 0
    ∗ reached ER (dcell c (p1rS 1)) 0
    ∗ reached ER (dcell c (p1rS 2)) 0
    ∗ reached ER (dcell c (p1rS 3)) 0
    ∗ reached ER (dcell c (p1rS 4)) 0
    ∗ reached ER (dcell c (p1rS 5)) 0
    ∗ reached ER (dcell c (p1rS 6)) 0
    ∗ reached ER (dcell c (p1rS 7)) 0
    ∗ reached ER (dcell c (p1rS 8)) 0
    ∗ reached ER (dcell c (p1rS 9)) 0
    ∗ reached ER (dcell c (p1rS 10)) 0
    ∗ reached ER (dcell c (p1rS 11)) 0
    ∗ reached ER (dcell c (p1rS 12)) 0
    ∗ reached ER (dcell c (p1rS 13)) 0
    ∗ reached ER (dcell c (p1rS 14)) 0
    ∗ reached ER (dcell c (p1rS 15)) 0
    ∗ reached ER (dcell c (p2rS (pairOf (peer c (off 0))))) 0
    ∗ reached ER (dcell c (p2rS (pairOf (peer c (off 1))))) 0
    ∗ reached ER (dcell c (p2rS (pairOf (peer c (off 2))))) 0
    ∗ reached ER (dcell c (p2rS (pairOf (peer c (off 3))))) 0
    ∗ reached ER (dcell c (p2rS (pairOf (peer c (off 4))))) 0
    ∗ reached ER (dcell c (p2rS (pairOf (peer c (off 5))))) 0
    ∗ reached ER (dcell c (p2rS (pairOf (peer c (off 6))))) 0
    ∗ reached ER (dcell c (p2rS (pairOf (peer c (off 7))))) 0
    ∗ reached ER (dcell c (p2rS (pairOf (peer c (off 8))))) 0
    ∗ reached ER (dcell c (p2rS (pairOf (peer c (off 9))))) 0
    ∗ reached ER (dcell c (p2rS (pairOf (peer c (off 10))))) 0
    ∗ reached ER (dcell c (p2rS (pairOf (peer c (off 11))))) 0
    ∗ reached ER (dcell c (p2rS (pairOf (peer c (off 12))))) 0
    ∗ reached ER (dcell c (p2rS (pairOf (peer c (off 13))))) 0
    ∗ reached ER (dcell c (p2rS (pairOf (peer c (off 14))))) 0
    ∗ dutyTok ER (barCell (nbr c)) 0 0
    ∗ dutyTok ER (barCell (peer c (off 0))) 0 (1 : DN)
    ∗ dutyTok ER (barCell (peer c (off 1))) 0 (2 : DN)
    ∗ dutyTok ER (barCell (peer c (off 2))) 0 (3 : DN)
    ∗ dutyTok ER (barCell (peer c (off 3))) 0 (4 : DN)
    ∗ dutyTok ER (barCell (peer c (off 4))) 0 (5 : DN)
    ∗ dutyTok ER (barCell (peer c (off 5))) 0 (6 : DN)
    ∗ dutyTok ER (barCell (peer c (off 6))) 0 (7 : DN)
    ∗ dutyTok ER (barCell (peer c (off 7))) 0 (8 : DN)
    ∗ dutyTok ER (barCell (peer c (off 8))) 0 (9 : DN)
    ∗ dutyTok ER (barCell (peer c (off 9))) 0 (10 : DN)
    ∗ dutyTok ER (barCell (peer c (off 10))) 0 (11 : DN)
    ∗ dutyTok ER (barCell (peer c (off 11))) 0 (12 : DN)
    ∗ dutyTok ER (barCell (peer c (off 12))) 0 (13 : DN)
    ∗ dutyTok ER (barCell (peer c (off 13))) 0 (14 : DN)
    ∗ dutyTok ER (barCell (peer c (off 14))) 0 (15 : DN)
    ∗ atPos ER (barCell c) 0 ∅ 0
    ∗ cellInv ER (rd (W1 m) (W2 m)) (κ (dcell c (p1sS 0))) (dcell c (p1sS 0))
    ∗ cellInv ER (rd (W1 m) (W2 m)) (κ (dcell (nbr c) (p1rS 0))) (dcell (nbr c) (p1rS 0))
    ∗ reached ER (dcell c (p1sS 0)) 0
    ∗ dutyTok ER (dcell c (p1sS 0)) 0 0
    ∗ dutyTok ER (dcell (nbr c) (p1rS 0)) 0 0
    ∗ atPos ER (dcell c (p1sS 0)) 0 ∅ 0
    ∗ cellInv ER (rd (W1 m) (W2 m)) (κ (dcell c (p1sS 1))) (dcell c (p1sS 1))
    ∗ cellInv ER (rd (W1 m) (W2 m)) (κ (dcell (nbr c) (p1rS 1))) (dcell (nbr c) (p1rS 1))
    ∗ reached ER (dcell c (p1sS 1)) 0
    ∗ dutyTok ER (dcell c (p1sS 1)) 0 0
    ∗ dutyTok ER (dcell (nbr c) (p1rS 1)) 0 0
    ∗ atPos ER (dcell c (p1sS 1)) 0 ∅ 0
    ∗ cellInv ER (rd (W1 m) (W2 m)) (κ (dcell c (p1sS 2))) (dcell c (p1sS 2))
    ∗ cellInv ER (rd (W1 m) (W2 m)) (κ (dcell (nbr c) (p1rS 2))) (dcell (nbr c) (p1rS 2))
    ∗ reached ER (dcell c (p1sS 2)) 0
    ∗ dutyTok ER (dcell c (p1sS 2)) 0 0
    ∗ dutyTok ER (dcell (nbr c) (p1rS 2)) 0 0
    ∗ atPos ER (dcell c (p1sS 2)) 0 ∅ 0
    ∗ cellInv ER (rd (W1 m) (W2 m)) (κ (dcell c (p1sS 3))) (dcell c (p1sS 3))
    ∗ cellInv ER (rd (W1 m) (W2 m)) (κ (dcell (nbr c) (p1rS 3))) (dcell (nbr c) (p1rS 3))
    ∗ reached ER (dcell c (p1sS 3)) 0
    ∗ dutyTok ER (dcell c (p1sS 3)) 0 0
    ∗ dutyTok ER (dcell (nbr c) (p1rS 3)) 0 0
    ∗ atPos ER (dcell c (p1sS 3)) 0 ∅ 0
    ∗ cellInv ER (rd (W1 m) (W2 m)) (κ (dcell c (p1sS 4))) (dcell c (p1sS 4))
    ∗ cellInv ER (rd (W1 m) (W2 m)) (κ (dcell (nbr c) (p1rS 4))) (dcell (nbr c) (p1rS 4))
    ∗ reached ER (dcell c (p1sS 4)) 0
    ∗ dutyTok ER (dcell c (p1sS 4)) 0 0
    ∗ dutyTok ER (dcell (nbr c) (p1rS 4)) 0 0
    ∗ atPos ER (dcell c (p1sS 4)) 0 ∅ 0
    ∗ cellInv ER (rd (W1 m) (W2 m)) (κ (dcell c (p1sS 5))) (dcell c (p1sS 5))
    ∗ cellInv ER (rd (W1 m) (W2 m)) (κ (dcell (nbr c) (p1rS 5))) (dcell (nbr c) (p1rS 5))
    ∗ reached ER (dcell c (p1sS 5)) 0
    ∗ dutyTok ER (dcell c (p1sS 5)) 0 0
    ∗ dutyTok ER (dcell (nbr c) (p1rS 5)) 0 0
    ∗ atPos ER (dcell c (p1sS 5)) 0 ∅ 0
    ∗ cellInv ER (rd (W1 m) (W2 m)) (κ (dcell c (p1sS 6))) (dcell c (p1sS 6))
    ∗ cellInv ER (rd (W1 m) (W2 m)) (κ (dcell (nbr c) (p1rS 6))) (dcell (nbr c) (p1rS 6))
    ∗ reached ER (dcell c (p1sS 6)) 0
    ∗ dutyTok ER (dcell c (p1sS 6)) 0 0
    ∗ dutyTok ER (dcell (nbr c) (p1rS 6)) 0 0
    ∗ atPos ER (dcell c (p1sS 6)) 0 ∅ 0
    ∗ cellInv ER (rd (W1 m) (W2 m)) (κ (dcell c (p1sS 7))) (dcell c (p1sS 7))
    ∗ cellInv ER (rd (W1 m) (W2 m)) (κ (dcell (nbr c) (p1rS 7))) (dcell (nbr c) (p1rS 7))
    ∗ reached ER (dcell c (p1sS 7)) 0
    ∗ dutyTok ER (dcell c (p1sS 7)) 0 0
    ∗ dutyTok ER (dcell (nbr c) (p1rS 7)) 0 0
    ∗ atPos ER (dcell c (p1sS 7)) 0 ∅ 0
    ∗ cellInv ER (rd (W1 m) (W2 m)) (κ (dcell c (p1sS 8))) (dcell c (p1sS 8))
    ∗ cellInv ER (rd (W1 m) (W2 m)) (κ (dcell (nbr c) (p1rS 8))) (dcell (nbr c) (p1rS 8))
    ∗ reached ER (dcell c (p1sS 8)) 0
    ∗ dutyTok ER (dcell c (p1sS 8)) 0 0
    ∗ dutyTok ER (dcell (nbr c) (p1rS 8)) 0 0
    ∗ atPos ER (dcell c (p1sS 8)) 0 ∅ 0
    ∗ cellInv ER (rd (W1 m) (W2 m)) (κ (dcell c (p1sS 9))) (dcell c (p1sS 9))
    ∗ cellInv ER (rd (W1 m) (W2 m)) (κ (dcell (nbr c) (p1rS 9))) (dcell (nbr c) (p1rS 9))
    ∗ reached ER (dcell c (p1sS 9)) 0
    ∗ dutyTok ER (dcell c (p1sS 9)) 0 0
    ∗ dutyTok ER (dcell (nbr c) (p1rS 9)) 0 0
    ∗ atPos ER (dcell c (p1sS 9)) 0 ∅ 0
    ∗ cellInv ER (rd (W1 m) (W2 m)) (κ (dcell c (p1sS 10))) (dcell c (p1sS 10))
    ∗ cellInv ER (rd (W1 m) (W2 m)) (κ (dcell (nbr c) (p1rS 10))) (dcell (nbr c) (p1rS 10))
    ∗ reached ER (dcell c (p1sS 10)) 0
    ∗ dutyTok ER (dcell c (p1sS 10)) 0 0
    ∗ dutyTok ER (dcell (nbr c) (p1rS 10)) 0 0
    ∗ atPos ER (dcell c (p1sS 10)) 0 ∅ 0
    ∗ cellInv ER (rd (W1 m) (W2 m)) (κ (dcell c (p1sS 11))) (dcell c (p1sS 11))
    ∗ cellInv ER (rd (W1 m) (W2 m)) (κ (dcell (nbr c) (p1rS 11))) (dcell (nbr c) (p1rS 11))
    ∗ reached ER (dcell c (p1sS 11)) 0
    ∗ dutyTok ER (dcell c (p1sS 11)) 0 0
    ∗ dutyTok ER (dcell (nbr c) (p1rS 11)) 0 0
    ∗ atPos ER (dcell c (p1sS 11)) 0 ∅ 0
    ∗ cellInv ER (rd (W1 m) (W2 m)) (κ (dcell c (p1sS 12))) (dcell c (p1sS 12))
    ∗ cellInv ER (rd (W1 m) (W2 m)) (κ (dcell (nbr c) (p1rS 12))) (dcell (nbr c) (p1rS 12))
    ∗ reached ER (dcell c (p1sS 12)) 0
    ∗ dutyTok ER (dcell c (p1sS 12)) 0 0
    ∗ dutyTok ER (dcell (nbr c) (p1rS 12)) 0 0
    ∗ atPos ER (dcell c (p1sS 12)) 0 ∅ 0
    ∗ cellInv ER (rd (W1 m) (W2 m)) (κ (dcell c (p1sS 13))) (dcell c (p1sS 13))
    ∗ cellInv ER (rd (W1 m) (W2 m)) (κ (dcell (nbr c) (p1rS 13))) (dcell (nbr c) (p1rS 13))
    ∗ reached ER (dcell c (p1sS 13)) 0
    ∗ dutyTok ER (dcell c (p1sS 13)) 0 0
    ∗ dutyTok ER (dcell (nbr c) (p1rS 13)) 0 0
    ∗ atPos ER (dcell c (p1sS 13)) 0 ∅ 0
    ∗ cellInv ER (rd (W1 m) (W2 m)) (κ (dcell c (p1sS 14))) (dcell c (p1sS 14))
    ∗ cellInv ER (rd (W1 m) (W2 m)) (κ (dcell (nbr c) (p1rS 14))) (dcell (nbr c) (p1rS 14))
    ∗ reached ER (dcell c (p1sS 14)) 0
    ∗ dutyTok ER (dcell c (p1sS 14)) 0 0
    ∗ dutyTok ER (dcell (nbr c) (p1rS 14)) 0 0
    ∗ atPos ER (dcell c (p1sS 14)) 0 ∅ 0
    ∗ cellInv ER (rd (W1 m) (W2 m)) (κ (dcell c (p1sS 15))) (dcell c (p1sS 15))
    ∗ cellInv ER (rd (W1 m) (W2 m)) (κ (dcell (nbr c) (p1rS 15))) (dcell (nbr c) (p1rS 15))
    ∗ reached ER (dcell c (p1sS 15)) 0
    ∗ dutyTok ER (dcell c (p1sS 15)) 0 0
    ∗ dutyTok ER (dcell (nbr c) (p1rS 15)) 0 0
    ∗ atPos ER (dcell c (p1sS 15)) 0 ∅ 0
    ∗ cellInv ER (rd (W1 m) (W2 m)) (κ (dcell c (p1rS 0))) (dcell c (p1rS 0))
    ∗ cellInv ER (rd (W1 m) (W2 m)) (κ (dcell c (p2sS 0))) (dcell c (p2sS 0))
    ∗ cellInv ER (rd (W1 m) (W2 m)) (κ (dcell (peer c (off 0)) (p2rS (pairOf c)))) (dcell (peer c (off 0)) (p2rS (pairOf c)))
    ∗ reached ER (dcell c (p2sS 0)) 0
    ∗ atPos ER (dcell c (p1rS 0)) 0 ∅ 0
    ∗ dutyTok ER (dcell c (p2sS 0)) 0 0
    ∗ dutyTok ER (dcell (peer c (off 0)) (p2rS (pairOf c))) 0 0
    ∗ atPos ER (dcell c (p2sS 0)) 0 ∅ 0
    ∗ cellInv ER (rd (W1 m) (W2 m)) (κ (dcell c (p1rS 1))) (dcell c (p1rS 1))
    ∗ cellInv ER (rd (W1 m) (W2 m)) (κ (dcell c (p2sS 1))) (dcell c (p2sS 1))
    ∗ cellInv ER (rd (W1 m) (W2 m)) (κ (dcell (peer c (off 1)) (p2rS (pairOf c)))) (dcell (peer c (off 1)) (p2rS (pairOf c)))
    ∗ reached ER (dcell c (p2sS 1)) 0
    ∗ atPos ER (dcell c (p1rS 1)) 0 ∅ 0
    ∗ dutyTok ER (dcell c (p2sS 1)) 0 0
    ∗ dutyTok ER (dcell (peer c (off 1)) (p2rS (pairOf c))) 0 0
    ∗ atPos ER (dcell c (p2sS 1)) 0 ∅ 0
    ∗ cellInv ER (rd (W1 m) (W2 m)) (κ (dcell c (p1rS 2))) (dcell c (p1rS 2))
    ∗ cellInv ER (rd (W1 m) (W2 m)) (κ (dcell c (p2sS 2))) (dcell c (p2sS 2))
    ∗ cellInv ER (rd (W1 m) (W2 m)) (κ (dcell (peer c (off 2)) (p2rS (pairOf c)))) (dcell (peer c (off 2)) (p2rS (pairOf c)))
    ∗ reached ER (dcell c (p2sS 2)) 0
    ∗ atPos ER (dcell c (p1rS 2)) 0 ∅ 0
    ∗ dutyTok ER (dcell c (p2sS 2)) 0 0
    ∗ dutyTok ER (dcell (peer c (off 2)) (p2rS (pairOf c))) 0 0
    ∗ atPos ER (dcell c (p2sS 2)) 0 ∅ 0
    ∗ cellInv ER (rd (W1 m) (W2 m)) (κ (dcell c (p1rS 3))) (dcell c (p1rS 3))
    ∗ cellInv ER (rd (W1 m) (W2 m)) (κ (dcell c (p2sS 3))) (dcell c (p2sS 3))
    ∗ cellInv ER (rd (W1 m) (W2 m)) (κ (dcell (peer c (off 3)) (p2rS (pairOf c)))) (dcell (peer c (off 3)) (p2rS (pairOf c)))
    ∗ reached ER (dcell c (p2sS 3)) 0
    ∗ atPos ER (dcell c (p1rS 3)) 0 ∅ 0
    ∗ dutyTok ER (dcell c (p2sS 3)) 0 0
    ∗ dutyTok ER (dcell (peer c (off 3)) (p2rS (pairOf c))) 0 0
    ∗ atPos ER (dcell c (p2sS 3)) 0 ∅ 0
    ∗ cellInv ER (rd (W1 m) (W2 m)) (κ (dcell c (p1rS 4))) (dcell c (p1rS 4))
    ∗ cellInv ER (rd (W1 m) (W2 m)) (κ (dcell c (p2sS 4))) (dcell c (p2sS 4))
    ∗ cellInv ER (rd (W1 m) (W2 m)) (κ (dcell (peer c (off 4)) (p2rS (pairOf c)))) (dcell (peer c (off 4)) (p2rS (pairOf c)))
    ∗ reached ER (dcell c (p2sS 4)) 0
    ∗ atPos ER (dcell c (p1rS 4)) 0 ∅ 0
    ∗ dutyTok ER (dcell c (p2sS 4)) 0 0
    ∗ dutyTok ER (dcell (peer c (off 4)) (p2rS (pairOf c))) 0 0
    ∗ atPos ER (dcell c (p2sS 4)) 0 ∅ 0
    ∗ cellInv ER (rd (W1 m) (W2 m)) (κ (dcell c (p1rS 5))) (dcell c (p1rS 5))
    ∗ cellInv ER (rd (W1 m) (W2 m)) (κ (dcell c (p2sS 5))) (dcell c (p2sS 5))
    ∗ cellInv ER (rd (W1 m) (W2 m)) (κ (dcell (peer c (off 5)) (p2rS (pairOf c)))) (dcell (peer c (off 5)) (p2rS (pairOf c)))
    ∗ reached ER (dcell c (p2sS 5)) 0
    ∗ atPos ER (dcell c (p1rS 5)) 0 ∅ 0
    ∗ dutyTok ER (dcell c (p2sS 5)) 0 0
    ∗ dutyTok ER (dcell (peer c (off 5)) (p2rS (pairOf c))) 0 0
    ∗ atPos ER (dcell c (p2sS 5)) 0 ∅ 0
    ∗ cellInv ER (rd (W1 m) (W2 m)) (κ (dcell c (p1rS 6))) (dcell c (p1rS 6))
    ∗ cellInv ER (rd (W1 m) (W2 m)) (κ (dcell c (p2sS 6))) (dcell c (p2sS 6))
    ∗ cellInv ER (rd (W1 m) (W2 m)) (κ (dcell (peer c (off 6)) (p2rS (pairOf c)))) (dcell (peer c (off 6)) (p2rS (pairOf c)))
    ∗ reached ER (dcell c (p2sS 6)) 0
    ∗ atPos ER (dcell c (p1rS 6)) 0 ∅ 0
    ∗ dutyTok ER (dcell c (p2sS 6)) 0 0
    ∗ dutyTok ER (dcell (peer c (off 6)) (p2rS (pairOf c))) 0 0
    ∗ atPos ER (dcell c (p2sS 6)) 0 ∅ 0
    ∗ cellInv ER (rd (W1 m) (W2 m)) (κ (dcell c (p1rS 7))) (dcell c (p1rS 7))
    ∗ cellInv ER (rd (W1 m) (W2 m)) (κ (dcell c (p2sS 7))) (dcell c (p2sS 7))
    ∗ cellInv ER (rd (W1 m) (W2 m)) (κ (dcell (peer c (off 7)) (p2rS (pairOf c)))) (dcell (peer c (off 7)) (p2rS (pairOf c)))
    ∗ reached ER (dcell c (p2sS 7)) 0
    ∗ atPos ER (dcell c (p1rS 7)) 0 ∅ 0
    ∗ dutyTok ER (dcell c (p2sS 7)) 0 0
    ∗ dutyTok ER (dcell (peer c (off 7)) (p2rS (pairOf c))) 0 0
    ∗ atPos ER (dcell c (p2sS 7)) 0 ∅ 0
    ∗ cellInv ER (rd (W1 m) (W2 m)) (κ (dcell c (p1rS 8))) (dcell c (p1rS 8))
    ∗ cellInv ER (rd (W1 m) (W2 m)) (κ (dcell c (p2sS 8))) (dcell c (p2sS 8))
    ∗ cellInv ER (rd (W1 m) (W2 m)) (κ (dcell (peer c (off 8)) (p2rS (pairOf c)))) (dcell (peer c (off 8)) (p2rS (pairOf c)))
    ∗ reached ER (dcell c (p2sS 8)) 0
    ∗ atPos ER (dcell c (p1rS 8)) 0 ∅ 0
    ∗ dutyTok ER (dcell c (p2sS 8)) 0 0
    ∗ dutyTok ER (dcell (peer c (off 8)) (p2rS (pairOf c))) 0 0
    ∗ atPos ER (dcell c (p2sS 8)) 0 ∅ 0
    ∗ cellInv ER (rd (W1 m) (W2 m)) (κ (dcell c (p1rS 9))) (dcell c (p1rS 9))
    ∗ cellInv ER (rd (W1 m) (W2 m)) (κ (dcell c (p2sS 9))) (dcell c (p2sS 9))
    ∗ cellInv ER (rd (W1 m) (W2 m)) (κ (dcell (peer c (off 9)) (p2rS (pairOf c)))) (dcell (peer c (off 9)) (p2rS (pairOf c)))
    ∗ reached ER (dcell c (p2sS 9)) 0
    ∗ atPos ER (dcell c (p1rS 9)) 0 ∅ 0
    ∗ dutyTok ER (dcell c (p2sS 9)) 0 0
    ∗ dutyTok ER (dcell (peer c (off 9)) (p2rS (pairOf c))) 0 0
    ∗ atPos ER (dcell c (p2sS 9)) 0 ∅ 0
    ∗ cellInv ER (rd (W1 m) (W2 m)) (κ (dcell c (p1rS 10))) (dcell c (p1rS 10))
    ∗ cellInv ER (rd (W1 m) (W2 m)) (κ (dcell c (p2sS 10))) (dcell c (p2sS 10))
    ∗ cellInv ER (rd (W1 m) (W2 m)) (κ (dcell (peer c (off 10)) (p2rS (pairOf c)))) (dcell (peer c (off 10)) (p2rS (pairOf c)))
    ∗ reached ER (dcell c (p2sS 10)) 0
    ∗ atPos ER (dcell c (p1rS 10)) 0 ∅ 0
    ∗ dutyTok ER (dcell c (p2sS 10)) 0 0
    ∗ dutyTok ER (dcell (peer c (off 10)) (p2rS (pairOf c))) 0 0
    ∗ atPos ER (dcell c (p2sS 10)) 0 ∅ 0
    ∗ cellInv ER (rd (W1 m) (W2 m)) (κ (dcell c (p1rS 11))) (dcell c (p1rS 11))
    ∗ cellInv ER (rd (W1 m) (W2 m)) (κ (dcell c (p2sS 11))) (dcell c (p2sS 11))
    ∗ cellInv ER (rd (W1 m) (W2 m)) (κ (dcell (peer c (off 11)) (p2rS (pairOf c)))) (dcell (peer c (off 11)) (p2rS (pairOf c)))
    ∗ reached ER (dcell c (p2sS 11)) 0
    ∗ atPos ER (dcell c (p1rS 11)) 0 ∅ 0
    ∗ dutyTok ER (dcell c (p2sS 11)) 0 0
    ∗ dutyTok ER (dcell (peer c (off 11)) (p2rS (pairOf c))) 0 0
    ∗ atPos ER (dcell c (p2sS 11)) 0 ∅ 0
    ∗ cellInv ER (rd (W1 m) (W2 m)) (κ (dcell c (p1rS 12))) (dcell c (p1rS 12))
    ∗ cellInv ER (rd (W1 m) (W2 m)) (κ (dcell c (p2sS 12))) (dcell c (p2sS 12))
    ∗ cellInv ER (rd (W1 m) (W2 m)) (κ (dcell (peer c (off 12)) (p2rS (pairOf c)))) (dcell (peer c (off 12)) (p2rS (pairOf c)))
    ∗ reached ER (dcell c (p2sS 12)) 0
    ∗ atPos ER (dcell c (p1rS 12)) 0 ∅ 0
    ∗ dutyTok ER (dcell c (p2sS 12)) 0 0
    ∗ dutyTok ER (dcell (peer c (off 12)) (p2rS (pairOf c))) 0 0
    ∗ atPos ER (dcell c (p2sS 12)) 0 ∅ 0
    ∗ cellInv ER (rd (W1 m) (W2 m)) (κ (dcell c (p1rS 13))) (dcell c (p1rS 13))
    ∗ cellInv ER (rd (W1 m) (W2 m)) (κ (dcell c (p2sS 13))) (dcell c (p2sS 13))
    ∗ cellInv ER (rd (W1 m) (W2 m)) (κ (dcell (peer c (off 13)) (p2rS (pairOf c)))) (dcell (peer c (off 13)) (p2rS (pairOf c)))
    ∗ reached ER (dcell c (p2sS 13)) 0
    ∗ atPos ER (dcell c (p1rS 13)) 0 ∅ 0
    ∗ dutyTok ER (dcell c (p2sS 13)) 0 0
    ∗ dutyTok ER (dcell (peer c (off 13)) (p2rS (pairOf c))) 0 0
    ∗ atPos ER (dcell c (p2sS 13)) 0 ∅ 0
    ∗ cellInv ER (rd (W1 m) (W2 m)) (κ (dcell c (p1rS 14))) (dcell c (p1rS 14))
    ∗ cellInv ER (rd (W1 m) (W2 m)) (κ (dcell c (p2sS 14))) (dcell c (p2sS 14))
    ∗ cellInv ER (rd (W1 m) (W2 m)) (κ (dcell (peer c (off 14)) (p2rS (pairOf c)))) (dcell (peer c (off 14)) (p2rS (pairOf c)))
    ∗ reached ER (dcell c (p2sS 14)) 0
    ∗ atPos ER (dcell c (p1rS 14)) 0 ∅ 0
    ∗ dutyTok ER (dcell c (p2sS 14)) 0 0
    ∗ dutyTok ER (dcell (peer c (off 14)) (p2rS (pairOf c))) 0 0
    ∗ atPos ER (dcell c (p2sS 14)) 0 ∅ 0
    ∗ cellInv ER (rd (W1 m) (W2 m)) (κ (dcell c (p1rS 15))) (dcell c (p1rS 15))
    ∗ atPos ER (dcell c (p1rS 15)) 0 ∅ 0
    ∗ cellInv ER (rd (W1 m) (W2 m)) (κ (dcell c (p2rS (pairOf (src c (off 0)))))) (dcell c (p2rS (pairOf (src c (off 0)))))
    ∗ atPos ER (dcell c (p2rS (pairOf (src c (off 0))))) 0 ∅ 0
    ∗ cellInv ER (rd (W1 m) (W2 m)) (κ (dcell c (p2rS (pairOf (src c (off 1)))))) (dcell c (p2rS (pairOf (src c (off 1)))))
    ∗ atPos ER (dcell c (p2rS (pairOf (src c (off 1))))) 0 ∅ 0
    ∗ cellInv ER (rd (W1 m) (W2 m)) (κ (dcell c (p2rS (pairOf (src c (off 2)))))) (dcell c (p2rS (pairOf (src c (off 2)))))
    ∗ atPos ER (dcell c (p2rS (pairOf (src c (off 2))))) 0 ∅ 0
    ∗ cellInv ER (rd (W1 m) (W2 m)) (κ (dcell c (p2rS (pairOf (src c (off 3)))))) (dcell c (p2rS (pairOf (src c (off 3)))))
    ∗ atPos ER (dcell c (p2rS (pairOf (src c (off 3))))) 0 ∅ 0
    ∗ cellInv ER (rd (W1 m) (W2 m)) (κ (dcell c (p2rS (pairOf (src c (off 4)))))) (dcell c (p2rS (pairOf (src c (off 4)))))
    ∗ atPos ER (dcell c (p2rS (pairOf (src c (off 4))))) 0 ∅ 0
    ∗ cellInv ER (rd (W1 m) (W2 m)) (κ (dcell c (p2rS (pairOf (src c (off 5)))))) (dcell c (p2rS (pairOf (src c (off 5)))))
    ∗ atPos ER (dcell c (p2rS (pairOf (src c (off 5))))) 0 ∅ 0
    ∗ cellInv ER (rd (W1 m) (W2 m)) (κ (dcell c (p2rS (pairOf (src c (off 6)))))) (dcell c (p2rS (pairOf (src c (off 6)))))
    ∗ atPos ER (dcell c (p2rS (pairOf (src c (off 6))))) 0 ∅ 0
    ∗ cellInv ER (rd (W1 m) (W2 m)) (κ (dcell c (p2rS (pairOf (src c (off 7)))))) (dcell c (p2rS (pairOf (src c (off 7)))))
    ∗ atPos ER (dcell c (p2rS (pairOf (src c (off 7))))) 0 ∅ 0
    ∗ cellInv ER (rd (W1 m) (W2 m)) (κ (dcell c (p2rS (pairOf (src c (off 8)))))) (dcell c (p2rS (pairOf (src c (off 8)))))
    ∗ atPos ER (dcell c (p2rS (pairOf (src c (off 8))))) 0 ∅ 0
    ∗ cellInv ER (rd (W1 m) (W2 m)) (κ (dcell c (p2rS (pairOf (src c (off 9)))))) (dcell c (p2rS (pairOf (src c (off 9)))))
    ∗ atPos ER (dcell c (p2rS (pairOf (src c (off 9))))) 0 ∅ 0
    ∗ cellInv ER (rd (W1 m) (W2 m)) (κ (dcell c (p2rS (pairOf (src c (off 10)))))) (dcell c (p2rS (pairOf (src c (off 10)))))
    ∗ atPos ER (dcell c (p2rS (pairOf (src c (off 10))))) 0 ∅ 0
    ∗ cellInv ER (rd (W1 m) (W2 m)) (κ (dcell c (p2rS (pairOf (src c (off 11)))))) (dcell c (p2rS (pairOf (src c (off 11)))))
    ∗ atPos ER (dcell c (p2rS (pairOf (src c (off 11))))) 0 ∅ 0
    ∗ cellInv ER (rd (W1 m) (W2 m)) (κ (dcell c (p2rS (pairOf (src c (off 12)))))) (dcell c (p2rS (pairOf (src c (off 12)))))
    ∗ atPos ER (dcell c (p2rS (pairOf (src c (off 12))))) 0 ∅ 0
    ∗ cellInv ER (rd (W1 m) (W2 m)) (κ (dcell c (p2rS (pairOf (src c (off 13)))))) (dcell c (p2rS (pairOf (src c (off 13)))))
    ∗ atPos ER (dcell c (p2rS (pairOf (src c (off 13))))) 0 ∅ 0
    ∗ cellInv ER (rd (W1 m) (W2 m)) (κ (dcell c (p2rS (pairOf (src c (off 14)))))) (dcell c (p2rS (pairOf (src c (off 14)))))
    ∗ atPos ER (dcell c (p2rS (pairOf (src c (off 14))))) 0 ∅ 0
    ∗ cellInv ER (rd (W1 m) (W2 m)) (κ (dcell c (p2rS (pairOf c)))) (dcell c (p2rS (pairOf c)))
    ∗ atPos ER (dcell c (p2rS (pairOf c))) 0 ∅ 0)

/-- Its launch credit: the barrier's sixteen units and one copy's credit on each receive cell it waits on. -/
def credits : sProp 𝕄 :=
  iprop(cred (tallyAt (barCell c) () 16)
    ∗ cred (tallyAt (dcell c (p1rS 0)) () N)
    ∗ cred (tallyAt (dcell c (p1rS 1)) () N)
    ∗ cred (tallyAt (dcell c (p1rS 2)) () N)
    ∗ cred (tallyAt (dcell c (p1rS 3)) () N)
    ∗ cred (tallyAt (dcell c (p1rS 4)) () N)
    ∗ cred (tallyAt (dcell c (p1rS 5)) () N)
    ∗ cred (tallyAt (dcell c (p1rS 6)) () N)
    ∗ cred (tallyAt (dcell c (p1rS 7)) () N)
    ∗ cred (tallyAt (dcell c (p1rS 8)) () N)
    ∗ cred (tallyAt (dcell c (p1rS 9)) () N)
    ∗ cred (tallyAt (dcell c (p1rS 10)) () N)
    ∗ cred (tallyAt (dcell c (p1rS 11)) () N)
    ∗ cred (tallyAt (dcell c (p1rS 12)) () N)
    ∗ cred (tallyAt (dcell c (p1rS 13)) () N)
    ∗ cred (tallyAt (dcell c (p1rS 14)) () N)
    ∗ cred (tallyAt (dcell c (p1rS 15)) () N)
    ∗ cred (tallyAt (dcell c (p2rS (pairOf (src c (off 0))))) () N)
    ∗ cred (tallyAt (dcell c (p2rS (pairOf (src c (off 1))))) () N)
    ∗ cred (tallyAt (dcell c (p2rS (pairOf (src c (off 2))))) () N)
    ∗ cred (tallyAt (dcell c (p2rS (pairOf (src c (off 3))))) () N)
    ∗ cred (tallyAt (dcell c (p2rS (pairOf (src c (off 4))))) () N)
    ∗ cred (tallyAt (dcell c (p2rS (pairOf (src c (off 5))))) () N)
    ∗ cred (tallyAt (dcell c (p2rS (pairOf (src c (off 6))))) () N)
    ∗ cred (tallyAt (dcell c (p2rS (pairOf (src c (off 7))))) () N)
    ∗ cred (tallyAt (dcell c (p2rS (pairOf (src c (off 8))))) () N)
    ∗ cred (tallyAt (dcell c (p2rS (pairOf (src c (off 9))))) () N)
    ∗ cred (tallyAt (dcell c (p2rS (pairOf (src c (off 10))))) () N)
    ∗ cred (tallyAt (dcell c (p2rS (pairOf (src c (off 11))))) () N)
    ∗ cred (tallyAt (dcell c (p2rS (pairOf (src c (off 12))))) () N)
    ∗ cred (tallyAt (dcell c (p2rS (pairOf (src c (off 13))))) () N)
    ∗ cred (tallyAt (dcell c (p2rS (pairOf (src c (off 14))))) () N))

/-- The evidence for its waits on cells other devices pay while it still owes. -/
def mayWaits : sProp 𝕄 :=
  iprop(MayWait (c : Thread nD τ) (.reg barS) () (debt c 0)
    ∗ MayWait (c : Thread nD τ) (.dma (p1rS 0)) () (debt c 16)
    ∗ MayWait (c : Thread nD τ) (.dma (p1rS 1)) () (debt c 17)
    ∗ MayWait (c : Thread nD τ) (.dma (p1rS 2)) () (debt c 18)
    ∗ MayWait (c : Thread nD τ) (.dma (p1rS 3)) () (debt c 19)
    ∗ MayWait (c : Thread nD τ) (.dma (p1rS 4)) () (debt c 20)
    ∗ MayWait (c : Thread nD τ) (.dma (p1rS 5)) () (debt c 21)
    ∗ MayWait (c : Thread nD τ) (.dma (p1rS 6)) () (debt c 22)
    ∗ MayWait (c : Thread nD τ) (.dma (p1rS 7)) () (debt c 23)
    ∗ MayWait (c : Thread nD τ) (.dma (p1rS 8)) () (debt c 24)
    ∗ MayWait (c : Thread nD τ) (.dma (p1rS 9)) () (debt c 25)
    ∗ MayWait (c : Thread nD τ) (.dma (p1rS 10)) () (debt c 26)
    ∗ MayWait (c : Thread nD τ) (.dma (p1rS 11)) () (debt c 27)
    ∗ MayWait (c : Thread nD τ) (.dma (p1rS 12)) () (debt c 28)
    ∗ MayWait (c : Thread nD τ) (.dma (p1rS 13)) () (debt c 29)
    ∗ MayWait (c : Thread nD τ) (.dma (p1rS 14)) () (debt c 30))

/-- The buffers it starts with: the three staging buffers and the four scratch buffers slot by slot. -/
def buffers : sProp 𝕄 :=
  iprop(((slot16 inboxM 0 (of_decide_eq_true rfl)).view.loc (c : Thread nD τ) ↦[(slot16 inboxM 0 (of_decide_eq_true rfl)).view.set]{fullShare} f1)
    ∗ ((slot16 inboxM 1 (of_decide_eq_true rfl)).view.loc (c : Thread nD τ) ↦[(slot16 inboxM 1 (of_decide_eq_true rfl)).view.set]{fullShare} f1)
    ∗ ((slot16 inboxM 2 (of_decide_eq_true rfl)).view.loc (c : Thread nD τ) ↦[(slot16 inboxM 2 (of_decide_eq_true rfl)).view.set]{fullShare} f1)
    ∗ ((slot16 inboxM 3 (of_decide_eq_true rfl)).view.loc (c : Thread nD τ) ↦[(slot16 inboxM 3 (of_decide_eq_true rfl)).view.set]{fullShare} f1)
    ∗ ((slot16 inboxM 4 (of_decide_eq_true rfl)).view.loc (c : Thread nD τ) ↦[(slot16 inboxM 4 (of_decide_eq_true rfl)).view.set]{fullShare} f1)
    ∗ ((slot16 inboxM 5 (of_decide_eq_true rfl)).view.loc (c : Thread nD τ) ↦[(slot16 inboxM 5 (of_decide_eq_true rfl)).view.set]{fullShare} f1)
    ∗ ((slot16 inboxM 6 (of_decide_eq_true rfl)).view.loc (c : Thread nD τ) ↦[(slot16 inboxM 6 (of_decide_eq_true rfl)).view.set]{fullShare} f1)
    ∗ ((slot16 inboxM 7 (of_decide_eq_true rfl)).view.loc (c : Thread nD τ) ↦[(slot16 inboxM 7 (of_decide_eq_true rfl)).view.set]{fullShare} f1)
    ∗ ((slot16 inboxM 8 (of_decide_eq_true rfl)).view.loc (c : Thread nD τ) ↦[(slot16 inboxM 8 (of_decide_eq_true rfl)).view.set]{fullShare} f1)
    ∗ ((slot16 inboxM 9 (of_decide_eq_true rfl)).view.loc (c : Thread nD τ) ↦[(slot16 inboxM 9 (of_decide_eq_true rfl)).view.set]{fullShare} f1)
    ∗ ((slot16 inboxM 10 (of_decide_eq_true rfl)).view.loc (c : Thread nD τ) ↦[(slot16 inboxM 10 (of_decide_eq_true rfl)).view.set]{fullShare} f1)
    ∗ ((slot16 inboxM 11 (of_decide_eq_true rfl)).view.loc (c : Thread nD τ) ↦[(slot16 inboxM 11 (of_decide_eq_true rfl)).view.set]{fullShare} f1)
    ∗ ((slot16 inboxM 12 (of_decide_eq_true rfl)).view.loc (c : Thread nD τ) ↦[(slot16 inboxM 12 (of_decide_eq_true rfl)).view.set]{fullShare} f1)
    ∗ ((slot16 inboxM 13 (of_decide_eq_true rfl)).view.loc (c : Thread nD τ) ↦[(slot16 inboxM 13 (of_decide_eq_true rfl)).view.set]{fullShare} f1)
    ∗ ((slot16 inboxM 14 (of_decide_eq_true rfl)).view.loc (c : Thread nD τ) ↦[(slot16 inboxM 14 (of_decide_eq_true rfl)).view.set]{fullShare} f1)
    ∗ ((slot16 inboxM 15 (of_decide_eq_true rfl)).view.loc (c : Thread nD τ) ↦[(slot16 inboxM 15 (of_decide_eq_true rfl)).view.set]{fullShare} f1)
    ∗ ((slot16 gatherM (rr (peer c (off 0)).val) (rr_lt (peer c (off 0)))).view.loc (c : Thread nD τ) ↦[(slot16 gatherM (rr (peer c (off 0)).val) (rr_lt (peer c (off 0)))).view.set]{fullShare} f3)
    ∗ ((slot16 gatherM (rr (peer c (off 1)).val) (rr_lt (peer c (off 1)))).view.loc (c : Thread nD τ) ↦[(slot16 gatherM (rr (peer c (off 1)).val) (rr_lt (peer c (off 1)))).view.set]{fullShare} f3)
    ∗ ((slot16 gatherM (rr (peer c (off 2)).val) (rr_lt (peer c (off 2)))).view.loc (c : Thread nD τ) ↦[(slot16 gatherM (rr (peer c (off 2)).val) (rr_lt (peer c (off 2)))).view.set]{fullShare} f3)
    ∗ ((slot16 gatherM (rr (peer c (off 3)).val) (rr_lt (peer c (off 3)))).view.loc (c : Thread nD τ) ↦[(slot16 gatherM (rr (peer c (off 3)).val) (rr_lt (peer c (off 3)))).view.set]{fullShare} f3)
    ∗ ((slot16 gatherM (rr (peer c (off 4)).val) (rr_lt (peer c (off 4)))).view.loc (c : Thread nD τ) ↦[(slot16 gatherM (rr (peer c (off 4)).val) (rr_lt (peer c (off 4)))).view.set]{fullShare} f3)
    ∗ ((slot16 gatherM (rr (peer c (off 5)).val) (rr_lt (peer c (off 5)))).view.loc (c : Thread nD τ) ↦[(slot16 gatherM (rr (peer c (off 5)).val) (rr_lt (peer c (off 5)))).view.set]{fullShare} f3)
    ∗ ((slot16 gatherM (rr (peer c (off 6)).val) (rr_lt (peer c (off 6)))).view.loc (c : Thread nD τ) ↦[(slot16 gatherM (rr (peer c (off 6)).val) (rr_lt (peer c (off 6)))).view.set]{fullShare} f3)
    ∗ ((slot16 gatherM (rr (peer c (off 7)).val) (rr_lt (peer c (off 7)))).view.loc (c : Thread nD τ) ↦[(slot16 gatherM (rr (peer c (off 7)).val) (rr_lt (peer c (off 7)))).view.set]{fullShare} f3)
    ∗ ((slot16 gatherM (rr (peer c (off 8)).val) (rr_lt (peer c (off 8)))).view.loc (c : Thread nD τ) ↦[(slot16 gatherM (rr (peer c (off 8)).val) (rr_lt (peer c (off 8)))).view.set]{fullShare} f3)
    ∗ ((slot16 gatherM (rr (peer c (off 9)).val) (rr_lt (peer c (off 9)))).view.loc (c : Thread nD τ) ↦[(slot16 gatherM (rr (peer c (off 9)).val) (rr_lt (peer c (off 9)))).view.set]{fullShare} f3)
    ∗ ((slot16 gatherM (rr (peer c (off 10)).val) (rr_lt (peer c (off 10)))).view.loc (c : Thread nD τ) ↦[(slot16 gatherM (rr (peer c (off 10)).val) (rr_lt (peer c (off 10)))).view.set]{fullShare} f3)
    ∗ ((slot16 gatherM (rr (peer c (off 11)).val) (rr_lt (peer c (off 11)))).view.loc (c : Thread nD τ) ↦[(slot16 gatherM (rr (peer c (off 11)).val) (rr_lt (peer c (off 11)))).view.set]{fullShare} f3)
    ∗ ((slot16 gatherM (rr (peer c (off 12)).val) (rr_lt (peer c (off 12)))).view.loc (c : Thread nD τ) ↦[(slot16 gatherM (rr (peer c (off 12)).val) (rr_lt (peer c (off 12)))).view.set]{fullShare} f3)
    ∗ ((slot16 gatherM (rr (peer c (off 13)).val) (rr_lt (peer c (off 13)))).view.loc (c : Thread nD τ) ↦[(slot16 gatherM (rr (peer c (off 13)).val) (rr_lt (peer c (off 13)))).view.set]{fullShare} f3)
    ∗ ((slot16 gatherM (rr (peer c (off 14)).val) (rr_lt (peer c (off 14)))).view.loc (c : Thread nD τ) ↦[(slot16 gatherM (rr (peer c (off 14)).val) (rr_lt (peer c (off 14)))).view.set]{fullShare} f3)
    ∗ ((slot16 stageM 0 (of_decide_eq_true rfl)).view.loc (c : Thread nD τ) ↦[(slot16 stageM 0 (of_decide_eq_true rfl)).view.set]{fullShare} f0)
    ∗ ((slot16 stageM 1 (of_decide_eq_true rfl)).view.loc (c : Thread nD τ) ↦[(slot16 stageM 1 (of_decide_eq_true rfl)).view.set]{fullShare} f0)
    ∗ ((slot16 stageM 2 (of_decide_eq_true rfl)).view.loc (c : Thread nD τ) ↦[(slot16 stageM 2 (of_decide_eq_true rfl)).view.set]{fullShare} f0)
    ∗ ((slot16 stageM 3 (of_decide_eq_true rfl)).view.loc (c : Thread nD τ) ↦[(slot16 stageM 3 (of_decide_eq_true rfl)).view.set]{fullShare} f0)
    ∗ ((slot16 stageM 4 (of_decide_eq_true rfl)).view.loc (c : Thread nD τ) ↦[(slot16 stageM 4 (of_decide_eq_true rfl)).view.set]{fullShare} f0)
    ∗ ((slot16 stageM 5 (of_decide_eq_true rfl)).view.loc (c : Thread nD τ) ↦[(slot16 stageM 5 (of_decide_eq_true rfl)).view.set]{fullShare} f0)
    ∗ ((slot16 stageM 6 (of_decide_eq_true rfl)).view.loc (c : Thread nD τ) ↦[(slot16 stageM 6 (of_decide_eq_true rfl)).view.set]{fullShare} f0)
    ∗ ((slot16 stageM 7 (of_decide_eq_true rfl)).view.loc (c : Thread nD τ) ↦[(slot16 stageM 7 (of_decide_eq_true rfl)).view.set]{fullShare} f0)
    ∗ ((slot16 stageM 8 (of_decide_eq_true rfl)).view.loc (c : Thread nD τ) ↦[(slot16 stageM 8 (of_decide_eq_true rfl)).view.set]{fullShare} f0)
    ∗ ((slot16 stageM 9 (of_decide_eq_true rfl)).view.loc (c : Thread nD τ) ↦[(slot16 stageM 9 (of_decide_eq_true rfl)).view.set]{fullShare} f0)
    ∗ ((slot16 stageM 10 (of_decide_eq_true rfl)).view.loc (c : Thread nD τ) ↦[(slot16 stageM 10 (of_decide_eq_true rfl)).view.set]{fullShare} f0)
    ∗ ((slot16 stageM 11 (of_decide_eq_true rfl)).view.loc (c : Thread nD τ) ↦[(slot16 stageM 11 (of_decide_eq_true rfl)).view.set]{fullShare} f0)
    ∗ ((slot16 stageM 12 (of_decide_eq_true rfl)).view.loc (c : Thread nD τ) ↦[(slot16 stageM 12 (of_decide_eq_true rfl)).view.set]{fullShare} f0)
    ∗ ((slot16 stageM 13 (of_decide_eq_true rfl)).view.loc (c : Thread nD τ) ↦[(slot16 stageM 13 (of_decide_eq_true rfl)).view.set]{fullShare} f0)
    ∗ ((slot16 stageM 14 (of_decide_eq_true rfl)).view.loc (c : Thread nD τ) ↦[(slot16 stageM 14 (of_decide_eq_true rfl)).view.set]{fullShare} f0)
    ∗ ((slot16 stageM 15 (of_decide_eq_true rfl)).view.loc (c : Thread nD τ) ↦[(slot16 stageM 15 (of_decide_eq_true rfl)).view.set]{fullShare} f0)
    ∗ ((slot15 outboxM 0 (of_decide_eq_true rfl)).view.loc (c : Thread nD τ) ↦[(slot15 outboxM 0 (of_decide_eq_true rfl)).view.set]{fullShare} f2)
    ∗ ((slot15 outboxM 1 (of_decide_eq_true rfl)).view.loc (c : Thread nD τ) ↦[(slot15 outboxM 1 (of_decide_eq_true rfl)).view.set]{fullShare} f2)
    ∗ ((slot15 outboxM 2 (of_decide_eq_true rfl)).view.loc (c : Thread nD τ) ↦[(slot15 outboxM 2 (of_decide_eq_true rfl)).view.set]{fullShare} f2)
    ∗ ((slot15 outboxM 3 (of_decide_eq_true rfl)).view.loc (c : Thread nD τ) ↦[(slot15 outboxM 3 (of_decide_eq_true rfl)).view.set]{fullShare} f2)
    ∗ ((slot15 outboxM 4 (of_decide_eq_true rfl)).view.loc (c : Thread nD τ) ↦[(slot15 outboxM 4 (of_decide_eq_true rfl)).view.set]{fullShare} f2)
    ∗ ((slot15 outboxM 5 (of_decide_eq_true rfl)).view.loc (c : Thread nD τ) ↦[(slot15 outboxM 5 (of_decide_eq_true rfl)).view.set]{fullShare} f2)
    ∗ ((slot15 outboxM 6 (of_decide_eq_true rfl)).view.loc (c : Thread nD τ) ↦[(slot15 outboxM 6 (of_decide_eq_true rfl)).view.set]{fullShare} f2)
    ∗ ((slot15 outboxM 7 (of_decide_eq_true rfl)).view.loc (c : Thread nD τ) ↦[(slot15 outboxM 7 (of_decide_eq_true rfl)).view.set]{fullShare} f2)
    ∗ ((slot15 outboxM 8 (of_decide_eq_true rfl)).view.loc (c : Thread nD τ) ↦[(slot15 outboxM 8 (of_decide_eq_true rfl)).view.set]{fullShare} f2)
    ∗ ((slot15 outboxM 9 (of_decide_eq_true rfl)).view.loc (c : Thread nD τ) ↦[(slot15 outboxM 9 (of_decide_eq_true rfl)).view.set]{fullShare} f2)
    ∗ ((slot15 outboxM 10 (of_decide_eq_true rfl)).view.loc (c : Thread nD τ) ↦[(slot15 outboxM 10 (of_decide_eq_true rfl)).view.set]{fullShare} f2)
    ∗ ((slot15 outboxM 11 (of_decide_eq_true rfl)).view.loc (c : Thread nD τ) ↦[(slot15 outboxM 11 (of_decide_eq_true rfl)).view.set]{fullShare} f2)
    ∗ ((slot15 outboxM 12 (of_decide_eq_true rfl)).view.loc (c : Thread nD τ) ↦[(slot15 outboxM 12 (of_decide_eq_true rfl)).view.set]{fullShare} f2)
    ∗ ((slot15 outboxM 13 (of_decide_eq_true rfl)).view.loc (c : Thread nD τ) ↦[(slot15 outboxM 13 (of_decide_eq_true rfl)).view.set]{fullShare} f2)
    ∗ ((slot15 outboxM 14 (of_decide_eq_true rfl)).view.loc (c : Thread nD τ) ↦[(slot15 outboxM 14 (of_decide_eq_true rfl)).view.set]{fullShare} f2)
    ∗ ((Memref.whole cc0_stg0_0 : Memref sig .tc .vmem S1024x32 .f32).view.loc (c : Thread nD τ) ↦[(Memref.whole cc0_stg0_0 : Memref sig .tc .vmem S1024x32 .f32).view.set]{fullShare} fx)
    ∗ ((Memref.whole cc0_stg1_0 : Memref sig .tc .vmem S32x1024 .f32).view.loc (c : Thread nD τ) ↦[(Memref.whole cc0_stg1_0 : Memref sig .tc .vmem S32x1024 .f32).view.set]{fullShare} fw)
    ∗ ((Memref.whole cc0_stg2_0 : Memref sig .tc .vmem S32x1024 .f32).view.loc (c : Thread nD τ) ↦[(Memref.whole cc0_stg2_0 : Memref sig .tc .vmem S32x1024 .f32).view.set]{fullShare} fo)
    ∗ ((slot16 gatherM (rr c.val) (rr_lt c)).view.loc (c : Thread nD τ) ↦[(slot16 gatherM (rr c.val) (rr_lt c)).view.set]{fullShare} f3))

/-- What it owes at entry. -/
def O₀ : CellTallies nD τ sig Unit := debt c 0 + tallyAt (barCell (peer c (off 14))) () 1 + tallyAt (barCell (peer c (off 13))) () 1 + tallyAt (barCell (peer c (off 12))) () 1 + tallyAt (barCell (peer c (off 11))) () 1 + tallyAt (barCell (peer c (off 10))) () 1 + tallyAt (barCell (peer c (off 9))) () 1 + tallyAt (barCell (peer c (off 8))) () 1 + tallyAt (barCell (peer c (off 7))) () 1 + tallyAt (barCell (peer c (off 6))) () 1 + tallyAt (barCell (peer c (off 5))) () 1 + tallyAt (barCell (peer c (off 4))) () 1 + tallyAt (barCell (peer c (off 3))) () 1 + tallyAt (barCell (peer c (off 2))) () 1 + tallyAt (barCell (peer c (off 1))) () 1 + tallyAt (barCell (peer c (off 0))) () 1 + tallyAt (barCell (nbr c)) () 1

/-- What the body starts from. -/
def bodyPre : sProp 𝕄 :=
  iprop(gBar m κ c f1 f3
    ∗ gP1_0 m κ c f0 ∗ gP1_1 m κ c f0 ∗ gP1_2 m κ c f0 ∗ gP1_3 m κ c f0 ∗ gP1_4 m κ c f0 ∗ gP1_5 m κ c f0 ∗ gP1_6 m κ c f0 ∗ gP1_7 m κ c f0 ∗ gP1_8 m κ c f0 ∗ gP1_9 m κ c f0 ∗ gP1_10 m κ c f0 ∗ gP1_11 m κ c f0 ∗ gP1_12 m κ c f0 ∗ gP1_13 m κ c f0 ∗ gP1_14 m κ c f0 ∗ gP1_15 m κ c f0
    ∗ gP2_0 m κ c f2 ∗ gP2_1 m κ c f2 ∗ gP2_2 m κ c f2 ∗ gP2_3 m κ c f2 ∗ gP2_4 m κ c f2 ∗ gP2_5 m κ c f2 ∗ gP2_6 m κ c f2 ∗ gP2_7 m κ c f2 ∗ gP2_8 m κ c f2 ∗ gP2_9 m κ c f2 ∗ gP2_10 m κ c f2 ∗ gP2_11 m κ c f2 ∗ gP2_12 m κ c f2 ∗ gP2_13 m κ c f2 ∗ gP2_14 m κ c f2
    ∗ gP1last m κ c
    ∗ gFin_0 m κ c ∗ gFin_1 m κ c ∗ gFin_2 m κ c ∗ gFin_3 m κ c ∗ gFin_4 m κ c ∗ gFin_5 m κ c ∗ gFin_6 m κ c ∗ gFin_7 m κ c ∗ gFin_8 m κ c ∗ gFin_9 m κ c ∗ gFin_10 m κ c ∗ gFin_11 m κ c ∗ gFin_12 m κ c ∗ gFin_13 m κ c ∗ gFin_14 m κ c
    ∗ gMisc m κ c W fx fw fo f3)

/-- What it leaves: the result in the output staging buffer, the inputs as they were, the four scratch
    buffers whole again, the 63 scratch semaphores at zero, nothing owed. -/
def bodyPost : sProp 𝕄 :=
  iprop(((Memref.whole cc0_stg2_0 : Memref sig .tc .vmem S32x1024 .f32).view.loc (c : Thread nD τ) ↦[(Memref.whole cc0_stg2_0 : Memref sig .tc .vmem S32x1024 .f32).view.set]{fullShare} outAt m c) ∗ ((Memref.whole cc0_stg0_0 : Memref sig .tc .vmem S1024x32 .f32).view.loc (c : Thread nD τ) ↦[(Memref.whole cc0_stg0_0 : Memref sig .tc .vmem S1024x32 .f32).view.set]{fullShare} fx) ∗ ((Memref.whole cc0_stg1_0 : Memref sig .tc .vmem S32x1024 .f32).view.loc (c : Thread nD τ) ↦[(Memref.whole cc0_stg1_0 : Memref sig .tc .vmem S32x1024 .f32).view.set]{fullShare} fw)
    ∗ (∃ f, (stageM.view.loc (c : Thread nD τ) ↦[stageM.view.set]{fullShare} f)) ∗ (∃ f, (inboxM.view.loc (c : Thread nD τ) ↦[inboxM.view.set]{fullShare} f)) ∗ (∃ f, (outboxM.view.loc (c : Thread nD τ) ↦[outboxM.view.set]{fullShare} f)) ∗ (∃ f, (gatherM.view.loc (c : Thread nD τ) ↦[gatherM.view.set]{fullShare} f))
    ∗ semVal (dcell c (p1sS 0)) 0
    ∗ semVal (dcell c (p1sS 1)) 0
    ∗ semVal (dcell c (p1sS 2)) 0
    ∗ semVal (dcell c (p1sS 3)) 0
    ∗ semVal (dcell c (p1sS 4)) 0
    ∗ semVal (dcell c (p1sS 5)) 0
    ∗ semVal (dcell c (p1sS 6)) 0
    ∗ semVal (dcell c (p1sS 7)) 0
    ∗ semVal (dcell c (p1sS 8)) 0
    ∗ semVal (dcell c (p1sS 9)) 0
    ∗ semVal (dcell c (p1sS 10)) 0
    ∗ semVal (dcell c (p1sS 11)) 0
    ∗ semVal (dcell c (p1sS 12)) 0
    ∗ semVal (dcell c (p1sS 13)) 0
    ∗ semVal (dcell c (p1sS 14)) 0
    ∗ semVal (dcell c (p1sS 15)) 0
    ∗ semVal (dcell c (p1rS 0)) 0
    ∗ semVal (dcell c (p1rS 1)) 0
    ∗ semVal (dcell c (p1rS 2)) 0
    ∗ semVal (dcell c (p1rS 3)) 0
    ∗ semVal (dcell c (p1rS 4)) 0
    ∗ semVal (dcell c (p1rS 5)) 0
    ∗ semVal (dcell c (p1rS 6)) 0
    ∗ semVal (dcell c (p1rS 7)) 0
    ∗ semVal (dcell c (p1rS 8)) 0
    ∗ semVal (dcell c (p1rS 9)) 0
    ∗ semVal (dcell c (p1rS 10)) 0
    ∗ semVal (dcell c (p1rS 11)) 0
    ∗ semVal (dcell c (p1rS 12)) 0
    ∗ semVal (dcell c (p1rS 13)) 0
    ∗ semVal (dcell c (p1rS 14)) 0
    ∗ semVal (dcell c (p1rS 15)) 0
    ∗ semVal (dcell c (p2sS 0)) 0
    ∗ semVal (dcell c (p2sS 1)) 0
    ∗ semVal (dcell c (p2sS 2)) 0
    ∗ semVal (dcell c (p2sS 3)) 0
    ∗ semVal (dcell c (p2sS 4)) 0
    ∗ semVal (dcell c (p2sS 5)) 0
    ∗ semVal (dcell c (p2sS 6)) 0
    ∗ semVal (dcell c (p2sS 7)) 0
    ∗ semVal (dcell c (p2sS 8)) 0
    ∗ semVal (dcell c (p2sS 9)) 0
    ∗ semVal (dcell c (p2sS 10)) 0
    ∗ semVal (dcell c (p2sS 11)) 0
    ∗ semVal (dcell c (p2sS 12)) 0
    ∗ semVal (dcell c (p2sS 13)) 0
    ∗ semVal (dcell c (p2sS 14)) 0
    ∗ semVal (dcell c (p2rS (pairOf (src c (off 0))))) 0
    ∗ semVal (dcell c (p2rS (pairOf (src c (off 1))))) 0
    ∗ semVal (dcell c (p2rS (pairOf (src c (off 2))))) 0
    ∗ semVal (dcell c (p2rS (pairOf (src c (off 3))))) 0
    ∗ semVal (dcell c (p2rS (pairOf (src c (off 4))))) 0
    ∗ semVal (dcell c (p2rS (pairOf (src c (off 5))))) 0
    ∗ semVal (dcell c (p2rS (pairOf (src c (off 6))))) 0
    ∗ semVal (dcell c (p2rS (pairOf (src c (off 7))))) 0
    ∗ semVal (dcell c (p2rS (pairOf (src c (off 8))))) 0
    ∗ semVal (dcell c (p2rS (pairOf (src c (off 9))))) 0
    ∗ semVal (dcell c (p2rS (pairOf (src c (off 10))))) 0
    ∗ semVal (dcell c (p2rS (pairOf (src c (off 11))))) 0
    ∗ semVal (dcell c (p2rS (pairOf (src c (off 12))))) 0
    ∗ semVal (dcell c (p2rS (pairOf (src c (off 13))))) 0
    ∗ semVal (dcell c (p2rS (pairOf (src c (off 14))))) 0
    ∗ semVal (dcell c (p2rS (pairOf c))) 0
    ∗ (∃ W : Waits sig Unit, owes (c : Thread nD τ) 0 W))

end

end Cert.Kernel.Proto

end
-- ==== Proof.SendK.lean ====
/-
  The remote copy's rule in the form the body applies it: the addressed device and the two semaphores
  as the program spells them, with the equations to the protocol's names; and the value a staged
  product holds.
-/
import proofs.«900440_g7700000000000441_dist_gemm_rs_m1024_k1024_n1024_f32_none_v7x_i32_1_alg».proof.Proof.BodyStmtK
import proofs.«900440_g7700000000000441_dist_gemm_rs_m1024_k1024_n1024_f32_none_v7x_i32_1_alg».proof.Proof.Gen.Kernel.Skeleton

noncomputable section

namespace Cert.Kernel.Proto

open Cert.Kernel Cert.Kernel.Gen Cert.Mesh Cert.Kernel.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem wp_send_slot' (W1 W2 : Dev nD → Dev nD → Vec F S1x32x1024 .f32) (c n₁ n₂ : Dev nD) {n : Dev nD} (hn₁ : n = n₁) (hn₂ : n = n₂)
    (src dst : Memref sig .tc .vmem S1x32x1024 .f32) (qs qr : DmaSem sig) {sS sR : DmaSem sig} (hsS : sS = qs) (hsR : sR = qr)
    (κ₁ κ₂ : ℕ) (V : Vec F S1x32x1024 .f32)
    (hds : (0 : DN) ∈ (rd W1 W2).duties (dcell c qs) 0) (hdr : (0 : DN) ∈ (rd W1 W2).duties (dcell n₁ qr) 0)
    (hN : dst.view.amount (.dma qr) = N)
    (hp1 : (rd W1 W2).payload (dcell c qs) 0 0 = holds c src V) (hp2 : (rd W1 W2).payload (dcell n₁ qr) 0 0 = holds n₁ dst V)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fs : Buf (Elt F) (src.view.loc (c : Thread nD τ))) (hfs : src.view.read (Elt F) fs = V)
    (fd : Buf (Elt F) (dst.view.loc (n₂ : Thread nD τ))) (O : CellTallies nD τ sig Unit) (W : Waits sig Unit) :
    iprop(cellInv ER (rd W1 W2) κ₁ (dcell c qs) ∗ cellInv ER (rd W1 W2) κ₂ (dcell n₁ qr)
        ∗ (src.view.loc (c : Thread nD τ) ↦[src.view.set]{fullShare} fs) ∗ (dst.view.loc (n₂ : Thread nD τ) ↦[dst.view.set]{fullShare} fd)
        ∗ owes (c : Thread nD τ) (O + tallyAt (dcell n₁ qr) () N) W
        ∗ dutyTok ER (dcell c qs) 0 0 ∗ reached ER (dcell c qs) 0 ∗ dutyTok ER (dcell n₁ qr) 0 0 ∗ reached ER (dcell n₂ qr) 0)
      ⊢ iprop(((cred (tallyAt (dcell c qs) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn₁; subst hn₂; subst hsS; subst hsR
  exact wp_send_slot W1 W2 c n sS sR κ₁ κ₂ V hds hdr hN hp1 hp2 fs hfs fd O W

/-- The same with the destination slot as the program spells it. -/
theorem wp_send_slot'' (W1 W2 : Dev nD → Dev nD → Vec F S1x32x1024 .f32) (c n₁ n₂ : Dev nD) {n : Dev nD} (hn₁ : n = n₁) (hn₂ : n = n₂)
    (src dst : Memref sig .tc .vmem S1x32x1024 .f32) {dstG : Memref sig .tc .vmem S1x32x1024 .f32} (hdG : dstG = dst)
    (qs qr : DmaSem sig) {sS sR : DmaSem sig} (hsS : sS = qs) (hsR : sR = qr)
    (κ₁ κ₂ : ℕ) (V : Vec F S1x32x1024 .f32)
    (hds : (0 : DN) ∈ (rd W1 W2).duties (dcell c qs) 0) (hdr : (0 : DN) ∈ (rd W1 W2).duties (dcell n₁ qr) 0)
    (hN : dst.view.amount (.dma qr) = N)
    (hp1 : (rd W1 W2).payload (dcell c qs) 0 0 = holds c src V) (hp2 : (rd W1 W2).payload (dcell n₁ qr) 0 0 = holds n₁ dst V)
    {hsc : dstG.view.ref.isScScratch = false} {hsrc : src.view.WordExact} {hdst : dstG.view.WordExact}
    {hsem : DmaTarget.Typed .vmem (.dma sR) (.remote (Dev.tc n : Thread nD τ) dstG (.dma sS) hsc)}
    {α : Type} {Q : α → sProp 𝕄} {k : PUnit → Prog (TpuEff nD τ sig (Elt F) Λ₀ .tc) α}
    (fs : Buf (Elt F) (src.view.loc (c : Thread nD τ))) (hfs : src.view.read (Elt F) fs = V)
    (fd : Buf (Elt F) (dst.view.loc (n₂ : Thread nD τ))) (O : CellTallies nD τ sig Unit) (W : Waits sig Unit) :
    iprop(cellInv ER (rd W1 W2) κ₁ (dcell c qs) ∗ cellInv ER (rd W1 W2) κ₂ (dcell n₁ qr)
        ∗ (src.view.loc (c : Thread nD τ) ↦[src.view.set]{fullShare} fs) ∗ (dst.view.loc (n₂ : Thread nD τ) ↦[dst.view.set]{fullShare} fd)
        ∗ owes (c : Thread nD τ) (O + tallyAt (dcell n₁ qr) () N) W
        ∗ dutyTok ER (dcell c qs) 0 0 ∗ reached ER (dcell c qs) 0 ∗ dutyTok ER (dcell n₁ qr) 0 0 ∗ reached ER (dcell n₂ qr) 0)
      ⊢ iprop(((cred (tallyAt (dcell c qs) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dstG (.dma sS) hsc) (.dma sR) hsrc hdst hsem) k) Q) := by
  subst hdG
  exact wp_send_slot' W1 W2 c n₁ n₂ hn₁ hn₂ src dstG qs qr hsS hsR κ₁ κ₂ V hds hdr hN hp1 hp2 fs hfs fd O W

/-- The second-phase destination: the slot of the pair of `c` in the peer's receive buffer, and its semaphore there. -/
theorem gather_off4 (c : Dev nD) (h) :
    (Memref.whole cc0_scratch3 : Memref sig .tc .vmem S16x32x1024 .f32).slice (Rect.unit (s := S16x32x1024) (k0_off4 c) S1x32x1024.size (k0_off4_inb c)) h
      = slot16 gatherM (rr c.val) (rr_lt c) := by
  have key : ∀ (off : Fin 3 → ℕ) (e : off = ![rr c.val, 0, 0]) (inb : ∀ a, off a + S1x32x1024.size a ≤ S16x32x1024.size a) (h'),
      (Memref.whole cc0_scratch3 : Memref sig .tc .vmem S16x32x1024 .f32).slice (Rect.unit (s := S16x32x1024) off S1x32x1024.size inb) h' = slot16 gatherM (rr c.val) (rr_lt c) := by
    intro off e; subst e; intros; rfl
  exact key _ (Topo.k0_off4_eq c) _ _
theorem sem_off3 : ∀ c : Dev nD, ((SemArray.slice cc0_scratch7 (Rect.unit (s := S16) (k0_off3 c) S1.size (k0_off3_inb c))).squeeze S_ squeezes_S1_S_).sem = p2rS (pairOf c) := by
  decide +kernel

theorem peer_eq_src0 : ∀ c : Dev nD, peer c (off 0) = src c (off 0) := by decide
theorem peer_eq_src1 : ∀ c : Dev nD, peer c (off 1) = src c (off 2) := by decide
theorem peer_eq_src2 : ∀ c : Dev nD, peer c (off 2) = src c (off 1) := by decide
theorem peer_eq_src3 : ∀ c : Dev nD, peer c (off 3) = src c (off 4) := by decide
theorem peer_eq_src4 : ∀ c : Dev nD, peer c (off 4) = src c (off 3) := by decide
theorem peer_eq_src5 : ∀ c : Dev nD, peer c (off 5) = src c (off 6) := by decide
theorem peer_eq_src6 : ∀ c : Dev nD, peer c (off 6) = src c (off 5) := by decide
theorem peer_eq_src7 : ∀ c : Dev nD, peer c (off 7) = src c (off 8) := by decide
theorem peer_eq_src8 : ∀ c : Dev nD, peer c (off 8) = src c (off 7) := by decide
theorem peer_eq_src9 : ∀ c : Dev nD, peer c (off 9) = src c (off 10) := by decide
theorem peer_eq_src10 : ∀ c : Dev nD, peer c (off 10) = src c (off 9) := by decide
theorem peer_eq_src11 : ∀ c : Dev nD, peer c (off 11) = src c (off 12) := by decide
theorem peer_eq_src12 : ∀ c : Dev nD, peer c (off 12) = src c (off 11) := by decide
theorem peer_eq_src13 : ∀ c : Dev nD, peer c (off 13) = src c (off 14) := by decide
theorem peer_eq_src14 : ∀ c : Dev nD, peer c (off 14) = src c (off 13) := by decide

theorem peer_nbr : ∀ (c : Dev nD) (o : Fin 17), peer (nbr c) o = cross c o := by decide
theorem onSide_peer : ∀ (c : Dev nD) (k : Fin 15), onSide (peer c (off k)) (pairOf c) = c := by decide
theorem offA_off : ∀ k : Fin 15, offA ⟨k.val, by have := k.isLt; omega⟩ = off k := by decide
theorem nbr_val (c : Dev nD) : (nbr c).val = nbrN c.val := rfl

section
variable (W1 W2 : Dev nD → Dev nD → Vec F S1x32x1024 .f32) (c : Dev nD)

/-- The peer's receive cell of the pair of `c`: its duty and what it hands the peer. -/
theorem duties_p2r_peer (k : Fin 15) : (rd (F := F) W1 W2).duties (dcell (peer c (off k)) (p2rS (pairOf c))) 0 = {0} :=
  duties_dma W1 W2 _ _ (by revert c k; decide)
theorem payload_p2r_peer (k : Fin 15) : (rd (F := F) W1 W2).payload (dcell (peer c (off k)) (p2rS (pairOf c))) 0 0
    = holds (peer c (off k)) (slot16 gatherM (rr c.val) (rr_lt c)) (W2 c (peer c (off k))) := by
  rw [payload_dma, dmaPay_p2r, onSide_peer]; rfl

end

theorem peer_full : ∀ c : Dev nD, peer c (offA 15) = c := by decide
theorem onSide_src : ∀ (c : Dev nD) (i : Fin 15), onSide c (pairOf (src c (off i))) = src c (off i) := by decide
theorem pairOf_src_val (c : Dev nD) (i : Fin 15) : (pairOf (src c (off i))).val = rr (src c (off i)).val := rfl

section
variable (W1 W2 : Dev nD → Dev nD → Vec F S1x32x1024 .f32) (c : Dev nD)

/-- The receive cell of `c` for the device `off i` pairs back: its duty, its units, what it hands `c`. -/
theorem duties_p2r_src (i : Fin 15) : (rd (F := F) W1 W2).duties (dcell c (p2rS (pairOf (src c (off i))))) 0 = {0} :=
  duties_dma W1 W2 _ _ (by revert c i; decide)
theorem expect_p2r_src (i : Fin 15) : (rd (F := F) W1 W2).expect (dcell c (p2rS (pairOf (src c (off i))))) 0 = N :=
  expect_dma W1 W2 _ _ (by revert c i; decide)
theorem payload_p2r_src (i : Fin 15) : (rd (F := F) W1 W2).payload (dcell c (p2rS (pairOf (src c (off i))))) 0 0
    = holds c (slot16 gatherM (rr (src c (off i)).val) (rr_lt (src c (off i)))) (W2 (src c (off i)) c) := by
  rw [payload_dma, dmaPay_p2r, onSide_src]; rfl

end

/-! ## Copies of squeezed slots -/

/-- Reading, through a view, what a copy between the two views' reshapes wrote: the source as its own view reads it. -/
theorem read_write_reshape {S S' : Shape} {e : EltTy} (v w : View sig .tc .vmem S e) (h : S'.numel = S.numel)
    (fs : v.ty.Contents (Elt F)) (fd : w.ty.Contents (Elt F)) :
    w.read (Elt F) ((w.reshape S' h).write (Elt F) fd ((v.reshape S' h).read (Elt F) fs) Finset.univ) = v.read (Elt F) fs := by
  funext x
  have hw : w.emb x = (w.reshape S' h).emb ((Shape.reshapeEquiv h).symm x) := by
    rw [View.emb_reshape]; simp
  have hv : (v.reshape S' h).emb ((Shape.reshapeEquiv h).symm x) = v.emb x := by
    rw [View.emb_reshape]; simp
  rw [View.read_apply, hw, View.write_emb_of_mem _ _ (Finset.mem_univ _), View.read_apply, hv, View.read_apply]
  simp

theorem wp_send_sq (W1 W2 : Dev nD → Dev nD → Vec F S1x32x1024 .f32) (c n₁ n₂ : Dev nD) {n : Dev nD} (hn₁ : n = n₁) (hn₂ : n = n₂)
    (src dst : Memref sig .tc .vmem S1x32x1024 .f32) (hq : S1x32x1024.Squeezes S32x1024)
    {srcG dstG : Memref sig .tc .vmem S32x1024 .f32} (hsG : srcG = src.squeeze S32x1024 hq) (hdG : dstG = dst.squeeze S32x1024 hq)
    (qs qr : DmaSem sig) {sS sR : DmaSem sig} (hsS : sS = qs) (hsR : sR = qr)
    (κ₁ κ₂ : ℕ) (V : Vec F S1x32x1024 .f32)
    (hds : (0 : DN) ∈ (rd W1 W2).duties (dcell c qs) 0) (hdr : (0 : DN) ∈ (rd W1 W2).duties (dcell n₁ qr) 0)
    (hN : (dst.squeeze S32x1024 hq).view.amount (.dma qr) = N)
    (hp1 : (rd W1 W2).payload (dcell c qs) 0 0 = holds c src V) (hp2 : (rd W1 W2).payload (dcell n₁ qr) 0 0 = holds n₁ dst V)
    {hsc : dstG.view.ref.isScScratch = false} {hsrc : srcG.view.WordExact} {hdst : dstG.view.WordExact}
    {hsem : DmaTarget.Typed .vmem (.dma sR) (.remote (Dev.tc n : Thread nD τ) dstG (.dma sS) hsc)}
    {α : Type} {Q : α → sProp 𝕄} {k : PUnit → Prog (TpuEff nD τ sig (Elt F) Λ₀ .tc) α}
    (fs : Buf (Elt F) (src.view.loc (c : Thread nD τ))) (hfs : src.view.read (Elt F) fs = V)
    (fd : Buf (Elt F) (dst.view.loc (n₂ : Thread nD τ))) (O : CellTallies nD τ sig Unit) (W : Waits sig Unit) :
    iprop(cellInv ER (rd W1 W2) κ₁ (dcell c qs) ∗ cellInv ER (rd W1 W2) κ₂ (dcell n₁ qr)
        ∗ (src.view.loc (c : Thread nD τ) ↦[src.view.set]{fullShare} fs) ∗ (dst.view.loc (n₂ : Thread nD τ) ↦[dst.view.set]{fullShare} fd)
        ∗ owes (c : Thread nD τ) (O + tallyAt (dcell n₁ qr) () N) W
        ∗ dutyTok ER (dcell c qs) 0 0 ∗ reached ER (dcell c qs) 0 ∗ dutyTok ER (dcell n₁ qr) 0 0 ∗ reached ER (dcell n₂ qr) 0)
      ⊢ iprop(((cred (tallyAt (dcell c qs) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcG (.remote (Dev.tc n : Thread nD τ) dstG (.dma sS) hsc) (.dma sR) hsrc hdst hsem) k) Q) := by
  subst hn₁; subst hn₂; subst hsS; subst hsR; subst hsG; subst hdG
  have hs : (src.squeeze S32x1024 hq).view.set = src.view.set := View.set_reshape src.view _
  have hd : (dst.squeeze S32x1024 hq).view.set = dst.view.set := View.set_reshape dst.view _
  rw [show (src.view.loc (c : Thread nD τ) ↦[src.view.set]{fullShare} fs : sProp 𝕄)
        = ((src.squeeze S32x1024 hq).view.loc (c : Thread nD τ) ↦[(src.squeeze S32x1024 hq).view.set]{fullShare} fs) from by rw [hs],
    show (dst.view.loc (n : Thread nD τ) ↦[dst.view.set]{fullShare} fd : sProp 𝕄)
        = ((dst.squeeze S32x1024 hq).view.loc (n : Thread nD τ) ↦[(dst.squeeze S32x1024 hq).view.set]{fullShare} fd) from by rw [hd]]
  exact Rounds.wp_send_pointsTo 𝒱₀ ER (rd W1 W2) (c : Thread nD τ) none (c' := (Dev.tc n : Thread nD τ)) (src := src.squeeze S32x1024 hq) (dst := dst.squeeze S32x1024 hq)
    (κ₁ := κ₁) (κ₂ := κ₂) (r₁ := 0) (r₂ := 0) (d₁ := 0) (d₂ := 0) (fs := fs) (fd := fd)
    hds hdr () () N hN (amount_dma W1 W2 c sS 0) (amount_dma W1 W2 n sR 0) O rfl (W := W)
    (by rw [hp1, hs]; exact Entails.of_eq (holds_of_read c src fs V hfs))
    (by rw [hp2, hd]
        exact Entails.of_eq (holds_of_read n dst _ V ((read_write_reshape src.view dst.view _ fs fd).trans hfs)))

/-! ## The values -/

section
variable (m : (ℓ : Loc nD τ sig) → Buf (Elt F) ℓ)

theorem xsOf_val (c : Dev nD) : xsOf m c.val = xstg m c := by
  unfold xsOf; exact congrArg (xstg m) (Fin.ext (Nat.mod_eq_of_lt c.isLt))
theorem wsOf_val (c : Dev nD) : wsOf m c.val = wstg m c := by
  unfold wsOf; exact congrArg (wstg m) (Fin.ext (Nat.mod_eq_of_lt c.isLt))

/-- The product of the rows of device `t` of the `x` block of `c` with its `w` block, as the body loads and multiplies them. -/
theorem stage_val (c t : Dev nD) (off : Fin 2 → ℕ) (hoff : off = ![32 * t.val, 0]) (inb : ∀ a, off a + S32x32.size a ≤ S1024x32.size a) :
    up (part (View.readAt (Elt F) (Memref.whole cc0_stg0_0 : Memref sig .tc .vmem S1024x32 .f32).view (Rect.unit (s := S1024x32) off S32x32.size inb).toLoadRect (xstg m c))
          (View.readAt (Elt F) (Memref.whole cc0_stg1_0 : Memref sig .tc .vmem S32x1024 .f32).view (Rect.unit (s := S32x1024) ![0, 0] S32x1024.size inb_S32x1024_S32x1024_0_0).toLoadRect (wstg m c)))
      = W1 m c t := by
  subst hoff
  have e : View.readAt (Elt F) (Memref.whole cc0_stg1_0 : Memref sig .tc .vmem S32x1024 .f32).view (Rect.unit (s := S32x1024) ![0, 0] S32x1024.size inb_S32x1024_S32x1024_0_0).toLoadRect (wstg m c) = wstg m c :=
    Memref.readAt_unit_zero (Elt F) cc0_stg1_0 (funext fun a => by fin_cases a <;> rfl) _ (wstg m c)
  rw [xrows_eq_readAt_stg (xstg m c) t.val t.isLt inb, e]
  unfold W1 pp
  rw [xsOf_val, wsOf_val]

end

/-! ## The second-phase receives of `c`: the semaphore, the credit and the rest of the round as the body meets them -/

theorem sem_off6_0 : ∀ c : Dev nD, ((SemArray.slice cc0_scratch7 (Rect.unit (s := S16) (k0_off6 c 8#32) S1.size (k0_off6_inb c 7))).squeeze S_ squeezes_S1_S_).sem = p2rS (pairOf (src c (off 0))) := by
  decide +kernel
theorem credit_off7_0 (c : Dev nD) (h) : (((Memref.whole cc0_scratch3 : Memref sig .tc .vmem S16x32x1024 .f32).slice (Rect.unit (s := S16x32x1024) (k0_off7 c 8#32) S1x32x1024.size (k0_off7_inb c 7)) h).squeeze S32x1024 squeezes_S1x32x1024_S32x1024).view.dmaCredit = N := by
  first | rfl | (simp [View.dmaCredit]; done)
theorem sem_off6_1 : ∀ c : Dev nD, ((SemArray.slice cc0_scratch7 (Rect.unit (s := S16) (k0_off6 c 7#32) S1.size (k0_off6_inb c 6))).squeeze S_ squeezes_S1_S_).sem = p2rS (pairOf (src c (off 1))) := by
  decide +kernel
theorem credit_off7_1 (c : Dev nD) (h) : (((Memref.whole cc0_scratch3 : Memref sig .tc .vmem S16x32x1024 .f32).slice (Rect.unit (s := S16x32x1024) (k0_off7 c 7#32) S1x32x1024.size (k0_off7_inb c 6)) h).squeeze S32x1024 squeezes_S1x32x1024_S32x1024).view.dmaCredit = N := by
  first | rfl | (simp [View.dmaCredit]; done)
theorem sem_off6_2 : ∀ c : Dev nD, ((SemArray.slice cc0_scratch7 (Rect.unit (s := S16) (k0_off6 c 9#32) S1.size (k0_off6_inb c 8))).squeeze S_ squeezes_S1_S_).sem = p2rS (pairOf (src c (off 2))) := by
  decide +kernel
theorem credit_off7_2 (c : Dev nD) (h) : (((Memref.whole cc0_scratch3 : Memref sig .tc .vmem S16x32x1024 .f32).slice (Rect.unit (s := S16x32x1024) (k0_off7 c 9#32) S1x32x1024.size (k0_off7_inb c 8)) h).squeeze S32x1024 squeezes_S1x32x1024_S32x1024).view.dmaCredit = N := by
  first | rfl | (simp [View.dmaCredit]; done)
theorem sem_off6_3 : ∀ c : Dev nD, ((SemArray.slice cc0_scratch7 (Rect.unit (s := S16) (k0_off6 c 6#32) S1.size (k0_off6_inb c 5))).squeeze S_ squeezes_S1_S_).sem = p2rS (pairOf (src c (off 3))) := by
  decide +kernel
theorem credit_off7_3 (c : Dev nD) (h) : (((Memref.whole cc0_scratch3 : Memref sig .tc .vmem S16x32x1024 .f32).slice (Rect.unit (s := S16x32x1024) (k0_off7 c 6#32) S1x32x1024.size (k0_off7_inb c 5)) h).squeeze S32x1024 squeezes_S1x32x1024_S32x1024).view.dmaCredit = N := by
  first | rfl | (simp [View.dmaCredit]; done)
theorem sem_off6_4 : ∀ c : Dev nD, ((SemArray.slice cc0_scratch7 (Rect.unit (s := S16) (k0_off6 c 10#32) S1.size (k0_off6_inb c 9))).squeeze S_ squeezes_S1_S_).sem = p2rS (pairOf (src c (off 4))) := by
  decide +kernel
theorem credit_off7_4 (c : Dev nD) (h) : (((Memref.whole cc0_scratch3 : Memref sig .tc .vmem S16x32x1024 .f32).slice (Rect.unit (s := S16x32x1024) (k0_off7 c 10#32) S1x32x1024.size (k0_off7_inb c 9)) h).squeeze S32x1024 squeezes_S1x32x1024_S32x1024).view.dmaCredit = N := by
  first | rfl | (simp [View.dmaCredit]; done)
theorem sem_off6_5 : ∀ c : Dev nD, ((SemArray.slice cc0_scratch7 (Rect.unit (s := S16) (k0_off6 c 5#32) S1.size (k0_off6_inb c 4))).squeeze S_ squeezes_S1_S_).sem = p2rS (pairOf (src c (off 5))) := by
  decide +kernel
theorem credit_off7_5 (c : Dev nD) (h) : (((Memref.whole cc0_scratch3 : Memref sig .tc .vmem S16x32x1024 .f32).slice (Rect.unit (s := S16x32x1024) (k0_off7 c 5#32) S1x32x1024.size (k0_off7_inb c 4)) h).squeeze S32x1024 squeezes_S1x32x1024_S32x1024).view.dmaCredit = N := by
  first | rfl | (simp [View.dmaCredit]; done)
theorem sem_off6_6 : ∀ c : Dev nD, ((SemArray.slice cc0_scratch7 (Rect.unit (s := S16) (k0_off6 c 11#32) S1.size (k0_off6_inb c 10))).squeeze S_ squeezes_S1_S_).sem = p2rS (pairOf (src c (off 6))) := by
  decide +kernel
theorem credit_off7_6 (c : Dev nD) (h) : (((Memref.whole cc0_scratch3 : Memref sig .tc .vmem S16x32x1024 .f32).slice (Rect.unit (s := S16x32x1024) (k0_off7 c 11#32) S1x32x1024.size (k0_off7_inb c 10)) h).squeeze S32x1024 squeezes_S1x32x1024_S32x1024).view.dmaCredit = N := by
  first | rfl | (simp [View.dmaCredit]; done)
theorem sem_off6_7 : ∀ c : Dev nD, ((SemArray.slice cc0_scratch7 (Rect.unit (s := S16) (k0_off6 c 4#32) S1.size (k0_off6_inb c 3))).squeeze S_ squeezes_S1_S_).sem = p2rS (pairOf (src c (off 7))) := by
  decide +kernel
theorem credit_off7_7 (c : Dev nD) (h) : (((Memref.whole cc0_scratch3 : Memref sig .tc .vmem S16x32x1024 .f32).slice (Rect.unit (s := S16x32x1024) (k0_off7 c 4#32) S1x32x1024.size (k0_off7_inb c 3)) h).squeeze S32x1024 squeezes_S1x32x1024_S32x1024).view.dmaCredit = N := by
  first | rfl | (simp [View.dmaCredit]; done)
theorem sem_off6_8 : ∀ c : Dev nD, ((SemArray.slice cc0_scratch7 (Rect.unit (s := S16) (k0_off6 c 12#32) S1.size (k0_off6_inb c 11))).squeeze S_ squeezes_S1_S_).sem = p2rS (pairOf (src c (off 8))) := by
  decide +kernel
theorem credit_off7_8 (c : Dev nD) (h) : (((Memref.whole cc0_scratch3 : Memref sig .tc .vmem S16x32x1024 .f32).slice (Rect.unit (s := S16x32x1024) (k0_off7 c 12#32) S1x32x1024.size (k0_off7_inb c 11)) h).squeeze S32x1024 squeezes_S1x32x1024_S32x1024).view.dmaCredit = N := by
  first | rfl | (simp [View.dmaCredit]; done)
theorem sem_off6_9 : ∀ c : Dev nD, ((SemArray.slice cc0_scratch7 (Rect.unit (s := S16) (k0_off6 c 3#32) S1.size (k0_off6_inb c 2))).squeeze S_ squeezes_S1_S_).sem = p2rS (pairOf (src c (off 9))) := by
  decide +kernel
theorem credit_off7_9 (c : Dev nD) (h) : (((Memref.whole cc0_scratch3 : Memref sig .tc .vmem S16x32x1024 .f32).slice (Rect.unit (s := S16x32x1024) (k0_off7 c 3#32) S1x32x1024.size (k0_off7_inb c 2)) h).squeeze S32x1024 squeezes_S1x32x1024_S32x1024).view.dmaCredit = N := by
  first | rfl | (simp [View.dmaCredit]; done)
theorem sem_off6_10 : ∀ c : Dev nD, ((SemArray.slice cc0_scratch7 (Rect.unit (s := S16) (k0_off6 c 13#32) S1.size (k0_off6_inb c 12))).squeeze S_ squeezes_S1_S_).sem = p2rS (pairOf (src c (off 10))) := by
  decide +kernel
theorem credit_off7_10 (c : Dev nD) (h) : (((Memref.whole cc0_scratch3 : Memref sig .tc .vmem S16x32x1024 .f32).slice (Rect.unit (s := S16x32x1024) (k0_off7 c 13#32) S1x32x1024.size (k0_off7_inb c 12)) h).squeeze S32x1024 squeezes_S1x32x1024_S32x1024).view.dmaCredit = N := by
  first | rfl | (simp [View.dmaCredit]; done)
theorem sem_off6_11 : ∀ c : Dev nD, ((SemArray.slice cc0_scratch7 (Rect.unit (s := S16) (k0_off6 c 2#32) S1.size (k0_off6_inb c 1))).squeeze S_ squeezes_S1_S_).sem = p2rS (pairOf (src c (off 11))) := by
  decide +kernel
theorem credit_off7_11 (c : Dev nD) (h) : (((Memref.whole cc0_scratch3 : Memref sig .tc .vmem S16x32x1024 .f32).slice (Rect.unit (s := S16x32x1024) (k0_off7 c 2#32) S1x32x1024.size (k0_off7_inb c 1)) h).squeeze S32x1024 squeezes_S1x32x1024_S32x1024).view.dmaCredit = N := by
  first | rfl | (simp [View.dmaCredit]; done)
theorem sem_off6_12 : ∀ c : Dev nD, ((SemArray.slice cc0_scratch7 (Rect.unit (s := S16) (k0_off6 c 14#32) S1.size (k0_off6_inb c 13))).squeeze S_ squeezes_S1_S_).sem = p2rS (pairOf (src c (off 12))) := by
  decide +kernel
theorem credit_off7_12 (c : Dev nD) (h) : (((Memref.whole cc0_scratch3 : Memref sig .tc .vmem S16x32x1024 .f32).slice (Rect.unit (s := S16x32x1024) (k0_off7 c 14#32) S1x32x1024.size (k0_off7_inb c 13)) h).squeeze S32x1024 squeezes_S1x32x1024_S32x1024).view.dmaCredit = N := by
  first | rfl | (simp [View.dmaCredit]; done)
theorem sem_off6_13 : ∀ c : Dev nD, ((SemArray.slice cc0_scratch7 (Rect.unit (s := S16) (k0_off6 c 1#32) S1.size (k0_off6_inb c 0))).squeeze S_ squeezes_S1_S_).sem = p2rS (pairOf (src c (off 13))) := by
  decide +kernel
theorem credit_off7_13 (c : Dev nD) (h) : (((Memref.whole cc0_scratch3 : Memref sig .tc .vmem S16x32x1024 .f32).slice (Rect.unit (s := S16x32x1024) (k0_off7 c 1#32) S1x32x1024.size (k0_off7_inb c 0)) h).squeeze S32x1024 squeezes_S1x32x1024_S32x1024).view.dmaCredit = N := by
  first | rfl | (simp [View.dmaCredit]; done)
theorem sem_off6_14 : ∀ c : Dev nD, ((SemArray.slice cc0_scratch7 (Rect.unit (s := S16) (k0_off6 c 15#32) S1.size (k0_off6_inb c 14))).squeeze S_ squeezes_S1_S_).sem = p2rS (pairOf (src c (off 14))) := by
  decide +kernel
theorem credit_off7_14 (c : Dev nD) (h) : (((Memref.whole cc0_scratch3 : Memref sig .tc .vmem S16x32x1024 .f32).slice (Rect.unit (s := S16x32x1024) (k0_off7 c 15#32) S1x32x1024.size (k0_off7_inb c 14)) h).squeeze S32x1024 squeezes_S1x32x1024_S32x1024).view.dmaCredit = N := by
  first | rfl | (simp [View.dmaCredit]; done)

section
variable (W1 W2 : Dev nD → Dev nD → Vec F S1x32x1024 .f32) (c : Dev nD)

theorem rest_p2r_src (i : Fin 15) :
    bigSep ((rd (F := F) W1 W2).duties (dcell c (p2rS (pairOf (src c (off i))))) 0 \ ∅) (fun d => (rd (F := F) W1 W2).payload (dcell c (p2rS (pairOf (src c (off i))))) 0 d)
      = holds c (slot16 gatherM (rr (src c (off i)).val) (rr_lt (src c (off i)))) (W2 (src c (off i)) c) := by
  rw [Finset.sdiff_empty, duties_p2r_src, bigSep_singleton, payload_p2r_src]

end

theorem offA_castSucc : ∀ k : Fin 15, offA (Fin.castSucc k) = off k := by decide

section
variable (m : (ℓ : Loc nD τ sig) → Buf (Elt F) ℓ)

/-- The sum device `c` sends its peer `off k` further on: its own product for that peer's rows plus its partner's. -/
theorem pair_val (c : Dev nD) (k : Fin 15) (off2 : Fin 2 → ℕ) (hoff : off2 = ![32 * (peer c (off k)).val, 0]) (inb : ∀ a, off2 a + S32x32.size a ≤ S1024x32.size a) :
    up (addf (part (View.readAt (Elt F) (Memref.whole cc0_stg0_0 : Memref sig .tc .vmem S1024x32 .f32).view (Rect.unit (s := S1024x32) off2 S32x32.size inb).toLoadRect (xstg m c))
          (View.readAt (Elt F) (Memref.whole cc0_stg1_0 : Memref sig .tc .vmem S32x1024 .f32).view (Rect.unit (s := S32x1024) ![0, 0] S32x1024.size inb_S32x1024_S32x1024_0_0).toLoadRect (wstg m c)))
        (down (W1 m (nbr c) (peer c (offA (Fin.castSucc k))))))
      = W2 m c (peer c (off k)) := by
  subst hoff
  have e : View.readAt (Elt F) (Memref.whole cc0_stg1_0 : Memref sig .tc .vmem S32x1024 .f32).view (Rect.unit (s := S32x1024) ![0, 0] S32x1024.size inb_S32x1024_S32x1024_0_0).toLoadRect (wstg m c) = wstg m c :=
    Memref.readAt_unit_zero (Elt F) cc0_stg1_0 (funext fun a => by fin_cases a <;> rfl) _ (wstg m c)
  rw [xrows_eq_readAt_stg (xstg m c) (peer c (off k)).val (peer c (off k)).isLt inb, e, offA_castSucc]
  have h3 := xsOf_val m (nbr c)
  have h4 := wsOf_val m (nbr c)
  rw [nbr_val] at h3 h4
  unfold W2 W1 pair pp
  rw [xsOf_val m (nbr c), wsOf_val m (nbr c), xsOf_val m c, wsOf_val m c, h3, h4]

end

theorem used_p2r_src' : ∀ (c : Dev nD) (i : Fin 15), used c (p2rS (pairOf (src c (off i)))) := by decide
theorem not_used_own (c : Dev nD) : ¬ used c (p2rS (pairOf c)) := fun h => h.2 rfl

/-! ## The result buffer -/

/-- The last store through the whole of the result's staging buffer decides what it holds. -/
theorem out_writes (c : Dev nD) (fo : Buf (Elt F) ((Memref.whole cc0_stg2_0 : Memref sig .tc .vmem S32x1024 .f32).view.loc (c : Thread nD τ)))
    (P : Vec F S32x1024 .f32) (L : List (View.Piece (Elt F) S32x1024 .f32)) :
    (Memref.whole cc0_stg2_0 : Memref sig .tc .vmem S32x1024 .f32).view.writes (Elt F) fo
        ((⟨Rect.unit (s := S32x1024) ![0, 0] S32x1024.size inb_S32x1024_S32x1024_0_0, P⟩ : View.Piece (Elt F) S32x1024 .f32) :: L) = P := by
  have hz : (![0, 0] : Fin 2 → ℕ) = fun _ => 0 := funext fun a => by fin_cases a <;> rfl
  have h1 := View.read_writes_eq_canon (Val := Elt F) (Memref.whole cc0_stg2_0 : Memref sig .tc .vmem S32x1024 .f32).view fo
    ((⟨Rect.unit (s := S32x1024) ![0, 0] S32x1024.size inb_S32x1024_S32x1024_0_0, P⟩ : View.Piece (Elt F) S32x1024 .f32) :: L)
    (fun y => ⟨_, List.mem_cons_self .., View.mem_set_unit_zero hz inb_S32x1024_S32x1024_0_0 y⟩)
  have h2 := View.canon_cons_unit_zero (Val := Elt F) hz inb_S32x1024_S32x1024_0_0 P L
  have h3 : (Memref.whole cc0_stg2_0 : Memref sig .tc .vmem S32x1024 .f32).view.read (Elt F)
      ((Memref.whole cc0_stg2_0 : Memref sig .tc .vmem S32x1024 .f32).view.writes (Elt F) fo
        ((⟨Rect.unit (s := S32x1024) ![0, 0] S32x1024.size inb_S32x1024_S32x1024_0_0, P⟩ : View.Piece (Elt F) S32x1024 .f32) :: L))
      = (Memref.whole cc0_stg2_0 : Memref sig .tc .vmem S32x1024 .f32).view.writes (Elt F) fo
        ((⟨Rect.unit (s := S32x1024) ![0, 0] S32x1024.size inb_S32x1024_S32x1024_0_0, P⟩ : View.Piece (Elt F) S32x1024 .f32) :: L) := View.read_whole _ _
  exact h3.symm.trans (h1.trans h2)

section
variable (m : (ℓ : Loc nD τ sig) → Buf (Elt F) ℓ)

theorem srcN_val (c : Dev nD) (i : Fin 15) : (src c (off i)).val = srcN c.val (offs i) := rfl

/-- The first value of the result: the product of the device's own rows with its `w` block plus its partner's. -/
theorem out0_val (c : Dev nD) (inb : ∀ a, (k0_off5 c) a + S32x32.size a ≤ S1024x32.size a) :
    addf (part (View.readAt (Elt F) (Memref.whole cc0_stg0_0 : Memref sig .tc .vmem S1024x32 .f32).view (Rect.unit (s := S1024x32) (k0_off5 c) S32x32.size inb).toLoadRect (xstg m c))
          (View.readAt (Elt F) (Memref.whole cc0_stg1_0 : Memref sig .tc .vmem S32x1024 .f32).view (Rect.unit (s := S32x1024) ![0, 0] S32x1024.size inb_S32x1024_S32x1024_0_0).toLoadRect (wstg m c)))
        (down (W1 m (nbr c) (peer c (offA 15))))
      = outN (xsOf m) (wsOf m) c.val 0 := by
  have key : ∀ (off5 : Fin 2 → ℕ) (e5 : off5 = ![32 * c.val, 0]) (inb : ∀ a, off5 a + S32x32.size a ≤ S1024x32.size a),
      addf (part (View.readAt (Elt F) (Memref.whole cc0_stg0_0 : Memref sig .tc .vmem S1024x32 .f32).view (Rect.unit (s := S1024x32) off5 S32x32.size inb).toLoadRect (xstg m c))
          (View.readAt (Elt F) (Memref.whole cc0_stg1_0 : Memref sig .tc .vmem S32x1024 .f32).view (Rect.unit (s := S32x1024) ![0, 0] S32x1024.size inb_S32x1024_S32x1024_0_0).toLoadRect (wstg m c)))
        (down (W1 m (nbr c) (peer c (offA 15))))
      = outN (xsOf m) (wsOf m) c.val 0 := by
    intro off5 e5 inb
    subst e5
    have e : View.readAt (Elt F) (Memref.whole cc0_stg1_0 : Memref sig .tc .vmem S32x1024 .f32).view (Rect.unit (s := S32x1024) ![0, 0] S32x1024.size inb_S32x1024_S32x1024_0_0).toLoadRect (wstg m c) = wstg m c :=
      Memref.readAt_unit_zero (Elt F) cc0_stg1_0 (funext fun a => by fin_cases a <;> rfl) _ (wstg m c)
    have h3 := xsOf_val m (nbr c)
    have h4 := wsOf_val m (nbr c)
    rw [nbr_val] at h3 h4
    rw [xrows_eq_readAt_stg (xstg m c) c.val c.isLt inb, e, peer_full, outN_zero]
    unfold W1 pp
    rw [xsOf_val m (nbr c), wsOf_val m (nbr c), xsOf_val m c, wsOf_val m c, h3, h4]
  exact key _ (k0_off5_eq c) inb

/-- Adding the sum of the device `off i` pairs back. -/
theorem outS_val (c : Dev nD) (i : Fin 15) (prev : Vec F S32x1024 .f32) (hprev : prev = outN (xsOf m) (wsOf m) c.val i.val) :
    addf (same prev) (down (W2 m (src c (off i)) c)) = outN (xsOf m) (wsOf m) c.val (i.val + 1) := by
  subst hprev
  rw [outN_succ]
  unfold W2
  rfl

end

/-! ## The result's history: sixteen stores through the whole buffer, each but the first adding to what the last left -/

abbrev outRect : Rect S32x1024 := Rect.unit (s := S32x1024) ![0, 0] S32x1024.size inb_S32x1024_S32x1024_0_0

/-- The newest store of the history `L` wrote `P`. -/
def HeadIs (P : Vec F S32x1024 .f32) (L : List (View.Piece (Elt F) S32x1024 .f32)) : Prop :=
  ∃ L', L = (⟨outRect, P⟩ : View.Piece (Elt F) S32x1024 .f32) :: L'

theorem headIs_base (P Q : Vec F S32x1024 .f32) (L' : List (View.Piece (Elt F) S32x1024 .f32)) (h : P = Q) :
    HeadIs Q ((⟨outRect, P⟩ : View.Piece (Elt F) S32x1024 .f32) :: L') := ⟨L', by rw [h]⟩

theorem readCov_head (P : Vec F S32x1024 .f32) (L : List (View.Piece (Elt F) S32x1024 .f32)) (h : HeadIs P L) :
    (Memref.whole cc0_stg2_0 : Memref sig .tc .vmem S32x1024 .f32).view.readCov L outRect.toLoadRect = P := by
  obtain ⟨L', rfl⟩ := h
  have hz : (![0, 0] : Fin 2 → ℕ) = fun _ => 0 := funext fun a => by fin_cases a <;> rfl
  rw [View.readCov_eq_canon_ld _ _ _ (fun y => ⟨_, List.mem_cons_self .., View.mem_set_unit_zero hz inb_S32x1024_S32x1024_0_0 _⟩)]
  have h2 := View.canon_cons_unit_zero (Val := Elt F) hz inb_S32x1024_S32x1024_0_0 P L'
  exact (congrArg (fun X => View.ld X outRect) h2).trans (View.ld_unit_zero hz inb_S32x1024_S32x1024_0_0 P)

theorem out_of_head (c : Dev nD) (fo : Buf (Elt F) ((Memref.whole cc0_stg2_0 : Memref sig .tc .vmem S32x1024 .f32).view.loc (c : Thread nD τ))) (P : Vec F S32x1024 .f32)
    (L : List (View.Piece (Elt F) S32x1024 .f32)) (h : HeadIs P L) : (Memref.whole cc0_stg2_0 : Memref sig .tc .vmem S32x1024 .f32).view.writes (Elt F) fo L = P := by
  obtain ⟨L', rfl⟩ := h; exact out_writes c fo P L'

section
variable (m : (ℓ : Loc nD τ sig) → Buf (Elt F) ℓ)

theorem headIs_step (c : Dev nD) (i : Fin 15) (L : List (View.Piece (Elt F) S32x1024 .f32)) (gv : Vec F S1x32x1024 .f32)
    (hg : gv = W2 m (src c (off i)) c) (h : HeadIs (outN (xsOf m) (wsOf m) c.val i.val) L) :
    HeadIs (outN (xsOf m) (wsOf m) c.val (i.val + 1))
      ((⟨outRect, addf (same ((Memref.whole cc0_stg2_0 : Memref sig .tc .vmem S32x1024 .f32).view.readCov L outRect.toLoadRect)) (down gv)⟩ : View.Piece (Elt F) S32x1024 .f32) :: L) :=
  ⟨L, by rw [readCov_head _ _ h, hg, outS_val m c i _ rfl]⟩

/-- A load of the slot the device `off i` pairs back wrote, through the receive buffer at the printed offset. -/
theorem gather_read (c : Dev nD) (i : Fin 15) (off8 : Fin 3 → ℕ) (h8 : off8 = ![rr (src c (off i)).val, 0, 0])
    (inb : ∀ a, off8 a + S1x32x1024.size a ≤ S16x32x1024.size a) (V : Vec F S1x32x1024 .f32) :
    View.readAt (Elt F) gatherM.view (Rect.unit (s := S16x32x1024) off8 S1x32x1024.size inb).toLoadRect
        (put c (slot16 gatherM (rr (src c (off i)).val) (rr_lt (src c (off i)))) V) = V := by
  subst h8; exact read_put c _ V

end

end Cert.Kernel.Proto

end
-- ==== Proof.JoinsK.lean ====
/-
  The scratch buffers and their slots: a buffer held whole is its slots held one by one, and back;
  the cells of the scratch semaphores closed once their one round is consumed.
-/
import proofs.«900440_g7700000000000441_dist_gemm_rs_m1024_k1024_n1024_f32_none_v7x_i32_1_alg».proof.Proof.BodyStmtK

set_option maxRecDepth 16384

noncomputable section

namespace Cert.Kernel.Proto

open Cert.Kernel Cert.Kernel.Gen Cert.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ### The slots of `stageM` -/

theorem mem_slot_stage (k : ℕ) (hk : k < 16) (i : (cc0_scratch0 : Ref sig .tc).ty.shape.Idx) :
    i ∈ (slot16 stageM k hk).view.set ↔ (i 0).val = k := by
  show i ∈ ((View.whole cc0_scratch0).slice (Rect.unit (s := S16x32x1024) ![k, 0, 0] S1x32x1024.size (slot_inb16 ⟨k, hk⟩))).set ↔ _
  rw [View.set_slice_whole, Rect.mem_set_unit]
  have e0 : S1x32x1024.size 0 = 1 := rfl
  have e1 : S1x32x1024.size 1 = 32 := rfl
  have e2 : S1x32x1024.size 2 = 1024 := rfl
  have v0 : (![k, 0, 0] : Fin 3 → ℕ) 0 = k := rfl
  have v1 : (![k, 0, 0] : Fin 3 → ℕ) 1 = 0 := rfl
  have v2 : (![k, 0, 0] : Fin 3 → ℕ) 2 = 0 := rfl
  have l1 : (i 1).val < 32 := (i 1).isLt
  have l2 : (i 2).val < 1024 := (i 2).isLt
  constructor
  · intro h
    have h0 : (![k, 0, 0] : Fin 3 → ℕ) 0 ≤ (i 0).val ∧ (i 0).val < (![k, 0, 0] : Fin 3 → ℕ) 0 + S1x32x1024.size 0 := h 0
    omega
  · intro h a
    rcases a with ⟨_ | _ | _ | a, ha⟩
    · show (![k, 0, 0] : Fin 3 → ℕ) 0 ≤ (i 0).val ∧ (i 0).val < (![k, 0, 0] : Fin 3 → ℕ) 0 + S1x32x1024.size 0
      omega
    · show (![k, 0, 0] : Fin 3 → ℕ) 1 ≤ (i 1).val ∧ (i 1).val < (![k, 0, 0] : Fin 3 → ℕ) 1 + S1x32x1024.size 1
      omega
    · show (![k, 0, 0] : Fin 3 → ℕ) 2 ≤ (i 2).val ∧ (i 2).val < (![k, 0, 0] : Fin 3 → ℕ) 2 + S1x32x1024.size 2
      omega
    · exact absurd ha (by show ¬ (a + 3 < 3); omega)

/-- The elements of slot `k`. -/
abbrev slotSet_stage (k : Fin 16) : Finset (cc0_scratch0 : Ref sig .tc).ty.shape.Idx := (slot16 stageM k.val k.isLt).view.set

theorem slots_disjoint_stage (k k' : Fin 16) (h : k ≠ k') : Disjoint (slotSet_stage k) (slotSet_stage k') :=
  Finset.disjoint_left.mpr fun i hi hi' => h (Fin.ext (((mem_slot_stage k.val k.isLt i).mp hi).symm.trans ((mem_slot_stage k'.val k'.isLt i).mp hi')))

theorem slots_cover_stage : (Finset.univ : Finset (Fin 16)).biUnion (fun k => slotSet_stage k) = Finset.univ := by
  ext i
  simp only [Finset.mem_biUnion, Finset.mem_univ, true_and, iff_true]
  have hlt : (i 0).val < 16 := (i 0).isLt
  exact ⟨⟨(i 0).val, hlt⟩, (mem_slot_stage (i 0).val hlt i).mpr rfl⟩

/-- The buffer held whole is its slots held one by one, at the same contents. -/
theorem cut_stage (c : Dev nD) (f : Buf (Elt F) ((c : Thread nD τ).loc cc0_scratch0)) :
    (((c : Thread nD τ).loc cc0_scratch0) ↦{fullShare} f : sProp 𝕄)
      = bigSep Finset.univ fun k : Fin 16 => (((c : Thread nD τ).loc cc0_scratch0) ↦[slotSet_stage k]{fullShare} f) := by
  rw [← pointsTo_biUnion (ℓ := (c : Thread nD τ).loc cc0_scratch0) (q := fullShare) (f := f) (Finset.univ : Finset (Fin 16)) (fun k => slotSet_stage k)
    (fun k _ k' _ h => slots_disjoint_stage k k' h), slots_cover_stage]

/-- The slots held one by one at any contents make the buffer held whole at some contents. -/
theorem joinS_stage (c : Dev nD) (g : Fin 16 → Buf (Elt F) ((c : Thread nD τ).loc cc0_scratch0)) :
    (bigSep Finset.univ fun k : Fin 16 => (((c : Thread nD τ).loc cc0_scratch0) ↦[slotSet_stage k]{fullShare} g k : sProp 𝕄))
      ⊢ iprop(∃ f, ((c : Thread nD τ).loc cc0_scratch0) ↦{fullShare} f) := by
  refine (pointsTo_biUnion_join (ℓ := (c : Thread nD τ).loc cc0_scratch0) (q := fullShare) (Finset.univ : Finset (Fin 16)) (fun k => slotSet_stage k) g (g 0)
    (fun k _ k' _ h => slots_disjoint_stage k k' h)).trans ?_
  rw [slots_cover_stage]
  iintro ⟨%f, -, H⟩
  iexists f; iexact H

/-! ### The slots of `inboxM` -/

theorem mem_slot_inbox (k : ℕ) (hk : k < 16) (i : (cc0_scratch1 : Ref sig .tc).ty.shape.Idx) :
    i ∈ (slot16 inboxM k hk).view.set ↔ (i 0).val = k := by
  show i ∈ ((View.whole cc0_scratch1).slice (Rect.unit (s := S16x32x1024) ![k, 0, 0] S1x32x1024.size (slot_inb16 ⟨k, hk⟩))).set ↔ _
  rw [View.set_slice_whole, Rect.mem_set_unit]
  have e0 : S1x32x1024.size 0 = 1 := rfl
  have e1 : S1x32x1024.size 1 = 32 := rfl
  have e2 : S1x32x1024.size 2 = 1024 := rfl
  have v0 : (![k, 0, 0] : Fin 3 → ℕ) 0 = k := rfl
  have v1 : (![k, 0, 0] : Fin 3 → ℕ) 1 = 0 := rfl
  have v2 : (![k, 0, 0] : Fin 3 → ℕ) 2 = 0 := rfl
  have l1 : (i 1).val < 32 := (i 1).isLt
  have l2 : (i 2).val < 1024 := (i 2).isLt
  constructor
  · intro h
    have h0 : (![k, 0, 0] : Fin 3 → ℕ) 0 ≤ (i 0).val ∧ (i 0).val < (![k, 0, 0] : Fin 3 → ℕ) 0 + S1x32x1024.size 0 := h 0
    omega
  · intro h a
    rcases a with ⟨_ | _ | _ | a, ha⟩
    · show (![k, 0, 0] : Fin 3 → ℕ) 0 ≤ (i 0).val ∧ (i 0).val < (![k, 0, 0] : Fin 3 → ℕ) 0 + S1x32x1024.size 0
      omega
    · show (![k, 0, 0] : Fin 3 → ℕ) 1 ≤ (i 1).val ∧ (i 1).val < (![k, 0, 0] : Fin 3 → ℕ) 1 + S1x32x1024.size 1
      omega
    · show (![k, 0, 0] : Fin 3 → ℕ) 2 ≤ (i 2).val ∧ (i 2).val < (![k, 0, 0] : Fin 3 → ℕ) 2 + S1x32x1024.size 2
      omega
    · exact absurd ha (by show ¬ (a + 3 < 3); omega)

/-- The elements of slot `k`. -/
abbrev slotSet_inbox (k : Fin 16) : Finset (cc0_scratch1 : Ref sig .tc).ty.shape.Idx := (slot16 inboxM k.val k.isLt).view.set

theorem slots_disjoint_inbox (k k' : Fin 16) (h : k ≠ k') : Disjoint (slotSet_inbox k) (slotSet_inbox k') :=
  Finset.disjoint_left.mpr fun i hi hi' => h (Fin.ext (((mem_slot_inbox k.val k.isLt i).mp hi).symm.trans ((mem_slot_inbox k'.val k'.isLt i).mp hi')))

theorem slots_cover_inbox : (Finset.univ : Finset (Fin 16)).biUnion (fun k => slotSet_inbox k) = Finset.univ := by
  ext i
  simp only [Finset.mem_biUnion, Finset.mem_univ, true_and, iff_true]
  have hlt : (i 0).val < 16 := (i 0).isLt
  exact ⟨⟨(i 0).val, hlt⟩, (mem_slot_inbox (i 0).val hlt i).mpr rfl⟩

/-- The buffer held whole is its slots held one by one, at the same contents. -/
theorem cut_inbox (c : Dev nD) (f : Buf (Elt F) ((c : Thread nD τ).loc cc0_scratch1)) :
    (((c : Thread nD τ).loc cc0_scratch1) ↦{fullShare} f : sProp 𝕄)
      = bigSep Finset.univ fun k : Fin 16 => (((c : Thread nD τ).loc cc0_scratch1) ↦[slotSet_inbox k]{fullShare} f) := by
  rw [← pointsTo_biUnion (ℓ := (c : Thread nD τ).loc cc0_scratch1) (q := fullShare) (f := f) (Finset.univ : Finset (Fin 16)) (fun k => slotSet_inbox k)
    (fun k _ k' _ h => slots_disjoint_inbox k k' h), slots_cover_inbox]

/-- The slots held one by one at any contents make the buffer held whole at some contents. -/
theorem joinS_inbox (c : Dev nD) (g : Fin 16 → Buf (Elt F) ((c : Thread nD τ).loc cc0_scratch1)) :
    (bigSep Finset.univ fun k : Fin 16 => (((c : Thread nD τ).loc cc0_scratch1) ↦[slotSet_inbox k]{fullShare} g k : sProp 𝕄))
      ⊢ iprop(∃ f, ((c : Thread nD τ).loc cc0_scratch1) ↦{fullShare} f) := by
  refine (pointsTo_biUnion_join (ℓ := (c : Thread nD τ).loc cc0_scratch1) (q := fullShare) (Finset.univ : Finset (Fin 16)) (fun k => slotSet_inbox k) g (g 0)
    (fun k _ k' _ h => slots_disjoint_inbox k k' h)).trans ?_
  rw [slots_cover_inbox]
  iintro ⟨%f, -, H⟩
  iexists f; iexact H

/-! ### The slots of `outboxM` -/

theorem mem_slot_outbox (k : ℕ) (hk : k < 15) (i : (cc0_scratch2 : Ref sig .tc).ty.shape.Idx) :
    i ∈ (slot15 outboxM k hk).view.set ↔ (i 0).val = k := by
  show i ∈ ((View.whole cc0_scratch2).slice (Rect.unit (s := S15x32x1024) ![k, 0, 0] S1x32x1024.size (slot_inb15 ⟨k, hk⟩))).set ↔ _
  rw [View.set_slice_whole, Rect.mem_set_unit]
  have e0 : S1x32x1024.size 0 = 1 := rfl
  have e1 : S1x32x1024.size 1 = 32 := rfl
  have e2 : S1x32x1024.size 2 = 1024 := rfl
  have v0 : (![k, 0, 0] : Fin 3 → ℕ) 0 = k := rfl
  have v1 : (![k, 0, 0] : Fin 3 → ℕ) 1 = 0 := rfl
  have v2 : (![k, 0, 0] : Fin 3 → ℕ) 2 = 0 := rfl
  have l1 : (i 1).val < 32 := (i 1).isLt
  have l2 : (i 2).val < 1024 := (i 2).isLt
  constructor
  · intro h
    have h0 : (![k, 0, 0] : Fin 3 → ℕ) 0 ≤ (i 0).val ∧ (i 0).val < (![k, 0, 0] : Fin 3 → ℕ) 0 + S1x32x1024.size 0 := h 0
    omega
  · intro h a
    rcases a with ⟨_ | _ | _ | a, ha⟩
    · show (![k, 0, 0] : Fin 3 → ℕ) 0 ≤ (i 0).val ∧ (i 0).val < (![k, 0, 0] : Fin 3 → ℕ) 0 + S1x32x1024.size 0
      omega
    · show (![k, 0, 0] : Fin 3 → ℕ) 1 ≤ (i 1).val ∧ (i 1).val < (![k, 0, 0] : Fin 3 → ℕ) 1 + S1x32x1024.size 1
      omega
    · show (![k, 0, 0] : Fin 3 → ℕ) 2 ≤ (i 2).val ∧ (i 2).val < (![k, 0, 0] : Fin 3 → ℕ) 2 + S1x32x1024.size 2
      omega
    · exact absurd ha (by show ¬ (a + 3 < 3); omega)

/-- The elements of slot `k`. -/
abbrev slotSet_outbox (k : Fin 15) : Finset (cc0_scratch2 : Ref sig .tc).ty.shape.Idx := (slot15 outboxM k.val k.isLt).view.set

theorem slots_disjoint_outbox (k k' : Fin 15) (h : k ≠ k') : Disjoint (slotSet_outbox k) (slotSet_outbox k') :=
  Finset.disjoint_left.mpr fun i hi hi' => h (Fin.ext (((mem_slot_outbox k.val k.isLt i).mp hi).symm.trans ((mem_slot_outbox k'.val k'.isLt i).mp hi')))

theorem slots_cover_outbox : (Finset.univ : Finset (Fin 15)).biUnion (fun k => slotSet_outbox k) = Finset.univ := by
  ext i
  simp only [Finset.mem_biUnion, Finset.mem_univ, true_and, iff_true]
  have hlt : (i 0).val < 15 := (i 0).isLt
  exact ⟨⟨(i 0).val, hlt⟩, (mem_slot_outbox (i 0).val hlt i).mpr rfl⟩

/-- The buffer held whole is its slots held one by one, at the same contents. -/
theorem cut_outbox (c : Dev nD) (f : Buf (Elt F) ((c : Thread nD τ).loc cc0_scratch2)) :
    (((c : Thread nD τ).loc cc0_scratch2) ↦{fullShare} f : sProp 𝕄)
      = bigSep Finset.univ fun k : Fin 15 => (((c : Thread nD τ).loc cc0_scratch2) ↦[slotSet_outbox k]{fullShare} f) := by
  rw [← pointsTo_biUnion (ℓ := (c : Thread nD τ).loc cc0_scratch2) (q := fullShare) (f := f) (Finset.univ : Finset (Fin 15)) (fun k => slotSet_outbox k)
    (fun k _ k' _ h => slots_disjoint_outbox k k' h), slots_cover_outbox]

/-- The slots held one by one at any contents make the buffer held whole at some contents. -/
theorem joinS_outbox (c : Dev nD) (g : Fin 15 → Buf (Elt F) ((c : Thread nD τ).loc cc0_scratch2)) :
    (bigSep Finset.univ fun k : Fin 15 => (((c : Thread nD τ).loc cc0_scratch2) ↦[slotSet_outbox k]{fullShare} g k : sProp 𝕄))
      ⊢ iprop(∃ f, ((c : Thread nD τ).loc cc0_scratch2) ↦{fullShare} f) := by
  refine (pointsTo_biUnion_join (ℓ := (c : Thread nD τ).loc cc0_scratch2) (q := fullShare) (Finset.univ : Finset (Fin 15)) (fun k => slotSet_outbox k) g (g 0)
    (fun k _ k' _ h => slots_disjoint_outbox k k' h)).trans ?_
  rw [slots_cover_outbox]
  iintro ⟨%f, -, H⟩
  iexists f; iexact H

/-! ### The slots of `gatherM` -/

theorem mem_slot_gather (k : ℕ) (hk : k < 16) (i : (cc0_scratch3 : Ref sig .tc).ty.shape.Idx) :
    i ∈ (slot16 gatherM k hk).view.set ↔ (i 0).val = k := by
  show i ∈ ((View.whole cc0_scratch3).slice (Rect.unit (s := S16x32x1024) ![k, 0, 0] S1x32x1024.size (slot_inb16 ⟨k, hk⟩))).set ↔ _
  rw [View.set_slice_whole, Rect.mem_set_unit]
  have e0 : S1x32x1024.size 0 = 1 := rfl
  have e1 : S1x32x1024.size 1 = 32 := rfl
  have e2 : S1x32x1024.size 2 = 1024 := rfl
  have v0 : (![k, 0, 0] : Fin 3 → ℕ) 0 = k := rfl
  have v1 : (![k, 0, 0] : Fin 3 → ℕ) 1 = 0 := rfl
  have v2 : (![k, 0, 0] : Fin 3 → ℕ) 2 = 0 := rfl
  have l1 : (i 1).val < 32 := (i 1).isLt
  have l2 : (i 2).val < 1024 := (i 2).isLt
  constructor
  · intro h
    have h0 : (![k, 0, 0] : Fin 3 → ℕ) 0 ≤ (i 0).val ∧ (i 0).val < (![k, 0, 0] : Fin 3 → ℕ) 0 + S1x32x1024.size 0 := h 0
    omega
  · intro h a
    rcases a with ⟨_ | _ | _ | a, ha⟩
    · show (![k, 0, 0] : Fin 3 → ℕ) 0 ≤ (i 0).val ∧ (i 0).val < (![k, 0, 0] : Fin 3 → ℕ) 0 + S1x32x1024.size 0
      omega
    · show (![k, 0, 0] : Fin 3 → ℕ) 1 ≤ (i 1).val ∧ (i 1).val < (![k, 0, 0] : Fin 3 → ℕ) 1 + S1x32x1024.size 1
      omega
    · show (![k, 0, 0] : Fin 3 → ℕ) 2 ≤ (i 2).val ∧ (i 2).val < (![k, 0, 0] : Fin 3 → ℕ) 2 + S1x32x1024.size 2
      omega
    · exact absurd ha (by show ¬ (a + 3 < 3); omega)

/-- The elements of slot `k`. -/
abbrev slotSet_gather (k : Fin 16) : Finset (cc0_scratch3 : Ref sig .tc).ty.shape.Idx := (slot16 gatherM k.val k.isLt).view.set

theorem slots_disjoint_gather (k k' : Fin 16) (h : k ≠ k') : Disjoint (slotSet_gather k) (slotSet_gather k') :=
  Finset.disjoint_left.mpr fun i hi hi' => h (Fin.ext (((mem_slot_gather k.val k.isLt i).mp hi).symm.trans ((mem_slot_gather k'.val k'.isLt i).mp hi')))

theorem slots_cover_gather : (Finset.univ : Finset (Fin 16)).biUnion (fun k => slotSet_gather k) = Finset.univ := by
  ext i
  simp only [Finset.mem_biUnion, Finset.mem_univ, true_and, iff_true]
  have hlt : (i 0).val < 16 := (i 0).isLt
  exact ⟨⟨(i 0).val, hlt⟩, (mem_slot_gather (i 0).val hlt i).mpr rfl⟩

/-- The buffer held whole is its slots held one by one, at the same contents. -/
theorem cut_gather (c : Dev nD) (f : Buf (Elt F) ((c : Thread nD τ).loc cc0_scratch3)) :
    (((c : Thread nD τ).loc cc0_scratch3) ↦{fullShare} f : sProp 𝕄)
      = bigSep Finset.univ fun k : Fin 16 => (((c : Thread nD τ).loc cc0_scratch3) ↦[slotSet_gather k]{fullShare} f) := by
  rw [← pointsTo_biUnion (ℓ := (c : Thread nD τ).loc cc0_scratch3) (q := fullShare) (f := f) (Finset.univ : Finset (Fin 16)) (fun k => slotSet_gather k)
    (fun k _ k' _ h => slots_disjoint_gather k k' h), slots_cover_gather]

/-- The slots held one by one at any contents make the buffer held whole at some contents. -/
theorem joinS_gather (c : Dev nD) (g : Fin 16 → Buf (Elt F) ((c : Thread nD τ).loc cc0_scratch3)) :
    (bigSep Finset.univ fun k : Fin 16 => (((c : Thread nD τ).loc cc0_scratch3) ↦[slotSet_gather k]{fullShare} g k : sProp 𝕄))
      ⊢ iprop(∃ f, ((c : Thread nD τ).loc cc0_scratch3) ↦{fullShare} f) := by
  refine (pointsTo_biUnion_join (ℓ := (c : Thread nD τ).loc cc0_scratch3) (q := fullShare) (Finset.univ : Finset (Fin 16)) (fun k => slotSet_gather k) g (g 0)
    (fun k _ k' _ h => slots_disjoint_gather k k' h)).trans ?_
  rw [slots_cover_gather]
  iintro ⟨%f, -, H⟩
  iexists f; iexact H

/-! ### The order in which a device waits for its second-phase receive cells -/

/-- The pairs whose devices pay the second-phase receive cells of `c`, in the order `c` waits for them, then its own. -/
def sg (c : Dev nD) (k : Fin 16) : Fin 16 := if h : k.val < 15 then pairOf (src c (off ⟨k.val, h⟩)) else pairOf c
theorem sg_injective : ∀ c : Dev nD, Function.Injective (sg c) := by decide +kernel
def sgE (c : Dev nD) : Fin 16 ≃ Fin 16 :=
  Equiv.ofBijective (sg c) ((Fintype.bijective_iff_injective_and_card _).mpr ⟨sg_injective c, rfl⟩)
theorem sg_cast (c : Dev nD) (i : Fin 15) : sg c i.castSucc = pairOf (src c (off i)) := by
  unfold sg; rw [dif_pos (show (i.castSucc : Fin 16).val < 15 from i.isLt)]; rfl

/-- The pairs of the devices `c` sends to in the second phase, in the order it sends, then its own. -/
def pg (c : Dev nD) (k : Fin 16) : Fin 16 := if h : k.val < 15 then pairOf (peer c (off ⟨k.val, h⟩)) else pairOf c
theorem pg_injective : ∀ c : Dev nD, Function.Injective (pg c) := by decide +kernel
def pgE (c : Dev nD) : Fin 16 ≃ Fin 16 :=
  Equiv.ofBijective (pg c) ((Fintype.bijective_iff_injective_and_card _).mpr ⟨pg_injective c, rfl⟩)

/-- The 16 slots of `stageM`, each at its own contents, rejoined. -/
theorem stage_join (c : Dev nD) (g : Fin 16 → Buf (Elt F) (stageM.view.loc (c : Thread nD τ))) :
    iprop(((slot16 stageM 0 (of_decide_eq_true rfl)).view.loc (c : Thread nD τ) ↦[(slot16 stageM 0 (of_decide_eq_true rfl)).view.set]{fullShare} g 0)
      ∗ ((slot16 stageM 1 (of_decide_eq_true rfl)).view.loc (c : Thread nD τ) ↦[(slot16 stageM 1 (of_decide_eq_true rfl)).view.set]{fullShare} g 1)
      ∗ ((slot16 stageM 2 (of_decide_eq_true rfl)).view.loc (c : Thread nD τ) ↦[(slot16 stageM 2 (of_decide_eq_true rfl)).view.set]{fullShare} g 2)
      ∗ ((slot16 stageM 3 (of_decide_eq_true rfl)).view.loc (c : Thread nD τ) ↦[(slot16 stageM 3 (of_decide_eq_true rfl)).view.set]{fullShare} g 3)
      ∗ ((slot16 stageM 4 (of_decide_eq_true rfl)).view.loc (c : Thread nD τ) ↦[(slot16 stageM 4 (of_decide_eq_true rfl)).view.set]{fullShare} g 4)
      ∗ ((slot16 stageM 5 (of_decide_eq_true rfl)).view.loc (c : Thread nD τ) ↦[(slot16 stageM 5 (of_decide_eq_true rfl)).view.set]{fullShare} g 5)
      ∗ ((slot16 stageM 6 (of_decide_eq_true rfl)).view.loc (c : Thread nD τ) ↦[(slot16 stageM 6 (of_decide_eq_true rfl)).view.set]{fullShare} g 6)
      ∗ ((slot16 stageM 7 (of_decide_eq_true rfl)).view.loc (c : Thread nD τ) ↦[(slot16 stageM 7 (of_decide_eq_true rfl)).view.set]{fullShare} g 7)
      ∗ ((slot16 stageM 8 (of_decide_eq_true rfl)).view.loc (c : Thread nD τ) ↦[(slot16 stageM 8 (of_decide_eq_true rfl)).view.set]{fullShare} g 8)
      ∗ ((slot16 stageM 9 (of_decide_eq_true rfl)).view.loc (c : Thread nD τ) ↦[(slot16 stageM 9 (of_decide_eq_true rfl)).view.set]{fullShare} g 9)
      ∗ ((slot16 stageM 10 (of_decide_eq_true rfl)).view.loc (c : Thread nD τ) ↦[(slot16 stageM 10 (of_decide_eq_true rfl)).view.set]{fullShare} g 10)
      ∗ ((slot16 stageM 11 (of_decide_eq_true rfl)).view.loc (c : Thread nD τ) ↦[(slot16 stageM 11 (of_decide_eq_true rfl)).view.set]{fullShare} g 11)
      ∗ ((slot16 stageM 12 (of_decide_eq_true rfl)).view.loc (c : Thread nD τ) ↦[(slot16 stageM 12 (of_decide_eq_true rfl)).view.set]{fullShare} g 12)
      ∗ ((slot16 stageM 13 (of_decide_eq_true rfl)).view.loc (c : Thread nD τ) ↦[(slot16 stageM 13 (of_decide_eq_true rfl)).view.set]{fullShare} g 13)
      ∗ ((slot16 stageM 14 (of_decide_eq_true rfl)).view.loc (c : Thread nD τ) ↦[(slot16 stageM 14 (of_decide_eq_true rfl)).view.set]{fullShare} g 14)
      ∗ ((slot16 stageM 15 (of_decide_eq_true rfl)).view.loc (c : Thread nD τ) ↦[(slot16 stageM 15 (of_decide_eq_true rfl)).view.set]{fullShare} g 15))
      ⊢ (iprop(∃ f, (stageM.view.loc (c : Thread nD τ) ↦[stageM.view.set]{fullShare} f)) : sProp 𝕄) := by
  have hset : (stageM.view.set : Finset (cc0_scratch0 : Ref sig .tc).ty.shape.Idx) = Finset.univ := View.set_whole _
  rw [hset]
  exact BI.Entails.trans (Entails.of_eq (bigSep_fin16 (F := F) (fun k : Fin 16 => (((c : Thread nD τ).loc cc0_scratch0) ↦[slotSet_stage k]{fullShare} g k : sProp 𝕄))).symm)
    (joinS_stage c g)

/-- The 16 slots of `inboxM`, each at its own contents, rejoined. -/
theorem inbox_join (c : Dev nD) (g : Fin 16 → Buf (Elt F) (inboxM.view.loc (c : Thread nD τ))) :
    iprop(((slot16 inboxM 0 (of_decide_eq_true rfl)).view.loc (c : Thread nD τ) ↦[(slot16 inboxM 0 (of_decide_eq_true rfl)).view.set]{fullShare} g 0)
      ∗ ((slot16 inboxM 1 (of_decide_eq_true rfl)).view.loc (c : Thread nD τ) ↦[(slot16 inboxM 1 (of_decide_eq_true rfl)).view.set]{fullShare} g 1)
      ∗ ((slot16 inboxM 2 (of_decide_eq_true rfl)).view.loc (c : Thread nD τ) ↦[(slot16 inboxM 2 (of_decide_eq_true rfl)).view.set]{fullShare} g 2)
      ∗ ((slot16 inboxM 3 (of_decide_eq_true rfl)).view.loc (c : Thread nD τ) ↦[(slot16 inboxM 3 (of_decide_eq_true rfl)).view.set]{fullShare} g 3)
      ∗ ((slot16 inboxM 4 (of_decide_eq_true rfl)).view.loc (c : Thread nD τ) ↦[(slot16 inboxM 4 (of_decide_eq_true rfl)).view.set]{fullShare} g 4)
      ∗ ((slot16 inboxM 5 (of_decide_eq_true rfl)).view.loc (c : Thread nD τ) ↦[(slot16 inboxM 5 (of_decide_eq_true rfl)).view.set]{fullShare} g 5)
      ∗ ((slot16 inboxM 6 (of_decide_eq_true rfl)).view.loc (c : Thread nD τ) ↦[(slot16 inboxM 6 (of_decide_eq_true rfl)).view.set]{fullShare} g 6)
      ∗ ((slot16 inboxM 7 (of_decide_eq_true rfl)).view.loc (c : Thread nD τ) ↦[(slot16 inboxM 7 (of_decide_eq_true rfl)).view.set]{fullShare} g 7)
      ∗ ((slot16 inboxM 8 (of_decide_eq_true rfl)).view.loc (c : Thread nD τ) ↦[(slot16 inboxM 8 (of_decide_eq_true rfl)).view.set]{fullShare} g 8)
      ∗ ((slot16 inboxM 9 (of_decide_eq_true rfl)).view.loc (c : Thread nD τ) ↦[(slot16 inboxM 9 (of_decide_eq_true rfl)).view.set]{fullShare} g 9)
      ∗ ((slot16 inboxM 10 (of_decide_eq_true rfl)).view.loc (c : Thread nD τ) ↦[(slot16 inboxM 10 (of_decide_eq_true rfl)).view.set]{fullShare} g 10)
      ∗ ((slot16 inboxM 11 (of_decide_eq_true rfl)).view.loc (c : Thread nD τ) ↦[(slot16 inboxM 11 (of_decide_eq_true rfl)).view.set]{fullShare} g 11)
      ∗ ((slot16 inboxM 12 (of_decide_eq_true rfl)).view.loc (c : Thread nD τ) ↦[(slot16 inboxM 12 (of_decide_eq_true rfl)).view.set]{fullShare} g 12)
      ∗ ((slot16 inboxM 13 (of_decide_eq_true rfl)).view.loc (c : Thread nD τ) ↦[(slot16 inboxM 13 (of_decide_eq_true rfl)).view.set]{fullShare} g 13)
      ∗ ((slot16 inboxM 14 (of_decide_eq_true rfl)).view.loc (c : Thread nD τ) ↦[(slot16 inboxM 14 (of_decide_eq_true rfl)).view.set]{fullShare} g 14)
      ∗ ((slot16 inboxM 15 (of_decide_eq_true rfl)).view.loc (c : Thread nD τ) ↦[(slot16 inboxM 15 (of_decide_eq_true rfl)).view.set]{fullShare} g 15))
      ⊢ (iprop(∃ f, (inboxM.view.loc (c : Thread nD τ) ↦[inboxM.view.set]{fullShare} f)) : sProp 𝕄) := by
  have hset : (inboxM.view.set : Finset (cc0_scratch1 : Ref sig .tc).ty.shape.Idx) = Finset.univ := View.set_whole _
  rw [hset]
  exact BI.Entails.trans (Entails.of_eq (bigSep_fin16 (F := F) (fun k : Fin 16 => (((c : Thread nD τ).loc cc0_scratch1) ↦[slotSet_inbox k]{fullShare} g k : sProp 𝕄))).symm)
    (joinS_inbox c g)

/-- The 15 slots of `outboxM`, each at its own contents, rejoined. -/
theorem outbox_join (c : Dev nD) (g : Fin 15 → Buf (Elt F) (outboxM.view.loc (c : Thread nD τ))) :
    iprop(((slot15 outboxM 0 (of_decide_eq_true rfl)).view.loc (c : Thread nD τ) ↦[(slot15 outboxM 0 (of_decide_eq_true rfl)).view.set]{fullShare} g 0)
      ∗ ((slot15 outboxM 1 (of_decide_eq_true rfl)).view.loc (c : Thread nD τ) ↦[(slot15 outboxM 1 (of_decide_eq_true rfl)).view.set]{fullShare} g 1)
      ∗ ((slot15 outboxM 2 (of_decide_eq_true rfl)).view.loc (c : Thread nD τ) ↦[(slot15 outboxM 2 (of_decide_eq_true rfl)).view.set]{fullShare} g 2)
      ∗ ((slot15 outboxM 3 (of_decide_eq_true rfl)).view.loc (c : Thread nD τ) ↦[(slot15 outboxM 3 (of_decide_eq_true rfl)).view.set]{fullShare} g 3)
      ∗ ((slot15 outboxM 4 (of_decide_eq_true rfl)).view.loc (c : Thread nD τ) ↦[(slot15 outboxM 4 (of_decide_eq_true rfl)).view.set]{fullShare} g 4)
      ∗ ((slot15 outboxM 5 (of_decide_eq_true rfl)).view.loc (c : Thread nD τ) ↦[(slot15 outboxM 5 (of_decide_eq_true rfl)).view.set]{fullShare} g 5)
      ∗ ((slot15 outboxM 6 (of_decide_eq_true rfl)).view.loc (c : Thread nD τ) ↦[(slot15 outboxM 6 (of_decide_eq_true rfl)).view.set]{fullShare} g 6)
      ∗ ((slot15 outboxM 7 (of_decide_eq_true rfl)).view.loc (c : Thread nD τ) ↦[(slot15 outboxM 7 (of_decide_eq_true rfl)).view.set]{fullShare} g 7)
      ∗ ((slot15 outboxM 8 (of_decide_eq_true rfl)).view.loc (c : Thread nD τ) ↦[(slot15 outboxM 8 (of_decide_eq_true rfl)).view.set]{fullShare} g 8)
      ∗ ((slot15 outboxM 9 (of_decide_eq_true rfl)).view.loc (c : Thread nD τ) ↦[(slot15 outboxM 9 (of_decide_eq_true rfl)).view.set]{fullShare} g 9)
      ∗ ((slot15 outboxM 10 (of_decide_eq_true rfl)).view.loc (c : Thread nD τ) ↦[(slot15 outboxM 10 (of_decide_eq_true rfl)).view.set]{fullShare} g 10)
      ∗ ((slot15 outboxM 11 (of_decide_eq_true rfl)).view.loc (c : Thread nD τ) ↦[(slot15 outboxM 11 (of_decide_eq_true rfl)).view.set]{fullShare} g 11)
      ∗ ((slot15 outboxM 12 (of_decide_eq_true rfl)).view.loc (c : Thread nD τ) ↦[(slot15 outboxM 12 (of_decide_eq_true rfl)).view.set]{fullShare} g 12)
      ∗ ((slot15 outboxM 13 (of_decide_eq_true rfl)).view.loc (c : Thread nD τ) ↦[(slot15 outboxM 13 (of_decide_eq_true rfl)).view.set]{fullShare} g 13)
      ∗ ((slot15 outboxM 14 (of_decide_eq_true rfl)).view.loc (c : Thread nD τ) ↦[(slot15 outboxM 14 (of_decide_eq_true rfl)).view.set]{fullShare} g 14))
      ⊢ (iprop(∃ f, (outboxM.view.loc (c : Thread nD τ) ↦[outboxM.view.set]{fullShare} f)) : sProp 𝕄) := by
  have hset : (outboxM.view.set : Finset (cc0_scratch2 : Ref sig .tc).ty.shape.Idx) = Finset.univ := View.set_whole _
  rw [hset]
  exact BI.Entails.trans (Entails.of_eq (bigSep_fin15 (F := F) (fun k : Fin 15 => (((c : Thread nD τ).loc cc0_scratch2) ↦[slotSet_outbox k]{fullShare} g k : sProp 𝕄))).symm)
    (joinS_outbox c g)

/-- The sixteen slots of `gatherM` in the order the device receives into them, then its own, rejoined. -/
theorem gather_join (c : Dev nD) (g : Fin 15 → Buf (Elt F) (gatherM.view.loc (c : Thread nD τ))) (g' : Buf (Elt F) (gatherM.view.loc (c : Thread nD τ))) :
    iprop(((slot16 gatherM (rr (src c (off 0)).val) (rr_lt (src c (off 0)))).view.loc (c : Thread nD τ) ↦[(slot16 gatherM (rr (src c (off 0)).val) (rr_lt (src c (off 0)))).view.set]{fullShare} g 0)
      ∗ ((slot16 gatherM (rr (src c (off 1)).val) (rr_lt (src c (off 1)))).view.loc (c : Thread nD τ) ↦[(slot16 gatherM (rr (src c (off 1)).val) (rr_lt (src c (off 1)))).view.set]{fullShare} g 1)
      ∗ ((slot16 gatherM (rr (src c (off 2)).val) (rr_lt (src c (off 2)))).view.loc (c : Thread nD τ) ↦[(slot16 gatherM (rr (src c (off 2)).val) (rr_lt (src c (off 2)))).view.set]{fullShare} g 2)
      ∗ ((slot16 gatherM (rr (src c (off 3)).val) (rr_lt (src c (off 3)))).view.loc (c : Thread nD τ) ↦[(slot16 gatherM (rr (src c (off 3)).val) (rr_lt (src c (off 3)))).view.set]{fullShare} g 3)
      ∗ ((slot16 gatherM (rr (src c (off 4)).val) (rr_lt (src c (off 4)))).view.loc (c : Thread nD τ) ↦[(slot16 gatherM (rr (src c (off 4)).val) (rr_lt (src c (off 4)))).view.set]{fullShare} g 4)
      ∗ ((slot16 gatherM (rr (src c (off 5)).val) (rr_lt (src c (off 5)))).view.loc (c : Thread nD τ) ↦[(slot16 gatherM (rr (src c (off 5)).val) (rr_lt (src c (off 5)))).view.set]{fullShare} g 5)
      ∗ ((slot16 gatherM (rr (src c (off 6)).val) (rr_lt (src c (off 6)))).view.loc (c : Thread nD τ) ↦[(slot16 gatherM (rr (src c (off 6)).val) (rr_lt (src c (off 6)))).view.set]{fullShare} g 6)
      ∗ ((slot16 gatherM (rr (src c (off 7)).val) (rr_lt (src c (off 7)))).view.loc (c : Thread nD τ) ↦[(slot16 gatherM (rr (src c (off 7)).val) (rr_lt (src c (off 7)))).view.set]{fullShare} g 7)
      ∗ ((slot16 gatherM (rr (src c (off 8)).val) (rr_lt (src c (off 8)))).view.loc (c : Thread nD τ) ↦[(slot16 gatherM (rr (src c (off 8)).val) (rr_lt (src c (off 8)))).view.set]{fullShare} g 8)
      ∗ ((slot16 gatherM (rr (src c (off 9)).val) (rr_lt (src c (off 9)))).view.loc (c : Thread nD τ) ↦[(slot16 gatherM (rr (src c (off 9)).val) (rr_lt (src c (off 9)))).view.set]{fullShare} g 9)
      ∗ ((slot16 gatherM (rr (src c (off 10)).val) (rr_lt (src c (off 10)))).view.loc (c : Thread nD τ) ↦[(slot16 gatherM (rr (src c (off 10)).val) (rr_lt (src c (off 10)))).view.set]{fullShare} g 10)
      ∗ ((slot16 gatherM (rr (src c (off 11)).val) (rr_lt (src c (off 11)))).view.loc (c : Thread nD τ) ↦[(slot16 gatherM (rr (src c (off 11)).val) (rr_lt (src c (off 11)))).view.set]{fullShare} g 11)
      ∗ ((slot16 gatherM (rr (src c (off 12)).val) (rr_lt (src c (off 12)))).view.loc (c : Thread nD τ) ↦[(slot16 gatherM (rr (src c (off 12)).val) (rr_lt (src c (off 12)))).view.set]{fullShare} g 12)
      ∗ ((slot16 gatherM (rr (src c (off 13)).val) (rr_lt (src c (off 13)))).view.loc (c : Thread nD τ) ↦[(slot16 gatherM (rr (src c (off 13)).val) (rr_lt (src c (off 13)))).view.set]{fullShare} g 13)
      ∗ ((slot16 gatherM (rr (src c (off 14)).val) (rr_lt (src c (off 14)))).view.loc (c : Thread nD τ) ↦[(slot16 gatherM (rr (src c (off 14)).val) (rr_lt (src c (off 14)))).view.set]{fullShare} g 14)
      ∗ ((slot16 gatherM (rr c.val) (rr_lt c)).view.loc (c : Thread nD τ) ↦[(slot16 gatherM (rr c.val) (rr_lt c)).view.set]{fullShare} g'))
      ⊢ (iprop(∃ f, (gatherM.view.loc (c : Thread nD τ) ↦[gatherM.view.set]{fullShare} f)) : sProp 𝕄) := by
  have hset : (gatherM.view.set : Finset (cc0_scratch3 : Ref sig .tc).ty.shape.Idx) = Finset.univ := View.set_whole _
  rw [hset]
  let h : Fin 16 → Buf (Elt F) ((c : Thread nD τ).loc cc0_scratch3) := fun k => if hk : k.val < 15 then g ⟨k.val, hk⟩ else g'
  have hjoin := joinS_gather c (fun ρ => h ((sgE c).symm ρ))
  rw [bigSep_univ_equiv (sgE c), bigSep_fin16] at hjoin
  simp only [Equiv.symm_apply_apply] at hjoin
  exact hjoin

/-! ### The cells closed -/

/-- A used scratch cell whose one round is consumed gives its counter back at zero. -/
theorem close_dma (m : (ℓ : Loc nD τ sig) → Buf (Elt F) ℓ) (κ : GSem nD τ sig → ℕ) (c : Dev nD) (q : DmaSem sig) (hq : used c q) :
    iprop(cellInv ER (rd (W1 m) (W2 m)) (κ (dcell c q)) (dcell c q) ∗ atPos ER (dcell c q) 1 ∅ 0) ⊢ |={Set.univ}=> semVal (dcell c q) 0 :=
  Rounds.cell_close ER (rd (W1 m) (W2 m)) (Set.mem_univ (κ (dcell c q))) (fun h => h) (R := 1) (duties_later (W1 m) (W2 m) (dcell c q))

/-- The scratch cell with no duty gives its counter back at zero as it stands. -/
theorem close_unused (m : (ℓ : Loc nD τ sig) → Buf (Elt F) ℓ) (κ : GSem nD τ sig → ℕ) (c : Dev nD) (q : DmaSem sig) (hq : ¬ used c q) :
    iprop(cellInv ER (rd (W1 m) (W2 m)) (κ (dcell c q)) (dcell c q) ∗ atPos ER (dcell c q) 0 ∅ 0) ⊢ |={Set.univ}=> semVal (dcell c q) 0 :=
  Rounds.cell_close ER (rd (W1 m) (W2 m)) (Set.mem_univ (κ (dcell c q))) (fun h => h) (R := 0) (fun r _ => duties_dma_unused (W1 m) (W2 m) c q hq r)

end Cert.Kernel.Proto

end
-- ==== Proof.BodyK.lean ====
/-
  The body's run on one device, from the start stated in BodyStmt to its end.

  The entry handshake (sixteen signals, one wait), the first phase (sixteen products staged and copied to the
  partner), the second phase (fifteen times: the partner's product received, added to the device's own, the
  sum copied to the peer that owns those rows), the result (the device's own rows: its product plus its
  partner's, then the fifteen sums received, added in the order of the offsets), the waits for the 31 copies'
  sources, and the 63 cells closed.
-/
import proofs.«900440_g7700000000000441_dist_gemm_rs_m1024_k1024_n1024_f32_none_v7x_i32_1_alg».proof.Proof.SendK
import proofs.«900440_g7700000000000441_dist_gemm_rs_m1024_k1024_n1024_f32_none_v7x_i32_1_alg».proof.Proof.JoinsK

set_option maxRecDepth 65536

noncomputable section

namespace Cert.Kernel.Proto

open Cert.Kernel Cert.Kernel.Gen Cert.Mesh Cert.Kernel.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

attribute [local irreducible] nbr peer src cross pairOf onSide off offA
attribute [local sl_rounds] duties_bar_list amount_bar expect_bar payload_bar_own1 payload_bar_own2 payload_bar_own3 payload_bar_own4 payload_bar_own5 payload_bar_own6 payload_bar_own7 payload_bar_own8 payload_bar_own9 payload_bar_own10 payload_bar_own11 payload_bar_own12 payload_bar_own13 payload_bar_own14 payload_bar_own15 payload_bar_own0 duties_p1s duties_p1r duties_p2s expect_p1s expect_p1r expect_p2s amount_dma payload_p1s0 payload_p1s1 payload_p1s2 payload_p1s3 payload_p1s4 payload_p1s5 payload_p1s6 payload_p1s7 payload_p1s8 payload_p1s9 payload_p1s10 payload_p1s11 payload_p1s12 payload_p1s13 payload_p1s14 payload_p1s15 payload_p1r0 payload_p1r1 payload_p1r2 payload_p1r3 payload_p1r4 payload_p1r5 payload_p1r6 payload_p1r7 payload_p1r8 payload_p1r9 payload_p1r10 payload_p1r11 payload_p1r12 payload_p1r13 payload_p1r14 payload_p1r15 payload_p2s0 payload_p2s1 payload_p2s2 payload_p2s3 payload_p2s4 payload_p2s5 payload_p2s6 payload_p2s7 payload_p2s8 payload_p2s9 payload_p2s10 payload_p2s11 payload_p2s12 payload_p2s13 payload_p2s14
attribute [local sl_rounds high] payload_bar_nbr payload_bar_peer0 payload_bar_peer1 payload_bar_peer2 payload_bar_peer3 payload_bar_peer4 payload_bar_peer5 payload_bar_peer6 payload_bar_peer7 payload_bar_peer8 payload_bar_peer9 payload_bar_peer10 payload_bar_peer11 payload_bar_peer12 payload_bar_peer13 payload_bar_peer14

set_option maxHeartbeats 16000000 in
theorem sound_body (m : (ℓ : Loc nD τ sig) → Buf (Elt F) ℓ) (κ : GSem nD τ sig → ℕ) (c : Dev nD) (W : Waits sig Unit)
    (fo : Buf (Elt F) ((Memref.whole cc0_stg2_0 : Memref sig .tc .vmem S32x1024 .f32).view.loc (c : Thread nD τ)))
    (f0 : Buf (Elt F) (stageM.view.loc (c : Thread nD τ))) (f1 : Buf (Elt F) (inboxM.view.loc (c : Thread nD τ))) (f2 : Buf (Elt F) (outboxM.view.loc (c : Thread nD τ))) (f3 : Buf (Elt F) (gatherM.view.loc (c : Thread nD τ)))
    (Kt : PUnit → sProp 𝕄) :
    iprop(bodyPre m κ c W (xstg m c) (wstg m c) fo f0 f1 f2 f3 ∗ (bodyPost m c (xstg m c) (wstg m c) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _)
            cc0_scratch4 cc0_scratch5 cc0_scratch6 cc0_scratch7) Kt := by
  unfold bodyPre
  iintro ⟨⟨Hbar, HgP1_0, HgP1_1, HgP1_2, HgP1_3, HgP1_4, HgP1_5, HgP1_6, HgP1_7, HgP1_8, HgP1_9, HgP1_10, HgP1_11, HgP1_12, HgP1_13, HgP1_14, HgP1_15, HgP2_0, HgP2_1, HgP2_2, HgP2_3, HgP2_4, HgP2_5, HgP2_6, HgP2_7, HgP2_8, HgP2_9, HgP2_10, HgP2_11, HgP2_12, HgP2_13, HgP2_14, HgP1last, HgFin_0, HgFin_1, HgFin_2, HgFin_3, HgFin_4, HgFin_5, HgFin_6, HgFin_7, HgFin_8, HgFin_9, HgFin_10, HgFin_11, HgFin_12, HgFin_13, HgFin_14, Hmisc⟩, Hk⟩
  unfold gBar; icases Hbar with ⟨#HIb, #HIbn, #HIbp0, #HIbp1, #HIbp2, #HIbp3, #HIbp4, #HIbp5, #HIbp6, #HIbp7, #HIbp8, #HIbp9, #HIbp10, #HIbp11, #HIbp12, #HIbp13, #HIbp14, #Hrbn, #Hrbp0, #Hrbp1, #Hrbp2, #Hrbp3, #Hrbp4, #Hrbp5, #Hrbp6, #Hrbp7, #Hrbp8, #Hrbp9, #Hrbp10, #Hrbp11, #Hrbp12, #Hrbp13, #Hrbp14, #Hrr0, #Hrr1, #Hrr2, #Hrr3, #Hrr4, #Hrr5, #Hrr6, #Hrr7, #Hrr8, #Hrr9, #Hrr10, #Hrr11, #Hrr12, #Hrr13, #Hrr14, #Hrr15, #Hrg0, #Hrg1, #Hrg2, #Hrg3, #Hrg4, #Hrg5, #Hrg6, #Hrg7, #Hrg8, #Hrg9, #Hrg10, #Hrg11, #Hrg12, #Hrg13, #Hrg14, Htbn, Htbp0, Htbp1, Htbp2, Htbp3, Htbp4, Htbp5, Htbp6, Htbp7, Htbp8, Htbp9, Htbp10, Htbp11, Htbp12, Htbp13, Htbp14, Hin0, Hin1, Hin2, Hin3, Hin4, Hin5, Hin6, Hin7, Hin8, Hin9, Hin10, Hin11, Hin12, Hin13, Hin14, Hin15, Hga0, Hga1, Hga2, Hga3, Hga4, Hga5, Hga6, Hga7, Hga8, Hga9, Hga10, Hga11, Hga12, Hga13, Hga14, Hatb, Hcb, Hmwb⟩
  unfold gMisc; icases Hmisc with ⟨#HIp2ru, Hap2ru, Hx, Hw, Ho, Hgown, HO⟩
  unfold gP1_0; icases HgP1_0 with ⟨#HIp1s0, #HIp1rn0, #Hrp1s0, Htp1s0, Htp1rn0, Hap1s0, Hst0⟩
  unfold gP1_1; icases HgP1_1 with ⟨#HIp1s1, #HIp1rn1, #Hrp1s1, Htp1s1, Htp1rn1, Hap1s1, Hst1⟩
  unfold gP1_2; icases HgP1_2 with ⟨#HIp1s2, #HIp1rn2, #Hrp1s2, Htp1s2, Htp1rn2, Hap1s2, Hst2⟩
  unfold gP1_3; icases HgP1_3 with ⟨#HIp1s3, #HIp1rn3, #Hrp1s3, Htp1s3, Htp1rn3, Hap1s3, Hst3⟩
  unfold gP1_4; icases HgP1_4 with ⟨#HIp1s4, #HIp1rn4, #Hrp1s4, Htp1s4, Htp1rn4, Hap1s4, Hst4⟩
  unfold gP1_5; icases HgP1_5 with ⟨#HIp1s5, #HIp1rn5, #Hrp1s5, Htp1s5, Htp1rn5, Hap1s5, Hst5⟩
  unfold gP1_6; icases HgP1_6 with ⟨#HIp1s6, #HIp1rn6, #Hrp1s6, Htp1s6, Htp1rn6, Hap1s6, Hst6⟩
  unfold gP1_7; icases HgP1_7 with ⟨#HIp1s7, #HIp1rn7, #Hrp1s7, Htp1s7, Htp1rn7, Hap1s7, Hst7⟩
  unfold gP1_8; icases HgP1_8 with ⟨#HIp1s8, #HIp1rn8, #Hrp1s8, Htp1s8, Htp1rn8, Hap1s8, Hst8⟩
  unfold gP1_9; icases HgP1_9 with ⟨#HIp1s9, #HIp1rn9, #Hrp1s9, Htp1s9, Htp1rn9, Hap1s9, Hst9⟩
  unfold gP1_10; icases HgP1_10 with ⟨#HIp1s10, #HIp1rn10, #Hrp1s10, Htp1s10, Htp1rn10, Hap1s10, Hst10⟩
  unfold gP1_11; icases HgP1_11 with ⟨#HIp1s11, #HIp1rn11, #Hrp1s11, Htp1s11, Htp1rn11, Hap1s11, Hst11⟩
  unfold gP1_12; icases HgP1_12 with ⟨#HIp1s12, #HIp1rn12, #Hrp1s12, Htp1s12, Htp1rn12, Hap1s12, Hst12⟩
  unfold gP1_13; icases HgP1_13 with ⟨#HIp1s13, #HIp1rn13, #Hrp1s13, Htp1s13, Htp1rn13, Hap1s13, Hst13⟩
  unfold gP1_14; icases HgP1_14 with ⟨#HIp1s14, #HIp1rn14, #Hrp1s14, Htp1s14, Htp1rn14, Hap1s14, Hst14⟩
  unfold gP1_15; icases HgP1_15 with ⟨#HIp1s15, #HIp1rn15, #Hrp1s15, Htp1s15, Htp1rn15, Hap1s15, Hst15⟩
  sl_unfold [cc0_body]
  sl_exec_parts
  ihave Hpay := (show (BI.sep _ (BI.sep _ (BI.sep _ (BI.sep _ (BI.sep _ (BI.sep _ (BI.sep _ (BI.sep _ (BI.sep _ (BI.sep _ (BI.sep _ (BI.sep _ (BI.sep _ (BI.sep _ (BI.sep _ (_))))))))))))))) : sProp 𝕄) ⊢ iprop(_ ∗ _ ∗ _ ∗ _ ∗ _ ∗ _ ∗ _ ∗ _ ∗ _ ∗ _ ∗ _ ∗ _ ∗ _ ∗ _ ∗ _ ∗ _) from BI.Entails.refl _) $$ Hatb_pay1
  icases Hpay with ⟨⟨⟨%gn0, Hn0⟩, #Hrn0, ⟨%gn1, Hn1⟩, #Hrn1, ⟨%gn2, Hn2⟩, #Hrn2, ⟨%gn3, Hn3⟩, #Hrn3, ⟨%gn4, Hn4⟩, #Hrn4, ⟨%gn5, Hn5⟩, #Hrn5, ⟨%gn6, Hn6⟩, #Hrn6, ⟨%gn7, Hn7⟩, #Hrn7, ⟨%gn8, Hn8⟩, #Hrn8, ⟨%gn9, Hn9⟩, #Hrn9, ⟨%gn10, Hn10⟩, #Hrn10, ⟨%gn11, Hn11⟩, #Hrn11, ⟨%gn12, Hn12⟩, #Hrn12, ⟨%gn13, Hn13⟩, #Hrn13, ⟨%gn14, Hn14⟩, #Hrn14, ⟨%gn15, Hn15⟩, #Hrn15⟩, ⟨⟨%hs0, Hs0⟩, #Hrs0⟩, ⟨⟨%hs1, Hs1⟩, #Hrs1⟩, ⟨⟨%hs2, Hs2⟩, #Hrs2⟩, ⟨⟨%hs3, Hs3⟩, #Hrs3⟩, ⟨⟨%hs4, Hs4⟩, #Hrs4⟩, ⟨⟨%hs5, Hs5⟩, #Hrs5⟩, ⟨⟨%hs6, Hs6⟩, #Hrs6⟩, ⟨⟨%hs7, Hs7⟩, #Hrs7⟩, ⟨⟨%hs8, Hs8⟩, #Hrs8⟩, ⟨⟨%hs9, Hs9⟩, #Hrs9⟩, ⟨⟨%hs10, Hs10⟩, #Hrs10⟩, ⟨⟨%hs11, Hs11⟩, #Hrs11⟩, ⟨⟨%hs12, Hs12⟩, #Hrs12⟩, ⟨⟨%hs13, Hs13⟩, #Hrs13⟩, ⟨⟨%hs14, Hs14⟩, #Hrs14⟩⟩
  -- first phase, product 0: staged, then copied to the partner
  have hfs0 : (slot16 stageM 0 (of_decide_eq_true rfl)).view.read (Elt F) (sound_body.sl.Hst0_w1 m c f0) = W1 m c (cross c (offA 0)) := by
    unfold sound_body.sl.Hst0_w1
    refine (View.read_write_univ _ _).trans ?_
    exact stage_val m c (cross c (offA 0)) _ (closedOff_k0_off1_8 c).eq _
  iapply (wp_send_slot' (W1 m) (W2 m) c (nbr c) (nbr c) (dev17_eq c) (dev17_eq c) (slot16 stageM 0 (of_decide_eq_true rfl)) (slot16 inboxM 0 (of_decide_eq_true rfl)) (p1sS 0) (p1rS 0) rfl rfl (κ _) (κ _) (W1 m c (cross c (offA 0)))
      (by rw [duties_p1s]; exact Finset.mem_singleton_self _) (by rw [duties_p1r]; exact Finset.mem_singleton_self _) rfl
      (payload_p1s0 (W1 m) (W2 m) c) (by rw [payload_p1r0, nbr_nbr, peer_nbr]) _ hfs0 gn0 (debt c 1) _) $$ [HIp1s0 HIp1rn0 Hst0 Hn0 HO Htp1s0 Hrp1s0 Htp1rn0 Hrn0]
  · isplitr; · iexact HIp1s0
    isplitr; · iexact HIp1rn0
    isplitl [Hst0]; · iexact Hst0
    isplitl [Hn0]; · iexact Hn0
    isplitl [HO]; · rw [debt_peel0]; iexact HO
    isplitl [Htp1s0]; · iexact Htp1s0
    isplitr; · iexact Hrp1s0
    isplitl [Htp1rn0]; · iexact Htp1rn0
    iexact Hrn0
  iintro ⟨Hcs0, HO⟩
  sl_exec_parts
  -- first phase, product 1: staged, then copied to the partner
  have hfs1 : (slot16 stageM 1 (of_decide_eq_true rfl)).view.read (Elt F) (sound_body.sl.Hst1_w1 m c f0) = W1 m c (cross c (offA 1)) := by
    unfold sound_body.sl.Hst1_w1
    refine (View.read_write_univ _ _).trans ?_
    exact stage_val m c (cross c (offA 1)) _ (closedOff_k0_off1_7 c).eq _
  iapply (wp_send_slot' (W1 m) (W2 m) c (nbr c) (nbr c) (dev18_eq c) (dev18_eq c) (slot16 stageM 1 (of_decide_eq_true rfl)) (slot16 inboxM 1 (of_decide_eq_true rfl)) (p1sS 1) (p1rS 1) rfl rfl (κ _) (κ _) (W1 m c (cross c (offA 1)))
      (by rw [duties_p1s]; exact Finset.mem_singleton_self _) (by rw [duties_p1r]; exact Finset.mem_singleton_self _) rfl
      (payload_p1s1 (W1 m) (W2 m) c) (by rw [payload_p1r1, nbr_nbr, peer_nbr]) _ hfs1 gn1 (debt c 2) _) $$ [HIp1s1 HIp1rn1 Hst1 Hn1 HO Htp1s1 Hrp1s1 Htp1rn1 Hrn1]
  · isplitr; · iexact HIp1s1
    isplitr; · iexact HIp1rn1
    isplitl [Hst1]; · iexact Hst1
    isplitl [Hn1]; · iexact Hn1
    isplitl [HO]; · rw [debt_peel1]; iexact HO
    isplitl [Htp1s1]; · iexact Htp1s1
    isplitr; · iexact Hrp1s1
    isplitl [Htp1rn1]; · iexact Htp1rn1
    iexact Hrn1
  iintro ⟨Hcs1, HO⟩
  sl_exec_parts
  -- first phase, product 2: staged, then copied to the partner
  have hfs2 : (slot16 stageM 2 (of_decide_eq_true rfl)).view.read (Elt F) (sound_body.sl.Hst2_w1 m c f0) = W1 m c (cross c (offA 2)) := by
    unfold sound_body.sl.Hst2_w1
    refine (View.read_write_univ _ _).trans ?_
    exact stage_val m c (cross c (offA 2)) _ (closedOff_k0_off1_9 c).eq _
  iapply (wp_send_slot' (W1 m) (W2 m) c (nbr c) (nbr c) (dev19_eq c) (dev19_eq c) (slot16 stageM 2 (of_decide_eq_true rfl)) (slot16 inboxM 2 (of_decide_eq_true rfl)) (p1sS 2) (p1rS 2) rfl rfl (κ _) (κ _) (W1 m c (cross c (offA 2)))
      (by rw [duties_p1s]; exact Finset.mem_singleton_self _) (by rw [duties_p1r]; exact Finset.mem_singleton_self _) rfl
      (payload_p1s2 (W1 m) (W2 m) c) (by rw [payload_p1r2, nbr_nbr, peer_nbr]) _ hfs2 gn2 (debt c 3) _) $$ [HIp1s2 HIp1rn2 Hst2 Hn2 HO Htp1s2 Hrp1s2 Htp1rn2 Hrn2]
  · isplitr; · iexact HIp1s2
    isplitr; · iexact HIp1rn2
    isplitl [Hst2]; · iexact Hst2
    isplitl [Hn2]; · iexact Hn2
    isplitl [HO]; · rw [debt_peel2]; iexact HO
    isplitl [Htp1s2]; · iexact Htp1s2
    isplitr; · iexact Hrp1s2
    isplitl [Htp1rn2]; · iexact Htp1rn2
    iexact Hrn2
  iintro ⟨Hcs2, HO⟩
  sl_exec_parts
  -- first phase, product 3: staged, then copied to the partner
  have hfs3 : (slot16 stageM 3 (of_decide_eq_true rfl)).view.read (Elt F) (sound_body.sl.Hst3_w1 m c f0) = W1 m c (cross c (offA 3)) := by
    unfold sound_body.sl.Hst3_w1
    refine (View.read_write_univ _ _).trans ?_
    exact stage_val m c (cross c (offA 3)) _ (closedOff_k0_off1_6 c).eq _
  iapply (wp_send_slot' (W1 m) (W2 m) c (nbr c) (nbr c) (dev20_eq c) (dev20_eq c) (slot16 stageM 3 (of_decide_eq_true rfl)) (slot16 inboxM 3 (of_decide_eq_true rfl)) (p1sS 3) (p1rS 3) rfl rfl (κ _) (κ _) (W1 m c (cross c (offA 3)))
      (by rw [duties_p1s]; exact Finset.mem_singleton_self _) (by rw [duties_p1r]; exact Finset.mem_singleton_self _) rfl
      (payload_p1s3 (W1 m) (W2 m) c) (by rw [payload_p1r3, nbr_nbr, peer_nbr]) _ hfs3 gn3 (debt c 4) _) $$ [HIp1s3 HIp1rn3 Hst3 Hn3 HO Htp1s3 Hrp1s3 Htp1rn3 Hrn3]
  · isplitr; · iexact HIp1s3
    isplitr; · iexact HIp1rn3
    isplitl [Hst3]; · iexact Hst3
    isplitl [Hn3]; · iexact Hn3
    isplitl [HO]; · rw [debt_peel3]; iexact HO
    isplitl [Htp1s3]; · iexact Htp1s3
    isplitr; · iexact Hrp1s3
    isplitl [Htp1rn3]; · iexact Htp1rn3
    iexact Hrn3
  iintro ⟨Hcs3, HO⟩
  sl_exec_parts
  -- first phase, product 4: staged, then copied to the partner
  have hfs4 : (slot16 stageM 4 (of_decide_eq_true rfl)).view.read (Elt F) (sound_body.sl.Hst4_w1 m c f0) = W1 m c (cross c (offA 4)) := by
    unfold sound_body.sl.Hst4_w1
    refine (View.read_write_univ _ _).trans ?_
    exact stage_val m c (cross c (offA 4)) _ (closedOff_k0_off1_10 c).eq _
  iapply (wp_send_slot' (W1 m) (W2 m) c (nbr c) (nbr c) (dev21_eq c) (dev21_eq c) (slot16 stageM 4 (of_decide_eq_true rfl)) (slot16 inboxM 4 (of_decide_eq_true rfl)) (p1sS 4) (p1rS 4) rfl rfl (κ _) (κ _) (W1 m c (cross c (offA 4)))
      (by rw [duties_p1s]; exact Finset.mem_singleton_self _) (by rw [duties_p1r]; exact Finset.mem_singleton_self _) rfl
      (payload_p1s4 (W1 m) (W2 m) c) (by rw [payload_p1r4, nbr_nbr, peer_nbr]) _ hfs4 gn4 (debt c 5) _) $$ [HIp1s4 HIp1rn4 Hst4 Hn4 HO Htp1s4 Hrp1s4 Htp1rn4 Hrn4]
  · isplitr; · iexact HIp1s4
    isplitr; · iexact HIp1rn4
    isplitl [Hst4]; · iexact Hst4
    isplitl [Hn4]; · iexact Hn4
    isplitl [HO]; · rw [debt_peel4]; iexact HO
    isplitl [Htp1s4]; · iexact Htp1s4
    isplitr; · iexact Hrp1s4
    isplitl [Htp1rn4]; · iexact Htp1rn4
    iexact Hrn4
  iintro ⟨Hcs4, HO⟩
  sl_exec_parts
  -- first phase, product 5: staged, then copied to the partner
  have hfs5 : (slot16 stageM 5 (of_decide_eq_true rfl)).view.read (Elt F) (sound_body.sl.Hst5_w1 m c f0) = W1 m c (cross c (offA 5)) := by
    unfold sound_body.sl.Hst5_w1
    refine (View.read_write_univ _ _).trans ?_
    exact stage_val m c (cross c (offA 5)) _ (closedOff_k0_off1_5 c).eq _
  iapply (wp_send_slot' (W1 m) (W2 m) c (nbr c) (nbr c) (dev22_eq c) (dev22_eq c) (slot16 stageM 5 (of_decide_eq_true rfl)) (slot16 inboxM 5 (of_decide_eq_true rfl)) (p1sS 5) (p1rS 5) rfl rfl (κ _) (κ _) (W1 m c (cross c (offA 5)))
      (by rw [duties_p1s]; exact Finset.mem_singleton_self _) (by rw [duties_p1r]; exact Finset.mem_singleton_self _) rfl
      (payload_p1s5 (W1 m) (W2 m) c) (by rw [payload_p1r5, nbr_nbr, peer_nbr]) _ hfs5 gn5 (debt c 6) _) $$ [HIp1s5 HIp1rn5 Hst5 Hn5 HO Htp1s5 Hrp1s5 Htp1rn5 Hrn5]
  · isplitr; · iexact HIp1s5
    isplitr; · iexact HIp1rn5
    isplitl [Hst5]; · iexact Hst5
    isplitl [Hn5]; · iexact Hn5
    isplitl [HO]; · rw [debt_peel5]; iexact HO
    isplitl [Htp1s5]; · iexact Htp1s5
    isplitr; · iexact Hrp1s5
    isplitl [Htp1rn5]; · iexact Htp1rn5
    iexact Hrn5
  iintro ⟨Hcs5, HO⟩
  sl_exec_parts
  -- first phase, product 6: staged, then copied to the partner
  have hfs6 : (slot16 stageM 6 (of_decide_eq_true rfl)).view.read (Elt F) (sound_body.sl.Hst6_w1 m c f0) = W1 m c (cross c (offA 6)) := by
    unfold sound_body.sl.Hst6_w1
    refine (View.read_write_univ _ _).trans ?_
    exact stage_val m c (cross c (offA 6)) _ (closedOff_k0_off1_11 c).eq _
  iapply (wp_send_slot' (W1 m) (W2 m) c (nbr c) (nbr c) (dev23_eq c) (dev23_eq c) (slot16 stageM 6 (of_decide_eq_true rfl)) (slot16 inboxM 6 (of_decide_eq_true rfl)) (p1sS 6) (p1rS 6) rfl rfl (κ _) (κ _) (W1 m c (cross c (offA 6)))
      (by rw [duties_p1s]; exact Finset.mem_singleton_self _) (by rw [duties_p1r]; exact Finset.mem_singleton_self _) rfl
      (payload_p1s6 (W1 m) (W2 m) c) (by rw [payload_p1r6, nbr_nbr, peer_nbr]) _ hfs6 gn6 (debt c 7) _) $$ [HIp1s6 HIp1rn6 Hst6 Hn6 HO Htp1s6 Hrp1s6 Htp1rn6 Hrn6]
  · isplitr; · iexact HIp1s6
    isplitr; · iexact HIp1rn6
    isplitl [Hst6]; · iexact Hst6
    isplitl [Hn6]; · iexact Hn6
    isplitl [HO]; · rw [debt_peel6]; iexact HO
    isplitl [Htp1s6]; · iexact Htp1s6
    isplitr; · iexact Hrp1s6
    isplitl [Htp1rn6]; · iexact Htp1rn6
    iexact Hrn6
  iintro ⟨Hcs6, HO⟩
  sl_exec_parts
  -- first phase, product 7: staged, then copied to the partner
  have hfs7 : (slot16 stageM 7 (of_decide_eq_true rfl)).view.read (Elt F) (sound_body.sl.Hst7_w1 m c f0) = W1 m c (cross c (offA 7)) := by
    unfold sound_body.sl.Hst7_w1
    refine (View.read_write_univ _ _).trans ?_
    exact stage_val m c (cross c (offA 7)) _ (closedOff_k0_off1_4 c).eq _
  iapply (wp_send_slot' (W1 m) (W2 m) c (nbr c) (nbr c) (dev24_eq c) (dev24_eq c) (slot16 stageM 7 (of_decide_eq_true rfl)) (slot16 inboxM 7 (of_decide_eq_true rfl)) (p1sS 7) (p1rS 7) rfl rfl (κ _) (κ _) (W1 m c (cross c (offA 7)))
      (by rw [duties_p1s]; exact Finset.mem_singleton_self _) (by rw [duties_p1r]; exact Finset.mem_singleton_self _) rfl
      (payload_p1s7 (W1 m) (W2 m) c) (by rw [payload_p1r7, nbr_nbr, peer_nbr]) _ hfs7 gn7 (debt c 8) _) $$ [HIp1s7 HIp1rn7 Hst7 Hn7 HO Htp1s7 Hrp1s7 Htp1rn7 Hrn7]
  · isplitr; · iexact HIp1s7
    isplitr; · iexact HIp1rn7
    isplitl [Hst7]; · iexact Hst7
    isplitl [Hn7]; · iexact Hn7
    isplitl [HO]; · rw [debt_peel7]; iexact HO
    isplitl [Htp1s7]; · iexact Htp1s7
    isplitr; · iexact Hrp1s7
    isplitl [Htp1rn7]; · iexact Htp1rn7
    iexact Hrn7
  iintro ⟨Hcs7, HO⟩
  sl_exec_parts
  -- first phase, product 8: staged, then copied to the partner
  have hfs8 : (slot16 stageM 8 (of_decide_eq_true rfl)).view.read (Elt F) (sound_body.sl.Hst8_w1 m c f0) = W1 m c (cross c (offA 8)) := by
    unfold sound_body.sl.Hst8_w1
    refine (View.read_write_univ _ _).trans ?_
    exact stage_val m c (cross c (offA 8)) _ (closedOff_k0_off1_12 c).eq _
  iapply (wp_send_slot' (W1 m) (W2 m) c (nbr c) (nbr c) (dev25_eq c) (dev25_eq c) (slot16 stageM 8 (of_decide_eq_true rfl)) (slot16 inboxM 8 (of_decide_eq_true rfl)) (p1sS 8) (p1rS 8) rfl rfl (κ _) (κ _) (W1 m c (cross c (offA 8)))
      (by rw [duties_p1s]; exact Finset.mem_singleton_self _) (by rw [duties_p1r]; exact Finset.mem_singleton_self _) rfl
      (payload_p1s8 (W1 m) (W2 m) c) (by rw [payload_p1r8, nbr_nbr, peer_nbr]) _ hfs8 gn8 (debt c 9) _) $$ [HIp1s8 HIp1rn8 Hst8 Hn8 HO Htp1s8 Hrp1s8 Htp1rn8 Hrn8]
  · isplitr; · iexact HIp1s8
    isplitr; · iexact HIp1rn8
    isplitl [Hst8]; · iexact Hst8
    isplitl [Hn8]; · iexact Hn8
    isplitl [HO]; · rw [debt_peel8]; iexact HO
    isplitl [Htp1s8]; · iexact Htp1s8
    isplitr; · iexact Hrp1s8
    isplitl [Htp1rn8]; · iexact Htp1rn8
    iexact Hrn8
  iintro ⟨Hcs8, HO⟩
  sl_exec_parts
  -- first phase, product 9: staged, then copied to the partner
  have hfs9 : (slot16 stageM 9 (of_decide_eq_true rfl)).view.read (Elt F) (sound_body.sl.Hst9_w1 m c f0) = W1 m c (cross c (offA 9)) := by
    unfold sound_body.sl.Hst9_w1
    refine (View.read_write_univ _ _).trans ?_
    exact stage_val m c (cross c (offA 9)) _ (closedOff_k0_off1_3 c).eq _
  iapply (wp_send_slot' (W1 m) (W2 m) c (nbr c) (nbr c) (dev26_eq c) (dev26_eq c) (slot16 stageM 9 (of_decide_eq_true rfl)) (slot16 inboxM 9 (of_decide_eq_true rfl)) (p1sS 9) (p1rS 9) rfl rfl (κ _) (κ _) (W1 m c (cross c (offA 9)))
      (by rw [duties_p1s]; exact Finset.mem_singleton_self _) (by rw [duties_p1r]; exact Finset.mem_singleton_self _) rfl
      (payload_p1s9 (W1 m) (W2 m) c) (by rw [payload_p1r9, nbr_nbr, peer_nbr]) _ hfs9 gn9 (debt c 10) _) $$ [HIp1s9 HIp1rn9 Hst9 Hn9 HO Htp1s9 Hrp1s9 Htp1rn9 Hrn9]
  · isplitr; · iexact HIp1s9
    isplitr; · iexact HIp1rn9
    isplitl [Hst9]; · iexact Hst9
    isplitl [Hn9]; · iexact Hn9
    isplitl [HO]; · rw [debt_peel9]; iexact HO
    isplitl [Htp1s9]; · iexact Htp1s9
    isplitr; · iexact Hrp1s9
    isplitl [Htp1rn9]; · iexact Htp1rn9
    iexact Hrn9
  iintro ⟨Hcs9, HO⟩
  sl_exec_parts
  -- first phase, product 10: staged, then copied to the partner
  have hfs10 : (slot16 stageM 10 (of_decide_eq_true rfl)).view.read (Elt F) (sound_body.sl.Hst10_w1 m c f0) = W1 m c (cross c (offA 10)) := by
    unfold sound_body.sl.Hst10_w1
    refine (View.read_write_univ _ _).trans ?_
    exact stage_val m c (cross c (offA 10)) _ (closedOff_k0_off1_13 c).eq _
  iapply (wp_send_slot' (W1 m) (W2 m) c (nbr c) (nbr c) (dev27_eq c) (dev27_eq c) (slot16 stageM 10 (of_decide_eq_true rfl)) (slot16 inboxM 10 (of_decide_eq_true rfl)) (p1sS 10) (p1rS 10) rfl rfl (κ _) (κ _) (W1 m c (cross c (offA 10)))
      (by rw [duties_p1s]; exact Finset.mem_singleton_self _) (by rw [duties_p1r]; exact Finset.mem_singleton_self _) rfl
      (payload_p1s10 (W1 m) (W2 m) c) (by rw [payload_p1r10, nbr_nbr, peer_nbr]) _ hfs10 gn10 (debt c 11) _) $$ [HIp1s10 HIp1rn10 Hst10 Hn10 HO Htp1s10 Hrp1s10 Htp1rn10 Hrn10]
  · isplitr; · iexact HIp1s10
    isplitr; · iexact HIp1rn10
    isplitl [Hst10]; · iexact Hst10
    isplitl [Hn10]; · iexact Hn10
    isplitl [HO]; · rw [debt_peel10]; iexact HO
    isplitl [Htp1s10]; · iexact Htp1s10
    isplitr; · iexact Hrp1s10
    isplitl [Htp1rn10]; · iexact Htp1rn10
    iexact Hrn10
  iintro ⟨Hcs10, HO⟩
  sl_exec_parts
  -- first phase, product 11: staged, then copied to the partner
  have hfs11 : (slot16 stageM 11 (of_decide_eq_true rfl)).view.read (Elt F) (sound_body.sl.Hst11_w1 m c f0) = W1 m c (cross c (offA 11)) := by
    unfold sound_body.sl.Hst11_w1
    refine (View.read_write_univ _ _).trans ?_
    exact stage_val m c (cross c (offA 11)) _ (closedOff_k0_off1_2 c).eq _
  iapply (wp_send_slot' (W1 m) (W2 m) c (nbr c) (nbr c) (dev28_eq c) (dev28_eq c) (slot16 stageM 11 (of_decide_eq_true rfl)) (slot16 inboxM 11 (of_decide_eq_true rfl)) (p1sS 11) (p1rS 11) rfl rfl (κ _) (κ _) (W1 m c (cross c (offA 11)))
      (by rw [duties_p1s]; exact Finset.mem_singleton_self _) (by rw [duties_p1r]; exact Finset.mem_singleton_self _) rfl
      (payload_p1s11 (W1 m) (W2 m) c) (by rw [payload_p1r11, nbr_nbr, peer_nbr]) _ hfs11 gn11 (debt c 12) _) $$ [HIp1s11 HIp1rn11 Hst11 Hn11 HO Htp1s11 Hrp1s11 Htp1rn11 Hrn11]
  · isplitr; · iexact HIp1s11
    isplitr; · iexact HIp1rn11
    isplitl [Hst11]; · iexact Hst11
    isplitl [Hn11]; · iexact Hn11
    isplitl [HO]; · rw [debt_peel11]; iexact HO
    isplitl [Htp1s11]; · iexact Htp1s11
    isplitr; · iexact Hrp1s11
    isplitl [Htp1rn11]; · iexact Htp1rn11
    iexact Hrn11
  iintro ⟨Hcs11, HO⟩
  sl_exec_parts
  -- first phase, product 12: staged, then copied to the partner
  have hfs12 : (slot16 stageM 12 (of_decide_eq_true rfl)).view.read (Elt F) (sound_body.sl.Hst12_w1 m c f0) = W1 m c (cross c (offA 12)) := by
    unfold sound_body.sl.Hst12_w1
    refine (View.read_write_univ _ _).trans ?_
    exact stage_val m c (cross c (offA 12)) _ (closedOff_k0_off1_14 c).eq _
  iapply (wp_send_slot' (W1 m) (W2 m) c (nbr c) (nbr c) (dev29_eq c) (dev29_eq c) (slot16 stageM 12 (of_decide_eq_true rfl)) (slot16 inboxM 12 (of_decide_eq_true rfl)) (p1sS 12) (p1rS 12) rfl rfl (κ _) (κ _) (W1 m c (cross c (offA 12)))
      (by rw [duties_p1s]; exact Finset.mem_singleton_self _) (by rw [duties_p1r]; exact Finset.mem_singleton_self _) rfl
      (payload_p1s12 (W1 m) (W2 m) c) (by rw [payload_p1r12, nbr_nbr, peer_nbr]) _ hfs12 gn12 (debt c 13) _) $$ [HIp1s12 HIp1rn12 Hst12 Hn12 HO Htp1s12 Hrp1s12 Htp1rn12 Hrn12]
  · isplitr; · iexact HIp1s12
    isplitr; · iexact HIp1rn12
    isplitl [Hst12]; · iexact Hst12
    isplitl [Hn12]; · iexact Hn12
    isplitl [HO]; · rw [debt_peel12]; iexact HO
    isplitl [Htp1s12]; · iexact Htp1s12
    isplitr; · iexact Hrp1s12
    isplitl [Htp1rn12]; · iexact Htp1rn12
    iexact Hrn12
  iintro ⟨Hcs12, HO⟩
  sl_exec_parts
  -- first phase, product 13: staged, then copied to the partner
  have hfs13 : (slot16 stageM 13 (of_decide_eq_true rfl)).view.read (Elt F) (sound_body.sl.Hst13_w1 m c f0) = W1 m c (cross c (offA 13)) := by
    unfold sound_body.sl.Hst13_w1
    refine (View.read_write_univ _ _).trans ?_
    exact stage_val m c (cross c (offA 13)) _ (closedOff_k0_off1_1 c).eq _
  iapply (wp_send_slot' (W1 m) (W2 m) c (nbr c) (nbr c) (dev30_eq c) (dev30_eq c) (slot16 stageM 13 (of_decide_eq_true rfl)) (slot16 inboxM 13 (of_decide_eq_true rfl)) (p1sS 13) (p1rS 13) rfl rfl (κ _) (κ _) (W1 m c (cross c (offA 13)))
      (by rw [duties_p1s]; exact Finset.mem_singleton_self _) (by rw [duties_p1r]; exact Finset.mem_singleton_self _) rfl
      (payload_p1s13 (W1 m) (W2 m) c) (by rw [payload_p1r13, nbr_nbr, peer_nbr]) _ hfs13 gn13 (debt c 14) _) $$ [HIp1s13 HIp1rn13 Hst13 Hn13 HO Htp1s13 Hrp1s13 Htp1rn13 Hrn13]
  · isplitr; · iexact HIp1s13
    isplitr; · iexact HIp1rn13
    isplitl [Hst13]; · iexact Hst13
    isplitl [Hn13]; · iexact Hn13
    isplitl [HO]; · rw [debt_peel13]; iexact HO
    isplitl [Htp1s13]; · iexact Htp1s13
    isplitr; · iexact Hrp1s13
    isplitl [Htp1rn13]; · iexact Htp1rn13
    iexact Hrn13
  iintro ⟨Hcs13, HO⟩
  sl_exec_parts
  -- first phase, product 14: staged, then copied to the partner
  have hfs14 : (slot16 stageM 14 (of_decide_eq_true rfl)).view.read (Elt F) (sound_body.sl.Hst14_w1 m c f0) = W1 m c (cross c (offA 14)) := by
    unfold sound_body.sl.Hst14_w1
    refine (View.read_write_univ _ _).trans ?_
    exact stage_val m c (cross c (offA 14)) _ (closedOff_k0_off1_15 c).eq _
  iapply (wp_send_slot' (W1 m) (W2 m) c (nbr c) (nbr c) (dev31_eq c) (dev31_eq c) (slot16 stageM 14 (of_decide_eq_true rfl)) (slot16 inboxM 14 (of_decide_eq_true rfl)) (p1sS 14) (p1rS 14) rfl rfl (κ _) (κ _) (W1 m c (cross c (offA 14)))
      (by rw [duties_p1s]; exact Finset.mem_singleton_self _) (by rw [duties_p1r]; exact Finset.mem_singleton_self _) rfl
      (payload_p1s14 (W1 m) (W2 m) c) (by rw [payload_p1r14, nbr_nbr, peer_nbr]) _ hfs14 gn14 (debt c 15) _) $$ [HIp1s14 HIp1rn14 Hst14 Hn14 HO Htp1s14 Hrp1s14 Htp1rn14 Hrn14]
  · isplitr; · iexact HIp1s14
    isplitr; · iexact HIp1rn14
    isplitl [Hst14]; · iexact Hst14
    isplitl [Hn14]; · iexact Hn14
    isplitl [HO]; · rw [debt_peel14]; iexact HO
    isplitl [Htp1s14]; · iexact Htp1s14
    isplitr; · iexact Hrp1s14
    isplitl [Htp1rn14]; · iexact Htp1rn14
    iexact Hrn14
  iintro ⟨Hcs14, HO⟩
  sl_exec_parts
  -- first phase, product 15: staged, then copied to the partner
  have hfs15 : (slot16 stageM 15 (of_decide_eq_true rfl)).view.read (Elt F) (sound_body.sl.Hst15_w1 m c f0) = W1 m c (cross c (offA 15)) := by
    unfold sound_body.sl.Hst15_w1
    refine (View.read_write_univ _ _).trans ?_
    exact stage_val m c (cross c (offA 15)) _ (closedOff_k0_off1_16 c).eq _
  iapply (wp_send_slot' (W1 m) (W2 m) c (nbr c) (nbr c) (dev32_eq c) (dev32_eq c) (slot16 stageM 15 (of_decide_eq_true rfl)) (slot16 inboxM 15 (of_decide_eq_true rfl)) (p1sS 15) (p1rS 15) rfl rfl (κ _) (κ _) (W1 m c (cross c (offA 15)))
      (by rw [duties_p1s]; exact Finset.mem_singleton_self _) (by rw [duties_p1r]; exact Finset.mem_singleton_self _) rfl
      (payload_p1s15 (W1 m) (W2 m) c) (by rw [payload_p1r15, nbr_nbr, peer_nbr]) _ hfs15 gn15 (debt c 16) _) $$ [HIp1s15 HIp1rn15 Hst15 Hn15 HO Htp1s15 Hrp1s15 Htp1rn15 Hrn15]
  · isplitr; · iexact HIp1s15
    isplitr; · iexact HIp1rn15
    isplitl [Hst15]; · iexact Hst15
    isplitl [Hn15]; · iexact Hn15
    isplitl [HO]; · rw [debt_peel15]; iexact HO
    isplitl [Htp1s15]; · iexact Htp1s15
    isplitr; · iexact Hrp1s15
    isplitl [Htp1rn15]; · iexact Htp1rn15
    iexact Hrn15
  iintro ⟨Hcs15, HO⟩
  unfold gP2_0; icases HgP2_0 with ⟨#HIp1r0, #HIp2s0, #HIp2rp0, #Hrp2s0, Hap1r0, Hcp1r0, Hmw1r0, Htp2s0, Htp2rp0, Hap2s0, Hob0⟩
  sl_exec_parts
  -- second phase, sum 0: the partner's product received, added, the sum copied to the peer
  have hfs2_0 : (slot15 outboxM 0 (of_decide_eq_true rfl)).view.read (Elt F) (sound_body.sl.Hob0_w1 m c f2) = W2 m c (peer c (off 0)) := by
    unfold sound_body.sl.Hob0_w1
    refine (View.read_write_univ _ _).trans ?_
    exact pair_val m c 0 _ (closedOff_k0_off2_8 c).eq _
  iapply (wp_send_sq (W1 m) (W2 m) c (peer c (off 0)) (src c (off 0)) (dev33_eq c) ((dev33_eq c).trans (peer_eq_src0 c))
      (slot15 outboxM 0 (of_decide_eq_true rfl)) (slot16 gatherM (rr c.val) (rr_lt c)) squeezes_S1x32x1024_S32x1024 rfl (congrArg (fun M => M.squeeze S32x1024 squeezes_S1x32x1024_S32x1024) (gather_off4 c _))
      (p2sS 0) (p2rS (pairOf c)) rfl (sem_off3 c) (κ _) (κ _) (W2 m c (peer c (off 0)))
      (by rw [duties_p2s]; exact Finset.mem_singleton_self _) (by rw [duties_p2r_peer]; exact Finset.mem_singleton_self _) rfl
      (payload_p2s0 (W1 m) (W2 m) c) (payload_p2r_peer (W1 m) (W2 m) c 0) _ hfs2_0 hs0 (debt c 17) _) $$ [HIp2s0 HIp2rp0 Hob0 Hs0 HO Htp2s0 Hrp2s0 Htp2rp0 Hrs0]
  · isplitr; · iexact HIp2s0
    isplitr; · iexact HIp2rp0
    isplitl [Hob0]; · iexact Hob0
    isplitl [Hs0]; · iexact Hs0
    isplitl [HO]; · rw [debt_peel16]; iexact HO
    isplitl [Htp2s0]; · iexact Htp2s0
    isplitr; · iexact Hrp2s0
    isplitl [Htp2rp0]; · iexact Htp2rp0
    iexact Hrs0
  iintro ⟨Hcs2_0, HO⟩
  unfold gP2_1; icases HgP2_1 with ⟨#HIp1r1, #HIp2s1, #HIp2rp1, #Hrp2s1, Hap1r1, Hcp1r1, Hmw1r1, Htp2s1, Htp2rp1, Hap2s1, Hob1⟩
  sl_exec_parts
  -- second phase, sum 1: the partner's product received, added, the sum copied to the peer
  have hfs2_1 : (slot15 outboxM 1 (of_decide_eq_true rfl)).view.read (Elt F) (sound_body.sl.Hob1_w1 m c f2) = W2 m c (peer c (off 1)) := by
    unfold sound_body.sl.Hob1_w1
    refine (View.read_write_univ _ _).trans ?_
    exact pair_val m c 1 _ (closedOff_k0_off2_7 c).eq _
  iapply (wp_send_sq (W1 m) (W2 m) c (peer c (off 1)) (src c (off 2)) (dev34_eq c) ((dev34_eq c).trans (peer_eq_src1 c))
      (slot15 outboxM 1 (of_decide_eq_true rfl)) (slot16 gatherM (rr c.val) (rr_lt c)) squeezes_S1x32x1024_S32x1024 rfl (congrArg (fun M => M.squeeze S32x1024 squeezes_S1x32x1024_S32x1024) (gather_off4 c _))
      (p2sS 1) (p2rS (pairOf c)) rfl (sem_off3 c) (κ _) (κ _) (W2 m c (peer c (off 1)))
      (by rw [duties_p2s]; exact Finset.mem_singleton_self _) (by rw [duties_p2r_peer]; exact Finset.mem_singleton_self _) rfl
      (payload_p2s1 (W1 m) (W2 m) c) (payload_p2r_peer (W1 m) (W2 m) c 1) _ hfs2_1 hs2 (debt c 18) _) $$ [HIp2s1 HIp2rp1 Hob1 Hs2 HO Htp2s1 Hrp2s1 Htp2rp1 Hrs2]
  · isplitr; · iexact HIp2s1
    isplitr; · iexact HIp2rp1
    isplitl [Hob1]; · iexact Hob1
    isplitl [Hs2]; · iexact Hs2
    isplitl [HO]; · rw [debt_peel17]; iexact HO
    isplitl [Htp2s1]; · iexact Htp2s1
    isplitr; · iexact Hrp2s1
    isplitl [Htp2rp1]; · iexact Htp2rp1
    iexact Hrs2
  iintro ⟨Hcs2_1, HO⟩
  unfold gP2_2; icases HgP2_2 with ⟨#HIp1r2, #HIp2s2, #HIp2rp2, #Hrp2s2, Hap1r2, Hcp1r2, Hmw1r2, Htp2s2, Htp2rp2, Hap2s2, Hob2⟩
  sl_exec_parts
  -- second phase, sum 2: the partner's product received, added, the sum copied to the peer
  have hfs2_2 : (slot15 outboxM 2 (of_decide_eq_true rfl)).view.read (Elt F) (sound_body.sl.Hob2_w1 m c f2) = W2 m c (peer c (off 2)) := by
    unfold sound_body.sl.Hob2_w1
    refine (View.read_write_univ _ _).trans ?_
    exact pair_val m c 2 _ (closedOff_k0_off2_9 c).eq _
  iapply (wp_send_sq (W1 m) (W2 m) c (peer c (off 2)) (src c (off 1)) (dev35_eq c) ((dev35_eq c).trans (peer_eq_src2 c))
      (slot15 outboxM 2 (of_decide_eq_true rfl)) (slot16 gatherM (rr c.val) (rr_lt c)) squeezes_S1x32x1024_S32x1024 rfl (congrArg (fun M => M.squeeze S32x1024 squeezes_S1x32x1024_S32x1024) (gather_off4 c _))
      (p2sS 2) (p2rS (pairOf c)) rfl (sem_off3 c) (κ _) (κ _) (W2 m c (peer c (off 2)))
      (by rw [duties_p2s]; exact Finset.mem_singleton_self _) (by rw [duties_p2r_peer]; exact Finset.mem_singleton_self _) rfl
      (payload_p2s2 (W1 m) (W2 m) c) (payload_p2r_peer (W1 m) (W2 m) c 2) _ hfs2_2 hs1 (debt c 19) _) $$ [HIp2s2 HIp2rp2 Hob2 Hs1 HO Htp2s2 Hrp2s2 Htp2rp2 Hrs1]
  · isplitr; · iexact HIp2s2
    isplitr; · iexact HIp2rp2
    isplitl [Hob2]; · iexact Hob2
    isplitl [Hs1]; · iexact Hs1
    isplitl [HO]; · rw [debt_peel18]; iexact HO
    isplitl [Htp2s2]; · iexact Htp2s2
    isplitr; · iexact Hrp2s2
    isplitl [Htp2rp2]; · iexact Htp2rp2
    iexact Hrs1
  iintro ⟨Hcs2_2, HO⟩
  unfold gP2_3; icases HgP2_3 with ⟨#HIp1r3, #HIp2s3, #HIp2rp3, #Hrp2s3, Hap1r3, Hcp1r3, Hmw1r3, Htp2s3, Htp2rp3, Hap2s3, Hob3⟩
  sl_exec_parts
  -- second phase, sum 3: the partner's product received, added, the sum copied to the peer
  have hfs2_3 : (slot15 outboxM 3 (of_decide_eq_true rfl)).view.read (Elt F) (sound_body.sl.Hob3_w1 m c f2) = W2 m c (peer c (off 3)) := by
    unfold sound_body.sl.Hob3_w1
    refine (View.read_write_univ _ _).trans ?_
    exact pair_val m c 3 _ (closedOff_k0_off2_6 c).eq _
  iapply (wp_send_sq (W1 m) (W2 m) c (peer c (off 3)) (src c (off 4)) (dev36_eq c) ((dev36_eq c).trans (peer_eq_src3 c))
      (slot15 outboxM 3 (of_decide_eq_true rfl)) (slot16 gatherM (rr c.val) (rr_lt c)) squeezes_S1x32x1024_S32x1024 rfl (congrArg (fun M => M.squeeze S32x1024 squeezes_S1x32x1024_S32x1024) (gather_off4 c _))
      (p2sS 3) (p2rS (pairOf c)) rfl (sem_off3 c) (κ _) (κ _) (W2 m c (peer c (off 3)))
      (by rw [duties_p2s]; exact Finset.mem_singleton_self _) (by rw [duties_p2r_peer]; exact Finset.mem_singleton_self _) rfl
      (payload_p2s3 (W1 m) (W2 m) c) (payload_p2r_peer (W1 m) (W2 m) c 3) _ hfs2_3 hs4 (debt c 20) _) $$ [HIp2s3 HIp2rp3 Hob3 Hs4 HO Htp2s3 Hrp2s3 Htp2rp3 Hrs4]
  · isplitr; · iexact HIp2s3
    isplitr; · iexact HIp2rp3
    isplitl [Hob3]; · iexact Hob3
    isplitl [Hs4]; · iexact Hs4
    isplitl [HO]; · rw [debt_peel19]; iexact HO
    isplitl [Htp2s3]; · iexact Htp2s3
    isplitr; · iexact Hrp2s3
    isplitl [Htp2rp3]; · iexact Htp2rp3
    iexact Hrs4
  iintro ⟨Hcs2_3, HO⟩
  unfold gP2_4; icases HgP2_4 with ⟨#HIp1r4, #HIp2s4, #HIp2rp4, #Hrp2s4, Hap1r4, Hcp1r4, Hmw1r4, Htp2s4, Htp2rp4, Hap2s4, Hob4⟩
  sl_exec_parts
  -- second phase, sum 4: the partner's product received, added, the sum copied to the peer
  have hfs2_4 : (slot15 outboxM 4 (of_decide_eq_true rfl)).view.read (Elt F) (sound_body.sl.Hob4_w1 m c f2) = W2 m c (peer c (off 4)) := by
    unfold sound_body.sl.Hob4_w1
    refine (View.read_write_univ _ _).trans ?_
    exact pair_val m c 4 _ (closedOff_k0_off2_10 c).eq _
  iapply (wp_send_sq (W1 m) (W2 m) c (peer c (off 4)) (src c (off 3)) (dev37_eq c) ((dev37_eq c).trans (peer_eq_src4 c))
      (slot15 outboxM 4 (of_decide_eq_true rfl)) (slot16 gatherM (rr c.val) (rr_lt c)) squeezes_S1x32x1024_S32x1024 rfl (congrArg (fun M => M.squeeze S32x1024 squeezes_S1x32x1024_S32x1024) (gather_off4 c _))
      (p2sS 4) (p2rS (pairOf c)) rfl (sem_off3 c) (κ _) (κ _) (W2 m c (peer c (off 4)))
      (by rw [duties_p2s]; exact Finset.mem_singleton_self _) (by rw [duties_p2r_peer]; exact Finset.mem_singleton_self _) rfl
      (payload_p2s4 (W1 m) (W2 m) c) (payload_p2r_peer (W1 m) (W2 m) c 4) _ hfs2_4 hs3 (debt c 21) _) $$ [HIp2s4 HIp2rp4 Hob4 Hs3 HO Htp2s4 Hrp2s4 Htp2rp4 Hrs3]
  · isplitr; · iexact HIp2s4
    isplitr; · iexact HIp2rp4
    isplitl [Hob4]; · iexact Hob4
    isplitl [Hs3]; · iexact Hs3
    isplitl [HO]; · rw [debt_peel20]; iexact HO
    isplitl [Htp2s4]; · iexact Htp2s4
    isplitr; · iexact Hrp2s4
    isplitl [Htp2rp4]; · iexact Htp2rp4
    iexact Hrs3
  iintro ⟨Hcs2_4, HO⟩
  unfold gP2_5; icases HgP2_5 with ⟨#HIp1r5, #HIp2s5, #HIp2rp5, #Hrp2s5, Hap1r5, Hcp1r5, Hmw1r5, Htp2s5, Htp2rp5, Hap2s5, Hob5⟩
  sl_exec_parts
  -- second phase, sum 5: the partner's product received, added, the sum copied to the peer
  have hfs2_5 : (slot15 outboxM 5 (of_decide_eq_true rfl)).view.read (Elt F) (sound_body.sl.Hob5_w1 m c f2) = W2 m c (peer c (off 5)) := by
    unfold sound_body.sl.Hob5_w1
    refine (View.read_write_univ _ _).trans ?_
    exact pair_val m c 5 _ (closedOff_k0_off2_5 c).eq _
  iapply (wp_send_sq (W1 m) (W2 m) c (peer c (off 5)) (src c (off 6)) (dev38_eq c) ((dev38_eq c).trans (peer_eq_src5 c))
      (slot15 outboxM 5 (of_decide_eq_true rfl)) (slot16 gatherM (rr c.val) (rr_lt c)) squeezes_S1x32x1024_S32x1024 rfl (congrArg (fun M => M.squeeze S32x1024 squeezes_S1x32x1024_S32x1024) (gather_off4 c _))
      (p2sS 5) (p2rS (pairOf c)) rfl (sem_off3 c) (κ _) (κ _) (W2 m c (peer c (off 5)))
      (by rw [duties_p2s]; exact Finset.mem_singleton_self _) (by rw [duties_p2r_peer]; exact Finset.mem_singleton_self _) rfl
      (payload_p2s5 (W1 m) (W2 m) c) (payload_p2r_peer (W1 m) (W2 m) c 5) _ hfs2_5 hs6 (debt c 22) _) $$ [HIp2s5 HIp2rp5 Hob5 Hs6 HO Htp2s5 Hrp2s5 Htp2rp5 Hrs6]
  · isplitr; · iexact HIp2s5
    isplitr; · iexact HIp2rp5
    isplitl [Hob5]; · iexact Hob5
    isplitl [Hs6]; · iexact Hs6
    isplitl [HO]; · rw [debt_peel21]; iexact HO
    isplitl [Htp2s5]; · iexact Htp2s5
    isplitr; · iexact Hrp2s5
    isplitl [Htp2rp5]; · iexact Htp2rp5
    iexact Hrs6
  iintro ⟨Hcs2_5, HO⟩
  unfold gP2_6; icases HgP2_6 with ⟨#HIp1r6, #HIp2s6, #HIp2rp6, #Hrp2s6, Hap1r6, Hcp1r6, Hmw1r6, Htp2s6, Htp2rp6, Hap2s6, Hob6⟩
  sl_exec_parts
  -- second phase, sum 6: the partner's product received, added, the sum copied to the peer
  have hfs2_6 : (slot15 outboxM 6 (of_decide_eq_true rfl)).view.read (Elt F) (sound_body.sl.Hob6_w1 m c f2) = W2 m c (peer c (off 6)) := by
    unfold sound_body.sl.Hob6_w1
    refine (View.read_write_univ _ _).trans ?_
    exact pair_val m c 6 _ (closedOff_k0_off2_11 c).eq _
  iapply (wp_send_sq (W1 m) (W2 m) c (peer c (off 6)) (src c (off 5)) (dev39_eq c) ((dev39_eq c).trans (peer_eq_src6 c))
      (slot15 outboxM 6 (of_decide_eq_true rfl)) (slot16 gatherM (rr c.val) (rr_lt c)) squeezes_S1x32x1024_S32x1024 rfl (congrArg (fun M => M.squeeze S32x1024 squeezes_S1x32x1024_S32x1024) (gather_off4 c _))
      (p2sS 6) (p2rS (pairOf c)) rfl (sem_off3 c) (κ _) (κ _) (W2 m c (peer c (off 6)))
      (by rw [duties_p2s]; exact Finset.mem_singleton_self _) (by rw [duties_p2r_peer]; exact Finset.mem_singleton_self _) rfl
      (payload_p2s6 (W1 m) (W2 m) c) (payload_p2r_peer (W1 m) (W2 m) c 6) _ hfs2_6 hs5 (debt c 23) _) $$ [HIp2s6 HIp2rp6 Hob6 Hs5 HO Htp2s6 Hrp2s6 Htp2rp6 Hrs5]
  · isplitr; · iexact HIp2s6
    isplitr; · iexact HIp2rp6
    isplitl [Hob6]; · iexact Hob6
    isplitl [Hs5]; · iexact Hs5
    isplitl [HO]; · rw [debt_peel22]; iexact HO
    isplitl [Htp2s6]; · iexact Htp2s6
    isplitr; · iexact Hrp2s6
    isplitl [Htp2rp6]; · iexact Htp2rp6
    iexact Hrs5
  iintro ⟨Hcs2_6, HO⟩
  unfold gP2_7; icases HgP2_7 with ⟨#HIp1r7, #HIp2s7, #HIp2rp7, #Hrp2s7, Hap1r7, Hcp1r7, Hmw1r7, Htp2s7, Htp2rp7, Hap2s7, Hob7⟩
  sl_exec_parts
  -- second phase, sum 7: the partner's product received, added, the sum copied to the peer
  have hfs2_7 : (slot15 outboxM 7 (of_decide_eq_true rfl)).view.read (Elt F) (sound_body.sl.Hob7_w1 m c f2) = W2 m c (peer c (off 7)) := by
    unfold sound_body.sl.Hob7_w1
    refine (View.read_write_univ _ _).trans ?_
    exact pair_val m c 7 _ (closedOff_k0_off2_4 c).eq _
  iapply (wp_send_sq (W1 m) (W2 m) c (peer c (off 7)) (src c (off 8)) (dev40_eq c) ((dev40_eq c).trans (peer_eq_src7 c))
      (slot15 outboxM 7 (of_decide_eq_true rfl)) (slot16 gatherM (rr c.val) (rr_lt c)) squeezes_S1x32x1024_S32x1024 rfl (congrArg (fun M => M.squeeze S32x1024 squeezes_S1x32x1024_S32x1024) (gather_off4 c _))
      (p2sS 7) (p2rS (pairOf c)) rfl (sem_off3 c) (κ _) (κ _) (W2 m c (peer c (off 7)))
      (by rw [duties_p2s]; exact Finset.mem_singleton_self _) (by rw [duties_p2r_peer]; exact Finset.mem_singleton_self _) rfl
      (payload_p2s7 (W1 m) (W2 m) c) (payload_p2r_peer (W1 m) (W2 m) c 7) _ hfs2_7 hs8 (debt c 24) _) $$ [HIp2s7 HIp2rp7 Hob7 Hs8 HO Htp2s7 Hrp2s7 Htp2rp7 Hrs8]
  · isplitr; · iexact HIp2s7
    isplitr; · iexact HIp2rp7
    isplitl [Hob7]; · iexact Hob7
    isplitl [Hs8]; · iexact Hs8
    isplitl [HO]; · rw [debt_peel23]; iexact HO
    isplitl [Htp2s7]; · iexact Htp2s7
    isplitr; · iexact Hrp2s7
    isplitl [Htp2rp7]; · iexact Htp2rp7
    iexact Hrs8
  iintro ⟨Hcs2_7, HO⟩
  unfold gP2_8; icases HgP2_8 with ⟨#HIp1r8, #HIp2s8, #HIp2rp8, #Hrp2s8, Hap1r8, Hcp1r8, Hmw1r8, Htp2s8, Htp2rp8, Hap2s8, Hob8⟩
  sl_exec_parts
  -- second phase, sum 8: the partner's product received, added, the sum copied to the peer
  have hfs2_8 : (slot15 outboxM 8 (of_decide_eq_true rfl)).view.read (Elt F) (sound_body.sl.Hob8_w1 m c f2) = W2 m c (peer c (off 8)) := by
    unfold sound_body.sl.Hob8_w1
    refine (View.read_write_univ _ _).trans ?_
    exact pair_val m c 8 _ (closedOff_k0_off2_12 c).eq _
  iapply (wp_send_sq (W1 m) (W2 m) c (peer c (off 8)) (src c (off 7)) (dev41_eq c) ((dev41_eq c).trans (peer_eq_src8 c))
      (slot15 outboxM 8 (of_decide_eq_true rfl)) (slot16 gatherM (rr c.val) (rr_lt c)) squeezes_S1x32x1024_S32x1024 rfl (congrArg (fun M => M.squeeze S32x1024 squeezes_S1x32x1024_S32x1024) (gather_off4 c _))
      (p2sS 8) (p2rS (pairOf c)) rfl (sem_off3 c) (κ _) (κ _) (W2 m c (peer c (off 8)))
      (by rw [duties_p2s]; exact Finset.mem_singleton_self _) (by rw [duties_p2r_peer]; exact Finset.mem_singleton_self _) rfl
      (payload_p2s8 (W1 m) (W2 m) c) (payload_p2r_peer (W1 m) (W2 m) c 8) _ hfs2_8 hs7 (debt c 25) _) $$ [HIp2s8 HIp2rp8 Hob8 Hs7 HO Htp2s8 Hrp2s8 Htp2rp8 Hrs7]
  · isplitr; · iexact HIp2s8
    isplitr; · iexact HIp2rp8
    isplitl [Hob8]; · iexact Hob8
    isplitl [Hs7]; · iexact Hs7
    isplitl [HO]; · rw [debt_peel24]; iexact HO
    isplitl [Htp2s8]; · iexact Htp2s8
    isplitr; · iexact Hrp2s8
    isplitl [Htp2rp8]; · iexact Htp2rp8
    iexact Hrs7
  iintro ⟨Hcs2_8, HO⟩
  unfold gP2_9; icases HgP2_9 with ⟨#HIp1r9, #HIp2s9, #HIp2rp9, #Hrp2s9, Hap1r9, Hcp1r9, Hmw1r9, Htp2s9, Htp2rp9, Hap2s9, Hob9⟩
  sl_exec_parts
  -- second phase, sum 9: the partner's product received, added, the sum copied to the peer
  have hfs2_9 : (slot15 outboxM 9 (of_decide_eq_true rfl)).view.read (Elt F) (sound_body.sl.Hob9_w1 m c f2) = W2 m c (peer c (off 9)) := by
    unfold sound_body.sl.Hob9_w1
    refine (View.read_write_univ _ _).trans ?_
    exact pair_val m c 9 _ (closedOff_k0_off2_3 c).eq _
  iapply (wp_send_sq (W1 m) (W2 m) c (peer c (off 9)) (src c (off 10)) (dev42_eq c) ((dev42_eq c).trans (peer_eq_src9 c))
      (slot15 outboxM 9 (of_decide_eq_true rfl)) (slot16 gatherM (rr c.val) (rr_lt c)) squeezes_S1x32x1024_S32x1024 rfl (congrArg (fun M => M.squeeze S32x1024 squeezes_S1x32x1024_S32x1024) (gather_off4 c _))
      (p2sS 9) (p2rS (pairOf c)) rfl (sem_off3 c) (κ _) (κ _) (W2 m c (peer c (off 9)))
      (by rw [duties_p2s]; exact Finset.mem_singleton_self _) (by rw [duties_p2r_peer]; exact Finset.mem_singleton_self _) rfl
      (payload_p2s9 (W1 m) (W2 m) c) (payload_p2r_peer (W1 m) (W2 m) c 9) _ hfs2_9 hs10 (debt c 26) _) $$ [HIp2s9 HIp2rp9 Hob9 Hs10 HO Htp2s9 Hrp2s9 Htp2rp9 Hrs10]
  · isplitr; · iexact HIp2s9
    isplitr; · iexact HIp2rp9
    isplitl [Hob9]; · iexact Hob9
    isplitl [Hs10]; · iexact Hs10
    isplitl [HO]; · rw [debt_peel25]; iexact HO
    isplitl [Htp2s9]; · iexact Htp2s9
    isplitr; · iexact Hrp2s9
    isplitl [Htp2rp9]; · iexact Htp2rp9
    iexact Hrs10
  iintro ⟨Hcs2_9, HO⟩
  unfold gP2_10; icases HgP2_10 with ⟨#HIp1r10, #HIp2s10, #HIp2rp10, #Hrp2s10, Hap1r10, Hcp1r10, Hmw1r10, Htp2s10, Htp2rp10, Hap2s10, Hob10⟩
  sl_exec_parts
  -- second phase, sum 10: the partner's product received, added, the sum copied to the peer
  have hfs2_10 : (slot15 outboxM 10 (of_decide_eq_true rfl)).view.read (Elt F) (sound_body.sl.Hob10_w1 m c f2) = W2 m c (peer c (off 10)) := by
    unfold sound_body.sl.Hob10_w1
    refine (View.read_write_univ _ _).trans ?_
    exact pair_val m c 10 _ (closedOff_k0_off2_13 c).eq _
  iapply (wp_send_sq (W1 m) (W2 m) c (peer c (off 10)) (src c (off 9)) (dev43_eq c) ((dev43_eq c).trans (peer_eq_src10 c))
      (slot15 outboxM 10 (of_decide_eq_true rfl)) (slot16 gatherM (rr c.val) (rr_lt c)) squeezes_S1x32x1024_S32x1024 rfl (congrArg (fun M => M.squeeze S32x1024 squeezes_S1x32x1024_S32x1024) (gather_off4 c _))
      (p2sS 10) (p2rS (pairOf c)) rfl (sem_off3 c) (κ _) (κ _) (W2 m c (peer c (off 10)))
      (by rw [duties_p2s]; exact Finset.mem_singleton_self _) (by rw [duties_p2r_peer]; exact Finset.mem_singleton_self _) rfl
      (payload_p2s10 (W1 m) (W2 m) c) (payload_p2r_peer (W1 m) (W2 m) c 10) _ hfs2_10 hs9 (debt c 27) _) $$ [HIp2s10 HIp2rp10 Hob10 Hs9 HO Htp2s10 Hrp2s10 Htp2rp10 Hrs9]
  · isplitr; · iexact HIp2s10
    isplitr; · iexact HIp2rp10
    isplitl [Hob10]; · iexact Hob10
    isplitl [Hs9]; · iexact Hs9
    isplitl [HO]; · rw [debt_peel26]; iexact HO
    isplitl [Htp2s10]; · iexact Htp2s10
    isplitr; · iexact Hrp2s10
    isplitl [Htp2rp10]; · iexact Htp2rp10
    iexact Hrs9
  iintro ⟨Hcs2_10, HO⟩
  unfold gP2_11; icases HgP2_11 with ⟨#HIp1r11, #HIp2s11, #HIp2rp11, #Hrp2s11, Hap1r11, Hcp1r11, Hmw1r11, Htp2s11, Htp2rp11, Hap2s11, Hob11⟩
  sl_exec_parts
  -- second phase, sum 11: the partner's product received, added, the sum copied to the peer
  have hfs2_11 : (slot15 outboxM 11 (of_decide_eq_true rfl)).view.read (Elt F) (sound_body.sl.Hob11_w1 m c f2) = W2 m c (peer c (off 11)) := by
    unfold sound_body.sl.Hob11_w1
    refine (View.read_write_univ _ _).trans ?_
    exact pair_val m c 11 _ (closedOff_k0_off2_2 c).eq _
  iapply (wp_send_sq (W1 m) (W2 m) c (peer c (off 11)) (src c (off 12)) (dev44_eq c) ((dev44_eq c).trans (peer_eq_src11 c))
      (slot15 outboxM 11 (of_decide_eq_true rfl)) (slot16 gatherM (rr c.val) (rr_lt c)) squeezes_S1x32x1024_S32x1024 rfl (congrArg (fun M => M.squeeze S32x1024 squeezes_S1x32x1024_S32x1024) (gather_off4 c _))
      (p2sS 11) (p2rS (pairOf c)) rfl (sem_off3 c) (κ _) (κ _) (W2 m c (peer c (off 11)))
      (by rw [duties_p2s]; exact Finset.mem_singleton_self _) (by rw [duties_p2r_peer]; exact Finset.mem_singleton_self _) rfl
      (payload_p2s11 (W1 m) (W2 m) c) (payload_p2r_peer (W1 m) (W2 m) c 11) _ hfs2_11 hs12 (debt c 28) _) $$ [HIp2s11 HIp2rp11 Hob11 Hs12 HO Htp2s11 Hrp2s11 Htp2rp11 Hrs12]
  · isplitr; · iexact HIp2s11
    isplitr; · iexact HIp2rp11
    isplitl [Hob11]; · iexact Hob11
    isplitl [Hs12]; · iexact Hs12
    isplitl [HO]; · rw [debt_peel27]; iexact HO
    isplitl [Htp2s11]; · iexact Htp2s11
    isplitr; · iexact Hrp2s11
    isplitl [Htp2rp11]; · iexact Htp2rp11
    iexact Hrs12
  iintro ⟨Hcs2_11, HO⟩
  unfold gP2_12; icases HgP2_12 with ⟨#HIp1r12, #HIp2s12, #HIp2rp12, #Hrp2s12, Hap1r12, Hcp1r12, Hmw1r12, Htp2s12, Htp2rp12, Hap2s12, Hob12⟩
  sl_exec_parts
  -- second phase, sum 12: the partner's product received, added, the sum copied to the peer
  have hfs2_12 : (slot15 outboxM 12 (of_decide_eq_true rfl)).view.read (Elt F) (sound_body.sl.Hob12_w1 m c f2) = W2 m c (peer c (off 12)) := by
    unfold sound_body.sl.Hob12_w1
    refine (View.read_write_univ _ _).trans ?_
    exact pair_val m c 12 _ (closedOff_k0_off2_14 c).eq _
  iapply (wp_send_sq (W1 m) (W2 m) c (peer c (off 12)) (src c (off 11)) (dev45_eq c) ((dev45_eq c).trans (peer_eq_src12 c))
      (slot15 outboxM 12 (of_decide_eq_true rfl)) (slot16 gatherM (rr c.val) (rr_lt c)) squeezes_S1x32x1024_S32x1024 rfl (congrArg (fun M => M.squeeze S32x1024 squeezes_S1x32x1024_S32x1024) (gather_off4 c _))
      (p2sS 12) (p2rS (pairOf c)) rfl (sem_off3 c) (κ _) (κ _) (W2 m c (peer c (off 12)))
      (by rw [duties_p2s]; exact Finset.mem_singleton_self _) (by rw [duties_p2r_peer]; exact Finset.mem_singleton_self _) rfl
      (payload_p2s12 (W1 m) (W2 m) c) (payload_p2r_peer (W1 m) (W2 m) c 12) _ hfs2_12 hs11 (debt c 29) _) $$ [HIp2s12 HIp2rp12 Hob12 Hs11 HO Htp2s12 Hrp2s12 Htp2rp12 Hrs11]
  · isplitr; · iexact HIp2s12
    isplitr; · iexact HIp2rp12
    isplitl [Hob12]; · iexact Hob12
    isplitl [Hs11]; · iexact Hs11
    isplitl [HO]; · rw [debt_peel28]; iexact HO
    isplitl [Htp2s12]; · iexact Htp2s12
    isplitr; · iexact Hrp2s12
    isplitl [Htp2rp12]; · iexact Htp2rp12
    iexact Hrs11
  iintro ⟨Hcs2_12, HO⟩
  unfold gP2_13; icases HgP2_13 with ⟨#HIp1r13, #HIp2s13, #HIp2rp13, #Hrp2s13, Hap1r13, Hcp1r13, Hmw1r13, Htp2s13, Htp2rp13, Hap2s13, Hob13⟩
  sl_exec_parts
  -- second phase, sum 13: the partner's product received, added, the sum copied to the peer
  have hfs2_13 : (slot15 outboxM 13 (of_decide_eq_true rfl)).view.read (Elt F) (sound_body.sl.Hob13_w1 m c f2) = W2 m c (peer c (off 13)) := by
    unfold sound_body.sl.Hob13_w1
    refine (View.read_write_univ _ _).trans ?_
    exact pair_val m c 13 _ (closedOff_k0_off2_1 c).eq _
  iapply (wp_send_sq (W1 m) (W2 m) c (peer c (off 13)) (src c (off 14)) (dev46_eq c) ((dev46_eq c).trans (peer_eq_src13 c))
      (slot15 outboxM 13 (of_decide_eq_true rfl)) (slot16 gatherM (rr c.val) (rr_lt c)) squeezes_S1x32x1024_S32x1024 rfl (congrArg (fun M => M.squeeze S32x1024 squeezes_S1x32x1024_S32x1024) (gather_off4 c _))
      (p2sS 13) (p2rS (pairOf c)) rfl (sem_off3 c) (κ _) (κ _) (W2 m c (peer c (off 13)))
      (by rw [duties_p2s]; exact Finset.mem_singleton_self _) (by rw [duties_p2r_peer]; exact Finset.mem_singleton_self _) rfl
      (payload_p2s13 (W1 m) (W2 m) c) (payload_p2r_peer (W1 m) (W2 m) c 13) _ hfs2_13 hs14 (debt c 30) _) $$ [HIp2s13 HIp2rp13 Hob13 Hs14 HO Htp2s13 Hrp2s13 Htp2rp13 Hrs14]
  · isplitr; · iexact HIp2s13
    isplitr; · iexact HIp2rp13
    isplitl [Hob13]; · iexact Hob13
    isplitl [Hs14]; · iexact Hs14
    isplitl [HO]; · rw [debt_peel29]; iexact HO
    isplitl [Htp2s13]; · iexact Htp2s13
    isplitr; · iexact Hrp2s13
    isplitl [Htp2rp13]; · iexact Htp2rp13
    iexact Hrs14
  iintro ⟨Hcs2_13, HO⟩
  unfold gP2_14; icases HgP2_14 with ⟨#HIp1r14, #HIp2s14, #HIp2rp14, #Hrp2s14, Hap1r14, Hcp1r14, Hmw1r14, Htp2s14, Htp2rp14, Hap2s14, Hob14⟩
  sl_exec_parts
  -- second phase, sum 14: the partner's product received, added, the sum copied to the peer
  have hfs2_14 : (slot15 outboxM 14 (of_decide_eq_true rfl)).view.read (Elt F) (sound_body.sl.Hob14_w1 m c f2) = W2 m c (peer c (off 14)) := by
    unfold sound_body.sl.Hob14_w1
    refine (View.read_write_univ _ _).trans ?_
    exact pair_val m c 14 _ (closedOff_k0_off2_15 c).eq _
  iapply (wp_send_sq (W1 m) (W2 m) c (peer c (off 14)) (src c (off 13)) (dev47_eq c) ((dev47_eq c).trans (peer_eq_src14 c))
      (slot15 outboxM 14 (of_decide_eq_true rfl)) (slot16 gatherM (rr c.val) (rr_lt c)) squeezes_S1x32x1024_S32x1024 rfl (congrArg (fun M => M.squeeze S32x1024 squeezes_S1x32x1024_S32x1024) (gather_off4 c _))
      (p2sS 14) (p2rS (pairOf c)) rfl (sem_off3 c) (κ _) (κ _) (W2 m c (peer c (off 14)))
      (by rw [duties_p2s]; exact Finset.mem_singleton_self _) (by rw [duties_p2r_peer]; exact Finset.mem_singleton_self _) rfl
      (payload_p2s14 (W1 m) (W2 m) c) (payload_p2r_peer (W1 m) (W2 m) c 14) _ hfs2_14 hs13 (debt c 31) _) $$ [HIp2s14 HIp2rp14 Hob14 Hs13 HO Htp2s14 Hrp2s14 Htp2rp14 Hrs13]
  · isplitr; · iexact HIp2s14
    isplitr; · iexact HIp2rp14
    isplitl [Hob14]; · iexact Hob14
    isplitl [Hs13]; · iexact Hs13
    isplitl [HO]; · rw [debt_peel30]; iexact HO
    isplitl [Htp2s14]; · iexact Htp2s14
    isplitr; · iexact Hrp2s14
    isplitl [Htp2rp14]; · iexact Htp2rp14
    iexact Hrs13
  iintro ⟨Hcs2_14, HO⟩
  rw [debt_end]
  unfold gP1last; icases HgP1last with ⟨#HIp1r15, Hap1r15, Hcp1r15⟩
  sl_exec_parts
  -- second-phase receive 0: the sum of the device 8 pairs back has landed; it is added to the result
  unfold gFin_0; icases HgFin_0 with ⟨#HIp2r0, Hap2r0, Hcp2r0⟩
  rw [sem_off6_0 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_0 c _)) $$ [Hcp2r0 HO Hap2r0]
  · isplitr; · iexact HIp2r0
    isplitl [Hcp2r0]; · iexact Hcp2r0
    isplitl [HO]; · iexact HO
    isplitr; · rw [MayWait_zero]; iempintro
    iexact Hap2r0
  iintro ⟨HO, Hap2r0, -, Hpay⟩
  ihave Hgs0 := (Entails.of_eq (rest_p2r_src (W1 m) (W2 m) c 0)) $$ Hpay
  sl_exec_parts
  -- second-phase receive 1: the sum of the device 7 pairs back has landed; it is added to the result
  unfold gFin_1; icases HgFin_1 with ⟨#HIp2r1, Hap2r1, Hcp2r1⟩
  rw [sem_off6_1 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_1 c _)) $$ [Hcp2r1 HO Hap2r1]
  · isplitr; · iexact HIp2r1
    isplitl [Hcp2r1]; · iexact Hcp2r1
    isplitl [HO]; · iexact HO
    isplitr; · rw [MayWait_zero]; iempintro
    iexact Hap2r1
  iintro ⟨HO, Hap2r1, -, Hpay⟩
  ihave Hgs1 := (Entails.of_eq (rest_p2r_src (W1 m) (W2 m) c 1)) $$ Hpay
  sl_exec_parts
  -- second-phase receive 2: the sum of the device 9 pairs back has landed; it is added to the result
  unfold gFin_2; icases HgFin_2 with ⟨#HIp2r2, Hap2r2, Hcp2r2⟩
  rw [sem_off6_2 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_2 c _)) $$ [Hcp2r2 HO Hap2r2]
  · isplitr; · iexact HIp2r2
    isplitl [Hcp2r2]; · iexact Hcp2r2
    isplitl [HO]; · iexact HO
    isplitr; · rw [MayWait_zero]; iempintro
    iexact Hap2r2
  iintro ⟨HO, Hap2r2, -, Hpay⟩
  ihave Hgs2 := (Entails.of_eq (rest_p2r_src (W1 m) (W2 m) c 2)) $$ Hpay
  sl_exec_parts
  -- second-phase receive 3: the sum of the device 6 pairs back has landed; it is added to the result
  unfold gFin_3; icases HgFin_3 with ⟨#HIp2r3, Hap2r3, Hcp2r3⟩
  rw [sem_off6_3 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_3 c _)) $$ [Hcp2r3 HO Hap2r3]
  · isplitr; · iexact HIp2r3
    isplitl [Hcp2r3]; · iexact Hcp2r3
    isplitl [HO]; · iexact HO
    isplitr; · rw [MayWait_zero]; iempintro
    iexact Hap2r3
  iintro ⟨HO, Hap2r3, -, Hpay⟩
  ihave Hgs3 := (Entails.of_eq (rest_p2r_src (W1 m) (W2 m) c 3)) $$ Hpay
  sl_exec_parts
  -- second-phase receive 4: the sum of the device 10 pairs back has landed; it is added to the result
  unfold gFin_4; icases HgFin_4 with ⟨#HIp2r4, Hap2r4, Hcp2r4⟩
  rw [sem_off6_4 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_4 c _)) $$ [Hcp2r4 HO Hap2r4]
  · isplitr; · iexact HIp2r4
    isplitl [Hcp2r4]; · iexact Hcp2r4
    isplitl [HO]; · iexact HO
    isplitr; · rw [MayWait_zero]; iempintro
    iexact Hap2r4
  iintro ⟨HO, Hap2r4, -, Hpay⟩
  ihave Hgs4 := (Entails.of_eq (rest_p2r_src (W1 m) (W2 m) c 4)) $$ Hpay
  sl_exec_parts
  -- second-phase receive 5: the sum of the device 5 pairs back has landed; it is added to the result
  unfold gFin_5; icases HgFin_5 with ⟨#HIp2r5, Hap2r5, Hcp2r5⟩
  rw [sem_off6_5 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_5 c _)) $$ [Hcp2r5 HO Hap2r5]
  · isplitr; · iexact HIp2r5
    isplitl [Hcp2r5]; · iexact Hcp2r5
    isplitl [HO]; · iexact HO
    isplitr; · rw [MayWait_zero]; iempintro
    iexact Hap2r5
  iintro ⟨HO, Hap2r5, -, Hpay⟩
  ihave Hgs5 := (Entails.of_eq (rest_p2r_src (W1 m) (W2 m) c 5)) $$ Hpay
  sl_exec_parts
  -- second-phase receive 6: the sum of the device 11 pairs back has landed; it is added to the result
  unfold gFin_6; icases HgFin_6 with ⟨#HIp2r6, Hap2r6, Hcp2r6⟩
  rw [sem_off6_6 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_6 c _)) $$ [Hcp2r6 HO Hap2r6]
  · isplitr; · iexact HIp2r6
    isplitl [Hcp2r6]; · iexact Hcp2r6
    isplitl [HO]; · iexact HO
    isplitr; · rw [MayWait_zero]; iempintro
    iexact Hap2r6
  iintro ⟨HO, Hap2r6, -, Hpay⟩
  ihave Hgs6 := (Entails.of_eq (rest_p2r_src (W1 m) (W2 m) c 6)) $$ Hpay
  sl_exec_parts
  -- second-phase receive 7: the sum of the device 4 pairs back has landed; it is added to the result
  unfold gFin_7; icases HgFin_7 with ⟨#HIp2r7, Hap2r7, Hcp2r7⟩
  rw [sem_off6_7 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_7 c _)) $$ [Hcp2r7 HO Hap2r7]
  · isplitr; · iexact HIp2r7
    isplitl [Hcp2r7]; · iexact Hcp2r7
    isplitl [HO]; · iexact HO
    isplitr; · rw [MayWait_zero]; iempintro
    iexact Hap2r7
  iintro ⟨HO, Hap2r7, -, Hpay⟩
  ihave Hgs7 := (Entails.of_eq (rest_p2r_src (W1 m) (W2 m) c 7)) $$ Hpay
  sl_exec_parts
  -- second-phase receive 8: the sum of the device 12 pairs back has landed; it is added to the result
  unfold gFin_8; icases HgFin_8 with ⟨#HIp2r8, Hap2r8, Hcp2r8⟩
  rw [sem_off6_8 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_8 c _)) $$ [Hcp2r8 HO Hap2r8]
  · isplitr; · iexact HIp2r8
    isplitl [Hcp2r8]; · iexact Hcp2r8
    isplitl [HO]; · iexact HO
    isplitr; · rw [MayWait_zero]; iempintro
    iexact Hap2r8
  iintro ⟨HO, Hap2r8, -, Hpay⟩
  ihave Hgs8 := (Entails.of_eq (rest_p2r_src (W1 m) (W2 m) c 8)) $$ Hpay
  sl_exec_parts
  -- second-phase receive 9: the sum of the device 3 pairs back has landed; it is added to the result
  unfold gFin_9; icases HgFin_9 with ⟨#HIp2r9, Hap2r9, Hcp2r9⟩
  rw [sem_off6_9 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_9 c _)) $$ [Hcp2r9 HO Hap2r9]
  · isplitr; · iexact HIp2r9
    isplitl [Hcp2r9]; · iexact Hcp2r9
    isplitl [HO]; · iexact HO
    isplitr; · rw [MayWait_zero]; iempintro
    iexact Hap2r9
  iintro ⟨HO, Hap2r9, -, Hpay⟩
  ihave Hgs9 := (Entails.of_eq (rest_p2r_src (W1 m) (W2 m) c 9)) $$ Hpay
  sl_exec_parts
  -- second-phase receive 10: the sum of the device 13 pairs back has landed; it is added to the result
  unfold gFin_10; icases HgFin_10 with ⟨#HIp2r10, Hap2r10, Hcp2r10⟩
  rw [sem_off6_10 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_10 c _)) $$ [Hcp2r10 HO Hap2r10]
  · isplitr; · iexact HIp2r10
    isplitl [Hcp2r10]; · iexact Hcp2r10
    isplitl [HO]; · iexact HO
    isplitr; · rw [MayWait_zero]; iempintro
    iexact Hap2r10
  iintro ⟨HO, Hap2r10, -, Hpay⟩
  ihave Hgs10 := (Entails.of_eq (rest_p2r_src (W1 m) (W2 m) c 10)) $$ Hpay
  sl_exec_parts
  -- second-phase receive 11: the sum of the device 2 pairs back has landed; it is added to the result
  unfold gFin_11; icases HgFin_11 with ⟨#HIp2r11, Hap2r11, Hcp2r11⟩
  rw [sem_off6_11 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_11 c _)) $$ [Hcp2r11 HO Hap2r11]
  · isplitr; · iexact HIp2r11
    isplitl [Hcp2r11]; · iexact Hcp2r11
    isplitl [HO]; · iexact HO
    isplitr; · rw [MayWait_zero]; iempintro
    iexact Hap2r11
  iintro ⟨HO, Hap2r11, -, Hpay⟩
  ihave Hgs11 := (Entails.of_eq (rest_p2r_src (W1 m) (W2 m) c 11)) $$ Hpay
  sl_exec_parts
  -- second-phase receive 12: the sum of the device 14 pairs back has landed; it is added to the result
  unfold gFin_12; icases HgFin_12 with ⟨#HIp2r12, Hap2r12, Hcp2r12⟩
  rw [sem_off6_12 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_12 c _)) $$ [Hcp2r12 HO Hap2r12]
  · isplitr; · iexact HIp2r12
    isplitl [Hcp2r12]; · iexact Hcp2r12
    isplitl [HO]; · iexact HO
    isplitr; · rw [MayWait_zero]; iempintro
    iexact Hap2r12
  iintro ⟨HO, Hap2r12, -, Hpay⟩
  ihave Hgs12 := (Entails.of_eq (rest_p2r_src (W1 m) (W2 m) c 12)) $$ Hpay
  sl_exec_parts
  -- second-phase receive 13: the sum of the device 1 pairs back has landed; it is added to the result
  unfold gFin_13; icases HgFin_13 with ⟨#HIp2r13, Hap2r13, Hcp2r13⟩
  rw [sem_off6_13 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_13 c _)) $$ [Hcp2r13 HO Hap2r13]
  · isplitr; · iexact HIp2r13
    isplitl [Hcp2r13]; · iexact Hcp2r13
    isplitl [HO]; · iexact HO
    isplitr; · rw [MayWait_zero]; iempintro
    iexact Hap2r13
  iintro ⟨HO, Hap2r13, -, Hpay⟩
  ihave Hgs13 := (Entails.of_eq (rest_p2r_src (W1 m) (W2 m) c 13)) $$ Hpay
  sl_exec_parts
  -- second-phase receive 14: the sum of the device 15 pairs back has landed; it is added to the result
  unfold gFin_14; icases HgFin_14 with ⟨#HIp2r14, Hap2r14, Hcp2r14⟩
  rw [sem_off6_14 c]
  iapply (Rounds.wp_wait_rest_token 𝒱₀ ER (rd (W1 m) (W2 m)) (c : Thread nD τ) none (κ := κ _)
      (wpE_waitDma2_eq 𝒱₀ (c : Thread nD τ) none Set.univ) (Set.mem_univ _) () (O := 0) (R := 0) (m := 0) (T := ∅)
      (by rw [Nat.zero_add, expect_p2r_src]; exact credit_off7_14 c _)) $$ [Hcp2r14 HO Hap2r14]
  · isplitr; · iexact HIp2r14
    isplitl [Hcp2r14]; · iexact Hcp2r14
    isplitl [HO]; · iexact HO
    isplitr; · rw [MayWait_zero]; iempintro
    iexact Hap2r14
  iintro ⟨HO, Hap2r14, -, Hpay⟩
  ihave Hgs14 := (Entails.of_eq (rest_p2r_src (W1 m) (W2 m) c 14)) $$ Hpay
  sl_exec_parts
  have hhead : HeadIs (outN (xsOf m) (wsOf m) c.val 15) (sound_body.sl.Ho_16 m c) :=
    (headIs_step m c 14 _ _ (gather_read c 14 _ (closedOff_k0_off8_15 c).eq _ _)
      (headIs_step m c 13 _ _ (gather_read c 13 _ (closedOff_k0_off8_1 c).eq _ _)
      (headIs_step m c 12 _ _ (gather_read c 12 _ (closedOff_k0_off8_14 c).eq _ _)
      (headIs_step m c 11 _ _ (gather_read c 11 _ (closedOff_k0_off8_2 c).eq _ _)
      (headIs_step m c 10 _ _ (gather_read c 10 _ (closedOff_k0_off8_13 c).eq _ _)
      (headIs_step m c 9 _ _ (gather_read c 9 _ (closedOff_k0_off8_3 c).eq _ _)
      (headIs_step m c 8 _ _ (gather_read c 8 _ (closedOff_k0_off8_12 c).eq _ _)
      (headIs_step m c 7 _ _ (gather_read c 7 _ (closedOff_k0_off8_4 c).eq _ _)
      (headIs_step m c 6 _ _ (gather_read c 6 _ (closedOff_k0_off8_11 c).eq _ _)
      (headIs_step m c 5 _ _ (gather_read c 5 _ (closedOff_k0_off8_5 c).eq _ _)
      (headIs_step m c 4 _ _ (gather_read c 4 _ (closedOff_k0_off8_10 c).eq _ _)
      (headIs_step m c 3 _ _ (gather_read c 3 _ (closedOff_k0_off8_6 c).eq _ _)
      (headIs_step m c 2 _ _ (gather_read c 2 _ (closedOff_k0_off8_9 c).eq _ _)
      (headIs_step m c 1 _ _ (gather_read c 1 _ (closedOff_k0_off8_7 c).eq _ _)
      (headIs_step m c 0 _ _ (gather_read c 0 _ (closedOff_k0_off8_8 c).eq _ _)
      (headIs_base _ _ _ (out0_val m c _)))))))))))))))))
  have hout : (Memref.whole cc0_stg2_0 : Memref sig .tc .vmem S32x1024 .f32).view.writes (Elt F) fo (sound_body.sl.Ho_16 m c) = outAt m c :=
    out_of_head c fo _ _ hhead
  imod (close_dma m κ c (p1sS 0) (used_p1s c 0)) $$ [Hap1s0] with Hz1s0
  · isplitr; · iexact HIp1s0
    iexact Hap1s0
  imod (close_dma m κ c (p1sS 1) (used_p1s c 1)) $$ [Hap1s1] with Hz1s1
  · isplitr; · iexact HIp1s1
    iexact Hap1s1
  imod (close_dma m κ c (p1sS 2) (used_p1s c 2)) $$ [Hap1s2] with Hz1s2
  · isplitr; · iexact HIp1s2
    iexact Hap1s2
  imod (close_dma m κ c (p1sS 3) (used_p1s c 3)) $$ [Hap1s3] with Hz1s3
  · isplitr; · iexact HIp1s3
    iexact Hap1s3
  imod (close_dma m κ c (p1sS 4) (used_p1s c 4)) $$ [Hap1s4] with Hz1s4
  · isplitr; · iexact HIp1s4
    iexact Hap1s4
  imod (close_dma m κ c (p1sS 5) (used_p1s c 5)) $$ [Hap1s5] with Hz1s5
  · isplitr; · iexact HIp1s5
    iexact Hap1s5
  imod (close_dma m κ c (p1sS 6) (used_p1s c 6)) $$ [Hap1s6] with Hz1s6
  · isplitr; · iexact HIp1s6
    iexact Hap1s6
  imod (close_dma m κ c (p1sS 7) (used_p1s c 7)) $$ [Hap1s7] with Hz1s7
  · isplitr; · iexact HIp1s7
    iexact Hap1s7
  imod (close_dma m κ c (p1sS 8) (used_p1s c 8)) $$ [Hap1s8] with Hz1s8
  · isplitr; · iexact HIp1s8
    iexact Hap1s8
  imod (close_dma m κ c (p1sS 9) (used_p1s c 9)) $$ [Hap1s9] with Hz1s9
  · isplitr; · iexact HIp1s9
    iexact Hap1s9
  imod (close_dma m κ c (p1sS 10) (used_p1s c 10)) $$ [Hap1s10] with Hz1s10
  · isplitr; · iexact HIp1s10
    iexact Hap1s10
  imod (close_dma m κ c (p1sS 11) (used_p1s c 11)) $$ [Hap1s11] with Hz1s11
  · isplitr; · iexact HIp1s11
    iexact Hap1s11
  imod (close_dma m κ c (p1sS 12) (used_p1s c 12)) $$ [Hap1s12] with Hz1s12
  · isplitr; · iexact HIp1s12
    iexact Hap1s12
  imod (close_dma m κ c (p1sS 13) (used_p1s c 13)) $$ [Hap1s13] with Hz1s13
  · isplitr; · iexact HIp1s13
    iexact Hap1s13
  imod (close_dma m κ c (p1sS 14) (used_p1s c 14)) $$ [Hap1s14] with Hz1s14
  · isplitr; · iexact HIp1s14
    iexact Hap1s14
  imod (close_dma m κ c (p1sS 15) (used_p1s c 15)) $$ [Hap1s15] with Hz1s15
  · isplitr; · iexact HIp1s15
    iexact Hap1s15
  imod (close_dma m κ c (p1rS 0) (used_p1r c 0)) $$ [Hap1r0] with Hz1r0
  · isplitr; · iexact HIp1r0
    iexact Hap1r0
  imod (close_dma m κ c (p1rS 1) (used_p1r c 1)) $$ [Hap1r1] with Hz1r1
  · isplitr; · iexact HIp1r1
    iexact Hap1r1
  imod (close_dma m κ c (p1rS 2) (used_p1r c 2)) $$ [Hap1r2] with Hz1r2
  · isplitr; · iexact HIp1r2
    iexact Hap1r2
  imod (close_dma m κ c (p1rS 3) (used_p1r c 3)) $$ [Hap1r3] with Hz1r3
  · isplitr; · iexact HIp1r3
    iexact Hap1r3
  imod (close_dma m κ c (p1rS 4) (used_p1r c 4)) $$ [Hap1r4] with Hz1r4
  · isplitr; · iexact HIp1r4
    iexact Hap1r4
  imod (close_dma m κ c (p1rS 5) (used_p1r c 5)) $$ [Hap1r5] with Hz1r5
  · isplitr; · iexact HIp1r5
    iexact Hap1r5
  imod (close_dma m κ c (p1rS 6) (used_p1r c 6)) $$ [Hap1r6] with Hz1r6
  · isplitr; · iexact HIp1r6
    iexact Hap1r6
  imod (close_dma m κ c (p1rS 7) (used_p1r c 7)) $$ [Hap1r7] with Hz1r7
  · isplitr; · iexact HIp1r7
    iexact Hap1r7
  imod (close_dma m κ c (p1rS 8) (used_p1r c 8)) $$ [Hap1r8] with Hz1r8
  · isplitr; · iexact HIp1r8
    iexact Hap1r8
  imod (close_dma m κ c (p1rS 9) (used_p1r c 9)) $$ [Hap1r9] with Hz1r9
  · isplitr; · iexact HIp1r9
    iexact Hap1r9
  imod (close_dma m κ c (p1rS 10) (used_p1r c 10)) $$ [Hap1r10] with Hz1r10
  · isplitr; · iexact HIp1r10
    iexact Hap1r10
  imod (close_dma m κ c (p1rS 11) (used_p1r c 11)) $$ [Hap1r11] with Hz1r11
  · isplitr; · iexact HIp1r11
    iexact Hap1r11
  imod (close_dma m κ c (p1rS 12) (used_p1r c 12)) $$ [Hap1r12] with Hz1r12
  · isplitr; · iexact HIp1r12
    iexact Hap1r12
  imod (close_dma m κ c (p1rS 13) (used_p1r c 13)) $$ [Hap1r13] with Hz1r13
  · isplitr; · iexact HIp1r13
    iexact Hap1r13
  imod (close_dma m κ c (p1rS 14) (used_p1r c 14)) $$ [Hap1r14] with Hz1r14
  · isplitr; · iexact HIp1r14
    iexact Hap1r14
  imod (close_dma m κ c (p1rS 15) (used_p1r c 15)) $$ [Hap1r15] with Hz1r15
  · isplitr; · iexact HIp1r15
    iexact Hap1r15
  imod (close_dma m κ c (p2sS 0) (used_p2s c 0)) $$ [Hap2s0] with Hz2s0
  · isplitr; · iexact HIp2s0
    iexact Hap2s0
  imod (close_dma m κ c (p2sS 1) (used_p2s c 1)) $$ [Hap2s1] with Hz2s1
  · isplitr; · iexact HIp2s1
    iexact Hap2s1
  imod (close_dma m κ c (p2sS 2) (used_p2s c 2)) $$ [Hap2s2] with Hz2s2
  · isplitr; · iexact HIp2s2
    iexact Hap2s2
  imod (close_dma m κ c (p2sS 3) (used_p2s c 3)) $$ [Hap2s3] with Hz2s3
  · isplitr; · iexact HIp2s3
    iexact Hap2s3
  imod (close_dma m κ c (p2sS 4) (used_p2s c 4)) $$ [Hap2s4] with Hz2s4
  · isplitr; · iexact HIp2s4
    iexact Hap2s4
  imod (close_dma m κ c (p2sS 5) (used_p2s c 5)) $$ [Hap2s5] with Hz2s5
  · isplitr; · iexact HIp2s5
    iexact Hap2s5
  imod (close_dma m κ c (p2sS 6) (used_p2s c 6)) $$ [Hap2s6] with Hz2s6
  · isplitr; · iexact HIp2s6
    iexact Hap2s6
  imod (close_dma m κ c (p2sS 7) (used_p2s c 7)) $$ [Hap2s7] with Hz2s7
  · isplitr; · iexact HIp2s7
    iexact Hap2s7
  imod (close_dma m κ c (p2sS 8) (used_p2s c 8)) $$ [Hap2s8] with Hz2s8
  · isplitr; · iexact HIp2s8
    iexact Hap2s8
  imod (close_dma m κ c (p2sS 9) (used_p2s c 9)) $$ [Hap2s9] with Hz2s9
  · isplitr; · iexact HIp2s9
    iexact Hap2s9
  imod (close_dma m κ c (p2sS 10) (used_p2s c 10)) $$ [Hap2s10] with Hz2s10
  · isplitr; · iexact HIp2s10
    iexact Hap2s10
  imod (close_dma m κ c (p2sS 11) (used_p2s c 11)) $$ [Hap2s11] with Hz2s11
  · isplitr; · iexact HIp2s11
    iexact Hap2s11
  imod (close_dma m κ c (p2sS 12) (used_p2s c 12)) $$ [Hap2s12] with Hz2s12
  · isplitr; · iexact HIp2s12
    iexact Hap2s12
  imod (close_dma m κ c (p2sS 13) (used_p2s c 13)) $$ [Hap2s13] with Hz2s13
  · isplitr; · iexact HIp2s13
    iexact Hap2s13
  imod (close_dma m κ c (p2sS 14) (used_p2s c 14)) $$ [Hap2s14] with Hz2s14
  · isplitr; · iexact HIp2s14
    iexact Hap2s14
  imod (close_dma m κ c (p2rS (pairOf (src c (off 0)))) (used_p2r_src' c 0)) $$ [Hap2r0] with Hz2r0
  · isplitr; · iexact HIp2r0
    iexact Hap2r0
  imod (close_dma m κ c (p2rS (pairOf (src c (off 1)))) (used_p2r_src' c 1)) $$ [Hap2r1] with Hz2r1
  · isplitr; · iexact HIp2r1
    iexact Hap2r1
  imod (close_dma m κ c (p2rS (pairOf (src c (off 2)))) (used_p2r_src' c 2)) $$ [Hap2r2] with Hz2r2
  · isplitr; · iexact HIp2r2
    iexact Hap2r2
  imod (close_dma m κ c (p2rS (pairOf (src c (off 3)))) (used_p2r_src' c 3)) $$ [Hap2r3] with Hz2r3
  · isplitr; · iexact HIp2r3
    iexact Hap2r3
  imod (close_dma m κ c (p2rS (pairOf (src c (off 4)))) (used_p2r_src' c 4)) $$ [Hap2r4] with Hz2r4
  · isplitr; · iexact HIp2r4
    iexact Hap2r4
  imod (close_dma m κ c (p2rS (pairOf (src c (off 5)))) (used_p2r_src' c 5)) $$ [Hap2r5] with Hz2r5
  · isplitr; · iexact HIp2r5
    iexact Hap2r5
  imod (close_dma m κ c (p2rS (pairOf (src c (off 6)))) (used_p2r_src' c 6)) $$ [Hap2r6] with Hz2r6
  · isplitr; · iexact HIp2r6
    iexact Hap2r6
  imod (close_dma m κ c (p2rS (pairOf (src c (off 7)))) (used_p2r_src' c 7)) $$ [Hap2r7] with Hz2r7
  · isplitr; · iexact HIp2r7
    iexact Hap2r7
  imod (close_dma m κ c (p2rS (pairOf (src c (off 8)))) (used_p2r_src' c 8)) $$ [Hap2r8] with Hz2r8
  · isplitr; · iexact HIp2r8
    iexact Hap2r8
  imod (close_dma m κ c (p2rS (pairOf (src c (off 9)))) (used_p2r_src' c 9)) $$ [Hap2r9] with Hz2r9
  · isplitr; · iexact HIp2r9
    iexact Hap2r9
  imod (close_dma m κ c (p2rS (pairOf (src c (off 10)))) (used_p2r_src' c 10)) $$ [Hap2r10] with Hz2r10
  · isplitr; · iexact HIp2r10
    iexact Hap2r10
  imod (close_dma m κ c (p2rS (pairOf (src c (off 11)))) (used_p2r_src' c 11)) $$ [Hap2r11] with Hz2r11
  · isplitr; · iexact HIp2r11
    iexact Hap2r11
  imod (close_dma m κ c (p2rS (pairOf (src c (off 12)))) (used_p2r_src' c 12)) $$ [Hap2r12] with Hz2r12
  · isplitr; · iexact HIp2r12
    iexact Hap2r12
  imod (close_dma m κ c (p2rS (pairOf (src c (off 13)))) (used_p2r_src' c 13)) $$ [Hap2r13] with Hz2r13
  · isplitr; · iexact HIp2r13
    iexact Hap2r13
  imod (close_dma m κ c (p2rS (pairOf (src c (off 14)))) (used_p2r_src' c 14)) $$ [Hap2r14] with Hz2r14
  · isplitr; · iexact HIp2r14
    iexact Hap2r14
  imod (close_unused m κ c (p2rS (pairOf c)) (not_used_own c)) $$ [Hap2ru] with Hz2ru
  · isplitr; · iexact HIp2ru
    iexact Hap2ru
  sl_step
  iapply Hk
  unfold bodyPost
  isplitl [Ho]
  · rw [show ((Memref.whole cc0_stg2_0 : Memref sig .tc .vmem S32x1024 .f32).view.writes (Elt F) fo (sound_body.sl.Ho_16 m c)) = outAt m c from hout]; iexact Ho
  isplitl [Hx]; · iexact Hx
  isplitl [Hw]; · iexact Hw
  isplitl [Hap1s0_pay1 Hap1s1_pay1 Hap1s2_pay1 Hap1s3_pay1 Hap1s4_pay1 Hap1s5_pay1 Hap1s6_pay1 Hap1s7_pay1 Hap1s8_pay1 Hap1s9_pay1 Hap1s10_pay1 Hap1s11_pay1 Hap1s12_pay1 Hap1s13_pay1 Hap1s14_pay1 Hap1s15_pay1]
  · iapply (stage_join c ![put c (slot16 stageM 0 (of_decide_eq_true rfl)) (W1 m c (cross c (offA 0))), put c (slot16 stageM 1 (of_decide_eq_true rfl)) (W1 m c (cross c (offA 1))), put c (slot16 stageM 2 (of_decide_eq_true rfl)) (W1 m c (cross c (offA 2))), put c (slot16 stageM 3 (of_decide_eq_true rfl)) (W1 m c (cross c (offA 3))), put c (slot16 stageM 4 (of_decide_eq_true rfl)) (W1 m c (cross c (offA 4))), put c (slot16 stageM 5 (of_decide_eq_true rfl)) (W1 m c (cross c (offA 5))), put c (slot16 stageM 6 (of_decide_eq_true rfl)) (W1 m c (cross c (offA 6))), put c (slot16 stageM 7 (of_decide_eq_true rfl)) (W1 m c (cross c (offA 7))), put c (slot16 stageM 8 (of_decide_eq_true rfl)) (W1 m c (cross c (offA 8))), put c (slot16 stageM 9 (of_decide_eq_true rfl)) (W1 m c (cross c (offA 9))), put c (slot16 stageM 10 (of_decide_eq_true rfl)) (W1 m c (cross c (offA 10))), put c (slot16 stageM 11 (of_decide_eq_true rfl)) (W1 m c (cross c (offA 11))), put c (slot16 stageM 12 (of_decide_eq_true rfl)) (W1 m c (cross c (offA 12))), put c (slot16 stageM 13 (of_decide_eq_true rfl)) (W1 m c (cross c (offA 13))), put c (slot16 stageM 14 (of_decide_eq_true rfl)) (W1 m c (cross c (offA 14))), put c (slot16 stageM 15 (of_decide_eq_true rfl)) (W1 m c (cross c (offA 15)))])
    isplitl [Hap1s0_pay1]; · iexact Hap1s0_pay1
    isplitl [Hap1s1_pay1]; · iexact Hap1s1_pay1
    isplitl [Hap1s2_pay1]; · iexact Hap1s2_pay1
    isplitl [Hap1s3_pay1]; · iexact Hap1s3_pay1
    isplitl [Hap1s4_pay1]; · iexact Hap1s4_pay1
    isplitl [Hap1s5_pay1]; · iexact Hap1s5_pay1
    isplitl [Hap1s6_pay1]; · iexact Hap1s6_pay1
    isplitl [Hap1s7_pay1]; · iexact Hap1s7_pay1
    isplitl [Hap1s8_pay1]; · iexact Hap1s8_pay1
    isplitl [Hap1s9_pay1]; · iexact Hap1s9_pay1
    isplitl [Hap1s10_pay1]; · iexact Hap1s10_pay1
    isplitl [Hap1s11_pay1]; · iexact Hap1s11_pay1
    isplitl [Hap1s12_pay1]; · iexact Hap1s12_pay1
    isplitl [Hap1s13_pay1]; · iexact Hap1s13_pay1
    isplitl [Hap1s14_pay1]; · iexact Hap1s14_pay1
    iexact Hap1s15_pay1
  isplitl [Hap1r0_pay1 Hap1r1_pay1 Hap1r2_pay1 Hap1r3_pay1 Hap1r4_pay1 Hap1r5_pay1 Hap1r6_pay1 Hap1r7_pay1 Hap1r8_pay1 Hap1r9_pay1 Hap1r10_pay1 Hap1r11_pay1 Hap1r12_pay1 Hap1r13_pay1 Hap1r14_pay1 Hap1r15_pay1]
  · iapply (inbox_join c ![put c (slot16 inboxM 0 (of_decide_eq_true rfl)) (W1 m (nbr c) (peer c (offA 0))), put c (slot16 inboxM 1 (of_decide_eq_true rfl)) (W1 m (nbr c) (peer c (offA 1))), put c (slot16 inboxM 2 (of_decide_eq_true rfl)) (W1 m (nbr c) (peer c (offA 2))), put c (slot16 inboxM 3 (of_decide_eq_true rfl)) (W1 m (nbr c) (peer c (offA 3))), put c (slot16 inboxM 4 (of_decide_eq_true rfl)) (W1 m (nbr c) (peer c (offA 4))), put c (slot16 inboxM 5 (of_decide_eq_true rfl)) (W1 m (nbr c) (peer c (offA 5))), put c (slot16 inboxM 6 (of_decide_eq_true rfl)) (W1 m (nbr c) (peer c (offA 6))), put c (slot16 inboxM 7 (of_decide_eq_true rfl)) (W1 m (nbr c) (peer c (offA 7))), put c (slot16 inboxM 8 (of_decide_eq_true rfl)) (W1 m (nbr c) (peer c (offA 8))), put c (slot16 inboxM 9 (of_decide_eq_true rfl)) (W1 m (nbr c) (peer c (offA 9))), put c (slot16 inboxM 10 (of_decide_eq_true rfl)) (W1 m (nbr c) (peer c (offA 10))), put c (slot16 inboxM 11 (of_decide_eq_true rfl)) (W1 m (nbr c) (peer c (offA 11))), put c (slot16 inboxM 12 (of_decide_eq_true rfl)) (W1 m (nbr c) (peer c (offA 12))), put c (slot16 inboxM 13 (of_decide_eq_true rfl)) (W1 m (nbr c) (peer c (offA 13))), put c (slot16 inboxM 14 (of_decide_eq_true rfl)) (W1 m (nbr c) (peer c (offA 14))), put c (slot16 inboxM 15 (of_decide_eq_true rfl)) (W1 m (nbr c) (peer c (offA 15)))])
    isplitl [Hap1r0_pay1]; · iexact Hap1r0_pay1
    isplitl [Hap1r1_pay1]; · iexact Hap1r1_pay1
    isplitl [Hap1r2_pay1]; · iexact Hap1r2_pay1
    isplitl [Hap1r3_pay1]; · iexact Hap1r3_pay1
    isplitl [Hap1r4_pay1]; · iexact Hap1r4_pay1
    isplitl [Hap1r5_pay1]; · iexact Hap1r5_pay1
    isplitl [Hap1r6_pay1]; · iexact Hap1r6_pay1
    isplitl [Hap1r7_pay1]; · iexact Hap1r7_pay1
    isplitl [Hap1r8_pay1]; · iexact Hap1r8_pay1
    isplitl [Hap1r9_pay1]; · iexact Hap1r9_pay1
    isplitl [Hap1r10_pay1]; · iexact Hap1r10_pay1
    isplitl [Hap1r11_pay1]; · iexact Hap1r11_pay1
    isplitl [Hap1r12_pay1]; · iexact Hap1r12_pay1
    isplitl [Hap1r13_pay1]; · iexact Hap1r13_pay1
    isplitl [Hap1r14_pay1]; · iexact Hap1r14_pay1
    iexact Hap1r15_pay1
  isplitl [Hap2s0_pay1 Hap2s1_pay1 Hap2s2_pay1 Hap2s3_pay1 Hap2s4_pay1 Hap2s5_pay1 Hap2s6_pay1 Hap2s7_pay1 Hap2s8_pay1 Hap2s9_pay1 Hap2s10_pay1 Hap2s11_pay1 Hap2s12_pay1 Hap2s13_pay1 Hap2s14_pay1]
  · iapply (outbox_join c ![put c (slot15 outboxM 0 (of_decide_eq_true rfl)) (W2 m c (peer c (off 0))), put c (slot15 outboxM 1 (of_decide_eq_true rfl)) (W2 m c (peer c (off 1))), put c (slot15 outboxM 2 (of_decide_eq_true rfl)) (W2 m c (peer c (off 2))), put c (slot15 outboxM 3 (of_decide_eq_true rfl)) (W2 m c (peer c (off 3))), put c (slot15 outboxM 4 (of_decide_eq_true rfl)) (W2 m c (peer c (off 4))), put c (slot15 outboxM 5 (of_decide_eq_true rfl)) (W2 m c (peer c (off 5))), put c (slot15 outboxM 6 (of_decide_eq_true rfl)) (W2 m c (peer c (off 6))), put c (slot15 outboxM 7 (of_decide_eq_true rfl)) (W2 m c (peer c (off 7))), put c (slot15 outboxM 8 (of_decide_eq_true rfl)) (W2 m c (peer c (off 8))), put c (slot15 outboxM 9 (of_decide_eq_true rfl)) (W2 m c (peer c (off 9))), put c (slot15 outboxM 10 (of_decide_eq_true rfl)) (W2 m c (peer c (off 10))), put c (slot15 outboxM 11 (of_decide_eq_true rfl)) (W2 m c (peer c (off 11))), put c (slot15 outboxM 12 (of_decide_eq_true rfl)) (W2 m c (peer c (off 12))), put c (slot15 outboxM 13 (of_decide_eq_true rfl)) (W2 m c (peer c (off 13))), put c (slot15 outboxM 14 (of_decide_eq_true rfl)) (W2 m c (peer c (off 14)))])
    isplitl [Hap2s0_pay1]; · iexact Hap2s0_pay1
    isplitl [Hap2s1_pay1]; · iexact Hap2s1_pay1
    isplitl [Hap2s2_pay1]; · iexact Hap2s2_pay1
    isplitl [Hap2s3_pay1]; · iexact Hap2s3_pay1
    isplitl [Hap2s4_pay1]; · iexact Hap2s4_pay1
    isplitl [Hap2s5_pay1]; · iexact Hap2s5_pay1
    isplitl [Hap2s6_pay1]; · iexact Hap2s6_pay1
    isplitl [Hap2s7_pay1]; · iexact Hap2s7_pay1
    isplitl [Hap2s8_pay1]; · iexact Hap2s8_pay1
    isplitl [Hap2s9_pay1]; · iexact Hap2s9_pay1
    isplitl [Hap2s10_pay1]; · iexact Hap2s10_pay1
    isplitl [Hap2s11_pay1]; · iexact Hap2s11_pay1
    isplitl [Hap2s12_pay1]; · iexact Hap2s12_pay1
    isplitl [Hap2s13_pay1]; · iexact Hap2s13_pay1
    iexact Hap2s14_pay1
  isplitl [Hgs0 Hgs1 Hgs2 Hgs3 Hgs4 Hgs5 Hgs6 Hgs7 Hgs8 Hgs9 Hgs10 Hgs11 Hgs12 Hgs13 Hgs14 Hgown]
  · iapply (gather_join c ![put c (slot16 gatherM (rr (src c (off 0)).val) (rr_lt (src c (off 0)))) (W2 m (src c (off 0)) c), put c (slot16 gatherM (rr (src c (off 1)).val) (rr_lt (src c (off 1)))) (W2 m (src c (off 1)) c), put c (slot16 gatherM (rr (src c (off 2)).val) (rr_lt (src c (off 2)))) (W2 m (src c (off 2)) c), put c (slot16 gatherM (rr (src c (off 3)).val) (rr_lt (src c (off 3)))) (W2 m (src c (off 3)) c), put c (slot16 gatherM (rr (src c (off 4)).val) (rr_lt (src c (off 4)))) (W2 m (src c (off 4)) c), put c (slot16 gatherM (rr (src c (off 5)).val) (rr_lt (src c (off 5)))) (W2 m (src c (off 5)) c), put c (slot16 gatherM (rr (src c (off 6)).val) (rr_lt (src c (off 6)))) (W2 m (src c (off 6)) c), put c (slot16 gatherM (rr (src c (off 7)).val) (rr_lt (src c (off 7)))) (W2 m (src c (off 7)) c), put c (slot16 gatherM (rr (src c (off 8)).val) (rr_lt (src c (off 8)))) (W2 m (src c (off 8)) c), put c (slot16 gatherM (rr (src c (off 9)).val) (rr_lt (src c (off 9)))) (W2 m (src c (off 9)) c), put c (slot16 gatherM (rr (src c (off 10)).val) (rr_lt (src c (off 10)))) (W2 m (src c (off 10)) c), put c (slot16 gatherM (rr (src c (off 11)).val) (rr_lt (src c (off 11)))) (W2 m (src c (off 11)) c), put c (slot16 gatherM (rr (src c (off 12)).val) (rr_lt (src c (off 12)))) (W2 m (src c (off 12)) c), put c (slot16 gatherM (rr (src c (off 13)).val) (rr_lt (src c (off 13)))) (W2 m (src c (off 13)) c), put c (slot16 gatherM (rr (src c (off 14)).val) (rr_lt (src c (off 14)))) (W2 m (src c (off 14)) c)] f3)
    isplitl [Hgs0]; · iexact Hgs0
    isplitl [Hgs1]; · iexact Hgs1
    isplitl [Hgs2]; · iexact Hgs2
    isplitl [Hgs3]; · iexact Hgs3
    isplitl [Hgs4]; · iexact Hgs4
    isplitl [Hgs5]; · iexact Hgs5
    isplitl [Hgs6]; · iexact Hgs6
    isplitl [Hgs7]; · iexact Hgs7
    isplitl [Hgs8]; · iexact Hgs8
    isplitl [Hgs9]; · iexact Hgs9
    isplitl [Hgs10]; · iexact Hgs10
    isplitl [Hgs11]; · iexact Hgs11
    isplitl [Hgs12]; · iexact Hgs12
    isplitl [Hgs13]; · iexact Hgs13
    isplitl [Hgs14]; · iexact Hgs14
    iexact Hgown
  isplitl [Hz1s0]; · iexact Hz1s0
  isplitl [Hz1s1]; · iexact Hz1s1
  isplitl [Hz1s2]; · iexact Hz1s2
  isplitl [Hz1s3]; · iexact Hz1s3
  isplitl [Hz1s4]; · iexact Hz1s4
  isplitl [Hz1s5]; · iexact Hz1s5
  isplitl [Hz1s6]; · iexact Hz1s6
  isplitl [Hz1s7]; · iexact Hz1s7
  isplitl [Hz1s8]; · iexact Hz1s8
  isplitl [Hz1s9]; · iexact Hz1s9
  isplitl [Hz1s10]; · iexact Hz1s10
  isplitl [Hz1s11]; · iexact Hz1s11
  isplitl [Hz1s12]; · iexact Hz1s12
  isplitl [Hz1s13]; · iexact Hz1s13
  isplitl [Hz1s14]; · iexact Hz1s14
  isplitl [Hz1s15]; · iexact Hz1s15
  isplitl [Hz1r0]; · iexact Hz1r0
  isplitl [Hz1r1]; · iexact Hz1r1
  isplitl [Hz1r2]; · iexact Hz1r2
  isplitl [Hz1r3]; · iexact Hz1r3
  isplitl [Hz1r4]; · iexact Hz1r4
  isplitl [Hz1r5]; · iexact Hz1r5
  isplitl [Hz1r6]; · iexact Hz1r6
  isplitl [Hz1r7]; · iexact Hz1r7
  isplitl [Hz1r8]; · iexact Hz1r8
  isplitl [Hz1r9]; · iexact Hz1r9
  isplitl [Hz1r10]; · iexact Hz1r10
  isplitl [Hz1r11]; · iexact Hz1r11
  isplitl [Hz1r12]; · iexact Hz1r12
  isplitl [Hz1r13]; · iexact Hz1r13
  isplitl [Hz1r14]; · iexact Hz1r14
  isplitl [Hz1r15]; · iexact Hz1r15
  isplitl [Hz2s0]; · iexact Hz2s0
  isplitl [Hz2s1]; · iexact Hz2s1
  isplitl [Hz2s2]; · iexact Hz2s2
  isplitl [Hz2s3]; · iexact Hz2s3
  isplitl [Hz2s4]; · iexact Hz2s4
  isplitl [Hz2s5]; · iexact Hz2s5
  isplitl [Hz2s6]; · iexact Hz2s6
  isplitl [Hz2s7]; · iexact Hz2s7
  isplitl [Hz2s8]; · iexact Hz2s8
  isplitl [Hz2s9]; · iexact Hz2s9
  isplitl [Hz2s10]; · iexact Hz2s10
  isplitl [Hz2s11]; · iexact Hz2s11
  isplitl [Hz2s12]; · iexact Hz2s12
  isplitl [Hz2s13]; · iexact Hz2s13
  isplitl [Hz2s14]; · iexact Hz2s14
  isplitl [Hz2r0]; · iexact Hz2r0
  isplitl [Hz2r1]; · iexact Hz2r1
  isplitl [Hz2r2]; · iexact Hz2r2
  isplitl [Hz2r3]; · iexact Hz2r3
  isplitl [Hz2r4]; · iexact Hz2r4
  isplitl [Hz2r5]; · iexact Hz2r5
  isplitl [Hz2r6]; · iexact Hz2r6
  isplitl [Hz2r7]; · iexact Hz2r7
  isplitl [Hz2r8]; · iexact Hz2r8
  isplitl [Hz2r9]; · iexact Hz2r9
  isplitl [Hz2r10]; · iexact Hz2r10
  isplitl [Hz2r11]; · iexact Hz2r11
  isplitl [Hz2r12]; · iexact Hz2r12
  isplitl [Hz2r13]; · iexact Hz2r13
  isplitl [Hz2r14]; · iexact Hz2r14
  isplitl [Hz2ru]; · iexact Hz2ru
  iexists _; iexact HO

end Cert.Kernel.Proto

end
-- ==== Proof.LaunchK.lean ====
/-
  The launch: the levels of the cells and the evidence for every wait, the ghost state dealt to the
  devices, the scratch buffers cut into slots, the proof data of the one grid point, and the run of
  the whole mesh from the body's run.
-/
import proofs.«900440_g7700000000000441_dist_gemm_rs_m1024_k1024_n1024_f32_none_v7x_i32_1_alg».proof.Proof.BodyK
import proofs.«900440_g7700000000000441_dist_gemm_rs_m1024_k1024_n1024_f32_none_v7x_i32_1_alg».proof.Proof.Gen.Kernel.Frame
import proofs.«900440_g7700000000000441_dist_gemm_rs_m1024_k1024_n1024_f32_none_v7x_i32_1_alg».proof.Proof.JoinsK
import Idealize.ShloMosaic.Lib.Pipeline.Launch
import Idealize.ShloMosaic.Lib.Pipeline.Kit
import Idealize.ShloMosaic.Lib.Tactic

set_option maxRecDepth 16384

noncomputable section

namespace Cert.Kernel.Proto

open Cert.Kernel Cert.Kernel.Gen Cert.Mesh
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The levels -/

/-- Every TensorCore cell carries the one index. -/
def L (g : GSem nD τ sig) : Finset Unit := if g.1.2 = .tc then {()} else ∅
/-- The barrier cells at 1, the first-phase receive cells at 2, the second-phase receive cells at 3,
    everything else (staging, send cells) at 0. -/
def lv (g : GSem nD τ sig) (_ : Unit) : ℕ :=
  match g.2 with
  | .reg s => if s = barS then 1 else 0
  | .dma q => if 19 ≤ q.val ∧ q.val < 35 then 2 else if 50 ≤ q.val then 3 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) : () ∈ L ((c : Thread nD τ), sm) := by rw [L_tc]; exact Finset.mem_singleton_self _

theorem lv_bar (c : Dev nD) : lv (barCell c) () = 1 := by dsimp only [lv]; exact if_pos rfl
theorem lv_p1r (c : Dev nD) (k : Fin 16) : lv (dcell c (p1rS k)) () = 2 := by
  dsimp only [lv]; exact if_pos ⟨by show 19 ≤ 19 + k.val; omega, by show 19 + k.val < 35; have := k.isLt; omega⟩
theorem lv_p2r (c : Dev nD) (k : Fin 16) : lv (dcell c (p2rS k)) () = 3 := by
  dsimp only [lv]
  rw [if_neg (fun h => by have : 50 + k.val < 35 := h.2; omega)]
  exact if_pos (by show 50 ≤ 50 + k.val; omega)
theorem lv_stage (c : Dev nD) (q : DmaSem sig) (hq : q.val < 3) : lv (dcell c q) () = 0 := by
  dsimp only [lv]; rw [if_neg (fun h => by omega), if_neg (fun h => by omega)]

/-- Everything a tally charges lies above level `n`. -/
def Above (n : ℕ) (D : CellTallies nD τ sig Unit) : Prop := ∀ (g : GSem nD τ sig) (u : Unit), 0 < D g u → u ∈ L g ∧ n < lv g u

theorem above_add {n : ℕ} {D₁ D₂ : CellTallies nD τ sig Unit} (h₁ : Above n D₁) (h₂ : Above n D₂) : Above n (D₁ + D₂) :=
  fun g u h => (Pipeline.add_pos_cases h).elim (h₁ g u) (h₂ g u)
theorem above_zero {n : ℕ} : Above n (0 : CellTallies nD τ sig Unit) := fun g u h => absurd h (Nat.lt_irrefl 0)
theorem above_tally {n k : ℕ} (c : Dev nD) (sm : SemLoc sig) (h : n < lv ((c : Thread nD τ), sm) ()) :
    Above n (tallyAt ((c : Thread nD τ), sm) () k) := fun g u hg => by
  rw [tallyAt_apply] at hg
  by_cases hh : g = ((c : Thread nD τ), sm) ∧ u = ()
  · rw [hh.1]; exact ⟨mem_L c sm, h⟩
  · rw [if_neg hh] at hg; exact absurd hg (Nat.lt_irrefl 0)
theorem above_mono {n n' : ℕ} {D : CellTallies nD τ sig Unit} (hn : n' ≤ n) (h : Above n D) : Above n' D :=
  fun g u hg => ⟨(h g u hg).1, Nat.lt_of_le_of_lt hn (h g u hg).2⟩

theorem above_debtCell (c : Dev nD) (j : ℕ) (hj : j < 31) : Above (if j < 16 then 1 else 2) (tallyAt (debtCellOf c j) () N) := by
  unfold debtCellOf
  by_cases h : j < 16
  · rw [dif_pos h, if_pos h]; exact above_tally _ _ (by rw [lv_p1r]; decide)
  · rw [dif_neg h, dif_pos (show j - 16 < 15 by omega), if_neg h]; exact above_tally _ _ (by rw [lv_p2r]; decide)

theorem above_debt (c : Dev nD) (s : ℕ) : Above (if s < 16 then 1 else 2) (debt c s) := fun g u h => by
  unfold debt at h
  obtain ⟨j, hj, hp⟩ := Pipeline.sum_pos_exists h
  have hj' : j < 31 - s := Finset.mem_range.mp hj
  refine above_mono ?_ (above_debtCell c (30 - j) (by omega)) g u hp
  by_cases hs : s < 16
  · rw [if_pos hs]; split <;> decide
  · rw [if_neg hs, if_neg (by omega)]

theorem mayWait_above (c : Dev nD) (sm : SemLoc sig) (O : CellTallies nD τ sig Unit) (h : Above (lv ((c : Thread nD τ), sm) ()) O) :
    (levAts L lv : sProp 𝕄) ⊢ MayWait (c : Thread nD τ) sm () O :=
  Pipeline.mayWait_of_levAts (mem_L c sm) h

/-- At the barrier wait a device owes only receive cells. -/
theorem mayWait_bar (c : Dev nD) : (levAts L lv : sProp 𝕄) ⊢ MayWait (c : Thread nD τ) (.reg barS) () (debt c 0) :=
  mayWait_above c _ _ (by rw [show lv ((c : Thread nD τ), .reg barS) () = 1 from lv_bar c]; exact above_debt c 0)

/-- At a first-phase receive wait what is still owed is only second-phase receive cells. -/
theorem mayWait_p1r (c : Dev nD) (k : Fin 16) (hk : k.val < 15) :
    (levAts L lv : sProp 𝕄) ⊢ MayWait (c : Thread nD τ) (.dma (p1rS k)) () (debt c (16 + k.val)) :=
  mayWait_above c _ _ (by
    rw [show lv ((c : Thread nD τ), .dma (p1rS k)) () = 2 from lv_p1r c k]
    have := above_debt c (16 + k.val); rwa [if_neg (by omega)] at this)

theorem dup_sep {P A B : sProp 𝕄} [BI.Persistent P] (h1 : P ⊢ A) (h2 : P ⊢ B) : P ⊢ iprop(A ∗ B) := by
  iintro #H
  isplitr
  · iapply h1; iexact H
  · iapply h2; iexact H

/-- The evidence for all the waits of a device on cells others pay. -/
theorem mayWaits_intro (c : Dev nD) : (levAts L lv : sProp 𝕄) ⊢ mayWaits (F := F) c := by
  unfold mayWaits
  exact dup_sep (mayWait_bar c) (dup_sep (mayWait_p1r c 0 (by decide)) (dup_sep (mayWait_p1r c 1 (by decide)) (dup_sep (mayWait_p1r c 2 (by decide))
    (dup_sep (mayWait_p1r c 3 (by decide)) (dup_sep (mayWait_p1r c 4 (by decide)) (dup_sep (mayWait_p1r c 5 (by decide)) (dup_sep (mayWait_p1r c 6 (by decide))
    (dup_sep (mayWait_p1r c 7 (by decide)) (dup_sep (mayWait_p1r c 8 (by decide)) (dup_sep (mayWait_p1r c 9 (by decide)) (dup_sep (mayWait_p1r c 10 (by decide))
    (dup_sep (mayWait_p1r c 11 (by decide)) (dup_sep (mayWait_p1r c 12 (by decide)) (dup_sep (mayWait_p1r c 13 (by decide)) (mayWait_p1r c 14 (by decide))))))))))))))))

/-- What a device owes at entry lies above the staging cells' level. -/
theorem above_O₀ (c : Dev nD) : Above 0 (O₀ c) := by
  unfold O₀
  have hb (d : Dev nD) : Above 0 (tallyAt (barCell d) () 1) := above_tally d _ (by rw [show lv ((d : Thread nD τ), SemLoc.reg barS) () = 1 from lv_bar d]; decide)
  have hd : Above 0 (debt c 0) := above_mono (Nat.zero_le _) (above_debt c 0)
  repeat' (first | exact hd | exact hb _ | apply above_add)

/-! ## Dealing a conjunction out of five lists, each taken from its head -/

theorem deal {A S S' T T' : sProp 𝕄} (hs : S ⊢ iprop(A ∗ S')) (ht : iprop(A ∗ T') ⊢ T) (h : S' ⊢ T') : S ⊢ T :=
  hs.trans ((sep_mono_right h).trans ht)
theorem putMid {A R Y : sProp 𝕄} : iprop(A ∗ (R ∗ Y)) ⊢ iprop((A ∗ R) ∗ Y) := by
  iintro ⟨HA, HR, HY⟩
  isplitr [HY]
  · isplitl [HA]; · iexact HA
    iexact HR
  · iexact HY
theorem putEnd {A Y : sProp 𝕄} : iprop(A ∗ Y) ⊢ iprop(A ∗ Y) := BI.Entails.refl _
theorem dealFin {A : sProp 𝕄} : iprop(emp ∗ emp ∗ emp ∗ emp ∗ A) ⊢ A := by
  iintro ⟨-, -, -, -, HA⟩; iexact HA
theorem pick1 {A X1 X2 X3 X4 X5 : sProp 𝕄} : iprop((A ∗ X1) ∗ X2 ∗ X3 ∗ X4 ∗ X5) ⊢ iprop(A ∗ (X1 ∗ X2 ∗ X3 ∗ X4 ∗ X5)) := by
  iintro ⟨⟨HA, H1⟩, H2, H3, H4, H5⟩
  isplitl [HA]; · iexact HA
  isplitl [H1]; · iexact H1
  isplitl [H2]; · iexact H2
  isplitl [H3]; · iexact H3
  isplitl [H4]; · iexact H4
  iexact H5
theorem pick1L {A X2 X3 X4 X5 : sProp 𝕄} : iprop(A ∗ X2 ∗ X3 ∗ X4 ∗ X5) ⊢ iprop(A ∗ (emp ∗ X2 ∗ X3 ∗ X4 ∗ X5)) := by
  iintro ⟨HA, H2, H3, H4, H5⟩
  isplitl [HA]; · iexact HA
  isplitr; · iempintro
  isplitl [H2]; · iexact H2
  isplitl [H3]; · iexact H3
  isplitl [H4]; · iexact H4
  iexact H5
theorem pick2 {A X1 X2 X3 X4 X5 : sProp 𝕄} : iprop(X1 ∗ (A ∗ X2) ∗ X3 ∗ X4 ∗ X5) ⊢ iprop(A ∗ (X1 ∗ X2 ∗ X3 ∗ X4 ∗ X5)) := by
  iintro ⟨H1, ⟨HA, H2⟩, H3, H4, H5⟩
  isplitl [HA]; · iexact HA
  isplitl [H1]; · iexact H1
  isplitl [H2]; · iexact H2
  isplitl [H3]; · iexact H3
  isplitl [H4]; · iexact H4
  iexact H5
theorem pick2L {A X1 X3 X4 X5 : sProp 𝕄} : iprop(X1 ∗ A ∗ X3 ∗ X4 ∗ X5) ⊢ iprop(A ∗ (X1 ∗ emp ∗ X3 ∗ X4 ∗ X5)) := by
  iintro ⟨H1, HA, H3, H4, H5⟩
  isplitl [HA]; · iexact HA
  isplitl [H1]; · iexact H1
  isplitr; · iempintro
  isplitl [H3]; · iexact H3
  isplitl [H4]; · iexact H4
  iexact H5
theorem pick3 {A X1 X2 X3 X4 X5 : sProp 𝕄} : iprop(X1 ∗ X2 ∗ (A ∗ X3) ∗ X4 ∗ X5) ⊢ iprop(A ∗ (X1 ∗ X2 ∗ X3 ∗ X4 ∗ X5)) := by
  iintro ⟨H1, H2, ⟨HA, H3⟩, H4, H5⟩
  isplitl [HA]; · iexact HA
  isplitl [H1]; · iexact H1
  isplitl [H2]; · iexact H2
  isplitl [H3]; · iexact H3
  isplitl [H4]; · iexact H4
  iexact H5
theorem pick3L {A X1 X2 X4 X5 : sProp 𝕄} : iprop(X1 ∗ X2 ∗ A ∗ X4 ∗ X5) ⊢ iprop(A ∗ (X1 ∗ X2 ∗ emp ∗ X4 ∗ X5)) := by
  iintro ⟨H1, H2, HA, H4, H5⟩
  isplitl [HA]; · iexact HA
  isplitl [H1]; · iexact H1
  isplitl [H2]; · iexact H2
  isplitr; · iempintro
  isplitl [H4]; · iexact H4
  iexact H5
theorem pick4 {A X1 X2 X3 X4 X5 : sProp 𝕄} : iprop(X1 ∗ X2 ∗ X3 ∗ (A ∗ X4) ∗ X5) ⊢ iprop(A ∗ (X1 ∗ X2 ∗ X3 ∗ X4 ∗ X5)) := by
  iintro ⟨H1, H2, H3, ⟨HA, H4⟩, H5⟩
  isplitl [HA]; · iexact HA
  isplitl [H1]; · iexact H1
  isplitl [H2]; · iexact H2
  isplitl [H3]; · iexact H3
  isplitl [H4]; · iexact H4
  iexact H5
theorem pick4L {A X1 X2 X3 X5 : sProp 𝕄} : iprop(X1 ∗ X2 ∗ X3 ∗ A ∗ X5) ⊢ iprop(A ∗ (X1 ∗ X2 ∗ X3 ∗ emp ∗ X5)) := by
  iintro ⟨H1, H2, H3, HA, H5⟩
  isplitl [HA]; · iexact HA
  isplitl [H1]; · iexact H1
  isplitl [H2]; · iexact H2
  isplitl [H3]; · iexact H3
  isplitr; · iempintro
  iexact H5

/-! ## The cells and the tokens of the launch -/

/-- The kernel's scratch DMA semaphores by family: first-phase send and receive, second-phase send and receive. -/
abbrev DI : Type := Fin 16 ⊕ Fin 16 ⊕ Fin 15 ⊕ Fin 16
def dq : DI → DmaSem sig
  | .inl k => p1sS k
  | .inr (.inl k) => p1rS k
  | .inr (.inr (.inl k)) => p2sS k
  | .inr (.inr (.inr k)) => p2rS k
abbrev osem : DI → SemLoc sig := fun k => .dma (dq k)
/-- A device's cells: the barrier cell and the 63 scratch cells. -/
abbrev CI : Type := Unit ⊕ DI
def csem : CI → SemLoc sig
  | .inl _ => .reg barS
  | .inr k => .dma (dq k)
abbrev kcell (ck : Dev nD × CI) : GSem nD τ sig := ((ck.1 : Thread nD τ), csem ck.2)

theorem csem_injective : Function.Injective csem := by decide
theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def allCells : Finset (GSem nD τ sig) := Finset.univ.map ⟨kcell, kcell_injective⟩

/-- Every duty name of every cell gets a token; those of no duty are never used. -/
abbrev tokOf (x : (Dev nD × CI) × DN) : GSem nD τ sig × ℕ × DN := (kcell x.1, 0, x.2)
theorem tokOf_injective : Function.Injective (tokOf : (Dev nD × CI) × DN → GSem nD τ sig × ℕ × DN) := by
  rintro ⟨ck, d⟩ ⟨ck', d'⟩ h
  have h1 : ck = ck' := kcell_injective (congrArg Prod.fst h)
  have h2 : d = d' := congrArg (fun x : GSem nD τ sig × ℕ × DN => x.2.2) h
  rw [h1, h2]
def allToks : Finset (GSem nD τ sig × ℕ × DN) := Finset.univ.map ⟨tokOf, tokOf_injective⟩

def u₀ : UU := (initOf (Pipeline.cells cfgs cellOf_inj) (Pipeline.launchToks cfgs cellOf_inj), initOf allCells allToks)

theorem ownSemFacts : Pipeline.OwnSemFacts cfg0.spec osem := by decide

/-! ## The proof data -/

section Launch

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A scratch buffer whole, at some contents. -/
abbrev scr (c : Dev nD) (b : Ref sig .tc) : sProp 𝕄 :=
  iprop(∃ f : Buf (Elt F) ((c : Thread nD τ).loc b), ((c : Thread nD τ).loc b) ↦{fullShare} f)
def scr4 (c : Dev nD) : sProp 𝕄 := iprop(scr c cc0_scratch0 ∗ scr c cc0_scratch1 ∗ scr c cc0_scratch2 ∗ scr c cc0_scratch3)

/-- What a device's body starts from besides its buffers: the ghost state at some names, its launch credit, the levels. -/
def start (c : Dev nD) : sProp 𝕄 := iprop((∃ κ, ghost m κ c) ∗ credits c ∗ levAts L lv)

def Φ₀ (c : Dev nD) : sProp 𝕄 := iprop(start m c ∗ scr4 c)
/-- After the point: the kernel's own semaphores at zero and the scratch buffers whole. -/
def Φ₁ (c : Dev nD) : sProp 𝕄 :=
  iprop(Pipeline.ownSems0 (Ix := Unit) (Name := ℕ) (U := UU) (Lvl := ℕ) (Val := Elt F) (τ := τ) osem c ∗ scr4 c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging waits: a staging cell sits below everything a device owes. -/
theorem waits (c : Dev nD) : (levAts L lv : sProp 𝕄) ⊢ Pipeline.cellsWaits cfgs (dats m) () 0 c :=
  Pipeline.cellsWaits_intro cfgs (dats m) () 0 c fun w s t => by
    have hq : lv ((c : Thread nD τ), SemLoc.dma (((cfgs 0).win w).sem s)) () = 0 :=
      lv_stage c _ (by fin_cases w <;> fin_cases s <;> decide)
    rcases t with ⟨_ | _, ht⟩
    · exact mayWait_above c _ _ (by rw [hq]; exact above_O₀ c)
    · exact mayWait_above c _ _ (by rw [hq]; exact above_zero)

/-! ## The launch -/

/-- The duty tokens of device `c`'s own cells. -/
def toks (c : Dev nD) : sProp 𝕄 := bigSep Finset.univ fun k : CI => bigSep Finset.univ fun d : DN => dutyTok ER (kcell (c, k)) 0 d

/-- What the launch element deals device `c`. -/
def G (c : Dev nD) : sProp 𝕄 :=
  iprop((bigSep Finset.univ fun k : CI => roundState ER (rd (W1 m) (W2 m)) (kcell (c, k)) 0)
    ∗ (bigSep Finset.univ fun k : CI => iprop(atPos ER (kcell (c, k)) 0 ∅ 0 ∗ reached ER (kcell (c, k)) 0)) ∗ toks (F := F) c)
def G' (c : Dev nD) : sProp 𝕄 := iprop(∃ κ, ghost m κ c)

theorem fund_proto : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod, bigSep_univ_prod]; rfl
  iintro HX
  imod (Rounds.fund ER (rd (W1 m) (W2 m)) allCells allToks) $$ HX with ⟨Hst, Hr, Hat, Htok⟩
  imodintro
  ihave Hst' := (Entails.of_eq (hX fun g => roundState ER (rd (W1 m) (W2 m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_CI (Φ : CI → sProp 𝕄) : bigSep Finset.univ Φ = iprop(Φ (.inl ()) ∗ bigSep Finset.univ fun k : DI => Φ (.inr k)) := by
  rw [bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_CI]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd (W1 m) (W2 m)) κ (kcell (c, k))))
          ∗ (bigSep Finset.univ fun k : CI => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd (W1 m) (W2 m)) (kcell (c, k)) 0)
      ⊢ (|={Set.univ}=> bigSep Finset.univ fun k : CI => iprop(∃ κ : ℕ, cellInv ER (rd (W1 m) (W2 m)) κ (kcell (c, k))) : sProp 𝕄) from by
        rw [← bigSep_sep']
        exact (bigSep_mono fun k _ => (Rounds.body_intro ER (rd (W1 m) (W2 m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The same with a persistent part beside ten lists -/

theorem dealP {Rec A S T T' : sProp 𝕄} [BI.Persistent Rec] (hp : Rec ⊢ A) (ht : iprop(A ∗ T') ⊢ T) (h : iprop(Rec ∗ S) ⊢ T') : iprop(Rec ∗ S) ⊢ T := by
  iintro ⟨#HR, HS⟩
  iapply ht
  isplitr
  · iapply hp; iexact HR
  · iapply h
    isplitr; · iexact HR
    iexact HS
theorem dealL {Rec A S S' T T' : sProp 𝕄} (hs : S ⊢ iprop(A ∗ S')) (ht : iprop(A ∗ T') ⊢ T) (h : iprop(Rec ∗ S') ⊢ T') : iprop(Rec ∗ S) ⊢ T := by
  iintro ⟨HR, HS⟩
  ihave H := hs $$ HS
  icases H with ⟨HA, HS'⟩
  iapply ht
  isplitl [HA]; · iexact HA
  iapply h
  isplitl [HR]; · iexact HR
  iexact HS'
theorem dealFinL {Rec A : sProp 𝕄} : iprop(Rec ∗ (emp ∗ emp ∗ emp ∗ emp ∗ emp ∗ emp ∗ emp ∗ emp ∗ emp ∗ A)) ⊢ A := by
  iintro ⟨-, -, -, -, -, -, -, -, -, -, HA⟩; iexact HA
theorem take1 {A X1 X2 X3 X4 X5 X6 X7 X8 X9 X10 : sProp 𝕄} : iprop((A ∗ X1) ∗ X2 ∗ X3 ∗ X4 ∗ X5 ∗ X6 ∗ X7 ∗ X8 ∗ X9 ∗ X10) ⊢ iprop(A ∗ (X1 ∗ X2 ∗ X3 ∗ X4 ∗ X5 ∗ X6 ∗ X7 ∗ X8 ∗ X9 ∗ X10)) := by
  iintro ⟨⟨HA, H1⟩, H2, H3, H4, H5, H6, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take1L {A X2 X3 X4 X5 X6 X7 X8 X9 X10 : sProp 𝕄} : iprop(A ∗ X2 ∗ X3 ∗ X4 ∗ X5 ∗ X6 ∗ X7 ∗ X8 ∗ X9 ∗ X10) ⊢ iprop(A ∗ (emp ∗ X2 ∗ X3 ∗ X4 ∗ X5 ∗ X6 ∗ X7 ∗ X8 ∗ X9 ∗ X10)) := by
  iintro ⟨HA, H2, H3, H4, H5, H6, H7, H8, H9, H10⟩
  isplitl [HA]; · iexact HA
  isplitr; · iempintro
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take2 {A X1 X2 X3 X4 X5 X6 X7 X8 X9 X10 : sProp 𝕄} : iprop(X1 ∗ (A ∗ X2) ∗ X3 ∗ X4 ∗ X5 ∗ X6 ∗ X7 ∗ X8 ∗ X9 ∗ X10) ⊢ iprop(A ∗ (X1 ∗ X2 ∗ X3 ∗ X4 ∗ X5 ∗ X6 ∗ X7 ∗ X8 ∗ X9 ∗ X10)) := by
  iintro ⟨H1, ⟨HA, H2⟩, H3, H4, H5, H6, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take2L {A X1 X3 X4 X5 X6 X7 X8 X9 X10 : sProp 𝕄} : iprop(X1 ∗ A ∗ X3 ∗ X4 ∗ X5 ∗ X6 ∗ X7 ∗ X8 ∗ X9 ∗ X10) ⊢ iprop(A ∗ (X1 ∗ emp ∗ X3 ∗ X4 ∗ X5 ∗ X6 ∗ X7 ∗ X8 ∗ X9 ∗ X10)) := by
  iintro ⟨H1, HA, H3, H4, H5, H6, H7, H8, H9, H10⟩
  isplitl [HA]; · iexact HA
  isplitl [H1]; · iexact H1
  isplitr; · iempintro
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take3 {A X1 X2 X3 X4 X5 X6 X7 X8 X9 X10 : sProp 𝕄} : iprop(X1 ∗ X2 ∗ (A ∗ X3) ∗ X4 ∗ X5 ∗ X6 ∗ X7 ∗ X8 ∗ X9 ∗ X10) ⊢ iprop(A ∗ (X1 ∗ X2 ∗ X3 ∗ X4 ∗ X5 ∗ X6 ∗ X7 ∗ X8 ∗ X9 ∗ X10)) := by
  iintro ⟨H1, H2, ⟨HA, H3⟩, H4, H5, H6, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take3L {A X1 X2 X4 X5 X6 X7 X8 X9 X10 : sProp 𝕄} : iprop(X1 ∗ X2 ∗ A ∗ X4 ∗ X5 ∗ X6 ∗ X7 ∗ X8 ∗ X9 ∗ X10) ⊢ iprop(A ∗ (X1 ∗ X2 ∗ emp ∗ X4 ∗ X5 ∗ X6 ∗ X7 ∗ X8 ∗ X9 ∗ X10)) := by
  iintro ⟨H1, H2, HA, H4, H5, H6, H7, H8, H9, H10⟩
  isplitl [HA]; · iexact HA
  isplitl [H1]; · iexact H1
  isplitl [H2]; · iexact H2
  isplitr; · iempintro
  isplitl [H4]; · iexact H4
  isplitl [H5]; · iexact H5
  isplitl [H6]; · iexact H6
  isplitl [H7]; · iexact H7
  isplitl [H8]; · iexact H8
  isplitl [H9]; · iexact H9
  iexact H10
theorem take4 {A X1 X2 X3 X4 X5 X6 X7 X8 X9 X10 : sProp 𝕄} : iprop(X1 ∗ X2 ∗ X3 ∗ (A ∗ X4) ∗ X5 ∗ X6 ∗ X7 ∗ X8 ∗ X9 ∗ X10) ⊢ iprop(A ∗ (X1 ∗ X2 ∗ X3 ∗ X4 ∗ X5 ∗ X6 ∗ X7 ∗ X8 ∗ X9 ∗ X10)) := by
  iintro ⟨H1, H2, H3, ⟨HA, H4⟩, H5, H6, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take4L {A X1 X2 X3 X5 X6 X7 X8 X9 X10 : sProp 𝕄} : iprop(X1 ∗ X2 ∗ X3 ∗ A ∗ X5 ∗ X6 ∗ X7 ∗ X8 ∗ X9 ∗ X10) ⊢ iprop(A ∗ (X1 ∗ X2 ∗ X3 ∗ emp ∗ X5 ∗ X6 ∗ X7 ∗ X8 ∗ X9 ∗ X10)) := by
  iintro ⟨H1, H2, H3, HA, H5, H6, H7, H8, H9, H10⟩
  isplitl [HA]; · iexact HA
  isplitl [H1]; · iexact H1
  isplitl [H2]; · iexact H2
  isplitl [H3]; · iexact H3
  isplitr; · iempintro
  isplitl [H5]; · iexact H5
  isplitl [H6]; · iexact H6
  isplitl [H7]; · iexact H7
  isplitl [H8]; · iexact H8
  isplitl [H9]; · iexact H9
  iexact H10
theorem take5 {A X1 X2 X3 X4 X5 X6 X7 X8 X9 X10 : sProp 𝕄} : iprop(X1 ∗ X2 ∗ X3 ∗ X4 ∗ (A ∗ X5) ∗ X6 ∗ X7 ∗ X8 ∗ X9 ∗ X10) ⊢ iprop(A ∗ (X1 ∗ X2 ∗ X3 ∗ X4 ∗ X5 ∗ X6 ∗ X7 ∗ X8 ∗ X9 ∗ X10)) := by
  iintro ⟨H1, H2, H3, H4, ⟨HA, H5⟩, H6, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take5L {A X1 X2 X3 X4 X6 X7 X8 X9 X10 : sProp 𝕄} : iprop(X1 ∗ X2 ∗ X3 ∗ X4 ∗ A ∗ X6 ∗ X7 ∗ X8 ∗ X9 ∗ X10) ⊢ iprop(A ∗ (X1 ∗ X2 ∗ X3 ∗ X4 ∗ emp ∗ X6 ∗ X7 ∗ X8 ∗ X9 ∗ X10)) := by
  iintro ⟨H1, H2, H3, H4, HA, H6, H7, H8, H9, H10⟩
  isplitl [HA]; · iexact HA
  isplitl [H1]; · iexact H1
  isplitl [H2]; · iexact H2
  isplitl [H3]; · iexact H3
  isplitl [H4]; · iexact H4
  isplitr; · iempintro
  isplitl [H6]; · iexact H6
  isplitl [H7]; · iexact H7
  isplitl [H8]; · iexact H8
  isplitl [H9]; · iexact H9
  iexact H10
theorem take6 {A X1 X2 X3 X4 X5 X6 X7 X8 X9 X10 : sProp 𝕄} : iprop(X1 ∗ X2 ∗ X3 ∗ X4 ∗ X5 ∗ (A ∗ X6) ∗ X7 ∗ X8 ∗ X9 ∗ X10) ⊢ iprop(A ∗ (X1 ∗ X2 ∗ X3 ∗ X4 ∗ X5 ∗ X6 ∗ X7 ∗ X8 ∗ X9 ∗ X10)) := by
  iintro ⟨H1, H2, H3, H4, H5, ⟨HA, H6⟩, H7, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take6L {A X1 X2 X3 X4 X5 X7 X8 X9 X10 : sProp 𝕄} : iprop(X1 ∗ X2 ∗ X3 ∗ X4 ∗ X5 ∗ A ∗ X7 ∗ X8 ∗ X9 ∗ X10) ⊢ iprop(A ∗ (X1 ∗ X2 ∗ X3 ∗ X4 ∗ X5 ∗ emp ∗ X7 ∗ X8 ∗ X9 ∗ X10)) := by
  iintro ⟨H1, H2, H3, H4, H5, HA, H7, H8, H9, H10⟩
  isplitl [HA]; · iexact HA
  isplitl [H1]; · iexact H1
  isplitl [H2]; · iexact H2
  isplitl [H3]; · iexact H3
  isplitl [H4]; · iexact H4
  isplitl [H5]; · iexact H5
  isplitr; · iempintro
  isplitl [H7]; · iexact H7
  isplitl [H8]; · iexact H8
  isplitl [H9]; · iexact H9
  iexact H10
theorem take7 {A X1 X2 X3 X4 X5 X6 X7 X8 X9 X10 : sProp 𝕄} : iprop(X1 ∗ X2 ∗ X3 ∗ X4 ∗ X5 ∗ X6 ∗ (A ∗ X7) ∗ X8 ∗ X9 ∗ X10) ⊢ iprop(A ∗ (X1 ∗ X2 ∗ X3 ∗ X4 ∗ X5 ∗ X6 ∗ X7 ∗ X8 ∗ X9 ∗ X10)) := by
  iintro ⟨H1, H2, H3, H4, H5, H6, ⟨HA, H7⟩, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take7L {A X1 X2 X3 X4 X5 X6 X8 X9 X10 : sProp 𝕄} : iprop(X1 ∗ X2 ∗ X3 ∗ X4 ∗ X5 ∗ X6 ∗ A ∗ X8 ∗ X9 ∗ X10) ⊢ iprop(A ∗ (X1 ∗ X2 ∗ X3 ∗ X4 ∗ X5 ∗ X6 ∗ emp ∗ X8 ∗ X9 ∗ X10)) := by
  iintro ⟨H1, H2, H3, H4, H5, H6, HA, H8, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitr; · iempintro
  isplitl [H8]; · iexact H8
  isplitl [H9]; · iexact H9
  iexact H10
theorem take8 {A X1 X2 X3 X4 X5 X6 X7 X8 X9 X10 : sProp 𝕄} : iprop(X1 ∗ X2 ∗ X3 ∗ X4 ∗ X5 ∗ X6 ∗ X7 ∗ (A ∗ X8) ∗ X9 ∗ X10) ⊢ iprop(A ∗ (X1 ∗ X2 ∗ X3 ∗ X4 ∗ X5 ∗ X6 ∗ X7 ∗ X8 ∗ X9 ∗ X10)) := by
  iintro ⟨H1, H2, H3, H4, H5, H6, H7, ⟨HA, H8⟩, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take8L {A X1 X2 X3 X4 X5 X6 X7 X9 X10 : sProp 𝕄} : iprop(X1 ∗ X2 ∗ X3 ∗ X4 ∗ X5 ∗ X6 ∗ X7 ∗ A ∗ X9 ∗ X10) ⊢ iprop(A ∗ (X1 ∗ X2 ∗ X3 ∗ X4 ∗ X5 ∗ X6 ∗ X7 ∗ emp ∗ X9 ∗ X10)) := by
  iintro ⟨H1, H2, H3, H4, H5, H6, H7, HA, H9, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitr; · iempintro
  isplitl [H9]; · iexact H9
  iexact H10
theorem take9 {A X1 X2 X3 X4 X5 X6 X7 X8 X9 X10 : sProp 𝕄} : iprop(X1 ∗ X2 ∗ X3 ∗ X4 ∗ X5 ∗ X6 ∗ X7 ∗ X8 ∗ (A ∗ X9) ∗ X10) ⊢ iprop(A ∗ (X1 ∗ X2 ∗ X3 ∗ X4 ∗ X5 ∗ X6 ∗ X7 ∗ X8 ∗ X9 ∗ X10)) := by
  iintro ⟨H1, H2, H3, H4, H5, H6, H7, H8, ⟨HA, H9⟩, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take9L {A X1 X2 X3 X4 X5 X6 X7 X8 X10 : sProp 𝕄} : iprop(X1 ∗ X2 ∗ X3 ∗ X4 ∗ X5 ∗ X6 ∗ X7 ∗ X8 ∗ A ∗ X10) ⊢ iprop(A ∗ (X1 ∗ X2 ∗ X3 ∗ X4 ∗ X5 ∗ X6 ∗ X7 ∗ X8 ∗ emp ∗ X10)) := by
  iintro ⟨H1, H2, H3, H4, H5, H6, H7, H8, HA, H10⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr; · iempintro
  iexact H10
theorem take10 {A X1 X2 X3 X4 X5 X6 X7 X8 X9 X10 : sProp 𝕄} : iprop(X1 ∗ X2 ∗ X3 ∗ X4 ∗ X5 ∗ X6 ∗ X7 ∗ X8 ∗ X9 ∗ (A ∗ X10)) ⊢ iprop(A ∗ (X1 ∗ X2 ∗ X3 ∗ X4 ∗ X5 ∗ X6 ∗ X7 ∗ X8 ∗ X9 ∗ X10)) := by
  iintro ⟨H1, H2, H3, H4, H5, H6, H7, H8, H9, ⟨HA, H10⟩⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10
theorem take10L {A X1 X2 X3 X4 X5 X6 X7 X8 X9 : sProp 𝕄} : iprop(X1 ∗ X2 ∗ X3 ∗ X4 ∗ X5 ∗ X6 ∗ X7 ∗ X8 ∗ X9 ∗ A) ⊢ iprop(A ∗ (X1 ∗ X2 ∗ X3 ∗ X4 ∗ X5 ∗ X6 ∗ X7 ∗ X8 ∗ X9 ∗ emp)) := by
  iintro ⟨H1, H2, H3, H4, H5, H6, H7, H8, H9, HA⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iempintro

/-! ### The ghost state regrouped: every token to its payer -/

def nbrE : Dev nD ≃ Dev nD := ⟨nbr, nbr, nbr_nbr, nbr_nbr⟩
def peerE (i : Fin 15) : Dev nD ≃ Dev nD :=
  ⟨fun c => peer c (off i), fun c => src c (off i), fun c => src_peer c (off i), fun c => peer_src c (off i)⟩
/-- The barrier duty paid by the device `off i` pairs back. -/
def dn (i : Fin 15) : DN := ⟨i.val + 1, by have := i.isLt; omega⟩
theorem dn_injective : Function.Injective dn := fun i j h => Fin.ext (by have := congrArg Fin.val h; simp only [dn] at this; omega)

def tauEmb (c : Dev nD) : Fin 15 ↪ Fin 16 := ⟨fun i => sg c i.castSucc, (sg_injective c).comp (Fin.castSucc_injective 15)⟩

theorem bigSep_DI (Φ : DI → sProp 𝕄) : bigSep Finset.univ Φ
    = iprop((bigSep Finset.univ fun k => Φ (.inl k)) ∗ (bigSep Finset.univ fun k => Φ (.inr (.inl k)))
        ∗ (bigSep Finset.univ fun k => Φ (.inr (.inr (.inl k)))) ∗ bigSep Finset.univ fun k => Φ (.inr (.inr (.inr k)))) := by
  rw [bigSep_univ_sum, bigSep_univ_sum, bigSep_univ_sum]; rfl

/-- Of the barrier cell's sixteen tokens: duty 0 and the fifteen others. -/
theorem bar_toks_split (Φ : DN → sProp 𝕄) : bigSep Finset.univ Φ ⊢ iprop(Φ 0 ∗ bigSep Finset.univ fun i : Fin 15 => Φ (dn i)) := by
  rw [bigSep_univ_at Φ (0 : DN)]
  refine sep_mono_right ?_
  have hsub : (Finset.univ.map ⟨dn, dn_injective⟩ : Finset DN) ⊆ Finset.univ.erase 0 := fun x hx => by
    obtain ⟨i, _, rfl⟩ := Finset.mem_map.mp hx
    refine Finset.mem_erase.mpr ⟨fun h => ?_, Finset.mem_univ _⟩
    have := congrArg Fin.val h
    simp only [dn, Function.Embedding.coeFn_mk] at this
    exact absurd this (Nat.succ_ne_zero _)
  exact (bigSep_subset hsub).trans (Entails.of_eq (bigSep_map _))

/-- Of the sixteen second-phase receive cells' tokens: those of the fifteen that have a duty, by their payers' pairs. -/
theorem p2r_toks_pick (c : Dev nD) (Φ : Fin 16 → sProp 𝕄) :
    bigSep Finset.univ Φ ⊢ bigSep Finset.univ fun i : Fin 15 => Φ (pairOf (src c (off i))) := by
  refine ((bigSep_subset (Finset.subset_univ (Finset.univ.map (tauEmb c)))).trans (Entails.of_eq (bigSep_map (tauEmb c)))).trans ?_
  exact Entails.of_eq (bigSep_congr fun i _ => by show Φ (sg c i.castSucc) = _; rw [sg_cast])

/-- Of every cell of a family, the token of duty 0. -/
theorem duty0_pick {K : Type} [Fintype K] (Ψ : K → DN → sProp 𝕄) :
    (bigSep Finset.univ fun k => bigSep Finset.univ fun d => Ψ k d) ⊢ bigSep Finset.univ fun k => Ψ k 0 :=
  bigSep_mono fun k _ => bigSep_elim (Finset.mem_univ (0 : DN))

/-- The tokens of the duties of device `c`'s own cells. -/
def ownToks (c : Dev nD) : sProp 𝕄 :=
  iprop(dutyTok ER (barCell c) 0 0
    ∗ (bigSep Finset.univ fun i : Fin 15 => dutyTok ER (barCell c) 0 (dn i))
    ∗ (bigSep Finset.univ fun k : Fin 16 => dutyTok ER (dcell c (p1sS k)) 0 0)
    ∗ (bigSep Finset.univ fun k : Fin 16 => dutyTok ER (dcell c (p1rS k)) 0 0)
    ∗ (bigSep Finset.univ fun k : Fin 15 => dutyTok ER (dcell c (p2sS k)) 0 0)
    ∗ (bigSep Finset.univ fun i : Fin 15 => dutyTok ER (dcell c (p2rS (pairOf (src c (off i))))) 0 0))

theorem toks_own (c : Dev nD) : toks (F := F) c ⊢ ownToks c := by
  unfold toks ownToks
  rw [bigSep_CI, bigSep_DI]
  show iprop((bigSep Finset.univ fun d : DN => dutyTok ER (barCell c) 0 d)
      ∗ (bigSep Finset.univ fun k : Fin 16 => bigSep Finset.univ fun d : DN => dutyTok ER (dcell c (p1sS k)) 0 d)
      ∗ (bigSep Finset.univ fun k : Fin 16 => bigSep Finset.univ fun d : DN => dutyTok ER (dcell c (p1rS k)) 0 d)
      ∗ (bigSep Finset.univ fun k : Fin 15 => bigSep Finset.univ fun d : DN => dutyTok ER (dcell c (p2sS k)) 0 d)
      ∗ (bigSep Finset.univ fun k : Fin 16 => bigSep Finset.univ fun d : DN => dutyTok ER (dcell c (p2rS k)) 0 d)) ⊢ _
  iintro ⟨HB, H1, H2, H3, H4⟩
  ihave HB' := (bar_toks_split (fun d => dutyTok ER (barCell c) 0 d)) $$ HB
  icases HB' with ⟨HB0, HBI⟩
  isplitl [HB0]; · iexact HB0
  isplitl [HBI]; · iexact HBI
  isplitl [H1]
  · iapply (duty0_pick fun (k : Fin 16) (d : DN) => dutyTok ER (dcell c (p1sS k)) 0 d); iexact H1
  isplitl [H2]
  · iapply (duty0_pick fun (k : Fin 16) (d : DN) => dutyTok ER (dcell c (p1rS k)) 0 d); iexact H2
  isplitl [H3]
  · iapply (duty0_pick fun (k : Fin 15) (d : DN) => dutyTok ER (dcell c (p2sS k)) 0 d); iexact H3
  · iapply (p2r_toks_pick c fun ρ => dutyTok ER (dcell c (p2rS ρ)) 0 0)
    iapply (duty0_pick fun (k : Fin 16) (d : DN) => dutyTok ER (dcell c (p2rS k)) 0 d); iexact H4

/-- The tokens of the duties device `c` pays. -/
def payToks (c : Dev nD) : sProp 𝕄 :=
  iprop(dutyTok ER (barCell (nbr c)) 0 0
    ∗ (bigSep Finset.univ fun i : Fin 15 => dutyTok ER (barCell (peer c (off i))) 0 (dn i))
    ∗ (bigSep Finset.univ fun k : Fin 16 => dutyTok ER (dcell c (p1sS k)) 0 0)
    ∗ (bigSep Finset.univ fun k : Fin 16 => dutyTok ER (dcell (nbr c) (p1rS k)) 0 0)
    ∗ (bigSep Finset.univ fun k : Fin 15 => dutyTok ER (dcell c (p2sS k)) 0 0)
    ∗ (bigSep Finset.univ fun i : Fin 15 => dutyTok ER (dcell (peer c (off i)) (p2rS (pairOf c))) 0 0))

theorem perm_dev_fam {J : Type} [Fintype J] (e : J → Dev nD ≃ Dev nD) (Φ : Dev nD → J → sProp 𝕄) :
    (bigSep Finset.univ fun c => bigSep Finset.univ fun j => Φ c j) = bigSep Finset.univ fun c => bigSep Finset.univ fun j => Φ (e j c) j := by
  rw [bigSep_univ_comm, bigSep_univ_comm (fun c j => Φ (e j c) j)]
  exact bigSep_congr fun j _ => bigSep_univ_equiv (e j) _

/-- The tokens dealt to their payers: along the partner map and, offset by offset, along the peer maps. -/
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', bigSep_sep', bigSep_sep', bigSep_sep', bigSep_sep',
    bigSep_univ_equiv nbrE (fun c : Dev nD => (dutyTok ER (barCell c) 0 0 : sProp 𝕄)),
    perm_dev_fam peerE (fun (c : Dev nD) (i : Fin 15) => (dutyTok ER (barCell c) 0 (dn i) : sProp 𝕄)),
    perm_dev_fam (fun _ : Fin 16 => nbrE) (fun (c : Dev nD) (k : Fin 16) => (dutyTok ER (dcell c (p1rS k)) 0 0 : sProp 𝕄)),
    perm_dev_fam peerE (fun (c : Dev nD) (i : Fin 15) => (dutyTok ER (dcell c (p2rS (pairOf (src c (off i))))) 0 0 : sProp 𝕄))]
  refine BI.sep_mono (BI.Entails.refl _) (BI.sep_mono (BI.Entails.refl _) (BI.sep_mono (BI.Entails.refl _) (BI.sep_mono (BI.Entails.refl _) (BI.sep_mono (BI.Entails.refl _) ?_))))
  exact Entails.of_eq (bigSep_congr fun c _ => bigSep_congr fun i _ => by
    show (dutyTok ER (dcell (peer c (off i)) (p2rS (pairOf (src (peer c (off i)) (off i))))) 0 0 : sProp 𝕄) = _
    rw [src_peer])

/-! ### One device's ghost state from the shared records and what stays with it -/

def nameOf (K : Dev nD × CI → ℕ) (g : GSem nD τ sig) : ℕ := by
  classical exact if h : ∃ ck : Dev nD × CI, kcell ck = g then K (Classical.choose h) else 0
theorem nameOf_kcell (K : Dev nD × CI → ℕ) (ck : Dev nD × CI) : nameOf K (kcell ck) = K ck := by
  unfold nameOf
  rw [dif_pos ⟨ck, rfl⟩]
  exact congrArg K (kcell_injective (Classical.choose_spec (⟨ck, rfl⟩ : ∃ ck' : Dev nD × CI, kcell ck' = kcell ck)))

def records (κ : GSem nD τ sig → ℕ) : sProp 𝕄 :=
  iprop((bigSep Finset.univ fun ck : Dev nD × CI => cellInv ER (rd (W1 m) (W2 m)) (κ (kcell ck)) (kcell ck))
    ∗ bigSep Finset.univ fun ck : Dev nD × CI => reached ER (kcell ck) 0)

instance records_persistent (κ : GSem nD τ sig → ℕ) : BI.Persistent (records m κ) := by unfold records; infer_instance

theorem inv_at' (κ : GSem nD τ sig → ℕ) (ck : Dev nD × CI) :
    (bigSep Finset.univ fun ck : Dev nD × CI => (cellInv ER (rd (W1 m) (W2 m)) (κ (kcell ck)) (kcell ck) : sProp 𝕄)) ⊢ cellInv ER (rd (W1 m) (W2 m)) (κ (kcell ck)) (kcell ck) :=
  bigSep_elim (Finset.mem_univ ck)
theorem reached_at' (ck : Dev nD × CI) :
    (bigSep Finset.univ fun ck : Dev nD × CI => (reached ER (kcell ck) 0 : sProp 𝕄)) ⊢ reached ER (kcell ck) 0 :=
  bigSep_elim (Finset.mem_univ ck)
theorem inv_at (κ : GSem nD τ sig → ℕ) (ck : Dev nD × CI) : records m κ ⊢ cellInv ER (rd (W1 m) (W2 m)) (κ (kcell ck)) (kcell ck) := by
  unfold records; iintro ⟨H, -⟩; iapply (inv_at' m κ ck); iexact H
theorem reached_at (κ : GSem nD τ sig → ℕ) (ck : Dev nD × CI) : records m κ ⊢ (reached ER (kcell ck) 0 : sProp 𝕄) := by
  unfold records; iintro ⟨-, H⟩; iapply (reached_at' (F := F) ck); iexact H

/-- What stays with device `c`: its positions on its own cells and the tokens of the duties it pays, each list in the order the body uses it. -/
def linear (c : Dev nD) : sProp 𝕄 :=
  iprop((dutyTok ER (barCell (nbr c)) 0 0 ∗ bigSep Finset.univ fun i : Fin 15 => dutyTok ER (barCell (peer c (off i))) 0 (dn i))
    ∗ atPos ER (barCell c) 0 ∅ 0
    ∗ (bigSep Finset.univ fun k : Fin 16 => dutyTok ER (dcell c (p1sS k)) 0 0)
    ∗ (bigSep Finset.univ fun k : Fin 16 => dutyTok ER (dcell (nbr c) (p1rS k)) 0 0)
    ∗ (bigSep Finset.univ fun k : Fin 16 => atPos ER (dcell c (p1sS k)) 0 ∅ 0)
    ∗ (bigSep Finset.univ fun k : Fin 16 => atPos ER (dcell c (p1rS k)) 0 ∅ 0)
    ∗ (bigSep Finset.univ fun k : Fin 15 => dutyTok ER (dcell c (p2sS k)) 0 0)
    ∗ (bigSep Finset.univ fun i : Fin 15 => dutyTok ER (dcell (peer c (off i)) (p2rS (pairOf c))) 0 0)
    ∗ (bigSep Finset.univ fun k : Fin 15 => atPos ER (dcell c (p2sS k)) 0 ∅ 0)
    ∗ (bigSep Finset.univ fun k : Fin 16 => atPos ER (dcell c (p2rS (sg c k))) 0 ∅ 0))

theorem linear_intro (c : Dev nD) :
    iprop((bigSep Finset.univ fun k : CI => (atPos ER (kcell (c, k)) 0 ∅ 0 : sProp 𝕄)) ∗ payToks c) ⊢ linear (F := F) c := by
  unfold payToks linear
  rw [bigSep_CI, bigSep_DI, bigSep_univ_equiv (sgE c) (fun k : Fin 16 => (atPos ER (kcell (c, .inr (.inr (.inr (.inr k))))) 0 ∅ 0 : sProp 𝕄))]
  iintro ⟨⟨HaB, Ha1, Ha2, Ha3, Ha4⟩, HtB0, HtBI, Ht1, Ht2, Ht3, Ht4⟩
  isplitl [HtB0 HtBI]
  · isplitl [HtB0]; · iexact HtB0
    iexact HtBI
  isplitl [HaB]; · iexact HaB
  isplitl [Ht1]; · iexact Ht1
  isplitl [Ht2]; · iexact Ht2
  isplitl [Ha1]; · iexact Ha1
  isplitl [Ha2]; · iexact Ha2
  isplitl [Ht3]; · iexact Ht3
  isplitl [Ht4]; · iexact Ht4
  isplitl [Ha3]; · iexact Ha3
  iexact Ha4

theorem ghost_intro (κ : GSem nD τ sig → ℕ) (c : Dev nD) : iprop(records m κ ∗ linear c) ⊢ ghost m κ c := by
  unfold linear ghost
  simp only [bigSep_fin15, bigSep_fin16]
  refine dealP (inv_at m κ (c, .inl ())) putEnd ?_
  refine dealP (inv_at m κ ((nbr c), .inl ())) putEnd ?_
  refine dealP (inv_at m κ ((peer c (off 0)), .inl ())) putEnd ?_
  refine dealP (inv_at m κ ((peer c (off 1)), .inl ())) putEnd ?_
  refine dealP (inv_at m κ ((peer c (off 2)), .inl ())) putEnd ?_
  refine dealP (inv_at m κ ((peer c (off 3)), .inl ())) putEnd ?_
  refine dealP (inv_at m κ ((peer c (off 4)), .inl ())) putEnd ?_
  refine dealP (inv_at m κ ((peer c (off 5)), .inl ())) putEnd ?_
  refine dealP (inv_at m κ ((peer c (off 6)), .inl ())) putEnd ?_
  refine dealP (inv_at m κ ((peer c (off 7)), .inl ())) putEnd ?_
  refine dealP (inv_at m κ ((peer c (off 8)), .inl ())) putEnd ?_
  refine dealP (inv_at m κ ((peer c (off 9)), .inl ())) putEnd ?_
  refine dealP (inv_at m κ ((peer c (off 10)), .inl ())) putEnd ?_
  refine dealP (inv_at m κ ((peer c (off 11)), .inl ())) putEnd ?_
  refine dealP (inv_at m κ ((peer c (off 12)), .inl ())) putEnd ?_
  refine dealP (inv_at m κ ((peer c (off 13)), .inl ())) putEnd ?_
  refine dealP (inv_at m κ ((peer c (off 14)), .inl ())) putEnd ?_
  refine dealP (reached_at m κ ((nbr c), .inl ())) putEnd ?_
  refine dealP (reached_at m κ ((peer c (off 0)), .inl ())) putEnd ?_
  refine dealP (reached_at m κ ((peer c (off 1)), .inl ())) putEnd ?_
  refine dealP (reached_at m κ ((peer c (off 2)), .inl ())) putEnd ?_
  refine dealP (reached_at m κ ((peer c (off 3)), .inl ())) putEnd ?_
  refine dealP (reached_at m κ ((peer c (off 4)), .inl ())) putEnd ?_
  refine dealP (reached_at m κ ((peer c (off 5)), .inl ())) putEnd ?_
  refine dealP (reached_at m κ ((peer c (off 6)), .inl ())) putEnd ?_
  refine dealP (reached_at m κ ((peer c (off 7)), .inl ())) putEnd ?_
  refine dealP (reached_at m κ ((peer c (off 8)), .inl ())) putEnd ?_
  refine dealP (reached_at m κ ((peer c (off 9)), .inl ())) putEnd ?_
  refine dealP (reached_at m κ ((peer c (off 10)), .inl ())) putEnd ?_
  refine dealP (reached_at m κ ((peer c (off 11)), .inl ())) putEnd ?_
  refine dealP (reached_at m κ ((peer c (off 12)), .inl ())) putEnd ?_
  refine dealP (reached_at m κ ((peer c (off 13)), .inl ())) putEnd ?_
  refine dealP (reached_at m κ ((peer c (off 14)), .inl ())) putEnd ?_
  refine dealP (reached_at m κ (c, .inr (.inr (.inl 0)))) putEnd ?_
  refine dealP (reached_at m κ (c, .inr (.inr (.inl 1)))) putEnd ?_
  refine dealP (reached_at m κ (c, .inr (.inr (.inl 2)))) putEnd ?_
  refine dealP (reached_at m κ (c, .inr (.inr (.inl 3)))) putEnd ?_
  refine dealP (reached_at m κ (c, .inr (.inr (.inl 4)))) putEnd ?_
  refine dealP (reached_at m κ (c, .inr (.inr (.inl 5)))) putEnd ?_
  refine dealP (reached_at m κ (c, .inr (.inr (.inl 6)))) putEnd ?_
  refine dealP (reached_at m κ (c, .inr (.inr (.inl 7)))) putEnd ?_
  refine dealP (reached_at m κ (c, .inr (.inr (.inl 8)))) putEnd ?_
  refine dealP (reached_at m κ (c, .inr (.inr (.inl 9)))) putEnd ?_
  refine dealP (reached_at m κ (c, .inr (.inr (.inl 10)))) putEnd ?_
  refine dealP (reached_at m κ (c, .inr (.inr (.inl 11)))) putEnd ?_
  refine dealP (reached_at m κ (c, .inr (.inr (.inl 12)))) putEnd ?_
  refine dealP (reached_at m κ (c, .inr (.inr (.inl 13)))) putEnd ?_
  refine dealP (reached_at m κ (c, .inr (.inr (.inl 14)))) putEnd ?_
  refine dealP (reached_at m κ (c, .inr (.inr (.inl 15)))) putEnd ?_
  refine dealP (reached_at m κ (c, .inr (.inr (.inr (.inr (pairOf (peer c (off 0)))))))) putEnd ?_
  refine dealP (reached_at m κ (c, .inr (.inr (.inr (.inr (pairOf (peer c (off 1)))))))) putEnd ?_
  refine dealP (reached_at m κ (c, .inr (.inr (.inr (.inr (pairOf (peer c (off 2)))))))) putEnd ?_
  refine dealP (reached_at m κ (c, .inr (.inr (.inr (.inr (pairOf (peer c (off 3)))))))) putEnd ?_
  refine dealP (reached_at m κ (c, .inr (.inr (.inr (.inr (pairOf (peer c (off 4)))))))) putEnd ?_
  refine dealP (reached_at m κ (c, .inr (.inr (.inr (.inr (pairOf (peer c (off 5)))))))) putEnd ?_
  refine dealP (reached_at m κ (c, .inr (.inr (.inr (.inr (pairOf (peer c (off 6)))))))) putEnd ?_
  refine dealP (reached_at m κ (c, .inr (.inr (.inr (.inr (pairOf (peer c (off 7)))))))) putEnd ?_
  refine dealP (reached_at m κ (c, .inr (.inr (.inr (.inr (pairOf (peer c (off 8)))))))) putEnd ?_
  refine dealP (reached_at m κ (c, .inr (.inr (.inr (.inr (pairOf (peer c (off 9)))))))) putEnd ?_
  refine dealP (reached_at m κ (c, .inr (.inr (.inr (.inr (pairOf (peer c (off 10)))))))) putEnd ?_
  refine dealP (reached_at m κ (c, .inr (.inr (.inr (.inr (pairOf (peer c (off 11)))))))) putEnd ?_
  refine dealP (reached_at m κ (c, .inr (.inr (.inr (.inr (pairOf (peer c (off 12)))))))) putEnd ?_
  refine dealP (reached_at m κ (c, .inr (.inr (.inr (.inr (pairOf (peer c (off 13)))))))) putEnd ?_
  refine dealP (reached_at m κ (c, .inr (.inr (.inr (.inr (pairOf (peer c (off 14)))))))) putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1 putEnd ?_
  refine dealL take1L putEnd ?_
  refine dealL take2L putEnd ?_
  refine dealP (inv_at m κ (c, .inr (.inl 0))) putEnd ?_
  refine dealP (inv_at m κ ((nbr c), .inr (.inr (.inl 0)))) putEnd ?_
  refine dealP (reached_at m κ (c, .inr (.inl 0))) putEnd ?_
  refine dealL take3 putEnd ?_
  refine dealL take4 putEnd ?_
  refine dealL take5 putEnd ?_
  refine dealP (inv_at m κ (c, .inr (.inl 1))) putEnd ?_
  refine dealP (inv_at m κ ((nbr c), .inr (.inr (.inl 1)))) putEnd ?_
  refine dealP (reached_at m κ (c, .inr (.inl 1))) putEnd ?_
  refine dealL take3 putEnd ?_
  refine dealL take4 putEnd ?_
  refine dealL take5 putEnd ?_
  refine dealP (inv_at m κ (c, .inr (.inl 2))) putEnd ?_
  refine dealP (inv_at m κ ((nbr c), .inr (.inr (.inl 2)))) putEnd ?_
  refine dealP (reached_at m κ (c, .inr (.inl 2))) putEnd ?_
  refine dealL take3 putEnd ?_
  refine dealL take4 putEnd ?_
  refine dealL take5 putEnd ?_
  refine dealP (inv_at m κ (c, .inr (.inl 3))) putEnd ?_
  refine dealP (inv_at m κ ((nbr c), .inr (.inr (.inl 3)))) putEnd ?_
  refine dealP (reached_at m κ (c, .inr (.inl 3))) putEnd ?_
  refine dealL take3 putEnd ?_
  refine dealL take4 putEnd ?_
  refine dealL take5 putEnd ?_
  refine dealP (inv_at m κ (c, .inr (.inl 4))) putEnd ?_
  refine dealP (inv_at m κ ((nbr c), .inr (.inr (.inl 4)))) putEnd ?_
  refine dealP (reached_at m κ (c, .inr (.inl 4))) putEnd ?_
  refine dealL take3 putEnd ?_
  refine dealL take4 putEnd ?_
  refine dealL take5 putEnd ?_
  refine dealP (inv_at m κ (c, .inr (.inl 5))) putEnd ?_
  refine dealP (inv_at m κ ((nbr c), .inr (.inr (.inl 5)))) putEnd ?_
  refine dealP (reached_at m κ (c, .inr (.inl 5))) putEnd ?_
  refine dealL take3 putEnd ?_
  refine dealL take4 putEnd ?_
  refine dealL take5 putEnd ?_
  refine dealP (inv_at m κ (c, .inr (.inl 6))) putEnd ?_
  refine dealP (inv_at m κ ((nbr c), .inr (.inr (.inl 6)))) putEnd ?_
  refine dealP (reached_at m κ (c, .inr (.inl 6))) putEnd ?_
  refine dealL take3 putEnd ?_
  refine dealL take4 putEnd ?_
  refine dealL take5 putEnd ?_
  refine dealP (inv_at m κ (c, .inr (.inl 7))) putEnd ?_
  refine dealP (inv_at m κ ((nbr c), .inr (.inr (.inl 7)))) putEnd ?_
  refine dealP (reached_at m κ (c, .inr (.inl 7))) putEnd ?_
  refine dealL take3 putEnd ?_
  refine dealL take4 putEnd ?_
  refine dealL take5 putEnd ?_
  refine dealP (inv_at m κ (c, .inr (.inl 8))) putEnd ?_
  refine dealP (inv_at m κ ((nbr c), .inr (.inr (.inl 8)))) putEnd ?_
  refine dealP (reached_at m κ (c, .inr (.inl 8))) putEnd ?_
  refine dealL take3 putEnd ?_
  refine dealL take4 putEnd ?_
  refine dealL take5 putEnd ?_
  refine dealP (inv_at m κ (c, .inr (.inl 9))) putEnd ?_
  refine dealP (inv_at m κ ((nbr c), .inr (.inr (.inl 9)))) putEnd ?_
  refine dealP (reached_at m κ (c, .inr (.inl 9))) putEnd ?_
  refine dealL take3 putEnd ?_
  refine dealL take4 putEnd ?_
  refine dealL take5 putEnd ?_
  refine dealP (inv_at m κ (c, .inr (.inl 10))) putEnd ?_
  refine dealP (inv_at m κ ((nbr c), .inr (.inr (.inl 10)))) putEnd ?_
  refine dealP (reached_at m κ (c, .inr (.inl 10))) putEnd ?_
  refine dealL take3 putEnd ?_
  refine dealL take4 putEnd ?_
  refine dealL take5 putEnd ?_
  refine dealP (inv_at m κ (c, .inr (.inl 11))) putEnd ?_
  refine dealP (inv_at m κ ((nbr c), .inr (.inr (.inl 11)))) putEnd ?_
  refine dealP (reached_at m κ (c, .inr (.inl 11))) putEnd ?_
  refine dealL take3 putEnd ?_
  refine dealL take4 putEnd ?_
  refine dealL take5 putEnd ?_
  refine dealP (inv_at m κ (c, .inr (.inl 12))) putEnd ?_
  refine dealP (inv_at m κ ((nbr c), .inr (.inr (.inl 12)))) putEnd ?_
  refine dealP (reached_at m κ (c, .inr (.inl 12))) putEnd ?_
  refine dealL take3 putEnd ?_
  refine dealL take4 putEnd ?_
  refine dealL take5 putEnd ?_
  refine dealP (inv_at m κ (c, .inr (.inl 13))) putEnd ?_
  refine dealP (inv_at m κ ((nbr c), .inr (.inr (.inl 13)))) putEnd ?_
  refine dealP (reached_at m κ (c, .inr (.inl 13))) putEnd ?_
  refine dealL take3 putEnd ?_
  refine dealL take4 putEnd ?_
  refine dealL take5 putEnd ?_
  refine dealP (inv_at m κ (c, .inr (.inl 14))) putEnd ?_
  refine dealP (inv_at m κ ((nbr c), .inr (.inr (.inl 14)))) putEnd ?_
  refine dealP (reached_at m κ (c, .inr (.inl 14))) putEnd ?_
  refine dealL take3 putEnd ?_
  refine dealL take4 putEnd ?_
  refine dealL take5 putEnd ?_
  refine dealP (inv_at m κ (c, .inr (.inl 15))) putEnd ?_
  refine dealP (inv_at m κ ((nbr c), .inr (.inr (.inl 15)))) putEnd ?_
  refine dealP (reached_at m κ (c, .inr (.inl 15))) putEnd ?_
  refine dealL take3L putEnd ?_
  refine dealL take4L putEnd ?_
  refine dealL take5L putEnd ?_
  refine dealP (inv_at m κ (c, .inr (.inr (.inl 0)))) putEnd ?_
  refine dealP (inv_at m κ (c, .inr (.inr (.inr (.inl 0))))) putEnd ?_
  refine dealP (inv_at m κ ((peer c (off 0)), .inr (.inr (.inr (.inr (pairOf c)))))) putEnd ?_
  refine dealP (reached_at m κ (c, .inr (.inr (.inr (.inl 0))))) putEnd ?_
  refine dealL take6 putEnd ?_
  refine dealL take7 putEnd ?_
  refine dealL take8 putEnd ?_
  refine dealL take9 putEnd ?_
  refine dealP (inv_at m κ (c, .inr (.inr (.inl 1)))) putEnd ?_
  refine dealP (inv_at m κ (c, .inr (.inr (.inr (.inl 1))))) putEnd ?_
  refine dealP (inv_at m κ ((peer c (off 1)), .inr (.inr (.inr (.inr (pairOf c)))))) putEnd ?_
  refine dealP (reached_at m κ (c, .inr (.inr (.inr (.inl 1))))) putEnd ?_
  refine dealL take6 putEnd ?_
  refine dealL take7 putEnd ?_
  refine dealL take8 putEnd ?_
  refine dealL take9 putEnd ?_
  refine dealP (inv_at m κ (c, .inr (.inr (.inl 2)))) putEnd ?_
  refine dealP (inv_at m κ (c, .inr (.inr (.inr (.inl 2))))) putEnd ?_
  refine dealP (inv_at m κ ((peer c (off 2)), .inr (.inr (.inr (.inr (pairOf c)))))) putEnd ?_
  refine dealP (reached_at m κ (c, .inr (.inr (.inr (.inl 2))))) putEnd ?_
  refine dealL take6 putEnd ?_
  refine dealL take7 putEnd ?_
  refine dealL take8 putEnd ?_
  refine dealL take9 putEnd ?_
  refine dealP (inv_at m κ (c, .inr (.inr (.inl 3)))) putEnd ?_
  refine dealP (inv_at m κ (c, .inr (.inr (.inr (.inl 3))))) putEnd ?_
  refine dealP (inv_at m κ ((peer c (off 3)), .inr (.inr (.inr (.inr (pairOf c)))))) putEnd ?_
  refine dealP (reached_at m κ (c, .inr (.inr (.inr (.inl 3))))) putEnd ?_
  refine dealL take6 putEnd ?_
  refine dealL take7 putEnd ?_
  refine dealL take8 putEnd ?_
  refine dealL take9 putEnd ?_
  refine dealP (inv_at m κ (c, .inr (.inr (.inl 4)))) putEnd ?_
  refine dealP (inv_at m κ (c, .inr (.inr (.inr (.inl 4))))) putEnd ?_
  refine dealP (inv_at m κ ((peer c (off 4)), .inr (.inr (.inr (.inr (pairOf c)))))) putEnd ?_
  refine dealP (reached_at m κ (c, .inr (.inr (.inr (.inl 4))))) putEnd ?_
  refine dealL take6 putEnd ?_
  refine dealL take7 putEnd ?_
  refine dealL take8 putEnd ?_
  refine dealL take9 putEnd ?_
  refine dealP (inv_at m κ (c, .inr (.inr (.inl 5)))) putEnd ?_
  refine dealP (inv_at m κ (c, .inr (.inr (.inr (.inl 5))))) putEnd ?_
  refine dealP (inv_at m κ ((peer c (off 5)), .inr (.inr (.inr (.inr (pairOf c)))))) putEnd ?_
  refine dealP (reached_at m κ (c, .inr (.inr (.inr (.inl 5))))) putEnd ?_
  refine dealL take6 putEnd ?_
  refine dealL take7 putEnd ?_
  refine dealL take8 putEnd ?_
  refine dealL take9 putEnd ?_
  refine dealP (inv_at m κ (c, .inr (.inr (.inl 6)))) putEnd ?_
  refine dealP (inv_at m κ (c, .inr (.inr (.inr (.inl 6))))) putEnd ?_
  refine dealP (inv_at m κ ((peer c (off 6)), .inr (.inr (.inr (.inr (pairOf c)))))) putEnd ?_
  refine dealP (reached_at m κ (c, .inr (.inr (.inr (.inl 6))))) putEnd ?_
  refine dealL take6 putEnd ?_
  refine dealL take7 putEnd ?_
  refine dealL take8 putEnd ?_
  refine dealL take9 putEnd ?_
  refine dealP (inv_at m κ (c, .inr (.inr (.inl 7)))) putEnd ?_
  refine dealP (inv_at m κ (c, .inr (.inr (.inr (.inl 7))))) putEnd ?_
  refine dealP (inv_at m κ ((peer c (off 7)), .inr (.inr (.inr (.inr (pairOf c)))))) putEnd ?_
  refine dealP (reached_at m κ (c, .inr (.inr (.inr (.inl 7))))) putEnd ?_
  refine dealL take6 putEnd ?_
  refine dealL take7 putEnd ?_
  refine dealL take8 putEnd ?_
  refine dealL take9 putEnd ?_
  refine dealP (inv_at m κ (c, .inr (.inr (.inl 8)))) putEnd ?_
  refine dealP (inv_at m κ (c, .inr (.inr (.inr (.inl 8))))) putEnd ?_
  refine dealP (inv_at m κ ((peer c (off 8)), .inr (.inr (.inr (.inr (pairOf c)))))) putEnd ?_
  refine dealP (reached_at m κ (c, .inr (.inr (.inr (.inl 8))))) putEnd ?_
  refine dealL take6 putEnd ?_
  refine dealL take7 putEnd ?_
  refine dealL take8 putEnd ?_
  refine dealL take9 putEnd ?_
  refine dealP (inv_at m κ (c, .inr (.inr (.inl 9)))) putEnd ?_
  refine dealP (inv_at m κ (c, .inr (.inr (.inr (.inl 9))))) putEnd ?_
  refine dealP (inv_at m κ ((peer c (off 9)), .inr (.inr (.inr (.inr (pairOf c)))))) putEnd ?_
  refine dealP (reached_at m κ (c, .inr (.inr (.inr (.inl 9))))) putEnd ?_
  refine dealL take6 putEnd ?_
  refine dealL take7 putEnd ?_
  refine dealL take8 putEnd ?_
  refine dealL take9 putEnd ?_
  refine dealP (inv_at m κ (c, .inr (.inr (.inl 10)))) putEnd ?_
  refine dealP (inv_at m κ (c, .inr (.inr (.inr (.inl 10))))) putEnd ?_
  refine dealP (inv_at m κ ((peer c (off 10)), .inr (.inr (.inr (.inr (pairOf c)))))) putEnd ?_
  refine dealP (reached_at m κ (c, .inr (.inr (.inr (.inl 10))))) putEnd ?_
  refine dealL take6 putEnd ?_
  refine dealL take7 putEnd ?_
  refine dealL take8 putEnd ?_
  refine dealL take9 putEnd ?_
  refine dealP (inv_at m κ (c, .inr (.inr (.inl 11)))) putEnd ?_
  refine dealP (inv_at m κ (c, .inr (.inr (.inr (.inl 11))))) putEnd ?_
  refine dealP (inv_at m κ ((peer c (off 11)), .inr (.inr (.inr (.inr (pairOf c)))))) putEnd ?_
  refine dealP (reached_at m κ (c, .inr (.inr (.inr (.inl 11))))) putEnd ?_
  refine dealL take6 putEnd ?_
  refine dealL take7 putEnd ?_
  refine dealL take8 putEnd ?_
  refine dealL take9 putEnd ?_
  refine dealP (inv_at m κ (c, .inr (.inr (.inl 12)))) putEnd ?_
  refine dealP (inv_at m κ (c, .inr (.inr (.inr (.inl 12))))) putEnd ?_
  refine dealP (inv_at m κ ((peer c (off 12)), .inr (.inr (.inr (.inr (pairOf c)))))) putEnd ?_
  refine dealP (reached_at m κ (c, .inr (.inr (.inr (.inl 12))))) putEnd ?_
  refine dealL take6 putEnd ?_
  refine dealL take7 putEnd ?_
  refine dealL take8 putEnd ?_
  refine dealL take9 putEnd ?_
  refine dealP (inv_at m κ (c, .inr (.inr (.inl 13)))) putEnd ?_
  refine dealP (inv_at m κ (c, .inr (.inr (.inr (.inl 13))))) putEnd ?_
  refine dealP (inv_at m κ ((peer c (off 13)), .inr (.inr (.inr (.inr (pairOf c)))))) putEnd ?_
  refine dealP (reached_at m κ (c, .inr (.inr (.inr (.inl 13))))) putEnd ?_
  refine dealL take6 putEnd ?_
  refine dealL take7 putEnd ?_
  refine dealL take8 putEnd ?_
  refine dealL take9 putEnd ?_
  refine dealP (inv_at m κ (c, .inr (.inr (.inl 14)))) putEnd ?_
  refine dealP (inv_at m κ (c, .inr (.inr (.inr (.inl 14))))) putEnd ?_
  refine dealP (inv_at m κ ((peer c (off 14)), .inr (.inr (.inr (.inr (pairOf c)))))) putEnd ?_
  refine dealP (reached_at m κ (c, .inr (.inr (.inr (.inl 14))))) putEnd ?_
  refine dealL take6 putEnd ?_
  refine dealL take7L putEnd ?_
  refine dealL take8L putEnd ?_
  refine dealL take9L putEnd ?_
  refine dealP (inv_at m κ (c, .inr (.inr (.inl 15)))) putEnd ?_
  refine dealL take6L putEnd ?_
  refine dealP (inv_at m κ (c, .inr (.inr (.inr (.inr (pairOf (src c (off 0)))))))) putEnd ?_
  refine dealL take10 putEnd ?_
  refine dealP (inv_at m κ (c, .inr (.inr (.inr (.inr (pairOf (src c (off 1)))))))) putEnd ?_
  refine dealL take10 putEnd ?_
  refine dealP (inv_at m κ (c, .inr (.inr (.inr (.inr (pairOf (src c (off 2)))))))) putEnd ?_
  refine dealL take10 putEnd ?_
  refine dealP (inv_at m κ (c, .inr (.inr (.inr (.inr (pairOf (src c (off 3)))))))) putEnd ?_
  refine dealL take10 putEnd ?_
  refine dealP (inv_at m κ (c, .inr (.inr (.inr (.inr (pairOf (src c (off 4)))))))) putEnd ?_
  refine dealL take10 putEnd ?_
  refine dealP (inv_at m κ (c, .inr (.inr (.inr (.inr (pairOf (src c (off 5)))))))) putEnd ?_
  refine dealL take10 putEnd ?_
  refine dealP (inv_at m κ (c, .inr (.inr (.inr (.inr (pairOf (src c (off 6)))))))) putEnd ?_
  refine dealL take10 putEnd ?_
  refine dealP (inv_at m κ (c, .inr (.inr (.inr (.inr (pairOf (src c (off 7)))))))) putEnd ?_
  refine dealL take10 putEnd ?_
  refine dealP (inv_at m κ (c, .inr (.inr (.inr (.inr (pairOf (src c (off 8)))))))) putEnd ?_
  refine dealL take10 putEnd ?_
  refine dealP (inv_at m κ (c, .inr (.inr (.inr (.inr (pairOf (src c (off 9)))))))) putEnd ?_
  refine dealL take10 putEnd ?_
  refine dealP (inv_at m κ (c, .inr (.inr (.inr (.inr (pairOf (src c (off 10)))))))) putEnd ?_
  refine dealL take10 putEnd ?_
  refine dealP (inv_at m κ (c, .inr (.inr (.inr (.inr (pairOf (src c (off 11)))))))) putEnd ?_
  refine dealL take10 putEnd ?_
  refine dealP (inv_at m κ (c, .inr (.inr (.inr (.inr (pairOf (src c (off 12)))))))) putEnd ?_
  refine dealL take10 putEnd ?_
  refine dealP (inv_at m κ (c, .inr (.inr (.inr (.inr (pairOf (src c (off 13)))))))) putEnd ?_
  refine dealL take10 putEnd ?_
  refine dealP (inv_at m κ (c, .inr (.inr (.inr (.inr (pairOf (src c (off 14)))))))) putEnd ?_
  refine dealL take10 putEnd ?_
  refine dealP (inv_at m κ (c, .inr (.inr (.inr (.inr (pairOf c)))))) putEnd ?_
  exact dealFinL

theorem toks_own_all : (bigSep Finset.univ fun c : Dev nD => (toks c : sProp 𝕄)) ⊢ bigSep Finset.univ fun c : Dev nD => ownToks c :=
  bigSep_mono fun c _ => toks_own c
theorem linear_all : (bigSep Finset.univ fun c : Dev nD => iprop((bigSep Finset.univ fun k : CI => (atPos ER (kcell (c, k)) 0 ∅ 0 : sProp 𝕄)) ∗ payToks c))
    ⊢ bigSep Finset.univ fun c : Dev nD => linear c :=
  bigSep_mono fun c _ => linear_intro c
theorem with_records {I : Type} [DecidableEq I] {S : Finset I} {Rc : sProp 𝕄} [BI.Persistent Rc] {Φ Ψ : I → sProp 𝕄}
    (h : ∀ i ∈ S, iprop(Rc ∗ Φ i) ⊢ Ψ i) : iprop(Rc ∗ bigSep S Φ) ⊢ bigSep S Ψ :=
  (sep_mono_left (BI.bigSep_of_persistent S Rc)).trans (by rw [← bigSep_sep']; exact bigSep_mono h)

theorem regroup :
    (bigSep Finset.univ fun c : Dev nD => iprop((bigSep Finset.univ fun k : CI => iprop(∃ κ : ℕ, cellInv ER (rd (W1 m) (W2 m)) κ (kcell (c, k))))
          ∗ (bigSep Finset.univ fun k : CI => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CI => iprop(∃ κ : ℕ, cellInv ER (rd (W1 m) (W2 m)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd (W1 m) (W2 m)) κ (kcell ck) : sProp 𝕄))) $$ HI
  icases HK with ⟨%K, #HI⟩
  ihave Hown := (toks_own_all (F := F)) $$ Htok
  ihave Htk := (toks_around (F := F)) $$ Hown
  iapply (with_records (Rc := records m (nameOf K)) fun c _ =>
    (show iprop(records m (nameOf K) ∗ linear c) ⊢ G' m c from (ghost_intro m (nameOf K) c).trans (by unfold G'; iintro H; iexists (nameOf K); iexact H)))
  isplitr
  · unfold records
    isplitl
    · iapply (Entails.of_eq (bigSep_congr (s := Finset.univ) fun (ck : Dev nD × CI) _ =>
        show (cellInv ER (rd (W1 m) (W2 m)) (K ck) (kcell ck) : sProp 𝕄) = cellInv ER (rd (W1 m) (W2 m)) (nameOf K (kcell ck)) (kcell ck) by rw [nameOf_kcell]))
      iexact HI
    · iexact HR
  · iapply (linear_all (F := F))
    iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- Every device owing one tally on a semaphore of the device a bijection sends it to (the semaphore may depend on the
    ower), the launch deals each device the matching credit on its own semaphore. -/
theorem launchCred_perm (f finv : Dev nD → Dev nD) (h1 : ∀ c, f (finv c) = c) (h2 : ∀ d, finv (f d) = d)
    (sm : Dev nD → SemLoc sig) (n : ℕ) (c : Dev nD) :
    (Pipeline.launchCred (fun d => tallyAt (((f d) : Thread nD τ), sm d) () n) c : sProp 𝕄) ⊢ cred (tallyAt ((c : Thread nD τ), sm (finv c)) () n) := by
  refine (Pipeline.launchCred_elim _ c (sm (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d) : Thread nD τ), sm d) (Finsupp.single () n) ((c : Thread nD τ), sm (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

theorem cred_p1r (c : Dev nD) (s : Fin 16) :
    (Pipeline.launchCred (fun d => tallyAt (dcell (nbr d) (p1rS s)) () N) c : sProp 𝕄) ⊢ cred (tallyAt (dcell c (p1rS s)) () N) :=
  launchCred_perm nbr nbr nbr_nbr nbr_nbr (fun _ => .dma (p1rS s)) N c
theorem cred_p2r (c : Dev nD) (i : Fin 15) :
    (Pipeline.launchCred (fun d => tallyAt (dcell (peer d (off i)) (p2rS (pairOf d))) () N) c : sProp 𝕄)
      ⊢ cred (tallyAt (dcell c (p2rS (pairOf (src c (off i))))) () N) :=
  launchCred_perm (fun d => peer d (off i)) (fun c => src c (off i)) (fun c => peer_src c (off i)) (fun d => src_peer d (off i)) (fun d => .dma (p2rS (pairOf d))) N c
theorem cred_barI (c : Dev nD) (i : Fin 15) :
    (Pipeline.launchCred (fun d => tallyAt (barCell (peer d (off i))) () 1) c : sProp 𝕄) ⊢ cred (tallyAt (barCell c) () 1) :=
  launchCred_perm (fun d => peer d (off i)) (fun c => src c (off i)) (fun c => peer_src c (off i)) (fun d => src_peer d (off i)) (fun _ => .reg barS) 1 c
theorem cred_bar0 (c : Dev nD) :
    (Pipeline.launchCred (fun d => tallyAt (barCell (nbr d)) () 1) c : sProp 𝕄) ⊢ cred (tallyAt (barCell c) () 1) :=
  launchCred_perm nbr nbr nbr_nbr nbr_nbr (fun _ => .reg barS) 1 c
theorem cred_join (g : GSem nD τ sig) (a b s : ℕ) (h : a + b = s) :
    iprop(cred (tallyAt g () a) ∗ cred (tallyAt g () b)) ⊢ (cred (tallyAt g () s) : sProp 𝕄) := by
  rw [← h, ← tallyAt_add]; exact (cred_add _ _).2

/-- The credit of what every device owes the receive cells of `c`: one copy's credit on each. -/
theorem cred_debt (c : Dev nD) : (Pipeline.launchCred (fun d => debt d 0) c : sProp 𝕄)
    ⊢ iprop(cred (tallyAt (dcell c (p2rS (pairOf (src c (off 14))))) () N)
      ∗ cred (tallyAt (dcell c (p2rS (pairOf (src c (off 13))))) () N)
      ∗ cred (tallyAt (dcell c (p2rS (pairOf (src c (off 12))))) () N)
      ∗ cred (tallyAt (dcell c (p2rS (pairOf (src c (off 11))))) () N)
      ∗ cred (tallyAt (dcell c (p2rS (pairOf (src c (off 10))))) () N)
      ∗ cred (tallyAt (dcell c (p2rS (pairOf (src c (off 9))))) () N)
      ∗ cred (tallyAt (dcell c (p2rS (pairOf (src c (off 8))))) () N)
      ∗ cred (tallyAt (dcell c (p2rS (pairOf (src c (off 7))))) () N)
      ∗ cred (tallyAt (dcell c (p2rS (pairOf (src c (off 6))))) () N)
      ∗ cred (tallyAt (dcell c (p2rS (pairOf (src c (off 5))))) () N)
      ∗ cred (tallyAt (dcell c (p2rS (pairOf (src c (off 4))))) () N)
      ∗ cred (tallyAt (dcell c (p2rS (pairOf (src c (off 3))))) () N)
      ∗ cred (tallyAt (dcell c (p2rS (pairOf (src c (off 2))))) () N)
      ∗ cred (tallyAt (dcell c (p2rS (pairOf (src c (off 1))))) () N)
      ∗ cred (tallyAt (dcell c (p2rS (pairOf (src c (off 0))))) () N)
      ∗ cred (tallyAt (dcell c (p1rS 15)) () N)
      ∗ cred (tallyAt (dcell c (p1rS 14)) () N)
      ∗ cred (tallyAt (dcell c (p1rS 13)) () N)
      ∗ cred (tallyAt (dcell c (p1rS 12)) () N)
      ∗ cred (tallyAt (dcell c (p1rS 11)) () N)
      ∗ cred (tallyAt (dcell c (p1rS 10)) () N)
      ∗ cred (tallyAt (dcell c (p1rS 9)) () N)
      ∗ cred (tallyAt (dcell c (p1rS 8)) () N)
      ∗ cred (tallyAt (dcell c (p1rS 7)) () N)
      ∗ cred (tallyAt (dcell c (p1rS 6)) () N)
      ∗ cred (tallyAt (dcell c (p1rS 5)) () N)
      ∗ cred (tallyAt (dcell c (p1rS 4)) () N)
      ∗ cred (tallyAt (dcell c (p1rS 3)) () N)
      ∗ cred (tallyAt (dcell c (p1rS 2)) () N)
      ∗ cred (tallyAt (dcell c (p1rS 1)) () N)
      ∗ cred (tallyAt (dcell c (p1rS 0)) () N)) := by
  have h : (fun d : Dev nD => debt d 0) = fun d => ∑ j ∈ Finset.range 31, tallyAt (debtCellOf d (30 - j)) () N := by
    funext d; unfold debt; rfl
  rw [h, Pipeline.launchCred_sum, bigSep_eq_bigSepL_of_eq (List.range 31) (by decide) (by decide)]
  show bigSepL [0, 1, 2, 3, 4, 5, 6, 7, 8, 9, 10, 11, 12, 13, 14, 15, 16, 17, 18, 19, 20, 21, 22, 23, 24, 25, 26, 27, 28, 29, 30] (fun j => (Pipeline.launchCred (fun d => tallyAt (debtCellOf d (30 - j)) () N) c : sProp 𝕄)) ⊢ _
  simp only [bigSepL_cons_cons, bigSepL_singleton]
  exact BI.sep_mono (cred_p2r c 14) (BI.sep_mono (cred_p2r c 13) (BI.sep_mono (cred_p2r c 12) (BI.sep_mono (cred_p2r c 11) (BI.sep_mono (cred_p2r c 10) (BI.sep_mono (cred_p2r c 9) (BI.sep_mono (cred_p2r c 8) (BI.sep_mono (cred_p2r c 7) (BI.sep_mono (cred_p2r c 6) (BI.sep_mono (cred_p2r c 5) (BI.sep_mono (cred_p2r c 4) (BI.sep_mono (cred_p2r c 3) (BI.sep_mono (cred_p2r c 2) (BI.sep_mono (cred_p2r c 1) (BI.sep_mono (cred_p2r c 0) (BI.sep_mono (cred_p1r c 15) (BI.sep_mono (cred_p1r c 14) (BI.sep_mono (cred_p1r c 13) (BI.sep_mono (cred_p1r c 12) (BI.sep_mono (cred_p1r c 11) (BI.sep_mono (cred_p1r c 10) (BI.sep_mono (cred_p1r c 9) (BI.sep_mono (cred_p1r c 8) (BI.sep_mono (cred_p1r c 7) (BI.sep_mono (cred_p1r c 6) (BI.sep_mono (cred_p1r c 5) (BI.sep_mono (cred_p1r c 4) (BI.sep_mono (cred_p1r c 3) (BI.sep_mono (cred_p1r c 2) (BI.sep_mono (cred_p1r c 1) (cred_p1r c 0))))))))))))))))))))))))))))))

theorem creds (c : Dev nD) : (Pipeline.launchCred O₀ c : sProp 𝕄) ⊢ credits (F := F) c := by
  show (Pipeline.launchCred (fun d => debt d 0 + tallyAt (barCell (peer d (off 14))) () 1 + tallyAt (barCell (peer d (off 13))) () 1 + tallyAt (barCell (peer d (off 12))) () 1 + tallyAt (barCell (peer d (off 11))) () 1 + tallyAt (barCell (peer d (off 10))) () 1 + tallyAt (barCell (peer d (off 9))) () 1 + tallyAt (barCell (peer d (off 8))) () 1 + tallyAt (barCell (peer d (off 7))) () 1 + tallyAt (barCell (peer d (off 6))) () 1 + tallyAt (barCell (peer d (off 5))) () 1 + tallyAt (barCell (peer d (off 4))) () 1 + tallyAt (barCell (peer d (off 3))) () 1 + tallyAt (barCell (peer d (off 2))) () 1 + tallyAt (barCell (peer d (off 1))) () 1 + tallyAt (barCell (peer d (off 0))) () 1 + tallyAt (barCell (nbr d)) () 1) c : sProp 𝕄) ⊢ _
  rw [Pipeline.launchCred_add, Pipeline.launchCred_add, Pipeline.launchCred_add, Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_add, Pipeline.launchCred_add, Pipeline.launchCred_add, Pipeline.launchCred_add]
  unfold credits
  iintro ⟨⟨⟨⟨⟨⟨⟨⟨⟨⟨⟨⟨⟨⟨⟨⟨HD, B14⟩, B13⟩, B12⟩, B11⟩, B10⟩, B9⟩, B8⟩, B7⟩, B6⟩, B5⟩, B4⟩, B3⟩, B2⟩, B1⟩, B0⟩, Bn⟩
  ihave HD' := (cred_debt (F := F) c) $$ HD
  icases HD' with ⟨R14, R13, R12, R11, R10, R9, R8, R7, R6, R5, R4, R3, R2, R1, R0, P15, P14, P13, P12, P11, P10, P9, P8, P7, P6, P5, P4, P3, P2, P1, P0⟩
  ihave Cn := (cred_bar0 (F := F) c) $$ Bn
  ihave C0 := (cred_barI (F := F) c 0) $$ B0
  ihave C1 := (cred_barI (F := F) c 1) $$ B1
  ihave C2 := (cred_barI (F := F) c 2) $$ B2
  ihave C3 := (cred_barI (F := F) c 3) $$ B3
  ihave C4 := (cred_barI (F := F) c 4) $$ B4
  ihave C5 := (cred_barI (F := F) c 5) $$ B5
  ihave C6 := (cred_barI (F := F) c 6) $$ B6
  ihave C7 := (cred_barI (F := F) c 7) $$ B7
  ihave C8 := (cred_barI (F := F) c 8) $$ B8
  ihave C9 := (cred_barI (F := F) c 9) $$ B9
  ihave C10 := (cred_barI (F := F) c 10) $$ B10
  ihave C11 := (cred_barI (F := F) c 11) $$ B11
  ihave C12 := (cred_barI (F := F) c 12) $$ B12
  ihave C13 := (cred_barI (F := F) c 13) $$ B13
  ihave C14 := (cred_barI (F := F) c 14) $$ B14
  ihave A2 := (cred_join (F := F) (barCell c) 1 1 2 rfl) $$ [Cn C0]
  · isplitl [Cn]; · iexact Cn
    iexact C0
  ihave A3 := (cred_join (F := F) (barCell c) 2 1 3 rfl) $$ [A2 C1]
  · isplitl [A2]; · iexact A2
    iexact C1
  ihave A4 := (cred_join (F := F) (barCell c) 3 1 4 rfl) $$ [A3 C2]
  · isplitl [A3]; · iexact A3
    iexact C2
  ihave A5 := (cred_join (F := F) (barCell c) 4 1 5 rfl) $$ [A4 C3]
  · isplitl [A4]; · iexact A4
    iexact C3
  ihave A6 := (cred_join (F := F) (barCell c) 5 1 6 rfl) $$ [A5 C4]
  · isplitl [A5]; · iexact A5
    iexact C4
  ihave A7 := (cred_join (F := F) (barCell c) 6 1 7 rfl) $$ [A6 C5]
  · isplitl [A6]; · iexact A6
    iexact C5
  ihave A8 := (cred_join (F := F) (barCell c) 7 1 8 rfl) $$ [A7 C6]
  · isplitl [A7]; · iexact A7
    iexact C6
  ihave A9 := (cred_join (F := F) (barCell c) 8 1 9 rfl) $$ [A8 C7]
  · isplitl [A8]; · iexact A8
    iexact C7
  ihave A10 := (cred_join (F := F) (barCell c) 9 1 10 rfl) $$ [A9 C8]
  · isplitl [A9]; · iexact A9
    iexact C8
  ihave A11 := (cred_join (F := F) (barCell c) 10 1 11 rfl) $$ [A10 C9]
  · isplitl [A10]; · iexact A10
    iexact C9
  ihave A12 := (cred_join (F := F) (barCell c) 11 1 12 rfl) $$ [A11 C10]
  · isplitl [A11]; · iexact A11
    iexact C10
  ihave A13 := (cred_join (F := F) (barCell c) 12 1 13 rfl) $$ [A12 C11]
  · isplitl [A12]; · iexact A12
    iexact C11
  ihave A14 := (cred_join (F := F) (barCell c) 13 1 14 rfl) $$ [A13 C12]
  · isplitl [A13]; · iexact A13
    iexact C12
  ihave A15 := (cred_join (F := F) (barCell c) 14 1 15 rfl) $$ [A14 C13]
  · isplitl [A14]; · iexact A14
    iexact C13
  ihave A16 := (cred_join (F := F) (barCell c) 15 1 16 rfl) $$ [A15 C14]
  · isplitl [A15]; · iexact A15
    iexact C14
  isplitl [A16]; · iexact A16
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  isplitl [P14]; · iexact P14
  isplitl [P15]; · iexact P15
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iexact R14

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost' (c : Dev nD) : sProp 𝕄 :=
  iprop(Φ₁ c ∗ (dats m 0 c).owesAt () t₀.succ ∗ stg c cc0_stg0_0 (xstg m c) ∗ stg c cc0_stg1_0 (wstg m c) ∗ stg c cc0_stg2_0 (outAt m c))

theorem pick5 {A X1 X2 X3 X4 X5 : sProp 𝕄} : iprop(X1 ∗ X2 ∗ X3 ∗ X4 ∗ (A ∗ X5)) ⊢ iprop(A ∗ (X1 ∗ X2 ∗ X3 ∗ X4 ∗ X5)) := by
  iintro ⟨H1, H2, H3, H4, ⟨HA, H5⟩⟩
  isplitl [HA]; · iexact HA
  isplitl [H1]; · iexact H1
  isplitl [H2]; · iexact H2
  isplitl [H3]; · iexact H3
  isplitl [H4]; · iexact H4
  iexact H5
theorem pick5L {A X1 X2 X3 X4 : sProp 𝕄} : iprop(X1 ∗ X2 ∗ X3 ∗ X4 ∗ A) ⊢ iprop(A ∗ (X1 ∗ X2 ∗ X3 ∗ X4 ∗ emp)) := by
  iintro ⟨H1, H2, H3, H4, HA⟩
  isplitl [HA]; · iexact HA
  isplitl [H1]; · iexact H1
  isplitl [H2]; · iexact H2
  isplitl [H3]; · iexact H3
  isplitl [H4]; · iexact H4
  iempintro
theorem dealFin2 {A : sProp 𝕄} : iprop(emp ∗ A ∗ emp ∗ emp ∗ emp) ⊢ A := by
  iintro ⟨-, HA, -, -, -⟩; iexact HA

/-- The start's buffers from the four scratch buffers' slots, in the order the body takes them, and the three staging buffers. -/
theorem buffers_of_parts (c : Dev nD) (fx : Buf (Elt F) ((Memref.whole cc0_stg0_0 : Memref sig .tc .vmem S1024x32 .f32).view.loc (c : Thread nD τ))) (fw : Buf (Elt F) ((Memref.whole cc0_stg1_0 : Memref sig .tc .vmem S32x1024 .f32).view.loc (c : Thread nD τ))) (fo : Buf (Elt F) ((Memref.whole cc0_stg2_0 : Memref sig .tc .vmem S32x1024 .f32).view.loc (c : Thread nD τ)))
    (f0 : Buf (Elt F) (stageM.view.loc (c : Thread nD τ))) (f1 : Buf (Elt F) (inboxM.view.loc (c : Thread nD τ))) (f2 : Buf (Elt F) (outboxM.view.loc (c : Thread nD τ))) (f3 : Buf (Elt F) (gatherM.view.loc (c : Thread nD τ))) :
    iprop(((((c : Thread nD τ).loc cc0_scratch1) ↦[slotSet_inbox 0]{fullShare} f1)
      ∗ (((c : Thread nD τ).loc cc0_scratch1) ↦[slotSet_inbox 1]{fullShare} f1)
      ∗ (((c : Thread nD τ).loc cc0_scratch1) ↦[slotSet_inbox 2]{fullShare} f1)
      ∗ (((c : Thread nD τ).loc cc0_scratch1) ↦[slotSet_inbox 3]{fullShare} f1)
      ∗ (((c : Thread nD τ).loc cc0_scratch1) ↦[slotSet_inbox 4]{fullShare} f1)
      ∗ (((c : Thread nD τ).loc cc0_scratch1) ↦[slotSet_inbox 5]{fullShare} f1)
      ∗ (((c : Thread nD τ).loc cc0_scratch1) ↦[slotSet_inbox 6]{fullShare} f1)
      ∗ (((c : Thread nD τ).loc cc0_scratch1) ↦[slotSet_inbox 7]{fullShare} f1)
      ∗ (((c : Thread nD τ).loc cc0_scratch1) ↦[slotSet_inbox 8]{fullShare} f1)
      ∗ (((c : Thread nD τ).loc cc0_scratch1) ↦[slotSet_inbox 9]{fullShare} f1)
      ∗ (((c : Thread nD τ).loc cc0_scratch1) ↦[slotSet_inbox 10]{fullShare} f1)
      ∗ (((c : Thread nD τ).loc cc0_scratch1) ↦[slotSet_inbox 11]{fullShare} f1)
      ∗ (((c : Thread nD τ).loc cc0_scratch1) ↦[slotSet_inbox 12]{fullShare} f1)
      ∗ (((c : Thread nD τ).loc cc0_scratch1) ↦[slotSet_inbox 13]{fullShare} f1)
      ∗ (((c : Thread nD τ).loc cc0_scratch1) ↦[slotSet_inbox 14]{fullShare} f1)
      ∗ (((c : Thread nD τ).loc cc0_scratch1) ↦[slotSet_inbox 15]{fullShare} f1))
      ∗ ((((c : Thread nD τ).loc cc0_scratch3) ↦[slotSet_gather (pgE c 0)]{fullShare} f3)
      ∗ (((c : Thread nD τ).loc cc0_scratch3) ↦[slotSet_gather (pgE c 1)]{fullShare} f3)
      ∗ (((c : Thread nD τ).loc cc0_scratch3) ↦[slotSet_gather (pgE c 2)]{fullShare} f3)
      ∗ (((c : Thread nD τ).loc cc0_scratch3) ↦[slotSet_gather (pgE c 3)]{fullShare} f3)
      ∗ (((c : Thread nD τ).loc cc0_scratch3) ↦[slotSet_gather (pgE c 4)]{fullShare} f3)
      ∗ (((c : Thread nD τ).loc cc0_scratch3) ↦[slotSet_gather (pgE c 5)]{fullShare} f3)
      ∗ (((c : Thread nD τ).loc cc0_scratch3) ↦[slotSet_gather (pgE c 6)]{fullShare} f3)
      ∗ (((c : Thread nD τ).loc cc0_scratch3) ↦[slotSet_gather (pgE c 7)]{fullShare} f3)
      ∗ (((c : Thread nD τ).loc cc0_scratch3) ↦[slotSet_gather (pgE c 8)]{fullShare} f3)
      ∗ (((c : Thread nD τ).loc cc0_scratch3) ↦[slotSet_gather (pgE c 9)]{fullShare} f3)
      ∗ (((c : Thread nD τ).loc cc0_scratch3) ↦[slotSet_gather (pgE c 10)]{fullShare} f3)
      ∗ (((c : Thread nD τ).loc cc0_scratch3) ↦[slotSet_gather (pgE c 11)]{fullShare} f3)
      ∗ (((c : Thread nD τ).loc cc0_scratch3) ↦[slotSet_gather (pgE c 12)]{fullShare} f3)
      ∗ (((c : Thread nD τ).loc cc0_scratch3) ↦[slotSet_gather (pgE c 13)]{fullShare} f3)
      ∗ (((c : Thread nD τ).loc cc0_scratch3) ↦[slotSet_gather (pgE c 14)]{fullShare} f3)
      ∗ (((c : Thread nD τ).loc cc0_scratch3) ↦[slotSet_gather (pgE c 15)]{fullShare} f3))
      ∗ ((((c : Thread nD τ).loc cc0_scratch0) ↦[slotSet_stage 0]{fullShare} f0)
      ∗ (((c : Thread nD τ).loc cc0_scratch0) ↦[slotSet_stage 1]{fullShare} f0)
      ∗ (((c : Thread nD τ).loc cc0_scratch0) ↦[slotSet_stage 2]{fullShare} f0)
      ∗ (((c : Thread nD τ).loc cc0_scratch0) ↦[slotSet_stage 3]{fullShare} f0)
      ∗ (((c : Thread nD τ).loc cc0_scratch0) ↦[slotSet_stage 4]{fullShare} f0)
      ∗ (((c : Thread nD τ).loc cc0_scratch0) ↦[slotSet_stage 5]{fullShare} f0)
      ∗ (((c : Thread nD τ).loc cc0_scratch0) ↦[slotSet_stage 6]{fullShare} f0)
      ∗ (((c : Thread nD τ).loc cc0_scratch0) ↦[slotSet_stage 7]{fullShare} f0)
      ∗ (((c : Thread nD τ).loc cc0_scratch0) ↦[slotSet_stage 8]{fullShare} f0)
      ∗ (((c : Thread nD τ).loc cc0_scratch0) ↦[slotSet_stage 9]{fullShare} f0)
      ∗ (((c : Thread nD τ).loc cc0_scratch0) ↦[slotSet_stage 10]{fullShare} f0)
      ∗ (((c : Thread nD τ).loc cc0_scratch0) ↦[slotSet_stage 11]{fullShare} f0)
      ∗ (((c : Thread nD τ).loc cc0_scratch0) ↦[slotSet_stage 12]{fullShare} f0)
      ∗ (((c : Thread nD τ).loc cc0_scratch0) ↦[slotSet_stage 13]{fullShare} f0)
      ∗ (((c : Thread nD τ).loc cc0_scratch0) ↦[slotSet_stage 14]{fullShare} f0)
      ∗ (((c : Thread nD τ).loc cc0_scratch0) ↦[slotSet_stage 15]{fullShare} f0))
      ∗ ((((c : Thread nD τ).loc cc0_scratch2) ↦[slotSet_outbox 0]{fullShare} f2)
      ∗ (((c : Thread nD τ).loc cc0_scratch2) ↦[slotSet_outbox 1]{fullShare} f2)
      ∗ (((c : Thread nD τ).loc cc0_scratch2) ↦[slotSet_outbox 2]{fullShare} f2)
      ∗ (((c : Thread nD τ).loc cc0_scratch2) ↦[slotSet_outbox 3]{fullShare} f2)
      ∗ (((c : Thread nD τ).loc cc0_scratch2) ↦[slotSet_outbox 4]{fullShare} f2)
      ∗ (((c : Thread nD τ).loc cc0_scratch2) ↦[slotSet_outbox 5]{fullShare} f2)
      ∗ (((c : Thread nD τ).loc cc0_scratch2) ↦[slotSet_outbox 6]{fullShare} f2)
      ∗ (((c : Thread nD τ).loc cc0_scratch2) ↦[slotSet_outbox 7]{fullShare} f2)
      ∗ (((c : Thread nD τ).loc cc0_scratch2) ↦[slotSet_outbox 8]{fullShare} f2)
      ∗ (((c : Thread nD τ).loc cc0_scratch2) ↦[slotSet_outbox 9]{fullShare} f2)
      ∗ (((c : Thread nD τ).loc cc0_scratch2) ↦[slotSet_outbox 10]{fullShare} f2)
      ∗ (((c : Thread nD τ).loc cc0_scratch2) ↦[slotSet_outbox 11]{fullShare} f2)
      ∗ (((c : Thread nD τ).loc cc0_scratch2) ↦[slotSet_outbox 12]{fullShare} f2)
      ∗ (((c : Thread nD τ).loc cc0_scratch2) ↦[slotSet_outbox 13]{fullShare} f2)
      ∗ (((c : Thread nD τ).loc cc0_scratch2) ↦[slotSet_outbox 14]{fullShare} f2))
      ∗ ((((c : Thread nD τ).loc cc0_stg0_0) ↦{fullShare} fx) ∗ (((c : Thread nD τ).loc cc0_stg1_0) ↦{fullShare} fw) ∗ (((c : Thread nD τ).loc cc0_stg2_0) ↦{fullShare} fo)))
      ⊢ buffers c fx fw fo f0 f1 f2 f3 := by
  unfold buffers
  simp only [Memref.view_whole, View.set_whole]
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1 putEnd ?_
  refine deal pick1L putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick2 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3 putEnd ?_
  refine deal pick3L putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4 putEnd ?_
  refine deal pick4L putEnd ?_
  refine deal pick5 putEnd ?_
  refine deal pick5 putEnd ?_
  refine deal pick5L putEnd ?_
  exact dealFin2

/-- The scratch buffers cut into their slots. -/
theorem scr4_cut (c : Dev nD) (fx : Buf (Elt F) ((Memref.whole cc0_stg0_0 : Memref sig .tc .vmem S1024x32 .f32).view.loc (c : Thread nD τ)))
    (fw : Buf (Elt F) ((Memref.whole cc0_stg1_0 : Memref sig .tc .vmem S32x1024 .f32).view.loc (c : Thread nD τ)))
    (fo : Buf (Elt F) ((Memref.whole cc0_stg2_0 : Memref sig .tc .vmem S32x1024 .f32).view.loc (c : Thread nD τ))) :
    iprop(scr4 (F := F) c ∗ (((c : Thread nD τ).loc cc0_stg0_0) ↦{fullShare} fx) ∗ (((c : Thread nD τ).loc cc0_stg1_0) ↦{fullShare} fw) ∗ (((c : Thread nD τ).loc cc0_stg2_0) ↦{fullShare} fo))
      ⊢ iprop(∃ f0 f1 f2 f3, buffers c fx fw fo f0 f1 f2 f3) := by
  unfold scr4
  iintro ⟨⟨⟨%f0, H0⟩, ⟨%f1, H1⟩, ⟨%f2, H2⟩, ⟨%f3, H3⟩⟩, Hx, Hw, Ho⟩
  iexists f0; iexists f1; iexists f2; iexists f3
  iapply (buffers_of_parts c fx fw fo f0 f1 f2 f3)
  isplitl [H1]
  · iapply (Entails.of_eq ((cut_inbox c f1).trans (bigSep_fin16 _))); iexact H1
  isplitl [H3]
  · iapply (Entails.of_eq (((cut_gather c f3).trans (bigSep_univ_equiv (pgE c) _)).trans (bigSep_fin16 _))); iexact H3
  isplitl [H0]
  · iapply (Entails.of_eq ((cut_stage c f0).trans (bigSep_fin16 _))); iexact H0
  isplitl [H2]
  · iapply (Entails.of_eq ((cut_outbox c f2).trans (bigSep_fin15 _))); iexact H2
  isplitl [Hx]; · iexact Hx
  isplitl [Hw]; · iexact Hw
  iexact Ho

/-- The start regrouped by the stretch of the body that uses each piece. -/
theorem bodyPre_intro (κ : GSem nD τ sig → ℕ) (c : Dev nD) (W : Waits sig Unit) (fx fw fo f0 f1 f2 f3) :
    iprop(ghost m κ c ∗ credits c ∗ mayWaits c ∗ buffers c fx fw fo f0 f1 f2 f3 ∗ owes (c : Thread nD τ) (O₀ c) W)
      ⊢ bodyPre m κ c W fx fw fo f0 f1 f2 f3 := by
  unfold bodyPre gBar gP1_0 gP1_1 gP1_2 gP1_3 gP1_4 gP1_5 gP1_6 gP1_7 gP1_8 gP1_9 gP1_10 gP1_11 gP1_12 gP1_13 gP1_14 gP1_15 gP2_0 gP2_1 gP2_2 gP2_3 gP2_4 gP2_5 gP2_6 gP2_7 gP2_8 gP2_9 gP2_10 gP2_11 gP2_12 gP2_13 gP2_14 gP1last gFin_0 gFin_1 gFin_2 gFin_3 gFin_4 gFin_5 gFin_6 gFin_7 gFin_8 gFin_9 gFin_10 gFin_11 gFin_12 gFin_13 gFin_14 gMisc ghost credits mayWaits buffers
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick1 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick4 putMid ?_
  refine deal pick1 putMid ?_
  refine deal pick2 putMid ?_
  refine deal pick3 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3 putMid ?_
  refine deal pick1 putMid ?_
  refine deal pick1 putMid ?_
  refine deal pick1 putMid ?_
  refine deal pick4 putEnd ?_
  refine deal pick1 putMid ?_
  refine deal pick1 putMid ?_
  refine deal pick1 putMid ?_
  refine deal pick1 putMid ?_
  refine deal pick1 putMid ?_
  refine deal pick2 putMid ?_
  refine deal pick3L putMid ?_
  refine deal pick1 putMid ?_
  refine deal pick1 putMid ?_
  refine deal pick1 putMid ?_
  refine deal pick4 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2 putEnd ?_
  refine deal pick1 putMid ?_
  refine deal pick1 putMid ?_
  refine deal pick2L putEnd ?_
  refine deal pick1 putEnd ?_
  refine deal pick1L putEnd ?_
  refine deal pick4 putEnd ?_
  refine deal pick4 putEnd ?_
  refine deal pick4 putEnd ?_
  refine deal pick4L putEnd ?_
  exact dealFin

theorem ownSems0_chain (c : Dev nD) :
    (Pipeline.ownSems0 (Ix := Unit) (Name := ℕ) (U := UU) (Lvl := ℕ) (Val := Elt F) (τ := τ) osem c : sProp 𝕄)
      = iprop((semVal (dcell c (p1sS 0)) 0 ∗ semVal (dcell c (p1sS 1)) 0 ∗ semVal (dcell c (p1sS 2)) 0 ∗ semVal (dcell c (p1sS 3)) 0 ∗ semVal (dcell c (p1sS 4)) 0 ∗ semVal (dcell c (p1sS 5)) 0 ∗ semVal (dcell c (p1sS 6)) 0 ∗ semVal (dcell c (p1sS 7)) 0 ∗ semVal (dcell c (p1sS 8)) 0 ∗ semVal (dcell c (p1sS 9)) 0 ∗ semVal (dcell c (p1sS 10)) 0 ∗ semVal (dcell c (p1sS 11)) 0 ∗ semVal (dcell c (p1sS 12)) 0 ∗ semVal (dcell c (p1sS 13)) 0 ∗ semVal (dcell c (p1sS 14)) 0 ∗ semVal (dcell c (p1sS 15)) 0)
        ∗ (semVal (dcell c (p1rS 0)) 0 ∗ semVal (dcell c (p1rS 1)) 0 ∗ semVal (dcell c (p1rS 2)) 0 ∗ semVal (dcell c (p1rS 3)) 0 ∗ semVal (dcell c (p1rS 4)) 0 ∗ semVal (dcell c (p1rS 5)) 0 ∗ semVal (dcell c (p1rS 6)) 0 ∗ semVal (dcell c (p1rS 7)) 0 ∗ semVal (dcell c (p1rS 8)) 0 ∗ semVal (dcell c (p1rS 9)) 0 ∗ semVal (dcell c (p1rS 10)) 0 ∗ semVal (dcell c (p1rS 11)) 0 ∗ semVal (dcell c (p1rS 12)) 0 ∗ semVal (dcell c (p1rS 13)) 0 ∗ semVal (dcell c (p1rS 14)) 0 ∗ semVal (dcell c (p1rS 15)) 0)
        ∗ (semVal (dcell c (p2sS 0)) 0 ∗ semVal (dcell c (p2sS 1)) 0 ∗ semVal (dcell c (p2sS 2)) 0 ∗ semVal (dcell c (p2sS 3)) 0 ∗ semVal (dcell c (p2sS 4)) 0 ∗ semVal (dcell c (p2sS 5)) 0 ∗ semVal (dcell c (p2sS 6)) 0 ∗ semVal (dcell c (p2sS 7)) 0 ∗ semVal (dcell c (p2sS 8)) 0 ∗ semVal (dcell c (p2sS 9)) 0 ∗ semVal (dcell c (p2sS 10)) 0 ∗ semVal (dcell c (p2sS 11)) 0 ∗ semVal (dcell c (p2sS 12)) 0 ∗ semVal (dcell c (p2sS 13)) 0 ∗ semVal (dcell c (p2sS 14)) 0)
        ∗ (semVal (dcell c (p2rS (sg c 0))) 0 ∗ semVal (dcell c (p2rS (sg c 1))) 0 ∗ semVal (dcell c (p2rS (sg c 2))) 0 ∗ semVal (dcell c (p2rS (sg c 3))) 0 ∗ semVal (dcell c (p2rS (sg c 4))) 0 ∗ semVal (dcell c (p2rS (sg c 5))) 0 ∗ semVal (dcell c (p2rS (sg c 6))) 0 ∗ semVal (dcell c (p2rS (sg c 7))) 0 ∗ semVal (dcell c (p2rS (sg c 8))) 0 ∗ semVal (dcell c (p2rS (sg c 9))) 0 ∗ semVal (dcell c (p2rS (sg c 10))) 0 ∗ semVal (dcell c (p2rS (sg c 11))) 0 ∗ semVal (dcell c (p2rS (sg c 12))) 0 ∗ semVal (dcell c (p2rS (sg c 13))) 0 ∗ semVal (dcell c (p2rS (sg c 14))) 0 ∗ semVal (dcell c (p2rS (sg c 15))) 0)) := by
  unfold Pipeline.ownSems0
  rw [bigSep_DI, bigSep_univ_equiv (sgE c) (fun k : Fin 16 => (semVal ((c : Thread nD τ), osem (.inr (.inr (.inr k)))) 0 : sProp 𝕄))]
  simp only [bigSep_fin15, bigSep_fin16]
  rfl

/-- What the body leaves, as the pipeline takes it back. -/
theorem post_exit (c : Dev nD) : bodyPost m c (xstg m c) (wstg m c) ⊢ bodyPost' m c := by
  unfold bodyPost bodyPost' Φ₁ scr4
  rw [ownSems0_chain]
  simp only [Memref.view_whole, View.set_whole]
  iintro ⟨Hout, Hx, Hw, H0, H1, H2, H3, Sa0, Sa1, Sa2, Sa3, Sa4, Sa5, Sa6, Sa7, Sa8, Sa9, Sa10, Sa11, Sa12, Sa13, Sa14, Sa15, Sb0, Sb1, Sb2, Sb3, Sb4, Sb5, Sb6, Sb7, Sb8, Sb9, Sb10, Sb11, Sb12, Sb13, Sb14, Sb15, Sc0, Sc1, Sc2, Sc3, Sc4, Sc5, Sc6, Sc7, Sc8, Sc9, Sc10, Sc11, Sc12, Sc13, Sc14, Sd0, Sd1, Sd2, Sd3, Sd4, Sd5, Sd6, Sd7, Sd8, Sd9, Sd10, Sd11, Sd12, Sd13, Sd14, Sd15, ⟨%W, HO⟩⟩
  isplitl [H0 H1 H2 H3 Sa0 Sa1 Sa2 Sa3 Sa4 Sa5 Sa6 Sa7 Sa8 Sa9 Sa10 Sa11 Sa12 Sa13 Sa14 Sa15 Sb0 Sb1 Sb2 Sb3 Sb4 Sb5 Sb6 Sb7 Sb8 Sb9 Sb10 Sb11 Sb12 Sb13 Sb14 Sb15 Sc0 Sc1 Sc2 Sc3 Sc4 Sc5 Sc6 Sc7 Sc8 Sc9 Sc10 Sc11 Sc12 Sc13 Sc14 Sd0 Sd1 Sd2 Sd3 Sd4 Sd5 Sd6 Sd7 Sd8 Sd9 Sd10 Sd11 Sd12 Sd13 Sd14 Sd15]
  · isplitl [Sa0 Sa1 Sa2 Sa3 Sa4 Sa5 Sa6 Sa7 Sa8 Sa9 Sa10 Sa11 Sa12 Sa13 Sa14 Sa15 Sb0 Sb1 Sb2 Sb3 Sb4 Sb5 Sb6 Sb7 Sb8 Sb9 Sb10 Sb11 Sb12 Sb13 Sb14 Sb15 Sc0 Sc1 Sc2 Sc3 Sc4 Sc5 Sc6 Sc7 Sc8 Sc9 Sc10 Sc11 Sc12 Sc13 Sc14 Sd0 Sd1 Sd2 Sd3 Sd4 Sd5 Sd6 Sd7 Sd8 Sd9 Sd10 Sd11 Sd12 Sd13 Sd14 Sd15]
    · isplitl [Sa0 Sa1 Sa2 Sa3 Sa4 Sa5 Sa6 Sa7 Sa8 Sa9 Sa10 Sa11 Sa12 Sa13 Sa14 Sa15]
      ·
        isplitl [Sa0]; · iexact Sa0
        isplitl [Sa1]; · iexact Sa1
        isplitl [Sa2]; · iexact Sa2
        isplitl [Sa3]; · iexact Sa3
        isplitl [Sa4]; · iexact Sa4
        isplitl [Sa5]; · iexact Sa5
        isplitl [Sa6]; · iexact Sa6
        isplitl [Sa7]; · iexact Sa7
        isplitl [Sa8]; · iexact Sa8
        isplitl [Sa9]; · iexact Sa9
        isplitl [Sa10]; · iexact Sa10
        isplitl [Sa11]; · iexact Sa11
        isplitl [Sa12]; · iexact Sa12
        isplitl [Sa13]; · iexact Sa13
        isplitl [Sa14]; · iexact Sa14
        iexact Sa15
      isplitl [Sb0 Sb1 Sb2 Sb3 Sb4 Sb5 Sb6 Sb7 Sb8 Sb9 Sb10 Sb11 Sb12 Sb13 Sb14 Sb15]
      ·
        isplitl [Sb0]; · iexact Sb0
        isplitl [Sb1]; · iexact Sb1
        isplitl [Sb2]; · iexact Sb2
        isplitl [Sb3]; · iexact Sb3
        isplitl [Sb4]; · iexact Sb4
        isplitl [Sb5]; · iexact Sb5
        isplitl [Sb6]; · iexact Sb6
        isplitl [Sb7]; · iexact Sb7
        isplitl [Sb8]; · iexact Sb8
        isplitl [Sb9]; · iexact Sb9
        isplitl [Sb10]; · iexact Sb10
        isplitl [Sb11]; · iexact Sb11
        isplitl [Sb12]; · iexact Sb12
        isplitl [Sb13]; · iexact Sb13
        isplitl [Sb14]; · iexact Sb14
        iexact Sb15
      isplitl [Sc0 Sc1 Sc2 Sc3 Sc4 Sc5 Sc6 Sc7 Sc8 Sc9 Sc10 Sc11 Sc12 Sc13 Sc14]
      ·
        isplitl [Sc0]; · iexact Sc0
        isplitl [Sc1]; · iexact Sc1
        isplitl [Sc2]; · iexact Sc2
        isplitl [Sc3]; · iexact Sc3
        isplitl [Sc4]; · iexact Sc4
        isplitl [Sc5]; · iexact Sc5
        isplitl [Sc6]; · iexact Sc6
        isplitl [Sc7]; · iexact Sc7
        isplitl [Sc8]; · iexact Sc8
        isplitl [Sc9]; · iexact Sc9
        isplitl [Sc10]; · iexact Sc10
        isplitl [Sc11]; · iexact Sc11
        isplitl [Sc12]; · iexact Sc12
        isplitl [Sc13]; · iexact Sc13
        iexact Sc14
      isplitl [Sd0]; · iexact Sd0
      isplitl [Sd1]; · iexact Sd1
      isplitl [Sd2]; · iexact Sd2
      isplitl [Sd3]; · iexact Sd3
      isplitl [Sd4]; · iexact Sd4
      isplitl [Sd5]; · iexact Sd5
      isplitl [Sd6]; · iexact Sd6
      isplitl [Sd7]; · iexact Sd7
      isplitl [Sd8]; · iexact Sd8
      isplitl [Sd9]; · iexact Sd9
      isplitl [Sd10]; · iexact Sd10
      isplitl [Sd11]; · iexact Sd11
      isplitl [Sd12]; · iexact Sd12
      isplitl [Sd13]; · iexact Sd13
      isplitl [Sd14]; · iexact Sd14
      iexact Sd15
    · isplitl [H0]; · iexact H0
      isplitl [H1]; · iexact H1
      isplitl [H2]; · iexact H2
      iexact H3
  isplitl [HO]
  · unfold Dat.owesAt Pipeline.owesWithin
    rw [show (dats m 0 c).owed t₀.succ = 0 from rfl]
    iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem fetch_0 (t : Fin cfg0.N) : (cfg0.win (0 : Fin 3)).fetch t = true := fetch0_0 t
theorem fetch_1 (t : Fin cfg0.N) : (cfg0.win (1 : Fin 3)).fetch t = true := fetch0_1 t

/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _)
      cc0_scratch4 cc0_scratch5 cc0_scratch6 cc0_scratch7) (fun _ => bodyPost' m c)
  unfold bodyPre' Φ₀ start
  iintro ⟨⟨⟨⟨%κ, Hg⟩, Hcr, #Hlev⟩, Hscr⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch_0 t₀)]; rfl
  have hw : g1 = wstg m c := by rw [hg1]; unfold Dat.before; rw [if_pos (fetch_1 t₀)]; rfl
  subst hx; subst hw
  unfold Dat.owesAt Pipeline.owesWithin
  icases Ho with ⟨%W, %hW, HO⟩
  rw [show (dats m 0 c).owed t₀.castSucc = O₀ c from rfl]
  ihave Hb := (scr4_cut c (xstg m c) (wstg m c) g2) $$ [Hscr Hx Hw Hout]
  · isplitl [Hscr]; · iexact Hscr
    isplitl [Hx]; · iexact Hx
    isplitl [Hw]; · iexact Hw
    iexact Hout
  icases Hb with ⟨%f0, %f1, %f2, %f3, Hb⟩
  iapply (sound_body m κ c W g2 f0 f1 f2 f3 fun _ => bodyPost' m c)
  isplitr []
  · iapply (bodyPre_intro m κ c W (xstg m c) (wstg m c) g2 f0 f1 f2 f3)
    isplitl [Hg]; · iexact Hg
    isplitl [Hcr]; · iexact Hcr
    isplitr; · iapply (mayWaits_intro c); iexact Hlev
    isplitl [Hb]; · iexact Hb
    iexact HO
  · iintro H; iapply (post_exit m c); iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr4
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ scr4
  iintro ⟨Hs, Hr⟩
  isplitr; · iempintro
  isplitl [Hs]; · iexact Hs
  iexact Hr

/-! ## The run -/

/-- What the flush of a device's result leaves in its result array. -/
def finalOut (c : Dev nD) : Buf (Elt F) ((c : Thread nD τ).loc main_v1) :=
  (win0_2.blk (0 : Fin 1)).view.write (Elt F) (m ((c : Thread nD τ).loc main_v1)) (outAt m c) Finset.univ

/-- At the compiled mesh of 32 devices, for any float values, from any memory with zero counters: every weakly fair
    execution of @main terminates, and every final state has each device's result array at the computed contents
    and its two argument arrays unchanged. -/
theorem run_main : θ_run defs (onTc (τ := τ) (main (F := F))) ⟨m, fun _ => 0, ρ⟩ (fun r => ∀ c : Dev nD,
      r.2.mem ((c.tc : Thread nD τ).loc main_v1) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => by
      refine ⟨?_, ?_, ?_⟩
      · refine ((h c).1 (2 : Fin 3)).trans ?_
        have h1 := (dats m 0 c).arrAt_succ (2 : Fin 3) t₀
        rw [if_pos (flush0_2 t₀)] at h1
        exact h1
      · exact ((h c).1 (0 : Fin 3)).trans ((dats m 0 c).arrAt_in (0 : Fin 3) rfl _)
      · exact ((h c).1 (1 : Fin 3)).trans ((dats m 0 c).arrAt_in (1 : Fin 3) rfl _))

end Launch

end Cert.Kernel.Proto

end
-- ==== Proof.RefRun.lean ====
/-
  The reference: one matrix product of the whole arrays on one device.  Its run ends with the
  product in the result array and both arguments as they were; dropping the result gives its frame.
-/
import proofs.«900440_g7700000000000441_dist_gemm_rs_m1024_k1024_n1024_f32_none_v7x_i32_1_alg».proof.Defs
import proofs.«900440_g7700000000000441_dist_gemm_rs_m1024_k1024_n1024_f32_none_v7x_i32_1_alg».proof.Proof.Gen.ReferenceIdeal.Read
import proofs.«900440_g7700000000000441_dist_gemm_rs_m1024_k1024_n1024_f32_none_v7x_i32_1_alg».proof.Proof.Gen.Pre_finite_inputs_ReferenceIdeal

noncomputable section

namespace Cert.Proof.Ref

open Idealize.ShloMosaic Idealize.ShloMosaic.TcCoe Idealize.SL.Sem

/-- The reference terminates, faults nowhere and leaves its two arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The reference's run with its result named: the product of the two whole arrays. -/
theorem run_ri (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD).tc : Thread Cert.ReferenceIdeal.nD Cert.ReferenceIdeal.τ).loc Cert.ReferenceIdeal.main_v0)
          = Cert.ReferenceIdeal.Read.val_main_v0 (F := Ideal)
              (m (((0 : Dev Cert.ReferenceIdeal.nD).tc : Thread Cert.ReferenceIdeal.nD Cert.ReferenceIdeal.τ).loc Cert.ReferenceIdeal.main_arg0))
              (m (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0)
          = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1)
          = m (((0 : Dev Cert.ReferenceIdeal.nD).tc : Thread Cert.ReferenceIdeal.nD Cert.ReferenceIdeal.τ).loc Cert.ReferenceIdeal.main_arg1)) :=
  (θ_run Cert.ReferenceIdeal.defs _ _).mono (fun _ h => h 0) (Cert.ReferenceIdeal.Value.run (F := Ideal) m ρ)

/-- info: 'Cert.Proof.Ref.frame_ri' depends on axioms: [propext, Classical.choice, Quot.sound] -/
#guard_msgs in #print axioms frame_ri

end Cert.Proof.Ref

end
-- ==== Proof.Claims.lean ====
/-
  The claims of the idealized kernel from its run: its frame, and its value against the reference —
  each device's result is its row block of the reference's product.
-/
import proofs.«900440_g7700000000000441_dist_gemm_rs_m1024_k1024_n1024_f32_none_v7x_i32_1_alg».proof.Defs
import proofs.«900440_g7700000000000441_dist_gemm_rs_m1024_k1024_n1024_f32_none_v7x_i32_1_alg».proof.Proof.Launch
import proofs.«900440_g7700000000000441_dist_gemm_rs_m1024_k1024_n1024_f32_none_v7x_i32_1_alg».proof.Proof.LaunchK
import proofs.«900440_g7700000000000441_dist_gemm_rs_m1024_k1024_n1024_f32_none_v7x_i32_1_alg».proof.Proof.Send
import proofs.«900440_g7700000000000441_dist_gemm_rs_m1024_k1024_n1024_f32_none_v7x_i32_1_alg».proof.Proof.RefRun
import proofs.«900440_g7700000000000441_dist_gemm_rs_m1024_k1024_n1024_f32_none_v7x_i32_1_alg».proof.Proof.Value
import proofs.«900440_g7700000000000441_dist_gemm_rs_m1024_k1024_n1024_f32_none_v7x_i32_1_alg».proof.Proof.Gen.Pre_finite_inputs_Kernel

set_option maxRecDepth 16384

noncomputable section

namespace Cert.Proof.Claims

open Idealize.ShloMosaic Idealize.ShloMosaic.TcCoe Idealize.SL.Sem
open Cert.KernelIdeal Cert.KernelIdeal.Gen Cert.KernelIdeal.Proto Cert.KernelIdeal.Val

/-- The idealized kernel terminates, faults nowhere and leaves its two arguments unchanged. -/
theorem frame_pi : Cert.frame_KernelIdeal := fun m ρ _ =>
  (θ_run Cert.KernelIdeal.defs _ _).mono (fun _ h c => (h c).2) (run_main (F := Ideal) m ρ)

/-- The reference's frame. -/
theorem frame_ri : Cert.frame_ReferenceIdeal := Cert.Proof.Ref.frame_ri

/-- The ideal pass rewrote nothing. -/
theorem preserves : Cert.preserves_Kernel_KernelIdeal := trivial

section Value

variable {F : FTy → Type} [FloatOps F] (m : (ℓ : Loc nD τ sig) → Buf (Elt F) ℓ)

/-- The one block of an argument's window is the whole array. -/
theorem xstg_eq (c : Dev nD) : xstg m c = m ((c : Thread nD τ).loc main_arg0) := by
  unfold xstg
  exact Memref.read_access_unit_zero (Elt F) main_arg0 (funext fun a => Nat.zero_mul _) _ _
theorem wstg_eq (c : Dev nD) : wstg m c = m ((c : Thread nD τ).loc main_arg1) := by
  unfold wstg
  exact Memref.read_access_unit_zero (Elt F) main_arg1 (funext fun a => Nat.zero_mul _) _ _
/-- The flush of the one block replaces the whole result array. -/
theorem finalOut_eq (c : Dev nD) : finalOut m c = outAt m c := by
  unfold finalOut
  exact Memref.write_access_unit_zero_univ (Elt F) main_v1 (funext fun a => Nat.zero_mul _) _ _ _

end Value

/-- At the ideal instance, from memories where each device holds its column block of `x` and its row block of `w`:
    both programs run, each device's result ends as its row block of the reference's product, and all arguments
    end unchanged. -/
theorem algebraic : Cert.algebraic_KernelIdeal_ReferenceIdeal := fun m ρ m' ρ' _ hagree => by
  refine ⟨_, ?_, Cert.Proof.Ref.run_ri m' ρ'⟩
  refine (θ_run Cert.KernelIdeal.defs _ _).mono (fun r h c => ⟨(h c).1.trans ?_, (h c).2⟩) (run_main (F := Ideal) m ρ)
  rw [finalOut_eq]
  unfold outAt
  exact out_eq_block_of _ _ c (by decide) (by decide) (xsOf m) (wsOf m)
    (fun d => by rw [xsOf_val, xstg_eq]; exact (hagree d).1)
    (fun d => by rw [wsOf_val, wstg_eq]; exact (hagree d).2)

/-- info: 'Cert.Proof.Claims.frame_ri' depends on axioms: [propext, Classical.choice, Quot.sound] -/
#guard_msgs in #print axioms frame_ri

/-- The kernel as printed terminates, faults nowhere and leaves its two arguments unchanged. -/
theorem frame_p : Cert.frame_Kernel := fun m ρ _ =>
  (θ_run Cert.Kernel.defs _ _).mono (fun _ h c => (h c).2) (Cert.Kernel.Proto.run_main (F := Bits) m ρ)

end Cert.Proof.Claims

end
-- ==== Proof.lean ====
/-
  The certificate of the fused product and reduce-scatter on 32 devices.

  Every device holds 32 columns of `x` and 32 rows of `w`.  It multiplies, for each of the 32 row blocks,
  the block's rows of its `x` columns with its `w` rows; the 32 devices' products for one row block add
  up to that block of `x · w`.  The kernel adds them in two phases — partners exchange sixteen products,
  then every device sends fifteen sums of two to the devices that own those rows — and device `c` ends
  with rows `[32 c, 32 c + 32)` of the product: over the extended reals a sum does not depend on its
  order, so this is the block of the reference's single product (Proof/Value.lean).  The three frames
  and the run with the result named come from the launch theorem applied to one device's body
  (Proof/Body.lean over the schedule of Proof/Sched.lean; Proof/Launch.lean), at the word-level
  program through the same text with the program's name changed.  The ideal pass rewrote nothing, so
  `preserves` is `True`.
-/
import proofs.«900440_g7700000000000441_dist_gemm_rs_m1024_k1024_n1024_f32_none_v7x_i32_1_alg».proof.Defs
import proofs.«900440_g7700000000000441_dist_gemm_rs_m1024_k1024_n1024_f32_none_v7x_i32_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.Claims.frame_p, Cert.Proof.Claims.frame_pi, Cert.Proof.Claims.frame_ri, Cert.Proof.Claims.preserves, Cert.Proof.Claims.algebraic⟩

end Cert.Proof

end
